-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S65536x1024 : Shape := ⟨2, ![65536, 1024]⟩
abbrev S1024 : Shape := ⟨1, ![1024]⟩
abbrev S1 : Shape := ⟨1, ![1]⟩
abbrev S1023 : Shape := ⟨1, ![1023]⟩
abbrev S2048 : Shape := ⟨1, ![2048]⟩
abbrev S1x1024 : Shape := ⟨2, ![1, 1024]⟩
abbrev S16x1024 : Shape := ⟨2, ![16, 1024]⟩
abbrev S256x1024 : Shape := ⟨2, ![256, 1024]⟩
abbrev S1024x1024 : Shape := ⟨2, ![1024, 1024]⟩
abbrev S2048x1024 : Shape := ⟨2, ![2048, 1024]⟩

abbrev nBuf : Space → Nat
  | .hbm => 2126
  | .vmem => 5
  | .smem => 0
  | _ => 0

abbrev hbmTy0_0 (i : Nat) : BufTy := match i % 128 with
  | 0 => ⟨S65536x1024, .f32⟩
  | 1 => ⟨S1024, .f32⟩
  | 2 => ⟨S1, .f32⟩
  | 3 => ⟨S1023, .f32⟩
  | 4 => ⟨S1023, .f32⟩
  | 5 => ⟨S1024, .f32⟩
  | 6 => ⟨S2048, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_2 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_3 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_4 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_5 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_6 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_7 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S65536x1024, .f32⟩

abbrev hbmTy0_8 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_9 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_10 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_11 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_12 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_13 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_14 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_15 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S65536x1024, .f32⟩

abbrev hbmTy0_16 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S16x1024, .f32⟩
  | 8 => ⟨S16x1024, .f32⟩
  | 9 => ⟨S16x1024, .f32⟩
  | 10 => ⟨S16x1024, .f32⟩
  | 11 => ⟨S16x1024, .f32⟩
  | 12 => ⟨S16x1024, .f32⟩
  | 13 => ⟨S16x1024, .f32⟩
  | 14 => ⟨S16x1024, .f32⟩
  | 15 => ⟨S16x1024, .f32⟩
  | 16 => ⟨S16x1024, .f32⟩
  | 17 => ⟨S16x1024, .f32⟩
  | 18 => ⟨S16x1024, .f32⟩
  | 19 => ⟨S16x1024, .f32⟩
  | 20 => ⟨S16x1024, .f32⟩
  | 21 => ⟨S16x1024, .f32⟩
  | 22 => ⟨S16x1024, .f32⟩
  | 23 => ⟨S16x1024, .f32⟩
  | 24 => ⟨S16x1024, .f32⟩
  | 25 => ⟨S16x1024, .f32⟩
  | 26 => ⟨S16x1024, .f32⟩
  | 27 => ⟨S16x1024, .f32⟩
  | 28 => ⟨S16x1024, .f32⟩
  | 29 => ⟨S16x1024, .f32⟩
  | 30 => ⟨S16x1024, .f32⟩
  | 31 => ⟨S16x1024, .f32⟩
  | 32 => ⟨S16x1024, .f32⟩
  | 33 => ⟨S16x1024, .f32⟩
  | 34 => ⟨S16x1024, .f32⟩
  | 35 => ⟨S16x1024, .f32⟩
  | 36 => ⟨S16x1024, .f32⟩
  | 37 => ⟨S16x1024, .f32⟩
  | 38 => ⟨S16x1024, .f32⟩
  | 39 => ⟨S16x1024, .f32⟩
  | 40 => ⟨S16x1024, .f32⟩
  | 41 => ⟨S16x1024, .f32⟩
  | 42 => ⟨S16x1024, .f32⟩
  | 43 => ⟨S16x1024, .f32⟩
  | 44 => ⟨S16x1024, .f32⟩
  | 45 => ⟨S16x1024, .f32⟩
  | 46 => ⟨S16x1024, .f32⟩
  | 47 => ⟨S16x1024, .f32⟩
  | 48 => ⟨S16x1024, .f32⟩
  | 49 => ⟨S16x1024, .f32⟩
  | 50 => ⟨S16x1024, .f32⟩
  | 51 => ⟨S16x1024, .f32⟩
  | 52 => ⟨S16x1024, .f32⟩
  | 53 => ⟨S16x1024, .f32⟩
  | 54 => ⟨S16x1024, .f32⟩
  | 55 => ⟨S16x1024, .f32⟩
  | 56 => ⟨S16x1024, .f32⟩
  | 57 => ⟨S16x1024, .f32⟩
  | 58 => ⟨S16x1024, .f32⟩
  | 59 => ⟨S16x1024, .f32⟩
  | 60 => ⟨S16x1024, .f32⟩
  | 61 => ⟨S16x1024, .f32⟩
  | 62 => ⟨S16x1024, .f32⟩
  | 63 => ⟨S16x1024, .f32⟩
  | 64 => ⟨S16x1024, .f32⟩
  | 65 => ⟨S16x1024, .f32⟩
  | 66 => ⟨S16x1024, .f32⟩
  | 67 => ⟨S16x1024, .f32⟩
  | 68 => ⟨S16x1024, .f32⟩
  | 69 => ⟨S16x1024, .f32⟩
  | 70 => ⟨S16x1024, .f32⟩
  | 71 => ⟨S256x1024, .f32⟩
  | 72 => ⟨S256x1024, .f32⟩
  | 73 => ⟨S256x1024, .f32⟩
  | 74 => ⟨S256x1024, .f32⟩
  | 75 => ⟨S1024x1024, .f32⟩
  | 76 => ⟨S1024x1024, .bf16⟩
  | 77 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | _ => ⟨S65536x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩
abbrev main_v210 : Ref sig .tc := ⟨.hbm, 212, rfl⟩
abbrev main_v211 : Ref sig .tc := ⟨.hbm, 213, rfl⟩
abbrev main_v212 : Ref sig .tc := ⟨.hbm, 214, rfl⟩
abbrev main_v213 : Ref sig .tc := ⟨.hbm, 215, rfl⟩
abbrev main_v214 : Ref sig .tc := ⟨.hbm, 216, rfl⟩
abbrev main_v215 : Ref sig .tc := ⟨.hbm, 217, rfl⟩
abbrev main_v216 : Ref sig .tc := ⟨.hbm, 218, rfl⟩
abbrev main_v217 : Ref sig .tc := ⟨.hbm, 219, rfl⟩
abbrev main_v218 : Ref sig .tc := ⟨.hbm, 220, rfl⟩
abbrev main_v219 : Ref sig .tc := ⟨.hbm, 221, rfl⟩
abbrev main_v220 : Ref sig .tc := ⟨.hbm, 222, rfl⟩
abbrev main_v221 : Ref sig .tc := ⟨.hbm, 223, rfl⟩
abbrev main_v222 : Ref sig .tc := ⟨.hbm, 224, rfl⟩
abbrev main_v223 : Ref sig .tc := ⟨.hbm, 225, rfl⟩
abbrev main_v224 : Ref sig .tc := ⟨.hbm, 226, rfl⟩
abbrev main_v225 : Ref sig .tc := ⟨.hbm, 227, rfl⟩
abbrev main_v226 : Ref sig .tc := ⟨.hbm, 228, rfl⟩
abbrev main_v227 : Ref sig .tc := ⟨.hbm, 229, rfl⟩
abbrev main_v228 : Ref sig .tc := ⟨.hbm, 230, rfl⟩
abbrev main_v229 : Ref sig .tc := ⟨.hbm, 231, rfl⟩
abbrev main_v230 : Ref sig .tc := ⟨.hbm, 232, rfl⟩
abbrev main_v231 : Ref sig .tc := ⟨.hbm, 233, rfl⟩
abbrev main_v232 : Ref sig .tc := ⟨.hbm, 234, rfl⟩
abbrev main_v233 : Ref sig .tc := ⟨.hbm, 235, rfl⟩
abbrev main_v234 : Ref sig .tc := ⟨.hbm, 236, rfl⟩
abbrev main_v235 : Ref sig .tc := ⟨.hbm, 237, rfl⟩
abbrev main_v236 : Ref sig .tc := ⟨.hbm, 238, rfl⟩
abbrev main_v237 : Ref sig .tc := ⟨.hbm, 239, rfl⟩
abbrev main_v238 : Ref sig .tc := ⟨.hbm, 240, rfl⟩
abbrev main_v239 : Ref sig .tc := ⟨.hbm, 241, rfl⟩
abbrev main_v240 : Ref sig .tc := ⟨.hbm, 242, rfl⟩
abbrev main_v241 : Ref sig .tc := ⟨.hbm, 243, rfl⟩
abbrev main_v242 : Ref sig .tc := ⟨.hbm, 244, rfl⟩
abbrev main_v243 : Ref sig .tc := ⟨.hbm, 245, rfl⟩
abbrev main_v244 : Ref sig .tc := ⟨.hbm, 246, rfl⟩
abbrev main_v245 : Ref sig .tc := ⟨.hbm, 247, rfl⟩
abbrev main_v246 : Ref sig .tc := ⟨.hbm, 248, rfl⟩
abbrev main_v247 : Ref sig .tc := ⟨.hbm, 249, rfl⟩
abbrev main_v248 : Ref sig .tc := ⟨.hbm, 250, rfl⟩
abbrev main_v249 : Ref sig .tc := ⟨.hbm, 251, rfl⟩
abbrev main_v250 : Ref sig .tc := ⟨.hbm, 252, rfl⟩
abbrev main_v251 : Ref sig .tc := ⟨.hbm, 253, rfl⟩
abbrev main_v252 : Ref sig .tc := ⟨.hbm, 254, rfl⟩
abbrev main_v253 : Ref sig .tc := ⟨.hbm, 255, rfl⟩
abbrev main_v254 : Ref sig .tc := ⟨.hbm, 256, rfl⟩
abbrev main_v255 : Ref sig .tc := ⟨.hbm, 257, rfl⟩
abbrev main_v256 : Ref sig .tc := ⟨.hbm, 258, rfl⟩
abbrev main_v257 : Ref sig .tc := ⟨.hbm, 259, rfl⟩
abbrev main_v258 : Ref sig .tc := ⟨.hbm, 260, rfl⟩
abbrev main_v259 : Ref sig .tc := ⟨.hbm, 261, rfl⟩
abbrev main_v260 : Ref sig .tc := ⟨.hbm, 262, rfl⟩
abbrev main_v261 : Ref sig .tc := ⟨.hbm, 263, rfl⟩
abbrev main_v262 : Ref sig .tc := ⟨.hbm, 264, rfl⟩
abbrev main_v263 : Ref sig .tc := ⟨.hbm, 265, rfl⟩
abbrev main_v264 : Ref sig .tc := ⟨.hbm, 266, rfl⟩
abbrev main_v265 : Ref sig .tc := ⟨.hbm, 267, rfl⟩
abbrev main_v266 : Ref sig .tc := ⟨.hbm, 268, rfl⟩
abbrev main_v267 : Ref sig .tc := ⟨.hbm, 269, rfl⟩
abbrev main_v268 : Ref sig .tc := ⟨.hbm, 270, rfl⟩
abbrev main_v269 : Ref sig .tc := ⟨.hbm, 271, rfl⟩
abbrev main_v270 : Ref sig .tc := ⟨.hbm, 272, rfl⟩
abbrev main_v271 : Ref sig .tc := ⟨.hbm, 273, rfl⟩
abbrev main_v272 : Ref sig .tc := ⟨.hbm, 274, rfl⟩
abbrev main_v273 : Ref sig .tc := ⟨.hbm, 275, rfl⟩
abbrev main_v274 : Ref sig .tc := ⟨.hbm, 276, rfl⟩
abbrev main_v275 : Ref sig .tc := ⟨.hbm, 277, rfl⟩
abbrev main_v276 : Ref sig .tc := ⟨.hbm, 278, rfl⟩
abbrev main_v277 : Ref sig .tc := ⟨.hbm, 279, rfl⟩
abbrev main_v278 : Ref sig .tc := ⟨.hbm, 280, rfl⟩
abbrev main_v279 : Ref sig .tc := ⟨.hbm, 281, rfl⟩
abbrev main_v280 : Ref sig .tc := ⟨.hbm, 282, rfl⟩
abbrev main_v281 : Ref sig .tc := ⟨.hbm, 283, rfl⟩
abbrev main_v282 : Ref sig .tc := ⟨.hbm, 284, rfl⟩
abbrev main_v283 : Ref sig .tc := ⟨.hbm, 285, rfl⟩
abbrev main_v284 : Ref sig .tc := ⟨.hbm, 286, rfl⟩
abbrev main_v285 : Ref sig .tc := ⟨.hbm, 287, rfl⟩
abbrev main_v286 : Ref sig .tc := ⟨.hbm, 288, rfl⟩
abbrev main_v287 : Ref sig .tc := ⟨.hbm, 289, rfl⟩
abbrev main_v288 : Ref sig .tc := ⟨.hbm, 290, rfl⟩
abbrev main_v289 : Ref sig .tc := ⟨.hbm, 291, rfl⟩
abbrev main_v290 : Ref sig .tc := ⟨.hbm, 292, rfl⟩
abbrev main_v291 : Ref sig .tc := ⟨.hbm, 293, rfl⟩
abbrev main_v292 : Ref sig .tc := ⟨.hbm, 294, rfl⟩
abbrev main_v293 : Ref sig .tc := ⟨.hbm, 295, rfl⟩
abbrev main_v294 : Ref sig .tc := ⟨.hbm, 296, rfl⟩
abbrev main_v295 : Ref sig .tc := ⟨.hbm, 297, rfl⟩
abbrev main_v296 : Ref sig .tc := ⟨.hbm, 298, rfl⟩
abbrev main_v297 : Ref sig .tc := ⟨.hbm, 299, rfl⟩
abbrev main_v298 : Ref sig .tc := ⟨.hbm, 300, rfl⟩
abbrev main_v299 : Ref sig .tc := ⟨.hbm, 301, rfl⟩
abbrev main_v300 : Ref sig .tc := ⟨.hbm, 302, rfl⟩
abbrev main_v301 : Ref sig .tc := ⟨.hbm, 303, rfl⟩
abbrev main_v302 : Ref sig .tc := ⟨.hbm, 304, rfl⟩
abbrev main_v303 : Ref sig .tc := ⟨.hbm, 305, rfl⟩
abbrev main_v304 : Ref sig .tc := ⟨.hbm, 306, rfl⟩
abbrev main_v305 : Ref sig .tc := ⟨.hbm, 307, rfl⟩
abbrev main_v306 : Ref sig .tc := ⟨.hbm, 308, rfl⟩
abbrev main_v307 : Ref sig .tc := ⟨.hbm, 309, rfl⟩
abbrev main_v308 : Ref sig .tc := ⟨.hbm, 310, rfl⟩
abbrev main_v309 : Ref sig .tc := ⟨.hbm, 311, rfl⟩
abbrev main_v310 : Ref sig .tc := ⟨.hbm, 312, rfl⟩
abbrev main_v311 : Ref sig .tc := ⟨.hbm, 313, rfl⟩
abbrev main_v312 : Ref sig .tc := ⟨.hbm, 314, rfl⟩
abbrev main_v313 : Ref sig .tc := ⟨.hbm, 315, rfl⟩
abbrev main_v314 : Ref sig .tc := ⟨.hbm, 316, rfl⟩
abbrev main_v315 : Ref sig .tc := ⟨.hbm, 317, rfl⟩
abbrev main_v316 : Ref sig .tc := ⟨.hbm, 318, rfl⟩
abbrev main_v317 : Ref sig .tc := ⟨.hbm, 319, rfl⟩
abbrev main_v318 : Ref sig .tc := ⟨.hbm, 320, rfl⟩
abbrev main_v319 : Ref sig .tc := ⟨.hbm, 321, rfl⟩
abbrev main_v320 : Ref sig .tc := ⟨.hbm, 322, rfl⟩
abbrev main_v321 : Ref sig .tc := ⟨.hbm, 323, rfl⟩
abbrev main_v322 : Ref sig .tc := ⟨.hbm, 324, rfl⟩
abbrev main_v323 : Ref sig .tc := ⟨.hbm, 325, rfl⟩
abbrev main_v324 : Ref sig .tc := ⟨.hbm, 326, rfl⟩
abbrev main_v325 : Ref sig .tc := ⟨.hbm, 327, rfl⟩
abbrev main_v326 : Ref sig .tc := ⟨.hbm, 328, rfl⟩
abbrev main_v327 : Ref sig .tc := ⟨.hbm, 329, rfl⟩
abbrev main_v328 : Ref sig .tc := ⟨.hbm, 330, rfl⟩
abbrev main_v329 : Ref sig .tc := ⟨.hbm, 331, rfl⟩
abbrev main_v330 : Ref sig .tc := ⟨.hbm, 332, rfl⟩
abbrev main_v331 : Ref sig .tc := ⟨.hbm, 333, rfl⟩
abbrev main_v332 : Ref sig .tc := ⟨.hbm, 334, rfl⟩
abbrev main_v333 : Ref sig .tc := ⟨.hbm, 335, rfl⟩
abbrev main_v334 : Ref sig .tc := ⟨.hbm, 336, rfl⟩
abbrev main_v335 : Ref sig .tc := ⟨.hbm, 337, rfl⟩
abbrev main_v336 : Ref sig .tc := ⟨.hbm, 338, rfl⟩
abbrev main_v337 : Ref sig .tc := ⟨.hbm, 339, rfl⟩
abbrev main_v338 : Ref sig .tc := ⟨.hbm, 340, rfl⟩
abbrev main_v339 : Ref sig .tc := ⟨.hbm, 341, rfl⟩
abbrev main_v340 : Ref sig .tc := ⟨.hbm, 342, rfl⟩
abbrev main_v341 : Ref sig .tc := ⟨.hbm, 343, rfl⟩
abbrev main_v342 : Ref sig .tc := ⟨.hbm, 344, rfl⟩
abbrev main_v343 : Ref sig .tc := ⟨.hbm, 345, rfl⟩
abbrev main_v344 : Ref sig .tc := ⟨.hbm, 346, rfl⟩
abbrev main_v345 : Ref sig .tc := ⟨.hbm, 347, rfl⟩
abbrev main_v346 : Ref sig .tc := ⟨.hbm, 348, rfl⟩
abbrev main_v347 : Ref sig .tc := ⟨.hbm, 349, rfl⟩
abbrev main_v348 : Ref sig .tc := ⟨.hbm, 350, rfl⟩
abbrev main_v349 : Ref sig .tc := ⟨.hbm, 351, rfl⟩
abbrev main_v350 : Ref sig .tc := ⟨.hbm, 352, rfl⟩
abbrev main_v351 : Ref sig .tc := ⟨.hbm, 353, rfl⟩
abbrev main_v352 : Ref sig .tc := ⟨.hbm, 354, rfl⟩
abbrev main_v353 : Ref sig .tc := ⟨.hbm, 355, rfl⟩
abbrev main_v354 : Ref sig .tc := ⟨.hbm, 356, rfl⟩
abbrev main_v355 : Ref sig .tc := ⟨.hbm, 357, rfl⟩
abbrev main_v356 : Ref sig .tc := ⟨.hbm, 358, rfl⟩
abbrev main_v357 : Ref sig .tc := ⟨.hbm, 359, rfl⟩
abbrev main_v358 : Ref sig .tc := ⟨.hbm, 360, rfl⟩
abbrev main_v359 : Ref sig .tc := ⟨.hbm, 361, rfl⟩
abbrev main_v360 : Ref sig .tc := ⟨.hbm, 362, rfl⟩
abbrev main_v361 : Ref sig .tc := ⟨.hbm, 363, rfl⟩
abbrev main_v362 : Ref sig .tc := ⟨.hbm, 364, rfl⟩
abbrev main_v363 : Ref sig .tc := ⟨.hbm, 365, rfl⟩
abbrev main_v364 : Ref sig .tc := ⟨.hbm, 366, rfl⟩
abbrev main_v365 : Ref sig .tc := ⟨.hbm, 367, rfl⟩
abbrev main_v366 : Ref sig .tc := ⟨.hbm, 368, rfl⟩
abbrev main_v367 : Ref sig .tc := ⟨.hbm, 369, rfl⟩
abbrev main_v368 : Ref sig .tc := ⟨.hbm, 370, rfl⟩
abbrev main_v369 : Ref sig .tc := ⟨.hbm, 371, rfl⟩
abbrev main_v370 : Ref sig .tc := ⟨.hbm, 372, rfl⟩
abbrev main_v371 : Ref sig .tc := ⟨.hbm, 373, rfl⟩
abbrev main_v372 : Ref sig .tc := ⟨.hbm, 374, rfl⟩
abbrev main_v373 : Ref sig .tc := ⟨.hbm, 375, rfl⟩
abbrev main_v374 : Ref sig .tc := ⟨.hbm, 376, rfl⟩
abbrev main_v375 : Ref sig .tc := ⟨.hbm, 377, rfl⟩
abbrev main_v376 : Ref sig .tc := ⟨.hbm, 378, rfl⟩
abbrev main_v377 : Ref sig .tc := ⟨.hbm, 379, rfl⟩
abbrev main_v378 : Ref sig .tc := ⟨.hbm, 380, rfl⟩
abbrev main_v379 : Ref sig .tc := ⟨.hbm, 381, rfl⟩
abbrev main_v380 : Ref sig .tc := ⟨.hbm, 382, rfl⟩
abbrev main_v381 : Ref sig .tc := ⟨.hbm, 383, rfl⟩
abbrev main_v382 : Ref sig .tc := ⟨.hbm, 384, rfl⟩
abbrev main_v383 : Ref sig .tc := ⟨.hbm, 385, rfl⟩
abbrev main_v384 : Ref sig .tc := ⟨.hbm, 386, rfl⟩
abbrev main_v385 : Ref sig .tc := ⟨.hbm, 387, rfl⟩
abbrev main_v386 : Ref sig .tc := ⟨.hbm, 388, rfl⟩
abbrev main_v387 : Ref sig .tc := ⟨.hbm, 389, rfl⟩
abbrev main_v388 : Ref sig .tc := ⟨.hbm, 390, rfl⟩
abbrev main_v389 : Ref sig .tc := ⟨.hbm, 391, rfl⟩
abbrev main_v390 : Ref sig .tc := ⟨.hbm, 392, rfl⟩
abbrev main_v391 : Ref sig .tc := ⟨.hbm, 393, rfl⟩
abbrev main_v392 : Ref sig .tc := ⟨.hbm, 394, rfl⟩
abbrev main_v393 : Ref sig .tc := ⟨.hbm, 395, rfl⟩
abbrev main_v394 : Ref sig .tc := ⟨.hbm, 396, rfl⟩
abbrev main_v395 : Ref sig .tc := ⟨.hbm, 397, rfl⟩
abbrev main_v396 : Ref sig .tc := ⟨.hbm, 398, rfl⟩
abbrev main_v397 : Ref sig .tc := ⟨.hbm, 399, rfl⟩
abbrev main_v398 : Ref sig .tc := ⟨.hbm, 400, rfl⟩
abbrev main_v399 : Ref sig .tc := ⟨.hbm, 401, rfl⟩
abbrev main_v400 : Ref sig .tc := ⟨.hbm, 402, rfl⟩
abbrev main_v401 : Ref sig .tc := ⟨.hbm, 403, rfl⟩
abbrev main_v402 : Ref sig .tc := ⟨.hbm, 404, rfl⟩
abbrev main_v403 : Ref sig .tc := ⟨.hbm, 405, rfl⟩
abbrev main_v404 : Ref sig .tc := ⟨.hbm, 406, rfl⟩
abbrev main_v405 : Ref sig .tc := ⟨.hbm, 407, rfl⟩
abbrev main_v406 : Ref sig .tc := ⟨.hbm, 408, rfl⟩
abbrev main_v407 : Ref sig .tc := ⟨.hbm, 409, rfl⟩
abbrev main_v408 : Ref sig .tc := ⟨.hbm, 410, rfl⟩
abbrev main_v409 : Ref sig .tc := ⟨.hbm, 411, rfl⟩
abbrev main_v410 : Ref sig .tc := ⟨.hbm, 412, rfl⟩
abbrev main_v411 : Ref sig .tc := ⟨.hbm, 413, rfl⟩
abbrev main_v412 : Ref sig .tc := ⟨.hbm, 414, rfl⟩
abbrev main_v413 : Ref sig .tc := ⟨.hbm, 415, rfl⟩
abbrev main_v414 : Ref sig .tc := ⟨.hbm, 416, rfl⟩
abbrev main_v415 : Ref sig .tc := ⟨.hbm, 417, rfl⟩
abbrev main_v416 : Ref sig .tc := ⟨.hbm, 418, rfl⟩
abbrev main_v417 : Ref sig .tc := ⟨.hbm, 419, rfl⟩
abbrev main_v418 : Ref sig .tc := ⟨.hbm, 420, rfl⟩
abbrev main_v419 : Ref sig .tc := ⟨.hbm, 421, rfl⟩
abbrev main_v420 : Ref sig .tc := ⟨.hbm, 422, rfl⟩
abbrev main_v421 : Ref sig .tc := ⟨.hbm, 423, rfl⟩
abbrev main_v422 : Ref sig .tc := ⟨.hbm, 424, rfl⟩
abbrev main_v423 : Ref sig .tc := ⟨.hbm, 425, rfl⟩
abbrev main_v424 : Ref sig .tc := ⟨.hbm, 426, rfl⟩
abbrev main_v425 : Ref sig .tc := ⟨.hbm, 427, rfl⟩
abbrev main_v426 : Ref sig .tc := ⟨.hbm, 428, rfl⟩
abbrev main_v427 : Ref sig .tc := ⟨.hbm, 429, rfl⟩
abbrev main_v428 : Ref sig .tc := ⟨.hbm, 430, rfl⟩
abbrev main_v429 : Ref sig .tc := ⟨.hbm, 431, rfl⟩
abbrev main_v430 : Ref sig .tc := ⟨.hbm, 432, rfl⟩
abbrev main_v431 : Ref sig .tc := ⟨.hbm, 433, rfl⟩
abbrev main_v432 : Ref sig .tc := ⟨.hbm, 434, rfl⟩
abbrev main_v433 : Ref sig .tc := ⟨.hbm, 435, rfl⟩
abbrev main_v434 : Ref sig .tc := ⟨.hbm, 436, rfl⟩
abbrev main_v435 : Ref sig .tc := ⟨.hbm, 437, rfl⟩
abbrev main_v436 : Ref sig .tc := ⟨.hbm, 438, rfl⟩
abbrev main_v437 : Ref sig .tc := ⟨.hbm, 439, rfl⟩
abbrev main_v438 : Ref sig .tc := ⟨.hbm, 440, rfl⟩
abbrev main_v439 : Ref sig .tc := ⟨.hbm, 441, rfl⟩
abbrev main_v440 : Ref sig .tc := ⟨.hbm, 442, rfl⟩
abbrev main_v441 : Ref sig .tc := ⟨.hbm, 443, rfl⟩
abbrev main_v442 : Ref sig .tc := ⟨.hbm, 444, rfl⟩
abbrev main_v443 : Ref sig .tc := ⟨.hbm, 445, rfl⟩
abbrev main_v444 : Ref sig .tc := ⟨.hbm, 446, rfl⟩
abbrev main_v445 : Ref sig .tc := ⟨.hbm, 447, rfl⟩
abbrev main_v446 : Ref sig .tc := ⟨.hbm, 448, rfl⟩
abbrev main_v447 : Ref sig .tc := ⟨.hbm, 449, rfl⟩
abbrev main_v448 : Ref sig .tc := ⟨.hbm, 450, rfl⟩
abbrev main_v449 : Ref sig .tc := ⟨.hbm, 451, rfl⟩
abbrev main_v450 : Ref sig .tc := ⟨.hbm, 452, rfl⟩
abbrev main_v451 : Ref sig .tc := ⟨.hbm, 453, rfl⟩
abbrev main_v452 : Ref sig .tc := ⟨.hbm, 454, rfl⟩
abbrev main_v453 : Ref sig .tc := ⟨.hbm, 455, rfl⟩
abbrev main_v454 : Ref sig .tc := ⟨.hbm, 456, rfl⟩
abbrev main_v455 : Ref sig .tc := ⟨.hbm, 457, rfl⟩
abbrev main_v456 : Ref sig .tc := ⟨.hbm, 458, rfl⟩
abbrev main_v457 : Ref sig .tc := ⟨.hbm, 459, rfl⟩
abbrev main_v458 : Ref sig .tc := ⟨.hbm, 460, rfl⟩
abbrev main_v459 : Ref sig .tc := ⟨.hbm, 461, rfl⟩
abbrev main_v460 : Ref sig .tc := ⟨.hbm, 462, rfl⟩
abbrev main_v461 : Ref sig .tc := ⟨.hbm, 463, rfl⟩
abbrev main_v462 : Ref sig .tc := ⟨.hbm, 464, rfl⟩
abbrev main_v463 : Ref sig .tc := ⟨.hbm, 465, rfl⟩
abbrev main_v464 : Ref sig .tc := ⟨.hbm, 466, rfl⟩
abbrev main_v465 : Ref sig .tc := ⟨.hbm, 467, rfl⟩
abbrev main_v466 : Ref sig .tc := ⟨.hbm, 468, rfl⟩
abbrev main_v467 : Ref sig .tc := ⟨.hbm, 469, rfl⟩
abbrev main_v468 : Ref sig .tc := ⟨.hbm, 470, rfl⟩
abbrev main_v469 : Ref sig .tc := ⟨.hbm, 471, rfl⟩
abbrev main_v470 : Ref sig .tc := ⟨.hbm, 472, rfl⟩
abbrev main_v471 : Ref sig .tc := ⟨.hbm, 473, rfl⟩
abbrev main_v472 : Ref sig .tc := ⟨.hbm, 474, rfl⟩
abbrev main_v473 : Ref sig .tc := ⟨.hbm, 475, rfl⟩
abbrev main_v474 : Ref sig .tc := ⟨.hbm, 476, rfl⟩
abbrev main_v475 : Ref sig .tc := ⟨.hbm, 477, rfl⟩
abbrev main_v476 : Ref sig .tc := ⟨.hbm, 478, rfl⟩
abbrev main_v477 : Ref sig .tc := ⟨.hbm, 479, rfl⟩
abbrev main_v478 : Ref sig .tc := ⟨.hbm, 480, rfl⟩
abbrev main_v479 : Ref sig .tc := ⟨.hbm, 481, rfl⟩
abbrev main_v480 : Ref sig .tc := ⟨.hbm, 482, rfl⟩
abbrev main_v481 : Ref sig .tc := ⟨.hbm, 483, rfl⟩
abbrev main_v482 : Ref sig .tc := ⟨.hbm, 484, rfl⟩
abbrev main_v483 : Ref sig .tc := ⟨.hbm, 485, rfl⟩
abbrev main_v484 : Ref sig .tc := ⟨.hbm, 486, rfl⟩
abbrev main_v485 : Ref sig .tc := ⟨.hbm, 487, rfl⟩
abbrev main_v486 : Ref sig .tc := ⟨.hbm, 488, rfl⟩
abbrev main_v487 : Ref sig .tc := ⟨.hbm, 489, rfl⟩
abbrev main_v488 : Ref sig .tc := ⟨.hbm, 490, rfl⟩
abbrev main_v489 : Ref sig .tc := ⟨.hbm, 491, rfl⟩
abbrev main_v490 : Ref sig .tc := ⟨.hbm, 492, rfl⟩
abbrev main_v491 : Ref sig .tc := ⟨.hbm, 493, rfl⟩
abbrev main_v492 : Ref sig .tc := ⟨.hbm, 494, rfl⟩
abbrev main_v493 : Ref sig .tc := ⟨.hbm, 495, rfl⟩
abbrev main_v494 : Ref sig .tc := ⟨.hbm, 496, rfl⟩
abbrev main_v495 : Ref sig .tc := ⟨.hbm, 497, rfl⟩
abbrev main_v496 : Ref sig .tc := ⟨.hbm, 498, rfl⟩
abbrev main_v497 : Ref sig .tc := ⟨.hbm, 499, rfl⟩
abbrev main_v498 : Ref sig .tc := ⟨.hbm, 500, rfl⟩
abbrev main_v499 : Ref sig .tc := ⟨.hbm, 501, rfl⟩
abbrev main_v500 : Ref sig .tc := ⟨.hbm, 502, rfl⟩
abbrev main_v501 : Ref sig .tc := ⟨.hbm, 503, rfl⟩
abbrev main_v502 : Ref sig .tc := ⟨.hbm, 504, rfl⟩
abbrev main_v503 : Ref sig .tc := ⟨.hbm, 505, rfl⟩
abbrev main_v504 : Ref sig .tc := ⟨.hbm, 506, rfl⟩
abbrev main_v505 : Ref sig .tc := ⟨.hbm, 507, rfl⟩
abbrev main_v506 : Ref sig .tc := ⟨.hbm, 508, rfl⟩
abbrev main_v507 : Ref sig .tc := ⟨.hbm, 509, rfl⟩
abbrev main_v508 : Ref sig .tc := ⟨.hbm, 510, rfl⟩
abbrev main_v509 : Ref sig .tc := ⟨.hbm, 511, rfl⟩
abbrev main_v510 : Ref sig .tc := ⟨.hbm, 512, rfl⟩
abbrev main_v511 : Ref sig .tc := ⟨.hbm, 513, rfl⟩
abbrev main_v512 : Ref sig .tc := ⟨.hbm, 514, rfl⟩
abbrev main_v513 : Ref sig .tc := ⟨.hbm, 515, rfl⟩
abbrev main_v514 : Ref sig .tc := ⟨.hbm, 516, rfl⟩
abbrev main_v515 : Ref sig .tc := ⟨.hbm, 517, rfl⟩
abbrev main_v516 : Ref sig .tc := ⟨.hbm, 518, rfl⟩
abbrev main_v517 : Ref sig .tc := ⟨.hbm, 519, rfl⟩
abbrev main_v518 : Ref sig .tc := ⟨.hbm, 520, rfl⟩
abbrev main_v519 : Ref sig .tc := ⟨.hbm, 521, rfl⟩
abbrev main_v520 : Ref sig .tc := ⟨.hbm, 522, rfl⟩
abbrev main_v521 : Ref sig .tc := ⟨.hbm, 523, rfl⟩
abbrev main_v522 : Ref sig .tc := ⟨.hbm, 524, rfl⟩
abbrev main_v523 : Ref sig .tc := ⟨.hbm, 525, rfl⟩
abbrev main_v524 : Ref sig .tc := ⟨.hbm, 526, rfl⟩
abbrev main_v525 : Ref sig .tc := ⟨.hbm, 527, rfl⟩
abbrev main_v526 : Ref sig .tc := ⟨.hbm, 528, rfl⟩
abbrev main_v527 : Ref sig .tc := ⟨.hbm, 529, rfl⟩
abbrev main_v528 : Ref sig .tc := ⟨.hbm, 530, rfl⟩
abbrev main_v529 : Ref sig .tc := ⟨.hbm, 531, rfl⟩
abbrev main_v530 : Ref sig .tc := ⟨.hbm, 532, rfl⟩
abbrev main_v531 : Ref sig .tc := ⟨.hbm, 533, rfl⟩
abbrev main_v532 : Ref sig .tc := ⟨.hbm, 534, rfl⟩
abbrev main_v533 : Ref sig .tc := ⟨.hbm, 535, rfl⟩
abbrev main_v534 : Ref sig .tc := ⟨.hbm, 536, rfl⟩
abbrev main_v535 : Ref sig .tc := ⟨.hbm, 537, rfl⟩
abbrev main_v536 : Ref sig .tc := ⟨.hbm, 538, rfl⟩
abbrev main_v537 : Ref sig .tc := ⟨.hbm, 539, rfl⟩
abbrev main_v538 : Ref sig .tc := ⟨.hbm, 540, rfl⟩
abbrev main_v539 : Ref sig .tc := ⟨.hbm, 541, rfl⟩
abbrev main_v540 : Ref sig .tc := ⟨.hbm, 542, rfl⟩
abbrev main_v541 : Ref sig .tc := ⟨.hbm, 543, rfl⟩
abbrev main_v542 : Ref sig .tc := ⟨.hbm, 544, rfl⟩
abbrev main_v543 : Ref sig .tc := ⟨.hbm, 545, rfl⟩
abbrev main_v544 : Ref sig .tc := ⟨.hbm, 546, rfl⟩
abbrev main_v545 : Ref sig .tc := ⟨.hbm, 547, rfl⟩
abbrev main_v546 : Ref sig .tc := ⟨.hbm, 548, rfl⟩
abbrev main_v547 : Ref sig .tc := ⟨.hbm, 549, rfl⟩
abbrev main_v548 : Ref sig .tc := ⟨.hbm, 550, rfl⟩
abbrev main_v549 : Ref sig .tc := ⟨.hbm, 551, rfl⟩
abbrev main_v550 : Ref sig .tc := ⟨.hbm, 552, rfl⟩
abbrev main_v551 : Ref sig .tc := ⟨.hbm, 553, rfl⟩
abbrev main_v552 : Ref sig .tc := ⟨.hbm, 554, rfl⟩
abbrev main_v553 : Ref sig .tc := ⟨.hbm, 555, rfl⟩
abbrev main_v554 : Ref sig .tc := ⟨.hbm, 556, rfl⟩
abbrev main_v555 : Ref sig .tc := ⟨.hbm, 557, rfl⟩
abbrev main_v556 : Ref sig .tc := ⟨.hbm, 558, rfl⟩
abbrev main_v557 : Ref sig .tc := ⟨.hbm, 559, rfl⟩
abbrev main_v558 : Ref sig .tc := ⟨.hbm, 560, rfl⟩
abbrev main_v559 : Ref sig .tc := ⟨.hbm, 561, rfl⟩
abbrev main_v560 : Ref sig .tc := ⟨.hbm, 562, rfl⟩
abbrev main_v561 : Ref sig .tc := ⟨.hbm, 563, rfl⟩
abbrev main_v562 : Ref sig .tc := ⟨.hbm, 564, rfl⟩
abbrev main_v563 : Ref sig .tc := ⟨.hbm, 565, rfl⟩
abbrev main_v564 : Ref sig .tc := ⟨.hbm, 566, rfl⟩
abbrev main_v565 : Ref sig .tc := ⟨.hbm, 567, rfl⟩
abbrev main_v566 : Ref sig .tc := ⟨.hbm, 568, rfl⟩
abbrev main_v567 : Ref sig .tc := ⟨.hbm, 569, rfl⟩
abbrev main_v568 : Ref sig .tc := ⟨.hbm, 570, rfl⟩
abbrev main_v569 : Ref sig .tc := ⟨.hbm, 571, rfl⟩
abbrev main_v570 : Ref sig .tc := ⟨.hbm, 572, rfl⟩
abbrev main_v571 : Ref sig .tc := ⟨.hbm, 573, rfl⟩
abbrev main_v572 : Ref sig .tc := ⟨.hbm, 574, rfl⟩
abbrev main_v573 : Ref sig .tc := ⟨.hbm, 575, rfl⟩
abbrev main_v574 : Ref sig .tc := ⟨.hbm, 576, rfl⟩
abbrev main_v575 : Ref sig .tc := ⟨.hbm, 577, rfl⟩
abbrev main_v576 : Ref sig .tc := ⟨.hbm, 578, rfl⟩
abbrev main_v577 : Ref sig .tc := ⟨.hbm, 579, rfl⟩
abbrev main_v578 : Ref sig .tc := ⟨.hbm, 580, rfl⟩
abbrev main_v579 : Ref sig .tc := ⟨.hbm, 581, rfl⟩
abbrev main_v580 : Ref sig .tc := ⟨.hbm, 582, rfl⟩
abbrev main_v581 : Ref sig .tc := ⟨.hbm, 583, rfl⟩
abbrev main_v582 : Ref sig .tc := ⟨.hbm, 584, rfl⟩
abbrev main_v583 : Ref sig .tc := ⟨.hbm, 585, rfl⟩
abbrev main_v584 : Ref sig .tc := ⟨.hbm, 586, rfl⟩
abbrev main_v585 : Ref sig .tc := ⟨.hbm, 587, rfl⟩
abbrev main_v586 : Ref sig .tc := ⟨.hbm, 588, rfl⟩
abbrev main_v587 : Ref sig .tc := ⟨.hbm, 589, rfl⟩
abbrev main_v588 : Ref sig .tc := ⟨.hbm, 590, rfl⟩
abbrev main_v589 : Ref sig .tc := ⟨.hbm, 591, rfl⟩
abbrev main_v590 : Ref sig .tc := ⟨.hbm, 592, rfl⟩
abbrev main_v591 : Ref sig .tc := ⟨.hbm, 593, rfl⟩
abbrev main_v592 : Ref sig .tc := ⟨.hbm, 594, rfl⟩
abbrev main_v593 : Ref sig .tc := ⟨.hbm, 595, rfl⟩
abbrev main_v594 : Ref sig .tc := ⟨.hbm, 596, rfl⟩
abbrev main_v595 : Ref sig .tc := ⟨.hbm, 597, rfl⟩
abbrev main_v596 : Ref sig .tc := ⟨.hbm, 598, rfl⟩
abbrev main_v597 : Ref sig .tc := ⟨.hbm, 599, rfl⟩
abbrev main_v598 : Ref sig .tc := ⟨.hbm, 600, rfl⟩
abbrev main_v599 : Ref sig .tc := ⟨.hbm, 601, rfl⟩
abbrev main_v600 : Ref sig .tc := ⟨.hbm, 602, rfl⟩
abbrev main_v601 : Ref sig .tc := ⟨.hbm, 603, rfl⟩
abbrev main_v602 : Ref sig .tc := ⟨.hbm, 604, rfl⟩
abbrev main_v603 : Ref sig .tc := ⟨.hbm, 605, rfl⟩
abbrev main_v604 : Ref sig .tc := ⟨.hbm, 606, rfl⟩
abbrev main_v605 : Ref sig .tc := ⟨.hbm, 607, rfl⟩
abbrev main_v606 : Ref sig .tc := ⟨.hbm, 608, rfl⟩
abbrev main_v607 : Ref sig .tc := ⟨.hbm, 609, rfl⟩
abbrev main_v608 : Ref sig .tc := ⟨.hbm, 610, rfl⟩
abbrev main_v609 : Ref sig .tc := ⟨.hbm, 611, rfl⟩
abbrev main_v610 : Ref sig .tc := ⟨.hbm, 612, rfl⟩
abbrev main_v611 : Ref sig .tc := ⟨.hbm, 613, rfl⟩
abbrev main_v612 : Ref sig .tc := ⟨.hbm, 614, rfl⟩
abbrev main_v613 : Ref sig .tc := ⟨.hbm, 615, rfl⟩
abbrev main_v614 : Ref sig .tc := ⟨.hbm, 616, rfl⟩
abbrev main_v615 : Ref sig .tc := ⟨.hbm, 617, rfl⟩
abbrev main_v616 : Ref sig .tc := ⟨.hbm, 618, rfl⟩
abbrev main_v617 : Ref sig .tc := ⟨.hbm, 619, rfl⟩
abbrev main_v618 : Ref sig .tc := ⟨.hbm, 620, rfl⟩
abbrev main_v619 : Ref sig .tc := ⟨.hbm, 621, rfl⟩
abbrev main_v620 : Ref sig .tc := ⟨.hbm, 622, rfl⟩
abbrev main_v621 : Ref sig .tc := ⟨.hbm, 623, rfl⟩
abbrev main_v622 : Ref sig .tc := ⟨.hbm, 624, rfl⟩
abbrev main_v623 : Ref sig .tc := ⟨.hbm, 625, rfl⟩
abbrev main_v624 : Ref sig .tc := ⟨.hbm, 626, rfl⟩
abbrev main_v625 : Ref sig .tc := ⟨.hbm, 627, rfl⟩
abbrev main_v626 : Ref sig .tc := ⟨.hbm, 628, rfl⟩
abbrev main_v627 : Ref sig .tc := ⟨.hbm, 629, rfl⟩
abbrev main_v628 : Ref sig .tc := ⟨.hbm, 630, rfl⟩
abbrev main_v629 : Ref sig .tc := ⟨.hbm, 631, rfl⟩
abbrev main_v630 : Ref sig .tc := ⟨.hbm, 632, rfl⟩
abbrev main_v631 : Ref sig .tc := ⟨.hbm, 633, rfl⟩
abbrev main_v632 : Ref sig .tc := ⟨.hbm, 634, rfl⟩
abbrev main_v633 : Ref sig .tc := ⟨.hbm, 635, rfl⟩
abbrev main_v634 : Ref sig .tc := ⟨.hbm, 636, rfl⟩
abbrev main_v635 : Ref sig .tc := ⟨.hbm, 637, rfl⟩
abbrev main_v636 : Ref sig .tc := ⟨.hbm, 638, rfl⟩
abbrev main_v637 : Ref sig .tc := ⟨.hbm, 639, rfl⟩
abbrev main_v638 : Ref sig .tc := ⟨.hbm, 640, rfl⟩
abbrev main_v639 : Ref sig .tc := ⟨.hbm, 641, rfl⟩
abbrev main_v640 : Ref sig .tc := ⟨.hbm, 642, rfl⟩
abbrev main_v641 : Ref sig .tc := ⟨.hbm, 643, rfl⟩
abbrev main_v642 : Ref sig .tc := ⟨.hbm, 644, rfl⟩
abbrev main_v643 : Ref sig .tc := ⟨.hbm, 645, rfl⟩
abbrev main_v644 : Ref sig .tc := ⟨.hbm, 646, rfl⟩
abbrev main_v645 : Ref sig .tc := ⟨.hbm, 647, rfl⟩
abbrev main_v646 : Ref sig .tc := ⟨.hbm, 648, rfl⟩
abbrev main_v647 : Ref sig .tc := ⟨.hbm, 649, rfl⟩
abbrev main_v648 : Ref sig .tc := ⟨.hbm, 650, rfl⟩
abbrev main_v649 : Ref sig .tc := ⟨.hbm, 651, rfl⟩
abbrev main_v650 : Ref sig .tc := ⟨.hbm, 652, rfl⟩
abbrev main_v651 : Ref sig .tc := ⟨.hbm, 653, rfl⟩
abbrev main_v652 : Ref sig .tc := ⟨.hbm, 654, rfl⟩
abbrev main_v653 : Ref sig .tc := ⟨.hbm, 655, rfl⟩
abbrev main_v654 : Ref sig .tc := ⟨.hbm, 656, rfl⟩
abbrev main_v655 : Ref sig .tc := ⟨.hbm, 657, rfl⟩
abbrev main_v656 : Ref sig .tc := ⟨.hbm, 658, rfl⟩
abbrev main_v657 : Ref sig .tc := ⟨.hbm, 659, rfl⟩
abbrev main_v658 : Ref sig .tc := ⟨.hbm, 660, rfl⟩
abbrev main_v659 : Ref sig .tc := ⟨.hbm, 661, rfl⟩
abbrev main_v660 : Ref sig .tc := ⟨.hbm, 662, rfl⟩
abbrev main_v661 : Ref sig .tc := ⟨.hbm, 663, rfl⟩
abbrev main_v662 : Ref sig .tc := ⟨.hbm, 664, rfl⟩
abbrev main_v663 : Ref sig .tc := ⟨.hbm, 665, rfl⟩
abbrev main_v664 : Ref sig .tc := ⟨.hbm, 666, rfl⟩
abbrev main_v665 : Ref sig .tc := ⟨.hbm, 667, rfl⟩
abbrev main_v666 : Ref sig .tc := ⟨.hbm, 668, rfl⟩
abbrev main_v667 : Ref sig .tc := ⟨.hbm, 669, rfl⟩
abbrev main_v668 : Ref sig .tc := ⟨.hbm, 670, rfl⟩
abbrev main_v669 : Ref sig .tc := ⟨.hbm, 671, rfl⟩
abbrev main_v670 : Ref sig .tc := ⟨.hbm, 672, rfl⟩
abbrev main_v671 : Ref sig .tc := ⟨.hbm, 673, rfl⟩
abbrev main_v672 : Ref sig .tc := ⟨.hbm, 674, rfl⟩
abbrev main_v673 : Ref sig .tc := ⟨.hbm, 675, rfl⟩
abbrev main_v674 : Ref sig .tc := ⟨.hbm, 676, rfl⟩
abbrev main_v675 : Ref sig .tc := ⟨.hbm, 677, rfl⟩
abbrev main_v676 : Ref sig .tc := ⟨.hbm, 678, rfl⟩
abbrev main_v677 : Ref sig .tc := ⟨.hbm, 679, rfl⟩
abbrev main_v678 : Ref sig .tc := ⟨.hbm, 680, rfl⟩
abbrev main_v679 : Ref sig .tc := ⟨.hbm, 681, rfl⟩
abbrev main_v680 : Ref sig .tc := ⟨.hbm, 682, rfl⟩
abbrev main_v681 : Ref sig .tc := ⟨.hbm, 683, rfl⟩
abbrev main_v682 : Ref sig .tc := ⟨.hbm, 684, rfl⟩
abbrev main_v683 : Ref sig .tc := ⟨.hbm, 685, rfl⟩
abbrev main_v684 : Ref sig .tc := ⟨.hbm, 686, rfl⟩
abbrev main_v685 : Ref sig .tc := ⟨.hbm, 687, rfl⟩
abbrev main_v686 : Ref sig .tc := ⟨.hbm, 688, rfl⟩
abbrev main_v687 : Ref sig .tc := ⟨.hbm, 689, rfl⟩
abbrev main_v688 : Ref sig .tc := ⟨.hbm, 690, rfl⟩
abbrev main_v689 : Ref sig .tc := ⟨.hbm, 691, rfl⟩
abbrev main_v690 : Ref sig .tc := ⟨.hbm, 692, rfl⟩
abbrev main_v691 : Ref sig .tc := ⟨.hbm, 693, rfl⟩
abbrev main_v692 : Ref sig .tc := ⟨.hbm, 694, rfl⟩
abbrev main_v693 : Ref sig .tc := ⟨.hbm, 695, rfl⟩
abbrev main_v694 : Ref sig .tc := ⟨.hbm, 696, rfl⟩
abbrev main_v695 : Ref sig .tc := ⟨.hbm, 697, rfl⟩
abbrev main_v696 : Ref sig .tc := ⟨.hbm, 698, rfl⟩
abbrev main_v697 : Ref sig .tc := ⟨.hbm, 699, rfl⟩
abbrev main_v698 : Ref sig .tc := ⟨.hbm, 700, rfl⟩
abbrev main_v699 : Ref sig .tc := ⟨.hbm, 701, rfl⟩
abbrev main_v700 : Ref sig .tc := ⟨.hbm, 702, rfl⟩
abbrev main_v701 : Ref sig .tc := ⟨.hbm, 703, rfl⟩
abbrev main_v702 : Ref sig .tc := ⟨.hbm, 704, rfl⟩
abbrev main_v703 : Ref sig .tc := ⟨.hbm, 705, rfl⟩
abbrev main_v704 : Ref sig .tc := ⟨.hbm, 706, rfl⟩
abbrev main_v705 : Ref sig .tc := ⟨.hbm, 707, rfl⟩
abbrev main_v706 : Ref sig .tc := ⟨.hbm, 708, rfl⟩
abbrev main_v707 : Ref sig .tc := ⟨.hbm, 709, rfl⟩
abbrev main_v708 : Ref sig .tc := ⟨.hbm, 710, rfl⟩
abbrev main_v709 : Ref sig .tc := ⟨.hbm, 711, rfl⟩
abbrev main_v710 : Ref sig .tc := ⟨.hbm, 712, rfl⟩
abbrev main_v711 : Ref sig .tc := ⟨.hbm, 713, rfl⟩
abbrev main_v712 : Ref sig .tc := ⟨.hbm, 714, rfl⟩
abbrev main_v713 : Ref sig .tc := ⟨.hbm, 715, rfl⟩
abbrev main_v714 : Ref sig .tc := ⟨.hbm, 716, rfl⟩
abbrev main_v715 : Ref sig .tc := ⟨.hbm, 717, rfl⟩
abbrev main_v716 : Ref sig .tc := ⟨.hbm, 718, rfl⟩
abbrev main_v717 : Ref sig .tc := ⟨.hbm, 719, rfl⟩
abbrev main_v718 : Ref sig .tc := ⟨.hbm, 720, rfl⟩
abbrev main_v719 : Ref sig .tc := ⟨.hbm, 721, rfl⟩
abbrev main_v720 : Ref sig .tc := ⟨.hbm, 722, rfl⟩
abbrev main_v721 : Ref sig .tc := ⟨.hbm, 723, rfl⟩
abbrev main_v722 : Ref sig .tc := ⟨.hbm, 724, rfl⟩
abbrev main_v723 : Ref sig .tc := ⟨.hbm, 725, rfl⟩
abbrev main_v724 : Ref sig .tc := ⟨.hbm, 726, rfl⟩
abbrev main_v725 : Ref sig .tc := ⟨.hbm, 727, rfl⟩
abbrev main_v726 : Ref sig .tc := ⟨.hbm, 728, rfl⟩
abbrev main_v727 : Ref sig .tc := ⟨.hbm, 729, rfl⟩
abbrev main_v728 : Ref sig .tc := ⟨.hbm, 730, rfl⟩
abbrev main_v729 : Ref sig .tc := ⟨.hbm, 731, rfl⟩
abbrev main_v730 : Ref sig .tc := ⟨.hbm, 732, rfl⟩
abbrev main_v731 : Ref sig .tc := ⟨.hbm, 733, rfl⟩
abbrev main_v732 : Ref sig .tc := ⟨.hbm, 734, rfl⟩
abbrev main_v733 : Ref sig .tc := ⟨.hbm, 735, rfl⟩
abbrev main_v734 : Ref sig .tc := ⟨.hbm, 736, rfl⟩
abbrev main_v735 : Ref sig .tc := ⟨.hbm, 737, rfl⟩
abbrev main_v736 : Ref sig .tc := ⟨.hbm, 738, rfl⟩
abbrev main_v737 : Ref sig .tc := ⟨.hbm, 739, rfl⟩
abbrev main_v738 : Ref sig .tc := ⟨.hbm, 740, rfl⟩
abbrev main_v739 : Ref sig .tc := ⟨.hbm, 741, rfl⟩
abbrev main_v740 : Ref sig .tc := ⟨.hbm, 742, rfl⟩
abbrev main_v741 : Ref sig .tc := ⟨.hbm, 743, rfl⟩
abbrev main_v742 : Ref sig .tc := ⟨.hbm, 744, rfl⟩
abbrev main_v743 : Ref sig .tc := ⟨.hbm, 745, rfl⟩
abbrev main_v744 : Ref sig .tc := ⟨.hbm, 746, rfl⟩
abbrev main_v745 : Ref sig .tc := ⟨.hbm, 747, rfl⟩
abbrev main_v746 : Ref sig .tc := ⟨.hbm, 748, rfl⟩
abbrev main_v747 : Ref sig .tc := ⟨.hbm, 749, rfl⟩
abbrev main_v748 : Ref sig .tc := ⟨.hbm, 750, rfl⟩
abbrev main_v749 : Ref sig .tc := ⟨.hbm, 751, rfl⟩
abbrev main_v750 : Ref sig .tc := ⟨.hbm, 752, rfl⟩
abbrev main_v751 : Ref sig .tc := ⟨.hbm, 753, rfl⟩
abbrev main_v752 : Ref sig .tc := ⟨.hbm, 754, rfl⟩
abbrev main_v753 : Ref sig .tc := ⟨.hbm, 755, rfl⟩
abbrev main_v754 : Ref sig .tc := ⟨.hbm, 756, rfl⟩
abbrev main_v755 : Ref sig .tc := ⟨.hbm, 757, rfl⟩
abbrev main_v756 : Ref sig .tc := ⟨.hbm, 758, rfl⟩
abbrev main_v757 : Ref sig .tc := ⟨.hbm, 759, rfl⟩
abbrev main_v758 : Ref sig .tc := ⟨.hbm, 760, rfl⟩
abbrev main_v759 : Ref sig .tc := ⟨.hbm, 761, rfl⟩
abbrev main_v760 : Ref sig .tc := ⟨.hbm, 762, rfl⟩
abbrev main_v761 : Ref sig .tc := ⟨.hbm, 763, rfl⟩
abbrev main_v762 : Ref sig .tc := ⟨.hbm, 764, rfl⟩
abbrev main_v763 : Ref sig .tc := ⟨.hbm, 765, rfl⟩
abbrev main_v764 : Ref sig .tc := ⟨.hbm, 766, rfl⟩
abbrev main_v765 : Ref sig .tc := ⟨.hbm, 767, rfl⟩
abbrev main_v766 : Ref sig .tc := ⟨.hbm, 768, rfl⟩
abbrev main_v767 : Ref sig .tc := ⟨.hbm, 769, rfl⟩
abbrev main_v768 : Ref sig .tc := ⟨.hbm, 770, rfl⟩
abbrev main_v769 : Ref sig .tc := ⟨.hbm, 771, rfl⟩
abbrev main_v770 : Ref sig .tc := ⟨.hbm, 772, rfl⟩
abbrev main_v771 : Ref sig .tc := ⟨.hbm, 773, rfl⟩
abbrev main_v772 : Ref sig .tc := ⟨.hbm, 774, rfl⟩
abbrev main_v773 : Ref sig .tc := ⟨.hbm, 775, rfl⟩
abbrev main_v774 : Ref sig .tc := ⟨.hbm, 776, rfl⟩
abbrev main_v775 : Ref sig .tc := ⟨.hbm, 777, rfl⟩
abbrev main_v776 : Ref sig .tc := ⟨.hbm, 778, rfl⟩
abbrev main_v777 : Ref sig .tc := ⟨.hbm, 779, rfl⟩
abbrev main_v778 : Ref sig .tc := ⟨.hbm, 780, rfl⟩
abbrev main_v779 : Ref sig .tc := ⟨.hbm, 781, rfl⟩
abbrev main_v780 : Ref sig .tc := ⟨.hbm, 782, rfl⟩
abbrev main_v781 : Ref sig .tc := ⟨.hbm, 783, rfl⟩
abbrev main_v782 : Ref sig .tc := ⟨.hbm, 784, rfl⟩
abbrev main_v783 : Ref sig .tc := ⟨.hbm, 785, rfl⟩
abbrev main_v784 : Ref sig .tc := ⟨.hbm, 786, rfl⟩
abbrev main_v785 : Ref sig .tc := ⟨.hbm, 787, rfl⟩
abbrev main_v786 : Ref sig .tc := ⟨.hbm, 788, rfl⟩
abbrev main_v787 : Ref sig .tc := ⟨.hbm, 789, rfl⟩
abbrev main_v788 : Ref sig .tc := ⟨.hbm, 790, rfl⟩
abbrev main_v789 : Ref sig .tc := ⟨.hbm, 791, rfl⟩
abbrev main_v790 : Ref sig .tc := ⟨.hbm, 792, rfl⟩
abbrev main_v791 : Ref sig .tc := ⟨.hbm, 793, rfl⟩
abbrev main_v792 : Ref sig .tc := ⟨.hbm, 794, rfl⟩
abbrev main_v793 : Ref sig .tc := ⟨.hbm, 795, rfl⟩
abbrev main_v794 : Ref sig .tc := ⟨.hbm, 796, rfl⟩
abbrev main_v795 : Ref sig .tc := ⟨.hbm, 797, rfl⟩
abbrev main_v796 : Ref sig .tc := ⟨.hbm, 798, rfl⟩
abbrev main_v797 : Ref sig .tc := ⟨.hbm, 799, rfl⟩
abbrev main_v798 : Ref sig .tc := ⟨.hbm, 800, rfl⟩
abbrev main_v799 : Ref sig .tc := ⟨.hbm, 801, rfl⟩
abbrev main_v800 : Ref sig .tc := ⟨.hbm, 802, rfl⟩
abbrev main_v801 : Ref sig .tc := ⟨.hbm, 803, rfl⟩
abbrev main_v802 : Ref sig .tc := ⟨.hbm, 804, rfl⟩
abbrev main_v803 : Ref sig .tc := ⟨.hbm, 805, rfl⟩
abbrev main_v804 : Ref sig .tc := ⟨.hbm, 806, rfl⟩
abbrev main_v805 : Ref sig .tc := ⟨.hbm, 807, rfl⟩
abbrev main_v806 : Ref sig .tc := ⟨.hbm, 808, rfl⟩
abbrev main_v807 : Ref sig .tc := ⟨.hbm, 809, rfl⟩
abbrev main_v808 : Ref sig .tc := ⟨.hbm, 810, rfl⟩
abbrev main_v809 : Ref sig .tc := ⟨.hbm, 811, rfl⟩
abbrev main_v810 : Ref sig .tc := ⟨.hbm, 812, rfl⟩
abbrev main_v811 : Ref sig .tc := ⟨.hbm, 813, rfl⟩
abbrev main_v812 : Ref sig .tc := ⟨.hbm, 814, rfl⟩
abbrev main_v813 : Ref sig .tc := ⟨.hbm, 815, rfl⟩
abbrev main_v814 : Ref sig .tc := ⟨.hbm, 816, rfl⟩
abbrev main_v815 : Ref sig .tc := ⟨.hbm, 817, rfl⟩
abbrev main_v816 : Ref sig .tc := ⟨.hbm, 818, rfl⟩
abbrev main_v817 : Ref sig .tc := ⟨.hbm, 819, rfl⟩
abbrev main_v818 : Ref sig .tc := ⟨.hbm, 820, rfl⟩
abbrev main_v819 : Ref sig .tc := ⟨.hbm, 821, rfl⟩
abbrev main_v820 : Ref sig .tc := ⟨.hbm, 822, rfl⟩
abbrev main_v821 : Ref sig .tc := ⟨.hbm, 823, rfl⟩
abbrev main_v822 : Ref sig .tc := ⟨.hbm, 824, rfl⟩
abbrev main_v823 : Ref sig .tc := ⟨.hbm, 825, rfl⟩
abbrev main_v824 : Ref sig .tc := ⟨.hbm, 826, rfl⟩
abbrev main_v825 : Ref sig .tc := ⟨.hbm, 827, rfl⟩
abbrev main_v826 : Ref sig .tc := ⟨.hbm, 828, rfl⟩
abbrev main_v827 : Ref sig .tc := ⟨.hbm, 829, rfl⟩
abbrev main_v828 : Ref sig .tc := ⟨.hbm, 830, rfl⟩
abbrev main_v829 : Ref sig .tc := ⟨.hbm, 831, rfl⟩
abbrev main_v830 : Ref sig .tc := ⟨.hbm, 832, rfl⟩
abbrev main_v831 : Ref sig .tc := ⟨.hbm, 833, rfl⟩
abbrev main_v832 : Ref sig .tc := ⟨.hbm, 834, rfl⟩
abbrev main_v833 : Ref sig .tc := ⟨.hbm, 835, rfl⟩
abbrev main_v834 : Ref sig .tc := ⟨.hbm, 836, rfl⟩
abbrev main_v835 : Ref sig .tc := ⟨.hbm, 837, rfl⟩
abbrev main_v836 : Ref sig .tc := ⟨.hbm, 838, rfl⟩
abbrev main_v837 : Ref sig .tc := ⟨.hbm, 839, rfl⟩
abbrev main_v838 : Ref sig .tc := ⟨.hbm, 840, rfl⟩
abbrev main_v839 : Ref sig .tc := ⟨.hbm, 841, rfl⟩
abbrev main_v840 : Ref sig .tc := ⟨.hbm, 842, rfl⟩
abbrev main_v841 : Ref sig .tc := ⟨.hbm, 843, rfl⟩
abbrev main_v842 : Ref sig .tc := ⟨.hbm, 844, rfl⟩
abbrev main_v843 : Ref sig .tc := ⟨.hbm, 845, rfl⟩
abbrev main_v844 : Ref sig .tc := ⟨.hbm, 846, rfl⟩
abbrev main_v845 : Ref sig .tc := ⟨.hbm, 847, rfl⟩
abbrev main_v846 : Ref sig .tc := ⟨.hbm, 848, rfl⟩
abbrev main_v847 : Ref sig .tc := ⟨.hbm, 849, rfl⟩
abbrev main_v848 : Ref sig .tc := ⟨.hbm, 850, rfl⟩
abbrev main_v849 : Ref sig .tc := ⟨.hbm, 851, rfl⟩
abbrev main_v850 : Ref sig .tc := ⟨.hbm, 852, rfl⟩
abbrev main_v851 : Ref sig .tc := ⟨.hbm, 853, rfl⟩
abbrev main_v852 : Ref sig .tc := ⟨.hbm, 854, rfl⟩
abbrev main_v853 : Ref sig .tc := ⟨.hbm, 855, rfl⟩
abbrev main_v854 : Ref sig .tc := ⟨.hbm, 856, rfl⟩
abbrev main_v855 : Ref sig .tc := ⟨.hbm, 857, rfl⟩
abbrev main_v856 : Ref sig .tc := ⟨.hbm, 858, rfl⟩
abbrev main_v857 : Ref sig .tc := ⟨.hbm, 859, rfl⟩
abbrev main_v858 : Ref sig .tc := ⟨.hbm, 860, rfl⟩
abbrev main_v859 : Ref sig .tc := ⟨.hbm, 861, rfl⟩
abbrev main_v860 : Ref sig .tc := ⟨.hbm, 862, rfl⟩
abbrev main_v861 : Ref sig .tc := ⟨.hbm, 863, rfl⟩
abbrev main_v862 : Ref sig .tc := ⟨.hbm, 864, rfl⟩
abbrev main_v863 : Ref sig .tc := ⟨.hbm, 865, rfl⟩
abbrev main_v864 : Ref sig .tc := ⟨.hbm, 866, rfl⟩
abbrev main_v865 : Ref sig .tc := ⟨.hbm, 867, rfl⟩
abbrev main_v866 : Ref sig .tc := ⟨.hbm, 868, rfl⟩
abbrev main_v867 : Ref sig .tc := ⟨.hbm, 869, rfl⟩
abbrev main_v868 : Ref sig .tc := ⟨.hbm, 870, rfl⟩
abbrev main_v869 : Ref sig .tc := ⟨.hbm, 871, rfl⟩
abbrev main_v870 : Ref sig .tc := ⟨.hbm, 872, rfl⟩
abbrev main_v871 : Ref sig .tc := ⟨.hbm, 873, rfl⟩
abbrev main_v872 : Ref sig .tc := ⟨.hbm, 874, rfl⟩
abbrev main_v873 : Ref sig .tc := ⟨.hbm, 875, rfl⟩
abbrev main_v874 : Ref sig .tc := ⟨.hbm, 876, rfl⟩
abbrev main_v875 : Ref sig .tc := ⟨.hbm, 877, rfl⟩
abbrev main_v876 : Ref sig .tc := ⟨.hbm, 878, rfl⟩
abbrev main_v877 : Ref sig .tc := ⟨.hbm, 879, rfl⟩
abbrev main_v878 : Ref sig .tc := ⟨.hbm, 880, rfl⟩
abbrev main_v879 : Ref sig .tc := ⟨.hbm, 881, rfl⟩
abbrev main_v880 : Ref sig .tc := ⟨.hbm, 882, rfl⟩
abbrev main_v881 : Ref sig .tc := ⟨.hbm, 883, rfl⟩
abbrev main_v882 : Ref sig .tc := ⟨.hbm, 884, rfl⟩
abbrev main_v883 : Ref sig .tc := ⟨.hbm, 885, rfl⟩
abbrev main_v884 : Ref sig .tc := ⟨.hbm, 886, rfl⟩
abbrev main_v885 : Ref sig .tc := ⟨.hbm, 887, rfl⟩
abbrev main_v886 : Ref sig .tc := ⟨.hbm, 888, rfl⟩
abbrev main_v887 : Ref sig .tc := ⟨.hbm, 889, rfl⟩
abbrev main_v888 : Ref sig .tc := ⟨.hbm, 890, rfl⟩
abbrev main_v889 : Ref sig .tc := ⟨.hbm, 891, rfl⟩
abbrev main_v890 : Ref sig .tc := ⟨.hbm, 892, rfl⟩
abbrev main_v891 : Ref sig .tc := ⟨.hbm, 893, rfl⟩
abbrev main_v892 : Ref sig .tc := ⟨.hbm, 894, rfl⟩
abbrev main_v893 : Ref sig .tc := ⟨.hbm, 895, rfl⟩
abbrev main_v894 : Ref sig .tc := ⟨.hbm, 896, rfl⟩
abbrev main_v895 : Ref sig .tc := ⟨.hbm, 897, rfl⟩
abbrev main_v896 : Ref sig .tc := ⟨.hbm, 898, rfl⟩
abbrev main_v897 : Ref sig .tc := ⟨.hbm, 899, rfl⟩
abbrev main_v898 : Ref sig .tc := ⟨.hbm, 900, rfl⟩
abbrev main_v899 : Ref sig .tc := ⟨.hbm, 901, rfl⟩
abbrev main_v900 : Ref sig .tc := ⟨.hbm, 902, rfl⟩
abbrev main_v901 : Ref sig .tc := ⟨.hbm, 903, rfl⟩
abbrev main_v902 : Ref sig .tc := ⟨.hbm, 904, rfl⟩
abbrev main_v903 : Ref sig .tc := ⟨.hbm, 905, rfl⟩
abbrev main_v904 : Ref sig .tc := ⟨.hbm, 906, rfl⟩
abbrev main_v905 : Ref sig .tc := ⟨.hbm, 907, rfl⟩
abbrev main_v906 : Ref sig .tc := ⟨.hbm, 908, rfl⟩
abbrev main_v907 : Ref sig .tc := ⟨.hbm, 909, rfl⟩
abbrev main_v908 : Ref sig .tc := ⟨.hbm, 910, rfl⟩
abbrev main_v909 : Ref sig .tc := ⟨.hbm, 911, rfl⟩
abbrev main_v910 : Ref sig .tc := ⟨.hbm, 912, rfl⟩
abbrev main_v911 : Ref sig .tc := ⟨.hbm, 913, rfl⟩
abbrev main_v912 : Ref sig .tc := ⟨.hbm, 914, rfl⟩
abbrev main_v913 : Ref sig .tc := ⟨.hbm, 915, rfl⟩
abbrev main_v914 : Ref sig .tc := ⟨.hbm, 916, rfl⟩
abbrev main_v915 : Ref sig .tc := ⟨.hbm, 917, rfl⟩
abbrev main_v916 : Ref sig .tc := ⟨.hbm, 918, rfl⟩
abbrev main_v917 : Ref sig .tc := ⟨.hbm, 919, rfl⟩
abbrev main_v918 : Ref sig .tc := ⟨.hbm, 920, rfl⟩
abbrev main_v919 : Ref sig .tc := ⟨.hbm, 921, rfl⟩
abbrev main_v920 : Ref sig .tc := ⟨.hbm, 922, rfl⟩
abbrev main_v921 : Ref sig .tc := ⟨.hbm, 923, rfl⟩
abbrev main_v922 : Ref sig .tc := ⟨.hbm, 924, rfl⟩
abbrev main_v923 : Ref sig .tc := ⟨.hbm, 925, rfl⟩
abbrev main_v924 : Ref sig .tc := ⟨.hbm, 926, rfl⟩
abbrev main_v925 : Ref sig .tc := ⟨.hbm, 927, rfl⟩
abbrev main_v926 : Ref sig .tc := ⟨.hbm, 928, rfl⟩
abbrev main_v927 : Ref sig .tc := ⟨.hbm, 929, rfl⟩
abbrev main_v928 : Ref sig .tc := ⟨.hbm, 930, rfl⟩
abbrev main_v929 : Ref sig .tc := ⟨.hbm, 931, rfl⟩
abbrev main_v930 : Ref sig .tc := ⟨.hbm, 932, rfl⟩
abbrev main_v931 : Ref sig .tc := ⟨.hbm, 933, rfl⟩
abbrev main_v932 : Ref sig .tc := ⟨.hbm, 934, rfl⟩
abbrev main_v933 : Ref sig .tc := ⟨.hbm, 935, rfl⟩
abbrev main_v934 : Ref sig .tc := ⟨.hbm, 936, rfl⟩
abbrev main_v935 : Ref sig .tc := ⟨.hbm, 937, rfl⟩
abbrev main_v936 : Ref sig .tc := ⟨.hbm, 938, rfl⟩
abbrev main_v937 : Ref sig .tc := ⟨.hbm, 939, rfl⟩
abbrev main_v938 : Ref sig .tc := ⟨.hbm, 940, rfl⟩
abbrev main_v939 : Ref sig .tc := ⟨.hbm, 941, rfl⟩
abbrev main_v940 : Ref sig .tc := ⟨.hbm, 942, rfl⟩
abbrev main_v941 : Ref sig .tc := ⟨.hbm, 943, rfl⟩
abbrev main_v942 : Ref sig .tc := ⟨.hbm, 944, rfl⟩
abbrev main_v943 : Ref sig .tc := ⟨.hbm, 945, rfl⟩
abbrev main_v944 : Ref sig .tc := ⟨.hbm, 946, rfl⟩
abbrev main_v945 : Ref sig .tc := ⟨.hbm, 947, rfl⟩
abbrev main_v946 : Ref sig .tc := ⟨.hbm, 948, rfl⟩
abbrev main_v947 : Ref sig .tc := ⟨.hbm, 949, rfl⟩
abbrev main_v948 : Ref sig .tc := ⟨.hbm, 950, rfl⟩
abbrev main_v949 : Ref sig .tc := ⟨.hbm, 951, rfl⟩
abbrev main_v950 : Ref sig .tc := ⟨.hbm, 952, rfl⟩
abbrev main_v951 : Ref sig .tc := ⟨.hbm, 953, rfl⟩
abbrev main_v952 : Ref sig .tc := ⟨.hbm, 954, rfl⟩
abbrev main_v953 : Ref sig .tc := ⟨.hbm, 955, rfl⟩
abbrev main_v954 : Ref sig .tc := ⟨.hbm, 956, rfl⟩
abbrev main_v955 : Ref sig .tc := ⟨.hbm, 957, rfl⟩
abbrev main_v956 : Ref sig .tc := ⟨.hbm, 958, rfl⟩
abbrev main_v957 : Ref sig .tc := ⟨.hbm, 959, rfl⟩
abbrev main_v958 : Ref sig .tc := ⟨.hbm, 960, rfl⟩
abbrev main_v959 : Ref sig .tc := ⟨.hbm, 961, rfl⟩
abbrev main_v960 : Ref sig .tc := ⟨.hbm, 962, rfl⟩
abbrev main_v961 : Ref sig .tc := ⟨.hbm, 963, rfl⟩
abbrev main_v962 : Ref sig .tc := ⟨.hbm, 964, rfl⟩
abbrev main_v963 : Ref sig .tc := ⟨.hbm, 965, rfl⟩
abbrev main_v964 : Ref sig .tc := ⟨.hbm, 966, rfl⟩
abbrev main_v965 : Ref sig .tc := ⟨.hbm, 967, rfl⟩
abbrev main_v966 : Ref sig .tc := ⟨.hbm, 968, rfl⟩
abbrev main_v967 : Ref sig .tc := ⟨.hbm, 969, rfl⟩
abbrev main_v968 : Ref sig .tc := ⟨.hbm, 970, rfl⟩
abbrev main_v969 : Ref sig .tc := ⟨.hbm, 971, rfl⟩
abbrev main_v970 : Ref sig .tc := ⟨.hbm, 972, rfl⟩
abbrev main_v971 : Ref sig .tc := ⟨.hbm, 973, rfl⟩
abbrev main_v972 : Ref sig .tc := ⟨.hbm, 974, rfl⟩
abbrev main_v973 : Ref sig .tc := ⟨.hbm, 975, rfl⟩
abbrev main_v974 : Ref sig .tc := ⟨.hbm, 976, rfl⟩
abbrev main_v975 : Ref sig .tc := ⟨.hbm, 977, rfl⟩
abbrev main_v976 : Ref sig .tc := ⟨.hbm, 978, rfl⟩
abbrev main_v977 : Ref sig .tc := ⟨.hbm, 979, rfl⟩
abbrev main_v978 : Ref sig .tc := ⟨.hbm, 980, rfl⟩
abbrev main_v979 : Ref sig .tc := ⟨.hbm, 981, rfl⟩
abbrev main_v980 : Ref sig .tc := ⟨.hbm, 982, rfl⟩
abbrev main_v981 : Ref sig .tc := ⟨.hbm, 983, rfl⟩
abbrev main_v982 : Ref sig .tc := ⟨.hbm, 984, rfl⟩
abbrev main_v983 : Ref sig .tc := ⟨.hbm, 985, rfl⟩
abbrev main_v984 : Ref sig .tc := ⟨.hbm, 986, rfl⟩
abbrev main_v985 : Ref sig .tc := ⟨.hbm, 987, rfl⟩
abbrev main_v986 : Ref sig .tc := ⟨.hbm, 988, rfl⟩
abbrev main_v987 : Ref sig .tc := ⟨.hbm, 989, rfl⟩
abbrev main_v988 : Ref sig .tc := ⟨.hbm, 990, rfl⟩
abbrev main_v989 : Ref sig .tc := ⟨.hbm, 991, rfl⟩
abbrev main_v990 : Ref sig .tc := ⟨.hbm, 992, rfl⟩
abbrev main_v991 : Ref sig .tc := ⟨.hbm, 993, rfl⟩
abbrev main_v992 : Ref sig .tc := ⟨.hbm, 994, rfl⟩
abbrev main_v993 : Ref sig .tc := ⟨.hbm, 995, rfl⟩
abbrev main_v994 : Ref sig .tc := ⟨.hbm, 996, rfl⟩
abbrev main_v995 : Ref sig .tc := ⟨.hbm, 997, rfl⟩
abbrev main_v996 : Ref sig .tc := ⟨.hbm, 998, rfl⟩
abbrev main_v997 : Ref sig .tc := ⟨.hbm, 999, rfl⟩
abbrev main_v998 : Ref sig .tc := ⟨.hbm, 1000, rfl⟩
abbrev main_v999 : Ref sig .tc := ⟨.hbm, 1001, rfl⟩
abbrev main_v1000 : Ref sig .tc := ⟨.hbm, 1002, rfl⟩
abbrev main_v1001 : Ref sig .tc := ⟨.hbm, 1003, rfl⟩
abbrev main_v1002 : Ref sig .tc := ⟨.hbm, 1004, rfl⟩
abbrev main_v1003 : Ref sig .tc := ⟨.hbm, 1005, rfl⟩
abbrev main_v1004 : Ref sig .tc := ⟨.hbm, 1006, rfl⟩
abbrev main_v1005 : Ref sig .tc := ⟨.hbm, 1007, rfl⟩
abbrev main_v1006 : Ref sig .tc := ⟨.hbm, 1008, rfl⟩
abbrev main_v1007 : Ref sig .tc := ⟨.hbm, 1009, rfl⟩
abbrev main_v1008 : Ref sig .tc := ⟨.hbm, 1010, rfl⟩
abbrev main_v1009 : Ref sig .tc := ⟨.hbm, 1011, rfl⟩
abbrev main_v1010 : Ref sig .tc := ⟨.hbm, 1012, rfl⟩
abbrev main_v1011 : Ref sig .tc := ⟨.hbm, 1013, rfl⟩
abbrev main_v1012 : Ref sig .tc := ⟨.hbm, 1014, rfl⟩
abbrev main_v1013 : Ref sig .tc := ⟨.hbm, 1015, rfl⟩
abbrev main_v1014 : Ref sig .tc := ⟨.hbm, 1016, rfl⟩
abbrev main_v1015 : Ref sig .tc := ⟨.hbm, 1017, rfl⟩
abbrev main_v1016 : Ref sig .tc := ⟨.hbm, 1018, rfl⟩
abbrev main_v1017 : Ref sig .tc := ⟨.hbm, 1019, rfl⟩
abbrev main_v1018 : Ref sig .tc := ⟨.hbm, 1020, rfl⟩
abbrev main_v1019 : Ref sig .tc := ⟨.hbm, 1021, rfl⟩
abbrev main_v1020 : Ref sig .tc := ⟨.hbm, 1022, rfl⟩
abbrev main_v1021 : Ref sig .tc := ⟨.hbm, 1023, rfl⟩
abbrev main_v1022 : Ref sig .tc := ⟨.hbm, 1024, rfl⟩
abbrev main_v1023 : Ref sig .tc := ⟨.hbm, 1025, rfl⟩
abbrev main_v1024 : Ref sig .tc := ⟨.hbm, 1026, rfl⟩
abbrev main_v1025 : Ref sig .tc := ⟨.hbm, 1027, rfl⟩
abbrev main_v1026 : Ref sig .tc := ⟨.hbm, 1028, rfl⟩
abbrev main_v1027 : Ref sig .tc := ⟨.hbm, 1029, rfl⟩
abbrev main_v1028 : Ref sig .tc := ⟨.hbm, 1030, rfl⟩
abbrev main_v1029 : Ref sig .tc := ⟨.hbm, 1031, rfl⟩
abbrev main_v1030 : Ref sig .tc := ⟨.hbm, 1032, rfl⟩
abbrev main_v1031 : Ref sig .tc := ⟨.hbm, 1033, rfl⟩
abbrev main_v1032 : Ref sig .tc := ⟨.hbm, 1034, rfl⟩
abbrev main_v1033 : Ref sig .tc := ⟨.hbm, 1035, rfl⟩
abbrev main_v1034 : Ref sig .tc := ⟨.hbm, 1036, rfl⟩
abbrev main_v1035 : Ref sig .tc := ⟨.hbm, 1037, rfl⟩
abbrev main_v1036 : Ref sig .tc := ⟨.hbm, 1038, rfl⟩
abbrev main_v1037 : Ref sig .tc := ⟨.hbm, 1039, rfl⟩
abbrev main_v1038 : Ref sig .tc := ⟨.hbm, 1040, rfl⟩
abbrev main_v1039 : Ref sig .tc := ⟨.hbm, 1041, rfl⟩
abbrev main_v1040 : Ref sig .tc := ⟨.hbm, 1042, rfl⟩
abbrev main_v1041 : Ref sig .tc := ⟨.hbm, 1043, rfl⟩
abbrev main_v1042 : Ref sig .tc := ⟨.hbm, 1044, rfl⟩
abbrev main_v1043 : Ref sig .tc := ⟨.hbm, 1045, rfl⟩
abbrev main_v1044 : Ref sig .tc := ⟨.hbm, 1046, rfl⟩
abbrev main_v1045 : Ref sig .tc := ⟨.hbm, 1047, rfl⟩
abbrev main_v1046 : Ref sig .tc := ⟨.hbm, 1048, rfl⟩
abbrev main_v1047 : Ref sig .tc := ⟨.hbm, 1049, rfl⟩
abbrev main_v1048 : Ref sig .tc := ⟨.hbm, 1050, rfl⟩
abbrev main_v1049 : Ref sig .tc := ⟨.hbm, 1051, rfl⟩
abbrev main_v1050 : Ref sig .tc := ⟨.hbm, 1052, rfl⟩
abbrev main_v1051 : Ref sig .tc := ⟨.hbm, 1053, rfl⟩
abbrev main_v1052 : Ref sig .tc := ⟨.hbm, 1054, rfl⟩
abbrev main_v1053 : Ref sig .tc := ⟨.hbm, 1055, rfl⟩
abbrev main_v1054 : Ref sig .tc := ⟨.hbm, 1056, rfl⟩
abbrev main_v1055 : Ref sig .tc := ⟨.hbm, 1057, rfl⟩
abbrev main_v1056 : Ref sig .tc := ⟨.hbm, 1058, rfl⟩
abbrev main_v1057 : Ref sig .tc := ⟨.hbm, 1059, rfl⟩
abbrev main_v1058 : Ref sig .tc := ⟨.hbm, 1060, rfl⟩
abbrev main_v1059 : Ref sig .tc := ⟨.hbm, 1061, rfl⟩
abbrev main_v1060 : Ref sig .tc := ⟨.hbm, 1062, rfl⟩
abbrev main_v1061 : Ref sig .tc := ⟨.hbm, 1063, rfl⟩
abbrev main_v1062 : Ref sig .tc := ⟨.hbm, 1064, rfl⟩
abbrev main_v1063 : Ref sig .tc := ⟨.hbm, 1065, rfl⟩
abbrev main_v1064 : Ref sig .tc := ⟨.hbm, 1066, rfl⟩
abbrev main_v1065 : Ref sig .tc := ⟨.hbm, 1067, rfl⟩
abbrev main_v1066 : Ref sig .tc := ⟨.hbm, 1068, rfl⟩
abbrev main_v1067 : Ref sig .tc := ⟨.hbm, 1069, rfl⟩
abbrev main_v1068 : Ref sig .tc := ⟨.hbm, 1070, rfl⟩
abbrev main_v1069 : Ref sig .tc := ⟨.hbm, 1071, rfl⟩
abbrev main_v1070 : Ref sig .tc := ⟨.hbm, 1072, rfl⟩
abbrev main_v1071 : Ref sig .tc := ⟨.hbm, 1073, rfl⟩
abbrev main_v1072 : Ref sig .tc := ⟨.hbm, 1074, rfl⟩
abbrev main_v1073 : Ref sig .tc := ⟨.hbm, 1075, rfl⟩
abbrev main_v1074 : Ref sig .tc := ⟨.hbm, 1076, rfl⟩
abbrev main_v1075 : Ref sig .tc := ⟨.hbm, 1077, rfl⟩
abbrev main_v1076 : Ref sig .tc := ⟨.hbm, 1078, rfl⟩
abbrev main_v1077 : Ref sig .tc := ⟨.hbm, 1079, rfl⟩
abbrev main_v1078 : Ref sig .tc := ⟨.hbm, 1080, rfl⟩
abbrev main_v1079 : Ref sig .tc := ⟨.hbm, 1081, rfl⟩
abbrev main_v1080 : Ref sig .tc := ⟨.hbm, 1082, rfl⟩
abbrev main_v1081 : Ref sig .tc := ⟨.hbm, 1083, rfl⟩
abbrev main_v1082 : Ref sig .tc := ⟨.hbm, 1084, rfl⟩
abbrev main_v1083 : Ref sig .tc := ⟨.hbm, 1085, rfl⟩
abbrev main_v1084 : Ref sig .tc := ⟨.hbm, 1086, rfl⟩
abbrev main_v1085 : Ref sig .tc := ⟨.hbm, 1087, rfl⟩
abbrev main_v1086 : Ref sig .tc := ⟨.hbm, 1088, rfl⟩
abbrev main_v1087 : Ref sig .tc := ⟨.hbm, 1089, rfl⟩
abbrev main_v1088 : Ref sig .tc := ⟨.hbm, 1090, rfl⟩
abbrev main_v1089 : Ref sig .tc := ⟨.hbm, 1091, rfl⟩
abbrev main_v1090 : Ref sig .tc := ⟨.hbm, 1092, rfl⟩
abbrev main_v1091 : Ref sig .tc := ⟨.hbm, 1093, rfl⟩
abbrev main_v1092 : Ref sig .tc := ⟨.hbm, 1094, rfl⟩
abbrev main_v1093 : Ref sig .tc := ⟨.hbm, 1095, rfl⟩
abbrev main_v1094 : Ref sig .tc := ⟨.hbm, 1096, rfl⟩
abbrev main_v1095 : Ref sig .tc := ⟨.hbm, 1097, rfl⟩
abbrev main_v1096 : Ref sig .tc := ⟨.hbm, 1098, rfl⟩
abbrev main_v1097 : Ref sig .tc := ⟨.hbm, 1099, rfl⟩
abbrev main_v1098 : Ref sig .tc := ⟨.hbm, 1100, rfl⟩
abbrev main_v1099 : Ref sig .tc := ⟨.hbm, 1101, rfl⟩
abbrev main_v1100 : Ref sig .tc := ⟨.hbm, 1102, rfl⟩
abbrev main_v1101 : Ref sig .tc := ⟨.hbm, 1103, rfl⟩
abbrev main_v1102 : Ref sig .tc := ⟨.hbm, 1104, rfl⟩
abbrev main_v1103 : Ref sig .tc := ⟨.hbm, 1105, rfl⟩
abbrev main_v1104 : Ref sig .tc := ⟨.hbm, 1106, rfl⟩
abbrev main_v1105 : Ref sig .tc := ⟨.hbm, 1107, rfl⟩
abbrev main_v1106 : Ref sig .tc := ⟨.hbm, 1108, rfl⟩
abbrev main_v1107 : Ref sig .tc := ⟨.hbm, 1109, rfl⟩
abbrev main_v1108 : Ref sig .tc := ⟨.hbm, 1110, rfl⟩
abbrev main_v1109 : Ref sig .tc := ⟨.hbm, 1111, rfl⟩
abbrev main_v1110 : Ref sig .tc := ⟨.hbm, 1112, rfl⟩
abbrev main_v1111 : Ref sig .tc := ⟨.hbm, 1113, rfl⟩
abbrev main_v1112 : Ref sig .tc := ⟨.hbm, 1114, rfl⟩
abbrev main_v1113 : Ref sig .tc := ⟨.hbm, 1115, rfl⟩
abbrev main_v1114 : Ref sig .tc := ⟨.hbm, 1116, rfl⟩
abbrev main_v1115 : Ref sig .tc := ⟨.hbm, 1117, rfl⟩
abbrev main_v1116 : Ref sig .tc := ⟨.hbm, 1118, rfl⟩
abbrev main_v1117 : Ref sig .tc := ⟨.hbm, 1119, rfl⟩
abbrev main_v1118 : Ref sig .tc := ⟨.hbm, 1120, rfl⟩
abbrev main_v1119 : Ref sig .tc := ⟨.hbm, 1121, rfl⟩
abbrev main_v1120 : Ref sig .tc := ⟨.hbm, 1122, rfl⟩
abbrev main_v1121 : Ref sig .tc := ⟨.hbm, 1123, rfl⟩
abbrev main_v1122 : Ref sig .tc := ⟨.hbm, 1124, rfl⟩
abbrev main_v1123 : Ref sig .tc := ⟨.hbm, 1125, rfl⟩
abbrev main_v1124 : Ref sig .tc := ⟨.hbm, 1126, rfl⟩
abbrev main_v1125 : Ref sig .tc := ⟨.hbm, 1127, rfl⟩
abbrev main_v1126 : Ref sig .tc := ⟨.hbm, 1128, rfl⟩
abbrev main_v1127 : Ref sig .tc := ⟨.hbm, 1129, rfl⟩
abbrev main_v1128 : Ref sig .tc := ⟨.hbm, 1130, rfl⟩
abbrev main_v1129 : Ref sig .tc := ⟨.hbm, 1131, rfl⟩
abbrev main_v1130 : Ref sig .tc := ⟨.hbm, 1132, rfl⟩
abbrev main_v1131 : Ref sig .tc := ⟨.hbm, 1133, rfl⟩
abbrev main_v1132 : Ref sig .tc := ⟨.hbm, 1134, rfl⟩
abbrev main_v1133 : Ref sig .tc := ⟨.hbm, 1135, rfl⟩
abbrev main_v1134 : Ref sig .tc := ⟨.hbm, 1136, rfl⟩
abbrev main_v1135 : Ref sig .tc := ⟨.hbm, 1137, rfl⟩
abbrev main_v1136 : Ref sig .tc := ⟨.hbm, 1138, rfl⟩
abbrev main_v1137 : Ref sig .tc := ⟨.hbm, 1139, rfl⟩
abbrev main_v1138 : Ref sig .tc := ⟨.hbm, 1140, rfl⟩
abbrev main_v1139 : Ref sig .tc := ⟨.hbm, 1141, rfl⟩
abbrev main_v1140 : Ref sig .tc := ⟨.hbm, 1142, rfl⟩
abbrev main_v1141 : Ref sig .tc := ⟨.hbm, 1143, rfl⟩
abbrev main_v1142 : Ref sig .tc := ⟨.hbm, 1144, rfl⟩
abbrev main_v1143 : Ref sig .tc := ⟨.hbm, 1145, rfl⟩
abbrev main_v1144 : Ref sig .tc := ⟨.hbm, 1146, rfl⟩
abbrev main_v1145 : Ref sig .tc := ⟨.hbm, 1147, rfl⟩
abbrev main_v1146 : Ref sig .tc := ⟨.hbm, 1148, rfl⟩
abbrev main_v1147 : Ref sig .tc := ⟨.hbm, 1149, rfl⟩
abbrev main_v1148 : Ref sig .tc := ⟨.hbm, 1150, rfl⟩
abbrev main_v1149 : Ref sig .tc := ⟨.hbm, 1151, rfl⟩
abbrev main_v1150 : Ref sig .tc := ⟨.hbm, 1152, rfl⟩
abbrev main_v1151 : Ref sig .tc := ⟨.hbm, 1153, rfl⟩
abbrev main_v1152 : Ref sig .tc := ⟨.hbm, 1154, rfl⟩
abbrev main_v1153 : Ref sig .tc := ⟨.hbm, 1155, rfl⟩
abbrev main_v1154 : Ref sig .tc := ⟨.hbm, 1156, rfl⟩
abbrev main_v1155 : Ref sig .tc := ⟨.hbm, 1157, rfl⟩
abbrev main_v1156 : Ref sig .tc := ⟨.hbm, 1158, rfl⟩
abbrev main_v1157 : Ref sig .tc := ⟨.hbm, 1159, rfl⟩
abbrev main_v1158 : Ref sig .tc := ⟨.hbm, 1160, rfl⟩
abbrev main_v1159 : Ref sig .tc := ⟨.hbm, 1161, rfl⟩
abbrev main_v1160 : Ref sig .tc := ⟨.hbm, 1162, rfl⟩
abbrev main_v1161 : Ref sig .tc := ⟨.hbm, 1163, rfl⟩
abbrev main_v1162 : Ref sig .tc := ⟨.hbm, 1164, rfl⟩
abbrev main_v1163 : Ref sig .tc := ⟨.hbm, 1165, rfl⟩
abbrev main_v1164 : Ref sig .tc := ⟨.hbm, 1166, rfl⟩
abbrev main_v1165 : Ref sig .tc := ⟨.hbm, 1167, rfl⟩
abbrev main_v1166 : Ref sig .tc := ⟨.hbm, 1168, rfl⟩
abbrev main_v1167 : Ref sig .tc := ⟨.hbm, 1169, rfl⟩
abbrev main_v1168 : Ref sig .tc := ⟨.hbm, 1170, rfl⟩
abbrev main_v1169 : Ref sig .tc := ⟨.hbm, 1171, rfl⟩
abbrev main_v1170 : Ref sig .tc := ⟨.hbm, 1172, rfl⟩
abbrev main_v1171 : Ref sig .tc := ⟨.hbm, 1173, rfl⟩
abbrev main_v1172 : Ref sig .tc := ⟨.hbm, 1174, rfl⟩
abbrev main_v1173 : Ref sig .tc := ⟨.hbm, 1175, rfl⟩
abbrev main_v1174 : Ref sig .tc := ⟨.hbm, 1176, rfl⟩
abbrev main_v1175 : Ref sig .tc := ⟨.hbm, 1177, rfl⟩
abbrev main_v1176 : Ref sig .tc := ⟨.hbm, 1178, rfl⟩
abbrev main_v1177 : Ref sig .tc := ⟨.hbm, 1179, rfl⟩
abbrev main_v1178 : Ref sig .tc := ⟨.hbm, 1180, rfl⟩
abbrev main_v1179 : Ref sig .tc := ⟨.hbm, 1181, rfl⟩
abbrev main_v1180 : Ref sig .tc := ⟨.hbm, 1182, rfl⟩
abbrev main_v1181 : Ref sig .tc := ⟨.hbm, 1183, rfl⟩
abbrev main_v1182 : Ref sig .tc := ⟨.hbm, 1184, rfl⟩
abbrev main_v1183 : Ref sig .tc := ⟨.hbm, 1185, rfl⟩
abbrev main_v1184 : Ref sig .tc := ⟨.hbm, 1186, rfl⟩
abbrev main_v1185 : Ref sig .tc := ⟨.hbm, 1187, rfl⟩
abbrev main_v1186 : Ref sig .tc := ⟨.hbm, 1188, rfl⟩
abbrev main_v1187 : Ref sig .tc := ⟨.hbm, 1189, rfl⟩
abbrev main_v1188 : Ref sig .tc := ⟨.hbm, 1190, rfl⟩
abbrev main_v1189 : Ref sig .tc := ⟨.hbm, 1191, rfl⟩
abbrev main_v1190 : Ref sig .tc := ⟨.hbm, 1192, rfl⟩
abbrev main_v1191 : Ref sig .tc := ⟨.hbm, 1193, rfl⟩
abbrev main_v1192 : Ref sig .tc := ⟨.hbm, 1194, rfl⟩
abbrev main_v1193 : Ref sig .tc := ⟨.hbm, 1195, rfl⟩
abbrev main_v1194 : Ref sig .tc := ⟨.hbm, 1196, rfl⟩
abbrev main_v1195 : Ref sig .tc := ⟨.hbm, 1197, rfl⟩
abbrev main_v1196 : Ref sig .tc := ⟨.hbm, 1198, rfl⟩
abbrev main_v1197 : Ref sig .tc := ⟨.hbm, 1199, rfl⟩
abbrev main_v1198 : Ref sig .tc := ⟨.hbm, 1200, rfl⟩
abbrev main_v1199 : Ref sig .tc := ⟨.hbm, 1201, rfl⟩
abbrev main_v1200 : Ref sig .tc := ⟨.hbm, 1202, rfl⟩
abbrev main_v1201 : Ref sig .tc := ⟨.hbm, 1203, rfl⟩
abbrev main_v1202 : Ref sig .tc := ⟨.hbm, 1204, rfl⟩
abbrev main_v1203 : Ref sig .tc := ⟨.hbm, 1205, rfl⟩
abbrev main_v1204 : Ref sig .tc := ⟨.hbm, 1206, rfl⟩
abbrev main_v1205 : Ref sig .tc := ⟨.hbm, 1207, rfl⟩
abbrev main_v1206 : Ref sig .tc := ⟨.hbm, 1208, rfl⟩
abbrev main_v1207 : Ref sig .tc := ⟨.hbm, 1209, rfl⟩
abbrev main_v1208 : Ref sig .tc := ⟨.hbm, 1210, rfl⟩
abbrev main_v1209 : Ref sig .tc := ⟨.hbm, 1211, rfl⟩
abbrev main_v1210 : Ref sig .tc := ⟨.hbm, 1212, rfl⟩
abbrev main_v1211 : Ref sig .tc := ⟨.hbm, 1213, rfl⟩
abbrev main_v1212 : Ref sig .tc := ⟨.hbm, 1214, rfl⟩
abbrev main_v1213 : Ref sig .tc := ⟨.hbm, 1215, rfl⟩
abbrev main_v1214 : Ref sig .tc := ⟨.hbm, 1216, rfl⟩
abbrev main_v1215 : Ref sig .tc := ⟨.hbm, 1217, rfl⟩
abbrev main_v1216 : Ref sig .tc := ⟨.hbm, 1218, rfl⟩
abbrev main_v1217 : Ref sig .tc := ⟨.hbm, 1219, rfl⟩
abbrev main_v1218 : Ref sig .tc := ⟨.hbm, 1220, rfl⟩
abbrev main_v1219 : Ref sig .tc := ⟨.hbm, 1221, rfl⟩
abbrev main_v1220 : Ref sig .tc := ⟨.hbm, 1222, rfl⟩
abbrev main_v1221 : Ref sig .tc := ⟨.hbm, 1223, rfl⟩
abbrev main_v1222 : Ref sig .tc := ⟨.hbm, 1224, rfl⟩
abbrev main_v1223 : Ref sig .tc := ⟨.hbm, 1225, rfl⟩
abbrev main_v1224 : Ref sig .tc := ⟨.hbm, 1226, rfl⟩
abbrev main_v1225 : Ref sig .tc := ⟨.hbm, 1227, rfl⟩
abbrev main_v1226 : Ref sig .tc := ⟨.hbm, 1228, rfl⟩
abbrev main_v1227 : Ref sig .tc := ⟨.hbm, 1229, rfl⟩
abbrev main_v1228 : Ref sig .tc := ⟨.hbm, 1230, rfl⟩
abbrev main_v1229 : Ref sig .tc := ⟨.hbm, 1231, rfl⟩
abbrev main_v1230 : Ref sig .tc := ⟨.hbm, 1232, rfl⟩
abbrev main_v1231 : Ref sig .tc := ⟨.hbm, 1233, rfl⟩
abbrev main_v1232 : Ref sig .tc := ⟨.hbm, 1234, rfl⟩
abbrev main_v1233 : Ref sig .tc := ⟨.hbm, 1235, rfl⟩
abbrev main_v1234 : Ref sig .tc := ⟨.hbm, 1236, rfl⟩
abbrev main_v1235 : Ref sig .tc := ⟨.hbm, 1237, rfl⟩
abbrev main_v1236 : Ref sig .tc := ⟨.hbm, 1238, rfl⟩
abbrev main_v1237 : Ref sig .tc := ⟨.hbm, 1239, rfl⟩
abbrev main_v1238 : Ref sig .tc := ⟨.hbm, 1240, rfl⟩
abbrev main_v1239 : Ref sig .tc := ⟨.hbm, 1241, rfl⟩
abbrev main_v1240 : Ref sig .tc := ⟨.hbm, 1242, rfl⟩
abbrev main_v1241 : Ref sig .tc := ⟨.hbm, 1243, rfl⟩
abbrev main_v1242 : Ref sig .tc := ⟨.hbm, 1244, rfl⟩
abbrev main_v1243 : Ref sig .tc := ⟨.hbm, 1245, rfl⟩
abbrev main_v1244 : Ref sig .tc := ⟨.hbm, 1246, rfl⟩
abbrev main_v1245 : Ref sig .tc := ⟨.hbm, 1247, rfl⟩
abbrev main_v1246 : Ref sig .tc := ⟨.hbm, 1248, rfl⟩
abbrev main_v1247 : Ref sig .tc := ⟨.hbm, 1249, rfl⟩
abbrev main_v1248 : Ref sig .tc := ⟨.hbm, 1250, rfl⟩
abbrev main_v1249 : Ref sig .tc := ⟨.hbm, 1251, rfl⟩
abbrev main_v1250 : Ref sig .tc := ⟨.hbm, 1252, rfl⟩
abbrev main_v1251 : Ref sig .tc := ⟨.hbm, 1253, rfl⟩
abbrev main_v1252 : Ref sig .tc := ⟨.hbm, 1254, rfl⟩
abbrev main_v1253 : Ref sig .tc := ⟨.hbm, 1255, rfl⟩
abbrev main_v1254 : Ref sig .tc := ⟨.hbm, 1256, rfl⟩
abbrev main_v1255 : Ref sig .tc := ⟨.hbm, 1257, rfl⟩
abbrev main_v1256 : Ref sig .tc := ⟨.hbm, 1258, rfl⟩
abbrev main_v1257 : Ref sig .tc := ⟨.hbm, 1259, rfl⟩
abbrev main_v1258 : Ref sig .tc := ⟨.hbm, 1260, rfl⟩
abbrev main_v1259 : Ref sig .tc := ⟨.hbm, 1261, rfl⟩
abbrev main_v1260 : Ref sig .tc := ⟨.hbm, 1262, rfl⟩
abbrev main_v1261 : Ref sig .tc := ⟨.hbm, 1263, rfl⟩
abbrev main_v1262 : Ref sig .tc := ⟨.hbm, 1264, rfl⟩
abbrev main_v1263 : Ref sig .tc := ⟨.hbm, 1265, rfl⟩
abbrev main_v1264 : Ref sig .tc := ⟨.hbm, 1266, rfl⟩
abbrev main_v1265 : Ref sig .tc := ⟨.hbm, 1267, rfl⟩
abbrev main_v1266 : Ref sig .tc := ⟨.hbm, 1268, rfl⟩
abbrev main_v1267 : Ref sig .tc := ⟨.hbm, 1269, rfl⟩
abbrev main_v1268 : Ref sig .tc := ⟨.hbm, 1270, rfl⟩
abbrev main_v1269 : Ref sig .tc := ⟨.hbm, 1271, rfl⟩
abbrev main_v1270 : Ref sig .tc := ⟨.hbm, 1272, rfl⟩
abbrev main_v1271 : Ref sig .tc := ⟨.hbm, 1273, rfl⟩
abbrev main_v1272 : Ref sig .tc := ⟨.hbm, 1274, rfl⟩
abbrev main_v1273 : Ref sig .tc := ⟨.hbm, 1275, rfl⟩
abbrev main_v1274 : Ref sig .tc := ⟨.hbm, 1276, rfl⟩
abbrev main_v1275 : Ref sig .tc := ⟨.hbm, 1277, rfl⟩
abbrev main_v1276 : Ref sig .tc := ⟨.hbm, 1278, rfl⟩
abbrev main_v1277 : Ref sig .tc := ⟨.hbm, 1279, rfl⟩
abbrev main_v1278 : Ref sig .tc := ⟨.hbm, 1280, rfl⟩
abbrev main_v1279 : Ref sig .tc := ⟨.hbm, 1281, rfl⟩
abbrev main_v1280 : Ref sig .tc := ⟨.hbm, 1282, rfl⟩
abbrev main_v1281 : Ref sig .tc := ⟨.hbm, 1283, rfl⟩
abbrev main_v1282 : Ref sig .tc := ⟨.hbm, 1284, rfl⟩
abbrev main_v1283 : Ref sig .tc := ⟨.hbm, 1285, rfl⟩
abbrev main_v1284 : Ref sig .tc := ⟨.hbm, 1286, rfl⟩
abbrev main_v1285 : Ref sig .tc := ⟨.hbm, 1287, rfl⟩
abbrev main_v1286 : Ref sig .tc := ⟨.hbm, 1288, rfl⟩
abbrev main_v1287 : Ref sig .tc := ⟨.hbm, 1289, rfl⟩
abbrev main_v1288 : Ref sig .tc := ⟨.hbm, 1290, rfl⟩
abbrev main_v1289 : Ref sig .tc := ⟨.hbm, 1291, rfl⟩
abbrev main_v1290 : Ref sig .tc := ⟨.hbm, 1292, rfl⟩
abbrev main_v1291 : Ref sig .tc := ⟨.hbm, 1293, rfl⟩
abbrev main_v1292 : Ref sig .tc := ⟨.hbm, 1294, rfl⟩
abbrev main_v1293 : Ref sig .tc := ⟨.hbm, 1295, rfl⟩
abbrev main_v1294 : Ref sig .tc := ⟨.hbm, 1296, rfl⟩
abbrev main_v1295 : Ref sig .tc := ⟨.hbm, 1297, rfl⟩
abbrev main_v1296 : Ref sig .tc := ⟨.hbm, 1298, rfl⟩
abbrev main_v1297 : Ref sig .tc := ⟨.hbm, 1299, rfl⟩
abbrev main_v1298 : Ref sig .tc := ⟨.hbm, 1300, rfl⟩
abbrev main_v1299 : Ref sig .tc := ⟨.hbm, 1301, rfl⟩
abbrev main_v1300 : Ref sig .tc := ⟨.hbm, 1302, rfl⟩
abbrev main_v1301 : Ref sig .tc := ⟨.hbm, 1303, rfl⟩
abbrev main_v1302 : Ref sig .tc := ⟨.hbm, 1304, rfl⟩
abbrev main_v1303 : Ref sig .tc := ⟨.hbm, 1305, rfl⟩
abbrev main_v1304 : Ref sig .tc := ⟨.hbm, 1306, rfl⟩
abbrev main_v1305 : Ref sig .tc := ⟨.hbm, 1307, rfl⟩
abbrev main_v1306 : Ref sig .tc := ⟨.hbm, 1308, rfl⟩
abbrev main_v1307 : Ref sig .tc := ⟨.hbm, 1309, rfl⟩
abbrev main_v1308 : Ref sig .tc := ⟨.hbm, 1310, rfl⟩
abbrev main_v1309 : Ref sig .tc := ⟨.hbm, 1311, rfl⟩
abbrev main_v1310 : Ref sig .tc := ⟨.hbm, 1312, rfl⟩
abbrev main_v1311 : Ref sig .tc := ⟨.hbm, 1313, rfl⟩
abbrev main_v1312 : Ref sig .tc := ⟨.hbm, 1314, rfl⟩
abbrev main_v1313 : Ref sig .tc := ⟨.hbm, 1315, rfl⟩
abbrev main_v1314 : Ref sig .tc := ⟨.hbm, 1316, rfl⟩
abbrev main_v1315 : Ref sig .tc := ⟨.hbm, 1317, rfl⟩
abbrev main_v1316 : Ref sig .tc := ⟨.hbm, 1318, rfl⟩
abbrev main_v1317 : Ref sig .tc := ⟨.hbm, 1319, rfl⟩
abbrev main_v1318 : Ref sig .tc := ⟨.hbm, 1320, rfl⟩
abbrev main_v1319 : Ref sig .tc := ⟨.hbm, 1321, rfl⟩
abbrev main_v1320 : Ref sig .tc := ⟨.hbm, 1322, rfl⟩
abbrev main_v1321 : Ref sig .tc := ⟨.hbm, 1323, rfl⟩
abbrev main_v1322 : Ref sig .tc := ⟨.hbm, 1324, rfl⟩
abbrev main_v1323 : Ref sig .tc := ⟨.hbm, 1325, rfl⟩
abbrev main_v1324 : Ref sig .tc := ⟨.hbm, 1326, rfl⟩
abbrev main_v1325 : Ref sig .tc := ⟨.hbm, 1327, rfl⟩
abbrev main_v1326 : Ref sig .tc := ⟨.hbm, 1328, rfl⟩
abbrev main_v1327 : Ref sig .tc := ⟨.hbm, 1329, rfl⟩
abbrev main_v1328 : Ref sig .tc := ⟨.hbm, 1330, rfl⟩
abbrev main_v1329 : Ref sig .tc := ⟨.hbm, 1331, rfl⟩
abbrev main_v1330 : Ref sig .tc := ⟨.hbm, 1332, rfl⟩
abbrev main_v1331 : Ref sig .tc := ⟨.hbm, 1333, rfl⟩
abbrev main_v1332 : Ref sig .tc := ⟨.hbm, 1334, rfl⟩
abbrev main_v1333 : Ref sig .tc := ⟨.hbm, 1335, rfl⟩
abbrev main_v1334 : Ref sig .tc := ⟨.hbm, 1336, rfl⟩
abbrev main_v1335 : Ref sig .tc := ⟨.hbm, 1337, rfl⟩
abbrev main_v1336 : Ref sig .tc := ⟨.hbm, 1338, rfl⟩
abbrev main_v1337 : Ref sig .tc := ⟨.hbm, 1339, rfl⟩
abbrev main_v1338 : Ref sig .tc := ⟨.hbm, 1340, rfl⟩
abbrev main_v1339 : Ref sig .tc := ⟨.hbm, 1341, rfl⟩
abbrev main_v1340 : Ref sig .tc := ⟨.hbm, 1342, rfl⟩
abbrev main_v1341 : Ref sig .tc := ⟨.hbm, 1343, rfl⟩
abbrev main_v1342 : Ref sig .tc := ⟨.hbm, 1344, rfl⟩
abbrev main_v1343 : Ref sig .tc := ⟨.hbm, 1345, rfl⟩
abbrev main_v1344 : Ref sig .tc := ⟨.hbm, 1346, rfl⟩
abbrev main_v1345 : Ref sig .tc := ⟨.hbm, 1347, rfl⟩
abbrev main_v1346 : Ref sig .tc := ⟨.hbm, 1348, rfl⟩
abbrev main_v1347 : Ref sig .tc := ⟨.hbm, 1349, rfl⟩
abbrev main_v1348 : Ref sig .tc := ⟨.hbm, 1350, rfl⟩
abbrev main_v1349 : Ref sig .tc := ⟨.hbm, 1351, rfl⟩
abbrev main_v1350 : Ref sig .tc := ⟨.hbm, 1352, rfl⟩
abbrev main_v1351 : Ref sig .tc := ⟨.hbm, 1353, rfl⟩
abbrev main_v1352 : Ref sig .tc := ⟨.hbm, 1354, rfl⟩
abbrev main_v1353 : Ref sig .tc := ⟨.hbm, 1355, rfl⟩
abbrev main_v1354 : Ref sig .tc := ⟨.hbm, 1356, rfl⟩
abbrev main_v1355 : Ref sig .tc := ⟨.hbm, 1357, rfl⟩
abbrev main_v1356 : Ref sig .tc := ⟨.hbm, 1358, rfl⟩
abbrev main_v1357 : Ref sig .tc := ⟨.hbm, 1359, rfl⟩
abbrev main_v1358 : Ref sig .tc := ⟨.hbm, 1360, rfl⟩
abbrev main_v1359 : Ref sig .tc := ⟨.hbm, 1361, rfl⟩
abbrev main_v1360 : Ref sig .tc := ⟨.hbm, 1362, rfl⟩
abbrev main_v1361 : Ref sig .tc := ⟨.hbm, 1363, rfl⟩
abbrev main_v1362 : Ref sig .tc := ⟨.hbm, 1364, rfl⟩
abbrev main_v1363 : Ref sig .tc := ⟨.hbm, 1365, rfl⟩
abbrev main_v1364 : Ref sig .tc := ⟨.hbm, 1366, rfl⟩
abbrev main_v1365 : Ref sig .tc := ⟨.hbm, 1367, rfl⟩
abbrev main_v1366 : Ref sig .tc := ⟨.hbm, 1368, rfl⟩
abbrev main_v1367 : Ref sig .tc := ⟨.hbm, 1369, rfl⟩
abbrev main_v1368 : Ref sig .tc := ⟨.hbm, 1370, rfl⟩
abbrev main_v1369 : Ref sig .tc := ⟨.hbm, 1371, rfl⟩
abbrev main_v1370 : Ref sig .tc := ⟨.hbm, 1372, rfl⟩
abbrev main_v1371 : Ref sig .tc := ⟨.hbm, 1373, rfl⟩
abbrev main_v1372 : Ref sig .tc := ⟨.hbm, 1374, rfl⟩
abbrev main_v1373 : Ref sig .tc := ⟨.hbm, 1375, rfl⟩
abbrev main_v1374 : Ref sig .tc := ⟨.hbm, 1376, rfl⟩
abbrev main_v1375 : Ref sig .tc := ⟨.hbm, 1377, rfl⟩
abbrev main_v1376 : Ref sig .tc := ⟨.hbm, 1378, rfl⟩
abbrev main_v1377 : Ref sig .tc := ⟨.hbm, 1379, rfl⟩
abbrev main_v1378 : Ref sig .tc := ⟨.hbm, 1380, rfl⟩
abbrev main_v1379 : Ref sig .tc := ⟨.hbm, 1381, rfl⟩
abbrev main_v1380 : Ref sig .tc := ⟨.hbm, 1382, rfl⟩
abbrev main_v1381 : Ref sig .tc := ⟨.hbm, 1383, rfl⟩
abbrev main_v1382 : Ref sig .tc := ⟨.hbm, 1384, rfl⟩
abbrev main_v1383 : Ref sig .tc := ⟨.hbm, 1385, rfl⟩
abbrev main_v1384 : Ref sig .tc := ⟨.hbm, 1386, rfl⟩
abbrev main_v1385 : Ref sig .tc := ⟨.hbm, 1387, rfl⟩
abbrev main_v1386 : Ref sig .tc := ⟨.hbm, 1388, rfl⟩
abbrev main_v1387 : Ref sig .tc := ⟨.hbm, 1389, rfl⟩
abbrev main_v1388 : Ref sig .tc := ⟨.hbm, 1390, rfl⟩
abbrev main_v1389 : Ref sig .tc := ⟨.hbm, 1391, rfl⟩
abbrev main_v1390 : Ref sig .tc := ⟨.hbm, 1392, rfl⟩
abbrev main_v1391 : Ref sig .tc := ⟨.hbm, 1393, rfl⟩
abbrev main_v1392 : Ref sig .tc := ⟨.hbm, 1394, rfl⟩
abbrev main_v1393 : Ref sig .tc := ⟨.hbm, 1395, rfl⟩
abbrev main_v1394 : Ref sig .tc := ⟨.hbm, 1396, rfl⟩
abbrev main_v1395 : Ref sig .tc := ⟨.hbm, 1397, rfl⟩
abbrev main_v1396 : Ref sig .tc := ⟨.hbm, 1398, rfl⟩
abbrev main_v1397 : Ref sig .tc := ⟨.hbm, 1399, rfl⟩
abbrev main_v1398 : Ref sig .tc := ⟨.hbm, 1400, rfl⟩
abbrev main_v1399 : Ref sig .tc := ⟨.hbm, 1401, rfl⟩
abbrev main_v1400 : Ref sig .tc := ⟨.hbm, 1402, rfl⟩
abbrev main_v1401 : Ref sig .tc := ⟨.hbm, 1403, rfl⟩
abbrev main_v1402 : Ref sig .tc := ⟨.hbm, 1404, rfl⟩
abbrev main_v1403 : Ref sig .tc := ⟨.hbm, 1405, rfl⟩
abbrev main_v1404 : Ref sig .tc := ⟨.hbm, 1406, rfl⟩
abbrev main_v1405 : Ref sig .tc := ⟨.hbm, 1407, rfl⟩
abbrev main_v1406 : Ref sig .tc := ⟨.hbm, 1408, rfl⟩
abbrev main_v1407 : Ref sig .tc := ⟨.hbm, 1409, rfl⟩
abbrev main_v1408 : Ref sig .tc := ⟨.hbm, 1410, rfl⟩
abbrev main_v1409 : Ref sig .tc := ⟨.hbm, 1411, rfl⟩
abbrev main_v1410 : Ref sig .tc := ⟨.hbm, 1412, rfl⟩
abbrev main_v1411 : Ref sig .tc := ⟨.hbm, 1413, rfl⟩
abbrev main_v1412 : Ref sig .tc := ⟨.hbm, 1414, rfl⟩
abbrev main_v1413 : Ref sig .tc := ⟨.hbm, 1415, rfl⟩
abbrev main_v1414 : Ref sig .tc := ⟨.hbm, 1416, rfl⟩
abbrev main_v1415 : Ref sig .tc := ⟨.hbm, 1417, rfl⟩
abbrev main_v1416 : Ref sig .tc := ⟨.hbm, 1418, rfl⟩
abbrev main_v1417 : Ref sig .tc := ⟨.hbm, 1419, rfl⟩
abbrev main_v1418 : Ref sig .tc := ⟨.hbm, 1420, rfl⟩
abbrev main_v1419 : Ref sig .tc := ⟨.hbm, 1421, rfl⟩
abbrev main_v1420 : Ref sig .tc := ⟨.hbm, 1422, rfl⟩
abbrev main_v1421 : Ref sig .tc := ⟨.hbm, 1423, rfl⟩
abbrev main_v1422 : Ref sig .tc := ⟨.hbm, 1424, rfl⟩
abbrev main_v1423 : Ref sig .tc := ⟨.hbm, 1425, rfl⟩
abbrev main_v1424 : Ref sig .tc := ⟨.hbm, 1426, rfl⟩
abbrev main_v1425 : Ref sig .tc := ⟨.hbm, 1427, rfl⟩
abbrev main_v1426 : Ref sig .tc := ⟨.hbm, 1428, rfl⟩
abbrev main_v1427 : Ref sig .tc := ⟨.hbm, 1429, rfl⟩
abbrev main_v1428 : Ref sig .tc := ⟨.hbm, 1430, rfl⟩
abbrev main_v1429 : Ref sig .tc := ⟨.hbm, 1431, rfl⟩
abbrev main_v1430 : Ref sig .tc := ⟨.hbm, 1432, rfl⟩
abbrev main_v1431 : Ref sig .tc := ⟨.hbm, 1433, rfl⟩
abbrev main_v1432 : Ref sig .tc := ⟨.hbm, 1434, rfl⟩
abbrev main_v1433 : Ref sig .tc := ⟨.hbm, 1435, rfl⟩
abbrev main_v1434 : Ref sig .tc := ⟨.hbm, 1436, rfl⟩
abbrev main_v1435 : Ref sig .tc := ⟨.hbm, 1437, rfl⟩
abbrev main_v1436 : Ref sig .tc := ⟨.hbm, 1438, rfl⟩
abbrev main_v1437 : Ref sig .tc := ⟨.hbm, 1439, rfl⟩
abbrev main_v1438 : Ref sig .tc := ⟨.hbm, 1440, rfl⟩
abbrev main_v1439 : Ref sig .tc := ⟨.hbm, 1441, rfl⟩
abbrev main_v1440 : Ref sig .tc := ⟨.hbm, 1442, rfl⟩
abbrev main_v1441 : Ref sig .tc := ⟨.hbm, 1443, rfl⟩
abbrev main_v1442 : Ref sig .tc := ⟨.hbm, 1444, rfl⟩
abbrev main_v1443 : Ref sig .tc := ⟨.hbm, 1445, rfl⟩
abbrev main_v1444 : Ref sig .tc := ⟨.hbm, 1446, rfl⟩
abbrev main_v1445 : Ref sig .tc := ⟨.hbm, 1447, rfl⟩
abbrev main_v1446 : Ref sig .tc := ⟨.hbm, 1448, rfl⟩
abbrev main_v1447 : Ref sig .tc := ⟨.hbm, 1449, rfl⟩
abbrev main_v1448 : Ref sig .tc := ⟨.hbm, 1450, rfl⟩
abbrev main_v1449 : Ref sig .tc := ⟨.hbm, 1451, rfl⟩
abbrev main_v1450 : Ref sig .tc := ⟨.hbm, 1452, rfl⟩
abbrev main_v1451 : Ref sig .tc := ⟨.hbm, 1453, rfl⟩
abbrev main_v1452 : Ref sig .tc := ⟨.hbm, 1454, rfl⟩
abbrev main_v1453 : Ref sig .tc := ⟨.hbm, 1455, rfl⟩
abbrev main_v1454 : Ref sig .tc := ⟨.hbm, 1456, rfl⟩
abbrev main_v1455 : Ref sig .tc := ⟨.hbm, 1457, rfl⟩
abbrev main_v1456 : Ref sig .tc := ⟨.hbm, 1458, rfl⟩
abbrev main_v1457 : Ref sig .tc := ⟨.hbm, 1459, rfl⟩
abbrev main_v1458 : Ref sig .tc := ⟨.hbm, 1460, rfl⟩
abbrev main_v1459 : Ref sig .tc := ⟨.hbm, 1461, rfl⟩
abbrev main_v1460 : Ref sig .tc := ⟨.hbm, 1462, rfl⟩
abbrev main_v1461 : Ref sig .tc := ⟨.hbm, 1463, rfl⟩
abbrev main_v1462 : Ref sig .tc := ⟨.hbm, 1464, rfl⟩
abbrev main_v1463 : Ref sig .tc := ⟨.hbm, 1465, rfl⟩
abbrev main_v1464 : Ref sig .tc := ⟨.hbm, 1466, rfl⟩
abbrev main_v1465 : Ref sig .tc := ⟨.hbm, 1467, rfl⟩
abbrev main_v1466 : Ref sig .tc := ⟨.hbm, 1468, rfl⟩
abbrev main_v1467 : Ref sig .tc := ⟨.hbm, 1469, rfl⟩
abbrev main_v1468 : Ref sig .tc := ⟨.hbm, 1470, rfl⟩
abbrev main_v1469 : Ref sig .tc := ⟨.hbm, 1471, rfl⟩
abbrev main_v1470 : Ref sig .tc := ⟨.hbm, 1472, rfl⟩
abbrev main_v1471 : Ref sig .tc := ⟨.hbm, 1473, rfl⟩
abbrev main_v1472 : Ref sig .tc := ⟨.hbm, 1474, rfl⟩
abbrev main_v1473 : Ref sig .tc := ⟨.hbm, 1475, rfl⟩
abbrev main_v1474 : Ref sig .tc := ⟨.hbm, 1476, rfl⟩
abbrev main_v1475 : Ref sig .tc := ⟨.hbm, 1477, rfl⟩
abbrev main_v1476 : Ref sig .tc := ⟨.hbm, 1478, rfl⟩
abbrev main_v1477 : Ref sig .tc := ⟨.hbm, 1479, rfl⟩
abbrev main_v1478 : Ref sig .tc := ⟨.hbm, 1480, rfl⟩
abbrev main_v1479 : Ref sig .tc := ⟨.hbm, 1481, rfl⟩
abbrev main_v1480 : Ref sig .tc := ⟨.hbm, 1482, rfl⟩
abbrev main_v1481 : Ref sig .tc := ⟨.hbm, 1483, rfl⟩
abbrev main_v1482 : Ref sig .tc := ⟨.hbm, 1484, rfl⟩
abbrev main_v1483 : Ref sig .tc := ⟨.hbm, 1485, rfl⟩
abbrev main_v1484 : Ref sig .tc := ⟨.hbm, 1486, rfl⟩
abbrev main_v1485 : Ref sig .tc := ⟨.hbm, 1487, rfl⟩
abbrev main_v1486 : Ref sig .tc := ⟨.hbm, 1488, rfl⟩
abbrev main_v1487 : Ref sig .tc := ⟨.hbm, 1489, rfl⟩
abbrev main_v1488 : Ref sig .tc := ⟨.hbm, 1490, rfl⟩
abbrev main_v1489 : Ref sig .tc := ⟨.hbm, 1491, rfl⟩
abbrev main_v1490 : Ref sig .tc := ⟨.hbm, 1492, rfl⟩
abbrev main_v1491 : Ref sig .tc := ⟨.hbm, 1493, rfl⟩
abbrev main_v1492 : Ref sig .tc := ⟨.hbm, 1494, rfl⟩
abbrev main_v1493 : Ref sig .tc := ⟨.hbm, 1495, rfl⟩
abbrev main_v1494 : Ref sig .tc := ⟨.hbm, 1496, rfl⟩
abbrev main_v1495 : Ref sig .tc := ⟨.hbm, 1497, rfl⟩
abbrev main_v1496 : Ref sig .tc := ⟨.hbm, 1498, rfl⟩
abbrev main_v1497 : Ref sig .tc := ⟨.hbm, 1499, rfl⟩
abbrev main_v1498 : Ref sig .tc := ⟨.hbm, 1500, rfl⟩
abbrev main_v1499 : Ref sig .tc := ⟨.hbm, 1501, rfl⟩
abbrev main_v1500 : Ref sig .tc := ⟨.hbm, 1502, rfl⟩
abbrev main_v1501 : Ref sig .tc := ⟨.hbm, 1503, rfl⟩
abbrev main_v1502 : Ref sig .tc := ⟨.hbm, 1504, rfl⟩
abbrev main_v1503 : Ref sig .tc := ⟨.hbm, 1505, rfl⟩
abbrev main_v1504 : Ref sig .tc := ⟨.hbm, 1506, rfl⟩
abbrev main_v1505 : Ref sig .tc := ⟨.hbm, 1507, rfl⟩
abbrev main_v1506 : Ref sig .tc := ⟨.hbm, 1508, rfl⟩
abbrev main_v1507 : Ref sig .tc := ⟨.hbm, 1509, rfl⟩
abbrev main_v1508 : Ref sig .tc := ⟨.hbm, 1510, rfl⟩
abbrev main_v1509 : Ref sig .tc := ⟨.hbm, 1511, rfl⟩
abbrev main_v1510 : Ref sig .tc := ⟨.hbm, 1512, rfl⟩
abbrev main_v1511 : Ref sig .tc := ⟨.hbm, 1513, rfl⟩
abbrev main_v1512 : Ref sig .tc := ⟨.hbm, 1514, rfl⟩
abbrev main_v1513 : Ref sig .tc := ⟨.hbm, 1515, rfl⟩
abbrev main_v1514 : Ref sig .tc := ⟨.hbm, 1516, rfl⟩
abbrev main_v1515 : Ref sig .tc := ⟨.hbm, 1517, rfl⟩
abbrev main_v1516 : Ref sig .tc := ⟨.hbm, 1518, rfl⟩
abbrev main_v1517 : Ref sig .tc := ⟨.hbm, 1519, rfl⟩
abbrev main_v1518 : Ref sig .tc := ⟨.hbm, 1520, rfl⟩
abbrev main_v1519 : Ref sig .tc := ⟨.hbm, 1521, rfl⟩
abbrev main_v1520 : Ref sig .tc := ⟨.hbm, 1522, rfl⟩
abbrev main_v1521 : Ref sig .tc := ⟨.hbm, 1523, rfl⟩
abbrev main_v1522 : Ref sig .tc := ⟨.hbm, 1524, rfl⟩
abbrev main_v1523 : Ref sig .tc := ⟨.hbm, 1525, rfl⟩
abbrev main_v1524 : Ref sig .tc := ⟨.hbm, 1526, rfl⟩
abbrev main_v1525 : Ref sig .tc := ⟨.hbm, 1527, rfl⟩
abbrev main_v1526 : Ref sig .tc := ⟨.hbm, 1528, rfl⟩
abbrev main_v1527 : Ref sig .tc := ⟨.hbm, 1529, rfl⟩
abbrev main_v1528 : Ref sig .tc := ⟨.hbm, 1530, rfl⟩
abbrev main_v1529 : Ref sig .tc := ⟨.hbm, 1531, rfl⟩
abbrev main_v1530 : Ref sig .tc := ⟨.hbm, 1532, rfl⟩
abbrev main_v1531 : Ref sig .tc := ⟨.hbm, 1533, rfl⟩
abbrev main_v1532 : Ref sig .tc := ⟨.hbm, 1534, rfl⟩
abbrev main_v1533 : Ref sig .tc := ⟨.hbm, 1535, rfl⟩
abbrev main_v1534 : Ref sig .tc := ⟨.hbm, 1536, rfl⟩
abbrev main_v1535 : Ref sig .tc := ⟨.hbm, 1537, rfl⟩
abbrev main_v1536 : Ref sig .tc := ⟨.hbm, 1538, rfl⟩
abbrev main_v1537 : Ref sig .tc := ⟨.hbm, 1539, rfl⟩
abbrev main_v1538 : Ref sig .tc := ⟨.hbm, 1540, rfl⟩
abbrev main_v1539 : Ref sig .tc := ⟨.hbm, 1541, rfl⟩
abbrev main_v1540 : Ref sig .tc := ⟨.hbm, 1542, rfl⟩
abbrev main_v1541 : Ref sig .tc := ⟨.hbm, 1543, rfl⟩
abbrev main_v1542 : Ref sig .tc := ⟨.hbm, 1544, rfl⟩
abbrev main_v1543 : Ref sig .tc := ⟨.hbm, 1545, rfl⟩
abbrev main_v1544 : Ref sig .tc := ⟨.hbm, 1546, rfl⟩
abbrev main_v1545 : Ref sig .tc := ⟨.hbm, 1547, rfl⟩
abbrev main_v1546 : Ref sig .tc := ⟨.hbm, 1548, rfl⟩
abbrev main_v1547 : Ref sig .tc := ⟨.hbm, 1549, rfl⟩
abbrev main_v1548 : Ref sig .tc := ⟨.hbm, 1550, rfl⟩
abbrev main_v1549 : Ref sig .tc := ⟨.hbm, 1551, rfl⟩
abbrev main_v1550 : Ref sig .tc := ⟨.hbm, 1552, rfl⟩
abbrev main_v1551 : Ref sig .tc := ⟨.hbm, 1553, rfl⟩
abbrev main_v1552 : Ref sig .tc := ⟨.hbm, 1554, rfl⟩
abbrev main_v1553 : Ref sig .tc := ⟨.hbm, 1555, rfl⟩
abbrev main_v1554 : Ref sig .tc := ⟨.hbm, 1556, rfl⟩
abbrev main_v1555 : Ref sig .tc := ⟨.hbm, 1557, rfl⟩
abbrev main_v1556 : Ref sig .tc := ⟨.hbm, 1558, rfl⟩
abbrev main_v1557 : Ref sig .tc := ⟨.hbm, 1559, rfl⟩
abbrev main_v1558 : Ref sig .tc := ⟨.hbm, 1560, rfl⟩
abbrev main_v1559 : Ref sig .tc := ⟨.hbm, 1561, rfl⟩
abbrev main_v1560 : Ref sig .tc := ⟨.hbm, 1562, rfl⟩
abbrev main_v1561 : Ref sig .tc := ⟨.hbm, 1563, rfl⟩
abbrev main_v1562 : Ref sig .tc := ⟨.hbm, 1564, rfl⟩
abbrev main_v1563 : Ref sig .tc := ⟨.hbm, 1565, rfl⟩
abbrev main_v1564 : Ref sig .tc := ⟨.hbm, 1566, rfl⟩
abbrev main_v1565 : Ref sig .tc := ⟨.hbm, 1567, rfl⟩
abbrev main_v1566 : Ref sig .tc := ⟨.hbm, 1568, rfl⟩
abbrev main_v1567 : Ref sig .tc := ⟨.hbm, 1569, rfl⟩
abbrev main_v1568 : Ref sig .tc := ⟨.hbm, 1570, rfl⟩
abbrev main_v1569 : Ref sig .tc := ⟨.hbm, 1571, rfl⟩
abbrev main_v1570 : Ref sig .tc := ⟨.hbm, 1572, rfl⟩
abbrev main_v1571 : Ref sig .tc := ⟨.hbm, 1573, rfl⟩
abbrev main_v1572 : Ref sig .tc := ⟨.hbm, 1574, rfl⟩
abbrev main_v1573 : Ref sig .tc := ⟨.hbm, 1575, rfl⟩
abbrev main_v1574 : Ref sig .tc := ⟨.hbm, 1576, rfl⟩
abbrev main_v1575 : Ref sig .tc := ⟨.hbm, 1577, rfl⟩
abbrev main_v1576 : Ref sig .tc := ⟨.hbm, 1578, rfl⟩
abbrev main_v1577 : Ref sig .tc := ⟨.hbm, 1579, rfl⟩
abbrev main_v1578 : Ref sig .tc := ⟨.hbm, 1580, rfl⟩
abbrev main_v1579 : Ref sig .tc := ⟨.hbm, 1581, rfl⟩
abbrev main_v1580 : Ref sig .tc := ⟨.hbm, 1582, rfl⟩
abbrev main_v1581 : Ref sig .tc := ⟨.hbm, 1583, rfl⟩
abbrev main_v1582 : Ref sig .tc := ⟨.hbm, 1584, rfl⟩
abbrev main_v1583 : Ref sig .tc := ⟨.hbm, 1585, rfl⟩
abbrev main_v1584 : Ref sig .tc := ⟨.hbm, 1586, rfl⟩
abbrev main_v1585 : Ref sig .tc := ⟨.hbm, 1587, rfl⟩
abbrev main_v1586 : Ref sig .tc := ⟨.hbm, 1588, rfl⟩
abbrev main_v1587 : Ref sig .tc := ⟨.hbm, 1589, rfl⟩
abbrev main_v1588 : Ref sig .tc := ⟨.hbm, 1590, rfl⟩
abbrev main_v1589 : Ref sig .tc := ⟨.hbm, 1591, rfl⟩
abbrev main_v1590 : Ref sig .tc := ⟨.hbm, 1592, rfl⟩
abbrev main_v1591 : Ref sig .tc := ⟨.hbm, 1593, rfl⟩
abbrev main_v1592 : Ref sig .tc := ⟨.hbm, 1594, rfl⟩
abbrev main_v1593 : Ref sig .tc := ⟨.hbm, 1595, rfl⟩
abbrev main_v1594 : Ref sig .tc := ⟨.hbm, 1596, rfl⟩
abbrev main_v1595 : Ref sig .tc := ⟨.hbm, 1597, rfl⟩
abbrev main_v1596 : Ref sig .tc := ⟨.hbm, 1598, rfl⟩
abbrev main_v1597 : Ref sig .tc := ⟨.hbm, 1599, rfl⟩
abbrev main_v1598 : Ref sig .tc := ⟨.hbm, 1600, rfl⟩
abbrev main_v1599 : Ref sig .tc := ⟨.hbm, 1601, rfl⟩
abbrev main_v1600 : Ref sig .tc := ⟨.hbm, 1602, rfl⟩
abbrev main_v1601 : Ref sig .tc := ⟨.hbm, 1603, rfl⟩
abbrev main_v1602 : Ref sig .tc := ⟨.hbm, 1604, rfl⟩
abbrev main_v1603 : Ref sig .tc := ⟨.hbm, 1605, rfl⟩
abbrev main_v1604 : Ref sig .tc := ⟨.hbm, 1606, rfl⟩
abbrev main_v1605 : Ref sig .tc := ⟨.hbm, 1607, rfl⟩
abbrev main_v1606 : Ref sig .tc := ⟨.hbm, 1608, rfl⟩
abbrev main_v1607 : Ref sig .tc := ⟨.hbm, 1609, rfl⟩
abbrev main_v1608 : Ref sig .tc := ⟨.hbm, 1610, rfl⟩
abbrev main_v1609 : Ref sig .tc := ⟨.hbm, 1611, rfl⟩
abbrev main_v1610 : Ref sig .tc := ⟨.hbm, 1612, rfl⟩
abbrev main_v1611 : Ref sig .tc := ⟨.hbm, 1613, rfl⟩
abbrev main_v1612 : Ref sig .tc := ⟨.hbm, 1614, rfl⟩
abbrev main_v1613 : Ref sig .tc := ⟨.hbm, 1615, rfl⟩
abbrev main_v1614 : Ref sig .tc := ⟨.hbm, 1616, rfl⟩
abbrev main_v1615 : Ref sig .tc := ⟨.hbm, 1617, rfl⟩
abbrev main_v1616 : Ref sig .tc := ⟨.hbm, 1618, rfl⟩
abbrev main_v1617 : Ref sig .tc := ⟨.hbm, 1619, rfl⟩
abbrev main_v1618 : Ref sig .tc := ⟨.hbm, 1620, rfl⟩
abbrev main_v1619 : Ref sig .tc := ⟨.hbm, 1621, rfl⟩
abbrev main_v1620 : Ref sig .tc := ⟨.hbm, 1622, rfl⟩
abbrev main_v1621 : Ref sig .tc := ⟨.hbm, 1623, rfl⟩
abbrev main_v1622 : Ref sig .tc := ⟨.hbm, 1624, rfl⟩
abbrev main_v1623 : Ref sig .tc := ⟨.hbm, 1625, rfl⟩
abbrev main_v1624 : Ref sig .tc := ⟨.hbm, 1626, rfl⟩
abbrev main_v1625 : Ref sig .tc := ⟨.hbm, 1627, rfl⟩
abbrev main_v1626 : Ref sig .tc := ⟨.hbm, 1628, rfl⟩
abbrev main_v1627 : Ref sig .tc := ⟨.hbm, 1629, rfl⟩
abbrev main_v1628 : Ref sig .tc := ⟨.hbm, 1630, rfl⟩
abbrev main_v1629 : Ref sig .tc := ⟨.hbm, 1631, rfl⟩
abbrev main_v1630 : Ref sig .tc := ⟨.hbm, 1632, rfl⟩
abbrev main_v1631 : Ref sig .tc := ⟨.hbm, 1633, rfl⟩
abbrev main_v1632 : Ref sig .tc := ⟨.hbm, 1634, rfl⟩
abbrev main_v1633 : Ref sig .tc := ⟨.hbm, 1635, rfl⟩
abbrev main_v1634 : Ref sig .tc := ⟨.hbm, 1636, rfl⟩
abbrev main_v1635 : Ref sig .tc := ⟨.hbm, 1637, rfl⟩
abbrev main_v1636 : Ref sig .tc := ⟨.hbm, 1638, rfl⟩
abbrev main_v1637 : Ref sig .tc := ⟨.hbm, 1639, rfl⟩
abbrev main_v1638 : Ref sig .tc := ⟨.hbm, 1640, rfl⟩
abbrev main_v1639 : Ref sig .tc := ⟨.hbm, 1641, rfl⟩
abbrev main_v1640 : Ref sig .tc := ⟨.hbm, 1642, rfl⟩
abbrev main_v1641 : Ref sig .tc := ⟨.hbm, 1643, rfl⟩
abbrev main_v1642 : Ref sig .tc := ⟨.hbm, 1644, rfl⟩
abbrev main_v1643 : Ref sig .tc := ⟨.hbm, 1645, rfl⟩
abbrev main_v1644 : Ref sig .tc := ⟨.hbm, 1646, rfl⟩
abbrev main_v1645 : Ref sig .tc := ⟨.hbm, 1647, rfl⟩
abbrev main_v1646 : Ref sig .tc := ⟨.hbm, 1648, rfl⟩
abbrev main_v1647 : Ref sig .tc := ⟨.hbm, 1649, rfl⟩
abbrev main_v1648 : Ref sig .tc := ⟨.hbm, 1650, rfl⟩
abbrev main_v1649 : Ref sig .tc := ⟨.hbm, 1651, rfl⟩
abbrev main_v1650 : Ref sig .tc := ⟨.hbm, 1652, rfl⟩
abbrev main_v1651 : Ref sig .tc := ⟨.hbm, 1653, rfl⟩
abbrev main_v1652 : Ref sig .tc := ⟨.hbm, 1654, rfl⟩
abbrev main_v1653 : Ref sig .tc := ⟨.hbm, 1655, rfl⟩
abbrev main_v1654 : Ref sig .tc := ⟨.hbm, 1656, rfl⟩
abbrev main_v1655 : Ref sig .tc := ⟨.hbm, 1657, rfl⟩
abbrev main_v1656 : Ref sig .tc := ⟨.hbm, 1658, rfl⟩
abbrev main_v1657 : Ref sig .tc := ⟨.hbm, 1659, rfl⟩
abbrev main_v1658 : Ref sig .tc := ⟨.hbm, 1660, rfl⟩
abbrev main_v1659 : Ref sig .tc := ⟨.hbm, 1661, rfl⟩
abbrev main_v1660 : Ref sig .tc := ⟨.hbm, 1662, rfl⟩
abbrev main_v1661 : Ref sig .tc := ⟨.hbm, 1663, rfl⟩
abbrev main_v1662 : Ref sig .tc := ⟨.hbm, 1664, rfl⟩
abbrev main_v1663 : Ref sig .tc := ⟨.hbm, 1665, rfl⟩
abbrev main_v1664 : Ref sig .tc := ⟨.hbm, 1666, rfl⟩
abbrev main_v1665 : Ref sig .tc := ⟨.hbm, 1667, rfl⟩
abbrev main_v1666 : Ref sig .tc := ⟨.hbm, 1668, rfl⟩
abbrev main_v1667 : Ref sig .tc := ⟨.hbm, 1669, rfl⟩
abbrev main_v1668 : Ref sig .tc := ⟨.hbm, 1670, rfl⟩
abbrev main_v1669 : Ref sig .tc := ⟨.hbm, 1671, rfl⟩
abbrev main_v1670 : Ref sig .tc := ⟨.hbm, 1672, rfl⟩
abbrev main_v1671 : Ref sig .tc := ⟨.hbm, 1673, rfl⟩
abbrev main_v1672 : Ref sig .tc := ⟨.hbm, 1674, rfl⟩
abbrev main_v1673 : Ref sig .tc := ⟨.hbm, 1675, rfl⟩
abbrev main_v1674 : Ref sig .tc := ⟨.hbm, 1676, rfl⟩
abbrev main_v1675 : Ref sig .tc := ⟨.hbm, 1677, rfl⟩
abbrev main_v1676 : Ref sig .tc := ⟨.hbm, 1678, rfl⟩
abbrev main_v1677 : Ref sig .tc := ⟨.hbm, 1679, rfl⟩
abbrev main_v1678 : Ref sig .tc := ⟨.hbm, 1680, rfl⟩
abbrev main_v1679 : Ref sig .tc := ⟨.hbm, 1681, rfl⟩
abbrev main_v1680 : Ref sig .tc := ⟨.hbm, 1682, rfl⟩
abbrev main_v1681 : Ref sig .tc := ⟨.hbm, 1683, rfl⟩
abbrev main_v1682 : Ref sig .tc := ⟨.hbm, 1684, rfl⟩
abbrev main_v1683 : Ref sig .tc := ⟨.hbm, 1685, rfl⟩
abbrev main_v1684 : Ref sig .tc := ⟨.hbm, 1686, rfl⟩
abbrev main_v1685 : Ref sig .tc := ⟨.hbm, 1687, rfl⟩
abbrev main_v1686 : Ref sig .tc := ⟨.hbm, 1688, rfl⟩
abbrev main_v1687 : Ref sig .tc := ⟨.hbm, 1689, rfl⟩
abbrev main_v1688 : Ref sig .tc := ⟨.hbm, 1690, rfl⟩
abbrev main_v1689 : Ref sig .tc := ⟨.hbm, 1691, rfl⟩
abbrev main_v1690 : Ref sig .tc := ⟨.hbm, 1692, rfl⟩
abbrev main_v1691 : Ref sig .tc := ⟨.hbm, 1693, rfl⟩
abbrev main_v1692 : Ref sig .tc := ⟨.hbm, 1694, rfl⟩
abbrev main_v1693 : Ref sig .tc := ⟨.hbm, 1695, rfl⟩
abbrev main_v1694 : Ref sig .tc := ⟨.hbm, 1696, rfl⟩
abbrev main_v1695 : Ref sig .tc := ⟨.hbm, 1697, rfl⟩
abbrev main_v1696 : Ref sig .tc := ⟨.hbm, 1698, rfl⟩
abbrev main_v1697 : Ref sig .tc := ⟨.hbm, 1699, rfl⟩
abbrev main_v1698 : Ref sig .tc := ⟨.hbm, 1700, rfl⟩
abbrev main_v1699 : Ref sig .tc := ⟨.hbm, 1701, rfl⟩
abbrev main_v1700 : Ref sig .tc := ⟨.hbm, 1702, rfl⟩
abbrev main_v1701 : Ref sig .tc := ⟨.hbm, 1703, rfl⟩
abbrev main_v1702 : Ref sig .tc := ⟨.hbm, 1704, rfl⟩
abbrev main_v1703 : Ref sig .tc := ⟨.hbm, 1705, rfl⟩
abbrev main_v1704 : Ref sig .tc := ⟨.hbm, 1706, rfl⟩
abbrev main_v1705 : Ref sig .tc := ⟨.hbm, 1707, rfl⟩
abbrev main_v1706 : Ref sig .tc := ⟨.hbm, 1708, rfl⟩
abbrev main_v1707 : Ref sig .tc := ⟨.hbm, 1709, rfl⟩
abbrev main_v1708 : Ref sig .tc := ⟨.hbm, 1710, rfl⟩
abbrev main_v1709 : Ref sig .tc := ⟨.hbm, 1711, rfl⟩
abbrev main_v1710 : Ref sig .tc := ⟨.hbm, 1712, rfl⟩
abbrev main_v1711 : Ref sig .tc := ⟨.hbm, 1713, rfl⟩
abbrev main_v1712 : Ref sig .tc := ⟨.hbm, 1714, rfl⟩
abbrev main_v1713 : Ref sig .tc := ⟨.hbm, 1715, rfl⟩
abbrev main_v1714 : Ref sig .tc := ⟨.hbm, 1716, rfl⟩
abbrev main_v1715 : Ref sig .tc := ⟨.hbm, 1717, rfl⟩
abbrev main_v1716 : Ref sig .tc := ⟨.hbm, 1718, rfl⟩
abbrev main_v1717 : Ref sig .tc := ⟨.hbm, 1719, rfl⟩
abbrev main_v1718 : Ref sig .tc := ⟨.hbm, 1720, rfl⟩
abbrev main_v1719 : Ref sig .tc := ⟨.hbm, 1721, rfl⟩
abbrev main_v1720 : Ref sig .tc := ⟨.hbm, 1722, rfl⟩
abbrev main_v1721 : Ref sig .tc := ⟨.hbm, 1723, rfl⟩
abbrev main_v1722 : Ref sig .tc := ⟨.hbm, 1724, rfl⟩
abbrev main_v1723 : Ref sig .tc := ⟨.hbm, 1725, rfl⟩
abbrev main_v1724 : Ref sig .tc := ⟨.hbm, 1726, rfl⟩
abbrev main_v1725 : Ref sig .tc := ⟨.hbm, 1727, rfl⟩
abbrev main_v1726 : Ref sig .tc := ⟨.hbm, 1728, rfl⟩
abbrev main_v1727 : Ref sig .tc := ⟨.hbm, 1729, rfl⟩
abbrev main_v1728 : Ref sig .tc := ⟨.hbm, 1730, rfl⟩
abbrev main_v1729 : Ref sig .tc := ⟨.hbm, 1731, rfl⟩
abbrev main_v1730 : Ref sig .tc := ⟨.hbm, 1732, rfl⟩
abbrev main_v1731 : Ref sig .tc := ⟨.hbm, 1733, rfl⟩
abbrev main_v1732 : Ref sig .tc := ⟨.hbm, 1734, rfl⟩
abbrev main_v1733 : Ref sig .tc := ⟨.hbm, 1735, rfl⟩
abbrev main_v1734 : Ref sig .tc := ⟨.hbm, 1736, rfl⟩
abbrev main_v1735 : Ref sig .tc := ⟨.hbm, 1737, rfl⟩
abbrev main_v1736 : Ref sig .tc := ⟨.hbm, 1738, rfl⟩
abbrev main_v1737 : Ref sig .tc := ⟨.hbm, 1739, rfl⟩
abbrev main_v1738 : Ref sig .tc := ⟨.hbm, 1740, rfl⟩
abbrev main_v1739 : Ref sig .tc := ⟨.hbm, 1741, rfl⟩
abbrev main_v1740 : Ref sig .tc := ⟨.hbm, 1742, rfl⟩
abbrev main_v1741 : Ref sig .tc := ⟨.hbm, 1743, rfl⟩
abbrev main_v1742 : Ref sig .tc := ⟨.hbm, 1744, rfl⟩
abbrev main_v1743 : Ref sig .tc := ⟨.hbm, 1745, rfl⟩
abbrev main_v1744 : Ref sig .tc := ⟨.hbm, 1746, rfl⟩
abbrev main_v1745 : Ref sig .tc := ⟨.hbm, 1747, rfl⟩
abbrev main_v1746 : Ref sig .tc := ⟨.hbm, 1748, rfl⟩
abbrev main_v1747 : Ref sig .tc := ⟨.hbm, 1749, rfl⟩
abbrev main_v1748 : Ref sig .tc := ⟨.hbm, 1750, rfl⟩
abbrev main_v1749 : Ref sig .tc := ⟨.hbm, 1751, rfl⟩
abbrev main_v1750 : Ref sig .tc := ⟨.hbm, 1752, rfl⟩
abbrev main_v1751 : Ref sig .tc := ⟨.hbm, 1753, rfl⟩
abbrev main_v1752 : Ref sig .tc := ⟨.hbm, 1754, rfl⟩
abbrev main_v1753 : Ref sig .tc := ⟨.hbm, 1755, rfl⟩
abbrev main_v1754 : Ref sig .tc := ⟨.hbm, 1756, rfl⟩
abbrev main_v1755 : Ref sig .tc := ⟨.hbm, 1757, rfl⟩
abbrev main_v1756 : Ref sig .tc := ⟨.hbm, 1758, rfl⟩
abbrev main_v1757 : Ref sig .tc := ⟨.hbm, 1759, rfl⟩
abbrev main_v1758 : Ref sig .tc := ⟨.hbm, 1760, rfl⟩
abbrev main_v1759 : Ref sig .tc := ⟨.hbm, 1761, rfl⟩
abbrev main_v1760 : Ref sig .tc := ⟨.hbm, 1762, rfl⟩
abbrev main_v1761 : Ref sig .tc := ⟨.hbm, 1763, rfl⟩
abbrev main_v1762 : Ref sig .tc := ⟨.hbm, 1764, rfl⟩
abbrev main_v1763 : Ref sig .tc := ⟨.hbm, 1765, rfl⟩
abbrev main_v1764 : Ref sig .tc := ⟨.hbm, 1766, rfl⟩
abbrev main_v1765 : Ref sig .tc := ⟨.hbm, 1767, rfl⟩
abbrev main_v1766 : Ref sig .tc := ⟨.hbm, 1768, rfl⟩
abbrev main_v1767 : Ref sig .tc := ⟨.hbm, 1769, rfl⟩
abbrev main_v1768 : Ref sig .tc := ⟨.hbm, 1770, rfl⟩
abbrev main_v1769 : Ref sig .tc := ⟨.hbm, 1771, rfl⟩
abbrev main_v1770 : Ref sig .tc := ⟨.hbm, 1772, rfl⟩
abbrev main_v1771 : Ref sig .tc := ⟨.hbm, 1773, rfl⟩
abbrev main_v1772 : Ref sig .tc := ⟨.hbm, 1774, rfl⟩
abbrev main_v1773 : Ref sig .tc := ⟨.hbm, 1775, rfl⟩
abbrev main_v1774 : Ref sig .tc := ⟨.hbm, 1776, rfl⟩
abbrev main_v1775 : Ref sig .tc := ⟨.hbm, 1777, rfl⟩
abbrev main_v1776 : Ref sig .tc := ⟨.hbm, 1778, rfl⟩
abbrev main_v1777 : Ref sig .tc := ⟨.hbm, 1779, rfl⟩
abbrev main_v1778 : Ref sig .tc := ⟨.hbm, 1780, rfl⟩
abbrev main_v1779 : Ref sig .tc := ⟨.hbm, 1781, rfl⟩
abbrev main_v1780 : Ref sig .tc := ⟨.hbm, 1782, rfl⟩
abbrev main_v1781 : Ref sig .tc := ⟨.hbm, 1783, rfl⟩
abbrev main_v1782 : Ref sig .tc := ⟨.hbm, 1784, rfl⟩
abbrev main_v1783 : Ref sig .tc := ⟨.hbm, 1785, rfl⟩
abbrev main_v1784 : Ref sig .tc := ⟨.hbm, 1786, rfl⟩
abbrev main_v1785 : Ref sig .tc := ⟨.hbm, 1787, rfl⟩
abbrev main_v1786 : Ref sig .tc := ⟨.hbm, 1788, rfl⟩
abbrev main_v1787 : Ref sig .tc := ⟨.hbm, 1789, rfl⟩
abbrev main_v1788 : Ref sig .tc := ⟨.hbm, 1790, rfl⟩
abbrev main_v1789 : Ref sig .tc := ⟨.hbm, 1791, rfl⟩
abbrev main_v1790 : Ref sig .tc := ⟨.hbm, 1792, rfl⟩
abbrev main_v1791 : Ref sig .tc := ⟨.hbm, 1793, rfl⟩
abbrev main_v1792 : Ref sig .tc := ⟨.hbm, 1794, rfl⟩
abbrev main_v1793 : Ref sig .tc := ⟨.hbm, 1795, rfl⟩
abbrev main_v1794 : Ref sig .tc := ⟨.hbm, 1796, rfl⟩
abbrev main_v1795 : Ref sig .tc := ⟨.hbm, 1797, rfl⟩
abbrev main_v1796 : Ref sig .tc := ⟨.hbm, 1798, rfl⟩
abbrev main_v1797 : Ref sig .tc := ⟨.hbm, 1799, rfl⟩
abbrev main_v1798 : Ref sig .tc := ⟨.hbm, 1800, rfl⟩
abbrev main_v1799 : Ref sig .tc := ⟨.hbm, 1801, rfl⟩
abbrev main_v1800 : Ref sig .tc := ⟨.hbm, 1802, rfl⟩
abbrev main_v1801 : Ref sig .tc := ⟨.hbm, 1803, rfl⟩
abbrev main_v1802 : Ref sig .tc := ⟨.hbm, 1804, rfl⟩
abbrev main_v1803 : Ref sig .tc := ⟨.hbm, 1805, rfl⟩
abbrev main_v1804 : Ref sig .tc := ⟨.hbm, 1806, rfl⟩
abbrev main_v1805 : Ref sig .tc := ⟨.hbm, 1807, rfl⟩
abbrev main_v1806 : Ref sig .tc := ⟨.hbm, 1808, rfl⟩
abbrev main_v1807 : Ref sig .tc := ⟨.hbm, 1809, rfl⟩
abbrev main_v1808 : Ref sig .tc := ⟨.hbm, 1810, rfl⟩
abbrev main_v1809 : Ref sig .tc := ⟨.hbm, 1811, rfl⟩
abbrev main_v1810 : Ref sig .tc := ⟨.hbm, 1812, rfl⟩
abbrev main_v1811 : Ref sig .tc := ⟨.hbm, 1813, rfl⟩
abbrev main_v1812 : Ref sig .tc := ⟨.hbm, 1814, rfl⟩
abbrev main_v1813 : Ref sig .tc := ⟨.hbm, 1815, rfl⟩
abbrev main_v1814 : Ref sig .tc := ⟨.hbm, 1816, rfl⟩
abbrev main_v1815 : Ref sig .tc := ⟨.hbm, 1817, rfl⟩
abbrev main_v1816 : Ref sig .tc := ⟨.hbm, 1818, rfl⟩
abbrev main_v1817 : Ref sig .tc := ⟨.hbm, 1819, rfl⟩
abbrev main_v1818 : Ref sig .tc := ⟨.hbm, 1820, rfl⟩
abbrev main_v1819 : Ref sig .tc := ⟨.hbm, 1821, rfl⟩
abbrev main_v1820 : Ref sig .tc := ⟨.hbm, 1822, rfl⟩
abbrev main_v1821 : Ref sig .tc := ⟨.hbm, 1823, rfl⟩
abbrev main_v1822 : Ref sig .tc := ⟨.hbm, 1824, rfl⟩
abbrev main_v1823 : Ref sig .tc := ⟨.hbm, 1825, rfl⟩
abbrev main_v1824 : Ref sig .tc := ⟨.hbm, 1826, rfl⟩
abbrev main_v1825 : Ref sig .tc := ⟨.hbm, 1827, rfl⟩
abbrev main_v1826 : Ref sig .tc := ⟨.hbm, 1828, rfl⟩
abbrev main_v1827 : Ref sig .tc := ⟨.hbm, 1829, rfl⟩
abbrev main_v1828 : Ref sig .tc := ⟨.hbm, 1830, rfl⟩
abbrev main_v1829 : Ref sig .tc := ⟨.hbm, 1831, rfl⟩
abbrev main_v1830 : Ref sig .tc := ⟨.hbm, 1832, rfl⟩
abbrev main_v1831 : Ref sig .tc := ⟨.hbm, 1833, rfl⟩
abbrev main_v1832 : Ref sig .tc := ⟨.hbm, 1834, rfl⟩
abbrev main_v1833 : Ref sig .tc := ⟨.hbm, 1835, rfl⟩
abbrev main_v1834 : Ref sig .tc := ⟨.hbm, 1836, rfl⟩
abbrev main_v1835 : Ref sig .tc := ⟨.hbm, 1837, rfl⟩
abbrev main_v1836 : Ref sig .tc := ⟨.hbm, 1838, rfl⟩
abbrev main_v1837 : Ref sig .tc := ⟨.hbm, 1839, rfl⟩
abbrev main_v1838 : Ref sig .tc := ⟨.hbm, 1840, rfl⟩
abbrev main_v1839 : Ref sig .tc := ⟨.hbm, 1841, rfl⟩
abbrev main_v1840 : Ref sig .tc := ⟨.hbm, 1842, rfl⟩
abbrev main_v1841 : Ref sig .tc := ⟨.hbm, 1843, rfl⟩
abbrev main_v1842 : Ref sig .tc := ⟨.hbm, 1844, rfl⟩
abbrev main_v1843 : Ref sig .tc := ⟨.hbm, 1845, rfl⟩
abbrev main_v1844 : Ref sig .tc := ⟨.hbm, 1846, rfl⟩
abbrev main_v1845 : Ref sig .tc := ⟨.hbm, 1847, rfl⟩
abbrev main_v1846 : Ref sig .tc := ⟨.hbm, 1848, rfl⟩
abbrev main_v1847 : Ref sig .tc := ⟨.hbm, 1849, rfl⟩
abbrev main_v1848 : Ref sig .tc := ⟨.hbm, 1850, rfl⟩
abbrev main_v1849 : Ref sig .tc := ⟨.hbm, 1851, rfl⟩
abbrev main_v1850 : Ref sig .tc := ⟨.hbm, 1852, rfl⟩
abbrev main_v1851 : Ref sig .tc := ⟨.hbm, 1853, rfl⟩
abbrev main_v1852 : Ref sig .tc := ⟨.hbm, 1854, rfl⟩
abbrev main_v1853 : Ref sig .tc := ⟨.hbm, 1855, rfl⟩
abbrev main_v1854 : Ref sig .tc := ⟨.hbm, 1856, rfl⟩
abbrev main_v1855 : Ref sig .tc := ⟨.hbm, 1857, rfl⟩
abbrev main_v1856 : Ref sig .tc := ⟨.hbm, 1858, rfl⟩
abbrev main_v1857 : Ref sig .tc := ⟨.hbm, 1859, rfl⟩
abbrev main_v1858 : Ref sig .tc := ⟨.hbm, 1860, rfl⟩
abbrev main_v1859 : Ref sig .tc := ⟨.hbm, 1861, rfl⟩
abbrev main_v1860 : Ref sig .tc := ⟨.hbm, 1862, rfl⟩
abbrev main_v1861 : Ref sig .tc := ⟨.hbm, 1863, rfl⟩
abbrev main_v1862 : Ref sig .tc := ⟨.hbm, 1864, rfl⟩
abbrev main_v1863 : Ref sig .tc := ⟨.hbm, 1865, rfl⟩
abbrev main_v1864 : Ref sig .tc := ⟨.hbm, 1866, rfl⟩
abbrev main_v1865 : Ref sig .tc := ⟨.hbm, 1867, rfl⟩
abbrev main_v1866 : Ref sig .tc := ⟨.hbm, 1868, rfl⟩
abbrev main_v1867 : Ref sig .tc := ⟨.hbm, 1869, rfl⟩
abbrev main_v1868 : Ref sig .tc := ⟨.hbm, 1870, rfl⟩
abbrev main_v1869 : Ref sig .tc := ⟨.hbm, 1871, rfl⟩
abbrev main_v1870 : Ref sig .tc := ⟨.hbm, 1872, rfl⟩
abbrev main_v1871 : Ref sig .tc := ⟨.hbm, 1873, rfl⟩
abbrev main_v1872 : Ref sig .tc := ⟨.hbm, 1874, rfl⟩
abbrev main_v1873 : Ref sig .tc := ⟨.hbm, 1875, rfl⟩
abbrev main_v1874 : Ref sig .tc := ⟨.hbm, 1876, rfl⟩
abbrev main_v1875 : Ref sig .tc := ⟨.hbm, 1877, rfl⟩
abbrev main_v1876 : Ref sig .tc := ⟨.hbm, 1878, rfl⟩
abbrev main_v1877 : Ref sig .tc := ⟨.hbm, 1879, rfl⟩
abbrev main_v1878 : Ref sig .tc := ⟨.hbm, 1880, rfl⟩
abbrev main_v1879 : Ref sig .tc := ⟨.hbm, 1881, rfl⟩
abbrev main_v1880 : Ref sig .tc := ⟨.hbm, 1882, rfl⟩
abbrev main_v1881 : Ref sig .tc := ⟨.hbm, 1883, rfl⟩
abbrev main_v1882 : Ref sig .tc := ⟨.hbm, 1884, rfl⟩
abbrev main_v1883 : Ref sig .tc := ⟨.hbm, 1885, rfl⟩
abbrev main_v1884 : Ref sig .tc := ⟨.hbm, 1886, rfl⟩
abbrev main_v1885 : Ref sig .tc := ⟨.hbm, 1887, rfl⟩
abbrev main_v1886 : Ref sig .tc := ⟨.hbm, 1888, rfl⟩
abbrev main_v1887 : Ref sig .tc := ⟨.hbm, 1889, rfl⟩
abbrev main_v1888 : Ref sig .tc := ⟨.hbm, 1890, rfl⟩
abbrev main_v1889 : Ref sig .tc := ⟨.hbm, 1891, rfl⟩
abbrev main_v1890 : Ref sig .tc := ⟨.hbm, 1892, rfl⟩
abbrev main_v1891 : Ref sig .tc := ⟨.hbm, 1893, rfl⟩
abbrev main_v1892 : Ref sig .tc := ⟨.hbm, 1894, rfl⟩
abbrev main_v1893 : Ref sig .tc := ⟨.hbm, 1895, rfl⟩
abbrev main_v1894 : Ref sig .tc := ⟨.hbm, 1896, rfl⟩
abbrev main_v1895 : Ref sig .tc := ⟨.hbm, 1897, rfl⟩
abbrev main_v1896 : Ref sig .tc := ⟨.hbm, 1898, rfl⟩
abbrev main_v1897 : Ref sig .tc := ⟨.hbm, 1899, rfl⟩
abbrev main_v1898 : Ref sig .tc := ⟨.hbm, 1900, rfl⟩
abbrev main_v1899 : Ref sig .tc := ⟨.hbm, 1901, rfl⟩
abbrev main_v1900 : Ref sig .tc := ⟨.hbm, 1902, rfl⟩
abbrev main_v1901 : Ref sig .tc := ⟨.hbm, 1903, rfl⟩
abbrev main_v1902 : Ref sig .tc := ⟨.hbm, 1904, rfl⟩
abbrev main_v1903 : Ref sig .tc := ⟨.hbm, 1905, rfl⟩
abbrev main_v1904 : Ref sig .tc := ⟨.hbm, 1906, rfl⟩
abbrev main_v1905 : Ref sig .tc := ⟨.hbm, 1907, rfl⟩
abbrev main_v1906 : Ref sig .tc := ⟨.hbm, 1908, rfl⟩
abbrev main_v1907 : Ref sig .tc := ⟨.hbm, 1909, rfl⟩
abbrev main_v1908 : Ref sig .tc := ⟨.hbm, 1910, rfl⟩
abbrev main_v1909 : Ref sig .tc := ⟨.hbm, 1911, rfl⟩
abbrev main_v1910 : Ref sig .tc := ⟨.hbm, 1912, rfl⟩
abbrev main_v1911 : Ref sig .tc := ⟨.hbm, 1913, rfl⟩
abbrev main_v1912 : Ref sig .tc := ⟨.hbm, 1914, rfl⟩
abbrev main_v1913 : Ref sig .tc := ⟨.hbm, 1915, rfl⟩
abbrev main_v1914 : Ref sig .tc := ⟨.hbm, 1916, rfl⟩
abbrev main_v1915 : Ref sig .tc := ⟨.hbm, 1917, rfl⟩
abbrev main_v1916 : Ref sig .tc := ⟨.hbm, 1918, rfl⟩
abbrev main_v1917 : Ref sig .tc := ⟨.hbm, 1919, rfl⟩
abbrev main_v1918 : Ref sig .tc := ⟨.hbm, 1920, rfl⟩
abbrev main_v1919 : Ref sig .tc := ⟨.hbm, 1921, rfl⟩
abbrev main_v1920 : Ref sig .tc := ⟨.hbm, 1922, rfl⟩
abbrev main_v1921 : Ref sig .tc := ⟨.hbm, 1923, rfl⟩
abbrev main_v1922 : Ref sig .tc := ⟨.hbm, 1924, rfl⟩
abbrev main_v1923 : Ref sig .tc := ⟨.hbm, 1925, rfl⟩
abbrev main_v1924 : Ref sig .tc := ⟨.hbm, 1926, rfl⟩
abbrev main_v1925 : Ref sig .tc := ⟨.hbm, 1927, rfl⟩
abbrev main_v1926 : Ref sig .tc := ⟨.hbm, 1928, rfl⟩
abbrev main_v1927 : Ref sig .tc := ⟨.hbm, 1929, rfl⟩
abbrev main_v1928 : Ref sig .tc := ⟨.hbm, 1930, rfl⟩
abbrev main_v1929 : Ref sig .tc := ⟨.hbm, 1931, rfl⟩
abbrev main_v1930 : Ref sig .tc := ⟨.hbm, 1932, rfl⟩
abbrev main_v1931 : Ref sig .tc := ⟨.hbm, 1933, rfl⟩
abbrev main_v1932 : Ref sig .tc := ⟨.hbm, 1934, rfl⟩
abbrev main_v1933 : Ref sig .tc := ⟨.hbm, 1935, rfl⟩
abbrev main_v1934 : Ref sig .tc := ⟨.hbm, 1936, rfl⟩
abbrev main_v1935 : Ref sig .tc := ⟨.hbm, 1937, rfl⟩
abbrev main_v1936 : Ref sig .tc := ⟨.hbm, 1938, rfl⟩
abbrev main_v1937 : Ref sig .tc := ⟨.hbm, 1939, rfl⟩
abbrev main_v1938 : Ref sig .tc := ⟨.hbm, 1940, rfl⟩
abbrev main_v1939 : Ref sig .tc := ⟨.hbm, 1941, rfl⟩
abbrev main_v1940 : Ref sig .tc := ⟨.hbm, 1942, rfl⟩
abbrev main_v1941 : Ref sig .tc := ⟨.hbm, 1943, rfl⟩
abbrev main_v1942 : Ref sig .tc := ⟨.hbm, 1944, rfl⟩
abbrev main_v1943 : Ref sig .tc := ⟨.hbm, 1945, rfl⟩
abbrev main_v1944 : Ref sig .tc := ⟨.hbm, 1946, rfl⟩
abbrev main_v1945 : Ref sig .tc := ⟨.hbm, 1947, rfl⟩
abbrev main_v1946 : Ref sig .tc := ⟨.hbm, 1948, rfl⟩
abbrev main_v1947 : Ref sig .tc := ⟨.hbm, 1949, rfl⟩
abbrev main_v1948 : Ref sig .tc := ⟨.hbm, 1950, rfl⟩
abbrev main_v1949 : Ref sig .tc := ⟨.hbm, 1951, rfl⟩
abbrev main_v1950 : Ref sig .tc := ⟨.hbm, 1952, rfl⟩
abbrev main_v1951 : Ref sig .tc := ⟨.hbm, 1953, rfl⟩
abbrev main_v1952 : Ref sig .tc := ⟨.hbm, 1954, rfl⟩
abbrev main_v1953 : Ref sig .tc := ⟨.hbm, 1955, rfl⟩
abbrev main_v1954 : Ref sig .tc := ⟨.hbm, 1956, rfl⟩
abbrev main_v1955 : Ref sig .tc := ⟨.hbm, 1957, rfl⟩
abbrev main_v1956 : Ref sig .tc := ⟨.hbm, 1958, rfl⟩
abbrev main_v1957 : Ref sig .tc := ⟨.hbm, 1959, rfl⟩
abbrev main_v1958 : Ref sig .tc := ⟨.hbm, 1960, rfl⟩
abbrev main_v1959 : Ref sig .tc := ⟨.hbm, 1961, rfl⟩
abbrev main_v1960 : Ref sig .tc := ⟨.hbm, 1962, rfl⟩
abbrev main_v1961 : Ref sig .tc := ⟨.hbm, 1963, rfl⟩
abbrev main_v1962 : Ref sig .tc := ⟨.hbm, 1964, rfl⟩
abbrev main_v1963 : Ref sig .tc := ⟨.hbm, 1965, rfl⟩
abbrev main_v1964 : Ref sig .tc := ⟨.hbm, 1966, rfl⟩
abbrev main_v1965 : Ref sig .tc := ⟨.hbm, 1967, rfl⟩
abbrev main_v1966 : Ref sig .tc := ⟨.hbm, 1968, rfl⟩
abbrev main_v1967 : Ref sig .tc := ⟨.hbm, 1969, rfl⟩
abbrev main_v1968 : Ref sig .tc := ⟨.hbm, 1970, rfl⟩
abbrev main_v1969 : Ref sig .tc := ⟨.hbm, 1971, rfl⟩
abbrev main_v1970 : Ref sig .tc := ⟨.hbm, 1972, rfl⟩
abbrev main_v1971 : Ref sig .tc := ⟨.hbm, 1973, rfl⟩
abbrev main_v1972 : Ref sig .tc := ⟨.hbm, 1974, rfl⟩
abbrev main_v1973 : Ref sig .tc := ⟨.hbm, 1975, rfl⟩
abbrev main_v1974 : Ref sig .tc := ⟨.hbm, 1976, rfl⟩
abbrev main_v1975 : Ref sig .tc := ⟨.hbm, 1977, rfl⟩
abbrev main_v1976 : Ref sig .tc := ⟨.hbm, 1978, rfl⟩
abbrev main_v1977 : Ref sig .tc := ⟨.hbm, 1979, rfl⟩
abbrev main_v1978 : Ref sig .tc := ⟨.hbm, 1980, rfl⟩
abbrev main_v1979 : Ref sig .tc := ⟨.hbm, 1981, rfl⟩
abbrev main_v1980 : Ref sig .tc := ⟨.hbm, 1982, rfl⟩
abbrev main_v1981 : Ref sig .tc := ⟨.hbm, 1983, rfl⟩
abbrev main_v1982 : Ref sig .tc := ⟨.hbm, 1984, rfl⟩
abbrev main_v1983 : Ref sig .tc := ⟨.hbm, 1985, rfl⟩
abbrev main_v1984 : Ref sig .tc := ⟨.hbm, 1986, rfl⟩
abbrev main_v1985 : Ref sig .tc := ⟨.hbm, 1987, rfl⟩
abbrev main_v1986 : Ref sig .tc := ⟨.hbm, 1988, rfl⟩
abbrev main_v1987 : Ref sig .tc := ⟨.hbm, 1989, rfl⟩
abbrev main_v1988 : Ref sig .tc := ⟨.hbm, 1990, rfl⟩
abbrev main_v1989 : Ref sig .tc := ⟨.hbm, 1991, rfl⟩
abbrev main_v1990 : Ref sig .tc := ⟨.hbm, 1992, rfl⟩
abbrev main_v1991 : Ref sig .tc := ⟨.hbm, 1993, rfl⟩
abbrev main_v1992 : Ref sig .tc := ⟨.hbm, 1994, rfl⟩
abbrev main_v1993 : Ref sig .tc := ⟨.hbm, 1995, rfl⟩
abbrev main_v1994 : Ref sig .tc := ⟨.hbm, 1996, rfl⟩
abbrev main_v1995 : Ref sig .tc := ⟨.hbm, 1997, rfl⟩
abbrev main_v1996 : Ref sig .tc := ⟨.hbm, 1998, rfl⟩
abbrev main_v1997 : Ref sig .tc := ⟨.hbm, 1999, rfl⟩
abbrev main_v1998 : Ref sig .tc := ⟨.hbm, 2000, rfl⟩
abbrev main_v1999 : Ref sig .tc := ⟨.hbm, 2001, rfl⟩
abbrev main_v2000 : Ref sig .tc := ⟨.hbm, 2002, rfl⟩
abbrev main_v2001 : Ref sig .tc := ⟨.hbm, 2003, rfl⟩
abbrev main_v2002 : Ref sig .tc := ⟨.hbm, 2004, rfl⟩
abbrev main_v2003 : Ref sig .tc := ⟨.hbm, 2005, rfl⟩
abbrev main_v2004 : Ref sig .tc := ⟨.hbm, 2006, rfl⟩
abbrev main_v2005 : Ref sig .tc := ⟨.hbm, 2007, rfl⟩
abbrev main_v2006 : Ref sig .tc := ⟨.hbm, 2008, rfl⟩
abbrev main_v2007 : Ref sig .tc := ⟨.hbm, 2009, rfl⟩
abbrev main_v2008 : Ref sig .tc := ⟨.hbm, 2010, rfl⟩
abbrev main_v2009 : Ref sig .tc := ⟨.hbm, 2011, rfl⟩
abbrev main_v2010 : Ref sig .tc := ⟨.hbm, 2012, rfl⟩
abbrev main_v2011 : Ref sig .tc := ⟨.hbm, 2013, rfl⟩
abbrev main_v2012 : Ref sig .tc := ⟨.hbm, 2014, rfl⟩
abbrev main_v2013 : Ref sig .tc := ⟨.hbm, 2015, rfl⟩
abbrev main_v2014 : Ref sig .tc := ⟨.hbm, 2016, rfl⟩
abbrev main_v2015 : Ref sig .tc := ⟨.hbm, 2017, rfl⟩
abbrev main_v2016 : Ref sig .tc := ⟨.hbm, 2018, rfl⟩
abbrev main_v2017 : Ref sig .tc := ⟨.hbm, 2019, rfl⟩
abbrev main_v2018 : Ref sig .tc := ⟨.hbm, 2020, rfl⟩
abbrev main_v2019 : Ref sig .tc := ⟨.hbm, 2021, rfl⟩
abbrev main_v2020 : Ref sig .tc := ⟨.hbm, 2022, rfl⟩
abbrev main_v2021 : Ref sig .tc := ⟨.hbm, 2023, rfl⟩
abbrev main_v2022 : Ref sig .tc := ⟨.hbm, 2024, rfl⟩
abbrev main_v2023 : Ref sig .tc := ⟨.hbm, 2025, rfl⟩
abbrev main_v2024 : Ref sig .tc := ⟨.hbm, 2026, rfl⟩
abbrev main_v2025 : Ref sig .tc := ⟨.hbm, 2027, rfl⟩
abbrev main_v2026 : Ref sig .tc := ⟨.hbm, 2028, rfl⟩
abbrev main_v2027 : Ref sig .tc := ⟨.hbm, 2029, rfl⟩
abbrev main_v2028 : Ref sig .tc := ⟨.hbm, 2030, rfl⟩
abbrev main_v2029 : Ref sig .tc := ⟨.hbm, 2031, rfl⟩
abbrev main_v2030 : Ref sig .tc := ⟨.hbm, 2032, rfl⟩
abbrev main_v2031 : Ref sig .tc := ⟨.hbm, 2033, rfl⟩
abbrev main_v2032 : Ref sig .tc := ⟨.hbm, 2034, rfl⟩
abbrev main_v2033 : Ref sig .tc := ⟨.hbm, 2035, rfl⟩
abbrev main_v2034 : Ref sig .tc := ⟨.hbm, 2036, rfl⟩
abbrev main_v2035 : Ref sig .tc := ⟨.hbm, 2037, rfl⟩
abbrev main_v2036 : Ref sig .tc := ⟨.hbm, 2038, rfl⟩
abbrev main_v2037 : Ref sig .tc := ⟨.hbm, 2039, rfl⟩
abbrev main_v2038 : Ref sig .tc := ⟨.hbm, 2040, rfl⟩
abbrev main_v2039 : Ref sig .tc := ⟨.hbm, 2041, rfl⟩
abbrev main_v2040 : Ref sig .tc := ⟨.hbm, 2042, rfl⟩
abbrev main_v2041 : Ref sig .tc := ⟨.hbm, 2043, rfl⟩
abbrev main_v2042 : Ref sig .tc := ⟨.hbm, 2044, rfl⟩
abbrev main_v2043 : Ref sig .tc := ⟨.hbm, 2045, rfl⟩
abbrev main_v2044 : Ref sig .tc := ⟨.hbm, 2046, rfl⟩
abbrev main_v2045 : Ref sig .tc := ⟨.hbm, 2047, rfl⟩
abbrev main_v2046 : Ref sig .tc := ⟨.hbm, 2048, rfl⟩
abbrev main_v2047 : Ref sig .tc := ⟨.hbm, 2049, rfl⟩
abbrev main_v2048 : Ref sig .tc := ⟨.hbm, 2050, rfl⟩
abbrev main_v2049 : Ref sig .tc := ⟨.hbm, 2051, rfl⟩
abbrev main_v2050 : Ref sig .tc := ⟨.hbm, 2052, rfl⟩
abbrev main_v2051 : Ref sig .tc := ⟨.hbm, 2053, rfl⟩
abbrev main_v2052 : Ref sig .tc := ⟨.hbm, 2054, rfl⟩
abbrev main_v2053 : Ref sig .tc := ⟨.hbm, 2055, rfl⟩
abbrev main_v2054 : Ref sig .tc := ⟨.hbm, 2056, rfl⟩
abbrev main_v2055 : Ref sig .tc := ⟨.hbm, 2057, rfl⟩
abbrev main_v2056 : Ref sig .tc := ⟨.hbm, 2058, rfl⟩
abbrev main_v2057 : Ref sig .tc := ⟨.hbm, 2059, rfl⟩
abbrev main_v2058 : Ref sig .tc := ⟨.hbm, 2060, rfl⟩
abbrev main_v2059 : Ref sig .tc := ⟨.hbm, 2061, rfl⟩
abbrev main_v2060 : Ref sig .tc := ⟨.hbm, 2062, rfl⟩
abbrev main_v2061 : Ref sig .tc := ⟨.hbm, 2063, rfl⟩
abbrev main_v2062 : Ref sig .tc := ⟨.hbm, 2064, rfl⟩
abbrev main_v2063 : Ref sig .tc := ⟨.hbm, 2065, rfl⟩
abbrev main_v2064 : Ref sig .tc := ⟨.hbm, 2066, rfl⟩
abbrev main_v2065 : Ref sig .tc := ⟨.hbm, 2067, rfl⟩
abbrev main_v2066 : Ref sig .tc := ⟨.hbm, 2068, rfl⟩
abbrev main_v2067 : Ref sig .tc := ⟨.hbm, 2069, rfl⟩
abbrev main_v2068 : Ref sig .tc := ⟨.hbm, 2070, rfl⟩
abbrev main_v2069 : Ref sig .tc := ⟨.hbm, 2071, rfl⟩
abbrev main_v2070 : Ref sig .tc := ⟨.hbm, 2072, rfl⟩
abbrev main_v2071 : Ref sig .tc := ⟨.hbm, 2073, rfl⟩
abbrev main_v2072 : Ref sig .tc := ⟨.hbm, 2074, rfl⟩
abbrev main_v2073 : Ref sig .tc := ⟨.hbm, 2075, rfl⟩
abbrev main_v2074 : Ref sig .tc := ⟨.hbm, 2076, rfl⟩
abbrev main_v2075 : Ref sig .tc := ⟨.hbm, 2077, rfl⟩
abbrev main_v2076 : Ref sig .tc := ⟨.hbm, 2078, rfl⟩
abbrev main_v2077 : Ref sig .tc := ⟨.hbm, 2079, rfl⟩
abbrev main_v2078 : Ref sig .tc := ⟨.hbm, 2080, rfl⟩
abbrev main_v2079 : Ref sig .tc := ⟨.hbm, 2081, rfl⟩
abbrev main_v2080 : Ref sig .tc := ⟨.hbm, 2082, rfl⟩
abbrev main_v2081 : Ref sig .tc := ⟨.hbm, 2083, rfl⟩
abbrev main_v2082 : Ref sig .tc := ⟨.hbm, 2084, rfl⟩
abbrev main_v2083 : Ref sig .tc := ⟨.hbm, 2085, rfl⟩
abbrev main_v2084 : Ref sig .tc := ⟨.hbm, 2086, rfl⟩
abbrev main_v2085 : Ref sig .tc := ⟨.hbm, 2087, rfl⟩
abbrev main_v2086 : Ref sig .tc := ⟨.hbm, 2088, rfl⟩
abbrev main_v2087 : Ref sig .tc := ⟨.hbm, 2089, rfl⟩
abbrev main_v2088 : Ref sig .tc := ⟨.hbm, 2090, rfl⟩
abbrev main_v2089 : Ref sig .tc := ⟨.hbm, 2091, rfl⟩
abbrev main_v2090 : Ref sig .tc := ⟨.hbm, 2092, rfl⟩
abbrev main_v2091 : Ref sig .tc := ⟨.hbm, 2093, rfl⟩
abbrev main_v2092 : Ref sig .tc := ⟨.hbm, 2094, rfl⟩
abbrev main_v2093 : Ref sig .tc := ⟨.hbm, 2095, rfl⟩
abbrev main_v2094 : Ref sig .tc := ⟨.hbm, 2096, rfl⟩
abbrev main_v2095 : Ref sig .tc := ⟨.hbm, 2097, rfl⟩
abbrev main_v2096 : Ref sig .tc := ⟨.hbm, 2098, rfl⟩
abbrev main_v2097 : Ref sig .tc := ⟨.hbm, 2099, rfl⟩
abbrev main_v2098 : Ref sig .tc := ⟨.hbm, 2100, rfl⟩
abbrev main_v2099 : Ref sig .tc := ⟨.hbm, 2101, rfl⟩
abbrev main_v2100 : Ref sig .tc := ⟨.hbm, 2102, rfl⟩
abbrev main_v2101 : Ref sig .tc := ⟨.hbm, 2103, rfl⟩
abbrev main_v2102 : Ref sig .tc := ⟨.hbm, 2104, rfl⟩
abbrev main_v2103 : Ref sig .tc := ⟨.hbm, 2105, rfl⟩
abbrev main_v2104 : Ref sig .tc := ⟨.hbm, 2106, rfl⟩
abbrev main_v2105 : Ref sig .tc := ⟨.hbm, 2107, rfl⟩
abbrev main_v2106 : Ref sig .tc := ⟨.hbm, 2108, rfl⟩
abbrev main_v2107 : Ref sig .tc := ⟨.hbm, 2109, rfl⟩
abbrev main_v2108 : Ref sig .tc := ⟨.hbm, 2110, rfl⟩
abbrev main_v2109 : Ref sig .tc := ⟨.hbm, 2111, rfl⟩
abbrev main_v2110 : Ref sig .tc := ⟨.hbm, 2112, rfl⟩
abbrev main_v2111 : Ref sig .tc := ⟨.hbm, 2113, rfl⟩
abbrev main_v2112 : Ref sig .tc := ⟨.hbm, 2114, rfl⟩
abbrev main_v2113 : Ref sig .tc := ⟨.hbm, 2115, rfl⟩
abbrev main_v2114 : Ref sig .tc := ⟨.hbm, 2116, rfl⟩
abbrev main_v2115 : Ref sig .tc := ⟨.hbm, 2117, rfl⟩
abbrev main_v2116 : Ref sig .tc := ⟨.hbm, 2118, rfl⟩
abbrev main_v2117 : Ref sig .tc := ⟨.hbm, 2119, rfl⟩
abbrev main_v2118 : Ref sig .tc := ⟨.hbm, 2120, rfl⟩
abbrev main_v2119 : Ref sig .tc := ⟨.hbm, 2121, rfl⟩
abbrev main_v2120 : Ref sig .tc := ⟨.hbm, 2122, rfl⟩
abbrev main_v2121 : Ref sig .tc := ⟨.hbm, 2123, rfl⟩
abbrev main_v2122 : Ref sig .tc := ⟨.hbm, 2124, rfl⟩
abbrev main_v2123 : Ref sig .tc := ⟨.hbm, 2125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

class Shapes1.Facts₀ : Prop where
  slices_S1024_S1_0 : S1024.Slices ![0] S1
  slices_S1024_S1023_1 : S1024.Slices ![1] S1023
  concatenates_S1_S1023_S1024_d0 : Shape.Concatenates [S1, S1023] S1024 0
  concatenates_S1024_S1024_S2048_d0 : Shape.Concatenates [S1024, S1024] S2048 0
  slices_S2048_S1024_1024 : S2048.Slices ![1024] S1024
  slices_S2048_S1024_1023 : S2048.Slices ![1023] S1024
  slices_S2048_S1024_1022 : S2048.Slices ![1022] S1024
  slices_S2048_S1024_1021 : S2048.Slices ![1021] S1024
  slices_S2048_S1024_1020 : S2048.Slices ![1020] S1024
  slices_S2048_S1024_1019 : S2048.Slices ![1019] S1024
  slices_S2048_S1024_1018 : S2048.Slices ![1018] S1024
  slices_S2048_S1024_1017 : S2048.Slices ![1017] S1024
  slices_S2048_S1024_1016 : S2048.Slices ![1016] S1024
  slices_S2048_S1024_1015 : S2048.Slices ![1015] S1024
  slices_S2048_S1024_1014 : S2048.Slices ![1014] S1024
  slices_S2048_S1024_1013 : S2048.Slices ![1013] S1024
  slices_S2048_S1024_1012 : S2048.Slices ![1012] S1024
  slices_S2048_S1024_1011 : S2048.Slices ![1011] S1024
  slices_S2048_S1024_1010 : S2048.Slices ![1010] S1024
  slices_S2048_S1024_1009 : S2048.Slices ![1009] S1024
  slices_S2048_S1024_1008 : S2048.Slices ![1008] S1024
  slices_S2048_S1024_1007 : S2048.Slices ![1007] S1024
  slices_S2048_S1024_1006 : S2048.Slices ![1006] S1024
  slices_S2048_S1024_1005 : S2048.Slices ![1005] S1024
  slices_S2048_S1024_1004 : S2048.Slices ![1004] S1024
  slices_S2048_S1024_1003 : S2048.Slices ![1003] S1024
  slices_S2048_S1024_1002 : S2048.Slices ![1002] S1024
  slices_S2048_S1024_1001 : S2048.Slices ![1001] S1024
  slices_S2048_S1024_1000 : S2048.Slices ![1000] S1024
  slices_S2048_S1024_999 : S2048.Slices ![999] S1024
  slices_S2048_S1024_998 : S2048.Slices ![998] S1024
  slices_S2048_S1024_997 : S2048.Slices ![997] S1024
  slices_S2048_S1024_996 : S2048.Slices ![996] S1024
  slices_S2048_S1024_995 : S2048.Slices ![995] S1024
  slices_S2048_S1024_994 : S2048.Slices ![994] S1024
  slices_S2048_S1024_993 : S2048.Slices ![993] S1024
  slices_S2048_S1024_992 : S2048.Slices ![992] S1024
  slices_S2048_S1024_991 : S2048.Slices ![991] S1024
  slices_S2048_S1024_990 : S2048.Slices ![990] S1024
  slices_S2048_S1024_989 : S2048.Slices ![989] S1024
  slices_S2048_S1024_988 : S2048.Slices ![988] S1024
  slices_S2048_S1024_987 : S2048.Slices ![987] S1024
  slices_S2048_S1024_986 : S2048.Slices ![986] S1024
  slices_S2048_S1024_985 : S2048.Slices ![985] S1024
  slices_S2048_S1024_984 : S2048.Slices ![984] S1024
  slices_S2048_S1024_983 : S2048.Slices ![983] S1024
  slices_S2048_S1024_982 : S2048.Slices ![982] S1024
  slices_S2048_S1024_981 : S2048.Slices ![981] S1024
  slices_S2048_S1024_980 : S2048.Slices ![980] S1024
  slices_S2048_S1024_979 : S2048.Slices ![979] S1024
  slices_S2048_S1024_978 : S2048.Slices ![978] S1024
  slices_S2048_S1024_977 : S2048.Slices ![977] S1024
  slices_S2048_S1024_976 : S2048.Slices ![976] S1024
  slices_S2048_S1024_975 : S2048.Slices ![975] S1024
  slices_S2048_S1024_974 : S2048.Slices ![974] S1024
  slices_S2048_S1024_973 : S2048.Slices ![973] S1024
  slices_S2048_S1024_972 : S2048.Slices ![972] S1024
  slices_S2048_S1024_971 : S2048.Slices ![971] S1024
  slices_S2048_S1024_970 : S2048.Slices ![970] S1024
  slices_S2048_S1024_969 : S2048.Slices ![969] S1024
  slices_S2048_S1024_968 : S2048.Slices ![968] S1024
  slices_S2048_S1024_967 : S2048.Slices ![967] S1024
  slices_S2048_S1024_966 : S2048.Slices ![966] S1024
  slices_S2048_S1024_965 : S2048.Slices ![965] S1024
  slices_S2048_S1024_964 : S2048.Slices ![964] S1024
  slices_S2048_S1024_963 : S2048.Slices ![963] S1024
  slices_S2048_S1024_962 : S2048.Slices ![962] S1024
  slices_S2048_S1024_961 : S2048.Slices ![961] S1024
  slices_S2048_S1024_960 : S2048.Slices ![960] S1024
  slices_S2048_S1024_959 : S2048.Slices ![959] S1024
  slices_S2048_S1024_958 : S2048.Slices ![958] S1024
  slices_S2048_S1024_957 : S2048.Slices ![957] S1024
  slices_S2048_S1024_956 : S2048.Slices ![956] S1024
  slices_S2048_S1024_955 : S2048.Slices ![955] S1024
  slices_S2048_S1024_954 : S2048.Slices ![954] S1024
  slices_S2048_S1024_953 : S2048.Slices ![953] S1024
  slices_S2048_S1024_952 : S2048.Slices ![952] S1024
  slices_S2048_S1024_951 : S2048.Slices ![951] S1024
  slices_S2048_S1024_950 : S2048.Slices ![950] S1024
  slices_S2048_S1024_949 : S2048.Slices ![949] S1024
  slices_S2048_S1024_948 : S2048.Slices ![948] S1024
  slices_S2048_S1024_947 : S2048.Slices ![947] S1024
  slices_S2048_S1024_946 : S2048.Slices ![946] S1024
  slices_S2048_S1024_945 : S2048.Slices ![945] S1024
  slices_S2048_S1024_944 : S2048.Slices ![944] S1024
  slices_S2048_S1024_943 : S2048.Slices ![943] S1024
  slices_S2048_S1024_942 : S2048.Slices ![942] S1024
  slices_S2048_S1024_941 : S2048.Slices ![941] S1024
  slices_S2048_S1024_940 : S2048.Slices ![940] S1024
  slices_S2048_S1024_939 : S2048.Slices ![939] S1024
  slices_S2048_S1024_938 : S2048.Slices ![938] S1024
  slices_S2048_S1024_937 : S2048.Slices ![937] S1024
  slices_S2048_S1024_936 : S2048.Slices ![936] S1024
  slices_S2048_S1024_935 : S2048.Slices ![935] S1024
  slices_S2048_S1024_934 : S2048.Slices ![934] S1024
  slices_S2048_S1024_933 : S2048.Slices ![933] S1024
  slices_S2048_S1024_932 : S2048.Slices ![932] S1024
  slices_S2048_S1024_931 : S2048.Slices ![931] S1024
  slices_S2048_S1024_930 : S2048.Slices ![930] S1024
  slices_S2048_S1024_929 : S2048.Slices ![929] S1024
  slices_S2048_S1024_928 : S2048.Slices ![928] S1024
  slices_S2048_S1024_927 : S2048.Slices ![927] S1024
  slices_S2048_S1024_926 : S2048.Slices ![926] S1024
  slices_S2048_S1024_925 : S2048.Slices ![925] S1024
  slices_S2048_S1024_924 : S2048.Slices ![924] S1024
  slices_S2048_S1024_923 : S2048.Slices ![923] S1024
  slices_S2048_S1024_922 : S2048.Slices ![922] S1024
  slices_S2048_S1024_921 : S2048.Slices ![921] S1024
  slices_S2048_S1024_920 : S2048.Slices ![920] S1024
  slices_S2048_S1024_919 : S2048.Slices ![919] S1024
  slices_S2048_S1024_918 : S2048.Slices ![918] S1024
  slices_S2048_S1024_917 : S2048.Slices ![917] S1024
  slices_S2048_S1024_916 : S2048.Slices ![916] S1024
  slices_S2048_S1024_915 : S2048.Slices ![915] S1024
  slices_S2048_S1024_914 : S2048.Slices ![914] S1024
  slices_S2048_S1024_913 : S2048.Slices ![913] S1024
  slices_S2048_S1024_912 : S2048.Slices ![912] S1024
  slices_S2048_S1024_911 : S2048.Slices ![911] S1024
  slices_S2048_S1024_910 : S2048.Slices ![910] S1024
  slices_S2048_S1024_909 : S2048.Slices ![909] S1024
  slices_S2048_S1024_908 : S2048.Slices ![908] S1024
  slices_S2048_S1024_907 : S2048.Slices ![907] S1024
  slices_S2048_S1024_906 : S2048.Slices ![906] S1024
  slices_S2048_S1024_905 : S2048.Slices ![905] S1024
  slices_S2048_S1024_904 : S2048.Slices ![904] S1024
  slices_S2048_S1024_903 : S2048.Slices ![903] S1024
  slices_S2048_S1024_902 : S2048.Slices ![902] S1024
  slices_S2048_S1024_901 : S2048.Slices ![901] S1024
  slices_S2048_S1024_900 : S2048.Slices ![900] S1024
  slices_S2048_S1024_899 : S2048.Slices ![899] S1024
  slices_S2048_S1024_898 : S2048.Slices ![898] S1024
  slices_S2048_S1024_897 : S2048.Slices ![897] S1024
  slices_S2048_S1024_896 : S2048.Slices ![896] S1024
  slices_S2048_S1024_895 : S2048.Slices ![895] S1024
  slices_S2048_S1024_894 : S2048.Slices ![894] S1024
  slices_S2048_S1024_893 : S2048.Slices ![893] S1024
  slices_S2048_S1024_892 : S2048.Slices ![892] S1024
  slices_S2048_S1024_891 : S2048.Slices ![891] S1024
  slices_S2048_S1024_890 : S2048.Slices ![890] S1024
  slices_S2048_S1024_889 : S2048.Slices ![889] S1024
  slices_S2048_S1024_888 : S2048.Slices ![888] S1024
  slices_S2048_S1024_887 : S2048.Slices ![887] S1024
  slices_S2048_S1024_886 : S2048.Slices ![886] S1024
  slices_S2048_S1024_885 : S2048.Slices ![885] S1024
  slices_S2048_S1024_884 : S2048.Slices ![884] S1024
  slices_S2048_S1024_883 : S2048.Slices ![883] S1024
  slices_S2048_S1024_882 : S2048.Slices ![882] S1024
  slices_S2048_S1024_881 : S2048.Slices ![881] S1024
  slices_S2048_S1024_880 : S2048.Slices ![880] S1024
  slices_S2048_S1024_879 : S2048.Slices ![879] S1024
  slices_S2048_S1024_878 : S2048.Slices ![878] S1024
  slices_S2048_S1024_877 : S2048.Slices ![877] S1024
  slices_S2048_S1024_876 : S2048.Slices ![876] S1024
  slices_S2048_S1024_875 : S2048.Slices ![875] S1024
  slices_S2048_S1024_874 : S2048.Slices ![874] S1024
  slices_S2048_S1024_873 : S2048.Slices ![873] S1024
  slices_S2048_S1024_872 : S2048.Slices ![872] S1024
  slices_S2048_S1024_871 : S2048.Slices ![871] S1024
  slices_S2048_S1024_870 : S2048.Slices ![870] S1024
  slices_S2048_S1024_869 : S2048.Slices ![869] S1024
  slices_S2048_S1024_868 : S2048.Slices ![868] S1024
  slices_S2048_S1024_867 : S2048.Slices ![867] S1024
  slices_S2048_S1024_866 : S2048.Slices ![866] S1024
  slices_S2048_S1024_865 : S2048.Slices ![865] S1024
  slices_S2048_S1024_864 : S2048.Slices ![864] S1024
  slices_S2048_S1024_863 : S2048.Slices ![863] S1024
  slices_S2048_S1024_862 : S2048.Slices ![862] S1024
  slices_S2048_S1024_861 : S2048.Slices ![861] S1024
  slices_S2048_S1024_860 : S2048.Slices ![860] S1024
  slices_S2048_S1024_859 : S2048.Slices ![859] S1024
  slices_S2048_S1024_858 : S2048.Slices ![858] S1024
  slices_S2048_S1024_857 : S2048.Slices ![857] S1024
  slices_S2048_S1024_856 : S2048.Slices ![856] S1024
  slices_S2048_S1024_855 : S2048.Slices ![855] S1024
  slices_S2048_S1024_854 : S2048.Slices ![854] S1024
  slices_S2048_S1024_853 : S2048.Slices ![853] S1024
  slices_S2048_S1024_852 : S2048.Slices ![852] S1024
  slices_S2048_S1024_851 : S2048.Slices ![851] S1024
  slices_S2048_S1024_850 : S2048.Slices ![850] S1024
  slices_S2048_S1024_849 : S2048.Slices ![849] S1024
  slices_S2048_S1024_848 : S2048.Slices ![848] S1024
  slices_S2048_S1024_847 : S2048.Slices ![847] S1024
  slices_S2048_S1024_846 : S2048.Slices ![846] S1024
  slices_S2048_S1024_845 : S2048.Slices ![845] S1024
  slices_S2048_S1024_844 : S2048.Slices ![844] S1024
  slices_S2048_S1024_843 : S2048.Slices ![843] S1024
  slices_S2048_S1024_842 : S2048.Slices ![842] S1024
  slices_S2048_S1024_841 : S2048.Slices ![841] S1024
  slices_S2048_S1024_840 : S2048.Slices ![840] S1024
  slices_S2048_S1024_839 : S2048.Slices ![839] S1024
  slices_S2048_S1024_838 : S2048.Slices ![838] S1024
  slices_S2048_S1024_837 : S2048.Slices ![837] S1024
  slices_S2048_S1024_836 : S2048.Slices ![836] S1024
  slices_S2048_S1024_835 : S2048.Slices ![835] S1024
  slices_S2048_S1024_834 : S2048.Slices ![834] S1024
  slices_S2048_S1024_833 : S2048.Slices ![833] S1024
  slices_S2048_S1024_832 : S2048.Slices ![832] S1024
  slices_S2048_S1024_831 : S2048.Slices ![831] S1024
  slices_S2048_S1024_830 : S2048.Slices ![830] S1024
  slices_S2048_S1024_829 : S2048.Slices ![829] S1024
  slices_S2048_S1024_828 : S2048.Slices ![828] S1024
  slices_S2048_S1024_827 : S2048.Slices ![827] S1024
  slices_S2048_S1024_826 : S2048.Slices ![826] S1024
  slices_S2048_S1024_825 : S2048.Slices ![825] S1024
  slices_S2048_S1024_824 : S2048.Slices ![824] S1024
  slices_S2048_S1024_823 : S2048.Slices ![823] S1024
  slices_S2048_S1024_822 : S2048.Slices ![822] S1024
  slices_S2048_S1024_821 : S2048.Slices ![821] S1024
  slices_S2048_S1024_820 : S2048.Slices ![820] S1024
  slices_S2048_S1024_819 : S2048.Slices ![819] S1024
  slices_S2048_S1024_818 : S2048.Slices ![818] S1024
  slices_S2048_S1024_817 : S2048.Slices ![817] S1024
  slices_S2048_S1024_816 : S2048.Slices ![816] S1024
  slices_S2048_S1024_815 : S2048.Slices ![815] S1024
  slices_S2048_S1024_814 : S2048.Slices ![814] S1024
  slices_S2048_S1024_813 : S2048.Slices ![813] S1024
  slices_S2048_S1024_812 : S2048.Slices ![812] S1024
  slices_S2048_S1024_811 : S2048.Slices ![811] S1024
  slices_S2048_S1024_810 : S2048.Slices ![810] S1024
  slices_S2048_S1024_809 : S2048.Slices ![809] S1024
  slices_S2048_S1024_808 : S2048.Slices ![808] S1024
  slices_S2048_S1024_807 : S2048.Slices ![807] S1024
  slices_S2048_S1024_806 : S2048.Slices ![806] S1024
  slices_S2048_S1024_805 : S2048.Slices ![805] S1024
  slices_S2048_S1024_804 : S2048.Slices ![804] S1024
  slices_S2048_S1024_803 : S2048.Slices ![803] S1024
  slices_S2048_S1024_802 : S2048.Slices ![802] S1024
  slices_S2048_S1024_801 : S2048.Slices ![801] S1024
  slices_S2048_S1024_800 : S2048.Slices ![800] S1024
  slices_S2048_S1024_799 : S2048.Slices ![799] S1024
  slices_S2048_S1024_798 : S2048.Slices ![798] S1024
  slices_S2048_S1024_797 : S2048.Slices ![797] S1024
  slices_S2048_S1024_796 : S2048.Slices ![796] S1024
  slices_S2048_S1024_795 : S2048.Slices ![795] S1024
  slices_S2048_S1024_794 : S2048.Slices ![794] S1024
  slices_S2048_S1024_793 : S2048.Slices ![793] S1024
  slices_S2048_S1024_792 : S2048.Slices ![792] S1024
  slices_S2048_S1024_791 : S2048.Slices ![791] S1024
  slices_S2048_S1024_790 : S2048.Slices ![790] S1024
  slices_S2048_S1024_789 : S2048.Slices ![789] S1024
  slices_S2048_S1024_788 : S2048.Slices ![788] S1024
  slices_S2048_S1024_787 : S2048.Slices ![787] S1024
  slices_S2048_S1024_786 : S2048.Slices ![786] S1024
  slices_S2048_S1024_785 : S2048.Slices ![785] S1024
  slices_S2048_S1024_784 : S2048.Slices ![784] S1024
  slices_S2048_S1024_783 : S2048.Slices ![783] S1024
  slices_S2048_S1024_782 : S2048.Slices ![782] S1024
  slices_S2048_S1024_781 : S2048.Slices ![781] S1024
  slices_S2048_S1024_780 : S2048.Slices ![780] S1024
  slices_S2048_S1024_779 : S2048.Slices ![779] S1024
  slices_S2048_S1024_778 : S2048.Slices ![778] S1024
  slices_S2048_S1024_777 : S2048.Slices ![777] S1024
  slices_S2048_S1024_776 : S2048.Slices ![776] S1024
  slices_S2048_S1024_775 : S2048.Slices ![775] S1024
  slices_S2048_S1024_774 : S2048.Slices ![774] S1024
  slices_S2048_S1024_773 : S2048.Slices ![773] S1024
  slices_S2048_S1024_772 : S2048.Slices ![772] S1024
  slices_S2048_S1024_771 : S2048.Slices ![771] S1024
  slices_S2048_S1024_770 : S2048.Slices ![770] S1024
  slices_S2048_S1024_769 : S2048.Slices ![769] S1024
  slices_S2048_S1024_768 : S2048.Slices ![768] S1024
  slices_S2048_S1024_767 : S2048.Slices ![767] S1024
  slices_S2048_S1024_766 : S2048.Slices ![766] S1024
  slices_S2048_S1024_765 : S2048.Slices ![765] S1024
  slices_S2048_S1024_764 : S2048.Slices ![764] S1024
  slices_S2048_S1024_763 : S2048.Slices ![763] S1024
  slices_S2048_S1024_762 : S2048.Slices ![762] S1024
  slices_S2048_S1024_761 : S2048.Slices ![761] S1024
  slices_S2048_S1024_760 : S2048.Slices ![760] S1024
  slices_S2048_S1024_759 : S2048.Slices ![759] S1024
  slices_S2048_S1024_758 : S2048.Slices ![758] S1024
  slices_S2048_S1024_757 : S2048.Slices ![757] S1024
  slices_S2048_S1024_756 : S2048.Slices ![756] S1024
  slices_S2048_S1024_755 : S2048.Slices ![755] S1024
  slices_S2048_S1024_754 : S2048.Slices ![754] S1024
  slices_S2048_S1024_753 : S2048.Slices ![753] S1024
  slices_S2048_S1024_752 : S2048.Slices ![752] S1024
  slices_S2048_S1024_751 : S2048.Slices ![751] S1024
  slices_S2048_S1024_750 : S2048.Slices ![750] S1024
  slices_S2048_S1024_749 : S2048.Slices ![749] S1024
  slices_S2048_S1024_748 : S2048.Slices ![748] S1024
  slices_S2048_S1024_747 : S2048.Slices ![747] S1024
  slices_S2048_S1024_746 : S2048.Slices ![746] S1024
  slices_S2048_S1024_745 : S2048.Slices ![745] S1024
  slices_S2048_S1024_744 : S2048.Slices ![744] S1024
  slices_S2048_S1024_743 : S2048.Slices ![743] S1024
  slices_S2048_S1024_742 : S2048.Slices ![742] S1024
  slices_S2048_S1024_741 : S2048.Slices ![741] S1024
  slices_S2048_S1024_740 : S2048.Slices ![740] S1024
  slices_S2048_S1024_739 : S2048.Slices ![739] S1024
  slices_S2048_S1024_738 : S2048.Slices ![738] S1024
  slices_S2048_S1024_737 : S2048.Slices ![737] S1024
  slices_S2048_S1024_736 : S2048.Slices ![736] S1024
  slices_S2048_S1024_735 : S2048.Slices ![735] S1024
  slices_S2048_S1024_734 : S2048.Slices ![734] S1024
  slices_S2048_S1024_733 : S2048.Slices ![733] S1024
  slices_S2048_S1024_732 : S2048.Slices ![732] S1024
  slices_S2048_S1024_731 : S2048.Slices ![731] S1024
  slices_S2048_S1024_730 : S2048.Slices ![730] S1024
  slices_S2048_S1024_729 : S2048.Slices ![729] S1024
  slices_S2048_S1024_728 : S2048.Slices ![728] S1024
  slices_S2048_S1024_727 : S2048.Slices ![727] S1024
  slices_S2048_S1024_726 : S2048.Slices ![726] S1024
  slices_S2048_S1024_725 : S2048.Slices ![725] S1024
  slices_S2048_S1024_724 : S2048.Slices ![724] S1024
  slices_S2048_S1024_723 : S2048.Slices ![723] S1024
  slices_S2048_S1024_722 : S2048.Slices ![722] S1024
  slices_S2048_S1024_721 : S2048.Slices ![721] S1024
  slices_S2048_S1024_720 : S2048.Slices ![720] S1024
  slices_S2048_S1024_719 : S2048.Slices ![719] S1024
  slices_S2048_S1024_718 : S2048.Slices ![718] S1024
  slices_S2048_S1024_717 : S2048.Slices ![717] S1024
  slices_S2048_S1024_716 : S2048.Slices ![716] S1024
  slices_S2048_S1024_715 : S2048.Slices ![715] S1024
  slices_S2048_S1024_714 : S2048.Slices ![714] S1024
  slices_S2048_S1024_713 : S2048.Slices ![713] S1024
  slices_S2048_S1024_712 : S2048.Slices ![712] S1024
  slices_S2048_S1024_711 : S2048.Slices ![711] S1024
  slices_S2048_S1024_710 : S2048.Slices ![710] S1024
  slices_S2048_S1024_709 : S2048.Slices ![709] S1024
  slices_S2048_S1024_708 : S2048.Slices ![708] S1024
  slices_S2048_S1024_707 : S2048.Slices ![707] S1024
  slices_S2048_S1024_706 : S2048.Slices ![706] S1024
  slices_S2048_S1024_705 : S2048.Slices ![705] S1024
  slices_S2048_S1024_704 : S2048.Slices ![704] S1024
  slices_S2048_S1024_703 : S2048.Slices ![703] S1024
  slices_S2048_S1024_702 : S2048.Slices ![702] S1024
  slices_S2048_S1024_701 : S2048.Slices ![701] S1024
  slices_S2048_S1024_700 : S2048.Slices ![700] S1024
  slices_S2048_S1024_699 : S2048.Slices ![699] S1024
  slices_S2048_S1024_698 : S2048.Slices ![698] S1024
  slices_S2048_S1024_697 : S2048.Slices ![697] S1024
  slices_S2048_S1024_696 : S2048.Slices ![696] S1024
  slices_S2048_S1024_695 : S2048.Slices ![695] S1024
  slices_S2048_S1024_694 : S2048.Slices ![694] S1024
  slices_S2048_S1024_693 : S2048.Slices ![693] S1024
  slices_S2048_S1024_692 : S2048.Slices ![692] S1024
  slices_S2048_S1024_691 : S2048.Slices ![691] S1024
  slices_S2048_S1024_690 : S2048.Slices ![690] S1024
  slices_S2048_S1024_689 : S2048.Slices ![689] S1024
  slices_S2048_S1024_688 : S2048.Slices ![688] S1024
  slices_S2048_S1024_687 : S2048.Slices ![687] S1024
  slices_S2048_S1024_686 : S2048.Slices ![686] S1024
  slices_S2048_S1024_685 : S2048.Slices ![685] S1024
  slices_S2048_S1024_684 : S2048.Slices ![684] S1024
  slices_S2048_S1024_683 : S2048.Slices ![683] S1024
  slices_S2048_S1024_682 : S2048.Slices ![682] S1024
  slices_S2048_S1024_681 : S2048.Slices ![681] S1024
  slices_S2048_S1024_680 : S2048.Slices ![680] S1024
  slices_S2048_S1024_679 : S2048.Slices ![679] S1024
  slices_S2048_S1024_678 : S2048.Slices ![678] S1024
  slices_S2048_S1024_677 : S2048.Slices ![677] S1024
  slices_S2048_S1024_676 : S2048.Slices ![676] S1024
  slices_S2048_S1024_675 : S2048.Slices ![675] S1024
  slices_S2048_S1024_674 : S2048.Slices ![674] S1024
  slices_S2048_S1024_673 : S2048.Slices ![673] S1024
  slices_S2048_S1024_672 : S2048.Slices ![672] S1024
  slices_S2048_S1024_671 : S2048.Slices ![671] S1024
  slices_S2048_S1024_670 : S2048.Slices ![670] S1024
  slices_S2048_S1024_669 : S2048.Slices ![669] S1024
  slices_S2048_S1024_668 : S2048.Slices ![668] S1024
  slices_S2048_S1024_667 : S2048.Slices ![667] S1024
  slices_S2048_S1024_666 : S2048.Slices ![666] S1024
  slices_S2048_S1024_665 : S2048.Slices ![665] S1024
  slices_S2048_S1024_664 : S2048.Slices ![664] S1024
  slices_S2048_S1024_663 : S2048.Slices ![663] S1024
  slices_S2048_S1024_662 : S2048.Slices ![662] S1024
  slices_S2048_S1024_661 : S2048.Slices ![661] S1024
  slices_S2048_S1024_660 : S2048.Slices ![660] S1024
  slices_S2048_S1024_659 : S2048.Slices ![659] S1024
  slices_S2048_S1024_658 : S2048.Slices ![658] S1024
  slices_S2048_S1024_657 : S2048.Slices ![657] S1024
  slices_S2048_S1024_656 : S2048.Slices ![656] S1024
  slices_S2048_S1024_655 : S2048.Slices ![655] S1024
  slices_S2048_S1024_654 : S2048.Slices ![654] S1024
  slices_S2048_S1024_653 : S2048.Slices ![653] S1024
  slices_S2048_S1024_652 : S2048.Slices ![652] S1024
  slices_S2048_S1024_651 : S2048.Slices ![651] S1024
  slices_S2048_S1024_650 : S2048.Slices ![650] S1024
  slices_S2048_S1024_649 : S2048.Slices ![649] S1024
  slices_S2048_S1024_648 : S2048.Slices ![648] S1024
  slices_S2048_S1024_647 : S2048.Slices ![647] S1024
  slices_S2048_S1024_646 : S2048.Slices ![646] S1024
  slices_S2048_S1024_645 : S2048.Slices ![645] S1024
  slices_S2048_S1024_644 : S2048.Slices ![644] S1024
  slices_S2048_S1024_643 : S2048.Slices ![643] S1024
  slices_S2048_S1024_642 : S2048.Slices ![642] S1024
  slices_S2048_S1024_641 : S2048.Slices ![641] S1024
  slices_S2048_S1024_640 : S2048.Slices ![640] S1024
  slices_S2048_S1024_639 : S2048.Slices ![639] S1024
  slices_S2048_S1024_638 : S2048.Slices ![638] S1024
  slices_S2048_S1024_637 : S2048.Slices ![637] S1024
  slices_S2048_S1024_636 : S2048.Slices ![636] S1024
  slices_S2048_S1024_635 : S2048.Slices ![635] S1024
  slices_S2048_S1024_634 : S2048.Slices ![634] S1024
  slices_S2048_S1024_633 : S2048.Slices ![633] S1024
  slices_S2048_S1024_632 : S2048.Slices ![632] S1024
  slices_S2048_S1024_631 : S2048.Slices ![631] S1024
  slices_S2048_S1024_630 : S2048.Slices ![630] S1024
  slices_S2048_S1024_629 : S2048.Slices ![629] S1024
  slices_S2048_S1024_628 : S2048.Slices ![628] S1024
  slices_S2048_S1024_627 : S2048.Slices ![627] S1024
  slices_S2048_S1024_626 : S2048.Slices ![626] S1024
  slices_S2048_S1024_625 : S2048.Slices ![625] S1024
  slices_S2048_S1024_624 : S2048.Slices ![624] S1024
  slices_S2048_S1024_623 : S2048.Slices ![623] S1024
  slices_S2048_S1024_622 : S2048.Slices ![622] S1024
  slices_S2048_S1024_621 : S2048.Slices ![621] S1024
  slices_S2048_S1024_620 : S2048.Slices ![620] S1024
  slices_S2048_S1024_619 : S2048.Slices ![619] S1024
  slices_S2048_S1024_618 : S2048.Slices ![618] S1024
  slices_S2048_S1024_617 : S2048.Slices ![617] S1024
  slices_S2048_S1024_616 : S2048.Slices ![616] S1024
  slices_S2048_S1024_615 : S2048.Slices ![615] S1024
  slices_S2048_S1024_614 : S2048.Slices ![614] S1024
  slices_S2048_S1024_613 : S2048.Slices ![613] S1024
  slices_S2048_S1024_612 : S2048.Slices ![612] S1024
  slices_S2048_S1024_611 : S2048.Slices ![611] S1024
  slices_S2048_S1024_610 : S2048.Slices ![610] S1024
  slices_S2048_S1024_609 : S2048.Slices ![609] S1024
  slices_S2048_S1024_608 : S2048.Slices ![608] S1024
  slices_S2048_S1024_607 : S2048.Slices ![607] S1024
  slices_S2048_S1024_606 : S2048.Slices ![606] S1024
  slices_S2048_S1024_605 : S2048.Slices ![605] S1024
  slices_S2048_S1024_604 : S2048.Slices ![604] S1024
  slices_S2048_S1024_603 : S2048.Slices ![603] S1024
  slices_S2048_S1024_602 : S2048.Slices ![602] S1024
  slices_S2048_S1024_601 : S2048.Slices ![601] S1024
  slices_S2048_S1024_600 : S2048.Slices ![600] S1024
  slices_S2048_S1024_599 : S2048.Slices ![599] S1024
  slices_S2048_S1024_598 : S2048.Slices ![598] S1024
  slices_S2048_S1024_597 : S2048.Slices ![597] S1024
  slices_S2048_S1024_596 : S2048.Slices ![596] S1024
  slices_S2048_S1024_595 : S2048.Slices ![595] S1024
  slices_S2048_S1024_594 : S2048.Slices ![594] S1024
  slices_S2048_S1024_593 : S2048.Slices ![593] S1024
  slices_S2048_S1024_592 : S2048.Slices ![592] S1024
  slices_S2048_S1024_591 : S2048.Slices ![591] S1024
  slices_S2048_S1024_590 : S2048.Slices ![590] S1024
  slices_S2048_S1024_589 : S2048.Slices ![589] S1024
  slices_S2048_S1024_588 : S2048.Slices ![588] S1024
  slices_S2048_S1024_587 : S2048.Slices ![587] S1024
  slices_S2048_S1024_586 : S2048.Slices ![586] S1024
  slices_S2048_S1024_585 : S2048.Slices ![585] S1024
  slices_S2048_S1024_584 : S2048.Slices ![584] S1024
  slices_S2048_S1024_583 : S2048.Slices ![583] S1024
  slices_S2048_S1024_582 : S2048.Slices ![582] S1024
  slices_S2048_S1024_581 : S2048.Slices ![581] S1024
  slices_S2048_S1024_580 : S2048.Slices ![580] S1024
  slices_S2048_S1024_579 : S2048.Slices ![579] S1024
  slices_S2048_S1024_578 : S2048.Slices ![578] S1024
  slices_S2048_S1024_577 : S2048.Slices ![577] S1024
  slices_S2048_S1024_576 : S2048.Slices ![576] S1024
  slices_S2048_S1024_575 : S2048.Slices ![575] S1024
  slices_S2048_S1024_574 : S2048.Slices ![574] S1024
  slices_S2048_S1024_573 : S2048.Slices ![573] S1024
  slices_S2048_S1024_572 : S2048.Slices ![572] S1024
  slices_S2048_S1024_571 : S2048.Slices ![571] S1024
  slices_S2048_S1024_570 : S2048.Slices ![570] S1024
  slices_S2048_S1024_569 : S2048.Slices ![569] S1024
  slices_S2048_S1024_568 : S2048.Slices ![568] S1024
  slices_S2048_S1024_567 : S2048.Slices ![567] S1024
  slices_S2048_S1024_566 : S2048.Slices ![566] S1024
  slices_S2048_S1024_565 : S2048.Slices ![565] S1024
  slices_S2048_S1024_564 : S2048.Slices ![564] S1024
  slices_S2048_S1024_563 : S2048.Slices ![563] S1024
  slices_S2048_S1024_562 : S2048.Slices ![562] S1024
  slices_S2048_S1024_561 : S2048.Slices ![561] S1024
  slices_S2048_S1024_560 : S2048.Slices ![560] S1024
  slices_S2048_S1024_559 : S2048.Slices ![559] S1024
  slices_S2048_S1024_558 : S2048.Slices ![558] S1024
  slices_S2048_S1024_557 : S2048.Slices ![557] S1024
  slices_S2048_S1024_556 : S2048.Slices ![556] S1024
  slices_S2048_S1024_555 : S2048.Slices ![555] S1024
  slices_S2048_S1024_554 : S2048.Slices ![554] S1024
  slices_S2048_S1024_553 : S2048.Slices ![553] S1024
  slices_S2048_S1024_552 : S2048.Slices ![552] S1024
  slices_S2048_S1024_551 : S2048.Slices ![551] S1024
  slices_S2048_S1024_550 : S2048.Slices ![550] S1024
  slices_S2048_S1024_549 : S2048.Slices ![549] S1024
  slices_S2048_S1024_548 : S2048.Slices ![548] S1024
  slices_S2048_S1024_547 : S2048.Slices ![547] S1024
  slices_S2048_S1024_546 : S2048.Slices ![546] S1024
  slices_S2048_S1024_545 : S2048.Slices ![545] S1024
  slices_S2048_S1024_544 : S2048.Slices ![544] S1024
  slices_S2048_S1024_543 : S2048.Slices ![543] S1024
  slices_S2048_S1024_542 : S2048.Slices ![542] S1024
  slices_S2048_S1024_541 : S2048.Slices ![541] S1024
  slices_S2048_S1024_540 : S2048.Slices ![540] S1024
  slices_S2048_S1024_539 : S2048.Slices ![539] S1024
  slices_S2048_S1024_538 : S2048.Slices ![538] S1024
  slices_S2048_S1024_537 : S2048.Slices ![537] S1024
  slices_S2048_S1024_536 : S2048.Slices ![536] S1024
  slices_S2048_S1024_535 : S2048.Slices ![535] S1024
  slices_S2048_S1024_534 : S2048.Slices ![534] S1024
  slices_S2048_S1024_533 : S2048.Slices ![533] S1024
  slices_S2048_S1024_532 : S2048.Slices ![532] S1024
  slices_S2048_S1024_531 : S2048.Slices ![531] S1024
  slices_S2048_S1024_530 : S2048.Slices ![530] S1024
  slices_S2048_S1024_529 : S2048.Slices ![529] S1024
  slices_S2048_S1024_528 : S2048.Slices ![528] S1024
  slices_S2048_S1024_527 : S2048.Slices ![527] S1024
  slices_S2048_S1024_526 : S2048.Slices ![526] S1024
  slices_S2048_S1024_525 : S2048.Slices ![525] S1024
  slices_S2048_S1024_524 : S2048.Slices ![524] S1024
  slices_S2048_S1024_523 : S2048.Slices ![523] S1024
  slices_S2048_S1024_522 : S2048.Slices ![522] S1024
  slices_S2048_S1024_521 : S2048.Slices ![521] S1024
  slices_S2048_S1024_520 : S2048.Slices ![520] S1024
  slices_S2048_S1024_519 : S2048.Slices ![519] S1024
  slices_S2048_S1024_518 : S2048.Slices ![518] S1024
  slices_S2048_S1024_517 : S2048.Slices ![517] S1024
  slices_S2048_S1024_516 : S2048.Slices ![516] S1024
  slices_S2048_S1024_515 : S2048.Slices ![515] S1024
  slices_S2048_S1024_514 : S2048.Slices ![514] S1024
  slices_S2048_S1024_513 : S2048.Slices ![513] S1024
  slices_S2048_S1024_512 : S2048.Slices ![512] S1024
  slices_S2048_S1024_511 : S2048.Slices ![511] S1024
  slices_S2048_S1024_510 : S2048.Slices ![510] S1024
  slices_S2048_S1024_509 : S2048.Slices ![509] S1024
  slices_S2048_S1024_508 : S2048.Slices ![508] S1024
  slices_S2048_S1024_507 : S2048.Slices ![507] S1024
  slices_S2048_S1024_506 : S2048.Slices ![506] S1024
  slices_S2048_S1024_505 : S2048.Slices ![505] S1024
  slices_S2048_S1024_504 : S2048.Slices ![504] S1024
  slices_S2048_S1024_503 : S2048.Slices ![503] S1024
  slices_S2048_S1024_502 : S2048.Slices ![502] S1024
  slices_S2048_S1024_501 : S2048.Slices ![501] S1024
  slices_S2048_S1024_500 : S2048.Slices ![500] S1024
  slices_S2048_S1024_499 : S2048.Slices ![499] S1024
  slices_S2048_S1024_498 : S2048.Slices ![498] S1024
  slices_S2048_S1024_497 : S2048.Slices ![497] S1024
  slices_S2048_S1024_496 : S2048.Slices ![496] S1024
  slices_S2048_S1024_495 : S2048.Slices ![495] S1024
  slices_S2048_S1024_494 : S2048.Slices ![494] S1024
  slices_S2048_S1024_493 : S2048.Slices ![493] S1024
  slices_S2048_S1024_492 : S2048.Slices ![492] S1024
  slices_S2048_S1024_491 : S2048.Slices ![491] S1024
  slices_S2048_S1024_490 : S2048.Slices ![490] S1024
  slices_S2048_S1024_489 : S2048.Slices ![489] S1024
  slices_S2048_S1024_488 : S2048.Slices ![488] S1024
  slices_S2048_S1024_487 : S2048.Slices ![487] S1024
  slices_S2048_S1024_486 : S2048.Slices ![486] S1024
  slices_S2048_S1024_485 : S2048.Slices ![485] S1024
  slices_S2048_S1024_484 : S2048.Slices ![484] S1024
  slices_S2048_S1024_483 : S2048.Slices ![483] S1024
  slices_S2048_S1024_482 : S2048.Slices ![482] S1024
  slices_S2048_S1024_481 : S2048.Slices ![481] S1024
  slices_S2048_S1024_480 : S2048.Slices ![480] S1024
  slices_S2048_S1024_479 : S2048.Slices ![479] S1024
  slices_S2048_S1024_478 : S2048.Slices ![478] S1024
  slices_S2048_S1024_477 : S2048.Slices ![477] S1024
  slices_S2048_S1024_476 : S2048.Slices ![476] S1024
  slices_S2048_S1024_475 : S2048.Slices ![475] S1024
  slices_S2048_S1024_474 : S2048.Slices ![474] S1024
  slices_S2048_S1024_473 : S2048.Slices ![473] S1024
  slices_S2048_S1024_472 : S2048.Slices ![472] S1024
  slices_S2048_S1024_471 : S2048.Slices ![471] S1024
  slices_S2048_S1024_470 : S2048.Slices ![470] S1024
  slices_S2048_S1024_469 : S2048.Slices ![469] S1024
  slices_S2048_S1024_468 : S2048.Slices ![468] S1024
  slices_S2048_S1024_467 : S2048.Slices ![467] S1024
  slices_S2048_S1024_466 : S2048.Slices ![466] S1024
  slices_S2048_S1024_465 : S2048.Slices ![465] S1024
  slices_S2048_S1024_464 : S2048.Slices ![464] S1024
  slices_S2048_S1024_463 : S2048.Slices ![463] S1024
  slices_S2048_S1024_462 : S2048.Slices ![462] S1024
  slices_S2048_S1024_461 : S2048.Slices ![461] S1024
  slices_S2048_S1024_460 : S2048.Slices ![460] S1024
  slices_S2048_S1024_459 : S2048.Slices ![459] S1024
  slices_S2048_S1024_458 : S2048.Slices ![458] S1024
  slices_S2048_S1024_457 : S2048.Slices ![457] S1024
  slices_S2048_S1024_456 : S2048.Slices ![456] S1024
  slices_S2048_S1024_455 : S2048.Slices ![455] S1024
  slices_S2048_S1024_454 : S2048.Slices ![454] S1024
  slices_S2048_S1024_453 : S2048.Slices ![453] S1024
  slices_S2048_S1024_452 : S2048.Slices ![452] S1024
  slices_S2048_S1024_451 : S2048.Slices ![451] S1024
  slices_S2048_S1024_450 : S2048.Slices ![450] S1024
  slices_S2048_S1024_449 : S2048.Slices ![449] S1024
  slices_S2048_S1024_448 : S2048.Slices ![448] S1024
  slices_S2048_S1024_447 : S2048.Slices ![447] S1024
  slices_S2048_S1024_446 : S2048.Slices ![446] S1024
  slices_S2048_S1024_445 : S2048.Slices ![445] S1024
  slices_S2048_S1024_444 : S2048.Slices ![444] S1024
  slices_S2048_S1024_443 : S2048.Slices ![443] S1024
  slices_S2048_S1024_442 : S2048.Slices ![442] S1024
  slices_S2048_S1024_441 : S2048.Slices ![441] S1024
  slices_S2048_S1024_440 : S2048.Slices ![440] S1024
  slices_S2048_S1024_439 : S2048.Slices ![439] S1024
  slices_S2048_S1024_438 : S2048.Slices ![438] S1024
  slices_S2048_S1024_437 : S2048.Slices ![437] S1024
  slices_S2048_S1024_436 : S2048.Slices ![436] S1024
  slices_S2048_S1024_435 : S2048.Slices ![435] S1024
  slices_S2048_S1024_434 : S2048.Slices ![434] S1024
  slices_S2048_S1024_433 : S2048.Slices ![433] S1024
  slices_S2048_S1024_432 : S2048.Slices ![432] S1024
  slices_S2048_S1024_431 : S2048.Slices ![431] S1024
  slices_S2048_S1024_430 : S2048.Slices ![430] S1024
  slices_S2048_S1024_429 : S2048.Slices ![429] S1024
  slices_S2048_S1024_428 : S2048.Slices ![428] S1024
  slices_S2048_S1024_427 : S2048.Slices ![427] S1024
  slices_S2048_S1024_426 : S2048.Slices ![426] S1024
  slices_S2048_S1024_425 : S2048.Slices ![425] S1024
  slices_S2048_S1024_424 : S2048.Slices ![424] S1024
  slices_S2048_S1024_423 : S2048.Slices ![423] S1024
  slices_S2048_S1024_422 : S2048.Slices ![422] S1024
  slices_S2048_S1024_421 : S2048.Slices ![421] S1024
  slices_S2048_S1024_420 : S2048.Slices ![420] S1024
  slices_S2048_S1024_419 : S2048.Slices ![419] S1024
  slices_S2048_S1024_418 : S2048.Slices ![418] S1024
  slices_S2048_S1024_417 : S2048.Slices ![417] S1024
  slices_S2048_S1024_416 : S2048.Slices ![416] S1024
  slices_S2048_S1024_415 : S2048.Slices ![415] S1024
  slices_S2048_S1024_414 : S2048.Slices ![414] S1024
  slices_S2048_S1024_413 : S2048.Slices ![413] S1024
  slices_S2048_S1024_412 : S2048.Slices ![412] S1024
  slices_S2048_S1024_411 : S2048.Slices ![411] S1024
  slices_S2048_S1024_410 : S2048.Slices ![410] S1024
  slices_S2048_S1024_409 : S2048.Slices ![409] S1024
  slices_S2048_S1024_408 : S2048.Slices ![408] S1024
  slices_S2048_S1024_407 : S2048.Slices ![407] S1024
  slices_S2048_S1024_406 : S2048.Slices ![406] S1024
  slices_S2048_S1024_405 : S2048.Slices ![405] S1024
  slices_S2048_S1024_404 : S2048.Slices ![404] S1024
  slices_S2048_S1024_403 : S2048.Slices ![403] S1024
  slices_S2048_S1024_402 : S2048.Slices ![402] S1024
  slices_S2048_S1024_401 : S2048.Slices ![401] S1024
  slices_S2048_S1024_400 : S2048.Slices ![400] S1024
  slices_S2048_S1024_399 : S2048.Slices ![399] S1024
  slices_S2048_S1024_398 : S2048.Slices ![398] S1024
  slices_S2048_S1024_397 : S2048.Slices ![397] S1024
  slices_S2048_S1024_396 : S2048.Slices ![396] S1024
  slices_S2048_S1024_395 : S2048.Slices ![395] S1024
  slices_S2048_S1024_394 : S2048.Slices ![394] S1024
  slices_S2048_S1024_393 : S2048.Slices ![393] S1024
  slices_S2048_S1024_392 : S2048.Slices ![392] S1024
  slices_S2048_S1024_391 : S2048.Slices ![391] S1024
  slices_S2048_S1024_390 : S2048.Slices ![390] S1024
  slices_S2048_S1024_389 : S2048.Slices ![389] S1024
  slices_S2048_S1024_388 : S2048.Slices ![388] S1024
  slices_S2048_S1024_387 : S2048.Slices ![387] S1024
  slices_S2048_S1024_386 : S2048.Slices ![386] S1024
  slices_S2048_S1024_385 : S2048.Slices ![385] S1024
  slices_S2048_S1024_384 : S2048.Slices ![384] S1024
  slices_S2048_S1024_383 : S2048.Slices ![383] S1024
  slices_S2048_S1024_382 : S2048.Slices ![382] S1024
  slices_S2048_S1024_381 : S2048.Slices ![381] S1024
  slices_S2048_S1024_380 : S2048.Slices ![380] S1024
  slices_S2048_S1024_379 : S2048.Slices ![379] S1024
  slices_S2048_S1024_378 : S2048.Slices ![378] S1024
  slices_S2048_S1024_377 : S2048.Slices ![377] S1024
  slices_S2048_S1024_376 : S2048.Slices ![376] S1024
  slices_S2048_S1024_375 : S2048.Slices ![375] S1024
  slices_S2048_S1024_374 : S2048.Slices ![374] S1024
  slices_S2048_S1024_373 : S2048.Slices ![373] S1024
  slices_S2048_S1024_372 : S2048.Slices ![372] S1024
  slices_S2048_S1024_371 : S2048.Slices ![371] S1024
  slices_S2048_S1024_370 : S2048.Slices ![370] S1024
  slices_S2048_S1024_369 : S2048.Slices ![369] S1024
  slices_S2048_S1024_368 : S2048.Slices ![368] S1024
  slices_S2048_S1024_367 : S2048.Slices ![367] S1024
  slices_S2048_S1024_366 : S2048.Slices ![366] S1024
  slices_S2048_S1024_365 : S2048.Slices ![365] S1024
  slices_S2048_S1024_364 : S2048.Slices ![364] S1024
  slices_S2048_S1024_363 : S2048.Slices ![363] S1024
  slices_S2048_S1024_362 : S2048.Slices ![362] S1024
  slices_S2048_S1024_361 : S2048.Slices ![361] S1024
  slices_S2048_S1024_360 : S2048.Slices ![360] S1024
  slices_S2048_S1024_359 : S2048.Slices ![359] S1024
  slices_S2048_S1024_358 : S2048.Slices ![358] S1024
  slices_S2048_S1024_357 : S2048.Slices ![357] S1024
  slices_S2048_S1024_356 : S2048.Slices ![356] S1024
  slices_S2048_S1024_355 : S2048.Slices ![355] S1024
  slices_S2048_S1024_354 : S2048.Slices ![354] S1024
  slices_S2048_S1024_353 : S2048.Slices ![353] S1024
  slices_S2048_S1024_352 : S2048.Slices ![352] S1024
  slices_S2048_S1024_351 : S2048.Slices ![351] S1024
  slices_S2048_S1024_350 : S2048.Slices ![350] S1024
  slices_S2048_S1024_349 : S2048.Slices ![349] S1024
  slices_S2048_S1024_348 : S2048.Slices ![348] S1024
  slices_S2048_S1024_347 : S2048.Slices ![347] S1024
  slices_S2048_S1024_346 : S2048.Slices ![346] S1024
  slices_S2048_S1024_345 : S2048.Slices ![345] S1024
  slices_S2048_S1024_344 : S2048.Slices ![344] S1024
  slices_S2048_S1024_343 : S2048.Slices ![343] S1024
  slices_S2048_S1024_342 : S2048.Slices ![342] S1024
  slices_S2048_S1024_341 : S2048.Slices ![341] S1024
  slices_S2048_S1024_340 : S2048.Slices ![340] S1024
  slices_S2048_S1024_339 : S2048.Slices ![339] S1024
  slices_S2048_S1024_338 : S2048.Slices ![338] S1024
  slices_S2048_S1024_337 : S2048.Slices ![337] S1024
  slices_S2048_S1024_336 : S2048.Slices ![336] S1024
  slices_S2048_S1024_335 : S2048.Slices ![335] S1024
  slices_S2048_S1024_334 : S2048.Slices ![334] S1024
  slices_S2048_S1024_333 : S2048.Slices ![333] S1024
  slices_S2048_S1024_332 : S2048.Slices ![332] S1024
  slices_S2048_S1024_331 : S2048.Slices ![331] S1024
  slices_S2048_S1024_330 : S2048.Slices ![330] S1024
  slices_S2048_S1024_329 : S2048.Slices ![329] S1024
  slices_S2048_S1024_328 : S2048.Slices ![328] S1024
  slices_S2048_S1024_327 : S2048.Slices ![327] S1024
  slices_S2048_S1024_326 : S2048.Slices ![326] S1024
  slices_S2048_S1024_325 : S2048.Slices ![325] S1024
  slices_S2048_S1024_324 : S2048.Slices ![324] S1024
  slices_S2048_S1024_323 : S2048.Slices ![323] S1024
  slices_S2048_S1024_322 : S2048.Slices ![322] S1024
  slices_S2048_S1024_321 : S2048.Slices ![321] S1024
  slices_S2048_S1024_320 : S2048.Slices ![320] S1024
  slices_S2048_S1024_319 : S2048.Slices ![319] S1024
  slices_S2048_S1024_318 : S2048.Slices ![318] S1024
  slices_S2048_S1024_317 : S2048.Slices ![317] S1024
  slices_S2048_S1024_316 : S2048.Slices ![316] S1024
  slices_S2048_S1024_315 : S2048.Slices ![315] S1024
  slices_S2048_S1024_314 : S2048.Slices ![314] S1024
  slices_S2048_S1024_313 : S2048.Slices ![313] S1024
  slices_S2048_S1024_312 : S2048.Slices ![312] S1024
  slices_S2048_S1024_311 : S2048.Slices ![311] S1024
  slices_S2048_S1024_310 : S2048.Slices ![310] S1024
  slices_S2048_S1024_309 : S2048.Slices ![309] S1024
  slices_S2048_S1024_308 : S2048.Slices ![308] S1024
  slices_S2048_S1024_307 : S2048.Slices ![307] S1024
  slices_S2048_S1024_306 : S2048.Slices ![306] S1024
  slices_S2048_S1024_305 : S2048.Slices ![305] S1024
  slices_S2048_S1024_304 : S2048.Slices ![304] S1024
  slices_S2048_S1024_303 : S2048.Slices ![303] S1024
  slices_S2048_S1024_302 : S2048.Slices ![302] S1024
  slices_S2048_S1024_301 : S2048.Slices ![301] S1024
  slices_S2048_S1024_300 : S2048.Slices ![300] S1024
  slices_S2048_S1024_299 : S2048.Slices ![299] S1024
  slices_S2048_S1024_298 : S2048.Slices ![298] S1024
  slices_S2048_S1024_297 : S2048.Slices ![297] S1024
  slices_S2048_S1024_296 : S2048.Slices ![296] S1024
  slices_S2048_S1024_295 : S2048.Slices ![295] S1024
  slices_S2048_S1024_294 : S2048.Slices ![294] S1024
  slices_S2048_S1024_293 : S2048.Slices ![293] S1024
  slices_S2048_S1024_292 : S2048.Slices ![292] S1024
  slices_S2048_S1024_291 : S2048.Slices ![291] S1024
  slices_S2048_S1024_290 : S2048.Slices ![290] S1024
  slices_S2048_S1024_289 : S2048.Slices ![289] S1024
  slices_S2048_S1024_288 : S2048.Slices ![288] S1024
  slices_S2048_S1024_287 : S2048.Slices ![287] S1024
  slices_S2048_S1024_286 : S2048.Slices ![286] S1024
  slices_S2048_S1024_285 : S2048.Slices ![285] S1024
  slices_S2048_S1024_284 : S2048.Slices ![284] S1024
  slices_S2048_S1024_283 : S2048.Slices ![283] S1024
  slices_S2048_S1024_282 : S2048.Slices ![282] S1024
  slices_S2048_S1024_281 : S2048.Slices ![281] S1024
  slices_S2048_S1024_280 : S2048.Slices ![280] S1024
  slices_S2048_S1024_279 : S2048.Slices ![279] S1024
  slices_S2048_S1024_278 : S2048.Slices ![278] S1024
  slices_S2048_S1024_277 : S2048.Slices ![277] S1024
  slices_S2048_S1024_276 : S2048.Slices ![276] S1024
  slices_S2048_S1024_275 : S2048.Slices ![275] S1024
  slices_S2048_S1024_274 : S2048.Slices ![274] S1024
  slices_S2048_S1024_273 : S2048.Slices ![273] S1024
  slices_S2048_S1024_272 : S2048.Slices ![272] S1024
  slices_S2048_S1024_271 : S2048.Slices ![271] S1024
  slices_S2048_S1024_270 : S2048.Slices ![270] S1024
  slices_S2048_S1024_269 : S2048.Slices ![269] S1024
  slices_S2048_S1024_268 : S2048.Slices ![268] S1024
  slices_S2048_S1024_267 : S2048.Slices ![267] S1024
  slices_S2048_S1024_266 : S2048.Slices ![266] S1024
  slices_S2048_S1024_265 : S2048.Slices ![265] S1024
  slices_S2048_S1024_264 : S2048.Slices ![264] S1024
  slices_S2048_S1024_263 : S2048.Slices ![263] S1024
  slices_S2048_S1024_262 : S2048.Slices ![262] S1024
  slices_S2048_S1024_261 : S2048.Slices ![261] S1024
  slices_S2048_S1024_260 : S2048.Slices ![260] S1024
  slices_S2048_S1024_259 : S2048.Slices ![259] S1024
  slices_S2048_S1024_258 : S2048.Slices ![258] S1024
  slices_S2048_S1024_257 : S2048.Slices ![257] S1024
  slices_S2048_S1024_256 : S2048.Slices ![256] S1024
  slices_S2048_S1024_255 : S2048.Slices ![255] S1024
  slices_S2048_S1024_254 : S2048.Slices ![254] S1024
  slices_S2048_S1024_253 : S2048.Slices ![253] S1024
  slices_S2048_S1024_252 : S2048.Slices ![252] S1024
  slices_S2048_S1024_251 : S2048.Slices ![251] S1024
  slices_S2048_S1024_250 : S2048.Slices ![250] S1024
  slices_S2048_S1024_249 : S2048.Slices ![249] S1024
  slices_S2048_S1024_248 : S2048.Slices ![248] S1024
  slices_S2048_S1024_247 : S2048.Slices ![247] S1024
  slices_S2048_S1024_246 : S2048.Slices ![246] S1024
  slices_S2048_S1024_245 : S2048.Slices ![245] S1024
  slices_S2048_S1024_244 : S2048.Slices ![244] S1024
  slices_S2048_S1024_243 : S2048.Slices ![243] S1024
  slices_S2048_S1024_242 : S2048.Slices ![242] S1024
  slices_S2048_S1024_241 : S2048.Slices ![241] S1024
  slices_S2048_S1024_240 : S2048.Slices ![240] S1024
  slices_S2048_S1024_239 : S2048.Slices ![239] S1024
  slices_S2048_S1024_238 : S2048.Slices ![238] S1024
  slices_S2048_S1024_237 : S2048.Slices ![237] S1024
  slices_S2048_S1024_236 : S2048.Slices ![236] S1024
  slices_S2048_S1024_235 : S2048.Slices ![235] S1024
  slices_S2048_S1024_234 : S2048.Slices ![234] S1024
  slices_S2048_S1024_233 : S2048.Slices ![233] S1024
  slices_S2048_S1024_232 : S2048.Slices ![232] S1024
  slices_S2048_S1024_231 : S2048.Slices ![231] S1024
  slices_S2048_S1024_230 : S2048.Slices ![230] S1024
  slices_S2048_S1024_229 : S2048.Slices ![229] S1024
  slices_S2048_S1024_228 : S2048.Slices ![228] S1024
  slices_S2048_S1024_227 : S2048.Slices ![227] S1024
  slices_S2048_S1024_226 : S2048.Slices ![226] S1024
  slices_S2048_S1024_225 : S2048.Slices ![225] S1024
  slices_S2048_S1024_224 : S2048.Slices ![224] S1024
  slices_S2048_S1024_223 : S2048.Slices ![223] S1024
  slices_S2048_S1024_222 : S2048.Slices ![222] S1024
  slices_S2048_S1024_221 : S2048.Slices ![221] S1024
  slices_S2048_S1024_220 : S2048.Slices ![220] S1024
  slices_S2048_S1024_219 : S2048.Slices ![219] S1024
  slices_S2048_S1024_218 : S2048.Slices ![218] S1024
  slices_S2048_S1024_217 : S2048.Slices ![217] S1024
  slices_S2048_S1024_216 : S2048.Slices ![216] S1024
  slices_S2048_S1024_215 : S2048.Slices ![215] S1024
  slices_S2048_S1024_214 : S2048.Slices ![214] S1024
  slices_S2048_S1024_213 : S2048.Slices ![213] S1024
  slices_S2048_S1024_212 : S2048.Slices ![212] S1024
  slices_S2048_S1024_211 : S2048.Slices ![211] S1024
  slices_S2048_S1024_210 : S2048.Slices ![210] S1024
  slices_S2048_S1024_209 : S2048.Slices ![209] S1024
  slices_S2048_S1024_208 : S2048.Slices ![208] S1024
  slices_S2048_S1024_207 : S2048.Slices ![207] S1024
  slices_S2048_S1024_206 : S2048.Slices ![206] S1024
  slices_S2048_S1024_205 : S2048.Slices ![205] S1024
  slices_S2048_S1024_204 : S2048.Slices ![204] S1024
  slices_S2048_S1024_203 : S2048.Slices ![203] S1024
  slices_S2048_S1024_202 : S2048.Slices ![202] S1024
  slices_S2048_S1024_201 : S2048.Slices ![201] S1024
  slices_S2048_S1024_200 : S2048.Slices ![200] S1024
  slices_S2048_S1024_199 : S2048.Slices ![199] S1024
  slices_S2048_S1024_198 : S2048.Slices ![198] S1024
  slices_S2048_S1024_197 : S2048.Slices ![197] S1024
  slices_S2048_S1024_196 : S2048.Slices ![196] S1024
  slices_S2048_S1024_195 : S2048.Slices ![195] S1024
  slices_S2048_S1024_194 : S2048.Slices ![194] S1024
  slices_S2048_S1024_193 : S2048.Slices ![193] S1024
  slices_S2048_S1024_192 : S2048.Slices ![192] S1024
  slices_S2048_S1024_191 : S2048.Slices ![191] S1024
  slices_S2048_S1024_190 : S2048.Slices ![190] S1024
  slices_S2048_S1024_189 : S2048.Slices ![189] S1024
  slices_S2048_S1024_188 : S2048.Slices ![188] S1024
  slices_S2048_S1024_187 : S2048.Slices ![187] S1024
  slices_S2048_S1024_186 : S2048.Slices ![186] S1024
  slices_S2048_S1024_185 : S2048.Slices ![185] S1024
  slices_S2048_S1024_184 : S2048.Slices ![184] S1024
  slices_S2048_S1024_183 : S2048.Slices ![183] S1024
  slices_S2048_S1024_182 : S2048.Slices ![182] S1024
  slices_S2048_S1024_181 : S2048.Slices ![181] S1024
  slices_S2048_S1024_180 : S2048.Slices ![180] S1024
  slices_S2048_S1024_179 : S2048.Slices ![179] S1024
  slices_S2048_S1024_178 : S2048.Slices ![178] S1024
  slices_S2048_S1024_177 : S2048.Slices ![177] S1024
  slices_S2048_S1024_176 : S2048.Slices ![176] S1024
  slices_S2048_S1024_175 : S2048.Slices ![175] S1024
  slices_S2048_S1024_174 : S2048.Slices ![174] S1024
  slices_S2048_S1024_173 : S2048.Slices ![173] S1024
  slices_S2048_S1024_172 : S2048.Slices ![172] S1024
  slices_S2048_S1024_171 : S2048.Slices ![171] S1024
  slices_S2048_S1024_170 : S2048.Slices ![170] S1024
  slices_S2048_S1024_169 : S2048.Slices ![169] S1024
  slices_S2048_S1024_168 : S2048.Slices ![168] S1024
  slices_S2048_S1024_167 : S2048.Slices ![167] S1024
  slices_S2048_S1024_166 : S2048.Slices ![166] S1024
  slices_S2048_S1024_165 : S2048.Slices ![165] S1024
  slices_S2048_S1024_164 : S2048.Slices ![164] S1024
  slices_S2048_S1024_163 : S2048.Slices ![163] S1024
  slices_S2048_S1024_162 : S2048.Slices ![162] S1024
  slices_S2048_S1024_161 : S2048.Slices ![161] S1024
  slices_S2048_S1024_160 : S2048.Slices ![160] S1024
  slices_S2048_S1024_159 : S2048.Slices ![159] S1024
  slices_S2048_S1024_158 : S2048.Slices ![158] S1024
  slices_S2048_S1024_157 : S2048.Slices ![157] S1024
  slices_S2048_S1024_156 : S2048.Slices ![156] S1024
  slices_S2048_S1024_155 : S2048.Slices ![155] S1024
  slices_S2048_S1024_154 : S2048.Slices ![154] S1024
  slices_S2048_S1024_153 : S2048.Slices ![153] S1024
  slices_S2048_S1024_152 : S2048.Slices ![152] S1024
  slices_S2048_S1024_151 : S2048.Slices ![151] S1024
  slices_S2048_S1024_150 : S2048.Slices ![150] S1024
  slices_S2048_S1024_149 : S2048.Slices ![149] S1024
  slices_S2048_S1024_148 : S2048.Slices ![148] S1024
  slices_S2048_S1024_147 : S2048.Slices ![147] S1024
  slices_S2048_S1024_146 : S2048.Slices ![146] S1024
  slices_S2048_S1024_145 : S2048.Slices ![145] S1024
  slices_S2048_S1024_144 : S2048.Slices ![144] S1024
  slices_S2048_S1024_143 : S2048.Slices ![143] S1024
  slices_S2048_S1024_142 : S2048.Slices ![142] S1024
  slices_S2048_S1024_141 : S2048.Slices ![141] S1024
  slices_S2048_S1024_140 : S2048.Slices ![140] S1024
  slices_S2048_S1024_139 : S2048.Slices ![139] S1024
  slices_S2048_S1024_138 : S2048.Slices ![138] S1024
  slices_S2048_S1024_137 : S2048.Slices ![137] S1024
  slices_S2048_S1024_136 : S2048.Slices ![136] S1024
  slices_S2048_S1024_135 : S2048.Slices ![135] S1024
  slices_S2048_S1024_134 : S2048.Slices ![134] S1024
  slices_S2048_S1024_133 : S2048.Slices ![133] S1024
  slices_S2048_S1024_132 : S2048.Slices ![132] S1024
  slices_S2048_S1024_131 : S2048.Slices ![131] S1024
  slices_S2048_S1024_130 : S2048.Slices ![130] S1024
  slices_S2048_S1024_129 : S2048.Slices ![129] S1024
  slices_S2048_S1024_128 : S2048.Slices ![128] S1024
  slices_S2048_S1024_127 : S2048.Slices ![127] S1024
  slices_S2048_S1024_126 : S2048.Slices ![126] S1024
  slices_S2048_S1024_125 : S2048.Slices ![125] S1024
  slices_S2048_S1024_124 : S2048.Slices ![124] S1024
  slices_S2048_S1024_123 : S2048.Slices ![123] S1024
  slices_S2048_S1024_122 : S2048.Slices ![122] S1024
  slices_S2048_S1024_121 : S2048.Slices ![121] S1024
  slices_S2048_S1024_120 : S2048.Slices ![120] S1024
  slices_S2048_S1024_119 : S2048.Slices ![119] S1024
  slices_S2048_S1024_118 : S2048.Slices ![118] S1024
  slices_S2048_S1024_117 : S2048.Slices ![117] S1024
  slices_S2048_S1024_116 : S2048.Slices ![116] S1024
  slices_S2048_S1024_115 : S2048.Slices ![115] S1024
  slices_S2048_S1024_114 : S2048.Slices ![114] S1024
  slices_S2048_S1024_113 : S2048.Slices ![113] S1024
  slices_S2048_S1024_112 : S2048.Slices ![112] S1024
  slices_S2048_S1024_111 : S2048.Slices ![111] S1024
  slices_S2048_S1024_110 : S2048.Slices ![110] S1024
  slices_S2048_S1024_109 : S2048.Slices ![109] S1024
  slices_S2048_S1024_108 : S2048.Slices ![108] S1024
  slices_S2048_S1024_107 : S2048.Slices ![107] S1024
  slices_S2048_S1024_106 : S2048.Slices ![106] S1024
  slices_S2048_S1024_105 : S2048.Slices ![105] S1024
  slices_S2048_S1024_104 : S2048.Slices ![104] S1024
  slices_S2048_S1024_103 : S2048.Slices ![103] S1024
  slices_S2048_S1024_102 : S2048.Slices ![102] S1024
  slices_S2048_S1024_101 : S2048.Slices ![101] S1024
  slices_S2048_S1024_100 : S2048.Slices ![100] S1024
  slices_S2048_S1024_99 : S2048.Slices ![99] S1024
  slices_S2048_S1024_98 : S2048.Slices ![98] S1024
  slices_S2048_S1024_97 : S2048.Slices ![97] S1024
  slices_S2048_S1024_96 : S2048.Slices ![96] S1024
  slices_S2048_S1024_95 : S2048.Slices ![95] S1024
  slices_S2048_S1024_94 : S2048.Slices ![94] S1024
  slices_S2048_S1024_93 : S2048.Slices ![93] S1024
  slices_S2048_S1024_92 : S2048.Slices ![92] S1024
  slices_S2048_S1024_91 : S2048.Slices ![91] S1024
  slices_S2048_S1024_90 : S2048.Slices ![90] S1024
  slices_S2048_S1024_89 : S2048.Slices ![89] S1024
  slices_S2048_S1024_88 : S2048.Slices ![88] S1024
  slices_S2048_S1024_87 : S2048.Slices ![87] S1024
  slices_S2048_S1024_86 : S2048.Slices ![86] S1024
  slices_S2048_S1024_85 : S2048.Slices ![85] S1024
  slices_S2048_S1024_84 : S2048.Slices ![84] S1024
  slices_S2048_S1024_83 : S2048.Slices ![83] S1024
  slices_S2048_S1024_82 : S2048.Slices ![82] S1024
  slices_S2048_S1024_81 : S2048.Slices ![81] S1024
  slices_S2048_S1024_80 : S2048.Slices ![80] S1024
  slices_S2048_S1024_79 : S2048.Slices ![79] S1024
  slices_S2048_S1024_78 : S2048.Slices ![78] S1024
  slices_S2048_S1024_77 : S2048.Slices ![77] S1024
  slices_S2048_S1024_76 : S2048.Slices ![76] S1024
  slices_S2048_S1024_75 : S2048.Slices ![75] S1024
  slices_S2048_S1024_74 : S2048.Slices ![74] S1024
  slices_S2048_S1024_73 : S2048.Slices ![73] S1024
  slices_S2048_S1024_72 : S2048.Slices ![72] S1024
  slices_S2048_S1024_71 : S2048.Slices ![71] S1024
  slices_S2048_S1024_70 : S2048.Slices ![70] S1024
  slices_S2048_S1024_69 : S2048.Slices ![69] S1024
  slices_S2048_S1024_68 : S2048.Slices ![68] S1024
  slices_S2048_S1024_67 : S2048.Slices ![67] S1024
  slices_S2048_S1024_66 : S2048.Slices ![66] S1024
  slices_S2048_S1024_65 : S2048.Slices ![65] S1024
  slices_S2048_S1024_64 : S2048.Slices ![64] S1024
  slices_S2048_S1024_63 : S2048.Slices ![63] S1024
  slices_S2048_S1024_62 : S2048.Slices ![62] S1024
  slices_S2048_S1024_61 : S2048.Slices ![61] S1024
  slices_S2048_S1024_60 : S2048.Slices ![60] S1024
  slices_S2048_S1024_59 : S2048.Slices ![59] S1024
  slices_S2048_S1024_58 : S2048.Slices ![58] S1024
  slices_S2048_S1024_57 : S2048.Slices ![57] S1024
  slices_S2048_S1024_56 : S2048.Slices ![56] S1024
  slices_S2048_S1024_55 : S2048.Slices ![55] S1024
  slices_S2048_S1024_54 : S2048.Slices ![54] S1024
  slices_S2048_S1024_53 : S2048.Slices ![53] S1024
  slices_S2048_S1024_52 : S2048.Slices ![52] S1024
  slices_S2048_S1024_51 : S2048.Slices ![51] S1024
  slices_S2048_S1024_50 : S2048.Slices ![50] S1024
  slices_S2048_S1024_49 : S2048.Slices ![49] S1024
  slices_S2048_S1024_48 : S2048.Slices ![48] S1024
  slices_S2048_S1024_47 : S2048.Slices ![47] S1024
  slices_S2048_S1024_46 : S2048.Slices ![46] S1024
  slices_S2048_S1024_45 : S2048.Slices ![45] S1024
  slices_S2048_S1024_44 : S2048.Slices ![44] S1024
  slices_S2048_S1024_43 : S2048.Slices ![43] S1024
  slices_S2048_S1024_42 : S2048.Slices ![42] S1024
  slices_S2048_S1024_41 : S2048.Slices ![41] S1024
  slices_S2048_S1024_40 : S2048.Slices ![40] S1024
  slices_S2048_S1024_39 : S2048.Slices ![39] S1024
  slices_S2048_S1024_38 : S2048.Slices ![38] S1024
  slices_S2048_S1024_37 : S2048.Slices ![37] S1024
  slices_S2048_S1024_36 : S2048.Slices ![36] S1024
  slices_S2048_S1024_35 : S2048.Slices ![35] S1024
  slices_S2048_S1024_34 : S2048.Slices ![34] S1024
  slices_S2048_S1024_33 : S2048.Slices ![33] S1024
  slices_S2048_S1024_32 : S2048.Slices ![32] S1024
  slices_S2048_S1024_31 : S2048.Slices ![31] S1024
  slices_S2048_S1024_30 : S2048.Slices ![30] S1024
  slices_S2048_S1024_29 : S2048.Slices ![29] S1024

class Shapes2.Facts₀ : Prop where
  slices_S2048_S1024_28 : S2048.Slices ![28] S1024
  slices_S2048_S1024_27 : S2048.Slices ![27] S1024
  slices_S2048_S1024_26 : S2048.Slices ![26] S1024
  slices_S2048_S1024_25 : S2048.Slices ![25] S1024
  slices_S2048_S1024_24 : S2048.Slices ![24] S1024
  slices_S2048_S1024_23 : S2048.Slices ![23] S1024
  slices_S2048_S1024_22 : S2048.Slices ![22] S1024
  slices_S2048_S1024_21 : S2048.Slices ![21] S1024
  slices_S2048_S1024_20 : S2048.Slices ![20] S1024
  slices_S2048_S1024_19 : S2048.Slices ![19] S1024
  slices_S2048_S1024_18 : S2048.Slices ![18] S1024
  slices_S2048_S1024_17 : S2048.Slices ![17] S1024
  slices_S2048_S1024_16 : S2048.Slices ![16] S1024
  slices_S2048_S1024_15 : S2048.Slices ![15] S1024
  slices_S2048_S1024_14 : S2048.Slices ![14] S1024
  slices_S2048_S1024_13 : S2048.Slices ![13] S1024
  slices_S2048_S1024_12 : S2048.Slices ![12] S1024
  slices_S2048_S1024_11 : S2048.Slices ![11] S1024
  slices_S2048_S1024_10 : S2048.Slices ![10] S1024
  slices_S2048_S1024_9 : S2048.Slices ![9] S1024
  slices_S2048_S1024_8 : S2048.Slices ![8] S1024
  slices_S2048_S1024_7 : S2048.Slices ![7] S1024
  slices_S2048_S1024_6 : S2048.Slices ![6] S1024
  slices_S2048_S1024_5 : S2048.Slices ![5] S1024
  slices_S2048_S1024_4 : S2048.Slices ![4] S1024
  slices_S2048_S1024_3 : S2048.Slices ![3] S1024
  slices_S2048_S1024_2 : S2048.Slices ![2] S1024
  slices_S2048_S1024_1 : S2048.Slices ![1] S1024
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S1x1024_S1x1024_S1x1024_S1x1024_S1x1024_S1x1024_S16x1024_d0 : Shape.Concatenates [S1x1024, S1x1024, S1x1024, S1x1024, S1x1024, S1x1024, S1x1024, S1x1024, S1x1024, S1x1024, S1x1024, S1x1024, S1x1024, S1x1024, S1x1024, S1x1024] S16x1024 0
  concatenates_S16x1024_S16x1024_S16x1024_S16x1024_S16x1024_S16x1024_S16x1024_S16x1024_S16x1024_S16x1024_S16x1024_S16x1024_S16x1024_S16x1024_S16x1024_S16x1024_S256x1024_d0 : Shape.Concatenates [S16x1024, S16x1024, S16x1024, S16x1024, S16x1024, S16x1024, S16x1024, S16x1024, S16x1024, S16x1024, S16x1024, S16x1024, S16x1024, S16x1024, S16x1024, S16x1024] S256x1024 0
  concatenates_S256x1024_S256x1024_S256x1024_S256x1024_S1024x1024_d0 : Shape.Concatenates [S256x1024, S256x1024, S256x1024, S256x1024] S1024x1024 0
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S2048x1024_S1024x1024_S2048x1024_1_0_0_1_n_n_wf : DotDims.WF S2048x1024 S1024x1024 S2048x1024 [1] [0] [0] [1] [] []

class Facts₀ : Prop where
  k0 : K0.Facts₀
  shapes1 : Shapes1.Facts₀
  shapes2 : Shapes2.Facts₀
attribute [instance] Facts₀.k0 Facts₀.shapes1 Facts₀.shapes2

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2122) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2123) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1024x1024x1 : Shape := ⟨3, ![1024, 1024, 1]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .i32⟩
  | .hbm, ⟨3, _⟩ => ⟨S1x1024, .i32⟩
  | .hbm, ⟨4, _⟩ => ⟨S1024, .i32⟩
  | .hbm, ⟨5, _⟩ => ⟨S1024x1, .i32⟩
  | .hbm, ⟨6, _⟩ => ⟨S1024x1024, .i32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i1⟩
  | .hbm, ⟨20, _⟩ => ⟨S_, .i32⟩
  | .hbm, ⟨21, _⟩ => ⟨S1024x1024, .i32⟩
  | .hbm, ⟨22, _⟩ => ⟨S1024x1024, .i1⟩
  | .hbm, ⟨23, _⟩ => ⟨S_, .i32⟩
  | .hbm, ⟨24, _⟩ => ⟨S_, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S_, .i32⟩
  | .hbm, ⟨32, _⟩ => ⟨S1024x1024, .i32⟩
  | .hbm, ⟨33, _⟩ => ⟨S1024x1024, .i1⟩
  | .hbm, ⟨34, _⟩ => ⟨S_, .i32⟩
  | .hbm, ⟨35, _⟩ => ⟨S1024x1024, .i32⟩
  | .hbm, ⟨36, _⟩ => ⟨S1024x1024, .i32⟩
  | .hbm, ⟨37, _⟩ => ⟨S1024x1024, .i32⟩
  | .hbm, ⟨38, _⟩ => ⟨S1024x1024x1, .i32⟩
  | .hbm, ⟨39, _⟩ => ⟨S1024x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  gather_S1024_S1024x1024x1_S1024x1024_n_0_n_n_0_2_1_wf : GatherDims.WF S1024 S1024x1024x1 S1024x1024 [] [0] [] [0] [] 2 ![1]
  dot_S65536x1024_S1024x1024_S65536x1024_1_1_0_0_n_n_wf : DotDims.WF S65536x1024 S1024x1024 S65536x1024 [1] [1] [0] [0] [] []

variable [Facts₀]

def gather_S1024_S1024x1024x1_S1024x1024_n_0_n_n_0_2_1 : GatherDims S1024 S1024x1024x1 S1024x1024 where
  offsetDims := []
  collapsedSliceDims := [0]
  operandBatchingDims := []
  startIndicesBatchingDims := []
  startIndexMap := [0]
  indexVectorDim := 2
  sliceSizes := ![1]
  wf := gather_S1024_S1024x1024x1_S1024x1024_n_0_n_n_0_2_1_wf
def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.LibHostStretch.lean ====
/-
  Reading a straight line of host operations in single-assignment form.

  In such a line the k-th operation writes exactly one buffer, and the buffers written have increasing indices
  (operation `k` writes the buffer of index `base + k` of the device's main memory), while every operand of an
  operation is an argument or a buffer written earlier. Then the contents of a result buffer once the WHOLE line has
  run are the operation's function of the contents, once the whole line has run, of its operand buffers: nothing after
  the operation writes its result (later results have larger indices), and nothing from the operation on writes an
  operand (operands have smaller indices). So the final contents satisfy every operation's defining equation at once,
  and each equation costs one comparison of indices, whatever the length of the line.
-/
import Idealize.ShloMosaic.Lib.StableHlo.Run

noncomputable section

namespace Idealize.ShloMosaic.StableHlo

variable {τ : Topo} {sig : RefSig} {Val : EltTy → Type}

/-- The line is in single-assignment form from index `k`: its first operation writes exactly the main-memory buffer
    of index `k`, the next the buffer of index `k + 1`, and so on. -/
def WritesFrom : Nat → List (HloOp τ sig Val) → Prop
  | _, [] => True
  | k, op :: ops => (∃ y : Ref sig .tc, op.writes = {Proc.devRef .tc y} ∧ y.space = .hbm ∧ y.idx.val = k) ∧ WritesFrom (k + 1) ops

theorem WritesFrom.drop : ∀ {k : Nat} {ops : List (HloOp τ sig Val)} (p : Nat), WritesFrom k ops → WritesFrom (k + p) (ops.drop p)
  | _, _, 0, h => by simpa using h
  | _, [], _ + 1, _ => by simp [WritesFrom]
  | k, _ :: ops, p + 1, h => by
    have := WritesFrom.drop (k := k + 1) (ops := ops) p h.2
    rw [List.drop_succ_cons]
    rwa [show k + (p + 1) = k + 1 + p by omega]

/-- A main-memory buffer of index below `k` (or a buffer of another memory) is written by no operation of a line in
    single-assignment form from `k`. -/
theorem WritesFrom.not_mem_writes : ∀ {k : Nat} {ops : List (HloOp τ sig Val)}, WritesFrom k ops →
    ∀ r : Ref sig .tc, (r.space = .hbm → r.idx.val < k) → ∀ o ∈ ops, Proc.devRef (τ := τ) .tc r ∉ o.writes
  | _, [], _, _, _, o, ho => nomatch ho
  | k, op :: ops, h, r, hr, o, ho => by
    rcases List.mem_cons.mp ho with rfl | ho
    · obtain ⟨y, hy, hs, hi⟩ := h.1
      rw [hy, Finset.mem_singleton]
      intro e
      have : r = y := Proc.devRef_injective _ e
      subst this
      have := hr hs
      omega
    · exact WritesFrom.not_mem_writes h.2 r (fun hs => Nat.lt_succ_of_lt (hr hs)) o ho

/-- Contents after two lines run in order. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operation at position `p` of a line in single-assignment form: the line split around it, the index of the
    buffer it writes, and the single-assignment form of what follows it. -/
theorem WritesFrom.at {k : Nat} {ops : List (HloOp τ sig Val)} (h : WritesFrom k ops) {p : Nat} {op : HloOp τ sig Val}
    (hop : ops[p]? = some op) :
    ops = ops.take p ++ op :: ops.drop (p + 1)
      ∧ (∃ y : Ref sig .tc, op.writes = {Proc.devRef .tc y} ∧ y.space = .hbm ∧ y.idx.val = k + p)
      ∧ WritesFrom (k + p) (op :: ops.drop (p + 1)) := by
  obtain ⟨hp, rfl⟩ := List.getElem?_eq_some_iff.mp hop
  have hd : ops.drop p = ops[p] :: ops.drop (p + 1) := List.drop_eq_getElem_cons hp
  have hw := h.drop p
  rw [hd] at hw
  refine ⟨?_, hw.1, hw⟩
  conv_lhs => rw [← List.take_append_drop p ops, hd]

/-- A buffer of index below `k + p` holds, once the whole line has run, what it held after the first `p` operations. -/
theorem WritesFrom.after_operand {k : Nat} {ops : List (HloOp τ sig Val)} (h : WritesFrom k ops) (p : Nat)
    (x : Ref sig .tc) (hx : x.space = .hbm → x.idx.val < k + p) (V : Valuation τ sig Val) :
    after ops V (Proc.devRef .tc x) = after (ops.take p) V (Proc.devRef .tc x) := by
  conv_lhs => rw [← List.take_append_drop p ops, after_append]
  exact after_of_forall_not_mem _ _ ((h.drop p).not_mem_writes x hx)

/-- The result buffer of the operation at position `p` holds, once the whole line has run, the operation's result on
    the contents after the first `p` operations. -/
theorem WritesFrom.after_result {k : Nat} {ops : List (HloOp τ sig Val)} (h : WritesFrom k ops) {p : Nat} {op : HloOp τ sig Val}
    (hop : ops[p]? = some op) (y : Ref sig .tc) (hy : op.writes = {Proc.devRef .tc y}) (V : Valuation τ sig Val) :
    after ops V (Proc.devRef .tc y) = op.result (after (ops.take p) V) (Proc.devRef .tc y) := by
  obtain ⟨hsplit, ⟨y', hy', hs, hi⟩, hw⟩ := h.at hop
  have e : y' = y := Proc.devRef_injective (τ := τ) _ (Finset.singleton_injective (hy'.symm.trans hy))
  subst e
  conv_lhs => rw [hsplit, after_append, after_cons]
  exact after_of_forall_not_mem _ _ (hw.2.not_mem_writes y' (fun _ => by omega))

/-- A one-operand operation at position `p`: its result buffer's final contents are its function of its operand
    buffer's final contents. -/
theorem WritesFrom.read_unary {k : Nat} {ops : List (HloOp τ sig Val)} (h : WritesFrom k ops) (p : Nat)
    {x y : Ref sig .tc} {f : x.ty.Contents Val → y.ty.Contents Val} {hx hy}
    (hop : ops[p]? = some (unary x y f hx hy)) (hxl : x.space = .hbm → x.idx.val < k + p) (V : Valuation τ sig Val) :
    after ops V (Proc.devRef .tc y) = f (after ops V (Proc.devRef .tc x)) := by
  rw [h.after_result hop y (unary_writes x y f hx hy) V, unary_result, h.after_operand p x hxl V]

/-- A two-operand operation at position `p`. -/
theorem WritesFrom.read_binary {k : Nat} {ops : List (HloOp τ sig Val)} (h : WritesFrom k ops) (p : Nat)
    {a b y : Ref sig .tc} {f : a.ty.Contents Val → b.ty.Contents Val → y.ty.Contents Val} {ha hb hy}
    (hop : ops[p]? = some (binary a b y f ha hb hy)) (hal : a.space = .hbm → a.idx.val < k + p)
    (hbl : b.space = .hbm → b.idx.val < k + p) (V : Valuation τ sig Val) :
    after ops V (Proc.devRef .tc y) = f (after ops V (Proc.devRef .tc a)) (after ops V (Proc.devRef .tc b)) := by
  rw [h.after_result hop y (binary_writes a b y f ha hb hy) V, binary_result, h.after_operand p a hal V,
    h.after_operand p b hbl V]

/-- An operation of any number of operands at position `p` (a concatenation). -/
theorem WritesFrom.read_nary {k : Nat} {ops : List (HloOp τ sig Val)} (h : WritesFrom k ops) (p : Nat) {n : Nat}
    {xs : Fin n → Ref sig .tc} {y : Ref sig .tc} {f : ((j : Fin n) → (xs j).ty.Contents Val) → y.ty.Contents Val} {hxs hy}
    (hop : ops[p]? = some (nary xs y f hxs hy)) (hxl : ∀ j, (xs j).space = .hbm → (xs j).idx.val < k + p)
    (V : Valuation τ sig Val) :
    after ops V (Proc.devRef .tc y) = f (fun j => after ops V (Proc.devRef .tc (xs j))) := by
  rw [h.after_result hop y (nary_writes y xs f hxs hy) V, nary_result]
  congr 1
  funext j
  exact (h.after_operand p (xs j) (hxl j) V).symm

/-- A buffer of index below `k` is as the line found it. -/
theorem WritesFrom.after_kept {k : Nat} {ops : List (HloOp τ sig Val)} (h : WritesFrom k ops)
    (x : Ref sig .tc) (hx : x.space = .hbm → x.idx.val < k) (V : Valuation τ sig Val) :
    after ops V (Proc.devRef .tc x) = V (Proc.devRef .tc x) :=
  after_of_forall_not_mem _ _ (h.not_mem_writes x hx)

end Idealize.ShloMosaic.StableHlo

end
-- ==== Proof.KernelStretch.lean ====
/-
  The host stretch before the kernel's one launch is in single-assignment form: its k-th operation writes exactly the
  main-memory buffer of index k + 2 (the two arguments hold indices 0 and 1), so the arguments are as launched when
  the kernel starts, and every intermediate buffer can be read off its own operation.
-/
import proofs.«163274_j17575006175271_2_alg».proof.Proof.Gen.Kernel.Launch
import proofs.«163274_j17575006175271_2_alg».proof.Proof.LibHostStretch

set_option maxRecDepth 100000
set_option maxHeartbeats 40000000

noncomputable section

namespace Cert.Kernel.Stretch

open Idealize.ShloMosaic Idealize.ShloMosaic.StableHlo Cert.Kernel Cert.Kernel.Gen

variable {F : FTy → Type} [FloatOps F]

/-- Operation k of the stretch writes the buffer of index k + 2, and only it. -/
theorem writesFrom : WritesFrom 2 (hostOps0 (F := F)) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

end Cert.Kernel.Stretch

end
-- ==== Proof.KernelFrame.lean ====
/-
  The frame of the program: it runs to the end on every core, faults nowhere, and leaves its two argument arrays
  as launched.

  The program is a straight line of 2,123 host operations — slices, one reversal, concatenations and one change of
  format, each writing a value of its own — followed by ONE gridded region of 32 points with three windows: window 0
  stages the block of 2048 rows of the first argument at every point, window 1 stages the whole 1024 × 1024 matrix the
  host line built (fetched at the first point, kept thereafter), and window 2 is the block of 2048 rows of the result,
  written back at every point. The body loads the two input buffers whole and stores one value, a function of the two
  loads, over the whole of the output buffer.

  Three facts carry the frame. (1) No host operation writes an argument array: operation `k` writes exactly the value of
  index `k + 2`, and the two arguments have indices 0 and 1, so the region finds the arguments as launched.
  (2) The body's one store covers its buffer, so what the buffer holds afterwards is that store's payload, whatever it
  held before; the inputs' buffers are only read. (3) An input window's buffer holds its block at every point, fetched
  there or not: where it is not fetched the block index has not moved. The region's run then ends with every input array
  as the region found it and every array no window stages untouched.
-/
import proofs.«163274_j17575006175271_2_alg».proof.Proof.Gen.Kernel.Launch
import proofs.«163274_j17575006175271_2_alg».proof.Proof.Gen.Kernel.Skeleton
import proofs.«163274_j17575006175271_2_alg».proof.Proof.Gen.Kernel.Points
import proofs.«163274_j17575006175271_2_alg».proof.Proof.KernelStretch
import Idealize.ShloMosaic.Lib.Pipeline.FrameBody
import Idealize.ShloMosaic.Lib.Ring
import Idealize.ShloMosaic.Lib.Tactic

-- the host line is a list of 2,123 elements, and a conjunction over it nests as deep; membership in a rectangle of
-- 2048 × 1024 coordinates recurses once per coordinate of the long axis
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host line up to the region -/

/-- Core `c`'s buffers when the region is entered: the launch contents after the host line. -/
abbrev V (c : Dev nD) (b : Ref sig .tc) : Buf (Elt F) ((c : Thread nD τ).loc b) := StableHlo.after hostOps0 (fun b => m (c, b)) b

set_option maxHeartbeats 40000000 in
/-- Every host operation determines all it writes: none leaves a buffer at contents of the machine's choosing. Each is
    built as a function of its operands, so the set of such buffers is empty by definition, one operation after another. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program up to the region: the host line, then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: operation `k` of the line writes exactly the value of index
    `k + 2`, and the argument's index is below 2, so the region finds it as launched. -/
theorem V_main_arg0 (c : Dev nD) : V m c main_arg0 = m ((c : Thread nD τ).loc main_arg0) :=
  (Cert.Kernel.Stretch.writesFrom (F := F)).after_kept main_arg0 (fun _ => by decide) _
/-- No host operation before the region writes `main_arg1`: the region finds it as launched. -/
theorem V_main_arg1 (c : Dev nD) : V m c main_arg1 = m ((c : Thread nD τ).loc main_arg1) :=
  (Cert.Kernel.Stretch.writesFrom (F := F)).after_kept main_arg1 (fun _ => by decide) _

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, for any proof data whose array is `V`'s (`hA`)
    and whose body leaves the block in place (`hafter`): the window is whole and never idle, and it is fetched at every
    point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there (the first point) or not (every
    later one: the block index has not moved, and the body left the block in place). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- The frame from a run of the region: for any proof data whose arrays are the region-entry contents (`hA`), a run
    ending with every window's array at what the data compute and every other unscoped buffer as the region found it,
    read at the two argument arrays — the first is window 0's array, an input, so it ends as the region found it; the
    second is no window's array — and each then as launched (`V_main_arg0`, `V_main_arg1`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S2048x1024 := Rect.unit (s := S2048x1024) ![0, 0] S2048x1024.size inb_S2048x1024_S2048x1024_0_0
abbrev r0_1 : Rect S1024x1024 := Rect.unit (s := S1024x1024) ![0, 0] S1024x1024.size inb_S1024x1024_S1024x1024_0_0

/-! ## What the body leaves in the output window's buffer -/

/-- Window 2's buffer after the body, from the input windows' blocks: its one store as a piece, the payload a
    function of the two loads. -/
def out0_2 (x0 : Vec F S2048x1024 .f32) (x1 : Vec F S1024x1024 .bf16) : Vec F S2048x1024 .f32 :=
  View.canon [⟨r0_0, k0_pay1 (View.ld x0 r0_0) (View.ld x1 r0_1)⟩]

/-- The store is over the whole buffer, so it covers it. -/
theorem cover0_2 (p0 : Vec F S2048x1024 .f32) (y : S2048x1024.Idx) :
    ∃ pc ∈ ([⟨r0_0, p0⟩] : List (View.Piece (Elt F) S2048x1024 .f32)), y ∈ pc.1.set :=
  View.cover_of_tiled [⟨r0_0, p0⟩] S2048x1024.size (by rfl) y

/-! ## The body's triple -/

set_option maxHeartbeats 1000000 in
/-- The body on whole buffers, the inputs' at contents `x0`, `x1` and the output's at anything, runs to the
    continuation holding the inputs' as they were and the output's at `out0_2 x0 x1`: it loads the three buffers whole
    (what it loads from the output's is not used) and stores once, over the whole of the output's. -/
theorem sound_kernel (c : Dev nD) (E : Set ℕ) (i : grid0.Coords) (arg1 : Memref sig .tc .vmem S2048x1024 .f32) (harg1 : arg1.IsWhole) (arg2 : Memref sig .tc .vmem S1024x1024 .bf16) (harg2 : arg2.IsWhole) (arg3 : Memref sig .tc .vmem S2048x1024 .f32) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at point `t`
    each input's buffer at its block and the output's at `out0_2` of the input blocks; as invariant the scoped rest and
    the pseudo-random state register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V` — a fold over the
    2,123 host operations — is never unfolded to check it. -/
theorem A_eq (c : Dev nD) (w : Fin cfg0.W) : (dats m 0 c).A w = V m c (Pipeline.arrRef spec0 w) := by
  dsimp only [dats]

/-- What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks (`before0_0`, `before0_1`), so `sound_kernel`
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of the program
    on the cores terminates, and every final state has every array of the region at what the proof data compute and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the program runs to the end and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KernelIdealStretch.lean ====
/-
  The host stretch before the kernel's one launch is in single-assignment form: its k-th operation writes exactly the
  main-memory buffer of index k + 2 (the two arguments hold indices 0 and 1), so the arguments are as launched when
  the kernel starts, and every intermediate buffer can be read off its own operation.
-/
import proofs.«163274_j17575006175271_2_alg».proof.Proof.Gen.KernelIdeal.Launch
import proofs.«163274_j17575006175271_2_alg».proof.Proof.LibHostStretch

set_option maxRecDepth 100000
set_option maxHeartbeats 40000000

noncomputable section

namespace Cert.KernelIdeal.Stretch

open Idealize.ShloMosaic Idealize.ShloMosaic.StableHlo Cert.KernelIdeal Cert.KernelIdeal.Gen

variable {F : FTy → Type} [FloatOps F]

/-- Operation k of the stretch writes the buffer of index k + 2, and only it. -/
theorem writesFrom : WritesFrom 2 (hostOps0 (F := F)) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

end Cert.KernelIdeal.Stretch

end
-- ==== Proof.KernelIdealFrame.lean ====
/-
  The frame of the program: it runs to the end on every core, faults nowhere, and leaves its two argument arrays
  as launched.

  The program is a straight line of 2,123 host operations — slices, one reversal, concatenations and one change of
  format, each writing a value of its own — followed by ONE gridded region of 32 points with three windows: window 0
  stages the block of 2048 rows of the first argument at every point, window 1 stages the whole 1024 × 1024 matrix the
  host line built (fetched at the first point, kept thereafter), and window 2 is the block of 2048 rows of the result,
  written back at every point. The body loads the two input buffers whole and stores one value, a function of the two
  loads, over the whole of the output buffer.

  Three facts carry the frame. (1) No host operation writes an argument array: operation `k` writes exactly the value of
  index `k + 2`, and the two arguments have indices 0 and 1, so the region finds the arguments as launched.
  (2) The body's one store covers its buffer, so what the buffer holds afterwards is that store's payload, whatever it
  held before; the inputs' buffers are only read. (3) An input window's buffer holds its block at every point, fetched
  there or not: where it is not fetched the block index has not moved. The region's run then ends with every input array
  as the region found it and every array no window stages untouched.
-/
import proofs.«163274_j17575006175271_2_alg».proof.Proof.Gen.KernelIdeal.Launch
import proofs.«163274_j17575006175271_2_alg».proof.Proof.Gen.KernelIdeal.Skeleton
import proofs.«163274_j17575006175271_2_alg».proof.Proof.Gen.KernelIdeal.Points
import proofs.«163274_j17575006175271_2_alg».proof.Proof.KernelIdealStretch
import Idealize.ShloMosaic.Lib.Pipeline.FrameBody
import Idealize.ShloMosaic.Lib.Ring
import Idealize.ShloMosaic.Lib.Tactic

-- the host line is a list of 2,123 elements, and a conjunction over it nests as deep; membership in a rectangle of
-- 2048 × 1024 coordinates recurses once per coordinate of the long axis
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host line up to the region -/

/-- Core `c`'s buffers when the region is entered: the launch contents after the host line. -/
abbrev V (c : Dev nD) (b : Ref sig .tc) : Buf (Elt F) ((c : Thread nD τ).loc b) := StableHlo.after hostOps0 (fun b => m (c, b)) b

set_option maxHeartbeats 40000000 in
/-- Every host operation determines all it writes: none leaves a buffer at contents of the machine's choosing. Each is
    built as a function of its operands, so the set of such buffers is empty by definition, one operation after another. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program up to the region: the host line, then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: operation `k` of the line writes exactly the value of index
    `k + 2`, and the argument's index is below 2, so the region finds it as launched. -/
theorem V_main_arg0 (c : Dev nD) : V m c main_arg0 = m ((c : Thread nD τ).loc main_arg0) :=
  (Cert.KernelIdeal.Stretch.writesFrom (F := F)).after_kept main_arg0 (fun _ => by decide) _
/-- No host operation before the region writes `main_arg1`: the region finds it as launched. -/
theorem V_main_arg1 (c : Dev nD) : V m c main_arg1 = m ((c : Thread nD τ).loc main_arg1) :=
  (Cert.KernelIdeal.Stretch.writesFrom (F := F)).after_kept main_arg1 (fun _ => by decide) _

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, for any proof data whose array is `V`'s (`hA`)
    and whose body leaves the block in place (`hafter`): the window is whole and never idle, and it is fetched at every
    point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there (the first point) or not (every
    later one: the block index has not moved, and the body left the block in place). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's -/

/-- The frame from a run of the region: for any proof data whose arrays are the region-entry contents (`hA`), a run
    ending with every window's array at what the data compute and every other unscoped buffer as the region found it,
    read at the two argument arrays — the first is window 0's array, an input, so it ends as the region found it; the
    second is no window's array — and each then as launched (`V_main_arg0`, `V_main_arg1`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S2048x1024 := Rect.unit (s := S2048x1024) ![0, 0] S2048x1024.size inb_S2048x1024_S2048x1024_0_0
abbrev r0_1 : Rect S1024x1024 := Rect.unit (s := S1024x1024) ![0, 0] S1024x1024.size inb_S1024x1024_S1024x1024_0_0

/-! ## What the body leaves in the output window's buffer -/

/-- Window 2's buffer after the body, from the input windows' blocks: its one store as a piece, the payload a
    function of the two loads. -/
def out0_2 (x0 : Vec F S2048x1024 .f32) (x1 : Vec F S1024x1024 .bf16) : Vec F S2048x1024 .f32 :=
  View.canon [⟨r0_0, k0_pay1 (View.ld x0 r0_0) (View.ld x1 r0_1)⟩]

/-- The store is over the whole buffer, so it covers it. -/
theorem cover0_2 (p0 : Vec F S2048x1024 .f32) (y : S2048x1024.Idx) :
    ∃ pc ∈ ([⟨r0_0, p0⟩] : List (View.Piece (Elt F) S2048x1024 .f32)), y ∈ pc.1.set :=
  View.cover_of_tiled [⟨r0_0, p0⟩] S2048x1024.size (by rfl) y

/-! ## The body's triple -/

set_option maxHeartbeats 1000000 in
/-- The body on whole buffers, the inputs' at contents `x0`, `x1` and the output's at anything, runs to the
    continuation holding the inputs' as they were and the output's at `out0_2 x0 x1`: it loads the three buffers whole
    (what it loads from the output's is not used) and stores once, over the whole of the output's. -/
theorem sound_kernel (c : Dev nD) (E : Set ℕ) (i : grid0.Coords) (arg1 : Memref sig .tc .vmem S2048x1024 .f32) (harg1 : arg1.IsWhole) (arg2 : Memref sig .tc .vmem S1024x1024 .bf16) (harg2 : arg2.IsWhole) (arg3 : Memref sig .tc .vmem S2048x1024 .f32) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at point `t`
    each input's buffer at its block and the output's at `out0_2` of the input blocks; as invariant the scoped rest and
    the pseudo-random state register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V` — a fold over the
    2,123 host operations — is never unfolded to check it. -/
theorem A_eq (c : Dev nD) (w : Fin cfg0.W) : (dats m 0 c).A w = V m c (Pipeline.arrRef spec0 w) := by
  dsimp only [dats]

/-- What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks (`before0_0`, `before0_1`), so `sound_kernel`
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of the program
    on the cores terminates, and every final state has every array of the region at what the proof data compute and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs to the end and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The function both programs compute, stated once over plain index sets.

  For a weight vector `w` of length 1024 the circulant matrix has entry `C i j = w ((j − i) mod 1024)`.
  Both programs form, for a row `b` of `x` and a column `i`, the inner product of that row with row `i` of `C`,
      mm b i = Σ_j x[b, j] · w[(j − i) mod 1024],
  and return `mm · x + mm + x` entry by entry. Over the extended reals the sum is a finite sum in a commutative
  monoid, so neither the order of its terms nor its grouping matters, and no distributive law is used: the two
  programs' results are the same expression in the same entries, and no finiteness of the inputs is needed.
-/
import Idealize.ShloMosaic.PureOps.Ideal
import Idealize.ShloMosaic.Lib.ValueIdx

noncomputable section

open scoped BigOperators

namespace Cert.Spec

open Idealize.ShloMosaic Idealize.ShloMosaic.ValueIdx

/-- The shape of `x` and of the result: 65536 rows of 1024 entries. -/
abbrev SX : Shape := ⟨2, ![65536, 1024]⟩
/-- The shape of the weight vector. -/
abbrev SW : Shape := ⟨1, ![1024]⟩
/-- The shape of the circulant matrix. -/
abbrev SC : Shape := ⟨2, ![1024, 1024]⟩

/-- The cyclic difference `(j − i) mod 1024`, as an index of the weight vector (written with `+ 1024` so that the
    subtraction of naturals never truncates). -/
def cyc (j i : Fin 1024) : Fin 1024 := ⟨(j.val + 1024 - i.val) % 1024, Nat.mod_lt _ (by norm_num)⟩

theorem cyc_val (j i : Fin 1024) : (cyc j i).val = (j.val + 1024 - i.val) % 1024 := rfl

/-- The circulant matrix transposed, `Bt j i = C i j = w ((j − i) mod 1024)`: row `j`, column `i`. -/
def circT (w : SW.Idx → EReal) : SC.Idx → EReal := fun p => w (ix1 (cyc (p 0) (p 1)))

/-- Row `b` of `x` against row `i` of the circulant matrix. -/
def mm (x : SX.Idx → EReal) (w : SW.Idx → EReal) (b : Fin 65536) (i : Fin 1024) : EReal :=
  ∑ j : Fin 1024, x (ix2 b j) * w (ix1 (cyc j i))

/-- The common result, entry by entry: `mm · x + mm + x`. -/
def G (x : SX.Idx → EReal) (w : SW.Idx → EReal) : SX.Idx → EReal :=
  fun p => mm x w (p 0) (p 1) * x p + mm x w (p 0) (p 1) + x p

theorem G_apply (x : SX.Idx → EReal) (w : SW.Idx → EReal) (b : Fin 65536) (i : Fin 1024) :
    G x w (ix2 b i) = mm x w b i * x (ix2 b i) + mm x w b i + x (ix2 b i) := rfl

end Cert.Spec

end
-- ==== Proof.RefRun.lean ====
/-
  The reference program's run, and what it leaves in the result buffer.

  Its @main is a straight line of host operations once the call of the remainder function (and, inside it, of the
  select function) is unfolded at the call site: the list ops below, in program order. Every weakly fair execution
  then terminates with each buffer at the fold of the operations' results over the launch contents.

  The first thirty-seven operations compute, from no input at all, an array of 32-bit words: at row i and column j
  the floored remainder of j − i by 1024. The last five gather the weights at those words, which gives the
  circulant matrix C i j = w ((j − i) mod 1024); contract x with it along the columns, mm b i = Σ_j x[b, j] · C i j;
  and return mm · x + mm + x entry by entry — the function Spec.lean names G.
-/
import proofs.«163274_j17575006175271_2_alg».proof.Proof.Gen.ReferenceIdeal
import proofs.«163274_j17575006175271_2_alg».proof.Proof.Spec
import Idealize.ShloMosaic.Lib.StableHlo.Run
import Idealize.ShloMosaic.Lib.ValueIdx
import Idealize.ShloMosaic.Lib.Affine
import Idealize.ShloMosaic.PureOps.Ideal.Laws

noncomputable section

open scoped BigOperators

namespace Cert.ReferenceIdeal.RefValue

open Idealize.ShloMosaic.ValueIdx Cert.ReferenceIdeal Cert.ReferenceIdeal.Gen Idealize.ShloMosaic Idealize.ShloMosaic.TcCoe Idealize.SL.Sem Idealize.ShloMosaic.StableHlo

variable {F : FTy → Type} [FloatOps F]

/-- @main's operations in order, the call unfolded: eight operations build the difference of the column
    and row counters, twenty-one are the remainder function's (the divisor guarded against zero by the
    select function's one operation, the truncated remainder, and the sign correction that turns it into the
    floored one), thirteen more add the modulus to a negative value, gather the weights, contract, and form
    the result. -/
abbrev ops : List (HloOp τ sig (Elt F)) :=
  [ nullary main_v0 (iotaInDim S1024 32 0),
    unary main_v0 main_v1 (broadcastInDim S1x1024 ![1] bcast_S1024_S1x1024_1 : (⟨S1024, .i32⟩ : BufTy).Contents (Elt F) → (⟨S1x1024, .i32⟩ : BufTy).Contents (Elt F)),
    nullary main_v2 (iotaInDim S1024 32 0),
    unary main_v2 main_v3 (broadcastInDim S1024x1 ![0] bcast_S1024_S1024x1_0 : (⟨S1024, .i32⟩ : BufTy).Contents (Elt F) → (⟨S1024x1, .i32⟩ : BufTy).Contents (Elt F)),
    unary main_v1 main_v4 (broadcastInDim S1024x1024 ![0, 1] bcast_S1x1024_S1024x1024_0_1 : (⟨S1x1024, .i32⟩ : BufTy).Contents (Elt F) → (⟨S1024x1024, .i32⟩ : BufTy).Contents (Elt F)),
    unary main_v3 main_v5 (broadcastInDim S1024x1024 ![0, 1] bcast_S1024x1_S1024x1024_0_1 : (⟨S1024x1, .i32⟩ : BufTy).Contents (Elt F) → (⟨S1024x1024, .i32⟩ : BufTy).Contents (Elt F)),
    binary main_v4 main_v5 main_v6 (subi : (⟨S1024x1024, .i32⟩ : BufTy).Contents (Elt F) → (⟨S1024x1024, .i32⟩ : BufTy).Contents (Elt F) → (⟨S1024x1024, .i32⟩ : BufTy).Contents (Elt F)),
    nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1024 ![] bcast_S_S1024x1024),
    TRef.binary (.of main_v6) main_call0.v3 main_call0.v4 Host.remsi,
    TRef.nullary main_call0.c_1 (constantI S_ 32 0#32),
    TRef.unary main_call0.c_1 main_call0.v5 (broadcastInDim S1024x1024 ![] bcast_S_S1024x1024),
    TRef.binary main_call0.v4 main_call0.v5 main_call0.v6 (cmpi .ne),
    TRef.nullary main_call0.c_2 (constantI S_ 32 0#32),
    TRef.unary main_call0.c_2 main_call0.v7 (broadcastInDim S1024x1024 ![] bcast_S_S1024x1024),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1024 ![] bcast_S_S1024x1024),
    TRef.binary main_call0.v8 main_call0.v10 main_call0.v11 (cmpi .ne),
    TRef.binary main_call0.v11 main_call0.v6 main_call0.v12 andi,
    TRef.unary main_call0.call0.v0 main_call0.v13 (broadcastInDim S1024x1024 ![] bcast_S_S1024x1024),
    TRef.binary main_call0.v4 main_call0.v13 main_call0.v14 addi,
    TRef.ternary main_call0.v12 main_call0.v14 main_call0.v4 main_call0.v15 select,
    nullary main_c_0 (constantI S_ 32 0#32),
    unary main_c_0 main_v8 (broadcastInDim S1024x1024 ![] bcast_S_S1024x1024 : (⟨S_, .i32⟩ : BufTy).Contents (Elt F) → (⟨S1024x1024, .i32⟩ : BufTy).Contents (Elt F)),
    binary main_v7 main_v8 main_v9 (cmpi .slt : (⟨S1024x1024, .i32⟩ : BufTy).Contents (Elt F) → (⟨S1024x1024, .i32⟩ : BufTy).Contents (Elt F) → (⟨S1024x1024, .i1⟩ : BufTy).Contents (Elt F)),
    nullary main_c_1 (constantI S_ 32 1024#32),
    unary main_c_1 main_v10 (broadcastInDim S1024x1024 ![] bcast_S_S1024x1024 : (⟨S_, .i32⟩ : BufTy).Contents (Elt F) → (⟨S1024x1024, .i32⟩ : BufTy).Contents (Elt F)),
    binary main_v7 main_v10 main_v11 (addi : (⟨S1024x1024, .i32⟩ : BufTy).Contents (Elt F) → (⟨S1024x1024, .i32⟩ : BufTy).Contents (Elt F) → (⟨S1024x1024, .i32⟩ : BufTy).Contents (Elt F)),
    ternary main_v9 main_v11 main_v7 main_v12 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v12 main_v13 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_arg1 main_v13 main_v14 ((fun x i => Host.gather gather_S1024_S1024x1024x1_S1024x1024_n_0_n_n_0_2_1 x i) : (⟨S1024, .f32⟩ : BufTy).Contents (Elt F) → (⟨S1024x1024x1, .i32⟩ : BufTy).Contents (Elt F) → (⟨S1024x1024, .f32⟩ : BufTy).Contents (Elt F)),
    binary main_arg0 main_v14 main_v15 ((fun l r => Host.dotGeneral dot_S65536x1024_S1024x1024_S65536x1024_1_1_0_0_n_n none l r) : (⟨S65536x1024, .f32⟩ : BufTy).Contents (Elt F) → (⟨S1024x1024, .f32⟩ : BufTy).Contents (Elt F) → (⟨S65536x1024, .f32⟩ : BufTy).Contents (Elt F)),
    binary main_v15 main_arg0 main_v16 (mulf : (⟨S65536x1024, .f32⟩ : BufTy).Contents (Elt F) → (⟨S65536x1024, .f32⟩ : BufTy).Contents (Elt F) → (⟨S65536x1024, .f32⟩ : BufTy).Contents (Elt F)),
    binary main_v16 main_v15 main_v17 (addf : (⟨S65536x1024, .f32⟩ : BufTy).Contents (Elt F) → (⟨S65536x1024, .f32⟩ : BufTy).Contents (Elt F) → (⟨S65536x1024, .f32⟩ : BufTy).Contents (Elt F)),
    binary main_v17 main_arg0 main_v18 (addf : (⟨S65536x1024, .f32⟩ : BufTy).Contents (Elt F) → (⟨S65536x1024, .f32⟩ : BufTy).Contents (Elt F) → (⟨S65536x1024, .f32⟩ : BufTy).Contents (Elt F)) ]

-- forty-two binds re-associated
set_option maxRecDepth 2048 in
/-- @main is that straight line: the two functions' definitions unfolded at their calls, both sides are one
    chain of steps once sequencing is re-associated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub ..,
    binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., binary_bufs_sub ..,
    binary_bufs_sub ..⟩

/-- From any memory with zero counters every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in two parts -/

/-- The first thirty-seven operations: the index words, from no input. -/
abbrev opsI : List (HloOp τ sig (Elt F)) :=
  [ nullary main_v0 (iotaInDim S1024 32 0),
    unary main_v0 main_v1 (broadcastInDim S1x1024 ![1] bcast_S1024_S1x1024_1 : (⟨S1024, .i32⟩ : BufTy).Contents (Elt F) → (⟨S1x1024, .i32⟩ : BufTy).Contents (Elt F)),
    nullary main_v2 (iotaInDim S1024 32 0),
    unary main_v2 main_v3 (broadcastInDim S1024x1 ![0] bcast_S1024_S1024x1_0 : (⟨S1024, .i32⟩ : BufTy).Contents (Elt F) → (⟨S1024x1, .i32⟩ : BufTy).Contents (Elt F)),
    unary main_v1 main_v4 (broadcastInDim S1024x1024 ![0, 1] bcast_S1x1024_S1024x1024_0_1 : (⟨S1x1024, .i32⟩ : BufTy).Contents (Elt F) → (⟨S1024x1024, .i32⟩ : BufTy).Contents (Elt F)),
    unary main_v3 main_v5 (broadcastInDim S1024x1024 ![0, 1] bcast_S1024x1_S1024x1024_0_1 : (⟨S1024x1, .i32⟩ : BufTy).Contents (Elt F) → (⟨S1024x1024, .i32⟩ : BufTy).Contents (Elt F)),
    binary main_v4 main_v5 main_v6 (subi : (⟨S1024x1024, .i32⟩ : BufTy).Contents (Elt F) → (⟨S1024x1024, .i32⟩ : BufTy).Contents (Elt F) → (⟨S1024x1024, .i32⟩ : BufTy).Contents (Elt F)),
    nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1024 ![] bcast_S_S1024x1024),
    TRef.binary (.of main_v6) main_call0.v3 main_call0.v4 Host.remsi,
    TRef.nullary main_call0.c_1 (constantI S_ 32 0#32),
    TRef.unary main_call0.c_1 main_call0.v5 (broadcastInDim S1024x1024 ![] bcast_S_S1024x1024),
    TRef.binary main_call0.v4 main_call0.v5 main_call0.v6 (cmpi .ne),
    TRef.nullary main_call0.c_2 (constantI S_ 32 0#32),
    TRef.unary main_call0.c_2 main_call0.v7 (broadcastInDim S1024x1024 ![] bcast_S_S1024x1024),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1024 ![] bcast_S_S1024x1024),
    TRef.binary main_call0.v8 main_call0.v10 main_call0.v11 (cmpi .ne),
    TRef.binary main_call0.v11 main_call0.v6 main_call0.v12 andi,
    TRef.unary main_call0.call0.v0 main_call0.v13 (broadcastInDim S1024x1024 ![] bcast_S_S1024x1024),
    TRef.binary main_call0.v4 main_call0.v13 main_call0.v14 addi,
    TRef.ternary main_call0.v12 main_call0.v14 main_call0.v4 main_call0.v15 select,
    nullary main_c_0 (constantI S_ 32 0#32),
    unary main_c_0 main_v8 (broadcastInDim S1024x1024 ![] bcast_S_S1024x1024 : (⟨S_, .i32⟩ : BufTy).Contents (Elt F) → (⟨S1024x1024, .i32⟩ : BufTy).Contents (Elt F)),
    binary main_v7 main_v8 main_v9 (cmpi .slt : (⟨S1024x1024, .i32⟩ : BufTy).Contents (Elt F) → (⟨S1024x1024, .i32⟩ : BufTy).Contents (Elt F) → (⟨S1024x1024, .i1⟩ : BufTy).Contents (Elt F)),
    nullary main_c_1 (constantI S_ 32 1024#32),
    unary main_c_1 main_v10 (broadcastInDim S1024x1024 ![] bcast_S_S1024x1024 : (⟨S_, .i32⟩ : BufTy).Contents (Elt F) → (⟨S1024x1024, .i32⟩ : BufTy).Contents (Elt F)),
    binary main_v7 main_v10 main_v11 (addi : (⟨S1024x1024, .i32⟩ : BufTy).Contents (Elt F) → (⟨S1024x1024, .i32⟩ : BufTy).Contents (Elt F) → (⟨S1024x1024, .i32⟩ : BufTy).Contents (Elt F)),
    ternary main_v9 main_v11 main_v7 main_v12 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v12 main_v13 (broadcastInDim S1024x1024x1 ![0, 1] bcast_S1024x1024_S1024x1024x1_0_1 : (⟨S1024x1024, .i32⟩ : BufTy).Contents (Elt F) → (⟨S1024x1024x1, .i32⟩ : BufTy).Contents (Elt F)) ]

/-- The last five: the gather, the contraction, the product and the two sums. -/
abbrev opsF : List (HloOp τ sig (Elt F)) :=
  [ binary main_arg1 main_v13 main_v14 ((fun x i => Host.gather gather_S1024_S1024x1024x1_S1024x1024_n_0_n_n_0_2_1 x i) : (⟨S1024, .f32⟩ : BufTy).Contents (Elt F) → (⟨S1024x1024x1, .i32⟩ : BufTy).Contents (Elt F) → (⟨S1024x1024, .f32⟩ : BufTy).Contents (Elt F)),
    binary main_arg0 main_v14 main_v15 ((fun l r => Host.dotGeneral dot_S65536x1024_S1024x1024_S65536x1024_1_1_0_0_n_n none l r) : (⟨S65536x1024, .f32⟩ : BufTy).Contents (Elt F) → (⟨S1024x1024, .f32⟩ : BufTy).Contents (Elt F) → (⟨S65536x1024, .f32⟩ : BufTy).Contents (Elt F)),
    binary main_v15 main_arg0 main_v16 (mulf : (⟨S65536x1024, .f32⟩ : BufTy).Contents (Elt F) → (⟨S65536x1024, .f32⟩ : BufTy).Contents (Elt F) → (⟨S65536x1024, .f32⟩ : BufTy).Contents (Elt F)),
    binary main_v16 main_v15 main_v17 (addf : (⟨S65536x1024, .f32⟩ : BufTy).Contents (Elt F) → (⟨S65536x1024, .f32⟩ : BufTy).Contents (Elt F) → (⟨S65536x1024, .f32⟩ : BufTy).Contents (Elt F)),
    binary main_v17 main_arg0 main_v18 (addf : (⟨S65536x1024, .f32⟩ : BufTy).Contents (Elt F) → (⟨S65536x1024, .f32⟩ : BufTy).Contents (Elt F) → (⟨S65536x1024, .f32⟩ : BufTy).Contents (Elt F)) ]

/-- The fold over the whole line is the fold over the last five from the fold over the first thirty-seven. -/
theorem after_ops (V : Valuation τ sig (Elt F)) : after ops V = after opsF (after opsI V) := by
  simp only [after_cons, after_nil]

/-! ## The index words

At row i and column j of the index array the program computes, on 32-bit words: the difference of the two
counters, its truncated remainder by the (guarded) modulus, the sign correction of that remainder, and once more the
modulus added to a negative value. -/

/-- The difference of the column and row counters as a word. -/
def wordD (i j : Fin 1024) : BitVec 32 := IntOp.subi (BitVec.ofNat 32 j.val) (BitVec.ofNat 32 i.val)
/-- The modulus, replaced by one if it were zero. -/
def wordQ : BitVec 32 := Scalar.select (IntOp.cmpi .eq 1024#32 0#32) 1#32 1024#32
/-- The truncated remainder of the difference. -/
def wordR (i j : Fin 1024) : BitVec 32 := IntOp.remsi .host (wordD i j) wordQ
/-- The remainder corrected to the sign of the modulus. -/
def wordF (i j : Fin 1024) : BitVec 32 :=
  Scalar.select (IntOp.andi (IntOp.cmpi .ne (IntOp.cmpi .slt (wordR i j) 0#32) (IntOp.cmpi .slt wordQ 0#32)) (IntOp.cmpi .ne (wordR i j) 0#32))
    (IntOp.addi (wordR i j) wordQ) (wordR i j)
/-- The modulus added once more to a negative value. -/
def wordG (i j : Fin 1024) : BitVec 32 :=
  Scalar.select (IntOp.cmpi .slt (wordF i j) 0#32) (IntOp.addi (wordF i j) 1024#32) (wordF i j)

/-! ## The one piece of arithmetic

For counters below 1024 the difference lies strictly between -1024 and 1024, so its truncated remainder by 1024 is
itself; the sign correction adds 1024 exactly when it is negative, after which nothing is negative: the word read
as a signed integer is the cyclic difference. -/

theorem wordQ_eq : wordQ = 1024#32 := by decide

theorem wordD_toInt (i j : Fin 1024) : (wordD i j).toInt = (j.val : Int) - (i.val : Int) := by
  have hi := i.isLt; have hj := j.isLt
  unfold wordD IntOp.subi
  rw [BitVec.toInt_sub, BitVec.toInt_ofNat', BitVec.toInt_ofNat',
    Int.bmod_eq_of_le_mul_two (x := (j.val : Int)) (by omega) (by omega),
    Int.bmod_eq_of_le_mul_two (x := (i.val : Int)) (by omega) (by omega),
    Int.bmod_eq_of_le_mul_two (by omega) (by omega)]

theorem wordR_eq (i j : Fin 1024) : wordR i j = wordD i j := by
  have hi := i.isLt; have hj := j.isLt
  have h1024 : (1024#32 : BitVec 32).toInt = 1024 := by decide
  unfold wordR
  rw [wordQ_eq, IntOp.remsi_of_pos .host (by rw [h1024]; omega)]
  apply BitVec.eq_of_toInt_eq
  rw [BitVec.toInt_srem, wordD_toInt, h1024]
  by_cases h : i.val ≤ j.val
  · exact Int.tmod_eq_of_lt (by omega) (by omega)
  · have e : ((j.val : Int) - (i.val : Int)) = -((i.val : Int) - (j.val : Int)) := by omega
    rw [e, Int.neg_tmod, Int.tmod_eq_of_lt (by omega) (by omega)]

theorem slt_zero_of_neg {x : BitVec 32} (h : x.toInt < 0) : IntOp.cmpi .slt x 0#32 = 1#1 :=
  IntOp.cmpi_slt.mpr (by rw [show (0#32 : BitVec 32).toInt = 0 from by decide]; exact h)

theorem slt_zero_of_nonneg {x : BitVec 32} (h : 0 ≤ x.toInt) : IntOp.cmpi .slt x 0#32 = 0#1 :=
  eq_zero_of_ne_one fun hc => by
    have := IntOp.cmpi_slt.mp hc
    rw [show (0#32 : BitVec 32).toInt = 0 from by decide] at this
    omega

theorem andi_zero_left (c : BitVec 1) : IntOp.andi 0#1 c = 0#1 := by revert c; decide

/-- The word at row i, column j, read as a signed integer, is the cyclic difference (j - i) mod 1024. -/
theorem wordG_toNat (i j : Fin 1024) : (wordG i j).toInt.toNat = (j.val + 1024 - i.val) % 1024 := by
  have hi := i.isLt; have hj := j.isLt
  have hd := wordD_toInt i j
  have hq0 : IntOp.cmpi .slt (1024#32 : BitVec 32) 0#32 = 0#1 := by decide
  unfold wordG wordF
  rw [wordR_eq, wordQ_eq, hq0]
  by_cases h : i.val ≤ j.val
  · have hnn : 0 ≤ (wordD i j).toInt := by rw [hd]; omega
    rw [slt_zero_of_nonneg hnn, show IntOp.cmpi .ne (0#1 : BitVec 1) 0#1 = 0#1 from by decide, andi_zero_left, select_zero,
      slt_zero_of_nonneg hnn, select_zero, hd]
    omega
  · have hneg : (wordD i j).toInt < 0 := by rw [hd]; omega
    have hne : wordD i j ≠ 0#32 := fun e => by rw [e] at hneg; revert hneg; decide
    have hsum : (IntOp.addi (wordD i j) 1024#32).toInt = (j.val : Int) - (i.val : Int) + 1024 := by
      unfold IntOp.addi
      rw [BitVec.toInt_add, hd, show (1024#32 : BitVec 32).toInt = 1024 from by decide,
        Int.bmod_eq_of_le_mul_two (by omega) (by omega)]
    rw [slt_zero_of_neg hneg, show IntOp.cmpi .ne (1#1 : BitVec 1) 0#1 = 1#1 from by decide, IntOp.cmpi_ne.mpr hne,
      show IntOp.andi (1#1 : BitVec 1) 1#1 = 1#1 from by decide, select_one,
      slt_zero_of_nonneg (by rw [hsum]; omega), select_zero, hsum]
    omega

/-! ## The first part: it writes neither argument, and leaves the index words -/

set_option maxHeartbeats 400000 in
theorem opsI_arg0 (V : Valuation τ sig (Elt F)) : after opsI V (main_arg0 : DevRef τ sig) = V (main_arg0 : DevRef τ sig) := by
  after_results_simp

set_option maxHeartbeats 400000 in
theorem opsI_arg1 (V : Valuation τ sig (Elt F)) : after opsI V (main_arg1 : DevRef τ sig) = V (main_arg1 : DevRef τ sig) := by
  after_results_simp

set_option maxHeartbeats 400000 in
/-- The index array at (i, j, 0): the operations' results composed, then every vector operation read at the index —
    each is its word operation on the operands' entries, a broadcast reads its operand at the coordinates it keeps, an
    iota reads its coordinate. -/
theorem opsI_v13 (V : Valuation τ sig (Elt F)) (i j : Fin 1024) :
    after opsI V (main_v13 : DevRef τ sig) (takeIdx (ix2 i j)) = wordG i j := by
  after_results_simp
  simp only [TRef.ofBuf, TRef.toBuf, cast_eq]
  rfl

/-! ## The last part at an index -/

/-- The contraction at (b, i): x's row b against the second operand's row i. -/
theorem dot_apply (x : FVec Ideal S65536x1024 .f32) (c : FVec Ideal S1024x1024 .f32) (b : Fin 65536) (i : Fin 1024) :
    Host.dotGeneral dot_S65536x1024_S1024x1024_S65536x1024_1_1_0_0_n_n none x c (ix2 b i) = ∑ j : Fin 1024, x (ix2 b j) * c (ix2 i j) := by
  show FloatOps.dotGeneral _ none _ x c (ix2 b i) = _
  rw [Ideal.dotGeneral_apply, ← Equiv.sum_comp (contrEquiv1 dot_S65536x1024_S1024x1024_S65536x1024_1_1_0_0_n_n 1024 rfl rfl).symm]
  refine Finset.sum_congr rfl fun j _ => ?_
  have c2 := contrEquiv1_symm_val dot_S65536x1024_S1024x1024_S65536x1024_1_1_0_0_n_n 1024 rfl rfl j
  have l2 : (dot_S65536x1024_S1024x1024_S65536x1024_1_1_0_0_n_n).lhsIdx (ix2 b i) ((contrEquiv1 _ 1024 rfl rfl).symm j) = ix2 b j := by
    funext ax; apply Fin.ext
    match ax with
    | ⟨0, _⟩ => rfl
    | ⟨1, _⟩ => exact ((dot_S65536x1024_S1024x1024_S65536x1024_1_1_0_0_n_n).lhsIdx_val_of_single (cl := 1) rfl (ix2 b i) _).trans c2
  have r2 : (dot_S65536x1024_S1024x1024_S65536x1024_1_1_0_0_n_n).rhsIdx (ix2 b i) ((contrEquiv1 _ 1024 rfl rfl).symm j) = ix2 i j := by
    funext ax; apply Fin.ext
    match ax with
    | ⟨0, _⟩ => rfl
    | ⟨1, _⟩ => exact ((dot_S65536x1024_S1024x1024_S65536x1024_1_1_0_0_n_n).rhsIdx_val_of_single (cr := 1) rfl (ix2 b i) _).trans c2
  rw [l2, r2]

/-- The gather at (i, j), for index words that are the cyclic differences: the weight at (j − i) mod 1024. -/
theorem gather_apply (w : FVec Ideal S1024 .f32) (idx : IVec S1024x1024x1 32)
    (hidx : ∀ i j : Fin 1024, idx (takeIdx (ix2 i j)) = wordG i j) (i j : Fin 1024) :
    Host.gather gather_S1024_S1024x1024x1_S1024x1024_n_0_n_n_0_2_1 w idx (ix2 i j) = w (ix1 (Cert.Spec.cyc j i)) := by
  have h := gather_take_apply (N := 1024) (R := 1024) (C := 1024) (by norm_num) gather_S1024_S1024x1024x1_S1024x1024_n_0_n_n_0_2_1_wf w idx (ix2 i j)
  refine h.trans (congrArg w (congrArg ix1 (Fin.ext ?_)))
  show min (idx (takeIdx (ix2 i j))).toInt.toNat (1024 - 1) = (Cert.Spec.cyc j i).val
  rw [hidx, wordG_toNat, Cert.Spec.cyc_val]
  have := Nat.mod_lt (j.val + 1024 - i.val) (show 0 < 1024 by norm_num)
  omega

/-! ## The result -/

/-- The last five operations' composed value, from the contents of x, of w and of the index array. -/
def tailVal (x : FVec Ideal S65536x1024 .f32) (w : FVec Ideal S1024 .f32) (idx : IVec S1024x1024x1 32) :
    FVec Ideal S65536x1024 .f32 :=
  addf (addf (mulf (Host.dotGeneral dot_S65536x1024_S1024x1024_S65536x1024_1_1_0_0_n_n none x (Host.gather gather_S1024_S1024x1024x1_S1024x1024_n_0_n_n_0_2_1 w idx)) x)
    (Host.dotGeneral dot_S65536x1024_S1024x1024_S65536x1024_1_1_0_0_n_n none x (Host.gather gather_S1024_S1024x1024x1_S1024x1024_n_0_n_n_0_2_1 w idx))) x

theorem opsF_v18 (W : Valuation τ sig (Elt Ideal)) :
    after opsF W (main_v18 : DevRef τ sig)
      = tailVal (W (main_arg0 : DevRef τ sig)) (W (main_arg1 : DevRef τ sig)) (W (main_v13 : DevRef τ sig)) := by
  after_results
  rfl

/-- With index words that are the cyclic differences, that value is G. -/
theorem tailVal_eq (x : FVec Ideal S65536x1024 .f32) (w : FVec Ideal S1024 .f32) (idx : IVec S1024x1024x1 32)
    (hidx : ∀ i j : Fin 1024, idx (takeIdx (ix2 i j)) = wordG i j) : tailVal x w idx = Cert.Spec.G x w := by
  funext p
  obtain ⟨b, i, rfl⟩ : ∃ (b : Fin 65536) (i : Fin 1024), p = ix2 b i := ⟨p 0, p 1, eq_ix2 p⟩
  unfold tailVal
  rw [Cert.Spec.G_apply, addf_apply, addf_apply, mulf_apply, dot_apply]
  have hmm : (∑ j : Fin 1024, x (ix2 b j) * Host.gather gather_S1024_S1024x1024x1_S1024x1024_n_0_n_n_0_2_1 w idx (ix2 i j)) = Cert.Spec.mm x w b i :=
    Finset.sum_congr rfl fun j _ => by rw [gather_apply w idx hidx i j]
  rw [hmm]

/-- After the whole line the result buffer holds G of the two arguments' launch contents. -/
theorem v18_eq (V : Valuation τ sig (Elt Ideal)) :
    after ops V (main_v18 : DevRef τ sig) = Cert.Spec.G (V (main_arg0 : DevRef τ sig)) (V (main_arg1 : DevRef τ sig)) := by
  rw [after_ops, opsF_v18, opsI_arg0, opsI_arg1]
  exact tailVal_eq _ _ _ (opsI_v13 V)

set_option maxHeartbeats 400000 in
theorem arg0_eq (V : Valuation τ sig (Elt F)) : after ops V (main_arg0 : DevRef τ sig) = V (main_arg0 : DevRef τ sig) := by
  after_results_simp

set_option maxHeartbeats 400000 in
theorem arg1_eq (V : Valuation τ sig (Elt F)) : after ops V (main_arg1 : DevRef τ sig) = V (main_arg1 : DevRef τ sig) := by
  after_results_simp

/-- From any memory with zero counters every weakly fair execution of the reference terminates, with the result
    buffer at G of the two arguments' launch contents and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v18) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c main_v18).trans (v18_eq (launchContents m c)),
      (h c main_arg0).trans (arg0_eq (launchContents m c)),
      (h c main_arg1).trans (arg1_eq (launchContents m c))⟩)
    (run_main m ρ)

end Cert.ReferenceIdeal.RefValue

end
-- ==== Proof.Body.lean ====
/-
  The kernel body's value at one entry of its output block.

  The body reads a block `x0` of 2048 rows of `x` (1024 entries each) and the whole 1024 × 1024 matrix `b2`, forms the
  matrix product `p = x0 · b2` — the change of format of `x0` before the product is the identity on extended reals, the
  recast of `b2` is to its own shape, and the product accumulates into zero — and stores `p · x0 + p + x0` entry by entry.
  So the stored entry at row `r`, column `i` is that expression in `p r i = Σ_k x0[r, k] · b2[k, i]`, the sum over the one
  contracted axis: the second axis of `x0` against the first axis of `b2`.
-/
import proofs.«163274_j17575006175271_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.BodyValue

open Idealize.ShloMosaic Idealize.ShloMosaic.ValueIdx Cert.KernelIdeal

/-- The block product at an entry: with the second axis of the left factor contracted against the first axis of the right
    factor and nothing accumulated, entry `(r, i)` is `Σ_k l[r, k] · b[k, i]`. The contraction's index set has one axis of
    extent 1024, and is re-indexed by that coordinate. -/
theorem product_apply (l : FVec Ideal S2048x1024 .bf16) (b : FVec Ideal S1024x1024 .bf16) (r : Fin 2048) (i : Fin 1024) :
    FloatOps.matmul dot_S2048x1024_S1024x1024_S2048x1024_1_0_0_1_n_n none l b (constant (F := Ideal) S2048x1024 .f32 0x00000000#32) (ix2 r i)
      = ∑ k : Fin 1024, l (ix2 r k) * b (ix2 k i) := by
  rw [Ideal.matmul_constant_zero_apply,
    ← Equiv.sum_comp (contrEquiv1 dot_S2048x1024_S1024x1024_S2048x1024_1_0_0_1_n_n 1024 rfl rfl).symm]
  refine Finset.sum_congr rfl fun k _ => ?_
  have ck := contrEquiv1_symm_val dot_S2048x1024_S1024x1024_S2048x1024_1_0_0_1_n_n 1024 rfl rfl k
  have hl : dot_S2048x1024_S1024x1024_S2048x1024_1_0_0_1_n_n.lhsIdx (ix2 r i)
      ((contrEquiv1 dot_S2048x1024_S1024x1024_S2048x1024_1_0_0_1_n_n 1024 rfl rfl).symm k) = ix2 r k := by
    funext ax; apply Fin.ext
    match ax with
    | ⟨0, _⟩ => simp [DotDims.lhsIdx, dot_S2048x1024_S1024x1024_S2048x1024_1_0_0_1_n_n]; rfl
    | ⟨1, _⟩ =>
      exact (DotDims.lhsIdx_val_of_single dot_S2048x1024_S1024x1024_S2048x1024_1_0_0_1_n_n (cl := 1) rfl (ix2 r i) _).trans ck
  have hr : dot_S2048x1024_S1024x1024_S2048x1024_1_0_0_1_n_n.rhsIdx (ix2 r i)
      ((contrEquiv1 dot_S2048x1024_S1024x1024_S2048x1024_1_0_0_1_n_n 1024 rfl rfl).symm k) = ix2 k i := by
    funext ax; apply Fin.ext
    match ax with
    | ⟨0, _⟩ =>
      exact (DotDims.rhsIdx_val_of_single dot_S2048x1024_S1024x1024_S2048x1024_1_0_0_1_n_n (cr := 0) rfl (ix2 r i) _).trans ck
    | ⟨1, _⟩ => simp [DotDims.rhsIdx, dot_S2048x1024_S1024x1024_S2048x1024_1_0_0_1_n_n]; rfl
  rw [hl, hr]

/-- The stored entry at row `r`, column `i` of the block: `p · x0 + p + x0` there, `p` the block product's entry. -/
theorem pay_apply (x0 : Vec Ideal Cert.KernelIdeal.S2048x1024 .f32) (b2 : Vec Ideal Cert.KernelIdeal.S1024x1024 .bf16) (r : Fin 2048) (i : Fin 1024) :
    Cert.KernelIdeal.Gen.k0_pay1 (F := Ideal) x0 b2 (ix2 r i)
      = (∑ k : Fin 1024, x0 (ix2 r k) * b2 (ix2 k i)) * x0 (ix2 r i) + (∑ k : Fin 1024, x0 (ix2 r k) * b2 (ix2 k i)) + x0 (ix2 r i) := by
  unfold Cert.KernelIdeal.Gen.k0_pay1
  simp only [addf_apply, mulf_apply, shapeCast_self]
  simp only [matmul]
  rw [product_apply]
  rfl

end Cert.KernelIdeal.BodyValue

end
-- ==== Proof.Blocks.lean ====
/-
  From the blocks to the array: what the result holds after the run.

  The region has 32 grid points. At point `t` the body reads rows `2048·t … 2048·t + 2047` of `x` (all 1024 columns) and
  the whole 1024 × 1024 matrix, and writes the same rows of the result. When the matrix the region finds is the transposed
  circulant matrix of the weights, `Bt[k, i] = w[(k − i) mod 1024]`, the body's entry `(r, i)` at point `t` is
  `p · x + p + x` at row `2048·t + r`, column `i`, with `p = Σ_k x[2048·t + r, k] · w[(k − i) mod 1024]`: the common result's
  entry there, the two sums agreeing term by term. Row `q` of the result lies in the block of point `q / 2048`, so the 32
  blocks cover the array and it ends holding the common result everywhere.
-/
import proofs.«163274_j17575006175271_2_alg».proof.Proof.Body
import proofs.«163274_j17575006175271_2_alg».proof.Proof.Spec
import proofs.«163274_j17575006175271_2_alg».proof.Proof.KernelIdealFrame
import Idealize.ShloMosaic.Lib.Pipeline.Value

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One entry of a block, over plain arrays -/

/-- If the rows of the block `x0` are rows of `X` — row `r` of the block is row `R` of `X` — and column `i` of `b2` is
    column `i` of the transposed circulant matrix of `w`, then the body's entry `(r, i)` is the common result's entry
    `(R, i)`: the block product's sum `Σ_k x0[r, k] · b2[k, i]` is `Σ_j X[R, j] · w[(j − i) mod 1024]` term by term. -/
theorem entry (x0 : Vec Ideal S2048x1024 .f32) (b2 : Vec Ideal S1024x1024 .bf16)
    (X : Cert.Spec.SX.Idx → EReal) (w : Cert.Spec.SW.Idx → EReal) (R : Fin 65536) (r : Fin 2048) (i : Fin 1024)
    (hx : ∀ k : Fin 1024, x0 (ix2 r k) = X (ix2 R k))
    (hb : ∀ k : Fin 1024, b2 (ix2 k i) = w (ix1 (Cert.Spec.cyc k i))) :
    Gen.k0_pay1 (F := Ideal) x0 b2 (ix2 r i) = Cert.Spec.G X w (ix2 R i) := by
  rw [Cert.KernelIdeal.BodyValue.pay_apply, Cert.Spec.G_apply]
  unfold Cert.Spec.mm
  simp only [hx, hb]

/-! ## The windows' blocks -/

theorem hz : (![0, 0] : Fin 2 → Nat) = fun _ => 0 := funext fun a => by fin_cases a <;> rfl

/-- The program's index maps, decided once over the 32 grid points: at point `t` the windows over `x` and over the result
    are at block row `t`, block column 0; the window over the matrix is at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back to the result's array: the body's result of the input windows' blocks at `t`. -/
theorem flushed (c : Dev nD) (t : Fin cfg0.N) :
    (Hand.dats m 0 c).flushed 2 t = (cfg0.win 2).cut (grid0.coords t) (Hand.out0_2 (Hand.iblk m c 0 t) (Hand.iblk m c 1 t)) := by
  show (cfg0.win 2).cut (grid0.coords t) ((Hand.dats m 0 c).after 2 t) = _
  rw [Hand.after0_2]

/-- Window 0's block at point `t`, read off ANY contents `A` of its array, is rows `2048·t … 2048·t + 2047` of `A`, all
    1024 columns: entry `(r, k)` of the block is entry `(2048·t + r, k)` of the array. -/
theorem read_xblk (c : Dev nD) (A : Buf (Elt Ideal) ((c : Thread nD τ).loc (Pipeline.arrRef spec0 0))) (t : Fin cfg0.N)
    (r : Fin 2048) (k : Fin 1024) (R : Fin 65536) (hR : R.val = 2048 * t.val + r.val) :
    (((cfg0.win 0).blk t).view.read (Elt Ideal) A : S2048x1024.Idx → EReal) (ix2 r k) = (A : Cert.Spec.SX.Idx → EReal) (ix2 R k) := by
  obtain ⟨e00, e01, -, -, -, -⟩ := idx_facts t
  show (A : Cert.Spec.SX.Idx → EReal) (((cfg0.win 0).blk t).view.emb (ix2 r k)) = _
  congr 1
  funext a; apply Fin.ext
  match a with
  | ⟨0, _⟩ => show win0_0.index t (0 : Fin 2) * 2048 + 1 * r.val = R.val; omega
  | ⟨1, _⟩ => show win0_0.index t (1 : Fin 2) * 1024 + 1 * k.val = k.val; omega

/-- Window 1's block at every point, read off ANY contents `B` of its array, is the whole of `B`. -/
theorem read_bblk (c : Dev nD) (B : Buf (Elt Ideal) ((c : Thread nD τ).loc (Pipeline.arrRef spec0 1))) (t : Fin cfg0.N)
    (k i : Fin 1024) :
    (((cfg0.win 1).blk t).view.read (Elt Ideal) B : S1024x1024.Idx → EReal) (ix2 k i) = (B : S1024x1024.Idx → EReal) (ix2 k i) := by
  obtain ⟨-, -, e10, e11, -, -⟩ := idx_facts t
  show (B : S1024x1024.Idx → EReal) (((cfg0.win 1).blk t).view.emb (ix2 k i)) = _
  congr 1
  funext a; apply Fin.ext
  match a with
  | ⟨0, _⟩ => show win0_1.index t (0 : Fin 2) * 1024 + 1 * k.val = k.val; omega
  | ⟨1, _⟩ => show win0_1.index t (1 : Fin 2) * 1024 + 1 * i.val = i.val; omega

/-- The block of `x` at point `t` is rows `2048·t … 2048·t + 2047` of `x` as launched: the host operations before the region
    do not write `x`. -/
theorem xblk_apply (c : Dev nD) (t : Fin cfg0.N) (r : Fin 2048) (k : Fin 1024) (R : Fin 65536) (hR : R.val = 2048 * t.val + r.val) :
    (Hand.iblk m c 0 t : Vec Ideal S2048x1024 .f32) (ix2 r k)
      = (m ((c.tc : Thread nD τ).loc main_arg0) : Cert.Spec.SX.Idx → EReal) (ix2 R k) := by
  unfold Hand.iblk
  exact (read_xblk c (Hand.V m c (Pipeline.arrRef spec0 0)) t r k R hR).trans (congrFun (Hand.V_main_arg0 m c) (ix2 R k))

/-- The block of the matrix at every point is the whole matrix the region finds. -/
theorem bblk_apply (c : Dev nD) (t : Fin cfg0.N) (k i : Fin 1024) :
    (Hand.iblk m c 1 t : Vec Ideal S1024x1024 .bf16) (ix2 k i)
      = (Hand.V m c main_v2122 : S1024x1024.Idx → EReal) (ix2 k i) := by
  unfold Hand.iblk
  exact read_bblk c (Hand.V m c (Pipeline.arrRef spec0 1)) t k i

/-- WHAT POINT `t` WRITES BACK is block `t` of the common result of the two arguments, when the matrix the region finds
    is the transposed circulant matrix of the weights. -/
theorem flushed_eq (c : Dev nD)
    (hBt : (Hand.V m c main_v2122 : S1024x1024.Idx → EReal) = Cert.Spec.circT (m ((c.tc : Thread nD τ).loc main_arg1)))
    (t : Fin cfg0.N) :
    (Hand.dats m 0 c).flushed 2 t = ((cfg0.win 2).blk t).view.read (Elt Ideal)
      (Cert.Spec.G (m ((c.tc : Thread nD τ).loc main_arg0)) (m ((c.tc : Thread nD τ).loc main_arg1))) := by
  rw [flushed]
  unfold Hand.out0_2
  rw [View.canon_unit_zero hz]
  simp only [View.ld_unit_zero (S := S2048x1024) hz, View.ld_unit_zero (S := S1024x1024) hz]
  obtain ⟨-, -, -, -, e20, e21⟩ := idx_facts t
  have ht : t.val < 32 := Nat.lt_of_lt_of_eq t.isLt (by decide : grid0.N = 32)
  show (Gen.k0_pay1 (F := Ideal) (Hand.iblk m c 0 t) (Hand.iblk m c 1 t) : S2048x1024.Idx → EReal)
    = fun j : S2048x1024.Idx => Cert.Spec.G (m ((c.tc : Thread nD τ).loc main_arg0)) (m ((c.tc : Thread nD τ).loc main_arg1))
        (((cfg0.win 2).blk t).view.emb j)
  funext j
  obtain ⟨r, i, rfl⟩ : ∃ (r : Fin 2048) (i : Fin 1024), j = ix2 r i := ⟨j 0, j 1, eq_ix2 j⟩
  have hemb : ((cfg0.win 2).blk t).view.emb (ix2 r i) = (ix2 (⟨2048 * t.val + r.val, by have := r.isLt; omega⟩ : Fin 65536) i : Cert.Spec.SX.Idx) := by
    funext a; apply Fin.ext
    match a with
    | ⟨0, _⟩ => show win0_2.index t (0 : Fin 2) * 2048 + 1 * r.val = 2048 * t.val + r.val; omega
    | ⟨1, _⟩ => show win0_2.index t (1 : Fin 2) * 1024 + 1 * i.val = i.val; omega
  rw [hemb]
  exact entry _ _ _ _ _ r i (fun k => xblk_apply m c t r k _ rfl)
    (fun k => (bblk_apply m c t k i).trans (congrFun hBt (ix2 k i)))

/-- An index of the result's array is in point `t`'s block iff each coordinate is in the block's range on its axis. -/
theorem mem_blk (t : Fin cfg0.N) (i : S65536x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v2123).slice (win0_2.rect t)).set ↔ _
  rw [View.set_slice_whole, Rect.mem_set_unit]
  exact Iff.rfl

/-- Every entry of the result is in some point's block: row `p` is in the block of point `p / 2048`. -/
theorem covered (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : cfg0.N = 32 := (by decide : grid0.N = 32)
  let t : Fin cfg0.N := ⟨(i 0).val / 2048, by rw [hN]; omega⟩
  obtain ⟨-, -, -, -, e20, e21⟩ := idx_facts t
  have htv : t.val = (i 0).val / 2048 := rfl
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT'S ARRAY after the run is the common result of the two arguments. -/
theorem final (c : Dev nD)
    (hBt : (Hand.V m c main_v2122 : S1024x1024.Idx → EReal) = Cert.Spec.circT (m ((c.tc : Thread nD τ).loc main_arg1))) :
    (Hand.dats m 0 c).arrAt 2 cfg0.N
      = Cert.Spec.G (m ((c.tc : Thread nD τ).loc main_arg0)) (m ((c.tc : Thread nD τ).loc main_arg1)) :=
  (Hand.dats m 0 c).arrAt_eq_of_cover 2 _ (fun t _ => flushed_eq m c hBt t) covered

/-! ## The run, read -/

/-- After the run the first argument is as launched: its window stages it and never writes it back. -/
theorem kept_main_arg0 (r : PUnit × MemSt nD τ sig (Elt Ideal)) (h : Pipeline.FramePost cfgs (Hand.dats m) 0 (Hand.V m) r) (c : Dev nD) :
    r.2.mem ((c.tc : Thread nD τ).loc main_arg0) = m ((c.tc : Thread nD τ).loc main_arg0) :=
  ((h c).1 0).trans (((Hand.dats m 0 c).arrAt_in 0 rfl _).trans ((Hand.A_eq m c 0).trans (Hand.V_main_arg0 m c)))

/-- After the run the second argument is as launched: no window stages it, and the host operations before the
    region do not write it. -/
theorem kept_main_arg1 (r : PUnit × MemSt nD τ sig (Elt Ideal)) (h : Pipeline.FramePost cfgs (Hand.dats m) 0 (Hand.V m) r) (c : Dev nD) :
    r.2.mem ((c.tc : Thread nD τ).loc main_arg1) = m ((c.tc : Thread nD τ).loc main_arg1) :=
  ((h c).2 main_arg1 (Pipeline.mem_restRefs_of main_arg1 (by decide) (by decide))).trans (Hand.V_main_arg1 m c)

/-- The run's end state restated: the result's array at the common result of the arguments, the arguments unchanged. -/
theorem run (hBt : ∀ c : Dev nD,
      (Hand.V m c main_v2122 : S1024x1024.Idx → EReal) = Cert.Spec.circT (m ((c.tc : Thread nD τ).loc main_arg1))) :
    θ_run defs (onTc (τ := τ) (main (F := Ideal))) ⟨m, fun _ => 0, ρ⟩ fun r => ∀ c : Dev nD,
      r.2.mem ((c.tc : Thread nD τ).loc main_v2123)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c (hBt c)),
      kept_main_arg0 m r h c,
      kept_main_arg1 m r h c⟩)
    (Hand.run_main m ρ)

end Cert.KernelIdeal.BlockValue

end
-- ==== Proof.LibRowStack.lean ====
/-
  Rows cut out of one long vector and stacked.

  Let `v` be a vector of length 2048 and write `g n = v n`. The window of `v` of length 1024 starting at offset `o`,
  laid out as one row, is row `1024 - o` of the 1024 × 1024 matrix `M r i = g (1024 + i - r)`: every row of `M` is
  the row above it shifted one place to the right. Stacking rows (or blocks of consecutive rows) that are rows of `M`
  gives a block of consecutive rows of `M`: `IsRows g base X` says that the block `X` is rows `base, base + 1, …`
  of `M`. The lemmas below are the window as a row, and a stack of 16 rows, of 16 blocks of 16 rows, and of 4 blocks
  of 256 rows.
-/
import Idealize.ShloMosaic.Lib.Pipeline.Value
import Idealize.ShloMosaic.Lib.ValueIdx

noncomputable section

namespace Idealize.ShloMosaic.RowStack

open Idealize.ShloMosaic Idealize.ShloMosaic.ValueIdx

variable {α : Type} [Zero α]

/-- A vector of length 2048 as a function of a natural position (zero past the end, which is never read). -/
def gOf (v : (⟨1, ![2048]⟩ : Shape).Idx → α) : Nat → α := fun n => if h : n < 2048 then v (ix1 ⟨n, h⟩) else 0

theorem gOf_of_lt (v : (⟨1, ![2048]⟩ : Shape).Idx → α) (n : Nat) (h : n < 2048) : gOf v n = v (ix1 ⟨n, h⟩) := dif_pos h

/-- The block `X` of `H` rows is rows `base, base + 1, …` of the matrix `M r i = g (1024 + i - r)`. -/
def IsRows (g : Nat → α) (base : Nat) {H : Nat} (X : (⟨2, ![H, 1024]⟩ : Shape).Idx → α) : Prop :=
  ∀ (r : Fin H) (i : Fin 1024), X (ix2 r i) = g (1024 + i.val - (base + r.val))

/-- The window of length 1024 at offset `o` (`1 ≤ o ≤ 1024`), as one row, is row `1024 - o`. -/
theorem row_spec (v : (⟨1, ![2048]⟩ : Shape).Idx → α) (o : Nat) (h1 : 1 ≤ o) (h2 : o ≤ 1024)
    (hs : (⟨1, ![2048]⟩ : Shape).Slices ![o] ⟨1, ![1024]⟩)
    (hb : (⟨1, ![1024]⟩ : Shape).BroadcastsInDim ⟨2, ![1, 1024]⟩ ![1]) :
    IsRows (gOf v) (1024 - o) (broadcastInDim ⟨2, ![1, 1024]⟩ ![1] hb (extractStridedSlice ⟨1, ![1024]⟩ ![o] v hs)) := by
  intro r i
  have hr : r = 0 := Subsingleton.elim _ _
  subst hr
  have hlt : o + i.val < 2048 := by have := i.isLt; omega
  rw [broadcastInDim_apply ![1] hb _ (ix2 (0 : Fin 1) i) (ix1 i)
    (fun a => by match a with | ⟨0, _⟩ => exact (if_neg (by show ¬ ((1024 : Nat) = 1); decide)).symm)]
  rw [extractStridedSlice_apply ![o] v hs (ix1 i) (ix1 ⟨o + i.val, hlt⟩) (fun a => by match a with | ⟨0, _⟩ => rfl)]
  rw [show 1024 + i.val - (1024 - o + (0 : Fin 1).val) = o + i.val by simp; omega]
  exact (gOf_of_lt v _ hlt).symm

/-- Sixteen rows stacked. -/
theorem stack16_rows_spec (g : Nat → α) (base : Nat) (x : Fin 16 → ((⟨2, ![1, 1024]⟩ : Shape).Idx → α))
    (h : Shape.Concatenates (([(⟨⟨2, ![1, 1024]⟩, x 0⟩ : (s : Shape) × (s.Idx → α)), (⟨⟨2, ![1, 1024]⟩, x 1⟩ : (s : Shape) × (s.Idx → α)), (⟨⟨2, ![1, 1024]⟩, x 2⟩ : (s : Shape) × (s.Idx → α)), (⟨⟨2, ![1, 1024]⟩, x 3⟩ : (s : Shape) × (s.Idx → α)), (⟨⟨2, ![1, 1024]⟩, x 4⟩ : (s : Shape) × (s.Idx → α)), (⟨⟨2, ![1, 1024]⟩, x 5⟩ : (s : Shape) × (s.Idx → α)), (⟨⟨2, ![1, 1024]⟩, x 6⟩ : (s : Shape) × (s.Idx → α)), (⟨⟨2, ![1, 1024]⟩, x 7⟩ : (s : Shape) × (s.Idx → α)), (⟨⟨2, ![1, 1024]⟩, x 8⟩ : (s : Shape) × (s.Idx → α)), (⟨⟨2, ![1, 1024]⟩, x 9⟩ : (s : Shape) × (s.Idx → α)), (⟨⟨2, ![1, 1024]⟩, x 10⟩ : (s : Shape) × (s.Idx → α)), (⟨⟨2, ![1, 1024]⟩, x 11⟩ : (s : Shape) × (s.Idx → α)), (⟨⟨2, ![1, 1024]⟩, x 12⟩ : (s : Shape) × (s.Idx → α)), (⟨⟨2, ![1, 1024]⟩, x 13⟩ : (s : Shape) × (s.Idx → α)), (⟨⟨2, ![1, 1024]⟩, x 14⟩ : (s : Shape) × (s.Idx → α)), (⟨⟨2, ![1, 1024]⟩, x 15⟩ : (s : Shape) × (s.Idx → α))]).map (·.1)) ⟨2, ![16, 1024]⟩ 0)
    (hx : ∀ q : Fin 16, IsRows g (base + q.val) (x q)) :
    IsRows g base (concatenate ⟨2, ![16, 1024]⟩ 0 [⟨⟨2, ![1, 1024]⟩, x 0⟩, ⟨⟨2, ![1, 1024]⟩, x 1⟩, ⟨⟨2, ![1, 1024]⟩, x 2⟩, ⟨⟨2, ![1, 1024]⟩, x 3⟩, ⟨⟨2, ![1, 1024]⟩, x 4⟩, ⟨⟨2, ![1, 1024]⟩, x 5⟩, ⟨⟨2, ![1, 1024]⟩, x 6⟩, ⟨⟨2, ![1, 1024]⟩, x 7⟩, ⟨⟨2, ![1, 1024]⟩, x 8⟩, ⟨⟨2, ![1, 1024]⟩, x 9⟩, ⟨⟨2, ![1, 1024]⟩, x 10⟩, ⟨⟨2, ![1, 1024]⟩, x 11⟩, ⟨⟨2, ![1, 1024]⟩, x 12⟩, ⟨⟨2, ![1, 1024]⟩, x 13⟩, ⟨⟨2, ![1, 1024]⟩, x 14⟩, ⟨⟨2, ![1, 1024]⟩, x 15⟩] h) := by
  intro r i
  have e := concatenate_ofFn_unit_apply (t := ⟨2, ![16, 1024]⟩) (s₁ := ⟨2, ![1, 1024]⟩) 0 x h rfl rfl (ix2 r i) r rfl
    (ix2 (0 : Fin 1) i) (fun b hb => by match b with | ⟨0, _⟩ => exact absurd rfl hb | ⟨1, _⟩ => rfl)
  refine e.trans ?_
  have := hx r 0 i
  simpa using this

/-- Sixteen blocks of sixteen rows stacked. -/
theorem stack16_blocks_spec (g : Nat → α) (base : Nat) (y : Fin 16 → ((⟨2, ![16, 1024]⟩ : Shape).Idx → α))
    (h : Shape.Concatenates (([(⟨⟨2, ![16, 1024]⟩, y 0⟩ : (s : Shape) × (s.Idx → α)), (⟨⟨2, ![16, 1024]⟩, y 1⟩ : (s : Shape) × (s.Idx → α)), (⟨⟨2, ![16, 1024]⟩, y 2⟩ : (s : Shape) × (s.Idx → α)), (⟨⟨2, ![16, 1024]⟩, y 3⟩ : (s : Shape) × (s.Idx → α)), (⟨⟨2, ![16, 1024]⟩, y 4⟩ : (s : Shape) × (s.Idx → α)), (⟨⟨2, ![16, 1024]⟩, y 5⟩ : (s : Shape) × (s.Idx → α)), (⟨⟨2, ![16, 1024]⟩, y 6⟩ : (s : Shape) × (s.Idx → α)), (⟨⟨2, ![16, 1024]⟩, y 7⟩ : (s : Shape) × (s.Idx → α)), (⟨⟨2, ![16, 1024]⟩, y 8⟩ : (s : Shape) × (s.Idx → α)), (⟨⟨2, ![16, 1024]⟩, y 9⟩ : (s : Shape) × (s.Idx → α)), (⟨⟨2, ![16, 1024]⟩, y 10⟩ : (s : Shape) × (s.Idx → α)), (⟨⟨2, ![16, 1024]⟩, y 11⟩ : (s : Shape) × (s.Idx → α)), (⟨⟨2, ![16, 1024]⟩, y 12⟩ : (s : Shape) × (s.Idx → α)), (⟨⟨2, ![16, 1024]⟩, y 13⟩ : (s : Shape) × (s.Idx → α)), (⟨⟨2, ![16, 1024]⟩, y 14⟩ : (s : Shape) × (s.Idx → α)), (⟨⟨2, ![16, 1024]⟩, y 15⟩ : (s : Shape) × (s.Idx → α))]).map (·.1)) ⟨2, ![256, 1024]⟩ 0)
    (hy : ∀ q : Fin 16, IsRows g (base + 16 * q.val) (y q)) :
    IsRows g base (concatenate ⟨2, ![256, 1024]⟩ 0 [⟨⟨2, ![16, 1024]⟩, y 0⟩, ⟨⟨2, ![16, 1024]⟩, y 1⟩, ⟨⟨2, ![16, 1024]⟩, y 2⟩, ⟨⟨2, ![16, 1024]⟩, y 3⟩, ⟨⟨2, ![16, 1024]⟩, y 4⟩, ⟨⟨2, ![16, 1024]⟩, y 5⟩, ⟨⟨2, ![16, 1024]⟩, y 6⟩, ⟨⟨2, ![16, 1024]⟩, y 7⟩, ⟨⟨2, ![16, 1024]⟩, y 8⟩, ⟨⟨2, ![16, 1024]⟩, y 9⟩, ⟨⟨2, ![16, 1024]⟩, y 10⟩, ⟨⟨2, ![16, 1024]⟩, y 11⟩, ⟨⟨2, ![16, 1024]⟩, y 12⟩, ⟨⟨2, ![16, 1024]⟩, y 13⟩, ⟨⟨2, ![16, 1024]⟩, y 14⟩, ⟨⟨2, ![16, 1024]⟩, y 15⟩] h) := by
  intro r i
  have hq : r.val / 16 < 16 := by have := r.isLt; omega
  have hm : r.val % 16 < 16 := Nat.mod_lt _ (by decide)
  have e := concatenate_ofFn_apply (t := ⟨2, ![256, 1024]⟩) (s₁ := ⟨2, ![16, 1024]⟩) 0 y h rfl 16 rfl (ix2 r i) ⟨r.val / 16, hq⟩ rfl
    (ix2 (⟨r.val % 16, hm⟩ : Fin 16) i) rfl (fun b hb => by match b with | ⟨0, _⟩ => exact absurd rfl hb | ⟨1, _⟩ => rfl)
  refine e.trans ?_
  rw [hy ⟨r.val / 16, hq⟩ ⟨r.val % 16, hm⟩ i]
  congr 1
  have := Nat.div_add_mod r.val 16
  simp only
  omega

/-- Four blocks of 256 rows stacked. -/
theorem stack4_blocks_spec (g : Nat → α) (base : Nat) (z : Fin 4 → ((⟨2, ![256, 1024]⟩ : Shape).Idx → α))
    (h : Shape.Concatenates (([⟨⟨2, ![256, 1024]⟩, z 0⟩, ⟨⟨2, ![256, 1024]⟩, z 1⟩, ⟨⟨2, ![256, 1024]⟩, z 2⟩, ⟨⟨2, ![256, 1024]⟩, z 3⟩] : List ((s : Shape) × (s.Idx → α))).map (·.1)) ⟨2, ![1024, 1024]⟩ 0)
    (hz : ∀ q : Fin 4, IsRows g (base + 256 * q.val) (z q)) :
    IsRows g base (concatenate ⟨2, ![1024, 1024]⟩ 0 [⟨⟨2, ![256, 1024]⟩, z 0⟩, ⟨⟨2, ![256, 1024]⟩, z 1⟩, ⟨⟨2, ![256, 1024]⟩, z 2⟩, ⟨⟨2, ![256, 1024]⟩, z 3⟩] h) := by
  intro r i
  have hq : r.val / 256 < 4 := by have := r.isLt; omega
  have hm : r.val % 256 < 256 := Nat.mod_lt _ (by decide)
  have e := concatenate_ofFn_apply (t := ⟨2, ![1024, 1024]⟩) (s₁ := ⟨2, ![256, 1024]⟩) 0 z h rfl 256 rfl (ix2 r i) ⟨r.val / 256, hq⟩ rfl
    (ix2 (⟨r.val % 256, hm⟩ : Fin 256) i) rfl (fun b hb => by match b with | ⟨0, _⟩ => exact absurd rfl hb | ⟨1, _⟩ => rfl)
  refine e.trans ?_
  rw [hz ⟨r.val / 256, hq⟩ ⟨r.val % 256, hm⟩ i]
  congr 1
  have := Nat.div_add_mod r.val 256
  simp only
  omega

end Idealize.ShloMosaic.RowStack

end
-- ==== Proof.CircBase.lean ====
/-
  The buffers of the host stretch as the kernel finds them, at the exact reals.

  `R r` is the contents of buffer `r` once the whole stretch has run. The stretch first forms
  `wf = [w 0, w 1023, w 1022, …, w 1]` (the first entry of `w`, then the rest reversed), that is `wf k = w ((-k) mod 1024)`,
  and doubles it: `wfd = wf ++ wf`, of length 2048. `wfd` is the doubled vector as a function of a natural position.
-/
import proofs.«163274_j17575006175271_2_alg».proof.Proof.KernelIdealStretch
import proofs.«163274_j17575006175271_2_alg».proof.Proof.LibRowStack

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

/-- The contents of buffer `r` when the kernel starts: after the whole host stretch, from the launch contents. -/
def R (r : Ref sig .tc) : Buf (Elt Ideal) ((c : Thread nD τ).loc r) :=
  StableHlo.after (hostOps0 (F := Ideal)) (fun b => m (c, b)) r

/-- The doubled vector, as a function of a natural position. -/
def wfd : Nat → EReal := gOf (R m c main_v4 : S2048.Idx → EReal)

end Cert.KernelIdeal.Circ

end
-- ==== Proof.CircRows0.lean ====
/-
  Rows 0 to 127 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_0 : IsRows (wfd m c) 0 (R m c main_v1029 : S1x1024.Idx → EReal) := by
  have e1 := (Stretch.writesFrom (F := Ideal)).read_unary 1029 (x := main_v5) (y := main_v1029) rfl (fun _ => by decide) (fun b => m (c, b))
  have e2 := (Stretch.writesFrom (F := Ideal)).read_unary 5 (x := main_v4) (y := main_v5) rfl (fun _ => by decide) (fun b => m (c, b))
  unfold R
  rw [e1, e2]
  exact row_spec _ 1024 (by decide) (by decide) _ _

theorem row_1 : IsRows (wfd m c) 1 (R m c main_v1030 : S1x1024.Idx → EReal) := by
  have e1 := (Stretch.writesFrom (F := Ideal)).read_unary 1030 (x := main_v6) (y := main_v1030) rfl (fun _ => by decide) (fun b => m (c, b))
  have e2 := (Stretch.writesFrom (F := Ideal)).read_unary 6 (x := main_v4) (y := main_v6) rfl (fun _ => by decide) (fun b => m (c, b))
  unfold R
  rw [e1, e2]
  exact row_spec _ 1023 (by decide) (by decide) _ _

theorem row_2 : IsRows (wfd m c) 2 (R m c main_v1031 : S1x1024.Idx → EReal) := by
  have e1 := (Stretch.writesFrom (F := Ideal)).read_unary 1031 (x := main_v7) (y := main_v1031) rfl (fun _ => by decide) (fun b => m (c, b))
  have e2 := (Stretch.writesFrom (F := Ideal)).read_unary 7 (x := main_v4) (y := main_v7) rfl (fun _ => by decide) (fun b => m (c, b))
  unfold R
  rw [e1, e2]
  exact row_spec _ 1022 (by decide) (by decide) _ _

theorem row_3 : IsRows (wfd m c) 3 (R m c main_v1032 : S1x1024.Idx → EReal) := by
  have e1 := (Stretch.writesFrom (F := Ideal)).read_unary 1032 (x := main_v8) (y := main_v1032) rfl (fun _ => by decide) (fun b => m (c, b))
  have e2 := (Stretch.writesFrom (F := Ideal)).read_unary 8 (x := main_v4) (y := main_v8) rfl (fun _ => by decide) (fun b => m (c, b))
  unfold R
  rw [e1, e2]
  exact row_spec _ 1021 (by decide) (by decide) _ _

theorem row_4 : IsRows (wfd m c) 4 (R m c main_v1033 : S1x1024.Idx → EReal) := by
  have e1 := (Stretch.writesFrom (F := Ideal)).read_unary 1033 (x := main_v9) (y := main_v1033) rfl (fun _ => by decide) (fun b => m (c, b))
  have e2 := (Stretch.writesFrom (F := Ideal)).read_unary 9 (x := main_v4) (y := main_v9) rfl (fun _ => by decide) (fun b => m (c, b))
  unfold R
  rw [e1, e2]
  exact row_spec _ 1020 (by decide) (by decide) _ _

theorem row_5 : IsRows (wfd m c) 5 (R m c main_v1034 : S1x1024.Idx → EReal) := by
  have e1 := (Stretch.writesFrom (F := Ideal)).read_unary 1034 (x := main_v10) (y := main_v1034) rfl (fun _ => by decide) (fun b => m (c, b))
  have e2 := (Stretch.writesFrom (F := Ideal)).read_unary 10 (x := main_v4) (y := main_v10) rfl (fun _ => by decide) (fun b => m (c, b))
  unfold R
  rw [e1, e2]
  exact row_spec _ 1019 (by decide) (by decide) _ _

theorem row_6 : IsRows (wfd m c) 6 (R m c main_v1035 : S1x1024.Idx → EReal) := by
  have e1 := (Stretch.writesFrom (F := Ideal)).read_unary 1035 (x := main_v11) (y := main_v1035) rfl (fun _ => by decide) (fun b => m (c, b))
  have e2 := (Stretch.writesFrom (F := Ideal)).read_unary 11 (x := main_v4) (y := main_v11) rfl (fun _ => by decide) (fun b => m (c, b))
  unfold R
  rw [e1, e2]
  exact row_spec _ 1018 (by decide) (by decide) _ _

theorem row_7 : IsRows (wfd m c) 7 (R m c main_v1036 : S1x1024.Idx → EReal) := by
  have e1 := (Stretch.writesFrom (F := Ideal)).read_unary 1036 (x := main_v12) (y := main_v1036) rfl (fun _ => by decide) (fun b => m (c, b))
  have e2 := (Stretch.writesFrom (F := Ideal)).read_unary 12 (x := main_v4) (y := main_v12) rfl (fun _ => by decide) (fun b => m (c, b))
  unfold R
  rw [e1, e2]
  exact row_spec _ 1017 (by decide) (by decide) _ _

theorem row_8 : IsRows (wfd m c) 8 (R m c main_v1037 : S1x1024.Idx → EReal) := by
  have e1 := (Stretch.writesFrom (F := Ideal)).read_unary 1037 (x := main_v13) (y := main_v1037) rfl (fun _ => by decide) (fun b => m (c, b))
  have e2 := (Stretch.writesFrom (F := Ideal)).read_unary 13 (x := main_v4) (y := main_v13) rfl (fun _ => by decide) (fun b => m (c, b))
  unfold R
  rw [e1, e2]
  exact row_spec _ 1016 (by decide) (by decide) _ _

theorem row_9 : IsRows (wfd m c) 9 (R m c main_v1038 : S1x1024.Idx → EReal) := by
  have e1 := (Stretch.writesFrom (F := Ideal)).read_unary 1038 (x := main_v14) (y := main_v1038) rfl (fun _ => by decide) (fun b => m (c, b))
  have e2 := (Stretch.writesFrom (F := Ideal)).read_unary 14 (x := main_v4) (y := main_v14) rfl (fun _ => by decide) (fun b => m (c, b))
  unfold R
  rw [e1, e2]
  exact row_spec _ 1015 (by decide) (by decide) _ _

theorem row_10 : IsRows (wfd m c) 10 (R m c main_v1039 : S1x1024.Idx → EReal) := by
  have e1 := (Stretch.writesFrom (F := Ideal)).read_unary 1039 (x := main_v15) (y := main_v1039) rfl (fun _ => by decide) (fun b => m (c, b))
  have e2 := (Stretch.writesFrom (F := Ideal)).read_unary 15 (x := main_v4) (y := main_v15) rfl (fun _ => by decide) (fun b => m (c, b))
  unfold R
  rw [e1, e2]
  exact row_spec _ 1014 (by decide) (by decide) _ _

theorem row_11 : IsRows (wfd m c) 11 (R m c main_v1040 : S1x1024.Idx → EReal) := by
  have e1 := (Stretch.writesFrom (F := Ideal)).read_unary 1040 (x := main_v16) (y := main_v1040) rfl (fun _ => by decide) (fun b => m (c, b))
  have e2 := (Stretch.writesFrom (F := Ideal)).read_unary 16 (x := main_v4) (y := main_v16) rfl (fun _ => by decide) (fun b => m (c, b))
  unfold R
  rw [e1, e2]
  exact row_spec _ 1013 (by decide) (by decide) _ _

theorem row_12 : IsRows (wfd m c) 12 (R m c main_v1041 : S1x1024.Idx → EReal) := by
  have e1 := (Stretch.writesFrom (F := Ideal)).read_unary 1041 (x := main_v17) (y := main_v1041) rfl (fun _ => by decide) (fun b => m (c, b))
  have e2 := (Stretch.writesFrom (F := Ideal)).read_unary 17 (x := main_v4) (y := main_v17) rfl (fun _ => by decide) (fun b => m (c, b))
  unfold R
  rw [e1, e2]
  exact row_spec _ 1012 (by decide) (by decide) _ _

theorem row_13 : IsRows (wfd m c) 13 (R m c main_v1042 : S1x1024.Idx → EReal) := by
  have e1 := (Stretch.writesFrom (F := Ideal)).read_unary 1042 (x := main_v18) (y := main_v1042) rfl (fun _ => by decide) (fun b => m (c, b))
  have e2 := (Stretch.writesFrom (F := Ideal)).read_unary 18 (x := main_v4) (y := main_v18) rfl (fun _ => by decide) (fun b => m (c, b))
  unfold R
  rw [e1, e2]
  exact row_spec _ 1011 (by decide) (by decide) _ _

theorem row_14 : IsRows (wfd m c) 14 (R m c main_v1043 : S1x1024.Idx → EReal) := by
  have e1 := (Stretch.writesFrom (F := Ideal)).read_unary 1043 (x := main_v19) (y := main_v1043) rfl (fun _ => by decide) (fun b => m (c, b))
  have e2 := (Stretch.writesFrom (F := Ideal)).read_unary 19 (x := main_v4) (y := main_v19) rfl (fun _ => by decide) (fun b => m (c, b))
  unfold R
  rw [e1, e2]
  exact row_spec _ 1010 (by decide) (by decide) _ _

theorem row_15 : IsRows (wfd m c) 15 (R m c main_v1044 : S1x1024.Idx → EReal) := by
  have e1 := (Stretch.writesFrom (F := Ideal)).read_unary 1044 (x := main_v20) (y := main_v1044) rfl (fun _ => by decide) (fun b => m (c, b))
  have e2 := (Stretch.writesFrom (F := Ideal)).read_unary 20 (x := main_v4) (y := main_v20) rfl (fun _ => by decide) (fun b => m (c, b))
  unfold R
  rw [e1, e2]
  exact row_spec _ 1009 (by decide) (by decide) _ _

theorem row_16 : IsRows (wfd m c) 16 (R m c main_v1045 : S1x1024.Idx → EReal) := by
  have e1 := (Stretch.writesFrom (F := Ideal)).read_unary 1045 (x := main_v21) (y := main_v1045) rfl (fun _ => by decide) (fun b => m (c, b))
  have e2 := (Stretch.writesFrom (F := Ideal)).read_unary 21 (x := main_v4) (y := main_v21) rfl (fun _ => by decide) (fun b => m (c, b))
  unfold R
  rw [e1, e2]
  exact row_spec _ 1008 (by decide) (by decide) _ _

theorem row_17 : IsRows (wfd m c) 17 (R m c main_v1046 : S1x1024.Idx → EReal) := by
  have e1 := (Stretch.writesFrom (F := Ideal)).read_unary 1046 (x := main_v22) (y := main_v1046) rfl (fun _ => by decide) (fun b => m (c, b))
  have e2 := (Stretch.writesFrom (F := Ideal)).read_unary 22 (x := main_v4) (y := main_v22) rfl (fun _ => by decide) (fun b => m (c, b))
  unfold R
  rw [e1, e2]
  exact row_spec _ 1007 (by decide) (by decide) _ _

theorem row_18 : IsRows (wfd m c) 18 (R m c main_v1047 : S1x1024.Idx → EReal) := by
  have e1 := (Stretch.writesFrom (F := Ideal)).read_unary 1047 (x := main_v23) (y := main_v1047) rfl (fun _ => by decide) (fun b => m (c, b))
  have e2 := (Stretch.writesFrom (F := Ideal)).read_unary 23 (x := main_v4) (y := main_v23) rfl (fun _ => by decide) (fun b => m (c, b))
  unfold R
  rw [e1, e2]
  exact row_spec _ 1006 (by decide) (by decide) _ _

theorem row_19 : IsRows (wfd m c) 19 (R m c main_v1048 : S1x1024.Idx → EReal) := by
  have e1 := (Stretch.writesFrom (F := Ideal)).read_unary 1048 (x := main_v24) (y := main_v1048) rfl (fun _ => by decide) (fun b => m (c, b))
  have e2 := (Stretch.writesFrom (F := Ideal)).read_unary 24 (x := main_v4) (y := main_v24) rfl (fun _ => by decide) (fun b => m (c, b))
  unfold R
  rw [e1, e2]
  exact row_spec _ 1005 (by decide) (by decide) _ _

theorem row_20 : IsRows (wfd m c) 20 (R m c main_v1049 : S1x1024.Idx → EReal) := by
  have e1 := (Stretch.writesFrom (F := Ideal)).read_unary 1049 (x := main_v25) (y := main_v1049) rfl (fun _ => by decide) (fun b => m (c, b))
  have e2 := (Stretch.writesFrom (F := Ideal)).read_unary 25 (x := main_v4) (y := main_v25) rfl (fun _ => by decide) (fun b => m (c, b))
  unfold R
  rw [e1, e2]
  exact row_spec _ 1004 (by decide) (by decide) _ _

theorem row_21 : IsRows (wfd m c) 21 (R m c main_v1050 : S1x1024.Idx → EReal) := by
  have e1 := (Stretch.writesFrom (F := Ideal)).read_unary 1050 (x := main_v26) (y := main_v1050) rfl (fun _ => by decide) (fun b => m (c, b))
  have e2 := (Stretch.writesFrom (F := Ideal)).read_unary 26 (x := main_v4) (y := main_v26) rfl (fun _ => by decide) (fun b => m (c, b))
  unfold R
  rw [e1, e2]
  exact row_spec _ 1003 (by decide) (by decide) _ _

theorem row_22 : IsRows (wfd m c) 22 (R m c main_v1051 : S1x1024.Idx → EReal) := by
  have e1 := (Stretch.writesFrom (F := Ideal)).read_unary 1051 (x := main_v27) (y := main_v1051) rfl (fun _ => by decide) (fun b => m (c, b))
  have e2 := (Stretch.writesFrom (F := Ideal)).read_unary 27 (x := main_v4) (y := main_v27) rfl (fun _ => by decide) (fun b => m (c, b))
  unfold R
  rw [e1, e2]
  exact row_spec _ 1002 (by decide) (by decide) _ _

theorem row_23 : IsRows (wfd m c) 23 (R m c main_v1052 : S1x1024.Idx → EReal) := by
  have e1 := (Stretch.writesFrom (F := Ideal)).read_unary 1052 (x := main_v28) (y := main_v1052) rfl (fun _ => by decide) (fun b => m (c, b))
  have e2 := (Stretch.writesFrom (F := Ideal)).read_unary 28 (x := main_v4) (y := main_v28) rfl (fun _ => by decide) (fun b => m (c, b))
  unfold R
  rw [e1, e2]
  exact row_spec _ 1001 (by decide) (by decide) _ _

theorem row_24 : IsRows (wfd m c) 24 (R m c main_v1053 : S1x1024.Idx → EReal) := by
  have e1 := (Stretch.writesFrom (F := Ideal)).read_unary 1053 (x := main_v29) (y := main_v1053) rfl (fun _ => by decide) (fun b => m (c, b))
  have e2 := (Stretch.writesFrom (F := Ideal)).read_unary 29 (x := main_v4) (y := main_v29) rfl (fun _ => by decide) (fun b => m (c, b))
  unfold R
  rw [e1, e2]
  exact row_spec _ 1000 (by decide) (by decide) _ _

theorem row_25 : IsRows (wfd m c) 25 (R m c main_v1054 : S1x1024.Idx → EReal) := by
  have e1 := (Stretch.writesFrom (F := Ideal)).read_unary 1054 (x := main_v30) (y := main_v1054) rfl (fun _ => by decide) (fun b => m (c, b))
  have e2 := (Stretch.writesFrom (F := Ideal)).read_unary 30 (x := main_v4) (y := main_v30) rfl (fun _ => by decide) (fun b => m (c, b))
  unfold R
  rw [e1, e2]
  exact row_spec _ 999 (by decide) (by decide) _ _

theorem row_26 : IsRows (wfd m c) 26 (R m c main_v1055 : S1x1024.Idx → EReal) := by
  have e1 := (Stretch.writesFrom (F := Ideal)).read_unary 1055 (x := main_v31) (y := main_v1055) rfl (fun _ => by decide) (fun b => m (c, b))
  have e2 := (Stretch.writesFrom (F := Ideal)).read_unary 31 (x := main_v4) (y := main_v31) rfl (fun _ => by decide) (fun b => m (c, b))
  unfold R
  rw [e1, e2]
  exact row_spec _ 998 (by decide) (by decide) _ _

theorem row_27 : IsRows (wfd m c) 27 (R m c main_v1056 : S1x1024.Idx → EReal) := by
  have e1 := (Stretch.writesFrom (F := Ideal)).read_unary 1056 (x := main_v32) (y := main_v1056) rfl (fun _ => by decide) (fun b => m (c, b))
  have e2 := (Stretch.writesFrom (F := Ideal)).read_unary 32 (x := main_v4) (y := main_v32) rfl (fun _ => by decide) (fun b => m (c, b))
  unfold R
  rw [e1, e2]
  exact row_spec _ 997 (by decide) (by decide) _ _

theorem row_28 : IsRows (wfd m c) 28 (R m c main_v1057 : S1x1024.Idx → EReal) := by
  have e1 := (Stretch.writesFrom (F := Ideal)).read_unary 1057 (x := main_v33) (y := main_v1057) rfl (fun _ => by decide) (fun b => m (c, b))
  have e2 := (Stretch.writesFrom (F := Ideal)).read_unary 33 (x := main_v4) (y := main_v33) rfl (fun _ => by decide) (fun b => m (c, b))
  unfold R
  rw [e1, e2]
  exact row_spec _ 996 (by decide) (by decide) _ _

theorem row_29 : IsRows (wfd m c) 29 (R m c main_v1058 : S1x1024.Idx → EReal) := by
  have e1 := (Stretch.writesFrom (F := Ideal)).read_unary 1058 (x := main_v34) (y := main_v1058) rfl (fun _ => by decide) (fun b => m (c, b))
  have e2 := (Stretch.writesFrom (F := Ideal)).read_unary 34 (x := main_v4) (y := main_v34) rfl (fun _ => by decide) (fun b => m (c, b))
  unfold R
  rw [e1, e2]
  exact row_spec _ 995 (by decide) (by decide) _ _

theorem row_30 : IsRows (wfd m c) 30 (R m c main_v1059 : S1x1024.Idx → EReal) := by
  have e1 := (Stretch.writesFrom (F := Ideal)).read_unary 1059 (x := main_v35) (y := main_v1059) rfl (fun _ => by decide) (fun b => m (c, b))
  have e2 := (Stretch.writesFrom (F := Ideal)).read_unary 35 (x := main_v4) (y := main_v35) rfl (fun _ => by decide) (fun b => m (c, b))
  unfold R
  rw [e1, e2]
  exact row_spec _ 994 (by decide) (by decide) _ _

theorem row_31 : IsRows (wfd m c) 31 (R m c main_v1060 : S1x1024.Idx → EReal) := by
  have e1 := (Stretch.writesFrom (F := Ideal)).read_unary 1060 (x := main_v36) (y := main_v1060) rfl (fun _ => by decide) (fun b => m (c, b))
  have e2 := (Stretch.writesFrom (F := Ideal)).read_unary 36 (x := main_v4) (y := main_v36) rfl (fun _ => by decide) (fun b => m (c, b))
  unfold R
  rw [e1, e2]
  exact row_spec _ 993 (by decide) (by decide) _ _

theorem row_32 : IsRows (wfd m c) 32 (R m c main_v1061 : S1x1024.Idx → EReal) := by
  have e1 := (Stretch.writesFrom (F := Ideal)).read_unary 1061 (x := main_v37) (y := main_v1061) rfl (fun _ => by decide) (fun b => m (c, b))
  have e2 := (Stretch.writesFrom (F := Ideal)).read_unary 37 (x := main_v4) (y := main_v37) rfl (fun _ => by decide) (fun b => m (c, b))
  unfold R
  rw [e1, e2]
  exact row_spec _ 992 (by decide) (by decide) _ _

theorem row_33 : IsRows (wfd m c) 33 (R m c main_v1062 : S1x1024.Idx → EReal) := by
  have e1 := (Stretch.writesFrom (F := Ideal)).read_unary 1062 (x := main_v38) (y := main_v1062) rfl (fun _ => by decide) (fun b => m (c, b))
  have e2 := (Stretch.writesFrom (F := Ideal)).read_unary 38 (x := main_v4) (y := main_v38) rfl (fun _ => by decide) (fun b => m (c, b))
  unfold R
  rw [e1, e2]
  exact row_spec _ 991 (by decide) (by decide) _ _

theorem row_34 : IsRows (wfd m c) 34 (R m c main_v1063 : S1x1024.Idx → EReal) := by
  have e1 := (Stretch.writesFrom (F := Ideal)).read_unary 1063 (x := main_v39) (y := main_v1063) rfl (fun _ => by decide) (fun b => m (c, b))
  have e2 := (Stretch.writesFrom (F := Ideal)).read_unary 39 (x := main_v4) (y := main_v39) rfl (fun _ => by decide) (fun b => m (c, b))
  unfold R
  rw [e1, e2]
  exact row_spec _ 990 (by decide) (by decide) _ _

theorem row_35 : IsRows (wfd m c) 35 (R m c main_v1064 : S1x1024.Idx → EReal) := by
  have e1 := (Stretch.writesFrom (F := Ideal)).read_unary 1064 (x := main_v40) (y := main_v1064) rfl (fun _ => by decide) (fun b => m (c, b))
  have e2 := (Stretch.writesFrom (F := Ideal)).read_unary 40 (x := main_v4) (y := main_v40) rfl (fun _ => by decide) (fun b => m (c, b))
  unfold R
  rw [e1, e2]
  exact row_spec _ 989 (by decide) (by decide) _ _

theorem row_36 : IsRows (wfd m c) 36 (R m c main_v1065 : S1x1024.Idx → EReal) := by
  have e1 := (Stretch.writesFrom (F := Ideal)).read_unary 1065 (x := main_v41) (y := main_v1065) rfl (fun _ => by decide) (fun b => m (c, b))
  have e2 := (Stretch.writesFrom (F := Ideal)).read_unary 41 (x := main_v4) (y := main_v41) rfl (fun _ => by decide) (fun b => m (c, b))
  unfold R
  rw [e1, e2]
  exact row_spec _ 988 (by decide) (by decide) _ _

theorem row_37 : IsRows (wfd m c) 37 (R m c main_v1066 : S1x1024.Idx → EReal) := by
  have e1 := (Stretch.writesFrom (F := Ideal)).read_unary 1066 (x := main_v42) (y := main_v1066) rfl (fun _ => by decide) (fun b => m (c, b))
  have e2 := (Stretch.writesFrom (F := Ideal)).read_unary 42 (x := main_v4) (y := main_v42) rfl (fun _ => by decide) (fun b => m (c, b))
  unfold R
  rw [e1, e2]
  exact row_spec _ 987 (by decide) (by decide) _ _

theorem row_38 : IsRows (wfd m c) 38 (R m c main_v1067 : S1x1024.Idx → EReal) := by
  have e1 := (Stretch.writesFrom (F := Ideal)).read_unary 1067 (x := main_v43) (y := main_v1067) rfl (fun _ => by decide) (fun b => m (c, b))
  have e2 := (Stretch.writesFrom (F := Ideal)).read_unary 43 (x := main_v4) (y := main_v43) rfl (fun _ => by decide) (fun b => m (c, b))
  unfold R
  rw [e1, e2]
  exact row_spec _ 986 (by decide) (by decide) _ _

theorem row_39 : IsRows (wfd m c) 39 (R m c main_v1068 : S1x1024.Idx → EReal) := by
  have e1 := (Stretch.writesFrom (F := Ideal)).read_unary 1068 (x := main_v44) (y := main_v1068) rfl (fun _ => by decide) (fun b => m (c, b))
  have e2 := (Stretch.writesFrom (F := Ideal)).read_unary 44 (x := main_v4) (y := main_v44) rfl (fun _ => by decide) (fun b => m (c, b))
  unfold R
  rw [e1, e2]
  exact row_spec _ 985 (by decide) (by decide) _ _

theorem row_40 : IsRows (wfd m c) 40 (R m c main_v1069 : S1x1024.Idx → EReal) := by
  have e1 := (Stretch.writesFrom (F := Ideal)).read_unary 1069 (x := main_v45) (y := main_v1069) rfl (fun _ => by decide) (fun b => m (c, b))
  have e2 := (Stretch.writesFrom (F := Ideal)).read_unary 45 (x := main_v4) (y := main_v45) rfl (fun _ => by decide) (fun b => m (c, b))
  unfold R
  rw [e1, e2]
  exact row_spec _ 984 (by decide) (by decide) _ _

theorem row_41 : IsRows (wfd m c) 41 (R m c main_v1070 : S1x1024.Idx → EReal) := by
  have e1 := (Stretch.writesFrom (F := Ideal)).read_unary 1070 (x := main_v46) (y := main_v1070) rfl (fun _ => by decide) (fun b => m (c, b))
  have e2 := (Stretch.writesFrom (F := Ideal)).read_unary 46 (x := main_v4) (y := main_v46) rfl (fun _ => by decide) (fun b => m (c, b))
  unfold R
  rw [e1, e2]
  exact row_spec _ 983 (by decide) (by decide) _ _

theorem row_42 : IsRows (wfd m c) 42 (R m c main_v1071 : S1x1024.Idx → EReal) := by
  have e1 := (Stretch.writesFrom (F := Ideal)).read_unary 1071 (x := main_v47) (y := main_v1071) rfl (fun _ => by decide) (fun b => m (c, b))
  have e2 := (Stretch.writesFrom (F := Ideal)).read_unary 47 (x := main_v4) (y := main_v47) rfl (fun _ => by decide) (fun b => m (c, b))
  unfold R
  rw [e1, e2]
  exact row_spec _ 982 (by decide) (by decide) _ _

theorem row_43 : IsRows (wfd m c) 43 (R m c main_v1072 : S1x1024.Idx → EReal) := by
  have e1 := (Stretch.writesFrom (F := Ideal)).read_unary 1072 (x := main_v48) (y := main_v1072) rfl (fun _ => by decide) (fun b => m (c, b))
  have e2 := (Stretch.writesFrom (F := Ideal)).read_unary 48 (x := main_v4) (y := main_v48) rfl (fun _ => by decide) (fun b => m (c, b))
  unfold R
  rw [e1, e2]
  exact row_spec _ 981 (by decide) (by decide) _ _

theorem row_44 : IsRows (wfd m c) 44 (R m c main_v1073 : S1x1024.Idx → EReal) := by
  have e1 := (Stretch.writesFrom (F := Ideal)).read_unary 1073 (x := main_v49) (y := main_v1073) rfl (fun _ => by decide) (fun b => m (c, b))
  have e2 := (Stretch.writesFrom (F := Ideal)).read_unary 49 (x := main_v4) (y := main_v49) rfl (fun _ => by decide) (fun b => m (c, b))
  unfold R
  rw [e1, e2]
  exact row_spec _ 980 (by decide) (by decide) _ _

theorem row_45 : IsRows (wfd m c) 45 (R m c main_v1074 : S1x1024.Idx → EReal) := by
  have e1 := (Stretch.writesFrom (F := Ideal)).read_unary 1074 (x := main_v50) (y := main_v1074) rfl (fun _ => by decide) (fun b => m (c, b))
  have e2 := (Stretch.writesFrom (F := Ideal)).read_unary 50 (x := main_v4) (y := main_v50) rfl (fun _ => by decide) (fun b => m (c, b))
  unfold R
  rw [e1, e2]
  exact row_spec _ 979 (by decide) (by decide) _ _

theorem row_46 : IsRows (wfd m c) 46 (R m c main_v1075 : S1x1024.Idx → EReal) := by
  have e1 := (Stretch.writesFrom (F := Ideal)).read_unary 1075 (x := main_v51) (y := main_v1075) rfl (fun _ => by decide) (fun b => m (c, b))
  have e2 := (Stretch.writesFrom (F := Ideal)).read_unary 51 (x := main_v4) (y := main_v51) rfl (fun _ => by decide) (fun b => m (c, b))
  unfold R
  rw [e1, e2]
  exact row_spec _ 978 (by decide) (by decide) _ _

theorem row_47 : IsRows (wfd m c) 47 (R m c main_v1076 : S1x1024.Idx → EReal) := by
  have e1 := (Stretch.writesFrom (F := Ideal)).read_unary 1076 (x := main_v52) (y := main_v1076) rfl (fun _ => by decide) (fun b => m (c, b))
  have e2 := (Stretch.writesFrom (F := Ideal)).read_unary 52 (x := main_v4) (y := main_v52) rfl (fun _ => by decide) (fun b => m (c, b))
  unfold R
  rw [e1, e2]
  exact row_spec _ 977 (by decide) (by decide) _ _

theorem row_48 : IsRows (wfd m c) 48 (R m c main_v1077 : S1x1024.Idx → EReal) := by
  have e1 := (Stretch.writesFrom (F := Ideal)).read_unary 1077 (x := main_v53) (y := main_v1077) rfl (fun _ => by decide) (fun b => m (c, b))
  have e2 := (Stretch.writesFrom (F := Ideal)).read_unary 53 (x := main_v4) (y := main_v53) rfl (fun _ => by decide) (fun b => m (c, b))
  unfold R
  rw [e1, e2]
  exact row_spec _ 976 (by decide) (by decide) _ _

theorem row_49 : IsRows (wfd m c) 49 (R m c main_v1078 : S1x1024.Idx → EReal) := by
  have e1 := (Stretch.writesFrom (F := Ideal)).read_unary 1078 (x := main_v54) (y := main_v1078) rfl (fun _ => by decide) (fun b => m (c, b))
  have e2 := (Stretch.writesFrom (F := Ideal)).read_unary 54 (x := main_v4) (y := main_v54) rfl (fun _ => by decide) (fun b => m (c, b))
  unfold R
  rw [e1, e2]
  exact row_spec _ 975 (by decide) (by decide) _ _

theorem row_50 : IsRows (wfd m c) 50 (R m c main_v1079 : S1x1024.Idx → EReal) := by
  have e1 := (Stretch.writesFrom (F := Ideal)).read_unary 1079 (x := main_v55) (y := main_v1079) rfl (fun _ => by decide) (fun b => m (c, b))
  have e2 := (Stretch.writesFrom (F := Ideal)).read_unary 55 (x := main_v4) (y := main_v55) rfl (fun _ => by decide) (fun b => m (c, b))
  unfold R
  rw [e1, e2]
  exact row_spec _ 974 (by decide) (by decide) _ _

theorem row_51 : IsRows (wfd m c) 51 (R m c main_v1080 : S1x1024.Idx → EReal) := by
  have e1 := (Stretch.writesFrom (F := Ideal)).read_unary 1080 (x := main_v56) (y := main_v1080) rfl (fun _ => by decide) (fun b => m (c, b))
  have e2 := (Stretch.writesFrom (F := Ideal)).read_unary 56 (x := main_v4) (y := main_v56) rfl (fun _ => by decide) (fun b => m (c, b))
  unfold R
  rw [e1, e2]
  exact row_spec _ 973 (by decide) (by decide) _ _

theorem row_52 : IsRows (wfd m c) 52 (R m c main_v1081 : S1x1024.Idx → EReal) := by
  have e1 := (Stretch.writesFrom (F := Ideal)).read_unary 1081 (x := main_v57) (y := main_v1081) rfl (fun _ => by decide) (fun b => m (c, b))
  have e2 := (Stretch.writesFrom (F := Ideal)).read_unary 57 (x := main_v4) (y := main_v57) rfl (fun _ => by decide) (fun b => m (c, b))
  unfold R
  rw [e1, e2]
  exact row_spec _ 972 (by decide) (by decide) _ _

theorem row_53 : IsRows (wfd m c) 53 (R m c main_v1082 : S1x1024.Idx → EReal) := by
  have e1 := (Stretch.writesFrom (F := Ideal)).read_unary 1082 (x := main_v58) (y := main_v1082) rfl (fun _ => by decide) (fun b => m (c, b))
  have e2 := (Stretch.writesFrom (F := Ideal)).read_unary 58 (x := main_v4) (y := main_v58) rfl (fun _ => by decide) (fun b => m (c, b))
  unfold R
  rw [e1, e2]
  exact row_spec _ 971 (by decide) (by decide) _ _

theorem row_54 : IsRows (wfd m c) 54 (R m c main_v1083 : S1x1024.Idx → EReal) := by
  have e1 := (Stretch.writesFrom (F := Ideal)).read_unary 1083 (x := main_v59) (y := main_v1083) rfl (fun _ => by decide) (fun b => m (c, b))
  have e2 := (Stretch.writesFrom (F := Ideal)).read_unary 59 (x := main_v4) (y := main_v59) rfl (fun _ => by decide) (fun b => m (c, b))
  unfold R
  rw [e1, e2]
  exact row_spec _ 970 (by decide) (by decide) _ _

theorem row_55 : IsRows (wfd m c) 55 (R m c main_v1084 : S1x1024.Idx → EReal) := by
  have e1 := (Stretch.writesFrom (F := Ideal)).read_unary 1084 (x := main_v60) (y := main_v1084) rfl (fun _ => by decide) (fun b => m (c, b))
  have e2 := (Stretch.writesFrom (F := Ideal)).read_unary 60 (x := main_v4) (y := main_v60) rfl (fun _ => by decide) (fun b => m (c, b))
  unfold R
  rw [e1, e2]
  exact row_spec _ 969 (by decide) (by decide) _ _

theorem row_56 : IsRows (wfd m c) 56 (R m c main_v1085 : S1x1024.Idx → EReal) := by
  have e1 := (Stretch.writesFrom (F := Ideal)).read_unary 1085 (x := main_v61) (y := main_v1085) rfl (fun _ => by decide) (fun b => m (c, b))
  have e2 := (Stretch.writesFrom (F := Ideal)).read_unary 61 (x := main_v4) (y := main_v61) rfl (fun _ => by decide) (fun b => m (c, b))
  unfold R
  rw [e1, e2]
  exact row_spec _ 968 (by decide) (by decide) _ _

theorem row_57 : IsRows (wfd m c) 57 (R m c main_v1086 : S1x1024.Idx → EReal) := by
  have e1 := (Stretch.writesFrom (F := Ideal)).read_unary 1086 (x := main_v62) (y := main_v1086) rfl (fun _ => by decide) (fun b => m (c, b))
  have e2 := (Stretch.writesFrom (F := Ideal)).read_unary 62 (x := main_v4) (y := main_v62) rfl (fun _ => by decide) (fun b => m (c, b))
  unfold R
  rw [e1, e2]
  exact row_spec _ 967 (by decide) (by decide) _ _

theorem row_58 : IsRows (wfd m c) 58 (R m c main_v1087 : S1x1024.Idx → EReal) := by
  have e1 := (Stretch.writesFrom (F := Ideal)).read_unary 1087 (x := main_v63) (y := main_v1087) rfl (fun _ => by decide) (fun b => m (c, b))
  have e2 := (Stretch.writesFrom (F := Ideal)).read_unary 63 (x := main_v4) (y := main_v63) rfl (fun _ => by decide) (fun b => m (c, b))
  unfold R
  rw [e1, e2]
  exact row_spec _ 966 (by decide) (by decide) _ _

theorem row_59 : IsRows (wfd m c) 59 (R m c main_v1088 : S1x1024.Idx → EReal) := by
  have e1 := (Stretch.writesFrom (F := Ideal)).read_unary 1088 (x := main_v64) (y := main_v1088) rfl (fun _ => by decide) (fun b => m (c, b))
  have e2 := (Stretch.writesFrom (F := Ideal)).read_unary 64 (x := main_v4) (y := main_v64) rfl (fun _ => by decide) (fun b => m (c, b))
  unfold R
  rw [e1, e2]
  exact row_spec _ 965 (by decide) (by decide) _ _

theorem row_60 : IsRows (wfd m c) 60 (R m c main_v1089 : S1x1024.Idx → EReal) := by
  have e1 := (Stretch.writesFrom (F := Ideal)).read_unary 1089 (x := main_v65) (y := main_v1089) rfl (fun _ => by decide) (fun b => m (c, b))
  have e2 := (Stretch.writesFrom (F := Ideal)).read_unary 65 (x := main_v4) (y := main_v65) rfl (fun _ => by decide) (fun b => m (c, b))
  unfold R
  rw [e1, e2]
  exact row_spec _ 964 (by decide) (by decide) _ _

theorem row_61 : IsRows (wfd m c) 61 (R m c main_v1090 : S1x1024.Idx → EReal) := by
  have e1 := (Stretch.writesFrom (F := Ideal)).read_unary 1090 (x := main_v66) (y := main_v1090) rfl (fun _ => by decide) (fun b => m (c, b))
  have e2 := (Stretch.writesFrom (F := Ideal)).read_unary 66 (x := main_v4) (y := main_v66) rfl (fun _ => by decide) (fun b => m (c, b))
  unfold R
  rw [e1, e2]
  exact row_spec _ 963 (by decide) (by decide) _ _

theorem row_62 : IsRows (wfd m c) 62 (R m c main_v1091 : S1x1024.Idx → EReal) := by
  have e1 := (Stretch.writesFrom (F := Ideal)).read_unary 1091 (x := main_v67) (y := main_v1091) rfl (fun _ => by decide) (fun b => m (c, b))
  have e2 := (Stretch.writesFrom (F := Ideal)).read_unary 67 (x := main_v4) (y := main_v67) rfl (fun _ => by decide) (fun b => m (c, b))
  unfold R
  rw [e1, e2]
  exact row_spec _ 962 (by decide) (by decide) _ _

theorem row_63 : IsRows (wfd m c) 63 (R m c main_v1092 : S1x1024.Idx → EReal) := by
  have e1 := (Stretch.writesFrom (F := Ideal)).read_unary 1092 (x := main_v68) (y := main_v1092) rfl (fun _ => by decide) (fun b => m (c, b))
  have e2 := (Stretch.writesFrom (F := Ideal)).read_unary 68 (x := main_v4) (y := main_v68) rfl (fun _ => by decide) (fun b => m (c, b))
  unfold R
  rw [e1, e2]
  exact row_spec _ 961 (by decide) (by decide) _ _

theorem row_64 : IsRows (wfd m c) 64 (R m c main_v1093 : S1x1024.Idx → EReal) := by
  have e1 := (Stretch.writesFrom (F := Ideal)).read_unary 1093 (x := main_v69) (y := main_v1093) rfl (fun _ => by decide) (fun b => m (c, b))
  have e2 := (Stretch.writesFrom (F := Ideal)).read_unary 69 (x := main_v4) (y := main_v69) rfl (fun _ => by decide) (fun b => m (c, b))
  unfold R
  rw [e1, e2]
  exact row_spec _ 960 (by decide) (by decide) _ _

theorem row_65 : IsRows (wfd m c) 65 (R m c main_v1094 : S1x1024.Idx → EReal) := by
  have e1 := (Stretch.writesFrom (F := Ideal)).read_unary 1094 (x := main_v70) (y := main_v1094) rfl (fun _ => by decide) (fun b => m (c, b))
  have e2 := (Stretch.writesFrom (F := Ideal)).read_unary 70 (x := main_v4) (y := main_v70) rfl (fun _ => by decide) (fun b => m (c, b))
  unfold R
  rw [e1, e2]
  exact row_spec _ 959 (by decide) (by decide) _ _

theorem row_66 : IsRows (wfd m c) 66 (R m c main_v1095 : S1x1024.Idx → EReal) := by
  have e1 := (Stretch.writesFrom (F := Ideal)).read_unary 1095 (x := main_v71) (y := main_v1095) rfl (fun _ => by decide) (fun b => m (c, b))
  have e2 := (Stretch.writesFrom (F := Ideal)).read_unary 71 (x := main_v4) (y := main_v71) rfl (fun _ => by decide) (fun b => m (c, b))
  unfold R
  rw [e1, e2]
  exact row_spec _ 958 (by decide) (by decide) _ _

theorem row_67 : IsRows (wfd m c) 67 (R m c main_v1096 : S1x1024.Idx → EReal) := by
  have e1 := (Stretch.writesFrom (F := Ideal)).read_unary 1096 (x := main_v72) (y := main_v1096) rfl (fun _ => by decide) (fun b => m (c, b))
  have e2 := (Stretch.writesFrom (F := Ideal)).read_unary 72 (x := main_v4) (y := main_v72) rfl (fun _ => by decide) (fun b => m (c, b))
  unfold R
  rw [e1, e2]
  exact row_spec _ 957 (by decide) (by decide) _ _

theorem row_68 : IsRows (wfd m c) 68 (R m c main_v1097 : S1x1024.Idx → EReal) := by
  have e1 := (Stretch.writesFrom (F := Ideal)).read_unary 1097 (x := main_v73) (y := main_v1097) rfl (fun _ => by decide) (fun b => m (c, b))
  have e2 := (Stretch.writesFrom (F := Ideal)).read_unary 73 (x := main_v4) (y := main_v73) rfl (fun _ => by decide) (fun b => m (c, b))
  unfold R
  rw [e1, e2]
  exact row_spec _ 956 (by decide) (by decide) _ _

theorem row_69 : IsRows (wfd m c) 69 (R m c main_v1098 : S1x1024.Idx → EReal) := by
  have e1 := (Stretch.writesFrom (F := Ideal)).read_unary 1098 (x := main_v74) (y := main_v1098) rfl (fun _ => by decide) (fun b => m (c, b))
  have e2 := (Stretch.writesFrom (F := Ideal)).read_unary 74 (x := main_v4) (y := main_v74) rfl (fun _ => by decide) (fun b => m (c, b))
  unfold R
  rw [e1, e2]
  exact row_spec _ 955 (by decide) (by decide) _ _

theorem row_70 : IsRows (wfd m c) 70 (R m c main_v1099 : S1x1024.Idx → EReal) := by
  have e1 := (Stretch.writesFrom (F := Ideal)).read_unary 1099 (x := main_v75) (y := main_v1099) rfl (fun _ => by decide) (fun b => m (c, b))
  have e2 := (Stretch.writesFrom (F := Ideal)).read_unary 75 (x := main_v4) (y := main_v75) rfl (fun _ => by decide) (fun b => m (c, b))
  unfold R
  rw [e1, e2]
  exact row_spec _ 954 (by decide) (by decide) _ _

theorem row_71 : IsRows (wfd m c) 71 (R m c main_v1100 : S1x1024.Idx → EReal) := by
  have e1 := (Stretch.writesFrom (F := Ideal)).read_unary 1100 (x := main_v76) (y := main_v1100) rfl (fun _ => by decide) (fun b => m (c, b))
  have e2 := (Stretch.writesFrom (F := Ideal)).read_unary 76 (x := main_v4) (y := main_v76) rfl (fun _ => by decide) (fun b => m (c, b))
  unfold R
  rw [e1, e2]
  exact row_spec _ 953 (by decide) (by decide) _ _

theorem row_72 : IsRows (wfd m c) 72 (R m c main_v1101 : S1x1024.Idx → EReal) := by
  have e1 := (Stretch.writesFrom (F := Ideal)).read_unary 1101 (x := main_v77) (y := main_v1101) rfl (fun _ => by decide) (fun b => m (c, b))
  have e2 := (Stretch.writesFrom (F := Ideal)).read_unary 77 (x := main_v4) (y := main_v77) rfl (fun _ => by decide) (fun b => m (c, b))
  unfold R
  rw [e1, e2]
  exact row_spec _ 952 (by decide) (by decide) _ _

theorem row_73 : IsRows (wfd m c) 73 (R m c main_v1102 : S1x1024.Idx → EReal) := by
  have e1 := (Stretch.writesFrom (F := Ideal)).read_unary 1102 (x := main_v78) (y := main_v1102) rfl (fun _ => by decide) (fun b => m (c, b))
  have e2 := (Stretch.writesFrom (F := Ideal)).read_unary 78 (x := main_v4) (y := main_v78) rfl (fun _ => by decide) (fun b => m (c, b))
  unfold R
  rw [e1, e2]
  exact row_spec _ 951 (by decide) (by decide) _ _

theorem row_74 : IsRows (wfd m c) 74 (R m c main_v1103 : S1x1024.Idx → EReal) := by
  have e1 := (Stretch.writesFrom (F := Ideal)).read_unary 1103 (x := main_v79) (y := main_v1103) rfl (fun _ => by decide) (fun b => m (c, b))
  have e2 := (Stretch.writesFrom (F := Ideal)).read_unary 79 (x := main_v4) (y := main_v79) rfl (fun _ => by decide) (fun b => m (c, b))
  unfold R
  rw [e1, e2]
  exact row_spec _ 950 (by decide) (by decide) _ _

theorem row_75 : IsRows (wfd m c) 75 (R m c main_v1104 : S1x1024.Idx → EReal) := by
  have e1 := (Stretch.writesFrom (F := Ideal)).read_unary 1104 (x := main_v80) (y := main_v1104) rfl (fun _ => by decide) (fun b => m (c, b))
  have e2 := (Stretch.writesFrom (F := Ideal)).read_unary 80 (x := main_v4) (y := main_v80) rfl (fun _ => by decide) (fun b => m (c, b))
  unfold R
  rw [e1, e2]
  exact row_spec _ 949 (by decide) (by decide) _ _

theorem row_76 : IsRows (wfd m c) 76 (R m c main_v1105 : S1x1024.Idx → EReal) := by
  have e1 := (Stretch.writesFrom (F := Ideal)).read_unary 1105 (x := main_v81) (y := main_v1105) rfl (fun _ => by decide) (fun b => m (c, b))
  have e2 := (Stretch.writesFrom (F := Ideal)).read_unary 81 (x := main_v4) (y := main_v81) rfl (fun _ => by decide) (fun b => m (c, b))
  unfold R
  rw [e1, e2]
  exact row_spec _ 948 (by decide) (by decide) _ _

theorem row_77 : IsRows (wfd m c) 77 (R m c main_v1106 : S1x1024.Idx → EReal) := by
  have e1 := (Stretch.writesFrom (F := Ideal)).read_unary 1106 (x := main_v82) (y := main_v1106) rfl (fun _ => by decide) (fun b => m (c, b))
  have e2 := (Stretch.writesFrom (F := Ideal)).read_unary 82 (x := main_v4) (y := main_v82) rfl (fun _ => by decide) (fun b => m (c, b))
  unfold R
  rw [e1, e2]
  exact row_spec _ 947 (by decide) (by decide) _ _

theorem row_78 : IsRows (wfd m c) 78 (R m c main_v1107 : S1x1024.Idx → EReal) := by
  have e1 := (Stretch.writesFrom (F := Ideal)).read_unary 1107 (x := main_v83) (y := main_v1107) rfl (fun _ => by decide) (fun b => m (c, b))
  have e2 := (Stretch.writesFrom (F := Ideal)).read_unary 83 (x := main_v4) (y := main_v83) rfl (fun _ => by decide) (fun b => m (c, b))
  unfold R
  rw [e1, e2]
  exact row_spec _ 946 (by decide) (by decide) _ _

theorem row_79 : IsRows (wfd m c) 79 (R m c main_v1108 : S1x1024.Idx → EReal) := by
  have e1 := (Stretch.writesFrom (F := Ideal)).read_unary 1108 (x := main_v84) (y := main_v1108) rfl (fun _ => by decide) (fun b => m (c, b))
  have e2 := (Stretch.writesFrom (F := Ideal)).read_unary 84 (x := main_v4) (y := main_v84) rfl (fun _ => by decide) (fun b => m (c, b))
  unfold R
  rw [e1, e2]
  exact row_spec _ 945 (by decide) (by decide) _ _

theorem row_80 : IsRows (wfd m c) 80 (R m c main_v1109 : S1x1024.Idx → EReal) := by
  have e1 := (Stretch.writesFrom (F := Ideal)).read_unary 1109 (x := main_v85) (y := main_v1109) rfl (fun _ => by decide) (fun b => m (c, b))
  have e2 := (Stretch.writesFrom (F := Ideal)).read_unary 85 (x := main_v4) (y := main_v85) rfl (fun _ => by decide) (fun b => m (c, b))
  unfold R
  rw [e1, e2]
  exact row_spec _ 944 (by decide) (by decide) _ _

theorem row_81 : IsRows (wfd m c) 81 (R m c main_v1110 : S1x1024.Idx → EReal) := by
  have e1 := (Stretch.writesFrom (F := Ideal)).read_unary 1110 (x := main_v86) (y := main_v1110) rfl (fun _ => by decide) (fun b => m (c, b))
  have e2 := (Stretch.writesFrom (F := Ideal)).read_unary 86 (x := main_v4) (y := main_v86) rfl (fun _ => by decide) (fun b => m (c, b))
  unfold R
  rw [e1, e2]
  exact row_spec _ 943 (by decide) (by decide) _ _

theorem row_82 : IsRows (wfd m c) 82 (R m c main_v1111 : S1x1024.Idx → EReal) := by
  have e1 := (Stretch.writesFrom (F := Ideal)).read_unary 1111 (x := main_v87) (y := main_v1111) rfl (fun _ => by decide) (fun b => m (c, b))
  have e2 := (Stretch.writesFrom (F := Ideal)).read_unary 87 (x := main_v4) (y := main_v87) rfl (fun _ => by decide) (fun b => m (c, b))
  unfold R
  rw [e1, e2]
  exact row_spec _ 942 (by decide) (by decide) _ _

theorem row_83 : IsRows (wfd m c) 83 (R m c main_v1112 : S1x1024.Idx → EReal) := by
  have e1 := (Stretch.writesFrom (F := Ideal)).read_unary 1112 (x := main_v88) (y := main_v1112) rfl (fun _ => by decide) (fun b => m (c, b))
  have e2 := (Stretch.writesFrom (F := Ideal)).read_unary 88 (x := main_v4) (y := main_v88) rfl (fun _ => by decide) (fun b => m (c, b))
  unfold R
  rw [e1, e2]
  exact row_spec _ 941 (by decide) (by decide) _ _

theorem row_84 : IsRows (wfd m c) 84 (R m c main_v1113 : S1x1024.Idx → EReal) := by
  have e1 := (Stretch.writesFrom (F := Ideal)).read_unary 1113 (x := main_v89) (y := main_v1113) rfl (fun _ => by decide) (fun b => m (c, b))
  have e2 := (Stretch.writesFrom (F := Ideal)).read_unary 89 (x := main_v4) (y := main_v89) rfl (fun _ => by decide) (fun b => m (c, b))
  unfold R
  rw [e1, e2]
  exact row_spec _ 940 (by decide) (by decide) _ _

theorem row_85 : IsRows (wfd m c) 85 (R m c main_v1114 : S1x1024.Idx → EReal) := by
  have e1 := (Stretch.writesFrom (F := Ideal)).read_unary 1114 (x := main_v90) (y := main_v1114) rfl (fun _ => by decide) (fun b => m (c, b))
  have e2 := (Stretch.writesFrom (F := Ideal)).read_unary 90 (x := main_v4) (y := main_v90) rfl (fun _ => by decide) (fun b => m (c, b))
  unfold R
  rw [e1, e2]
  exact row_spec _ 939 (by decide) (by decide) _ _

theorem row_86 : IsRows (wfd m c) 86 (R m c main_v1115 : S1x1024.Idx → EReal) := by
  have e1 := (Stretch.writesFrom (F := Ideal)).read_unary 1115 (x := main_v91) (y := main_v1115) rfl (fun _ => by decide) (fun b => m (c, b))
  have e2 := (Stretch.writesFrom (F := Ideal)).read_unary 91 (x := main_v4) (y := main_v91) rfl (fun _ => by decide) (fun b => m (c, b))
  unfold R
  rw [e1, e2]
  exact row_spec _ 938 (by decide) (by decide) _ _

theorem row_87 : IsRows (wfd m c) 87 (R m c main_v1116 : S1x1024.Idx → EReal) := by
  have e1 := (Stretch.writesFrom (F := Ideal)).read_unary 1116 (x := main_v92) (y := main_v1116) rfl (fun _ => by decide) (fun b => m (c, b))
  have e2 := (Stretch.writesFrom (F := Ideal)).read_unary 92 (x := main_v4) (y := main_v92) rfl (fun _ => by decide) (fun b => m (c, b))
  unfold R
  rw [e1, e2]
  exact row_spec _ 937 (by decide) (by decide) _ _

theorem row_88 : IsRows (wfd m c) 88 (R m c main_v1117 : S1x1024.Idx → EReal) := by
  have e1 := (Stretch.writesFrom (F := Ideal)).read_unary 1117 (x := main_v93) (y := main_v1117) rfl (fun _ => by decide) (fun b => m (c, b))
  have e2 := (Stretch.writesFrom (F := Ideal)).read_unary 93 (x := main_v4) (y := main_v93) rfl (fun _ => by decide) (fun b => m (c, b))
  unfold R
  rw [e1, e2]
  exact row_spec _ 936 (by decide) (by decide) _ _

theorem row_89 : IsRows (wfd m c) 89 (R m c main_v1118 : S1x1024.Idx → EReal) := by
  have e1 := (Stretch.writesFrom (F := Ideal)).read_unary 1118 (x := main_v94) (y := main_v1118) rfl (fun _ => by decide) (fun b => m (c, b))
  have e2 := (Stretch.writesFrom (F := Ideal)).read_unary 94 (x := main_v4) (y := main_v94) rfl (fun _ => by decide) (fun b => m (c, b))
  unfold R
  rw [e1, e2]
  exact row_spec _ 935 (by decide) (by decide) _ _

theorem row_90 : IsRows (wfd m c) 90 (R m c main_v1119 : S1x1024.Idx → EReal) := by
  have e1 := (Stretch.writesFrom (F := Ideal)).read_unary 1119 (x := main_v95) (y := main_v1119) rfl (fun _ => by decide) (fun b => m (c, b))
  have e2 := (Stretch.writesFrom (F := Ideal)).read_unary 95 (x := main_v4) (y := main_v95) rfl (fun _ => by decide) (fun b => m (c, b))
  unfold R
  rw [e1, e2]
  exact row_spec _ 934 (by decide) (by decide) _ _

theorem row_91 : IsRows (wfd m c) 91 (R m c main_v1120 : S1x1024.Idx → EReal) := by
  have e1 := (Stretch.writesFrom (F := Ideal)).read_unary 1120 (x := main_v96) (y := main_v1120) rfl (fun _ => by decide) (fun b => m (c, b))
  have e2 := (Stretch.writesFrom (F := Ideal)).read_unary 96 (x := main_v4) (y := main_v96) rfl (fun _ => by decide) (fun b => m (c, b))
  unfold R
  rw [e1, e2]
  exact row_spec _ 933 (by decide) (by decide) _ _

theorem row_92 : IsRows (wfd m c) 92 (R m c main_v1121 : S1x1024.Idx → EReal) := by
  have e1 := (Stretch.writesFrom (F := Ideal)).read_unary 1121 (x := main_v97) (y := main_v1121) rfl (fun _ => by decide) (fun b => m (c, b))
  have e2 := (Stretch.writesFrom (F := Ideal)).read_unary 97 (x := main_v4) (y := main_v97) rfl (fun _ => by decide) (fun b => m (c, b))
  unfold R
  rw [e1, e2]
  exact row_spec _ 932 (by decide) (by decide) _ _

theorem row_93 : IsRows (wfd m c) 93 (R m c main_v1122 : S1x1024.Idx → EReal) := by
  have e1 := (Stretch.writesFrom (F := Ideal)).read_unary 1122 (x := main_v98) (y := main_v1122) rfl (fun _ => by decide) (fun b => m (c, b))
  have e2 := (Stretch.writesFrom (F := Ideal)).read_unary 98 (x := main_v4) (y := main_v98) rfl (fun _ => by decide) (fun b => m (c, b))
  unfold R
  rw [e1, e2]
  exact row_spec _ 931 (by decide) (by decide) _ _

theorem row_94 : IsRows (wfd m c) 94 (R m c main_v1123 : S1x1024.Idx → EReal) := by
  have e1 := (Stretch.writesFrom (F := Ideal)).read_unary 1123 (x := main_v99) (y := main_v1123) rfl (fun _ => by decide) (fun b => m (c, b))
  have e2 := (Stretch.writesFrom (F := Ideal)).read_unary 99 (x := main_v4) (y := main_v99) rfl (fun _ => by decide) (fun b => m (c, b))
  unfold R
  rw [e1, e2]
  exact row_spec _ 930 (by decide) (by decide) _ _

theorem row_95 : IsRows (wfd m c) 95 (R m c main_v1124 : S1x1024.Idx → EReal) := by
  have e1 := (Stretch.writesFrom (F := Ideal)).read_unary 1124 (x := main_v100) (y := main_v1124) rfl (fun _ => by decide) (fun b => m (c, b))
  have e2 := (Stretch.writesFrom (F := Ideal)).read_unary 100 (x := main_v4) (y := main_v100) rfl (fun _ => by decide) (fun b => m (c, b))
  unfold R
  rw [e1, e2]
  exact row_spec _ 929 (by decide) (by decide) _ _

theorem row_96 : IsRows (wfd m c) 96 (R m c main_v1125 : S1x1024.Idx → EReal) := by
  have e1 := (Stretch.writesFrom (F := Ideal)).read_unary 1125 (x := main_v101) (y := main_v1125) rfl (fun _ => by decide) (fun b => m (c, b))
  have e2 := (Stretch.writesFrom (F := Ideal)).read_unary 101 (x := main_v4) (y := main_v101) rfl (fun _ => by decide) (fun b => m (c, b))
  unfold R
  rw [e1, e2]
  exact row_spec _ 928 (by decide) (by decide) _ _

theorem row_97 : IsRows (wfd m c) 97 (R m c main_v1126 : S1x1024.Idx → EReal) := by
  have e1 := (Stretch.writesFrom (F := Ideal)).read_unary 1126 (x := main_v102) (y := main_v1126) rfl (fun _ => by decide) (fun b => m (c, b))
  have e2 := (Stretch.writesFrom (F := Ideal)).read_unary 102 (x := main_v4) (y := main_v102) rfl (fun _ => by decide) (fun b => m (c, b))
  unfold R
  rw [e1, e2]
  exact row_spec _ 927 (by decide) (by decide) _ _

theorem row_98 : IsRows (wfd m c) 98 (R m c main_v1127 : S1x1024.Idx → EReal) := by
  have e1 := (Stretch.writesFrom (F := Ideal)).read_unary 1127 (x := main_v103) (y := main_v1127) rfl (fun _ => by decide) (fun b => m (c, b))
  have e2 := (Stretch.writesFrom (F := Ideal)).read_unary 103 (x := main_v4) (y := main_v103) rfl (fun _ => by decide) (fun b => m (c, b))
  unfold R
  rw [e1, e2]
  exact row_spec _ 926 (by decide) (by decide) _ _

theorem row_99 : IsRows (wfd m c) 99 (R m c main_v1128 : S1x1024.Idx → EReal) := by
  have e1 := (Stretch.writesFrom (F := Ideal)).read_unary 1128 (x := main_v104) (y := main_v1128) rfl (fun _ => by decide) (fun b => m (c, b))
  have e2 := (Stretch.writesFrom (F := Ideal)).read_unary 104 (x := main_v4) (y := main_v104) rfl (fun _ => by decide) (fun b => m (c, b))
  unfold R
  rw [e1, e2]
  exact row_spec _ 925 (by decide) (by decide) _ _

theorem row_100 : IsRows (wfd m c) 100 (R m c main_v1129 : S1x1024.Idx → EReal) := by
  have e1 := (Stretch.writesFrom (F := Ideal)).read_unary 1129 (x := main_v105) (y := main_v1129) rfl (fun _ => by decide) (fun b => m (c, b))
  have e2 := (Stretch.writesFrom (F := Ideal)).read_unary 105 (x := main_v4) (y := main_v105) rfl (fun _ => by decide) (fun b => m (c, b))
  unfold R
  rw [e1, e2]
  exact row_spec _ 924 (by decide) (by decide) _ _

theorem row_101 : IsRows (wfd m c) 101 (R m c main_v1130 : S1x1024.Idx → EReal) := by
  have e1 := (Stretch.writesFrom (F := Ideal)).read_unary 1130 (x := main_v106) (y := main_v1130) rfl (fun _ => by decide) (fun b => m (c, b))
  have e2 := (Stretch.writesFrom (F := Ideal)).read_unary 106 (x := main_v4) (y := main_v106) rfl (fun _ => by decide) (fun b => m (c, b))
  unfold R
  rw [e1, e2]
  exact row_spec _ 923 (by decide) (by decide) _ _

theorem row_102 : IsRows (wfd m c) 102 (R m c main_v1131 : S1x1024.Idx → EReal) := by
  have e1 := (Stretch.writesFrom (F := Ideal)).read_unary 1131 (x := main_v107) (y := main_v1131) rfl (fun _ => by decide) (fun b => m (c, b))
  have e2 := (Stretch.writesFrom (F := Ideal)).read_unary 107 (x := main_v4) (y := main_v107) rfl (fun _ => by decide) (fun b => m (c, b))
  unfold R
  rw [e1, e2]
  exact row_spec _ 922 (by decide) (by decide) _ _

theorem row_103 : IsRows (wfd m c) 103 (R m c main_v1132 : S1x1024.Idx → EReal) := by
  have e1 := (Stretch.writesFrom (F := Ideal)).read_unary 1132 (x := main_v108) (y := main_v1132) rfl (fun _ => by decide) (fun b => m (c, b))
  have e2 := (Stretch.writesFrom (F := Ideal)).read_unary 108 (x := main_v4) (y := main_v108) rfl (fun _ => by decide) (fun b => m (c, b))
  unfold R
  rw [e1, e2]
  exact row_spec _ 921 (by decide) (by decide) _ _

theorem row_104 : IsRows (wfd m c) 104 (R m c main_v1133 : S1x1024.Idx → EReal) := by
  have e1 := (Stretch.writesFrom (F := Ideal)).read_unary 1133 (x := main_v109) (y := main_v1133) rfl (fun _ => by decide) (fun b => m (c, b))
  have e2 := (Stretch.writesFrom (F := Ideal)).read_unary 109 (x := main_v4) (y := main_v109) rfl (fun _ => by decide) (fun b => m (c, b))
  unfold R
  rw [e1, e2]
  exact row_spec _ 920 (by decide) (by decide) _ _

theorem row_105 : IsRows (wfd m c) 105 (R m c main_v1134 : S1x1024.Idx → EReal) := by
  have e1 := (Stretch.writesFrom (F := Ideal)).read_unary 1134 (x := main_v110) (y := main_v1134) rfl (fun _ => by decide) (fun b => m (c, b))
  have e2 := (Stretch.writesFrom (F := Ideal)).read_unary 110 (x := main_v4) (y := main_v110) rfl (fun _ => by decide) (fun b => m (c, b))
  unfold R
  rw [e1, e2]
  exact row_spec _ 919 (by decide) (by decide) _ _

theorem row_106 : IsRows (wfd m c) 106 (R m c main_v1135 : S1x1024.Idx → EReal) := by
  have e1 := (Stretch.writesFrom (F := Ideal)).read_unary 1135 (x := main_v111) (y := main_v1135) rfl (fun _ => by decide) (fun b => m (c, b))
  have e2 := (Stretch.writesFrom (F := Ideal)).read_unary 111 (x := main_v4) (y := main_v111) rfl (fun _ => by decide) (fun b => m (c, b))
  unfold R
  rw [e1, e2]
  exact row_spec _ 918 (by decide) (by decide) _ _

theorem row_107 : IsRows (wfd m c) 107 (R m c main_v1136 : S1x1024.Idx → EReal) := by
  have e1 := (Stretch.writesFrom (F := Ideal)).read_unary 1136 (x := main_v112) (y := main_v1136) rfl (fun _ => by decide) (fun b => m (c, b))
  have e2 := (Stretch.writesFrom (F := Ideal)).read_unary 112 (x := main_v4) (y := main_v112) rfl (fun _ => by decide) (fun b => m (c, b))
  unfold R
  rw [e1, e2]
  exact row_spec _ 917 (by decide) (by decide) _ _

theorem row_108 : IsRows (wfd m c) 108 (R m c main_v1137 : S1x1024.Idx → EReal) := by
  have e1 := (Stretch.writesFrom (F := Ideal)).read_unary 1137 (x := main_v113) (y := main_v1137) rfl (fun _ => by decide) (fun b => m (c, b))
  have e2 := (Stretch.writesFrom (F := Ideal)).read_unary 113 (x := main_v4) (y := main_v113) rfl (fun _ => by decide) (fun b => m (c, b))
  unfold R
  rw [e1, e2]
  exact row_spec _ 916 (by decide) (by decide) _ _

theorem row_109 : IsRows (wfd m c) 109 (R m c main_v1138 : S1x1024.Idx → EReal) := by
  have e1 := (Stretch.writesFrom (F := Ideal)).read_unary 1138 (x := main_v114) (y := main_v1138) rfl (fun _ => by decide) (fun b => m (c, b))
  have e2 := (Stretch.writesFrom (F := Ideal)).read_unary 114 (x := main_v4) (y := main_v114) rfl (fun _ => by decide) (fun b => m (c, b))
  unfold R
  rw [e1, e2]
  exact row_spec _ 915 (by decide) (by decide) _ _

theorem row_110 : IsRows (wfd m c) 110 (R m c main_v1139 : S1x1024.Idx → EReal) := by
  have e1 := (Stretch.writesFrom (F := Ideal)).read_unary 1139 (x := main_v115) (y := main_v1139) rfl (fun _ => by decide) (fun b => m (c, b))
  have e2 := (Stretch.writesFrom (F := Ideal)).read_unary 115 (x := main_v4) (y := main_v115) rfl (fun _ => by decide) (fun b => m (c, b))
  unfold R
  rw [e1, e2]
  exact row_spec _ 914 (by decide) (by decide) _ _

theorem row_111 : IsRows (wfd m c) 111 (R m c main_v1140 : S1x1024.Idx → EReal) := by
  have e1 := (Stretch.writesFrom (F := Ideal)).read_unary 1140 (x := main_v116) (y := main_v1140) rfl (fun _ => by decide) (fun b => m (c, b))
  have e2 := (Stretch.writesFrom (F := Ideal)).read_unary 116 (x := main_v4) (y := main_v116) rfl (fun _ => by decide) (fun b => m (c, b))
  unfold R
  rw [e1, e2]
  exact row_spec _ 913 (by decide) (by decide) _ _

theorem row_112 : IsRows (wfd m c) 112 (R m c main_v1141 : S1x1024.Idx → EReal) := by
  have e1 := (Stretch.writesFrom (F := Ideal)).read_unary 1141 (x := main_v117) (y := main_v1141) rfl (fun _ => by decide) (fun b => m (c, b))
  have e2 := (Stretch.writesFrom (F := Ideal)).read_unary 117 (x := main_v4) (y := main_v117) rfl (fun _ => by decide) (fun b => m (c, b))
  unfold R
  rw [e1, e2]
  exact row_spec _ 912 (by decide) (by decide) _ _

theorem row_113 : IsRows (wfd m c) 113 (R m c main_v1142 : S1x1024.Idx → EReal) := by
  have e1 := (Stretch.writesFrom (F := Ideal)).read_unary 1142 (x := main_v118) (y := main_v1142) rfl (fun _ => by decide) (fun b => m (c, b))
  have e2 := (Stretch.writesFrom (F := Ideal)).read_unary 118 (x := main_v4) (y := main_v118) rfl (fun _ => by decide) (fun b => m (c, b))
  unfold R
  rw [e1, e2]
  exact row_spec _ 911 (by decide) (by decide) _ _

theorem row_114 : IsRows (wfd m c) 114 (R m c main_v1143 : S1x1024.Idx → EReal) := by
  have e1 := (Stretch.writesFrom (F := Ideal)).read_unary 1143 (x := main_v119) (y := main_v1143) rfl (fun _ => by decide) (fun b => m (c, b))
  have e2 := (Stretch.writesFrom (F := Ideal)).read_unary 119 (x := main_v4) (y := main_v119) rfl (fun _ => by decide) (fun b => m (c, b))
  unfold R
  rw [e1, e2]
  exact row_spec _ 910 (by decide) (by decide) _ _

theorem row_115 : IsRows (wfd m c) 115 (R m c main_v1144 : S1x1024.Idx → EReal) := by
  have e1 := (Stretch.writesFrom (F := Ideal)).read_unary 1144 (x := main_v120) (y := main_v1144) rfl (fun _ => by decide) (fun b => m (c, b))
  have e2 := (Stretch.writesFrom (F := Ideal)).read_unary 120 (x := main_v4) (y := main_v120) rfl (fun _ => by decide) (fun b => m (c, b))
  unfold R
  rw [e1, e2]
  exact row_spec _ 909 (by decide) (by decide) _ _

theorem row_116 : IsRows (wfd m c) 116 (R m c main_v1145 : S1x1024.Idx → EReal) := by
  have e1 := (Stretch.writesFrom (F := Ideal)).read_unary 1145 (x := main_v121) (y := main_v1145) rfl (fun _ => by decide) (fun b => m (c, b))
  have e2 := (Stretch.writesFrom (F := Ideal)).read_unary 121 (x := main_v4) (y := main_v121) rfl (fun _ => by decide) (fun b => m (c, b))
  unfold R
  rw [e1, e2]
  exact row_spec _ 908 (by decide) (by decide) _ _

theorem row_117 : IsRows (wfd m c) 117 (R m c main_v1146 : S1x1024.Idx → EReal) := by
  have e1 := (Stretch.writesFrom (F := Ideal)).read_unary 1146 (x := main_v122) (y := main_v1146) rfl (fun _ => by decide) (fun b => m (c, b))
  have e2 := (Stretch.writesFrom (F := Ideal)).read_unary 122 (x := main_v4) (y := main_v122) rfl (fun _ => by decide) (fun b => m (c, b))
  unfold R
  rw [e1, e2]
  exact row_spec _ 907 (by decide) (by decide) _ _

theorem row_118 : IsRows (wfd m c) 118 (R m c main_v1147 : S1x1024.Idx → EReal) := by
  have e1 := (Stretch.writesFrom (F := Ideal)).read_unary 1147 (x := main_v123) (y := main_v1147) rfl (fun _ => by decide) (fun b => m (c, b))
  have e2 := (Stretch.writesFrom (F := Ideal)).read_unary 123 (x := main_v4) (y := main_v123) rfl (fun _ => by decide) (fun b => m (c, b))
  unfold R
  rw [e1, e2]
  exact row_spec _ 906 (by decide) (by decide) _ _

theorem row_119 : IsRows (wfd m c) 119 (R m c main_v1148 : S1x1024.Idx → EReal) := by
  have e1 := (Stretch.writesFrom (F := Ideal)).read_unary 1148 (x := main_v124) (y := main_v1148) rfl (fun _ => by decide) (fun b => m (c, b))
  have e2 := (Stretch.writesFrom (F := Ideal)).read_unary 124 (x := main_v4) (y := main_v124) rfl (fun _ => by decide) (fun b => m (c, b))
  unfold R
  rw [e1, e2]
  exact row_spec _ 905 (by decide) (by decide) _ _

theorem row_120 : IsRows (wfd m c) 120 (R m c main_v1149 : S1x1024.Idx → EReal) := by
  have e1 := (Stretch.writesFrom (F := Ideal)).read_unary 1149 (x := main_v125) (y := main_v1149) rfl (fun _ => by decide) (fun b => m (c, b))
  have e2 := (Stretch.writesFrom (F := Ideal)).read_unary 125 (x := main_v4) (y := main_v125) rfl (fun _ => by decide) (fun b => m (c, b))
  unfold R
  rw [e1, e2]
  exact row_spec _ 904 (by decide) (by decide) _ _

theorem row_121 : IsRows (wfd m c) 121 (R m c main_v1150 : S1x1024.Idx → EReal) := by
  have e1 := (Stretch.writesFrom (F := Ideal)).read_unary 1150 (x := main_v126) (y := main_v1150) rfl (fun _ => by decide) (fun b => m (c, b))
  have e2 := (Stretch.writesFrom (F := Ideal)).read_unary 126 (x := main_v4) (y := main_v126) rfl (fun _ => by decide) (fun b => m (c, b))
  unfold R
  rw [e1, e2]
  exact row_spec _ 903 (by decide) (by decide) _ _

theorem row_122 : IsRows (wfd m c) 122 (R m c main_v1151 : S1x1024.Idx → EReal) := by
  have e1 := (Stretch.writesFrom (F := Ideal)).read_unary 1151 (x := main_v127) (y := main_v1151) rfl (fun _ => by decide) (fun b => m (c, b))
  have e2 := (Stretch.writesFrom (F := Ideal)).read_unary 127 (x := main_v4) (y := main_v127) rfl (fun _ => by decide) (fun b => m (c, b))
  unfold R
  rw [e1, e2]
  exact row_spec _ 902 (by decide) (by decide) _ _

theorem row_123 : IsRows (wfd m c) 123 (R m c main_v1152 : S1x1024.Idx → EReal) := by
  have e1 := (Stretch.writesFrom (F := Ideal)).read_unary 1152 (x := main_v128) (y := main_v1152) rfl (fun _ => by decide) (fun b => m (c, b))
  have e2 := (Stretch.writesFrom (F := Ideal)).read_unary 128 (x := main_v4) (y := main_v128) rfl (fun _ => by decide) (fun b => m (c, b))
  unfold R
  rw [e1, e2]
  exact row_spec _ 901 (by decide) (by decide) _ _

theorem row_124 : IsRows (wfd m c) 124 (R m c main_v1153 : S1x1024.Idx → EReal) := by
  have e1 := (Stretch.writesFrom (F := Ideal)).read_unary 1153 (x := main_v129) (y := main_v1153) rfl (fun _ => by decide) (fun b => m (c, b))
  have e2 := (Stretch.writesFrom (F := Ideal)).read_unary 129 (x := main_v4) (y := main_v129) rfl (fun _ => by decide) (fun b => m (c, b))
  unfold R
  rw [e1, e2]
  exact row_spec _ 900 (by decide) (by decide) _ _

theorem row_125 : IsRows (wfd m c) 125 (R m c main_v1154 : S1x1024.Idx → EReal) := by
  have e1 := (Stretch.writesFrom (F := Ideal)).read_unary 1154 (x := main_v130) (y := main_v1154) rfl (fun _ => by decide) (fun b => m (c, b))
  have e2 := (Stretch.writesFrom (F := Ideal)).read_unary 130 (x := main_v4) (y := main_v130) rfl (fun _ => by decide) (fun b => m (c, b))
  unfold R
  rw [e1, e2]
  exact row_spec _ 899 (by decide) (by decide) _ _

theorem row_126 : IsRows (wfd m c) 126 (R m c main_v1155 : S1x1024.Idx → EReal) := by
  have e1 := (Stretch.writesFrom (F := Ideal)).read_unary 1155 (x := main_v131) (y := main_v1155) rfl (fun _ => by decide) (fun b => m (c, b))
  have e2 := (Stretch.writesFrom (F := Ideal)).read_unary 131 (x := main_v4) (y := main_v131) rfl (fun _ => by decide) (fun b => m (c, b))
  unfold R
  rw [e1, e2]
  exact row_spec _ 898 (by decide) (by decide) _ _

theorem row_127 : IsRows (wfd m c) 127 (R m c main_v1156 : S1x1024.Idx → EReal) := by
  have e1 := (Stretch.writesFrom (F := Ideal)).read_unary 1156 (x := main_v132) (y := main_v1156) rfl (fun _ => by decide) (fun b => m (c, b))
  have e2 := (Stretch.writesFrom (F := Ideal)).read_unary 132 (x := main_v4) (y := main_v132) rfl (fun _ => by decide) (fun b => m (c, b))
  unfold R
  rw [e1, e2]
  exact row_spec _ 897 (by decide) (by decide) _ _

end Cert.KernelIdeal.Circ

end
-- ==== Proof.CircRows1.lean ====
/-
  Rows 128 to 255 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_128 : IsRows (wfd m c) 128 (R m c main_v1157 : S1x1024.Idx → EReal) := by
  have e1 := (Stretch.writesFrom (F := Ideal)).read_unary 1157 (x := main_v133) (y := main_v1157) rfl (fun _ => by decide) (fun b => m (c, b))
  have e2 := (Stretch.writesFrom (F := Ideal)).read_unary 133 (x := main_v4) (y := main_v133) rfl (fun _ => by decide) (fun b => m (c, b))
  unfold R
  rw [e1, e2]
  exact row_spec _ 896 (by decide) (by decide) _ _

theorem row_129 : IsRows (wfd m c) 129 (R m c main_v1158 : S1x1024.Idx → EReal) := by
  have e1 := (Stretch.writesFrom (F := Ideal)).read_unary 1158 (x := main_v134) (y := main_v1158) rfl (fun _ => by decide) (fun b => m (c, b))
  have e2 := (Stretch.writesFrom (F := Ideal)).read_unary 134 (x := main_v4) (y := main_v134) rfl (fun _ => by decide) (fun b => m (c, b))
  unfold R
  rw [e1, e2]
  exact row_spec _ 895 (by decide) (by decide) _ _

theorem row_130 : IsRows (wfd m c) 130 (R m c main_v1159 : S1x1024.Idx → EReal) := by
  have e1 := (Stretch.writesFrom (F := Ideal)).read_unary 1159 (x := main_v135) (y := main_v1159) rfl (fun _ => by decide) (fun b => m (c, b))
  have e2 := (Stretch.writesFrom (F := Ideal)).read_unary 135 (x := main_v4) (y := main_v135) rfl (fun _ => by decide) (fun b => m (c, b))
  unfold R
  rw [e1, e2]
  exact row_spec _ 894 (by decide) (by decide) _ _

theorem row_131 : IsRows (wfd m c) 131 (R m c main_v1160 : S1x1024.Idx → EReal) := by
  have e1 := (Stretch.writesFrom (F := Ideal)).read_unary 1160 (x := main_v136) (y := main_v1160) rfl (fun _ => by decide) (fun b => m (c, b))
  have e2 := (Stretch.writesFrom (F := Ideal)).read_unary 136 (x := main_v4) (y := main_v136) rfl (fun _ => by decide) (fun b => m (c, b))
  unfold R
  rw [e1, e2]
  exact row_spec _ 893 (by decide) (by decide) _ _

theorem row_132 : IsRows (wfd m c) 132 (R m c main_v1161 : S1x1024.Idx → EReal) := by
  have e1 := (Stretch.writesFrom (F := Ideal)).read_unary 1161 (x := main_v137) (y := main_v1161) rfl (fun _ => by decide) (fun b => m (c, b))
  have e2 := (Stretch.writesFrom (F := Ideal)).read_unary 137 (x := main_v4) (y := main_v137) rfl (fun _ => by decide) (fun b => m (c, b))
  unfold R
  rw [e1, e2]
  exact row_spec _ 892 (by decide) (by decide) _ _

theorem row_133 : IsRows (wfd m c) 133 (R m c main_v1162 : S1x1024.Idx → EReal) := by
  have e1 := (Stretch.writesFrom (F := Ideal)).read_unary 1162 (x := main_v138) (y := main_v1162) rfl (fun _ => by decide) (fun b => m (c, b))
  have e2 := (Stretch.writesFrom (F := Ideal)).read_unary 138 (x := main_v4) (y := main_v138) rfl (fun _ => by decide) (fun b => m (c, b))
  unfold R
  rw [e1, e2]
  exact row_spec _ 891 (by decide) (by decide) _ _

theorem row_134 : IsRows (wfd m c) 134 (R m c main_v1163 : S1x1024.Idx → EReal) := by
  have e1 := (Stretch.writesFrom (F := Ideal)).read_unary 1163 (x := main_v139) (y := main_v1163) rfl (fun _ => by decide) (fun b => m (c, b))
  have e2 := (Stretch.writesFrom (F := Ideal)).read_unary 139 (x := main_v4) (y := main_v139) rfl (fun _ => by decide) (fun b => m (c, b))
  unfold R
  rw [e1, e2]
  exact row_spec _ 890 (by decide) (by decide) _ _

theorem row_135 : IsRows (wfd m c) 135 (R m c main_v1164 : S1x1024.Idx → EReal) := by
  have e1 := (Stretch.writesFrom (F := Ideal)).read_unary 1164 (x := main_v140) (y := main_v1164) rfl (fun _ => by decide) (fun b => m (c, b))
  have e2 := (Stretch.writesFrom (F := Ideal)).read_unary 140 (x := main_v4) (y := main_v140) rfl (fun _ => by decide) (fun b => m (c, b))
  unfold R
  rw [e1, e2]
  exact row_spec _ 889 (by decide) (by decide) _ _

theorem row_136 : IsRows (wfd m c) 136 (R m c main_v1165 : S1x1024.Idx → EReal) := by
  have e1 := (Stretch.writesFrom (F := Ideal)).read_unary 1165 (x := main_v141) (y := main_v1165) rfl (fun _ => by decide) (fun b => m (c, b))
  have e2 := (Stretch.writesFrom (F := Ideal)).read_unary 141 (x := main_v4) (y := main_v141) rfl (fun _ => by decide) (fun b => m (c, b))
  unfold R
  rw [e1, e2]
  exact row_spec _ 888 (by decide) (by decide) _ _

theorem row_137 : IsRows (wfd m c) 137 (R m c main_v1166 : S1x1024.Idx → EReal) := by
  have e1 := (Stretch.writesFrom (F := Ideal)).read_unary 1166 (x := main_v142) (y := main_v1166) rfl (fun _ => by decide) (fun b => m (c, b))
  have e2 := (Stretch.writesFrom (F := Ideal)).read_unary 142 (x := main_v4) (y := main_v142) rfl (fun _ => by decide) (fun b => m (c, b))
  unfold R
  rw [e1, e2]
  exact row_spec _ 887 (by decide) (by decide) _ _

theorem row_138 : IsRows (wfd m c) 138 (R m c main_v1167 : S1x1024.Idx → EReal) := by
  have e1 := (Stretch.writesFrom (F := Ideal)).read_unary 1167 (x := main_v143) (y := main_v1167) rfl (fun _ => by decide) (fun b => m (c, b))
  have e2 := (Stretch.writesFrom (F := Ideal)).read_unary 143 (x := main_v4) (y := main_v143) rfl (fun _ => by decide) (fun b => m (c, b))
  unfold R
  rw [e1, e2]
  exact row_spec _ 886 (by decide) (by decide) _ _

theorem row_139 : IsRows (wfd m c) 139 (R m c main_v1168 : S1x1024.Idx → EReal) := by
  have e1 := (Stretch.writesFrom (F := Ideal)).read_unary 1168 (x := main_v144) (y := main_v1168) rfl (fun _ => by decide) (fun b => m (c, b))
  have e2 := (Stretch.writesFrom (F := Ideal)).read_unary 144 (x := main_v4) (y := main_v144) rfl (fun _ => by decide) (fun b => m (c, b))
  unfold R
  rw [e1, e2]
  exact row_spec _ 885 (by decide) (by decide) _ _

theorem row_140 : IsRows (wfd m c) 140 (R m c main_v1169 : S1x1024.Idx → EReal) := by
  have e1 := (Stretch.writesFrom (F := Ideal)).read_unary 1169 (x := main_v145) (y := main_v1169) rfl (fun _ => by decide) (fun b => m (c, b))
  have e2 := (Stretch.writesFrom (F := Ideal)).read_unary 145 (x := main_v4) (y := main_v145) rfl (fun _ => by decide) (fun b => m (c, b))
  unfold R
  rw [e1, e2]
  exact row_spec _ 884 (by decide) (by decide) _ _

theorem row_141 : IsRows (wfd m c) 141 (R m c main_v1170 : S1x1024.Idx → EReal) := by
  have e1 := (Stretch.writesFrom (F := Ideal)).read_unary 1170 (x := main_v146) (y := main_v1170) rfl (fun _ => by decide) (fun b => m (c, b))
  have e2 := (Stretch.writesFrom (F := Ideal)).read_unary 146 (x := main_v4) (y := main_v146) rfl (fun _ => by decide) (fun b => m (c, b))
  unfold R
  rw [e1, e2]
  exact row_spec _ 883 (by decide) (by decide) _ _

theorem row_142 : IsRows (wfd m c) 142 (R m c main_v1171 : S1x1024.Idx → EReal) := by
  have e1 := (Stretch.writesFrom (F := Ideal)).read_unary 1171 (x := main_v147) (y := main_v1171) rfl (fun _ => by decide) (fun b => m (c, b))
  have e2 := (Stretch.writesFrom (F := Ideal)).read_unary 147 (x := main_v4) (y := main_v147) rfl (fun _ => by decide) (fun b => m (c, b))
  unfold R
  rw [e1, e2]
  exact row_spec _ 882 (by decide) (by decide) _ _

theorem row_143 : IsRows (wfd m c) 143 (R m c main_v1172 : S1x1024.Idx → EReal) := by
  have e1 := (Stretch.writesFrom (F := Ideal)).read_unary 1172 (x := main_v148) (y := main_v1172) rfl (fun _ => by decide) (fun b => m (c, b))
  have e2 := (Stretch.writesFrom (F := Ideal)).read_unary 148 (x := main_v4) (y := main_v148) rfl (fun _ => by decide) (fun b => m (c, b))
  unfold R
  rw [e1, e2]
  exact row_spec _ 881 (by decide) (by decide) _ _

theorem row_144 : IsRows (wfd m c) 144 (R m c main_v1173 : S1x1024.Idx → EReal) := by
  have e1 := (Stretch.writesFrom (F := Ideal)).read_unary 1173 (x := main_v149) (y := main_v1173) rfl (fun _ => by decide) (fun b => m (c, b))
  have e2 := (Stretch.writesFrom (F := Ideal)).read_unary 149 (x := main_v4) (y := main_v149) rfl (fun _ => by decide) (fun b => m (c, b))
  unfold R
  rw [e1, e2]
  exact row_spec _ 880 (by decide) (by decide) _ _

theorem row_145 : IsRows (wfd m c) 145 (R m c main_v1174 : S1x1024.Idx → EReal) := by
  have e1 := (Stretch.writesFrom (F := Ideal)).read_unary 1174 (x := main_v150) (y := main_v1174) rfl (fun _ => by decide) (fun b => m (c, b))
  have e2 := (Stretch.writesFrom (F := Ideal)).read_unary 150 (x := main_v4) (y := main_v150) rfl (fun _ => by decide) (fun b => m (c, b))
  unfold R
  rw [e1, e2]
  exact row_spec _ 879 (by decide) (by decide) _ _

theorem row_146 : IsRows (wfd m c) 146 (R m c main_v1175 : S1x1024.Idx → EReal) := by
  have e1 := (Stretch.writesFrom (F := Ideal)).read_unary 1175 (x := main_v151) (y := main_v1175) rfl (fun _ => by decide) (fun b => m (c, b))
  have e2 := (Stretch.writesFrom (F := Ideal)).read_unary 151 (x := main_v4) (y := main_v151) rfl (fun _ => by decide) (fun b => m (c, b))
  unfold R
  rw [e1, e2]
  exact row_spec _ 878 (by decide) (by decide) _ _

theorem row_147 : IsRows (wfd m c) 147 (R m c main_v1176 : S1x1024.Idx → EReal) := by
  have e1 := (Stretch.writesFrom (F := Ideal)).read_unary 1176 (x := main_v152) (y := main_v1176) rfl (fun _ => by decide) (fun b => m (c, b))
  have e2 := (Stretch.writesFrom (F := Ideal)).read_unary 152 (x := main_v4) (y := main_v152) rfl (fun _ => by decide) (fun b => m (c, b))
  unfold R
  rw [e1, e2]
  exact row_spec _ 877 (by decide) (by decide) _ _

theorem row_148 : IsRows (wfd m c) 148 (R m c main_v1177 : S1x1024.Idx → EReal) := by
  have e1 := (Stretch.writesFrom (F := Ideal)).read_unary 1177 (x := main_v153) (y := main_v1177) rfl (fun _ => by decide) (fun b => m (c, b))
  have e2 := (Stretch.writesFrom (F := Ideal)).read_unary 153 (x := main_v4) (y := main_v153) rfl (fun _ => by decide) (fun b => m (c, b))
  unfold R
  rw [e1, e2]
  exact row_spec _ 876 (by decide) (by decide) _ _

theorem row_149 : IsRows (wfd m c) 149 (R m c main_v1178 : S1x1024.Idx → EReal) := by
  have e1 := (Stretch.writesFrom (F := Ideal)).read_unary 1178 (x := main_v154) (y := main_v1178) rfl (fun _ => by decide) (fun b => m (c, b))
  have e2 := (Stretch.writesFrom (F := Ideal)).read_unary 154 (x := main_v4) (y := main_v154) rfl (fun _ => by decide) (fun b => m (c, b))
  unfold R
  rw [e1, e2]
  exact row_spec _ 875 (by decide) (by decide) _ _

theorem row_150 : IsRows (wfd m c) 150 (R m c main_v1179 : S1x1024.Idx → EReal) := by
  have e1 := (Stretch.writesFrom (F := Ideal)).read_unary 1179 (x := main_v155) (y := main_v1179) rfl (fun _ => by decide) (fun b => m (c, b))
  have e2 := (Stretch.writesFrom (F := Ideal)).read_unary 155 (x := main_v4) (y := main_v155) rfl (fun _ => by decide) (fun b => m (c, b))
  unfold R
  rw [e1, e2]
  exact row_spec _ 874 (by decide) (by decide) _ _

theorem row_151 : IsRows (wfd m c) 151 (R m c main_v1180 : S1x1024.Idx → EReal) := by
  have e1 := (Stretch.writesFrom (F := Ideal)).read_unary 1180 (x := main_v156) (y := main_v1180) rfl (fun _ => by decide) (fun b => m (c, b))
  have e2 := (Stretch.writesFrom (F := Ideal)).read_unary 156 (x := main_v4) (y := main_v156) rfl (fun _ => by decide) (fun b => m (c, b))
  unfold R
  rw [e1, e2]
  exact row_spec _ 873 (by decide) (by decide) _ _

theorem row_152 : IsRows (wfd m c) 152 (R m c main_v1181 : S1x1024.Idx → EReal) := by
  have e1 := (Stretch.writesFrom (F := Ideal)).read_unary 1181 (x := main_v157) (y := main_v1181) rfl (fun _ => by decide) (fun b => m (c, b))
  have e2 := (Stretch.writesFrom (F := Ideal)).read_unary 157 (x := main_v4) (y := main_v157) rfl (fun _ => by decide) (fun b => m (c, b))
  unfold R
  rw [e1, e2]
  exact row_spec _ 872 (by decide) (by decide) _ _

theorem row_153 : IsRows (wfd m c) 153 (R m c main_v1182 : S1x1024.Idx → EReal) := by
  have e1 := (Stretch.writesFrom (F := Ideal)).read_unary 1182 (x := main_v158) (y := main_v1182) rfl (fun _ => by decide) (fun b => m (c, b))
  have e2 := (Stretch.writesFrom (F := Ideal)).read_unary 158 (x := main_v4) (y := main_v158) rfl (fun _ => by decide) (fun b => m (c, b))
  unfold R
  rw [e1, e2]
  exact row_spec _ 871 (by decide) (by decide) _ _

theorem row_154 : IsRows (wfd m c) 154 (R m c main_v1183 : S1x1024.Idx → EReal) := by
  have e1 := (Stretch.writesFrom (F := Ideal)).read_unary 1183 (x := main_v159) (y := main_v1183) rfl (fun _ => by decide) (fun b => m (c, b))
  have e2 := (Stretch.writesFrom (F := Ideal)).read_unary 159 (x := main_v4) (y := main_v159) rfl (fun _ => by decide) (fun b => m (c, b))
  unfold R
  rw [e1, e2]
  exact row_spec _ 870 (by decide) (by decide) _ _

theorem row_155 : IsRows (wfd m c) 155 (R m c main_v1184 : S1x1024.Idx → EReal) := by
  have e1 := (Stretch.writesFrom (F := Ideal)).read_unary 1184 (x := main_v160) (y := main_v1184) rfl (fun _ => by decide) (fun b => m (c, b))
  have e2 := (Stretch.writesFrom (F := Ideal)).read_unary 160 (x := main_v4) (y := main_v160) rfl (fun _ => by decide) (fun b => m (c, b))
  unfold R
  rw [e1, e2]
  exact row_spec _ 869 (by decide) (by decide) _ _

theorem row_156 : IsRows (wfd m c) 156 (R m c main_v1185 : S1x1024.Idx → EReal) := by
  have e1 := (Stretch.writesFrom (F := Ideal)).read_unary 1185 (x := main_v161) (y := main_v1185) rfl (fun _ => by decide) (fun b => m (c, b))
  have e2 := (Stretch.writesFrom (F := Ideal)).read_unary 161 (x := main_v4) (y := main_v161) rfl (fun _ => by decide) (fun b => m (c, b))
  unfold R
  rw [e1, e2]
  exact row_spec _ 868 (by decide) (by decide) _ _

theorem row_157 : IsRows (wfd m c) 157 (R m c main_v1186 : S1x1024.Idx → EReal) := by
  have e1 := (Stretch.writesFrom (F := Ideal)).read_unary 1186 (x := main_v162) (y := main_v1186) rfl (fun _ => by decide) (fun b => m (c, b))
  have e2 := (Stretch.writesFrom (F := Ideal)).read_unary 162 (x := main_v4) (y := main_v162) rfl (fun _ => by decide) (fun b => m (c, b))
  unfold R
  rw [e1, e2]
  exact row_spec _ 867 (by decide) (by decide) _ _

theorem row_158 : IsRows (wfd m c) 158 (R m c main_v1187 : S1x1024.Idx → EReal) := by
  have e1 := (Stretch.writesFrom (F := Ideal)).read_unary 1187 (x := main_v163) (y := main_v1187) rfl (fun _ => by decide) (fun b => m (c, b))
  have e2 := (Stretch.writesFrom (F := Ideal)).read_unary 163 (x := main_v4) (y := main_v163) rfl (fun _ => by decide) (fun b => m (c, b))
  unfold R
  rw [e1, e2]
  exact row_spec _ 866 (by decide) (by decide) _ _

theorem row_159 : IsRows (wfd m c) 159 (R m c main_v1188 : S1x1024.Idx → EReal) := by
  have e1 := (Stretch.writesFrom (F := Ideal)).read_unary 1188 (x := main_v164) (y := main_v1188) rfl (fun _ => by decide) (fun b => m (c, b))
  have e2 := (Stretch.writesFrom (F := Ideal)).read_unary 164 (x := main_v4) (y := main_v164) rfl (fun _ => by decide) (fun b => m (c, b))
  unfold R
  rw [e1, e2]
  exact row_spec _ 865 (by decide) (by decide) _ _

theorem row_160 : IsRows (wfd m c) 160 (R m c main_v1189 : S1x1024.Idx → EReal) := by
  have e1 := (Stretch.writesFrom (F := Ideal)).read_unary 1189 (x := main_v165) (y := main_v1189) rfl (fun _ => by decide) (fun b => m (c, b))
  have e2 := (Stretch.writesFrom (F := Ideal)).read_unary 165 (x := main_v4) (y := main_v165) rfl (fun _ => by decide) (fun b => m (c, b))
  unfold R
  rw [e1, e2]
  exact row_spec _ 864 (by decide) (by decide) _ _

theorem row_161 : IsRows (wfd m c) 161 (R m c main_v1190 : S1x1024.Idx → EReal) := by
  have e1 := (Stretch.writesFrom (F := Ideal)).read_unary 1190 (x := main_v166) (y := main_v1190) rfl (fun _ => by decide) (fun b => m (c, b))
  have e2 := (Stretch.writesFrom (F := Ideal)).read_unary 166 (x := main_v4) (y := main_v166) rfl (fun _ => by decide) (fun b => m (c, b))
  unfold R
  rw [e1, e2]
  exact row_spec _ 863 (by decide) (by decide) _ _

theorem row_162 : IsRows (wfd m c) 162 (R m c main_v1191 : S1x1024.Idx → EReal) := by
  have e1 := (Stretch.writesFrom (F := Ideal)).read_unary 1191 (x := main_v167) (y := main_v1191) rfl (fun _ => by decide) (fun b => m (c, b))
  have e2 := (Stretch.writesFrom (F := Ideal)).read_unary 167 (x := main_v4) (y := main_v167) rfl (fun _ => by decide) (fun b => m (c, b))
  unfold R
  rw [e1, e2]
  exact row_spec _ 862 (by decide) (by decide) _ _

theorem row_163 : IsRows (wfd m c) 163 (R m c main_v1192 : S1x1024.Idx → EReal) := by
  have e1 := (Stretch.writesFrom (F := Ideal)).read_unary 1192 (x := main_v168) (y := main_v1192) rfl (fun _ => by decide) (fun b => m (c, b))
  have e2 := (Stretch.writesFrom (F := Ideal)).read_unary 168 (x := main_v4) (y := main_v168) rfl (fun _ => by decide) (fun b => m (c, b))
  unfold R
  rw [e1, e2]
  exact row_spec _ 861 (by decide) (by decide) _ _

theorem row_164 : IsRows (wfd m c) 164 (R m c main_v1193 : S1x1024.Idx → EReal) := by
  have e1 := (Stretch.writesFrom (F := Ideal)).read_unary 1193 (x := main_v169) (y := main_v1193) rfl (fun _ => by decide) (fun b => m (c, b))
  have e2 := (Stretch.writesFrom (F := Ideal)).read_unary 169 (x := main_v4) (y := main_v169) rfl (fun _ => by decide) (fun b => m (c, b))
  unfold R
  rw [e1, e2]
  exact row_spec _ 860 (by decide) (by decide) _ _

theorem row_165 : IsRows (wfd m c) 165 (R m c main_v1194 : S1x1024.Idx → EReal) := by
  have e1 := (Stretch.writesFrom (F := Ideal)).read_unary 1194 (x := main_v170) (y := main_v1194) rfl (fun _ => by decide) (fun b => m (c, b))
  have e2 := (Stretch.writesFrom (F := Ideal)).read_unary 170 (x := main_v4) (y := main_v170) rfl (fun _ => by decide) (fun b => m (c, b))
  unfold R
  rw [e1, e2]
  exact row_spec _ 859 (by decide) (by decide) _ _

theorem row_166 : IsRows (wfd m c) 166 (R m c main_v1195 : S1x1024.Idx → EReal) := by
  have e1 := (Stretch.writesFrom (F := Ideal)).read_unary 1195 (x := main_v171) (y := main_v1195) rfl (fun _ => by decide) (fun b => m (c, b))
  have e2 := (Stretch.writesFrom (F := Ideal)).read_unary 171 (x := main_v4) (y := main_v171) rfl (fun _ => by decide) (fun b => m (c, b))
  unfold R
  rw [e1, e2]
  exact row_spec _ 858 (by decide) (by decide) _ _

theorem row_167 : IsRows (wfd m c) 167 (R m c main_v1196 : S1x1024.Idx → EReal) := by
  have e1 := (Stretch.writesFrom (F := Ideal)).read_unary 1196 (x := main_v172) (y := main_v1196) rfl (fun _ => by decide) (fun b => m (c, b))
  have e2 := (Stretch.writesFrom (F := Ideal)).read_unary 172 (x := main_v4) (y := main_v172) rfl (fun _ => by decide) (fun b => m (c, b))
  unfold R
  rw [e1, e2]
  exact row_spec _ 857 (by decide) (by decide) _ _

theorem row_168 : IsRows (wfd m c) 168 (R m c main_v1197 : S1x1024.Idx → EReal) := by
  have e1 := (Stretch.writesFrom (F := Ideal)).read_unary 1197 (x := main_v173) (y := main_v1197) rfl (fun _ => by decide) (fun b => m (c, b))
  have e2 := (Stretch.writesFrom (F := Ideal)).read_unary 173 (x := main_v4) (y := main_v173) rfl (fun _ => by decide) (fun b => m (c, b))
  unfold R
  rw [e1, e2]
  exact row_spec _ 856 (by decide) (by decide) _ _

theorem row_169 : IsRows (wfd m c) 169 (R m c main_v1198 : S1x1024.Idx → EReal) := by
  have e1 := (Stretch.writesFrom (F := Ideal)).read_unary 1198 (x := main_v174) (y := main_v1198) rfl (fun _ => by decide) (fun b => m (c, b))
  have e2 := (Stretch.writesFrom (F := Ideal)).read_unary 174 (x := main_v4) (y := main_v174) rfl (fun _ => by decide) (fun b => m (c, b))
  unfold R
  rw [e1, e2]
  exact row_spec _ 855 (by decide) (by decide) _ _

theorem row_170 : IsRows (wfd m c) 170 (R m c main_v1199 : S1x1024.Idx → EReal) := by
  have e1 := (Stretch.writesFrom (F := Ideal)).read_unary 1199 (x := main_v175) (y := main_v1199) rfl (fun _ => by decide) (fun b => m (c, b))
  have e2 := (Stretch.writesFrom (F := Ideal)).read_unary 175 (x := main_v4) (y := main_v175) rfl (fun _ => by decide) (fun b => m (c, b))
  unfold R
  rw [e1, e2]
  exact row_spec _ 854 (by decide) (by decide) _ _

theorem row_171 : IsRows (wfd m c) 171 (R m c main_v1200 : S1x1024.Idx → EReal) := by
  have e1 := (Stretch.writesFrom (F := Ideal)).read_unary 1200 (x := main_v176) (y := main_v1200) rfl (fun _ => by decide) (fun b => m (c, b))
  have e2 := (Stretch.writesFrom (F := Ideal)).read_unary 176 (x := main_v4) (y := main_v176) rfl (fun _ => by decide) (fun b => m (c, b))
  unfold R
  rw [e1, e2]
  exact row_spec _ 853 (by decide) (by decide) _ _

theorem row_172 : IsRows (wfd m c) 172 (R m c main_v1201 : S1x1024.Idx → EReal) := by
  have e1 := (Stretch.writesFrom (F := Ideal)).read_unary 1201 (x := main_v177) (y := main_v1201) rfl (fun _ => by decide) (fun b => m (c, b))
  have e2 := (Stretch.writesFrom (F := Ideal)).read_unary 177 (x := main_v4) (y := main_v177) rfl (fun _ => by decide) (fun b => m (c, b))
  unfold R
  rw [e1, e2]
  exact row_spec _ 852 (by decide) (by decide) _ _

theorem row_173 : IsRows (wfd m c) 173 (R m c main_v1202 : S1x1024.Idx → EReal) := by
  have e1 := (Stretch.writesFrom (F := Ideal)).read_unary 1202 (x := main_v178) (y := main_v1202) rfl (fun _ => by decide) (fun b => m (c, b))
  have e2 := (Stretch.writesFrom (F := Ideal)).read_unary 178 (x := main_v4) (y := main_v178) rfl (fun _ => by decide) (fun b => m (c, b))
  unfold R
  rw [e1, e2]
  exact row_spec _ 851 (by decide) (by decide) _ _

theorem row_174 : IsRows (wfd m c) 174 (R m c main_v1203 : S1x1024.Idx → EReal) := by
  have e1 := (Stretch.writesFrom (F := Ideal)).read_unary 1203 (x := main_v179) (y := main_v1203) rfl (fun _ => by decide) (fun b => m (c, b))
  have e2 := (Stretch.writesFrom (F := Ideal)).read_unary 179 (x := main_v4) (y := main_v179) rfl (fun _ => by decide) (fun b => m (c, b))
  unfold R
  rw [e1, e2]
  exact row_spec _ 850 (by decide) (by decide) _ _

theorem row_175 : IsRows (wfd m c) 175 (R m c main_v1204 : S1x1024.Idx → EReal) := by
  have e1 := (Stretch.writesFrom (F := Ideal)).read_unary 1204 (x := main_v180) (y := main_v1204) rfl (fun _ => by decide) (fun b => m (c, b))
  have e2 := (Stretch.writesFrom (F := Ideal)).read_unary 180 (x := main_v4) (y := main_v180) rfl (fun _ => by decide) (fun b => m (c, b))
  unfold R
  rw [e1, e2]
  exact row_spec _ 849 (by decide) (by decide) _ _

theorem row_176 : IsRows (wfd m c) 176 (R m c main_v1205 : S1x1024.Idx → EReal) := by
  have e1 := (Stretch.writesFrom (F := Ideal)).read_unary 1205 (x := main_v181) (y := main_v1205) rfl (fun _ => by decide) (fun b => m (c, b))
  have e2 := (Stretch.writesFrom (F := Ideal)).read_unary 181 (x := main_v4) (y := main_v181) rfl (fun _ => by decide) (fun b => m (c, b))
  unfold R
  rw [e1, e2]
  exact row_spec _ 848 (by decide) (by decide) _ _

theorem row_177 : IsRows (wfd m c) 177 (R m c main_v1206 : S1x1024.Idx → EReal) := by
  have e1 := (Stretch.writesFrom (F := Ideal)).read_unary 1206 (x := main_v182) (y := main_v1206) rfl (fun _ => by decide) (fun b => m (c, b))
  have e2 := (Stretch.writesFrom (F := Ideal)).read_unary 182 (x := main_v4) (y := main_v182) rfl (fun _ => by decide) (fun b => m (c, b))
  unfold R
  rw [e1, e2]
  exact row_spec _ 847 (by decide) (by decide) _ _

theorem row_178 : IsRows (wfd m c) 178 (R m c main_v1207 : S1x1024.Idx → EReal) := by
  have e1 := (Stretch.writesFrom (F := Ideal)).read_unary 1207 (x := main_v183) (y := main_v1207) rfl (fun _ => by decide) (fun b => m (c, b))
  have e2 := (Stretch.writesFrom (F := Ideal)).read_unary 183 (x := main_v4) (y := main_v183) rfl (fun _ => by decide) (fun b => m (c, b))
  unfold R
  rw [e1, e2]
  exact row_spec _ 846 (by decide) (by decide) _ _

theorem row_179 : IsRows (wfd m c) 179 (R m c main_v1208 : S1x1024.Idx → EReal) := by
  have e1 := (Stretch.writesFrom (F := Ideal)).read_unary 1208 (x := main_v184) (y := main_v1208) rfl (fun _ => by decide) (fun b => m (c, b))
  have e2 := (Stretch.writesFrom (F := Ideal)).read_unary 184 (x := main_v4) (y := main_v184) rfl (fun _ => by decide) (fun b => m (c, b))
  unfold R
  rw [e1, e2]
  exact row_spec _ 845 (by decide) (by decide) _ _

theorem row_180 : IsRows (wfd m c) 180 (R m c main_v1209 : S1x1024.Idx → EReal) := by
  have e1 := (Stretch.writesFrom (F := Ideal)).read_unary 1209 (x := main_v185) (y := main_v1209) rfl (fun _ => by decide) (fun b => m (c, b))
  have e2 := (Stretch.writesFrom (F := Ideal)).read_unary 185 (x := main_v4) (y := main_v185) rfl (fun _ => by decide) (fun b => m (c, b))
  unfold R
  rw [e1, e2]
  exact row_spec _ 844 (by decide) (by decide) _ _

theorem row_181 : IsRows (wfd m c) 181 (R m c main_v1210 : S1x1024.Idx → EReal) := by
  have e1 := (Stretch.writesFrom (F := Ideal)).read_unary 1210 (x := main_v186) (y := main_v1210) rfl (fun _ => by decide) (fun b => m (c, b))
  have e2 := (Stretch.writesFrom (F := Ideal)).read_unary 186 (x := main_v4) (y := main_v186) rfl (fun _ => by decide) (fun b => m (c, b))
  unfold R
  rw [e1, e2]
  exact row_spec _ 843 (by decide) (by decide) _ _

theorem row_182 : IsRows (wfd m c) 182 (R m c main_v1211 : S1x1024.Idx → EReal) := by
  have e1 := (Stretch.writesFrom (F := Ideal)).read_unary 1211 (x := main_v187) (y := main_v1211) rfl (fun _ => by decide) (fun b => m (c, b))
  have e2 := (Stretch.writesFrom (F := Ideal)).read_unary 187 (x := main_v4) (y := main_v187) rfl (fun _ => by decide) (fun b => m (c, b))
  unfold R
  rw [e1, e2]
  exact row_spec _ 842 (by decide) (by decide) _ _

theorem row_183 : IsRows (wfd m c) 183 (R m c main_v1212 : S1x1024.Idx → EReal) := by
  have e1 := (Stretch.writesFrom (F := Ideal)).read_unary 1212 (x := main_v188) (y := main_v1212) rfl (fun _ => by decide) (fun b => m (c, b))
  have e2 := (Stretch.writesFrom (F := Ideal)).read_unary 188 (x := main_v4) (y := main_v188) rfl (fun _ => by decide) (fun b => m (c, b))
  unfold R
  rw [e1, e2]
  exact row_spec _ 841 (by decide) (by decide) _ _

theorem row_184 : IsRows (wfd m c) 184 (R m c main_v1213 : S1x1024.Idx → EReal) := by
  have e1 := (Stretch.writesFrom (F := Ideal)).read_unary 1213 (x := main_v189) (y := main_v1213) rfl (fun _ => by decide) (fun b => m (c, b))
  have e2 := (Stretch.writesFrom (F := Ideal)).read_unary 189 (x := main_v4) (y := main_v189) rfl (fun _ => by decide) (fun b => m (c, b))
  unfold R
  rw [e1, e2]
  exact row_spec _ 840 (by decide) (by decide) _ _

theorem row_185 : IsRows (wfd m c) 185 (R m c main_v1214 : S1x1024.Idx → EReal) := by
  have e1 := (Stretch.writesFrom (F := Ideal)).read_unary 1214 (x := main_v190) (y := main_v1214) rfl (fun _ => by decide) (fun b => m (c, b))
  have e2 := (Stretch.writesFrom (F := Ideal)).read_unary 190 (x := main_v4) (y := main_v190) rfl (fun _ => by decide) (fun b => m (c, b))
  unfold R
  rw [e1, e2]
  exact row_spec _ 839 (by decide) (by decide) _ _

theorem row_186 : IsRows (wfd m c) 186 (R m c main_v1215 : S1x1024.Idx → EReal) := by
  have e1 := (Stretch.writesFrom (F := Ideal)).read_unary 1215 (x := main_v191) (y := main_v1215) rfl (fun _ => by decide) (fun b => m (c, b))
  have e2 := (Stretch.writesFrom (F := Ideal)).read_unary 191 (x := main_v4) (y := main_v191) rfl (fun _ => by decide) (fun b => m (c, b))
  unfold R
  rw [e1, e2]
  exact row_spec _ 838 (by decide) (by decide) _ _

theorem row_187 : IsRows (wfd m c) 187 (R m c main_v1216 : S1x1024.Idx → EReal) := by
  have e1 := (Stretch.writesFrom (F := Ideal)).read_unary 1216 (x := main_v192) (y := main_v1216) rfl (fun _ => by decide) (fun b => m (c, b))
  have e2 := (Stretch.writesFrom (F := Ideal)).read_unary 192 (x := main_v4) (y := main_v192) rfl (fun _ => by decide) (fun b => m (c, b))
  unfold R
  rw [e1, e2]
  exact row_spec _ 837 (by decide) (by decide) _ _

theorem row_188 : IsRows (wfd m c) 188 (R m c main_v1217 : S1x1024.Idx → EReal) := by
  have e1 := (Stretch.writesFrom (F := Ideal)).read_unary 1217 (x := main_v193) (y := main_v1217) rfl (fun _ => by decide) (fun b => m (c, b))
  have e2 := (Stretch.writesFrom (F := Ideal)).read_unary 193 (x := main_v4) (y := main_v193) rfl (fun _ => by decide) (fun b => m (c, b))
  unfold R
  rw [e1, e2]
  exact row_spec _ 836 (by decide) (by decide) _ _

theorem row_189 : IsRows (wfd m c) 189 (R m c main_v1218 : S1x1024.Idx → EReal) := by
  have e1 := (Stretch.writesFrom (F := Ideal)).read_unary 1218 (x := main_v194) (y := main_v1218) rfl (fun _ => by decide) (fun b => m (c, b))
  have e2 := (Stretch.writesFrom (F := Ideal)).read_unary 194 (x := main_v4) (y := main_v194) rfl (fun _ => by decide) (fun b => m (c, b))
  unfold R
  rw [e1, e2]
  exact row_spec _ 835 (by decide) (by decide) _ _

theorem row_190 : IsRows (wfd m c) 190 (R m c main_v1219 : S1x1024.Idx → EReal) := by
  have e1 := (Stretch.writesFrom (F := Ideal)).read_unary 1219 (x := main_v195) (y := main_v1219) rfl (fun _ => by decide) (fun b => m (c, b))
  have e2 := (Stretch.writesFrom (F := Ideal)).read_unary 195 (x := main_v4) (y := main_v195) rfl (fun _ => by decide) (fun b => m (c, b))
  unfold R
  rw [e1, e2]
  exact row_spec _ 834 (by decide) (by decide) _ _

theorem row_191 : IsRows (wfd m c) 191 (R m c main_v1220 : S1x1024.Idx → EReal) := by
  have e1 := (Stretch.writesFrom (F := Ideal)).read_unary 1220 (x := main_v196) (y := main_v1220) rfl (fun _ => by decide) (fun b => m (c, b))
  have e2 := (Stretch.writesFrom (F := Ideal)).read_unary 196 (x := main_v4) (y := main_v196) rfl (fun _ => by decide) (fun b => m (c, b))
  unfold R
  rw [e1, e2]
  exact row_spec _ 833 (by decide) (by decide) _ _

theorem row_192 : IsRows (wfd m c) 192 (R m c main_v1221 : S1x1024.Idx → EReal) := by
  have e1 := (Stretch.writesFrom (F := Ideal)).read_unary 1221 (x := main_v197) (y := main_v1221) rfl (fun _ => by decide) (fun b => m (c, b))
  have e2 := (Stretch.writesFrom (F := Ideal)).read_unary 197 (x := main_v4) (y := main_v197) rfl (fun _ => by decide) (fun b => m (c, b))
  unfold R
  rw [e1, e2]
  exact row_spec _ 832 (by decide) (by decide) _ _

theorem row_193 : IsRows (wfd m c) 193 (R m c main_v1222 : S1x1024.Idx → EReal) := by
  have e1 := (Stretch.writesFrom (F := Ideal)).read_unary 1222 (x := main_v198) (y := main_v1222) rfl (fun _ => by decide) (fun b => m (c, b))
  have e2 := (Stretch.writesFrom (F := Ideal)).read_unary 198 (x := main_v4) (y := main_v198) rfl (fun _ => by decide) (fun b => m (c, b))
  unfold R
  rw [e1, e2]
  exact row_spec _ 831 (by decide) (by decide) _ _

theorem row_194 : IsRows (wfd m c) 194 (R m c main_v1223 : S1x1024.Idx → EReal) := by
  have e1 := (Stretch.writesFrom (F := Ideal)).read_unary 1223 (x := main_v199) (y := main_v1223) rfl (fun _ => by decide) (fun b => m (c, b))
  have e2 := (Stretch.writesFrom (F := Ideal)).read_unary 199 (x := main_v4) (y := main_v199) rfl (fun _ => by decide) (fun b => m (c, b))
  unfold R
  rw [e1, e2]
  exact row_spec _ 830 (by decide) (by decide) _ _

theorem row_195 : IsRows (wfd m c) 195 (R m c main_v1224 : S1x1024.Idx → EReal) := by
  have e1 := (Stretch.writesFrom (F := Ideal)).read_unary 1224 (x := main_v200) (y := main_v1224) rfl (fun _ => by decide) (fun b => m (c, b))
  have e2 := (Stretch.writesFrom (F := Ideal)).read_unary 200 (x := main_v4) (y := main_v200) rfl (fun _ => by decide) (fun b => m (c, b))
  unfold R
  rw [e1, e2]
  exact row_spec _ 829 (by decide) (by decide) _ _

theorem row_196 : IsRows (wfd m c) 196 (R m c main_v1225 : S1x1024.Idx → EReal) := by
  have e1 := (Stretch.writesFrom (F := Ideal)).read_unary 1225 (x := main_v201) (y := main_v1225) rfl (fun _ => by decide) (fun b => m (c, b))
  have e2 := (Stretch.writesFrom (F := Ideal)).read_unary 201 (x := main_v4) (y := main_v201) rfl (fun _ => by decide) (fun b => m (c, b))
  unfold R
  rw [e1, e2]
  exact row_spec _ 828 (by decide) (by decide) _ _

theorem row_197 : IsRows (wfd m c) 197 (R m c main_v1226 : S1x1024.Idx → EReal) := by
  have e1 := (Stretch.writesFrom (F := Ideal)).read_unary 1226 (x := main_v202) (y := main_v1226) rfl (fun _ => by decide) (fun b => m (c, b))
  have e2 := (Stretch.writesFrom (F := Ideal)).read_unary 202 (x := main_v4) (y := main_v202) rfl (fun _ => by decide) (fun b => m (c, b))
  unfold R
  rw [e1, e2]
  exact row_spec _ 827 (by decide) (by decide) _ _

theorem row_198 : IsRows (wfd m c) 198 (R m c main_v1227 : S1x1024.Idx → EReal) := by
  have e1 := (Stretch.writesFrom (F := Ideal)).read_unary 1227 (x := main_v203) (y := main_v1227) rfl (fun _ => by decide) (fun b => m (c, b))
  have e2 := (Stretch.writesFrom (F := Ideal)).read_unary 203 (x := main_v4) (y := main_v203) rfl (fun _ => by decide) (fun b => m (c, b))
  unfold R
  rw [e1, e2]
  exact row_spec _ 826 (by decide) (by decide) _ _

theorem row_199 : IsRows (wfd m c) 199 (R m c main_v1228 : S1x1024.Idx → EReal) := by
  have e1 := (Stretch.writesFrom (F := Ideal)).read_unary 1228 (x := main_v204) (y := main_v1228) rfl (fun _ => by decide) (fun b => m (c, b))
  have e2 := (Stretch.writesFrom (F := Ideal)).read_unary 204 (x := main_v4) (y := main_v204) rfl (fun _ => by decide) (fun b => m (c, b))
  unfold R
  rw [e1, e2]
  exact row_spec _ 825 (by decide) (by decide) _ _

theorem row_200 : IsRows (wfd m c) 200 (R m c main_v1229 : S1x1024.Idx → EReal) := by
  have e1 := (Stretch.writesFrom (F := Ideal)).read_unary 1229 (x := main_v205) (y := main_v1229) rfl (fun _ => by decide) (fun b => m (c, b))
  have e2 := (Stretch.writesFrom (F := Ideal)).read_unary 205 (x := main_v4) (y := main_v205) rfl (fun _ => by decide) (fun b => m (c, b))
  unfold R
  rw [e1, e2]
  exact row_spec _ 824 (by decide) (by decide) _ _

theorem row_201 : IsRows (wfd m c) 201 (R m c main_v1230 : S1x1024.Idx → EReal) := by
  have e1 := (Stretch.writesFrom (F := Ideal)).read_unary 1230 (x := main_v206) (y := main_v1230) rfl (fun _ => by decide) (fun b => m (c, b))
  have e2 := (Stretch.writesFrom (F := Ideal)).read_unary 206 (x := main_v4) (y := main_v206) rfl (fun _ => by decide) (fun b => m (c, b))
  unfold R
  rw [e1, e2]
  exact row_spec _ 823 (by decide) (by decide) _ _

theorem row_202 : IsRows (wfd m c) 202 (R m c main_v1231 : S1x1024.Idx → EReal) := by
  have e1 := (Stretch.writesFrom (F := Ideal)).read_unary 1231 (x := main_v207) (y := main_v1231) rfl (fun _ => by decide) (fun b => m (c, b))
  have e2 := (Stretch.writesFrom (F := Ideal)).read_unary 207 (x := main_v4) (y := main_v207) rfl (fun _ => by decide) (fun b => m (c, b))
  unfold R
  rw [e1, e2]
  exact row_spec _ 822 (by decide) (by decide) _ _

theorem row_203 : IsRows (wfd m c) 203 (R m c main_v1232 : S1x1024.Idx → EReal) := by
  have e1 := (Stretch.writesFrom (F := Ideal)).read_unary 1232 (x := main_v208) (y := main_v1232) rfl (fun _ => by decide) (fun b => m (c, b))
  have e2 := (Stretch.writesFrom (F := Ideal)).read_unary 208 (x := main_v4) (y := main_v208) rfl (fun _ => by decide) (fun b => m (c, b))
  unfold R
  rw [e1, e2]
  exact row_spec _ 821 (by decide) (by decide) _ _

theorem row_204 : IsRows (wfd m c) 204 (R m c main_v1233 : S1x1024.Idx → EReal) := by
  have e1 := (Stretch.writesFrom (F := Ideal)).read_unary 1233 (x := main_v209) (y := main_v1233) rfl (fun _ => by decide) (fun b => m (c, b))
  have e2 := (Stretch.writesFrom (F := Ideal)).read_unary 209 (x := main_v4) (y := main_v209) rfl (fun _ => by decide) (fun b => m (c, b))
  unfold R
  rw [e1, e2]
  exact row_spec _ 820 (by decide) (by decide) _ _

theorem row_205 : IsRows (wfd m c) 205 (R m c main_v1234 : S1x1024.Idx → EReal) := by
  have e1 := (Stretch.writesFrom (F := Ideal)).read_unary 1234 (x := main_v210) (y := main_v1234) rfl (fun _ => by decide) (fun b => m (c, b))
  have e2 := (Stretch.writesFrom (F := Ideal)).read_unary 210 (x := main_v4) (y := main_v210) rfl (fun _ => by decide) (fun b => m (c, b))
  unfold R
  rw [e1, e2]
  exact row_spec _ 819 (by decide) (by decide) _ _

theorem row_206 : IsRows (wfd m c) 206 (R m c main_v1235 : S1x1024.Idx → EReal) := by
  have e1 := (Stretch.writesFrom (F := Ideal)).read_unary 1235 (x := main_v211) (y := main_v1235) rfl (fun _ => by decide) (fun b => m (c, b))
  have e2 := (Stretch.writesFrom (F := Ideal)).read_unary 211 (x := main_v4) (y := main_v211) rfl (fun _ => by decide) (fun b => m (c, b))
  unfold R
  rw [e1, e2]
  exact row_spec _ 818 (by decide) (by decide) _ _

theorem row_207 : IsRows (wfd m c) 207 (R m c main_v1236 : S1x1024.Idx → EReal) := by
  have e1 := (Stretch.writesFrom (F := Ideal)).read_unary 1236 (x := main_v212) (y := main_v1236) rfl (fun _ => by decide) (fun b => m (c, b))
  have e2 := (Stretch.writesFrom (F := Ideal)).read_unary 212 (x := main_v4) (y := main_v212) rfl (fun _ => by decide) (fun b => m (c, b))
  unfold R
  rw [e1, e2]
  exact row_spec _ 817 (by decide) (by decide) _ _

theorem row_208 : IsRows (wfd m c) 208 (R m c main_v1237 : S1x1024.Idx → EReal) := by
  have e1 := (Stretch.writesFrom (F := Ideal)).read_unary 1237 (x := main_v213) (y := main_v1237) rfl (fun _ => by decide) (fun b => m (c, b))
  have e2 := (Stretch.writesFrom (F := Ideal)).read_unary 213 (x := main_v4) (y := main_v213) rfl (fun _ => by decide) (fun b => m (c, b))
  unfold R
  rw [e1, e2]
  exact row_spec _ 816 (by decide) (by decide) _ _

theorem row_209 : IsRows (wfd m c) 209 (R m c main_v1238 : S1x1024.Idx → EReal) := by
  have e1 := (Stretch.writesFrom (F := Ideal)).read_unary 1238 (x := main_v214) (y := main_v1238) rfl (fun _ => by decide) (fun b => m (c, b))
  have e2 := (Stretch.writesFrom (F := Ideal)).read_unary 214 (x := main_v4) (y := main_v214) rfl (fun _ => by decide) (fun b => m (c, b))
  unfold R
  rw [e1, e2]
  exact row_spec _ 815 (by decide) (by decide) _ _

theorem row_210 : IsRows (wfd m c) 210 (R m c main_v1239 : S1x1024.Idx → EReal) := by
  have e1 := (Stretch.writesFrom (F := Ideal)).read_unary 1239 (x := main_v215) (y := main_v1239) rfl (fun _ => by decide) (fun b => m (c, b))
  have e2 := (Stretch.writesFrom (F := Ideal)).read_unary 215 (x := main_v4) (y := main_v215) rfl (fun _ => by decide) (fun b => m (c, b))
  unfold R
  rw [e1, e2]
  exact row_spec _ 814 (by decide) (by decide) _ _

theorem row_211 : IsRows (wfd m c) 211 (R m c main_v1240 : S1x1024.Idx → EReal) := by
  have e1 := (Stretch.writesFrom (F := Ideal)).read_unary 1240 (x := main_v216) (y := main_v1240) rfl (fun _ => by decide) (fun b => m (c, b))
  have e2 := (Stretch.writesFrom (F := Ideal)).read_unary 216 (x := main_v4) (y := main_v216) rfl (fun _ => by decide) (fun b => m (c, b))
  unfold R
  rw [e1, e2]
  exact row_spec _ 813 (by decide) (by decide) _ _

theorem row_212 : IsRows (wfd m c) 212 (R m c main_v1241 : S1x1024.Idx → EReal) := by
  have e1 := (Stretch.writesFrom (F := Ideal)).read_unary 1241 (x := main_v217) (y := main_v1241) rfl (fun _ => by decide) (fun b => m (c, b))
  have e2 := (Stretch.writesFrom (F := Ideal)).read_unary 217 (x := main_v4) (y := main_v217) rfl (fun _ => by decide) (fun b => m (c, b))
  unfold R
  rw [e1, e2]
  exact row_spec _ 812 (by decide) (by decide) _ _

theorem row_213 : IsRows (wfd m c) 213 (R m c main_v1242 : S1x1024.Idx → EReal) := by
  have e1 := (Stretch.writesFrom (F := Ideal)).read_unary 1242 (x := main_v218) (y := main_v1242) rfl (fun _ => by decide) (fun b => m (c, b))
  have e2 := (Stretch.writesFrom (F := Ideal)).read_unary 218 (x := main_v4) (y := main_v218) rfl (fun _ => by decide) (fun b => m (c, b))
  unfold R
  rw [e1, e2]
  exact row_spec _ 811 (by decide) (by decide) _ _

theorem row_214 : IsRows (wfd m c) 214 (R m c main_v1243 : S1x1024.Idx → EReal) := by
  have e1 := (Stretch.writesFrom (F := Ideal)).read_unary 1243 (x := main_v219) (y := main_v1243) rfl (fun _ => by decide) (fun b => m (c, b))
  have e2 := (Stretch.writesFrom (F := Ideal)).read_unary 219 (x := main_v4) (y := main_v219) rfl (fun _ => by decide) (fun b => m (c, b))
  unfold R
  rw [e1, e2]
  exact row_spec _ 810 (by decide) (by decide) _ _

theorem row_215 : IsRows (wfd m c) 215 (R m c main_v1244 : S1x1024.Idx → EReal) := by
  have e1 := (Stretch.writesFrom (F := Ideal)).read_unary 1244 (x := main_v220) (y := main_v1244) rfl (fun _ => by decide) (fun b => m (c, b))
  have e2 := (Stretch.writesFrom (F := Ideal)).read_unary 220 (x := main_v4) (y := main_v220) rfl (fun _ => by decide) (fun b => m (c, b))
  unfold R
  rw [e1, e2]
  exact row_spec _ 809 (by decide) (by decide) _ _

theorem row_216 : IsRows (wfd m c) 216 (R m c main_v1245 : S1x1024.Idx → EReal) := by
  have e1 := (Stretch.writesFrom (F := Ideal)).read_unary 1245 (x := main_v221) (y := main_v1245) rfl (fun _ => by decide) (fun b => m (c, b))
  have e2 := (Stretch.writesFrom (F := Ideal)).read_unary 221 (x := main_v4) (y := main_v221) rfl (fun _ => by decide) (fun b => m (c, b))
  unfold R
  rw [e1, e2]
  exact row_spec _ 808 (by decide) (by decide) _ _

theorem row_217 : IsRows (wfd m c) 217 (R m c main_v1246 : S1x1024.Idx → EReal) := by
  have e1 := (Stretch.writesFrom (F := Ideal)).read_unary 1246 (x := main_v222) (y := main_v1246) rfl (fun _ => by decide) (fun b => m (c, b))
  have e2 := (Stretch.writesFrom (F := Ideal)).read_unary 222 (x := main_v4) (y := main_v222) rfl (fun _ => by decide) (fun b => m (c, b))
  unfold R
  rw [e1, e2]
  exact row_spec _ 807 (by decide) (by decide) _ _

theorem row_218 : IsRows (wfd m c) 218 (R m c main_v1247 : S1x1024.Idx → EReal) := by
  have e1 := (Stretch.writesFrom (F := Ideal)).read_unary 1247 (x := main_v223) (y := main_v1247) rfl (fun _ => by decide) (fun b => m (c, b))
  have e2 := (Stretch.writesFrom (F := Ideal)).read_unary 223 (x := main_v4) (y := main_v223) rfl (fun _ => by decide) (fun b => m (c, b))
  unfold R
  rw [e1, e2]
  exact row_spec _ 806 (by decide) (by decide) _ _

theorem row_219 : IsRows (wfd m c) 219 (R m c main_v1248 : S1x1024.Idx → EReal) := by
  have e1 := (Stretch.writesFrom (F := Ideal)).read_unary 1248 (x := main_v224) (y := main_v1248) rfl (fun _ => by decide) (fun b => m (c, b))
  have e2 := (Stretch.writesFrom (F := Ideal)).read_unary 224 (x := main_v4) (y := main_v224) rfl (fun _ => by decide) (fun b => m (c, b))
  unfold R
  rw [e1, e2]
  exact row_spec _ 805 (by decide) (by decide) _ _

theorem row_220 : IsRows (wfd m c) 220 (R m c main_v1249 : S1x1024.Idx → EReal) := by
  have e1 := (Stretch.writesFrom (F := Ideal)).read_unary 1249 (x := main_v225) (y := main_v1249) rfl (fun _ => by decide) (fun b => m (c, b))
  have e2 := (Stretch.writesFrom (F := Ideal)).read_unary 225 (x := main_v4) (y := main_v225) rfl (fun _ => by decide) (fun b => m (c, b))
  unfold R
  rw [e1, e2]
  exact row_spec _ 804 (by decide) (by decide) _ _

theorem row_221 : IsRows (wfd m c) 221 (R m c main_v1250 : S1x1024.Idx → EReal) := by
  have e1 := (Stretch.writesFrom (F := Ideal)).read_unary 1250 (x := main_v226) (y := main_v1250) rfl (fun _ => by decide) (fun b => m (c, b))
  have e2 := (Stretch.writesFrom (F := Ideal)).read_unary 226 (x := main_v4) (y := main_v226) rfl (fun _ => by decide) (fun b => m (c, b))
  unfold R
  rw [e1, e2]
  exact row_spec _ 803 (by decide) (by decide) _ _

theorem row_222 : IsRows (wfd m c) 222 (R m c main_v1251 : S1x1024.Idx → EReal) := by
  have e1 := (Stretch.writesFrom (F := Ideal)).read_unary 1251 (x := main_v227) (y := main_v1251) rfl (fun _ => by decide) (fun b => m (c, b))
  have e2 := (Stretch.writesFrom (F := Ideal)).read_unary 227 (x := main_v4) (y := main_v227) rfl (fun _ => by decide) (fun b => m (c, b))
  unfold R
  rw [e1, e2]
  exact row_spec _ 802 (by decide) (by decide) _ _

theorem row_223 : IsRows (wfd m c) 223 (R m c main_v1252 : S1x1024.Idx → EReal) := by
  have e1 := (Stretch.writesFrom (F := Ideal)).read_unary 1252 (x := main_v228) (y := main_v1252) rfl (fun _ => by decide) (fun b => m (c, b))
  have e2 := (Stretch.writesFrom (F := Ideal)).read_unary 228 (x := main_v4) (y := main_v228) rfl (fun _ => by decide) (fun b => m (c, b))
  unfold R
  rw [e1, e2]
  exact row_spec _ 801 (by decide) (by decide) _ _

theorem row_224 : IsRows (wfd m c) 224 (R m c main_v1253 : S1x1024.Idx → EReal) := by
  have e1 := (Stretch.writesFrom (F := Ideal)).read_unary 1253 (x := main_v229) (y := main_v1253) rfl (fun _ => by decide) (fun b => m (c, b))
  have e2 := (Stretch.writesFrom (F := Ideal)).read_unary 229 (x := main_v4) (y := main_v229) rfl (fun _ => by decide) (fun b => m (c, b))
  unfold R
  rw [e1, e2]
  exact row_spec _ 800 (by decide) (by decide) _ _

theorem row_225 : IsRows (wfd m c) 225 (R m c main_v1254 : S1x1024.Idx → EReal) := by
  have e1 := (Stretch.writesFrom (F := Ideal)).read_unary 1254 (x := main_v230) (y := main_v1254) rfl (fun _ => by decide) (fun b => m (c, b))
  have e2 := (Stretch.writesFrom (F := Ideal)).read_unary 230 (x := main_v4) (y := main_v230) rfl (fun _ => by decide) (fun b => m (c, b))
  unfold R
  rw [e1, e2]
  exact row_spec _ 799 (by decide) (by decide) _ _

theorem row_226 : IsRows (wfd m c) 226 (R m c main_v1255 : S1x1024.Idx → EReal) := by
  have e1 := (Stretch.writesFrom (F := Ideal)).read_unary 1255 (x := main_v231) (y := main_v1255) rfl (fun _ => by decide) (fun b => m (c, b))
  have e2 := (Stretch.writesFrom (F := Ideal)).read_unary 231 (x := main_v4) (y := main_v231) rfl (fun _ => by decide) (fun b => m (c, b))
  unfold R
  rw [e1, e2]
  exact row_spec _ 798 (by decide) (by decide) _ _

theorem row_227 : IsRows (wfd m c) 227 (R m c main_v1256 : S1x1024.Idx → EReal) := by
  have e1 := (Stretch.writesFrom (F := Ideal)).read_unary 1256 (x := main_v232) (y := main_v1256) rfl (fun _ => by decide) (fun b => m (c, b))
  have e2 := (Stretch.writesFrom (F := Ideal)).read_unary 232 (x := main_v4) (y := main_v232) rfl (fun _ => by decide) (fun b => m (c, b))
  unfold R
  rw [e1, e2]
  exact row_spec _ 797 (by decide) (by decide) _ _

theorem row_228 : IsRows (wfd m c) 228 (R m c main_v1257 : S1x1024.Idx → EReal) := by
  have e1 := (Stretch.writesFrom (F := Ideal)).read_unary 1257 (x := main_v233) (y := main_v1257) rfl (fun _ => by decide) (fun b => m (c, b))
  have e2 := (Stretch.writesFrom (F := Ideal)).read_unary 233 (x := main_v4) (y := main_v233) rfl (fun _ => by decide) (fun b => m (c, b))
  unfold R
  rw [e1, e2]
  exact row_spec _ 796 (by decide) (by decide) _ _

theorem row_229 : IsRows (wfd m c) 229 (R m c main_v1258 : S1x1024.Idx → EReal) := by
  have e1 := (Stretch.writesFrom (F := Ideal)).read_unary 1258 (x := main_v234) (y := main_v1258) rfl (fun _ => by decide) (fun b => m (c, b))
  have e2 := (Stretch.writesFrom (F := Ideal)).read_unary 234 (x := main_v4) (y := main_v234) rfl (fun _ => by decide) (fun b => m (c, b))
  unfold R
  rw [e1, e2]
  exact row_spec _ 795 (by decide) (by decide) _ _

theorem row_230 : IsRows (wfd m c) 230 (R m c main_v1259 : S1x1024.Idx → EReal) := by
  have e1 := (Stretch.writesFrom (F := Ideal)).read_unary 1259 (x := main_v235) (y := main_v1259) rfl (fun _ => by decide) (fun b => m (c, b))
  have e2 := (Stretch.writesFrom (F := Ideal)).read_unary 235 (x := main_v4) (y := main_v235) rfl (fun _ => by decide) (fun b => m (c, b))
  unfold R
  rw [e1, e2]
  exact row_spec _ 794 (by decide) (by decide) _ _

theorem row_231 : IsRows (wfd m c) 231 (R m c main_v1260 : S1x1024.Idx → EReal) := by
  have e1 := (Stretch.writesFrom (F := Ideal)).read_unary 1260 (x := main_v236) (y := main_v1260) rfl (fun _ => by decide) (fun b => m (c, b))
  have e2 := (Stretch.writesFrom (F := Ideal)).read_unary 236 (x := main_v4) (y := main_v236) rfl (fun _ => by decide) (fun b => m (c, b))
  unfold R
  rw [e1, e2]
  exact row_spec _ 793 (by decide) (by decide) _ _

theorem row_232 : IsRows (wfd m c) 232 (R m c main_v1261 : S1x1024.Idx → EReal) := by
  have e1 := (Stretch.writesFrom (F := Ideal)).read_unary 1261 (x := main_v237) (y := main_v1261) rfl (fun _ => by decide) (fun b => m (c, b))
  have e2 := (Stretch.writesFrom (F := Ideal)).read_unary 237 (x := main_v4) (y := main_v237) rfl (fun _ => by decide) (fun b => m (c, b))
  unfold R
  rw [e1, e2]
  exact row_spec _ 792 (by decide) (by decide) _ _

theorem row_233 : IsRows (wfd m c) 233 (R m c main_v1262 : S1x1024.Idx → EReal) := by
  have e1 := (Stretch.writesFrom (F := Ideal)).read_unary 1262 (x := main_v238) (y := main_v1262) rfl (fun _ => by decide) (fun b => m (c, b))
  have e2 := (Stretch.writesFrom (F := Ideal)).read_unary 238 (x := main_v4) (y := main_v238) rfl (fun _ => by decide) (fun b => m (c, b))
  unfold R
  rw [e1, e2]
  exact row_spec _ 791 (by decide) (by decide) _ _

theorem row_234 : IsRows (wfd m c) 234 (R m c main_v1263 : S1x1024.Idx → EReal) := by
  have e1 := (Stretch.writesFrom (F := Ideal)).read_unary 1263 (x := main_v239) (y := main_v1263) rfl (fun _ => by decide) (fun b => m (c, b))
  have e2 := (Stretch.writesFrom (F := Ideal)).read_unary 239 (x := main_v4) (y := main_v239) rfl (fun _ => by decide) (fun b => m (c, b))
  unfold R
  rw [e1, e2]
  exact row_spec _ 790 (by decide) (by decide) _ _

theorem row_235 : IsRows (wfd m c) 235 (R m c main_v1264 : S1x1024.Idx → EReal) := by
  have e1 := (Stretch.writesFrom (F := Ideal)).read_unary 1264 (x := main_v240) (y := main_v1264) rfl (fun _ => by decide) (fun b => m (c, b))
  have e2 := (Stretch.writesFrom (F := Ideal)).read_unary 240 (x := main_v4) (y := main_v240) rfl (fun _ => by decide) (fun b => m (c, b))
  unfold R
  rw [e1, e2]
  exact row_spec _ 789 (by decide) (by decide) _ _

theorem row_236 : IsRows (wfd m c) 236 (R m c main_v1265 : S1x1024.Idx → EReal) := by
  have e1 := (Stretch.writesFrom (F := Ideal)).read_unary 1265 (x := main_v241) (y := main_v1265) rfl (fun _ => by decide) (fun b => m (c, b))
  have e2 := (Stretch.writesFrom (F := Ideal)).read_unary 241 (x := main_v4) (y := main_v241) rfl (fun _ => by decide) (fun b => m (c, b))
  unfold R
  rw [e1, e2]
  exact row_spec _ 788 (by decide) (by decide) _ _

theorem row_237 : IsRows (wfd m c) 237 (R m c main_v1266 : S1x1024.Idx → EReal) := by
  have e1 := (Stretch.writesFrom (F := Ideal)).read_unary 1266 (x := main_v242) (y := main_v1266) rfl (fun _ => by decide) (fun b => m (c, b))
  have e2 := (Stretch.writesFrom (F := Ideal)).read_unary 242 (x := main_v4) (y := main_v242) rfl (fun _ => by decide) (fun b => m (c, b))
  unfold R
  rw [e1, e2]
  exact row_spec _ 787 (by decide) (by decide) _ _

theorem row_238 : IsRows (wfd m c) 238 (R m c main_v1267 : S1x1024.Idx → EReal) := by
  have e1 := (Stretch.writesFrom (F := Ideal)).read_unary 1267 (x := main_v243) (y := main_v1267) rfl (fun _ => by decide) (fun b => m (c, b))
  have e2 := (Stretch.writesFrom (F := Ideal)).read_unary 243 (x := main_v4) (y := main_v243) rfl (fun _ => by decide) (fun b => m (c, b))
  unfold R
  rw [e1, e2]
  exact row_spec _ 786 (by decide) (by decide) _ _

theorem row_239 : IsRows (wfd m c) 239 (R m c main_v1268 : S1x1024.Idx → EReal) := by
  have e1 := (Stretch.writesFrom (F := Ideal)).read_unary 1268 (x := main_v244) (y := main_v1268) rfl (fun _ => by decide) (fun b => m (c, b))
  have e2 := (Stretch.writesFrom (F := Ideal)).read_unary 244 (x := main_v4) (y := main_v244) rfl (fun _ => by decide) (fun b => m (c, b))
  unfold R
  rw [e1, e2]
  exact row_spec _ 785 (by decide) (by decide) _ _

theorem row_240 : IsRows (wfd m c) 240 (R m c main_v1269 : S1x1024.Idx → EReal) := by
  have e1 := (Stretch.writesFrom (F := Ideal)).read_unary 1269 (x := main_v245) (y := main_v1269) rfl (fun _ => by decide) (fun b => m (c, b))
  have e2 := (Stretch.writesFrom (F := Ideal)).read_unary 245 (x := main_v4) (y := main_v245) rfl (fun _ => by decide) (fun b => m (c, b))
  unfold R
  rw [e1, e2]
  exact row_spec _ 784 (by decide) (by decide) _ _

theorem row_241 : IsRows (wfd m c) 241 (R m c main_v1270 : S1x1024.Idx → EReal) := by
  have e1 := (Stretch.writesFrom (F := Ideal)).read_unary 1270 (x := main_v246) (y := main_v1270) rfl (fun _ => by decide) (fun b => m (c, b))
  have e2 := (Stretch.writesFrom (F := Ideal)).read_unary 246 (x := main_v4) (y := main_v246) rfl (fun _ => by decide) (fun b => m (c, b))
  unfold R
  rw [e1, e2]
  exact row_spec _ 783 (by decide) (by decide) _ _

theorem row_242 : IsRows (wfd m c) 242 (R m c main_v1271 : S1x1024.Idx → EReal) := by
  have e1 := (Stretch.writesFrom (F := Ideal)).read_unary 1271 (x := main_v247) (y := main_v1271) rfl (fun _ => by decide) (fun b => m (c, b))
  have e2 := (Stretch.writesFrom (F := Ideal)).read_unary 247 (x := main_v4) (y := main_v247) rfl (fun _ => by decide) (fun b => m (c, b))
  unfold R
  rw [e1, e2]
  exact row_spec _ 782 (by decide) (by decide) _ _

theorem row_243 : IsRows (wfd m c) 243 (R m c main_v1272 : S1x1024.Idx → EReal) := by
  have e1 := (Stretch.writesFrom (F := Ideal)).read_unary 1272 (x := main_v248) (y := main_v1272) rfl (fun _ => by decide) (fun b => m (c, b))
  have e2 := (Stretch.writesFrom (F := Ideal)).read_unary 248 (x := main_v4) (y := main_v248) rfl (fun _ => by decide) (fun b => m (c, b))
  unfold R
  rw [e1, e2]
  exact row_spec _ 781 (by decide) (by decide) _ _

theorem row_244 : IsRows (wfd m c) 244 (R m c main_v1273 : S1x1024.Idx → EReal) := by
  have e1 := (Stretch.writesFrom (F := Ideal)).read_unary 1273 (x := main_v249) (y := main_v1273) rfl (fun _ => by decide) (fun b => m (c, b))
  have e2 := (Stretch.writesFrom (F := Ideal)).read_unary 249 (x := main_v4) (y := main_v249) rfl (fun _ => by decide) (fun b => m (c, b))
  unfold R
  rw [e1, e2]
  exact row_spec _ 780 (by decide) (by decide) _ _

theorem row_245 : IsRows (wfd m c) 245 (R m c main_v1274 : S1x1024.Idx → EReal) := by
  have e1 := (Stretch.writesFrom (F := Ideal)).read_unary 1274 (x := main_v250) (y := main_v1274) rfl (fun _ => by decide) (fun b => m (c, b))
  have e2 := (Stretch.writesFrom (F := Ideal)).read_unary 250 (x := main_v4) (y := main_v250) rfl (fun _ => by decide) (fun b => m (c, b))
  unfold R
  rw [e1, e2]
  exact row_spec _ 779 (by decide) (by decide) _ _

theorem row_246 : IsRows (wfd m c) 246 (R m c main_v1275 : S1x1024.Idx → EReal) := by
  have e1 := (Stretch.writesFrom (F := Ideal)).read_unary 1275 (x := main_v251) (y := main_v1275) rfl (fun _ => by decide) (fun b => m (c, b))
  have e2 := (Stretch.writesFrom (F := Ideal)).read_unary 251 (x := main_v4) (y := main_v251) rfl (fun _ => by decide) (fun b => m (c, b))
  unfold R
  rw [e1, e2]
  exact row_spec _ 778 (by decide) (by decide) _ _

theorem row_247 : IsRows (wfd m c) 247 (R m c main_v1276 : S1x1024.Idx → EReal) := by
  have e1 := (Stretch.writesFrom (F := Ideal)).read_unary 1276 (x := main_v252) (y := main_v1276) rfl (fun _ => by decide) (fun b => m (c, b))
  have e2 := (Stretch.writesFrom (F := Ideal)).read_unary 252 (x := main_v4) (y := main_v252) rfl (fun _ => by decide) (fun b => m (c, b))
  unfold R
  rw [e1, e2]
  exact row_spec _ 777 (by decide) (by decide) _ _

theorem row_248 : IsRows (wfd m c) 248 (R m c main_v1277 : S1x1024.Idx → EReal) := by
  have e1 := (Stretch.writesFrom (F := Ideal)).read_unary 1277 (x := main_v253) (y := main_v1277) rfl (fun _ => by decide) (fun b => m (c, b))
  have e2 := (Stretch.writesFrom (F := Ideal)).read_unary 253 (x := main_v4) (y := main_v253) rfl (fun _ => by decide) (fun b => m (c, b))
  unfold R
  rw [e1, e2]
  exact row_spec _ 776 (by decide) (by decide) _ _

theorem row_249 : IsRows (wfd m c) 249 (R m c main_v1278 : S1x1024.Idx → EReal) := by
  have e1 := (Stretch.writesFrom (F := Ideal)).read_unary 1278 (x := main_v254) (y := main_v1278) rfl (fun _ => by decide) (fun b => m (c, b))
  have e2 := (Stretch.writesFrom (F := Ideal)).read_unary 254 (x := main_v4) (y := main_v254) rfl (fun _ => by decide) (fun b => m (c, b))
  unfold R
  rw [e1, e2]
  exact row_spec _ 775 (by decide) (by decide) _ _

theorem row_250 : IsRows (wfd m c) 250 (R m c main_v1279 : S1x1024.Idx → EReal) := by
  have e1 := (Stretch.writesFrom (F := Ideal)).read_unary 1279 (x := main_v255) (y := main_v1279) rfl (fun _ => by decide) (fun b => m (c, b))
  have e2 := (Stretch.writesFrom (F := Ideal)).read_unary 255 (x := main_v4) (y := main_v255) rfl (fun _ => by decide) (fun b => m (c, b))
  unfold R
  rw [e1, e2]
  exact row_spec _ 774 (by decide) (by decide) _ _

theorem row_251 : IsRows (wfd m c) 251 (R m c main_v1280 : S1x1024.Idx → EReal) := by
  have e1 := (Stretch.writesFrom (F := Ideal)).read_unary 1280 (x := main_v256) (y := main_v1280) rfl (fun _ => by decide) (fun b => m (c, b))
  have e2 := (Stretch.writesFrom (F := Ideal)).read_unary 256 (x := main_v4) (y := main_v256) rfl (fun _ => by decide) (fun b => m (c, b))
  unfold R
  rw [e1, e2]
  exact row_spec _ 773 (by decide) (by decide) _ _

theorem row_252 : IsRows (wfd m c) 252 (R m c main_v1281 : S1x1024.Idx → EReal) := by
  have e1 := (Stretch.writesFrom (F := Ideal)).read_unary 1281 (x := main_v257) (y := main_v1281) rfl (fun _ => by decide) (fun b => m (c, b))
  have e2 := (Stretch.writesFrom (F := Ideal)).read_unary 257 (x := main_v4) (y := main_v257) rfl (fun _ => by decide) (fun b => m (c, b))
  unfold R
  rw [e1, e2]
  exact row_spec _ 772 (by decide) (by decide) _ _

theorem row_253 : IsRows (wfd m c) 253 (R m c main_v1282 : S1x1024.Idx → EReal) := by
  have e1 := (Stretch.writesFrom (F := Ideal)).read_unary 1282 (x := main_v258) (y := main_v1282) rfl (fun _ => by decide) (fun b => m (c, b))
  have e2 := (Stretch.writesFrom (F := Ideal)).read_unary 258 (x := main_v4) (y := main_v258) rfl (fun _ => by decide) (fun b => m (c, b))
  unfold R
  rw [e1, e2]
  exact row_spec _ 771 (by decide) (by decide) _ _

theorem row_254 : IsRows (wfd m c) 254 (R m c main_v1283 : S1x1024.Idx → EReal) := by
  have e1 := (Stretch.writesFrom (F := Ideal)).read_unary 1283 (x := main_v259) (y := main_v1283) rfl (fun _ => by decide) (fun b => m (c, b))
  have e2 := (Stretch.writesFrom (F := Ideal)).read_unary 259 (x := main_v4) (y := main_v259) rfl (fun _ => by decide) (fun b => m (c, b))
  unfold R
  rw [e1, e2]
  exact row_spec _ 770 (by decide) (by decide) _ _

theorem row_255 : IsRows (wfd m c) 255 (R m c main_v1284 : S1x1024.Idx → EReal) := by
  have e1 := (Stretch.writesFrom (F := Ideal)).read_unary 1284 (x := main_v260) (y := main_v1284) rfl (fun _ => by decide) (fun b => m (c, b))
  have e2 := (Stretch.writesFrom (F := Ideal)).read_unary 260 (x := main_v4) (y := main_v260) rfl (fun _ => by decide) (fun b => m (c, b))
  unfold R
  rw [e1, e2]
  exact row_spec _ 769 (by decide) (by decide) _ _

end Cert.KernelIdeal.Circ

end
-- ==== Proof.LibRowStackArgs.lean ====
/-
  The stacks of LibRowStack with the pieces and the facts about them given one by one (sixteen pieces, sixteen
  facts) instead of as a family indexed by a number: a use then never has to compute which piece a number names.
-/
import proofs.«163274_j17575006175271_2_alg».proof.Proof.LibRowStack

noncomputable section

namespace Idealize.ShloMosaic.RowStack

open Idealize.ShloMosaic Idealize.ShloMosaic.ValueIdx

variable {α : Type} [Zero α]

/-- Sixteen rows stacked, row by row. -/
theorem stack16_rows (g : Nat → α) (base : Nat) (x0 x1 x2 x3 x4 x5 x6 x7 x8 x9 x10 x11 x12 x13 x14 x15 : (⟨2, ![1, 1024]⟩ : Shape).Idx → α)
    (h : Shape.Concatenates (([(⟨⟨2, ![1, 1024]⟩, x0⟩ : (s : Shape) × (s.Idx → α)), (⟨⟨2, ![1, 1024]⟩, x1⟩ : (s : Shape) × (s.Idx → α)), (⟨⟨2, ![1, 1024]⟩, x2⟩ : (s : Shape) × (s.Idx → α)), (⟨⟨2, ![1, 1024]⟩, x3⟩ : (s : Shape) × (s.Idx → α)), (⟨⟨2, ![1, 1024]⟩, x4⟩ : (s : Shape) × (s.Idx → α)), (⟨⟨2, ![1, 1024]⟩, x5⟩ : (s : Shape) × (s.Idx → α)), (⟨⟨2, ![1, 1024]⟩, x6⟩ : (s : Shape) × (s.Idx → α)), (⟨⟨2, ![1, 1024]⟩, x7⟩ : (s : Shape) × (s.Idx → α)), (⟨⟨2, ![1, 1024]⟩, x8⟩ : (s : Shape) × (s.Idx → α)), (⟨⟨2, ![1, 1024]⟩, x9⟩ : (s : Shape) × (s.Idx → α)), (⟨⟨2, ![1, 1024]⟩, x10⟩ : (s : Shape) × (s.Idx → α)), (⟨⟨2, ![1, 1024]⟩, x11⟩ : (s : Shape) × (s.Idx → α)), (⟨⟨2, ![1, 1024]⟩, x12⟩ : (s : Shape) × (s.Idx → α)), (⟨⟨2, ![1, 1024]⟩, x13⟩ : (s : Shape) × (s.Idx → α)), (⟨⟨2, ![1, 1024]⟩, x14⟩ : (s : Shape) × (s.Idx → α)), (⟨⟨2, ![1, 1024]⟩, x15⟩ : (s : Shape) × (s.Idx → α))]).map (·.1)) ⟨2, ![16, 1024]⟩ 0)
    (h0 : IsRows g (base + 0) x0)
    (h1 : IsRows g (base + 1) x1)
    (h2 : IsRows g (base + 2) x2)
    (h3 : IsRows g (base + 3) x3)
    (h4 : IsRows g (base + 4) x4)
    (h5 : IsRows g (base + 5) x5)
    (h6 : IsRows g (base + 6) x6)
    (h7 : IsRows g (base + 7) x7)
    (h8 : IsRows g (base + 8) x8)
    (h9 : IsRows g (base + 9) x9)
    (h10 : IsRows g (base + 10) x10)
    (h11 : IsRows g (base + 11) x11)
    (h12 : IsRows g (base + 12) x12)
    (h13 : IsRows g (base + 13) x13)
    (h14 : IsRows g (base + 14) x14)
    (h15 : IsRows g (base + 15) x15) :
    IsRows g base (concatenate ⟨2, ![16, 1024]⟩ 0 [⟨⟨2, ![1, 1024]⟩, x0⟩, ⟨⟨2, ![1, 1024]⟩, x1⟩, ⟨⟨2, ![1, 1024]⟩, x2⟩, ⟨⟨2, ![1, 1024]⟩, x3⟩, ⟨⟨2, ![1, 1024]⟩, x4⟩, ⟨⟨2, ![1, 1024]⟩, x5⟩, ⟨⟨2, ![1, 1024]⟩, x6⟩, ⟨⟨2, ![1, 1024]⟩, x7⟩, ⟨⟨2, ![1, 1024]⟩, x8⟩, ⟨⟨2, ![1, 1024]⟩, x9⟩, ⟨⟨2, ![1, 1024]⟩, x10⟩, ⟨⟨2, ![1, 1024]⟩, x11⟩, ⟨⟨2, ![1, 1024]⟩, x12⟩, ⟨⟨2, ![1, 1024]⟩, x13⟩, ⟨⟨2, ![1, 1024]⟩, x14⟩, ⟨⟨2, ![1, 1024]⟩, x15⟩] h) :=
  stack16_rows_spec g base ![x0, x1, x2, x3, x4, x5, x6, x7, x8, x9, x10, x11, x12, x13, x14, x15] h (fun q => match q with
    | ⟨0, _⟩ => h0
    | ⟨1, _⟩ => h1
    | ⟨2, _⟩ => h2
    | ⟨3, _⟩ => h3
    | ⟨4, _⟩ => h4
    | ⟨5, _⟩ => h5
    | ⟨6, _⟩ => h6
    | ⟨7, _⟩ => h7
    | ⟨8, _⟩ => h8
    | ⟨9, _⟩ => h9
    | ⟨10, _⟩ => h10
    | ⟨11, _⟩ => h11
    | ⟨12, _⟩ => h12
    | ⟨13, _⟩ => h13
    | ⟨14, _⟩ => h14
    | ⟨15, _⟩ => h15
    | ⟨_ + 16, hq⟩ => absurd hq (Nat.not_lt.2 (Nat.le_add_left _ _)))

/-- Sixteen blocks of sixteen rows stacked, block by block. -/
theorem stack16_blocks (g : Nat → α) (base : Nat) (x0 x1 x2 x3 x4 x5 x6 x7 x8 x9 x10 x11 x12 x13 x14 x15 : (⟨2, ![16, 1024]⟩ : Shape).Idx → α)
    (h : Shape.Concatenates (([(⟨⟨2, ![16, 1024]⟩, x0⟩ : (s : Shape) × (s.Idx → α)), (⟨⟨2, ![16, 1024]⟩, x1⟩ : (s : Shape) × (s.Idx → α)), (⟨⟨2, ![16, 1024]⟩, x2⟩ : (s : Shape) × (s.Idx → α)), (⟨⟨2, ![16, 1024]⟩, x3⟩ : (s : Shape) × (s.Idx → α)), (⟨⟨2, ![16, 1024]⟩, x4⟩ : (s : Shape) × (s.Idx → α)), (⟨⟨2, ![16, 1024]⟩, x5⟩ : (s : Shape) × (s.Idx → α)), (⟨⟨2, ![16, 1024]⟩, x6⟩ : (s : Shape) × (s.Idx → α)), (⟨⟨2, ![16, 1024]⟩, x7⟩ : (s : Shape) × (s.Idx → α)), (⟨⟨2, ![16, 1024]⟩, x8⟩ : (s : Shape) × (s.Idx → α)), (⟨⟨2, ![16, 1024]⟩, x9⟩ : (s : Shape) × (s.Idx → α)), (⟨⟨2, ![16, 1024]⟩, x10⟩ : (s : Shape) × (s.Idx → α)), (⟨⟨2, ![16, 1024]⟩, x11⟩ : (s : Shape) × (s.Idx → α)), (⟨⟨2, ![16, 1024]⟩, x12⟩ : (s : Shape) × (s.Idx → α)), (⟨⟨2, ![16, 1024]⟩, x13⟩ : (s : Shape) × (s.Idx → α)), (⟨⟨2, ![16, 1024]⟩, x14⟩ : (s : Shape) × (s.Idx → α)), (⟨⟨2, ![16, 1024]⟩, x15⟩ : (s : Shape) × (s.Idx → α))]).map (·.1)) ⟨2, ![256, 1024]⟩ 0)
    (h0 : IsRows g (base + 0) x0)
    (h1 : IsRows g (base + 16) x1)
    (h2 : IsRows g (base + 32) x2)
    (h3 : IsRows g (base + 48) x3)
    (h4 : IsRows g (base + 64) x4)
    (h5 : IsRows g (base + 80) x5)
    (h6 : IsRows g (base + 96) x6)
    (h7 : IsRows g (base + 112) x7)
    (h8 : IsRows g (base + 128) x8)
    (h9 : IsRows g (base + 144) x9)
    (h10 : IsRows g (base + 160) x10)
    (h11 : IsRows g (base + 176) x11)
    (h12 : IsRows g (base + 192) x12)
    (h13 : IsRows g (base + 208) x13)
    (h14 : IsRows g (base + 224) x14)
    (h15 : IsRows g (base + 240) x15) :
    IsRows g base (concatenate ⟨2, ![256, 1024]⟩ 0 [⟨⟨2, ![16, 1024]⟩, x0⟩, ⟨⟨2, ![16, 1024]⟩, x1⟩, ⟨⟨2, ![16, 1024]⟩, x2⟩, ⟨⟨2, ![16, 1024]⟩, x3⟩, ⟨⟨2, ![16, 1024]⟩, x4⟩, ⟨⟨2, ![16, 1024]⟩, x5⟩, ⟨⟨2, ![16, 1024]⟩, x6⟩, ⟨⟨2, ![16, 1024]⟩, x7⟩, ⟨⟨2, ![16, 1024]⟩, x8⟩, ⟨⟨2, ![16, 1024]⟩, x9⟩, ⟨⟨2, ![16, 1024]⟩, x10⟩, ⟨⟨2, ![16, 1024]⟩, x11⟩, ⟨⟨2, ![16, 1024]⟩, x12⟩, ⟨⟨2, ![16, 1024]⟩, x13⟩, ⟨⟨2, ![16, 1024]⟩, x14⟩, ⟨⟨2, ![16, 1024]⟩, x15⟩] h) :=
  stack16_blocks_spec g base ![x0, x1, x2, x3, x4, x5, x6, x7, x8, x9, x10, x11, x12, x13, x14, x15] h (fun q => match q with
    | ⟨0, _⟩ => h0
    | ⟨1, _⟩ => h1
    | ⟨2, _⟩ => h2
    | ⟨3, _⟩ => h3
    | ⟨4, _⟩ => h4
    | ⟨5, _⟩ => h5
    | ⟨6, _⟩ => h6
    | ⟨7, _⟩ => h7
    | ⟨8, _⟩ => h8
    | ⟨9, _⟩ => h9
    | ⟨10, _⟩ => h10
    | ⟨11, _⟩ => h11
    | ⟨12, _⟩ => h12
    | ⟨13, _⟩ => h13
    | ⟨14, _⟩ => h14
    | ⟨15, _⟩ => h15
    | ⟨_ + 16, hq⟩ => absurd hq (Nat.not_lt.2 (Nat.le_add_left _ _)))

/-- Four blocks of 256 rows stacked, block by block. -/
theorem stack4_blocks (g : Nat → α) (base : Nat) (x0 x1 x2 x3 : (⟨2, ![256, 1024]⟩ : Shape).Idx → α)
    (h : Shape.Concatenates (([⟨⟨2, ![256, 1024]⟩, x0⟩, ⟨⟨2, ![256, 1024]⟩, x1⟩, ⟨⟨2, ![256, 1024]⟩, x2⟩, ⟨⟨2, ![256, 1024]⟩, x3⟩] : List ((s : Shape) × (s.Idx → α))).map (·.1)) ⟨2, ![1024, 1024]⟩ 0)
    (h0 : IsRows g (base + 0) x0) (h1 : IsRows g (base + 256) x1) (h2 : IsRows g (base + 512) x2) (h3 : IsRows g (base + 768) x3) :
    IsRows g base (concatenate ⟨2, ![1024, 1024]⟩ 0 [⟨⟨2, ![256, 1024]⟩, x0⟩, ⟨⟨2, ![256, 1024]⟩, x1⟩, ⟨⟨2, ![256, 1024]⟩, x2⟩, ⟨⟨2, ![256, 1024]⟩, x3⟩] h) :=
  stack4_blocks_spec g base ![x0, x1, x2, x3] h (fun q => match q with
    | ⟨0, _⟩ => h0
    | ⟨1, _⟩ => h1
    | ⟨2, _⟩ => h2
    | ⟨3, _⟩ => h3
    | ⟨_ + 4, hq⟩ => absurd hq (Nat.not_lt.2 (Nat.le_add_left _ _)))

end Idealize.ShloMosaic.RowStack

end
-- ==== Proof.CircBlock0.lean ====
/-
  Rows 0 to 255 of the circulant, stacked: sixteen stacks of sixteen rows, then those sixteen blocks stacked.
  Each stack is read off its own concatenation of the host stretch; the rows (or blocks) stacked are consecutive rows of
  the matrix whose every row is the one above shifted one place to the right, so the stack is too.
-/
import proofs.«163274_j17575006175271_2_alg».proof.Proof.CircRows0
import proofs.«163274_j17575006175271_2_alg».proof.Proof.CircRows1
import proofs.«163274_j17575006175271_2_alg».proof.Proof.LibRowStackArgs

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem c1_0 : IsRows (wfd m c) 0 (R m c main_v2053 : S16x1024.Idx → EReal) := by
  have e := (Stretch.writesFrom (F := Ideal)).read_nary 2053 (y := main_v2053) rfl (by decide) (fun b => m (c, b))
  unfold R
  rw [e]
  exact stack16_rows (wfd m c) 0 _ _ _ _ _ _ _ _ _ _ _ _ _ _ _ _ _
    (row_0 m c) (row_1 m c) (row_2 m c) (row_3 m c) (row_4 m c) (row_5 m c) (row_6 m c) (row_7 m c) (row_8 m c) (row_9 m c) (row_10 m c) (row_11 m c) (row_12 m c) (row_13 m c) (row_14 m c) (row_15 m c)

theorem c1_1 : IsRows (wfd m c) 16 (R m c main_v2054 : S16x1024.Idx → EReal) := by
  have e := (Stretch.writesFrom (F := Ideal)).read_nary 2054 (y := main_v2054) rfl (by decide) (fun b => m (c, b))
  unfold R
  rw [e]
  exact stack16_rows (wfd m c) 16 _ _ _ _ _ _ _ _ _ _ _ _ _ _ _ _ _
    (row_16 m c) (row_17 m c) (row_18 m c) (row_19 m c) (row_20 m c) (row_21 m c) (row_22 m c) (row_23 m c) (row_24 m c) (row_25 m c) (row_26 m c) (row_27 m c) (row_28 m c) (row_29 m c) (row_30 m c) (row_31 m c)

theorem c1_2 : IsRows (wfd m c) 32 (R m c main_v2055 : S16x1024.Idx → EReal) := by
  have e := (Stretch.writesFrom (F := Ideal)).read_nary 2055 (y := main_v2055) rfl (by decide) (fun b => m (c, b))
  unfold R
  rw [e]
  exact stack16_rows (wfd m c) 32 _ _ _ _ _ _ _ _ _ _ _ _ _ _ _ _ _
    (row_32 m c) (row_33 m c) (row_34 m c) (row_35 m c) (row_36 m c) (row_37 m c) (row_38 m c) (row_39 m c) (row_40 m c) (row_41 m c) (row_42 m c) (row_43 m c) (row_44 m c) (row_45 m c) (row_46 m c) (row_47 m c)

theorem c1_3 : IsRows (wfd m c) 48 (R m c main_v2056 : S16x1024.Idx → EReal) := by
  have e := (Stretch.writesFrom (F := Ideal)).read_nary 2056 (y := main_v2056) rfl (by decide) (fun b => m (c, b))
  unfold R
  rw [e]
  exact stack16_rows (wfd m c) 48 _ _ _ _ _ _ _ _ _ _ _ _ _ _ _ _ _
    (row_48 m c) (row_49 m c) (row_50 m c) (row_51 m c) (row_52 m c) (row_53 m c) (row_54 m c) (row_55 m c) (row_56 m c) (row_57 m c) (row_58 m c) (row_59 m c) (row_60 m c) (row_61 m c) (row_62 m c) (row_63 m c)

theorem c1_4 : IsRows (wfd m c) 64 (R m c main_v2057 : S16x1024.Idx → EReal) := by
  have e := (Stretch.writesFrom (F := Ideal)).read_nary 2057 (y := main_v2057) rfl (by decide) (fun b => m (c, b))
  unfold R
  rw [e]
  exact stack16_rows (wfd m c) 64 _ _ _ _ _ _ _ _ _ _ _ _ _ _ _ _ _
    (row_64 m c) (row_65 m c) (row_66 m c) (row_67 m c) (row_68 m c) (row_69 m c) (row_70 m c) (row_71 m c) (row_72 m c) (row_73 m c) (row_74 m c) (row_75 m c) (row_76 m c) (row_77 m c) (row_78 m c) (row_79 m c)

theorem c1_5 : IsRows (wfd m c) 80 (R m c main_v2058 : S16x1024.Idx → EReal) := by
  have e := (Stretch.writesFrom (F := Ideal)).read_nary 2058 (y := main_v2058) rfl (by decide) (fun b => m (c, b))
  unfold R
  rw [e]
  exact stack16_rows (wfd m c) 80 _ _ _ _ _ _ _ _ _ _ _ _ _ _ _ _ _
    (row_80 m c) (row_81 m c) (row_82 m c) (row_83 m c) (row_84 m c) (row_85 m c) (row_86 m c) (row_87 m c) (row_88 m c) (row_89 m c) (row_90 m c) (row_91 m c) (row_92 m c) (row_93 m c) (row_94 m c) (row_95 m c)

theorem c1_6 : IsRows (wfd m c) 96 (R m c main_v2059 : S16x1024.Idx → EReal) := by
  have e := (Stretch.writesFrom (F := Ideal)).read_nary 2059 (y := main_v2059) rfl (by decide) (fun b => m (c, b))
  unfold R
  rw [e]
  exact stack16_rows (wfd m c) 96 _ _ _ _ _ _ _ _ _ _ _ _ _ _ _ _ _
    (row_96 m c) (row_97 m c) (row_98 m c) (row_99 m c) (row_100 m c) (row_101 m c) (row_102 m c) (row_103 m c) (row_104 m c) (row_105 m c) (row_106 m c) (row_107 m c) (row_108 m c) (row_109 m c) (row_110 m c) (row_111 m c)

theorem c1_7 : IsRows (wfd m c) 112 (R m c main_v2060 : S16x1024.Idx → EReal) := by
  have e := (Stretch.writesFrom (F := Ideal)).read_nary 2060 (y := main_v2060) rfl (by decide) (fun b => m (c, b))
  unfold R
  rw [e]
  exact stack16_rows (wfd m c) 112 _ _ _ _ _ _ _ _ _ _ _ _ _ _ _ _ _
    (row_112 m c) (row_113 m c) (row_114 m c) (row_115 m c) (row_116 m c) (row_117 m c) (row_118 m c) (row_119 m c) (row_120 m c) (row_121 m c) (row_122 m c) (row_123 m c) (row_124 m c) (row_125 m c) (row_126 m c) (row_127 m c)

theorem c1_8 : IsRows (wfd m c) 128 (R m c main_v2061 : S16x1024.Idx → EReal) := by
  have e := (Stretch.writesFrom (F := Ideal)).read_nary 2061 (y := main_v2061) rfl (by decide) (fun b => m (c, b))
  unfold R
  rw [e]
  exact stack16_rows (wfd m c) 128 _ _ _ _ _ _ _ _ _ _ _ _ _ _ _ _ _
    (row_128 m c) (row_129 m c) (row_130 m c) (row_131 m c) (row_132 m c) (row_133 m c) (row_134 m c) (row_135 m c) (row_136 m c) (row_137 m c) (row_138 m c) (row_139 m c) (row_140 m c) (row_141 m c) (row_142 m c) (row_143 m c)

theorem c1_9 : IsRows (wfd m c) 144 (R m c main_v2062 : S16x1024.Idx → EReal) := by
  have e := (Stretch.writesFrom (F := Ideal)).read_nary 2062 (y := main_v2062) rfl (by decide) (fun b => m (c, b))
  unfold R
  rw [e]
  exact stack16_rows (wfd m c) 144 _ _ _ _ _ _ _ _ _ _ _ _ _ _ _ _ _
    (row_144 m c) (row_145 m c) (row_146 m c) (row_147 m c) (row_148 m c) (row_149 m c) (row_150 m c) (row_151 m c) (row_152 m c) (row_153 m c) (row_154 m c) (row_155 m c) (row_156 m c) (row_157 m c) (row_158 m c) (row_159 m c)

theorem c1_10 : IsRows (wfd m c) 160 (R m c main_v2063 : S16x1024.Idx → EReal) := by
  have e := (Stretch.writesFrom (F := Ideal)).read_nary 2063 (y := main_v2063) rfl (by decide) (fun b => m (c, b))
  unfold R
  rw [e]
  exact stack16_rows (wfd m c) 160 _ _ _ _ _ _ _ _ _ _ _ _ _ _ _ _ _
    (row_160 m c) (row_161 m c) (row_162 m c) (row_163 m c) (row_164 m c) (row_165 m c) (row_166 m c) (row_167 m c) (row_168 m c) (row_169 m c) (row_170 m c) (row_171 m c) (row_172 m c) (row_173 m c) (row_174 m c) (row_175 m c)

theorem c1_11 : IsRows (wfd m c) 176 (R m c main_v2064 : S16x1024.Idx → EReal) := by
  have e := (Stretch.writesFrom (F := Ideal)).read_nary 2064 (y := main_v2064) rfl (by decide) (fun b => m (c, b))
  unfold R
  rw [e]
  exact stack16_rows (wfd m c) 176 _ _ _ _ _ _ _ _ _ _ _ _ _ _ _ _ _
    (row_176 m c) (row_177 m c) (row_178 m c) (row_179 m c) (row_180 m c) (row_181 m c) (row_182 m c) (row_183 m c) (row_184 m c) (row_185 m c) (row_186 m c) (row_187 m c) (row_188 m c) (row_189 m c) (row_190 m c) (row_191 m c)

theorem c1_12 : IsRows (wfd m c) 192 (R m c main_v2065 : S16x1024.Idx → EReal) := by
  have e := (Stretch.writesFrom (F := Ideal)).read_nary 2065 (y := main_v2065) rfl (by decide) (fun b => m (c, b))
  unfold R
  rw [e]
  exact stack16_rows (wfd m c) 192 _ _ _ _ _ _ _ _ _ _ _ _ _ _ _ _ _
    (row_192 m c) (row_193 m c) (row_194 m c) (row_195 m c) (row_196 m c) (row_197 m c) (row_198 m c) (row_199 m c) (row_200 m c) (row_201 m c) (row_202 m c) (row_203 m c) (row_204 m c) (row_205 m c) (row_206 m c) (row_207 m c)

theorem c1_13 : IsRows (wfd m c) 208 (R m c main_v2066 : S16x1024.Idx → EReal) := by
  have e := (Stretch.writesFrom (F := Ideal)).read_nary 2066 (y := main_v2066) rfl (by decide) (fun b => m (c, b))
  unfold R
  rw [e]
  exact stack16_rows (wfd m c) 208 _ _ _ _ _ _ _ _ _ _ _ _ _ _ _ _ _
    (row_208 m c) (row_209 m c) (row_210 m c) (row_211 m c) (row_212 m c) (row_213 m c) (row_214 m c) (row_215 m c) (row_216 m c) (row_217 m c) (row_218 m c) (row_219 m c) (row_220 m c) (row_221 m c) (row_222 m c) (row_223 m c)

theorem c1_14 : IsRows (wfd m c) 224 (R m c main_v2067 : S16x1024.Idx → EReal) := by
  have e := (Stretch.writesFrom (F := Ideal)).read_nary 2067 (y := main_v2067) rfl (by decide) (fun b => m (c, b))
  unfold R
  rw [e]
  exact stack16_rows (wfd m c) 224 _ _ _ _ _ _ _ _ _ _ _ _ _ _ _ _ _
    (row_224 m c) (row_225 m c) (row_226 m c) (row_227 m c) (row_228 m c) (row_229 m c) (row_230 m c) (row_231 m c) (row_232 m c) (row_233 m c) (row_234 m c) (row_235 m c) (row_236 m c) (row_237 m c) (row_238 m c) (row_239 m c)

theorem c1_15 : IsRows (wfd m c) 240 (R m c main_v2068 : S16x1024.Idx → EReal) := by
  have e := (Stretch.writesFrom (F := Ideal)).read_nary 2068 (y := main_v2068) rfl (by decide) (fun b => m (c, b))
  unfold R
  rw [e]
  exact stack16_rows (wfd m c) 240 _ _ _ _ _ _ _ _ _ _ _ _ _ _ _ _ _
    (row_240 m c) (row_241 m c) (row_242 m c) (row_243 m c) (row_244 m c) (row_245 m c) (row_246 m c) (row_247 m c) (row_248 m c) (row_249 m c) (row_250 m c) (row_251 m c) (row_252 m c) (row_253 m c) (row_254 m c) (row_255 m c)

theorem c2_0 : IsRows (wfd m c) 0 (R m c main_v2117 : S256x1024.Idx → EReal) := by
  have e := (Stretch.writesFrom (F := Ideal)).read_nary 2117 (y := main_v2117) rfl (by decide) (fun b => m (c, b))
  unfold R
  rw [e]
  exact stack16_blocks (wfd m c) 0 _ _ _ _ _ _ _ _ _ _ _ _ _ _ _ _ _
    (c1_0 m c) (c1_1 m c) (c1_2 m c) (c1_3 m c) (c1_4 m c) (c1_5 m c) (c1_6 m c) (c1_7 m c) (c1_8 m c) (c1_9 m c) (c1_10 m c) (c1_11 m c) (c1_12 m c) (c1_13 m c) (c1_14 m c) (c1_15 m c)

end Cert.KernelIdeal.Circ

end
-- ==== Proof.CircRows2.lean ====
/-
  Rows 256 to 383 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_256 : IsRows (wfd m c) 256 (R m c main_v1285 : S1x1024.Idx → EReal) := by
  have e1 := (Stretch.writesFrom (F := Ideal)).read_unary 1285 (x := main_v261) (y := main_v1285) rfl (fun _ => by decide) (fun b => m (c, b))
  have e2 := (Stretch.writesFrom (F := Ideal)).read_unary 261 (x := main_v4) (y := main_v261) rfl (fun _ => by decide) (fun b => m (c, b))
  unfold R
  rw [e1, e2]
  exact row_spec _ 768 (by decide) (by decide) _ _

theorem row_257 : IsRows (wfd m c) 257 (R m c main_v1286 : S1x1024.Idx → EReal) := by
  have e1 := (Stretch.writesFrom (F := Ideal)).read_unary 1286 (x := main_v262) (y := main_v1286) rfl (fun _ => by decide) (fun b => m (c, b))
  have e2 := (Stretch.writesFrom (F := Ideal)).read_unary 262 (x := main_v4) (y := main_v262) rfl (fun _ => by decide) (fun b => m (c, b))
  unfold R
  rw [e1, e2]
  exact row_spec _ 767 (by decide) (by decide) _ _

theorem row_258 : IsRows (wfd m c) 258 (R m c main_v1287 : S1x1024.Idx → EReal) := by
  have e1 := (Stretch.writesFrom (F := Ideal)).read_unary 1287 (x := main_v263) (y := main_v1287) rfl (fun _ => by decide) (fun b => m (c, b))
  have e2 := (Stretch.writesFrom (F := Ideal)).read_unary 263 (x := main_v4) (y := main_v263) rfl (fun _ => by decide) (fun b => m (c, b))
  unfold R
  rw [e1, e2]
  exact row_spec _ 766 (by decide) (by decide) _ _

theorem row_259 : IsRows (wfd m c) 259 (R m c main_v1288 : S1x1024.Idx → EReal) := by
  have e1 := (Stretch.writesFrom (F := Ideal)).read_unary 1288 (x := main_v264) (y := main_v1288) rfl (fun _ => by decide) (fun b => m (c, b))
  have e2 := (Stretch.writesFrom (F := Ideal)).read_unary 264 (x := main_v4) (y := main_v264) rfl (fun _ => by decide) (fun b => m (c, b))
  unfold R
  rw [e1, e2]
  exact row_spec _ 765 (by decide) (by decide) _ _

theorem row_260 : IsRows (wfd m c) 260 (R m c main_v1289 : S1x1024.Idx → EReal) := by
  have e1 := (Stretch.writesFrom (F := Ideal)).read_unary 1289 (x := main_v265) (y := main_v1289) rfl (fun _ => by decide) (fun b => m (c, b))
  have e2 := (Stretch.writesFrom (F := Ideal)).read_unary 265 (x := main_v4) (y := main_v265) rfl (fun _ => by decide) (fun b => m (c, b))
  unfold R
  rw [e1, e2]
  exact row_spec _ 764 (by decide) (by decide) _ _

theorem row_261 : IsRows (wfd m c) 261 (R m c main_v1290 : S1x1024.Idx → EReal) := by
  have e1 := (Stretch.writesFrom (F := Ideal)).read_unary 1290 (x := main_v266) (y := main_v1290) rfl (fun _ => by decide) (fun b => m (c, b))
  have e2 := (Stretch.writesFrom (F := Ideal)).read_unary 266 (x := main_v4) (y := main_v266) rfl (fun _ => by decide) (fun b => m (c, b))
  unfold R
  rw [e1, e2]
  exact row_spec _ 763 (by decide) (by decide) _ _

theorem row_262 : IsRows (wfd m c) 262 (R m c main_v1291 : S1x1024.Idx → EReal) := by
  have e1 := (Stretch.writesFrom (F := Ideal)).read_unary 1291 (x := main_v267) (y := main_v1291) rfl (fun _ => by decide) (fun b => m (c, b))
  have e2 := (Stretch.writesFrom (F := Ideal)).read_unary 267 (x := main_v4) (y := main_v267) rfl (fun _ => by decide) (fun b => m (c, b))
  unfold R
  rw [e1, e2]
  exact row_spec _ 762 (by decide) (by decide) _ _

theorem row_263 : IsRows (wfd m c) 263 (R m c main_v1292 : S1x1024.Idx → EReal) := by
  have e1 := (Stretch.writesFrom (F := Ideal)).read_unary 1292 (x := main_v268) (y := main_v1292) rfl (fun _ => by decide) (fun b => m (c, b))
  have e2 := (Stretch.writesFrom (F := Ideal)).read_unary 268 (x := main_v4) (y := main_v268) rfl (fun _ => by decide) (fun b => m (c, b))
  unfold R
  rw [e1, e2]
  exact row_spec _ 761 (by decide) (by decide) _ _

theorem row_264 : IsRows (wfd m c) 264 (R m c main_v1293 : S1x1024.Idx → EReal) := by
  have e1 := (Stretch.writesFrom (F := Ideal)).read_unary 1293 (x := main_v269) (y := main_v1293) rfl (fun _ => by decide) (fun b => m (c, b))
  have e2 := (Stretch.writesFrom (F := Ideal)).read_unary 269 (x := main_v4) (y := main_v269) rfl (fun _ => by decide) (fun b => m (c, b))
  unfold R
  rw [e1, e2]
  exact row_spec _ 760 (by decide) (by decide) _ _

theorem row_265 : IsRows (wfd m c) 265 (R m c main_v1294 : S1x1024.Idx → EReal) := by
  have e1 := (Stretch.writesFrom (F := Ideal)).read_unary 1294 (x := main_v270) (y := main_v1294) rfl (fun _ => by decide) (fun b => m (c, b))
  have e2 := (Stretch.writesFrom (F := Ideal)).read_unary 270 (x := main_v4) (y := main_v270) rfl (fun _ => by decide) (fun b => m (c, b))
  unfold R
  rw [e1, e2]
  exact row_spec _ 759 (by decide) (by decide) _ _

theorem row_266 : IsRows (wfd m c) 266 (R m c main_v1295 : S1x1024.Idx → EReal) := by
  have e1 := (Stretch.writesFrom (F := Ideal)).read_unary 1295 (x := main_v271) (y := main_v1295) rfl (fun _ => by decide) (fun b => m (c, b))
  have e2 := (Stretch.writesFrom (F := Ideal)).read_unary 271 (x := main_v4) (y := main_v271) rfl (fun _ => by decide) (fun b => m (c, b))
  unfold R
  rw [e1, e2]
  exact row_spec _ 758 (by decide) (by decide) _ _

theorem row_267 : IsRows (wfd m c) 267 (R m c main_v1296 : S1x1024.Idx → EReal) := by
  have e1 := (Stretch.writesFrom (F := Ideal)).read_unary 1296 (x := main_v272) (y := main_v1296) rfl (fun _ => by decide) (fun b => m (c, b))
  have e2 := (Stretch.writesFrom (F := Ideal)).read_unary 272 (x := main_v4) (y := main_v272) rfl (fun _ => by decide) (fun b => m (c, b))
  unfold R
  rw [e1, e2]
  exact row_spec _ 757 (by decide) (by decide) _ _

theorem row_268 : IsRows (wfd m c) 268 (R m c main_v1297 : S1x1024.Idx → EReal) := by
  have e1 := (Stretch.writesFrom (F := Ideal)).read_unary 1297 (x := main_v273) (y := main_v1297) rfl (fun _ => by decide) (fun b => m (c, b))
  have e2 := (Stretch.writesFrom (F := Ideal)).read_unary 273 (x := main_v4) (y := main_v273) rfl (fun _ => by decide) (fun b => m (c, b))
  unfold R
  rw [e1, e2]
  exact row_spec _ 756 (by decide) (by decide) _ _

theorem row_269 : IsRows (wfd m c) 269 (R m c main_v1298 : S1x1024.Idx → EReal) := by
  have e1 := (Stretch.writesFrom (F := Ideal)).read_unary 1298 (x := main_v274) (y := main_v1298) rfl (fun _ => by decide) (fun b => m (c, b))
  have e2 := (Stretch.writesFrom (F := Ideal)).read_unary 274 (x := main_v4) (y := main_v274) rfl (fun _ => by decide) (fun b => m (c, b))
  unfold R
  rw [e1, e2]
  exact row_spec _ 755 (by decide) (by decide) _ _

theorem row_270 : IsRows (wfd m c) 270 (R m c main_v1299 : S1x1024.Idx → EReal) := by
  have e1 := (Stretch.writesFrom (F := Ideal)).read_unary 1299 (x := main_v275) (y := main_v1299) rfl (fun _ => by decide) (fun b => m (c, b))
  have e2 := (Stretch.writesFrom (F := Ideal)).read_unary 275 (x := main_v4) (y := main_v275) rfl (fun _ => by decide) (fun b => m (c, b))
  unfold R
  rw [e1, e2]
  exact row_spec _ 754 (by decide) (by decide) _ _

theorem row_271 : IsRows (wfd m c) 271 (R m c main_v1300 : S1x1024.Idx → EReal) := by
  have e1 := (Stretch.writesFrom (F := Ideal)).read_unary 1300 (x := main_v276) (y := main_v1300) rfl (fun _ => by decide) (fun b => m (c, b))
  have e2 := (Stretch.writesFrom (F := Ideal)).read_unary 276 (x := main_v4) (y := main_v276) rfl (fun _ => by decide) (fun b => m (c, b))
  unfold R
  rw [e1, e2]
  exact row_spec _ 753 (by decide) (by decide) _ _

theorem row_272 : IsRows (wfd m c) 272 (R m c main_v1301 : S1x1024.Idx → EReal) := by
  have e1 := (Stretch.writesFrom (F := Ideal)).read_unary 1301 (x := main_v277) (y := main_v1301) rfl (fun _ => by decide) (fun b => m (c, b))
  have e2 := (Stretch.writesFrom (F := Ideal)).read_unary 277 (x := main_v4) (y := main_v277) rfl (fun _ => by decide) (fun b => m (c, b))
  unfold R
  rw [e1, e2]
  exact row_spec _ 752 (by decide) (by decide) _ _

theorem row_273 : IsRows (wfd m c) 273 (R m c main_v1302 : S1x1024.Idx → EReal) := by
  have e1 := (Stretch.writesFrom (F := Ideal)).read_unary 1302 (x := main_v278) (y := main_v1302) rfl (fun _ => by decide) (fun b => m (c, b))
  have e2 := (Stretch.writesFrom (F := Ideal)).read_unary 278 (x := main_v4) (y := main_v278) rfl (fun _ => by decide) (fun b => m (c, b))
  unfold R
  rw [e1, e2]
  exact row_spec _ 751 (by decide) (by decide) _ _

theorem row_274 : IsRows (wfd m c) 274 (R m c main_v1303 : S1x1024.Idx → EReal) := by
  have e1 := (Stretch.writesFrom (F := Ideal)).read_unary 1303 (x := main_v279) (y := main_v1303) rfl (fun _ => by decide) (fun b => m (c, b))
  have e2 := (Stretch.writesFrom (F := Ideal)).read_unary 279 (x := main_v4) (y := main_v279) rfl (fun _ => by decide) (fun b => m (c, b))
  unfold R
  rw [e1, e2]
  exact row_spec _ 750 (by decide) (by decide) _ _

theorem row_275 : IsRows (wfd m c) 275 (R m c main_v1304 : S1x1024.Idx → EReal) := by
  have e1 := (Stretch.writesFrom (F := Ideal)).read_unary 1304 (x := main_v280) (y := main_v1304) rfl (fun _ => by decide) (fun b => m (c, b))
  have e2 := (Stretch.writesFrom (F := Ideal)).read_unary 280 (x := main_v4) (y := main_v280) rfl (fun _ => by decide) (fun b => m (c, b))
  unfold R
  rw [e1, e2]
  exact row_spec _ 749 (by decide) (by decide) _ _

theorem row_276 : IsRows (wfd m c) 276 (R m c main_v1305 : S1x1024.Idx → EReal) := by
  have e1 := (Stretch.writesFrom (F := Ideal)).read_unary 1305 (x := main_v281) (y := main_v1305) rfl (fun _ => by decide) (fun b => m (c, b))
  have e2 := (Stretch.writesFrom (F := Ideal)).read_unary 281 (x := main_v4) (y := main_v281) rfl (fun _ => by decide) (fun b => m (c, b))
  unfold R
  rw [e1, e2]
  exact row_spec _ 748 (by decide) (by decide) _ _

theorem row_277 : IsRows (wfd m c) 277 (R m c main_v1306 : S1x1024.Idx → EReal) := by
  have e1 := (Stretch.writesFrom (F := Ideal)).read_unary 1306 (x := main_v282) (y := main_v1306) rfl (fun _ => by decide) (fun b => m (c, b))
  have e2 := (Stretch.writesFrom (F := Ideal)).read_unary 282 (x := main_v4) (y := main_v282) rfl (fun _ => by decide) (fun b => m (c, b))
  unfold R
  rw [e1, e2]
  exact row_spec _ 747 (by decide) (by decide) _ _

theorem row_278 : IsRows (wfd m c) 278 (R m c main_v1307 : S1x1024.Idx → EReal) := by
  have e1 := (Stretch.writesFrom (F := Ideal)).read_unary 1307 (x := main_v283) (y := main_v1307) rfl (fun _ => by decide) (fun b => m (c, b))
  have e2 := (Stretch.writesFrom (F := Ideal)).read_unary 283 (x := main_v4) (y := main_v283) rfl (fun _ => by decide) (fun b => m (c, b))
  unfold R
  rw [e1, e2]
  exact row_spec _ 746 (by decide) (by decide) _ _

theorem row_279 : IsRows (wfd m c) 279 (R m c main_v1308 : S1x1024.Idx → EReal) := by
  have e1 := (Stretch.writesFrom (F := Ideal)).read_unary 1308 (x := main_v284) (y := main_v1308) rfl (fun _ => by decide) (fun b => m (c, b))
  have e2 := (Stretch.writesFrom (F := Ideal)).read_unary 284 (x := main_v4) (y := main_v284) rfl (fun _ => by decide) (fun b => m (c, b))
  unfold R
  rw [e1, e2]
  exact row_spec _ 745 (by decide) (by decide) _ _

theorem row_280 : IsRows (wfd m c) 280 (R m c main_v1309 : S1x1024.Idx → EReal) := by
  have e1 := (Stretch.writesFrom (F := Ideal)).read_unary 1309 (x := main_v285) (y := main_v1309) rfl (fun _ => by decide) (fun b => m (c, b))
  have e2 := (Stretch.writesFrom (F := Ideal)).read_unary 285 (x := main_v4) (y := main_v285) rfl (fun _ => by decide) (fun b => m (c, b))
  unfold R
  rw [e1, e2]
  exact row_spec _ 744 (by decide) (by decide) _ _

theorem row_281 : IsRows (wfd m c) 281 (R m c main_v1310 : S1x1024.Idx → EReal) := by
  have e1 := (Stretch.writesFrom (F := Ideal)).read_unary 1310 (x := main_v286) (y := main_v1310) rfl (fun _ => by decide) (fun b => m (c, b))
  have e2 := (Stretch.writesFrom (F := Ideal)).read_unary 286 (x := main_v4) (y := main_v286) rfl (fun _ => by decide) (fun b => m (c, b))
  unfold R
  rw [e1, e2]
  exact row_spec _ 743 (by decide) (by decide) _ _

theorem row_282 : IsRows (wfd m c) 282 (R m c main_v1311 : S1x1024.Idx → EReal) := by
  have e1 := (Stretch.writesFrom (F := Ideal)).read_unary 1311 (x := main_v287) (y := main_v1311) rfl (fun _ => by decide) (fun b => m (c, b))
  have e2 := (Stretch.writesFrom (F := Ideal)).read_unary 287 (x := main_v4) (y := main_v287) rfl (fun _ => by decide) (fun b => m (c, b))
  unfold R
  rw [e1, e2]
  exact row_spec _ 742 (by decide) (by decide) _ _

theorem row_283 : IsRows (wfd m c) 283 (R m c main_v1312 : S1x1024.Idx → EReal) := by
  have e1 := (Stretch.writesFrom (F := Ideal)).read_unary 1312 (x := main_v288) (y := main_v1312) rfl (fun _ => by decide) (fun b => m (c, b))
  have e2 := (Stretch.writesFrom (F := Ideal)).read_unary 288 (x := main_v4) (y := main_v288) rfl (fun _ => by decide) (fun b => m (c, b))
  unfold R
  rw [e1, e2]
  exact row_spec _ 741 (by decide) (by decide) _ _

theorem row_284 : IsRows (wfd m c) 284 (R m c main_v1313 : S1x1024.Idx → EReal) := by
  have e1 := (Stretch.writesFrom (F := Ideal)).read_unary 1313 (x := main_v289) (y := main_v1313) rfl (fun _ => by decide) (fun b => m (c, b))
  have e2 := (Stretch.writesFrom (F := Ideal)).read_unary 289 (x := main_v4) (y := main_v289) rfl (fun _ => by decide) (fun b => m (c, b))
  unfold R
  rw [e1, e2]
  exact row_spec _ 740 (by decide) (by decide) _ _

theorem row_285 : IsRows (wfd m c) 285 (R m c main_v1314 : S1x1024.Idx → EReal) := by
  have e1 := (Stretch.writesFrom (F := Ideal)).read_unary 1314 (x := main_v290) (y := main_v1314) rfl (fun _ => by decide) (fun b => m (c, b))
  have e2 := (Stretch.writesFrom (F := Ideal)).read_unary 290 (x := main_v4) (y := main_v290) rfl (fun _ => by decide) (fun b => m (c, b))
  unfold R
  rw [e1, e2]
  exact row_spec _ 739 (by decide) (by decide) _ _

theorem row_286 : IsRows (wfd m c) 286 (R m c main_v1315 : S1x1024.Idx → EReal) := by
  have e1 := (Stretch.writesFrom (F := Ideal)).read_unary 1315 (x := main_v291) (y := main_v1315) rfl (fun _ => by decide) (fun b => m (c, b))
  have e2 := (Stretch.writesFrom (F := Ideal)).read_unary 291 (x := main_v4) (y := main_v291) rfl (fun _ => by decide) (fun b => m (c, b))
  unfold R
  rw [e1, e2]
  exact row_spec _ 738 (by decide) (by decide) _ _

theorem row_287 : IsRows (wfd m c) 287 (R m c main_v1316 : S1x1024.Idx → EReal) := by
  have e1 := (Stretch.writesFrom (F := Ideal)).read_unary 1316 (x := main_v292) (y := main_v1316) rfl (fun _ => by decide) (fun b => m (c, b))
  have e2 := (Stretch.writesFrom (F := Ideal)).read_unary 292 (x := main_v4) (y := main_v292) rfl (fun _ => by decide) (fun b => m (c, b))
  unfold R
  rw [e1, e2]
  exact row_spec _ 737 (by decide) (by decide) _ _

theorem row_288 : IsRows (wfd m c) 288 (R m c main_v1317 : S1x1024.Idx → EReal) := by
  have e1 := (Stretch.writesFrom (F := Ideal)).read_unary 1317 (x := main_v293) (y := main_v1317) rfl (fun _ => by decide) (fun b => m (c, b))
  have e2 := (Stretch.writesFrom (F := Ideal)).read_unary 293 (x := main_v4) (y := main_v293) rfl (fun _ => by decide) (fun b => m (c, b))
  unfold R
  rw [e1, e2]
  exact row_spec _ 736 (by decide) (by decide) _ _

theorem row_289 : IsRows (wfd m c) 289 (R m c main_v1318 : S1x1024.Idx → EReal) := by
  have e1 := (Stretch.writesFrom (F := Ideal)).read_unary 1318 (x := main_v294) (y := main_v1318) rfl (fun _ => by decide) (fun b => m (c, b))
  have e2 := (Stretch.writesFrom (F := Ideal)).read_unary 294 (x := main_v4) (y := main_v294) rfl (fun _ => by decide) (fun b => m (c, b))
  unfold R
  rw [e1, e2]
  exact row_spec _ 735 (by decide) (by decide) _ _

theorem row_290 : IsRows (wfd m c) 290 (R m c main_v1319 : S1x1024.Idx → EReal) := by
  have e1 := (Stretch.writesFrom (F := Ideal)).read_unary 1319 (x := main_v295) (y := main_v1319) rfl (fun _ => by decide) (fun b => m (c, b))
  have e2 := (Stretch.writesFrom (F := Ideal)).read_unary 295 (x := main_v4) (y := main_v295) rfl (fun _ => by decide) (fun b => m (c, b))
  unfold R
  rw [e1, e2]
  exact row_spec _ 734 (by decide) (by decide) _ _

theorem row_291 : IsRows (wfd m c) 291 (R m c main_v1320 : S1x1024.Idx → EReal) := by
  have e1 := (Stretch.writesFrom (F := Ideal)).read_unary 1320 (x := main_v296) (y := main_v1320) rfl (fun _ => by decide) (fun b => m (c, b))
  have e2 := (Stretch.writesFrom (F := Ideal)).read_unary 296 (x := main_v4) (y := main_v296) rfl (fun _ => by decide) (fun b => m (c, b))
  unfold R
  rw [e1, e2]
  exact row_spec _ 733 (by decide) (by decide) _ _

theorem row_292 : IsRows (wfd m c) 292 (R m c main_v1321 : S1x1024.Idx → EReal) := by
  have e1 := (Stretch.writesFrom (F := Ideal)).read_unary 1321 (x := main_v297) (y := main_v1321) rfl (fun _ => by decide) (fun b => m (c, b))
  have e2 := (Stretch.writesFrom (F := Ideal)).read_unary 297 (x := main_v4) (y := main_v297) rfl (fun _ => by decide) (fun b => m (c, b))
  unfold R
  rw [e1, e2]
  exact row_spec _ 732 (by decide) (by decide) _ _

theorem row_293 : IsRows (wfd m c) 293 (R m c main_v1322 : S1x1024.Idx → EReal) := by
  have e1 := (Stretch.writesFrom (F := Ideal)).read_unary 1322 (x := main_v298) (y := main_v1322) rfl (fun _ => by decide) (fun b => m (c, b))
  have e2 := (Stretch.writesFrom (F := Ideal)).read_unary 298 (x := main_v4) (y := main_v298) rfl (fun _ => by decide) (fun b => m (c, b))
  unfold R
  rw [e1, e2]
  exact row_spec _ 731 (by decide) (by decide) _ _

theorem row_294 : IsRows (wfd m c) 294 (R m c main_v1323 : S1x1024.Idx → EReal) := by
  have e1 := (Stretch.writesFrom (F := Ideal)).read_unary 1323 (x := main_v299) (y := main_v1323) rfl (fun _ => by decide) (fun b => m (c, b))
  have e2 := (Stretch.writesFrom (F := Ideal)).read_unary 299 (x := main_v4) (y := main_v299) rfl (fun _ => by decide) (fun b => m (c, b))
  unfold R
  rw [e1, e2]
  exact row_spec _ 730 (by decide) (by decide) _ _

theorem row_295 : IsRows (wfd m c) 295 (R m c main_v1324 : S1x1024.Idx → EReal) := by
  have e1 := (Stretch.writesFrom (F := Ideal)).read_unary 1324 (x := main_v300) (y := main_v1324) rfl (fun _ => by decide) (fun b => m (c, b))
  have e2 := (Stretch.writesFrom (F := Ideal)).read_unary 300 (x := main_v4) (y := main_v300) rfl (fun _ => by decide) (fun b => m (c, b))
  unfold R
  rw [e1, e2]
  exact row_spec _ 729 (by decide) (by decide) _ _

theorem row_296 : IsRows (wfd m c) 296 (R m c main_v1325 : S1x1024.Idx → EReal) := by
  have e1 := (Stretch.writesFrom (F := Ideal)).read_unary 1325 (x := main_v301) (y := main_v1325) rfl (fun _ => by decide) (fun b => m (c, b))
  have e2 := (Stretch.writesFrom (F := Ideal)).read_unary 301 (x := main_v4) (y := main_v301) rfl (fun _ => by decide) (fun b => m (c, b))
  unfold R
  rw [e1, e2]
  exact row_spec _ 728 (by decide) (by decide) _ _

theorem row_297 : IsRows (wfd m c) 297 (R m c main_v1326 : S1x1024.Idx → EReal) := by
  have e1 := (Stretch.writesFrom (F := Ideal)).read_unary 1326 (x := main_v302) (y := main_v1326) rfl (fun _ => by decide) (fun b => m (c, b))
  have e2 := (Stretch.writesFrom (F := Ideal)).read_unary 302 (x := main_v4) (y := main_v302) rfl (fun _ => by decide) (fun b => m (c, b))
  unfold R
  rw [e1, e2]
  exact row_spec _ 727 (by decide) (by decide) _ _

theorem row_298 : IsRows (wfd m c) 298 (R m c main_v1327 : S1x1024.Idx → EReal) := by
  have e1 := (Stretch.writesFrom (F := Ideal)).read_unary 1327 (x := main_v303) (y := main_v1327) rfl (fun _ => by decide) (fun b => m (c, b))
  have e2 := (Stretch.writesFrom (F := Ideal)).read_unary 303 (x := main_v4) (y := main_v303) rfl (fun _ => by decide) (fun b => m (c, b))
  unfold R
  rw [e1, e2]
  exact row_spec _ 726 (by decide) (by decide) _ _

theorem row_299 : IsRows (wfd m c) 299 (R m c main_v1328 : S1x1024.Idx → EReal) := by
  have e1 := (Stretch.writesFrom (F := Ideal)).read_unary 1328 (x := main_v304) (y := main_v1328) rfl (fun _ => by decide) (fun b => m (c, b))
  have e2 := (Stretch.writesFrom (F := Ideal)).read_unary 304 (x := main_v4) (y := main_v304) rfl (fun _ => by decide) (fun b => m (c, b))
  unfold R
  rw [e1, e2]
  exact row_spec _ 725 (by decide) (by decide) _ _

theorem row_300 : IsRows (wfd m c) 300 (R m c main_v1329 : S1x1024.Idx → EReal) := by
  have e1 := (Stretch.writesFrom (F := Ideal)).read_unary 1329 (x := main_v305) (y := main_v1329) rfl (fun _ => by decide) (fun b => m (c, b))
  have e2 := (Stretch.writesFrom (F := Ideal)).read_unary 305 (x := main_v4) (y := main_v305) rfl (fun _ => by decide) (fun b => m (c, b))
  unfold R
  rw [e1, e2]
  exact row_spec _ 724 (by decide) (by decide) _ _

theorem row_301 : IsRows (wfd m c) 301 (R m c main_v1330 : S1x1024.Idx → EReal) := by
  have e1 := (Stretch.writesFrom (F := Ideal)).read_unary 1330 (x := main_v306) (y := main_v1330) rfl (fun _ => by decide) (fun b => m (c, b))
  have e2 := (Stretch.writesFrom (F := Ideal)).read_unary 306 (x := main_v4) (y := main_v306) rfl (fun _ => by decide) (fun b => m (c, b))
  unfold R
  rw [e1, e2]
  exact row_spec _ 723 (by decide) (by decide) _ _

theorem row_302 : IsRows (wfd m c) 302 (R m c main_v1331 : S1x1024.Idx → EReal) := by
  have e1 := (Stretch.writesFrom (F := Ideal)).read_unary 1331 (x := main_v307) (y := main_v1331) rfl (fun _ => by decide) (fun b => m (c, b))
  have e2 := (Stretch.writesFrom (F := Ideal)).read_unary 307 (x := main_v4) (y := main_v307) rfl (fun _ => by decide) (fun b => m (c, b))
  unfold R
  rw [e1, e2]
  exact row_spec _ 722 (by decide) (by decide) _ _

theorem row_303 : IsRows (wfd m c) 303 (R m c main_v1332 : S1x1024.Idx → EReal) := by
  have e1 := (Stretch.writesFrom (F := Ideal)).read_unary 1332 (x := main_v308) (y := main_v1332) rfl (fun _ => by decide) (fun b => m (c, b))
  have e2 := (Stretch.writesFrom (F := Ideal)).read_unary 308 (x := main_v4) (y := main_v308) rfl (fun _ => by decide) (fun b => m (c, b))
  unfold R
  rw [e1, e2]
  exact row_spec _ 721 (by decide) (by decide) _ _

theorem row_304 : IsRows (wfd m c) 304 (R m c main_v1333 : S1x1024.Idx → EReal) := by
  have e1 := (Stretch.writesFrom (F := Ideal)).read_unary 1333 (x := main_v309) (y := main_v1333) rfl (fun _ => by decide) (fun b => m (c, b))
  have e2 := (Stretch.writesFrom (F := Ideal)).read_unary 309 (x := main_v4) (y := main_v309) rfl (fun _ => by decide) (fun b => m (c, b))
  unfold R
  rw [e1, e2]
  exact row_spec _ 720 (by decide) (by decide) _ _

theorem row_305 : IsRows (wfd m c) 305 (R m c main_v1334 : S1x1024.Idx → EReal) := by
  have e1 := (Stretch.writesFrom (F := Ideal)).read_unary 1334 (x := main_v310) (y := main_v1334) rfl (fun _ => by decide) (fun b => m (c, b))
  have e2 := (Stretch.writesFrom (F := Ideal)).read_unary 310 (x := main_v4) (y := main_v310) rfl (fun _ => by decide) (fun b => m (c, b))
  unfold R
  rw [e1, e2]
  exact row_spec _ 719 (by decide) (by decide) _ _

theorem row_306 : IsRows (wfd m c) 306 (R m c main_v1335 : S1x1024.Idx → EReal) := by
  have e1 := (Stretch.writesFrom (F := Ideal)).read_unary 1335 (x := main_v311) (y := main_v1335) rfl (fun _ => by decide) (fun b => m (c, b))
  have e2 := (Stretch.writesFrom (F := Ideal)).read_unary 311 (x := main_v4) (y := main_v311) rfl (fun _ => by decide) (fun b => m (c, b))
  unfold R
  rw [e1, e2]
  exact row_spec _ 718 (by decide) (by decide) _ _

theorem row_307 : IsRows (wfd m c) 307 (R m c main_v1336 : S1x1024.Idx → EReal) := by
  have e1 := (Stretch.writesFrom (F := Ideal)).read_unary 1336 (x := main_v312) (y := main_v1336) rfl (fun _ => by decide) (fun b => m (c, b))
  have e2 := (Stretch.writesFrom (F := Ideal)).read_unary 312 (x := main_v4) (y := main_v312) rfl (fun _ => by decide) (fun b => m (c, b))
  unfold R
  rw [e1, e2]
  exact row_spec _ 717 (by decide) (by decide) _ _

theorem row_308 : IsRows (wfd m c) 308 (R m c main_v1337 : S1x1024.Idx → EReal) := by
  have e1 := (Stretch.writesFrom (F := Ideal)).read_unary 1337 (x := main_v313) (y := main_v1337) rfl (fun _ => by decide) (fun b => m (c, b))
  have e2 := (Stretch.writesFrom (F := Ideal)).read_unary 313 (x := main_v4) (y := main_v313) rfl (fun _ => by decide) (fun b => m (c, b))
  unfold R
  rw [e1, e2]
  exact row_spec _ 716 (by decide) (by decide) _ _

theorem row_309 : IsRows (wfd m c) 309 (R m c main_v1338 : S1x1024.Idx → EReal) := by
  have e1 := (Stretch.writesFrom (F := Ideal)).read_unary 1338 (x := main_v314) (y := main_v1338) rfl (fun _ => by decide) (fun b => m (c, b))
  have e2 := (Stretch.writesFrom (F := Ideal)).read_unary 314 (x := main_v4) (y := main_v314) rfl (fun _ => by decide) (fun b => m (c, b))
  unfold R
  rw [e1, e2]
  exact row_spec _ 715 (by decide) (by decide) _ _

theorem row_310 : IsRows (wfd m c) 310 (R m c main_v1339 : S1x1024.Idx → EReal) := by
  have e1 := (Stretch.writesFrom (F := Ideal)).read_unary 1339 (x := main_v315) (y := main_v1339) rfl (fun _ => by decide) (fun b => m (c, b))
  have e2 := (Stretch.writesFrom (F := Ideal)).read_unary 315 (x := main_v4) (y := main_v315) rfl (fun _ => by decide) (fun b => m (c, b))
  unfold R
  rw [e1, e2]
  exact row_spec _ 714 (by decide) (by decide) _ _

theorem row_311 : IsRows (wfd m c) 311 (R m c main_v1340 : S1x1024.Idx → EReal) := by
  have e1 := (Stretch.writesFrom (F := Ideal)).read_unary 1340 (x := main_v316) (y := main_v1340) rfl (fun _ => by decide) (fun b => m (c, b))
  have e2 := (Stretch.writesFrom (F := Ideal)).read_unary 316 (x := main_v4) (y := main_v316) rfl (fun _ => by decide) (fun b => m (c, b))
  unfold R
  rw [e1, e2]
  exact row_spec _ 713 (by decide) (by decide) _ _

theorem row_312 : IsRows (wfd m c) 312 (R m c main_v1341 : S1x1024.Idx → EReal) := by
  have e1 := (Stretch.writesFrom (F := Ideal)).read_unary 1341 (x := main_v317) (y := main_v1341) rfl (fun _ => by decide) (fun b => m (c, b))
  have e2 := (Stretch.writesFrom (F := Ideal)).read_unary 317 (x := main_v4) (y := main_v317) rfl (fun _ => by decide) (fun b => m (c, b))
  unfold R
  rw [e1, e2]
  exact row_spec _ 712 (by decide) (by decide) _ _

theorem row_313 : IsRows (wfd m c) 313 (R m c main_v1342 : S1x1024.Idx → EReal) := by
  have e1 := (Stretch.writesFrom (F := Ideal)).read_unary 1342 (x := main_v318) (y := main_v1342) rfl (fun _ => by decide) (fun b => m (c, b))
  have e2 := (Stretch.writesFrom (F := Ideal)).read_unary 318 (x := main_v4) (y := main_v318) rfl (fun _ => by decide) (fun b => m (c, b))
  unfold R
  rw [e1, e2]
  exact row_spec _ 711 (by decide) (by decide) _ _

theorem row_314 : IsRows (wfd m c) 314 (R m c main_v1343 : S1x1024.Idx → EReal) := by
  have e1 := (Stretch.writesFrom (F := Ideal)).read_unary 1343 (x := main_v319) (y := main_v1343) rfl (fun _ => by decide) (fun b => m (c, b))
  have e2 := (Stretch.writesFrom (F := Ideal)).read_unary 319 (x := main_v4) (y := main_v319) rfl (fun _ => by decide) (fun b => m (c, b))
  unfold R
  rw [e1, e2]
  exact row_spec _ 710 (by decide) (by decide) _ _

theorem row_315 : IsRows (wfd m c) 315 (R m c main_v1344 : S1x1024.Idx → EReal) := by
  have e1 := (Stretch.writesFrom (F := Ideal)).read_unary 1344 (x := main_v320) (y := main_v1344) rfl (fun _ => by decide) (fun b => m (c, b))
  have e2 := (Stretch.writesFrom (F := Ideal)).read_unary 320 (x := main_v4) (y := main_v320) rfl (fun _ => by decide) (fun b => m (c, b))
  unfold R
  rw [e1, e2]
  exact row_spec _ 709 (by decide) (by decide) _ _

theorem row_316 : IsRows (wfd m c) 316 (R m c main_v1345 : S1x1024.Idx → EReal) := by
  have e1 := (Stretch.writesFrom (F := Ideal)).read_unary 1345 (x := main_v321) (y := main_v1345) rfl (fun _ => by decide) (fun b => m (c, b))
  have e2 := (Stretch.writesFrom (F := Ideal)).read_unary 321 (x := main_v4) (y := main_v321) rfl (fun _ => by decide) (fun b => m (c, b))
  unfold R
  rw [e1, e2]
  exact row_spec _ 708 (by decide) (by decide) _ _

theorem row_317 : IsRows (wfd m c) 317 (R m c main_v1346 : S1x1024.Idx → EReal) := by
  have e1 := (Stretch.writesFrom (F := Ideal)).read_unary 1346 (x := main_v322) (y := main_v1346) rfl (fun _ => by decide) (fun b => m (c, b))
  have e2 := (Stretch.writesFrom (F := Ideal)).read_unary 322 (x := main_v4) (y := main_v322) rfl (fun _ => by decide) (fun b => m (c, b))
  unfold R
  rw [e1, e2]
  exact row_spec _ 707 (by decide) (by decide) _ _

theorem row_318 : IsRows (wfd m c) 318 (R m c main_v1347 : S1x1024.Idx → EReal) := by
  have e1 := (Stretch.writesFrom (F := Ideal)).read_unary 1347 (x := main_v323) (y := main_v1347) rfl (fun _ => by decide) (fun b => m (c, b))
  have e2 := (Stretch.writesFrom (F := Ideal)).read_unary 323 (x := main_v4) (y := main_v323) rfl (fun _ => by decide) (fun b => m (c, b))
  unfold R
  rw [e1, e2]
  exact row_spec _ 706 (by decide) (by decide) _ _

theorem row_319 : IsRows (wfd m c) 319 (R m c main_v1348 : S1x1024.Idx → EReal) := by
  have e1 := (Stretch.writesFrom (F := Ideal)).read_unary 1348 (x := main_v324) (y := main_v1348) rfl (fun _ => by decide) (fun b => m (c, b))
  have e2 := (Stretch.writesFrom (F := Ideal)).read_unary 324 (x := main_v4) (y := main_v324) rfl (fun _ => by decide) (fun b => m (c, b))
  unfold R
  rw [e1, e2]
  exact row_spec _ 705 (by decide) (by decide) _ _

theorem row_320 : IsRows (wfd m c) 320 (R m c main_v1349 : S1x1024.Idx → EReal) := by
  have e1 := (Stretch.writesFrom (F := Ideal)).read_unary 1349 (x := main_v325) (y := main_v1349) rfl (fun _ => by decide) (fun b => m (c, b))
  have e2 := (Stretch.writesFrom (F := Ideal)).read_unary 325 (x := main_v4) (y := main_v325) rfl (fun _ => by decide) (fun b => m (c, b))
  unfold R
  rw [e1, e2]
  exact row_spec _ 704 (by decide) (by decide) _ _

theorem row_321 : IsRows (wfd m c) 321 (R m c main_v1350 : S1x1024.Idx → EReal) := by
  have e1 := (Stretch.writesFrom (F := Ideal)).read_unary 1350 (x := main_v326) (y := main_v1350) rfl (fun _ => by decide) (fun b => m (c, b))
  have e2 := (Stretch.writesFrom (F := Ideal)).read_unary 326 (x := main_v4) (y := main_v326) rfl (fun _ => by decide) (fun b => m (c, b))
  unfold R
  rw [e1, e2]
  exact row_spec _ 703 (by decide) (by decide) _ _

theorem row_322 : IsRows (wfd m c) 322 (R m c main_v1351 : S1x1024.Idx → EReal) := by
  have e1 := (Stretch.writesFrom (F := Ideal)).read_unary 1351 (x := main_v327) (y := main_v1351) rfl (fun _ => by decide) (fun b => m (c, b))
  have e2 := (Stretch.writesFrom (F := Ideal)).read_unary 327 (x := main_v4) (y := main_v327) rfl (fun _ => by decide) (fun b => m (c, b))
  unfold R
  rw [e1, e2]
  exact row_spec _ 702 (by decide) (by decide) _ _

theorem row_323 : IsRows (wfd m c) 323 (R m c main_v1352 : S1x1024.Idx → EReal) := by
  have e1 := (Stretch.writesFrom (F := Ideal)).read_unary 1352 (x := main_v328) (y := main_v1352) rfl (fun _ => by decide) (fun b => m (c, b))
  have e2 := (Stretch.writesFrom (F := Ideal)).read_unary 328 (x := main_v4) (y := main_v328) rfl (fun _ => by decide) (fun b => m (c, b))
  unfold R
  rw [e1, e2]
  exact row_spec _ 701 (by decide) (by decide) _ _

theorem row_324 : IsRows (wfd m c) 324 (R m c main_v1353 : S1x1024.Idx → EReal) := by
  have e1 := (Stretch.writesFrom (F := Ideal)).read_unary 1353 (x := main_v329) (y := main_v1353) rfl (fun _ => by decide) (fun b => m (c, b))
  have e2 := (Stretch.writesFrom (F := Ideal)).read_unary 329 (x := main_v4) (y := main_v329) rfl (fun _ => by decide) (fun b => m (c, b))
  unfold R
  rw [e1, e2]
  exact row_spec _ 700 (by decide) (by decide) _ _

theorem row_325 : IsRows (wfd m c) 325 (R m c main_v1354 : S1x1024.Idx → EReal) := by
  have e1 := (Stretch.writesFrom (F := Ideal)).read_unary 1354 (x := main_v330) (y := main_v1354) rfl (fun _ => by decide) (fun b => m (c, b))
  have e2 := (Stretch.writesFrom (F := Ideal)).read_unary 330 (x := main_v4) (y := main_v330) rfl (fun _ => by decide) (fun b => m (c, b))
  unfold R
  rw [e1, e2]
  exact row_spec _ 699 (by decide) (by decide) _ _

theorem row_326 : IsRows (wfd m c) 326 (R m c main_v1355 : S1x1024.Idx → EReal) := by
  have e1 := (Stretch.writesFrom (F := Ideal)).read_unary 1355 (x := main_v331) (y := main_v1355) rfl (fun _ => by decide) (fun b => m (c, b))
  have e2 := (Stretch.writesFrom (F := Ideal)).read_unary 331 (x := main_v4) (y := main_v331) rfl (fun _ => by decide) (fun b => m (c, b))
  unfold R
  rw [e1, e2]
  exact row_spec _ 698 (by decide) (by decide) _ _

theorem row_327 : IsRows (wfd m c) 327 (R m c main_v1356 : S1x1024.Idx → EReal) := by
  have e1 := (Stretch.writesFrom (F := Ideal)).read_unary 1356 (x := main_v332) (y := main_v1356) rfl (fun _ => by decide) (fun b => m (c, b))
  have e2 := (Stretch.writesFrom (F := Ideal)).read_unary 332 (x := main_v4) (y := main_v332) rfl (fun _ => by decide) (fun b => m (c, b))
  unfold R
  rw [e1, e2]
  exact row_spec _ 697 (by decide) (by decide) _ _

theorem row_328 : IsRows (wfd m c) 328 (R m c main_v1357 : S1x1024.Idx → EReal) := by
  have e1 := (Stretch.writesFrom (F := Ideal)).read_unary 1357 (x := main_v333) (y := main_v1357) rfl (fun _ => by decide) (fun b => m (c, b))
  have e2 := (Stretch.writesFrom (F := Ideal)).read_unary 333 (x := main_v4) (y := main_v333) rfl (fun _ => by decide) (fun b => m (c, b))
  unfold R
  rw [e1, e2]
  exact row_spec _ 696 (by decide) (by decide) _ _

theorem row_329 : IsRows (wfd m c) 329 (R m c main_v1358 : S1x1024.Idx → EReal) := by
  have e1 := (Stretch.writesFrom (F := Ideal)).read_unary 1358 (x := main_v334) (y := main_v1358) rfl (fun _ => by decide) (fun b => m (c, b))
  have e2 := (Stretch.writesFrom (F := Ideal)).read_unary 334 (x := main_v4) (y := main_v334) rfl (fun _ => by decide) (fun b => m (c, b))
  unfold R
  rw [e1, e2]
  exact row_spec _ 695 (by decide) (by decide) _ _

theorem row_330 : IsRows (wfd m c) 330 (R m c main_v1359 : S1x1024.Idx → EReal) := by
  have e1 := (Stretch.writesFrom (F := Ideal)).read_unary 1359 (x := main_v335) (y := main_v1359) rfl (fun _ => by decide) (fun b => m (c, b))
  have e2 := (Stretch.writesFrom (F := Ideal)).read_unary 335 (x := main_v4) (y := main_v335) rfl (fun _ => by decide) (fun b => m (c, b))
  unfold R
  rw [e1, e2]
  exact row_spec _ 694 (by decide) (by decide) _ _

theorem row_331 : IsRows (wfd m c) 331 (R m c main_v1360 : S1x1024.Idx → EReal) := by
  have e1 := (Stretch.writesFrom (F := Ideal)).read_unary 1360 (x := main_v336) (y := main_v1360) rfl (fun _ => by decide) (fun b => m (c, b))
  have e2 := (Stretch.writesFrom (F := Ideal)).read_unary 336 (x := main_v4) (y := main_v336) rfl (fun _ => by decide) (fun b => m (c, b))
  unfold R
  rw [e1, e2]
  exact row_spec _ 693 (by decide) (by decide) _ _

theorem row_332 : IsRows (wfd m c) 332 (R m c main_v1361 : S1x1024.Idx → EReal) := by
  have e1 := (Stretch.writesFrom (F := Ideal)).read_unary 1361 (x := main_v337) (y := main_v1361) rfl (fun _ => by decide) (fun b => m (c, b))
  have e2 := (Stretch.writesFrom (F := Ideal)).read_unary 337 (x := main_v4) (y := main_v337) rfl (fun _ => by decide) (fun b => m (c, b))
  unfold R
  rw [e1, e2]
  exact row_spec _ 692 (by decide) (by decide) _ _

theorem row_333 : IsRows (wfd m c) 333 (R m c main_v1362 : S1x1024.Idx → EReal) := by
  have e1 := (Stretch.writesFrom (F := Ideal)).read_unary 1362 (x := main_v338) (y := main_v1362) rfl (fun _ => by decide) (fun b => m (c, b))
  have e2 := (Stretch.writesFrom (F := Ideal)).read_unary 338 (x := main_v4) (y := main_v338) rfl (fun _ => by decide) (fun b => m (c, b))
  unfold R
  rw [e1, e2]
  exact row_spec _ 691 (by decide) (by decide) _ _

theorem row_334 : IsRows (wfd m c) 334 (R m c main_v1363 : S1x1024.Idx → EReal) := by
  have e1 := (Stretch.writesFrom (F := Ideal)).read_unary 1363 (x := main_v339) (y := main_v1363) rfl (fun _ => by decide) (fun b => m (c, b))
  have e2 := (Stretch.writesFrom (F := Ideal)).read_unary 339 (x := main_v4) (y := main_v339) rfl (fun _ => by decide) (fun b => m (c, b))
  unfold R
  rw [e1, e2]
  exact row_spec _ 690 (by decide) (by decide) _ _

theorem row_335 : IsRows (wfd m c) 335 (R m c main_v1364 : S1x1024.Idx → EReal) := by
  have e1 := (Stretch.writesFrom (F := Ideal)).read_unary 1364 (x := main_v340) (y := main_v1364) rfl (fun _ => by decide) (fun b => m (c, b))
  have e2 := (Stretch.writesFrom (F := Ideal)).read_unary 340 (x := main_v4) (y := main_v340) rfl (fun _ => by decide) (fun b => m (c, b))
  unfold R
  rw [e1, e2]
  exact row_spec _ 689 (by decide) (by decide) _ _

theorem row_336 : IsRows (wfd m c) 336 (R m c main_v1365 : S1x1024.Idx → EReal) := by
  have e1 := (Stretch.writesFrom (F := Ideal)).read_unary 1365 (x := main_v341) (y := main_v1365) rfl (fun _ => by decide) (fun b => m (c, b))
  have e2 := (Stretch.writesFrom (F := Ideal)).read_unary 341 (x := main_v4) (y := main_v341) rfl (fun _ => by decide) (fun b => m (c, b))
  unfold R
  rw [e1, e2]
  exact row_spec _ 688 (by decide) (by decide) _ _

theorem row_337 : IsRows (wfd m c) 337 (R m c main_v1366 : S1x1024.Idx → EReal) := by
  have e1 := (Stretch.writesFrom (F := Ideal)).read_unary 1366 (x := main_v342) (y := main_v1366) rfl (fun _ => by decide) (fun b => m (c, b))
  have e2 := (Stretch.writesFrom (F := Ideal)).read_unary 342 (x := main_v4) (y := main_v342) rfl (fun _ => by decide) (fun b => m (c, b))
  unfold R
  rw [e1, e2]
  exact row_spec _ 687 (by decide) (by decide) _ _

theorem row_338 : IsRows (wfd m c) 338 (R m c main_v1367 : S1x1024.Idx → EReal) := by
  have e1 := (Stretch.writesFrom (F := Ideal)).read_unary 1367 (x := main_v343) (y := main_v1367) rfl (fun _ => by decide) (fun b => m (c, b))
  have e2 := (Stretch.writesFrom (F := Ideal)).read_unary 343 (x := main_v4) (y := main_v343) rfl (fun _ => by decide) (fun b => m (c, b))
  unfold R
  rw [e1, e2]
  exact row_spec _ 686 (by decide) (by decide) _ _

theorem row_339 : IsRows (wfd m c) 339 (R m c main_v1368 : S1x1024.Idx → EReal) := by
  have e1 := (Stretch.writesFrom (F := Ideal)).read_unary 1368 (x := main_v344) (y := main_v1368) rfl (fun _ => by decide) (fun b => m (c, b))
  have e2 := (Stretch.writesFrom (F := Ideal)).read_unary 344 (x := main_v4) (y := main_v344) rfl (fun _ => by decide) (fun b => m (c, b))
  unfold R
  rw [e1, e2]
  exact row_spec _ 685 (by decide) (by decide) _ _

theorem row_340 : IsRows (wfd m c) 340 (R m c main_v1369 : S1x1024.Idx → EReal) := by
  have e1 := (Stretch.writesFrom (F := Ideal)).read_unary 1369 (x := main_v345) (y := main_v1369) rfl (fun _ => by decide) (fun b => m (c, b))
  have e2 := (Stretch.writesFrom (F := Ideal)).read_unary 345 (x := main_v4) (y := main_v345) rfl (fun _ => by decide) (fun b => m (c, b))
  unfold R
  rw [e1, e2]
  exact row_spec _ 684 (by decide) (by decide) _ _

theorem row_341 : IsRows (wfd m c) 341 (R m c main_v1370 : S1x1024.Idx → EReal) := by
  have e1 := (Stretch.writesFrom (F := Ideal)).read_unary 1370 (x := main_v346) (y := main_v1370) rfl (fun _ => by decide) (fun b => m (c, b))
  have e2 := (Stretch.writesFrom (F := Ideal)).read_unary 346 (x := main_v4) (y := main_v346) rfl (fun _ => by decide) (fun b => m (c, b))
  unfold R
  rw [e1, e2]
  exact row_spec _ 683 (by decide) (by decide) _ _

theorem row_342 : IsRows (wfd m c) 342 (R m c main_v1371 : S1x1024.Idx → EReal) := by
  have e1 := (Stretch.writesFrom (F := Ideal)).read_unary 1371 (x := main_v347) (y := main_v1371) rfl (fun _ => by decide) (fun b => m (c, b))
  have e2 := (Stretch.writesFrom (F := Ideal)).read_unary 347 (x := main_v4) (y := main_v347) rfl (fun _ => by decide) (fun b => m (c, b))
  unfold R
  rw [e1, e2]
  exact row_spec _ 682 (by decide) (by decide) _ _

theorem row_343 : IsRows (wfd m c) 343 (R m c main_v1372 : S1x1024.Idx → EReal) := by
  have e1 := (Stretch.writesFrom (F := Ideal)).read_unary 1372 (x := main_v348) (y := main_v1372) rfl (fun _ => by decide) (fun b => m (c, b))
  have e2 := (Stretch.writesFrom (F := Ideal)).read_unary 348 (x := main_v4) (y := main_v348) rfl (fun _ => by decide) (fun b => m (c, b))
  unfold R
  rw [e1, e2]
  exact row_spec _ 681 (by decide) (by decide) _ _

theorem row_344 : IsRows (wfd m c) 344 (R m c main_v1373 : S1x1024.Idx → EReal) := by
  have e1 := (Stretch.writesFrom (F := Ideal)).read_unary 1373 (x := main_v349) (y := main_v1373) rfl (fun _ => by decide) (fun b => m (c, b))
  have e2 := (Stretch.writesFrom (F := Ideal)).read_unary 349 (x := main_v4) (y := main_v349) rfl (fun _ => by decide) (fun b => m (c, b))
  unfold R
  rw [e1, e2]
  exact row_spec _ 680 (by decide) (by decide) _ _

theorem row_345 : IsRows (wfd m c) 345 (R m c main_v1374 : S1x1024.Idx → EReal) := by
  have e1 := (Stretch.writesFrom (F := Ideal)).read_unary 1374 (x := main_v350) (y := main_v1374) rfl (fun _ => by decide) (fun b => m (c, b))
  have e2 := (Stretch.writesFrom (F := Ideal)).read_unary 350 (x := main_v4) (y := main_v350) rfl (fun _ => by decide) (fun b => m (c, b))
  unfold R
  rw [e1, e2]
  exact row_spec _ 679 (by decide) (by decide) _ _

theorem row_346 : IsRows (wfd m c) 346 (R m c main_v1375 : S1x1024.Idx → EReal) := by
  have e1 := (Stretch.writesFrom (F := Ideal)).read_unary 1375 (x := main_v351) (y := main_v1375) rfl (fun _ => by decide) (fun b => m (c, b))
  have e2 := (Stretch.writesFrom (F := Ideal)).read_unary 351 (x := main_v4) (y := main_v351) rfl (fun _ => by decide) (fun b => m (c, b))
  unfold R
  rw [e1, e2]
  exact row_spec _ 678 (by decide) (by decide) _ _

theorem row_347 : IsRows (wfd m c) 347 (R m c main_v1376 : S1x1024.Idx → EReal) := by
  have e1 := (Stretch.writesFrom (F := Ideal)).read_unary 1376 (x := main_v352) (y := main_v1376) rfl (fun _ => by decide) (fun b => m (c, b))
  have e2 := (Stretch.writesFrom (F := Ideal)).read_unary 352 (x := main_v4) (y := main_v352) rfl (fun _ => by decide) (fun b => m (c, b))
  unfold R
  rw [e1, e2]
  exact row_spec _ 677 (by decide) (by decide) _ _

theorem row_348 : IsRows (wfd m c) 348 (R m c main_v1377 : S1x1024.Idx → EReal) := by
  have e1 := (Stretch.writesFrom (F := Ideal)).read_unary 1377 (x := main_v353) (y := main_v1377) rfl (fun _ => by decide) (fun b => m (c, b))
  have e2 := (Stretch.writesFrom (F := Ideal)).read_unary 353 (x := main_v4) (y := main_v353) rfl (fun _ => by decide) (fun b => m (c, b))
  unfold R
  rw [e1, e2]
  exact row_spec _ 676 (by decide) (by decide) _ _

theorem row_349 : IsRows (wfd m c) 349 (R m c main_v1378 : S1x1024.Idx → EReal) := by
  have e1 := (Stretch.writesFrom (F := Ideal)).read_unary 1378 (x := main_v354) (y := main_v1378) rfl (fun _ => by decide) (fun b => m (c, b))
  have e2 := (Stretch.writesFrom (F := Ideal)).read_unary 354 (x := main_v4) (y := main_v354) rfl (fun _ => by decide) (fun b => m (c, b))
  unfold R
  rw [e1, e2]
  exact row_spec _ 675 (by decide) (by decide) _ _

theorem row_350 : IsRows (wfd m c) 350 (R m c main_v1379 : S1x1024.Idx → EReal) := by
  have e1 := (Stretch.writesFrom (F := Ideal)).read_unary 1379 (x := main_v355) (y := main_v1379) rfl (fun _ => by decide) (fun b => m (c, b))
  have e2 := (Stretch.writesFrom (F := Ideal)).read_unary 355 (x := main_v4) (y := main_v355) rfl (fun _ => by decide) (fun b => m (c, b))
  unfold R
  rw [e1, e2]
  exact row_spec _ 674 (by decide) (by decide) _ _

theorem row_351 : IsRows (wfd m c) 351 (R m c main_v1380 : S1x1024.Idx → EReal) := by
  have e1 := (Stretch.writesFrom (F := Ideal)).read_unary 1380 (x := main_v356) (y := main_v1380) rfl (fun _ => by decide) (fun b => m (c, b))
  have e2 := (Stretch.writesFrom (F := Ideal)).read_unary 356 (x := main_v4) (y := main_v356) rfl (fun _ => by decide) (fun b => m (c, b))
  unfold R
  rw [e1, e2]
  exact row_spec _ 673 (by decide) (by decide) _ _

theorem row_352 : IsRows (wfd m c) 352 (R m c main_v1381 : S1x1024.Idx → EReal) := by
  have e1 := (Stretch.writesFrom (F := Ideal)).read_unary 1381 (x := main_v357) (y := main_v1381) rfl (fun _ => by decide) (fun b => m (c, b))
  have e2 := (Stretch.writesFrom (F := Ideal)).read_unary 357 (x := main_v4) (y := main_v357) rfl (fun _ => by decide) (fun b => m (c, b))
  unfold R
  rw [e1, e2]
  exact row_spec _ 672 (by decide) (by decide) _ _

theorem row_353 : IsRows (wfd m c) 353 (R m c main_v1382 : S1x1024.Idx → EReal) := by
  have e1 := (Stretch.writesFrom (F := Ideal)).read_unary 1382 (x := main_v358) (y := main_v1382) rfl (fun _ => by decide) (fun b => m (c, b))
  have e2 := (Stretch.writesFrom (F := Ideal)).read_unary 358 (x := main_v4) (y := main_v358) rfl (fun _ => by decide) (fun b => m (c, b))
  unfold R
  rw [e1, e2]
  exact row_spec _ 671 (by decide) (by decide) _ _

theorem row_354 : IsRows (wfd m c) 354 (R m c main_v1383 : S1x1024.Idx → EReal) := by
  have e1 := (Stretch.writesFrom (F := Ideal)).read_unary 1383 (x := main_v359) (y := main_v1383) rfl (fun _ => by decide) (fun b => m (c, b))
  have e2 := (Stretch.writesFrom (F := Ideal)).read_unary 359 (x := main_v4) (y := main_v359) rfl (fun _ => by decide) (fun b => m (c, b))
  unfold R
  rw [e1, e2]
  exact row_spec _ 670 (by decide) (by decide) _ _

theorem row_355 : IsRows (wfd m c) 355 (R m c main_v1384 : S1x1024.Idx → EReal) := by
  have e1 := (Stretch.writesFrom (F := Ideal)).read_unary 1384 (x := main_v360) (y := main_v1384) rfl (fun _ => by decide) (fun b => m (c, b))
  have e2 := (Stretch.writesFrom (F := Ideal)).read_unary 360 (x := main_v4) (y := main_v360) rfl (fun _ => by decide) (fun b => m (c, b))
  unfold R
  rw [e1, e2]
  exact row_spec _ 669 (by decide) (by decide) _ _

theorem row_356 : IsRows (wfd m c) 356 (R m c main_v1385 : S1x1024.Idx → EReal) := by
  have e1 := (Stretch.writesFrom (F := Ideal)).read_unary 1385 (x := main_v361) (y := main_v1385) rfl (fun _ => by decide) (fun b => m (c, b))
  have e2 := (Stretch.writesFrom (F := Ideal)).read_unary 361 (x := main_v4) (y := main_v361) rfl (fun _ => by decide) (fun b => m (c, b))
  unfold R
  rw [e1, e2]
  exact row_spec _ 668 (by decide) (by decide) _ _

theorem row_357 : IsRows (wfd m c) 357 (R m c main_v1386 : S1x1024.Idx → EReal) := by
  have e1 := (Stretch.writesFrom (F := Ideal)).read_unary 1386 (x := main_v362) (y := main_v1386) rfl (fun _ => by decide) (fun b => m (c, b))
  have e2 := (Stretch.writesFrom (F := Ideal)).read_unary 362 (x := main_v4) (y := main_v362) rfl (fun _ => by decide) (fun b => m (c, b))
  unfold R
  rw [e1, e2]
  exact row_spec _ 667 (by decide) (by decide) _ _

theorem row_358 : IsRows (wfd m c) 358 (R m c main_v1387 : S1x1024.Idx → EReal) := by
  have e1 := (Stretch.writesFrom (F := Ideal)).read_unary 1387 (x := main_v363) (y := main_v1387) rfl (fun _ => by decide) (fun b => m (c, b))
  have e2 := (Stretch.writesFrom (F := Ideal)).read_unary 363 (x := main_v4) (y := main_v363) rfl (fun _ => by decide) (fun b => m (c, b))
  unfold R
  rw [e1, e2]
  exact row_spec _ 666 (by decide) (by decide) _ _

theorem row_359 : IsRows (wfd m c) 359 (R m c main_v1388 : S1x1024.Idx → EReal) := by
  have e1 := (Stretch.writesFrom (F := Ideal)).read_unary 1388 (x := main_v364) (y := main_v1388) rfl (fun _ => by decide) (fun b => m (c, b))
  have e2 := (Stretch.writesFrom (F := Ideal)).read_unary 364 (x := main_v4) (y := main_v364) rfl (fun _ => by decide) (fun b => m (c, b))
  unfold R
  rw [e1, e2]
  exact row_spec _ 665 (by decide) (by decide) _ _

theorem row_360 : IsRows (wfd m c) 360 (R m c main_v1389 : S1x1024.Idx → EReal) := by
  have e1 := (Stretch.writesFrom (F := Ideal)).read_unary 1389 (x := main_v365) (y := main_v1389) rfl (fun _ => by decide) (fun b => m (c, b))
  have e2 := (Stretch.writesFrom (F := Ideal)).read_unary 365 (x := main_v4) (y := main_v365) rfl (fun _ => by decide) (fun b => m (c, b))
  unfold R
  rw [e1, e2]
  exact row_spec _ 664 (by decide) (by decide) _ _

theorem row_361 : IsRows (wfd m c) 361 (R m c main_v1390 : S1x1024.Idx → EReal) := by
  have e1 := (Stretch.writesFrom (F := Ideal)).read_unary 1390 (x := main_v366) (y := main_v1390) rfl (fun _ => by decide) (fun b => m (c, b))
  have e2 := (Stretch.writesFrom (F := Ideal)).read_unary 366 (x := main_v4) (y := main_v366) rfl (fun _ => by decide) (fun b => m (c, b))
  unfold R
  rw [e1, e2]
  exact row_spec _ 663 (by decide) (by decide) _ _

theorem row_362 : IsRows (wfd m c) 362 (R m c main_v1391 : S1x1024.Idx → EReal) := by
  have e1 := (Stretch.writesFrom (F := Ideal)).read_unary 1391 (x := main_v367) (y := main_v1391) rfl (fun _ => by decide) (fun b => m (c, b))
  have e2 := (Stretch.writesFrom (F := Ideal)).read_unary 367 (x := main_v4) (y := main_v367) rfl (fun _ => by decide) (fun b => m (c, b))
  unfold R
  rw [e1, e2]
  exact row_spec _ 662 (by decide) (by decide) _ _

theorem row_363 : IsRows (wfd m c) 363 (R m c main_v1392 : S1x1024.Idx → EReal) := by
  have e1 := (Stretch.writesFrom (F := Ideal)).read_unary 1392 (x := main_v368) (y := main_v1392) rfl (fun _ => by decide) (fun b => m (c, b))
  have e2 := (Stretch.writesFrom (F := Ideal)).read_unary 368 (x := main_v4) (y := main_v368) rfl (fun _ => by decide) (fun b => m (c, b))
  unfold R
  rw [e1, e2]
  exact row_spec _ 661 (by decide) (by decide) _ _

theorem row_364 : IsRows (wfd m c) 364 (R m c main_v1393 : S1x1024.Idx → EReal) := by
  have e1 := (Stretch.writesFrom (F := Ideal)).read_unary 1393 (x := main_v369) (y := main_v1393) rfl (fun _ => by decide) (fun b => m (c, b))
  have e2 := (Stretch.writesFrom (F := Ideal)).read_unary 369 (x := main_v4) (y := main_v369) rfl (fun _ => by decide) (fun b => m (c, b))
  unfold R
  rw [e1, e2]
  exact row_spec _ 660 (by decide) (by decide) _ _

theorem row_365 : IsRows (wfd m c) 365 (R m c main_v1394 : S1x1024.Idx → EReal) := by
  have e1 := (Stretch.writesFrom (F := Ideal)).read_unary 1394 (x := main_v370) (y := main_v1394) rfl (fun _ => by decide) (fun b => m (c, b))
  have e2 := (Stretch.writesFrom (F := Ideal)).read_unary 370 (x := main_v4) (y := main_v370) rfl (fun _ => by decide) (fun b => m (c, b))
  unfold R
  rw [e1, e2]
  exact row_spec _ 659 (by decide) (by decide) _ _

theorem row_366 : IsRows (wfd m c) 366 (R m c main_v1395 : S1x1024.Idx → EReal) := by
  have e1 := (Stretch.writesFrom (F := Ideal)).read_unary 1395 (x := main_v371) (y := main_v1395) rfl (fun _ => by decide) (fun b => m (c, b))
  have e2 := (Stretch.writesFrom (F := Ideal)).read_unary 371 (x := main_v4) (y := main_v371) rfl (fun _ => by decide) (fun b => m (c, b))
  unfold R
  rw [e1, e2]
  exact row_spec _ 658 (by decide) (by decide) _ _

theorem row_367 : IsRows (wfd m c) 367 (R m c main_v1396 : S1x1024.Idx → EReal) := by
  have e1 := (Stretch.writesFrom (F := Ideal)).read_unary 1396 (x := main_v372) (y := main_v1396) rfl (fun _ => by decide) (fun b => m (c, b))
  have e2 := (Stretch.writesFrom (F := Ideal)).read_unary 372 (x := main_v4) (y := main_v372) rfl (fun _ => by decide) (fun b => m (c, b))
  unfold R
  rw [e1, e2]
  exact row_spec _ 657 (by decide) (by decide) _ _

theorem row_368 : IsRows (wfd m c) 368 (R m c main_v1397 : S1x1024.Idx → EReal) := by
  have e1 := (Stretch.writesFrom (F := Ideal)).read_unary 1397 (x := main_v373) (y := main_v1397) rfl (fun _ => by decide) (fun b => m (c, b))
  have e2 := (Stretch.writesFrom (F := Ideal)).read_unary 373 (x := main_v4) (y := main_v373) rfl (fun _ => by decide) (fun b => m (c, b))
  unfold R
  rw [e1, e2]
  exact row_spec _ 656 (by decide) (by decide) _ _

theorem row_369 : IsRows (wfd m c) 369 (R m c main_v1398 : S1x1024.Idx → EReal) := by
  have e1 := (Stretch.writesFrom (F := Ideal)).read_unary 1398 (x := main_v374) (y := main_v1398) rfl (fun _ => by decide) (fun b => m (c, b))
  have e2 := (Stretch.writesFrom (F := Ideal)).read_unary 374 (x := main_v4) (y := main_v374) rfl (fun _ => by decide) (fun b => m (c, b))
  unfold R
  rw [e1, e2]
  exact row_spec _ 655 (by decide) (by decide) _ _

theorem row_370 : IsRows (wfd m c) 370 (R m c main_v1399 : S1x1024.Idx → EReal) := by
  have e1 := (Stretch.writesFrom (F := Ideal)).read_unary 1399 (x := main_v375) (y := main_v1399) rfl (fun _ => by decide) (fun b => m (c, b))
  have e2 := (Stretch.writesFrom (F := Ideal)).read_unary 375 (x := main_v4) (y := main_v375) rfl (fun _ => by decide) (fun b => m (c, b))
  unfold R
  rw [e1, e2]
  exact row_spec _ 654 (by decide) (by decide) _ _

theorem row_371 : IsRows (wfd m c) 371 (R m c main_v1400 : S1x1024.Idx → EReal) := by
  have e1 := (Stretch.writesFrom (F := Ideal)).read_unary 1400 (x := main_v376) (y := main_v1400) rfl (fun _ => by decide) (fun b => m (c, b))
  have e2 := (Stretch.writesFrom (F := Ideal)).read_unary 376 (x := main_v4) (y := main_v376) rfl (fun _ => by decide) (fun b => m (c, b))
  unfold R
  rw [e1, e2]
  exact row_spec _ 653 (by decide) (by decide) _ _

theorem row_372 : IsRows (wfd m c) 372 (R m c main_v1401 : S1x1024.Idx → EReal) := by
  have e1 := (Stretch.writesFrom (F := Ideal)).read_unary 1401 (x := main_v377) (y := main_v1401) rfl (fun _ => by decide) (fun b => m (c, b))
  have e2 := (Stretch.writesFrom (F := Ideal)).read_unary 377 (x := main_v4) (y := main_v377) rfl (fun _ => by decide) (fun b => m (c, b))
  unfold R
  rw [e1, e2]
  exact row_spec _ 652 (by decide) (by decide) _ _

theorem row_373 : IsRows (wfd m c) 373 (R m c main_v1402 : S1x1024.Idx → EReal) := by
  have e1 := (Stretch.writesFrom (F := Ideal)).read_unary 1402 (x := main_v378) (y := main_v1402) rfl (fun _ => by decide) (fun b => m (c, b))
  have e2 := (Stretch.writesFrom (F := Ideal)).read_unary 378 (x := main_v4) (y := main_v378) rfl (fun _ => by decide) (fun b => m (c, b))
  unfold R
  rw [e1, e2]
  exact row_spec _ 651 (by decide) (by decide) _ _

theorem row_374 : IsRows (wfd m c) 374 (R m c main_v1403 : S1x1024.Idx → EReal) := by
  have e1 := (Stretch.writesFrom (F := Ideal)).read_unary 1403 (x := main_v379) (y := main_v1403) rfl (fun _ => by decide) (fun b => m (c, b))
  have e2 := (Stretch.writesFrom (F := Ideal)).read_unary 379 (x := main_v4) (y := main_v379) rfl (fun _ => by decide) (fun b => m (c, b))
  unfold R
  rw [e1, e2]
  exact row_spec _ 650 (by decide) (by decide) _ _

theorem row_375 : IsRows (wfd m c) 375 (R m c main_v1404 : S1x1024.Idx → EReal) := by
  have e1 := (Stretch.writesFrom (F := Ideal)).read_unary 1404 (x := main_v380) (y := main_v1404) rfl (fun _ => by decide) (fun b => m (c, b))
  have e2 := (Stretch.writesFrom (F := Ideal)).read_unary 380 (x := main_v4) (y := main_v380) rfl (fun _ => by decide) (fun b => m (c, b))
  unfold R
  rw [e1, e2]
  exact row_spec _ 649 (by decide) (by decide) _ _

theorem row_376 : IsRows (wfd m c) 376 (R m c main_v1405 : S1x1024.Idx → EReal) := by
  have e1 := (Stretch.writesFrom (F := Ideal)).read_unary 1405 (x := main_v381) (y := main_v1405) rfl (fun _ => by decide) (fun b => m (c, b))
  have e2 := (Stretch.writesFrom (F := Ideal)).read_unary 381 (x := main_v4) (y := main_v381) rfl (fun _ => by decide) (fun b => m (c, b))
  unfold R
  rw [e1, e2]
  exact row_spec _ 648 (by decide) (by decide) _ _

theorem row_377 : IsRows (wfd m c) 377 (R m c main_v1406 : S1x1024.Idx → EReal) := by
  have e1 := (Stretch.writesFrom (F := Ideal)).read_unary 1406 (x := main_v382) (y := main_v1406) rfl (fun _ => by decide) (fun b => m (c, b))
  have e2 := (Stretch.writesFrom (F := Ideal)).read_unary 382 (x := main_v4) (y := main_v382) rfl (fun _ => by decide) (fun b => m (c, b))
  unfold R
  rw [e1, e2]
  exact row_spec _ 647 (by decide) (by decide) _ _

theorem row_378 : IsRows (wfd m c) 378 (R m c main_v1407 : S1x1024.Idx → EReal) := by
  have e1 := (Stretch.writesFrom (F := Ideal)).read_unary 1407 (x := main_v383) (y := main_v1407) rfl (fun _ => by decide) (fun b => m (c, b))
  have e2 := (Stretch.writesFrom (F := Ideal)).read_unary 383 (x := main_v4) (y := main_v383) rfl (fun _ => by decide) (fun b => m (c, b))
  unfold R
  rw [e1, e2]
  exact row_spec _ 646 (by decide) (by decide) _ _

theorem row_379 : IsRows (wfd m c) 379 (R m c main_v1408 : S1x1024.Idx → EReal) := by
  have e1 := (Stretch.writesFrom (F := Ideal)).read_unary 1408 (x := main_v384) (y := main_v1408) rfl (fun _ => by decide) (fun b => m (c, b))
  have e2 := (Stretch.writesFrom (F := Ideal)).read_unary 384 (x := main_v4) (y := main_v384) rfl (fun _ => by decide) (fun b => m (c, b))
  unfold R
  rw [e1, e2]
  exact row_spec _ 645 (by decide) (by decide) _ _

theorem row_380 : IsRows (wfd m c) 380 (R m c main_v1409 : S1x1024.Idx → EReal) := by
  have e1 := (Stretch.writesFrom (F := Ideal)).read_unary 1409 (x := main_v385) (y := main_v1409) rfl (fun _ => by decide) (fun b => m (c, b))
  have e2 := (Stretch.writesFrom (F := Ideal)).read_unary 385 (x := main_v4) (y := main_v385) rfl (fun _ => by decide) (fun b => m (c, b))
  unfold R
  rw [e1, e2]
  exact row_spec _ 644 (by decide) (by decide) _ _

theorem row_381 : IsRows (wfd m c) 381 (R m c main_v1410 : S1x1024.Idx → EReal) := by
  have e1 := (Stretch.writesFrom (F := Ideal)).read_unary 1410 (x := main_v386) (y := main_v1410) rfl (fun _ => by decide) (fun b => m (c, b))
  have e2 := (Stretch.writesFrom (F := Ideal)).read_unary 386 (x := main_v4) (y := main_v386) rfl (fun _ => by decide) (fun b => m (c, b))
  unfold R
  rw [e1, e2]
  exact row_spec _ 643 (by decide) (by decide) _ _

theorem row_382 : IsRows (wfd m c) 382 (R m c main_v1411 : S1x1024.Idx → EReal) := by
  have e1 := (Stretch.writesFrom (F := Ideal)).read_unary 1411 (x := main_v387) (y := main_v1411) rfl (fun _ => by decide) (fun b => m (c, b))
  have e2 := (Stretch.writesFrom (F := Ideal)).read_unary 387 (x := main_v4) (y := main_v387) rfl (fun _ => by decide) (fun b => m (c, b))
  unfold R
  rw [e1, e2]
  exact row_spec _ 642 (by decide) (by decide) _ _

theorem row_383 : IsRows (wfd m c) 383 (R m c main_v1412 : S1x1024.Idx → EReal) := by
  have e1 := (Stretch.writesFrom (F := Ideal)).read_unary 1412 (x := main_v388) (y := main_v1412) rfl (fun _ => by decide) (fun b => m (c, b))
  have e2 := (Stretch.writesFrom (F := Ideal)).read_unary 388 (x := main_v4) (y := main_v388) rfl (fun _ => by decide) (fun b => m (c, b))
  unfold R
  rw [e1, e2]
  exact row_spec _ 641 (by decide) (by decide) _ _

end Cert.KernelIdeal.Circ

end
-- ==== Proof.CircRows3.lean ====
/-
  Rows 384 to 511 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_384 : IsRows (wfd m c) 384 (R m c main_v1413 : S1x1024.Idx → EReal) := by
  have e1 := (Stretch.writesFrom (F := Ideal)).read_unary 1413 (x := main_v389) (y := main_v1413) rfl (fun _ => by decide) (fun b => m (c, b))
  have e2 := (Stretch.writesFrom (F := Ideal)).read_unary 389 (x := main_v4) (y := main_v389) rfl (fun _ => by decide) (fun b => m (c, b))
  unfold R
  rw [e1, e2]
  exact row_spec _ 640 (by decide) (by decide) _ _

theorem row_385 : IsRows (wfd m c) 385 (R m c main_v1414 : S1x1024.Idx → EReal) := by
  have e1 := (Stretch.writesFrom (F := Ideal)).read_unary 1414 (x := main_v390) (y := main_v1414) rfl (fun _ => by decide) (fun b => m (c, b))
  have e2 := (Stretch.writesFrom (F := Ideal)).read_unary 390 (x := main_v4) (y := main_v390) rfl (fun _ => by decide) (fun b => m (c, b))
  unfold R
  rw [e1, e2]
  exact row_spec _ 639 (by decide) (by decide) _ _

theorem row_386 : IsRows (wfd m c) 386 (R m c main_v1415 : S1x1024.Idx → EReal) := by
  have e1 := (Stretch.writesFrom (F := Ideal)).read_unary 1415 (x := main_v391) (y := main_v1415) rfl (fun _ => by decide) (fun b => m (c, b))
  have e2 := (Stretch.writesFrom (F := Ideal)).read_unary 391 (x := main_v4) (y := main_v391) rfl (fun _ => by decide) (fun b => m (c, b))
  unfold R
  rw [e1, e2]
  exact row_spec _ 638 (by decide) (by decide) _ _

theorem row_387 : IsRows (wfd m c) 387 (R m c main_v1416 : S1x1024.Idx → EReal) := by
  have e1 := (Stretch.writesFrom (F := Ideal)).read_unary 1416 (x := main_v392) (y := main_v1416) rfl (fun _ => by decide) (fun b => m (c, b))
  have e2 := (Stretch.writesFrom (F := Ideal)).read_unary 392 (x := main_v4) (y := main_v392) rfl (fun _ => by decide) (fun b => m (c, b))
  unfold R
  rw [e1, e2]
  exact row_spec _ 637 (by decide) (by decide) _ _

theorem row_388 : IsRows (wfd m c) 388 (R m c main_v1417 : S1x1024.Idx → EReal) := by
  have e1 := (Stretch.writesFrom (F := Ideal)).read_unary 1417 (x := main_v393) (y := main_v1417) rfl (fun _ => by decide) (fun b => m (c, b))
  have e2 := (Stretch.writesFrom (F := Ideal)).read_unary 393 (x := main_v4) (y := main_v393) rfl (fun _ => by decide) (fun b => m (c, b))
  unfold R
  rw [e1, e2]
  exact row_spec _ 636 (by decide) (by decide) _ _

theorem row_389 : IsRows (wfd m c) 389 (R m c main_v1418 : S1x1024.Idx → EReal) := by
  have e1 := (Stretch.writesFrom (F := Ideal)).read_unary 1418 (x := main_v394) (y := main_v1418) rfl (fun _ => by decide) (fun b => m (c, b))
  have e2 := (Stretch.writesFrom (F := Ideal)).read_unary 394 (x := main_v4) (y := main_v394) rfl (fun _ => by decide) (fun b => m (c, b))
  unfold R
  rw [e1, e2]
  exact row_spec _ 635 (by decide) (by decide) _ _

theorem row_390 : IsRows (wfd m c) 390 (R m c main_v1419 : S1x1024.Idx → EReal) := by
  have e1 := (Stretch.writesFrom (F := Ideal)).read_unary 1419 (x := main_v395) (y := main_v1419) rfl (fun _ => by decide) (fun b => m (c, b))
  have e2 := (Stretch.writesFrom (F := Ideal)).read_unary 395 (x := main_v4) (y := main_v395) rfl (fun _ => by decide) (fun b => m (c, b))
  unfold R
  rw [e1, e2]
  exact row_spec _ 634 (by decide) (by decide) _ _

theorem row_391 : IsRows (wfd m c) 391 (R m c main_v1420 : S1x1024.Idx → EReal) := by
  have e1 := (Stretch.writesFrom (F := Ideal)).read_unary 1420 (x := main_v396) (y := main_v1420) rfl (fun _ => by decide) (fun b => m (c, b))
  have e2 := (Stretch.writesFrom (F := Ideal)).read_unary 396 (x := main_v4) (y := main_v396) rfl (fun _ => by decide) (fun b => m (c, b))
  unfold R
  rw [e1, e2]
  exact row_spec _ 633 (by decide) (by decide) _ _

theorem row_392 : IsRows (wfd m c) 392 (R m c main_v1421 : S1x1024.Idx → EReal) := by
  have e1 := (Stretch.writesFrom (F := Ideal)).read_unary 1421 (x := main_v397) (y := main_v1421) rfl (fun _ => by decide) (fun b => m (c, b))
  have e2 := (Stretch.writesFrom (F := Ideal)).read_unary 397 (x := main_v4) (y := main_v397) rfl (fun _ => by decide) (fun b => m (c, b))
  unfold R
  rw [e1, e2]
  exact row_spec _ 632 (by decide) (by decide) _ _

theorem row_393 : IsRows (wfd m c) 393 (R m c main_v1422 : S1x1024.Idx → EReal) := by
  have e1 := (Stretch.writesFrom (F := Ideal)).read_unary 1422 (x := main_v398) (y := main_v1422) rfl (fun _ => by decide) (fun b => m (c, b))
  have e2 := (Stretch.writesFrom (F := Ideal)).read_unary 398 (x := main_v4) (y := main_v398) rfl (fun _ => by decide) (fun b => m (c, b))
  unfold R
  rw [e1, e2]
  exact row_spec _ 631 (by decide) (by decide) _ _

theorem row_394 : IsRows (wfd m c) 394 (R m c main_v1423 : S1x1024.Idx → EReal) := by
  have e1 := (Stretch.writesFrom (F := Ideal)).read_unary 1423 (x := main_v399) (y := main_v1423) rfl (fun _ => by decide) (fun b => m (c, b))
  have e2 := (Stretch.writesFrom (F := Ideal)).read_unary 399 (x := main_v4) (y := main_v399) rfl (fun _ => by decide) (fun b => m (c, b))
  unfold R
  rw [e1, e2]
  exact row_spec _ 630 (by decide) (by decide) _ _

theorem row_395 : IsRows (wfd m c) 395 (R m c main_v1424 : S1x1024.Idx → EReal) := by
  have e1 := (Stretch.writesFrom (F := Ideal)).read_unary 1424 (x := main_v400) (y := main_v1424) rfl (fun _ => by decide) (fun b => m (c, b))
  have e2 := (Stretch.writesFrom (F := Ideal)).read_unary 400 (x := main_v4) (y := main_v400) rfl (fun _ => by decide) (fun b => m (c, b))
  unfold R
  rw [e1, e2]
  exact row_spec _ 629 (by decide) (by decide) _ _

theorem row_396 : IsRows (wfd m c) 396 (R m c main_v1425 : S1x1024.Idx → EReal) := by
  have e1 := (Stretch.writesFrom (F := Ideal)).read_unary 1425 (x := main_v401) (y := main_v1425) rfl (fun _ => by decide) (fun b => m (c, b))
  have e2 := (Stretch.writesFrom (F := Ideal)).read_unary 401 (x := main_v4) (y := main_v401) rfl (fun _ => by decide) (fun b => m (c, b))
  unfold R
  rw [e1, e2]
  exact row_spec _ 628 (by decide) (by decide) _ _

theorem row_397 : IsRows (wfd m c) 397 (R m c main_v1426 : S1x1024.Idx → EReal) := by
  have e1 := (Stretch.writesFrom (F := Ideal)).read_unary 1426 (x := main_v402) (y := main_v1426) rfl (fun _ => by decide) (fun b => m (c, b))
  have e2 := (Stretch.writesFrom (F := Ideal)).read_unary 402 (x := main_v4) (y := main_v402) rfl (fun _ => by decide) (fun b => m (c, b))
  unfold R
  rw [e1, e2]
  exact row_spec _ 627 (by decide) (by decide) _ _

theorem row_398 : IsRows (wfd m c) 398 (R m c main_v1427 : S1x1024.Idx → EReal) := by
  have e1 := (Stretch.writesFrom (F := Ideal)).read_unary 1427 (x := main_v403) (y := main_v1427) rfl (fun _ => by decide) (fun b => m (c, b))
  have e2 := (Stretch.writesFrom (F := Ideal)).read_unary 403 (x := main_v4) (y := main_v403) rfl (fun _ => by decide) (fun b => m (c, b))
  unfold R
  rw [e1, e2]
  exact row_spec _ 626 (by decide) (by decide) _ _

theorem row_399 : IsRows (wfd m c) 399 (R m c main_v1428 : S1x1024.Idx → EReal) := by
  have e1 := (Stretch.writesFrom (F := Ideal)).read_unary 1428 (x := main_v404) (y := main_v1428) rfl (fun _ => by decide) (fun b => m (c, b))
  have e2 := (Stretch.writesFrom (F := Ideal)).read_unary 404 (x := main_v4) (y := main_v404) rfl (fun _ => by decide) (fun b => m (c, b))
  unfold R
  rw [e1, e2]
  exact row_spec _ 625 (by decide) (by decide) _ _

theorem row_400 : IsRows (wfd m c) 400 (R m c main_v1429 : S1x1024.Idx → EReal) := by
  have e1 := (Stretch.writesFrom (F := Ideal)).read_unary 1429 (x := main_v405) (y := main_v1429) rfl (fun _ => by decide) (fun b => m (c, b))
  have e2 := (Stretch.writesFrom (F := Ideal)).read_unary 405 (x := main_v4) (y := main_v405) rfl (fun _ => by decide) (fun b => m (c, b))
  unfold R
  rw [e1, e2]
  exact row_spec _ 624 (by decide) (by decide) _ _

theorem row_401 : IsRows (wfd m c) 401 (R m c main_v1430 : S1x1024.Idx → EReal) := by
  have e1 := (Stretch.writesFrom (F := Ideal)).read_unary 1430 (x := main_v406) (y := main_v1430) rfl (fun _ => by decide) (fun b => m (c, b))
  have e2 := (Stretch.writesFrom (F := Ideal)).read_unary 406 (x := main_v4) (y := main_v406) rfl (fun _ => by decide) (fun b => m (c, b))
  unfold R
  rw [e1, e2]
  exact row_spec _ 623 (by decide) (by decide) _ _

theorem row_402 : IsRows (wfd m c) 402 (R m c main_v1431 : S1x1024.Idx → EReal) := by
  have e1 := (Stretch.writesFrom (F := Ideal)).read_unary 1431 (x := main_v407) (y := main_v1431) rfl (fun _ => by decide) (fun b => m (c, b))
  have e2 := (Stretch.writesFrom (F := Ideal)).read_unary 407 (x := main_v4) (y := main_v407) rfl (fun _ => by decide) (fun b => m (c, b))
  unfold R
  rw [e1, e2]
  exact row_spec _ 622 (by decide) (by decide) _ _

theorem row_403 : IsRows (wfd m c) 403 (R m c main_v1432 : S1x1024.Idx → EReal) := by
  have e1 := (Stretch.writesFrom (F := Ideal)).read_unary 1432 (x := main_v408) (y := main_v1432) rfl (fun _ => by decide) (fun b => m (c, b))
  have e2 := (Stretch.writesFrom (F := Ideal)).read_unary 408 (x := main_v4) (y := main_v408) rfl (fun _ => by decide) (fun b => m (c, b))
  unfold R
  rw [e1, e2]
  exact row_spec _ 621 (by decide) (by decide) _ _

theorem row_404 : IsRows (wfd m c) 404 (R m c main_v1433 : S1x1024.Idx → EReal) := by
  have e1 := (Stretch.writesFrom (F := Ideal)).read_unary 1433 (x := main_v409) (y := main_v1433) rfl (fun _ => by decide) (fun b => m (c, b))
  have e2 := (Stretch.writesFrom (F := Ideal)).read_unary 409 (x := main_v4) (y := main_v409) rfl (fun _ => by decide) (fun b => m (c, b))
  unfold R
  rw [e1, e2]
  exact row_spec _ 620 (by decide) (by decide) _ _

theorem row_405 : IsRows (wfd m c) 405 (R m c main_v1434 : S1x1024.Idx → EReal) := by
  have e1 := (Stretch.writesFrom (F := Ideal)).read_unary 1434 (x := main_v410) (y := main_v1434) rfl (fun _ => by decide) (fun b => m (c, b))
  have e2 := (Stretch.writesFrom (F := Ideal)).read_unary 410 (x := main_v4) (y := main_v410) rfl (fun _ => by decide) (fun b => m (c, b))
  unfold R
  rw [e1, e2]
  exact row_spec _ 619 (by decide) (by decide) _ _

theorem row_406 : IsRows (wfd m c) 406 (R m c main_v1435 : S1x1024.Idx → EReal) := by
  have e1 := (Stretch.writesFrom (F := Ideal)).read_unary 1435 (x := main_v411) (y := main_v1435) rfl (fun _ => by decide) (fun b => m (c, b))
  have e2 := (Stretch.writesFrom (F := Ideal)).read_unary 411 (x := main_v4) (y := main_v411) rfl (fun _ => by decide) (fun b => m (c, b))
  unfold R
  rw [e1, e2]
  exact row_spec _ 618 (by decide) (by decide) _ _

theorem row_407 : IsRows (wfd m c) 407 (R m c main_v1436 : S1x1024.Idx → EReal) := by
  have e1 := (Stretch.writesFrom (F := Ideal)).read_unary 1436 (x := main_v412) (y := main_v1436) rfl (fun _ => by decide) (fun b => m (c, b))
  have e2 := (Stretch.writesFrom (F := Ideal)).read_unary 412 (x := main_v4) (y := main_v412) rfl (fun _ => by decide) (fun b => m (c, b))
  unfold R
  rw [e1, e2]
  exact row_spec _ 617 (by decide) (by decide) _ _

theorem row_408 : IsRows (wfd m c) 408 (R m c main_v1437 : S1x1024.Idx → EReal) := by
  have e1 := (Stretch.writesFrom (F := Ideal)).read_unary 1437 (x := main_v413) (y := main_v1437) rfl (fun _ => by decide) (fun b => m (c, b))
  have e2 := (Stretch.writesFrom (F := Ideal)).read_unary 413 (x := main_v4) (y := main_v413) rfl (fun _ => by decide) (fun b => m (c, b))
  unfold R
  rw [e1, e2]
  exact row_spec _ 616 (by decide) (by decide) _ _

theorem row_409 : IsRows (wfd m c) 409 (R m c main_v1438 : S1x1024.Idx → EReal) := by
  have e1 := (Stretch.writesFrom (F := Ideal)).read_unary 1438 (x := main_v414) (y := main_v1438) rfl (fun _ => by decide) (fun b => m (c, b))
  have e2 := (Stretch.writesFrom (F := Ideal)).read_unary 414 (x := main_v4) (y := main_v414) rfl (fun _ => by decide) (fun b => m (c, b))
  unfold R
  rw [e1, e2]
  exact row_spec _ 615 (by decide) (by decide) _ _

theorem row_410 : IsRows (wfd m c) 410 (R m c main_v1439 : S1x1024.Idx → EReal) := by
  have e1 := (Stretch.writesFrom (F := Ideal)).read_unary 1439 (x := main_v415) (y := main_v1439) rfl (fun _ => by decide) (fun b => m (c, b))
  have e2 := (Stretch.writesFrom (F := Ideal)).read_unary 415 (x := main_v4) (y := main_v415) rfl (fun _ => by decide) (fun b => m (c, b))
  unfold R
  rw [e1, e2]
  exact row_spec _ 614 (by decide) (by decide) _ _

theorem row_411 : IsRows (wfd m c) 411 (R m c main_v1440 : S1x1024.Idx → EReal) := by
  have e1 := (Stretch.writesFrom (F := Ideal)).read_unary 1440 (x := main_v416) (y := main_v1440) rfl (fun _ => by decide) (fun b => m (c, b))
  have e2 := (Stretch.writesFrom (F := Ideal)).read_unary 416 (x := main_v4) (y := main_v416) rfl (fun _ => by decide) (fun b => m (c, b))
  unfold R
  rw [e1, e2]
  exact row_spec _ 613 (by decide) (by decide) _ _

theorem row_412 : IsRows (wfd m c) 412 (R m c main_v1441 : S1x1024.Idx → EReal) := by
  have e1 := (Stretch.writesFrom (F := Ideal)).read_unary 1441 (x := main_v417) (y := main_v1441) rfl (fun _ => by decide) (fun b => m (c, b))
  have e2 := (Stretch.writesFrom (F := Ideal)).read_unary 417 (x := main_v4) (y := main_v417) rfl (fun _ => by decide) (fun b => m (c, b))
  unfold R
  rw [e1, e2]
  exact row_spec _ 612 (by decide) (by decide) _ _

theorem row_413 : IsRows (wfd m c) 413 (R m c main_v1442 : S1x1024.Idx → EReal) := by
  have e1 := (Stretch.writesFrom (F := Ideal)).read_unary 1442 (x := main_v418) (y := main_v1442) rfl (fun _ => by decide) (fun b => m (c, b))
  have e2 := (Stretch.writesFrom (F := Ideal)).read_unary 418 (x := main_v4) (y := main_v418) rfl (fun _ => by decide) (fun b => m (c, b))
  unfold R
  rw [e1, e2]
  exact row_spec _ 611 (by decide) (by decide) _ _

theorem row_414 : IsRows (wfd m c) 414 (R m c main_v1443 : S1x1024.Idx → EReal) := by
  have e1 := (Stretch.writesFrom (F := Ideal)).read_unary 1443 (x := main_v419) (y := main_v1443) rfl (fun _ => by decide) (fun b => m (c, b))
  have e2 := (Stretch.writesFrom (F := Ideal)).read_unary 419 (x := main_v4) (y := main_v419) rfl (fun _ => by decide) (fun b => m (c, b))
  unfold R
  rw [e1, e2]
  exact row_spec _ 610 (by decide) (by decide) _ _

theorem row_415 : IsRows (wfd m c) 415 (R m c main_v1444 : S1x1024.Idx → EReal) := by
  have e1 := (Stretch.writesFrom (F := Ideal)).read_unary 1444 (x := main_v420) (y := main_v1444) rfl (fun _ => by decide) (fun b => m (c, b))
  have e2 := (Stretch.writesFrom (F := Ideal)).read_unary 420 (x := main_v4) (y := main_v420) rfl (fun _ => by decide) (fun b => m (c, b))
  unfold R
  rw [e1, e2]
  exact row_spec _ 609 (by decide) (by decide) _ _

theorem row_416 : IsRows (wfd m c) 416 (R m c main_v1445 : S1x1024.Idx → EReal) := by
  have e1 := (Stretch.writesFrom (F := Ideal)).read_unary 1445 (x := main_v421) (y := main_v1445) rfl (fun _ => by decide) (fun b => m (c, b))
  have e2 := (Stretch.writesFrom (F := Ideal)).read_unary 421 (x := main_v4) (y := main_v421) rfl (fun _ => by decide) (fun b => m (c, b))
  unfold R
  rw [e1, e2]
  exact row_spec _ 608 (by decide) (by decide) _ _

theorem row_417 : IsRows (wfd m c) 417 (R m c main_v1446 : S1x1024.Idx → EReal) := by
  have e1 := (Stretch.writesFrom (F := Ideal)).read_unary 1446 (x := main_v422) (y := main_v1446) rfl (fun _ => by decide) (fun b => m (c, b))
  have e2 := (Stretch.writesFrom (F := Ideal)).read_unary 422 (x := main_v4) (y := main_v422) rfl (fun _ => by decide) (fun b => m (c, b))
  unfold R
  rw [e1, e2]
  exact row_spec _ 607 (by decide) (by decide) _ _

theorem row_418 : IsRows (wfd m c) 418 (R m c main_v1447 : S1x1024.Idx → EReal) := by
  have e1 := (Stretch.writesFrom (F := Ideal)).read_unary 1447 (x := main_v423) (y := main_v1447) rfl (fun _ => by decide) (fun b => m (c, b))
  have e2 := (Stretch.writesFrom (F := Ideal)).read_unary 423 (x := main_v4) (y := main_v423) rfl (fun _ => by decide) (fun b => m (c, b))
  unfold R
  rw [e1, e2]
  exact row_spec _ 606 (by decide) (by decide) _ _

theorem row_419 : IsRows (wfd m c) 419 (R m c main_v1448 : S1x1024.Idx → EReal) := by
  have e1 := (Stretch.writesFrom (F := Ideal)).read_unary 1448 (x := main_v424) (y := main_v1448) rfl (fun _ => by decide) (fun b => m (c, b))
  have e2 := (Stretch.writesFrom (F := Ideal)).read_unary 424 (x := main_v4) (y := main_v424) rfl (fun _ => by decide) (fun b => m (c, b))
  unfold R
  rw [e1, e2]
  exact row_spec _ 605 (by decide) (by decide) _ _

theorem row_420 : IsRows (wfd m c) 420 (R m c main_v1449 : S1x1024.Idx → EReal) := by
  have e1 := (Stretch.writesFrom (F := Ideal)).read_unary 1449 (x := main_v425) (y := main_v1449) rfl (fun _ => by decide) (fun b => m (c, b))
  have e2 := (Stretch.writesFrom (F := Ideal)).read_unary 425 (x := main_v4) (y := main_v425) rfl (fun _ => by decide) (fun b => m (c, b))
  unfold R
  rw [e1, e2]
  exact row_spec _ 604 (by decide) (by decide) _ _

theorem row_421 : IsRows (wfd m c) 421 (R m c main_v1450 : S1x1024.Idx → EReal) := by
  have e1 := (Stretch.writesFrom (F := Ideal)).read_unary 1450 (x := main_v426) (y := main_v1450) rfl (fun _ => by decide) (fun b => m (c, b))
  have e2 := (Stretch.writesFrom (F := Ideal)).read_unary 426 (x := main_v4) (y := main_v426) rfl (fun _ => by decide) (fun b => m (c, b))
  unfold R
  rw [e1, e2]
  exact row_spec _ 603 (by decide) (by decide) _ _

theorem row_422 : IsRows (wfd m c) 422 (R m c main_v1451 : S1x1024.Idx → EReal) := by
  have e1 := (Stretch.writesFrom (F := Ideal)).read_unary 1451 (x := main_v427) (y := main_v1451) rfl (fun _ => by decide) (fun b => m (c, b))
  have e2 := (Stretch.writesFrom (F := Ideal)).read_unary 427 (x := main_v4) (y := main_v427) rfl (fun _ => by decide) (fun b => m (c, b))
  unfold R
  rw [e1, e2]
  exact row_spec _ 602 (by decide) (by decide) _ _

theorem row_423 : IsRows (wfd m c) 423 (R m c main_v1452 : S1x1024.Idx → EReal) := by
  have e1 := (Stretch.writesFrom (F := Ideal)).read_unary 1452 (x := main_v428) (y := main_v1452) rfl (fun _ => by decide) (fun b => m (c, b))
  have e2 := (Stretch.writesFrom (F := Ideal)).read_unary 428 (x := main_v4) (y := main_v428) rfl (fun _ => by decide) (fun b => m (c, b))
  unfold R
  rw [e1, e2]
  exact row_spec _ 601 (by decide) (by decide) _ _

theorem row_424 : IsRows (wfd m c) 424 (R m c main_v1453 : S1x1024.Idx → EReal) := by
  have e1 := (Stretch.writesFrom (F := Ideal)).read_unary 1453 (x := main_v429) (y := main_v1453) rfl (fun _ => by decide) (fun b => m (c, b))
  have e2 := (Stretch.writesFrom (F := Ideal)).read_unary 429 (x := main_v4) (y := main_v429) rfl (fun _ => by decide) (fun b => m (c, b))
  unfold R
  rw [e1, e2]
  exact row_spec _ 600 (by decide) (by decide) _ _

theorem row_425 : IsRows (wfd m c) 425 (R m c main_v1454 : S1x1024.Idx → EReal) := by
  have e1 := (Stretch.writesFrom (F := Ideal)).read_unary 1454 (x := main_v430) (y := main_v1454) rfl (fun _ => by decide) (fun b => m (c, b))
  have e2 := (Stretch.writesFrom (F := Ideal)).read_unary 430 (x := main_v4) (y := main_v430) rfl (fun _ => by decide) (fun b => m (c, b))
  unfold R
  rw [e1, e2]
  exact row_spec _ 599 (by decide) (by decide) _ _

theorem row_426 : IsRows (wfd m c) 426 (R m c main_v1455 : S1x1024.Idx → EReal) := by
  have e1 := (Stretch.writesFrom (F := Ideal)).read_unary 1455 (x := main_v431) (y := main_v1455) rfl (fun _ => by decide) (fun b => m (c, b))
  have e2 := (Stretch.writesFrom (F := Ideal)).read_unary 431 (x := main_v4) (y := main_v431) rfl (fun _ => by decide) (fun b => m (c, b))
  unfold R
  rw [e1, e2]
  exact row_spec _ 598 (by decide) (by decide) _ _

theorem row_427 : IsRows (wfd m c) 427 (R m c main_v1456 : S1x1024.Idx → EReal) := by
  have e1 := (Stretch.writesFrom (F := Ideal)).read_unary 1456 (x := main_v432) (y := main_v1456) rfl (fun _ => by decide) (fun b => m (c, b))
  have e2 := (Stretch.writesFrom (F := Ideal)).read_unary 432 (x := main_v4) (y := main_v432) rfl (fun _ => by decide) (fun b => m (c, b))
  unfold R
  rw [e1, e2]
  exact row_spec _ 597 (by decide) (by decide) _ _

theorem row_428 : IsRows (wfd m c) 428 (R m c main_v1457 : S1x1024.Idx → EReal) := by
  have e1 := (Stretch.writesFrom (F := Ideal)).read_unary 1457 (x := main_v433) (y := main_v1457) rfl (fun _ => by decide) (fun b => m (c, b))
  have e2 := (Stretch.writesFrom (F := Ideal)).read_unary 433 (x := main_v4) (y := main_v433) rfl (fun _ => by decide) (fun b => m (c, b))
  unfold R
  rw [e1, e2]
  exact row_spec _ 596 (by decide) (by decide) _ _

theorem row_429 : IsRows (wfd m c) 429 (R m c main_v1458 : S1x1024.Idx → EReal) := by
  have e1 := (Stretch.writesFrom (F := Ideal)).read_unary 1458 (x := main_v434) (y := main_v1458) rfl (fun _ => by decide) (fun b => m (c, b))
  have e2 := (Stretch.writesFrom (F := Ideal)).read_unary 434 (x := main_v4) (y := main_v434) rfl (fun _ => by decide) (fun b => m (c, b))
  unfold R
  rw [e1, e2]
  exact row_spec _ 595 (by decide) (by decide) _ _

theorem row_430 : IsRows (wfd m c) 430 (R m c main_v1459 : S1x1024.Idx → EReal) := by
  have e1 := (Stretch.writesFrom (F := Ideal)).read_unary 1459 (x := main_v435) (y := main_v1459) rfl (fun _ => by decide) (fun b => m (c, b))
  have e2 := (Stretch.writesFrom (F := Ideal)).read_unary 435 (x := main_v4) (y := main_v435) rfl (fun _ => by decide) (fun b => m (c, b))
  unfold R
  rw [e1, e2]
  exact row_spec _ 594 (by decide) (by decide) _ _

theorem row_431 : IsRows (wfd m c) 431 (R m c main_v1460 : S1x1024.Idx → EReal) := by
  have e1 := (Stretch.writesFrom (F := Ideal)).read_unary 1460 (x := main_v436) (y := main_v1460) rfl (fun _ => by decide) (fun b => m (c, b))
  have e2 := (Stretch.writesFrom (F := Ideal)).read_unary 436 (x := main_v4) (y := main_v436) rfl (fun _ => by decide) (fun b => m (c, b))
  unfold R
  rw [e1, e2]
  exact row_spec _ 593 (by decide) (by decide) _ _

theorem row_432 : IsRows (wfd m c) 432 (R m c main_v1461 : S1x1024.Idx → EReal) := by
  have e1 := (Stretch.writesFrom (F := Ideal)).read_unary 1461 (x := main_v437) (y := main_v1461) rfl (fun _ => by decide) (fun b => m (c, b))
  have e2 := (Stretch.writesFrom (F := Ideal)).read_unary 437 (x := main_v4) (y := main_v437) rfl (fun _ => by decide) (fun b => m (c, b))
  unfold R
  rw [e1, e2]
  exact row_spec _ 592 (by decide) (by decide) _ _

theorem row_433 : IsRows (wfd m c) 433 (R m c main_v1462 : S1x1024.Idx → EReal) := by
  have e1 := (Stretch.writesFrom (F := Ideal)).read_unary 1462 (x := main_v438) (y := main_v1462) rfl (fun _ => by decide) (fun b => m (c, b))
  have e2 := (Stretch.writesFrom (F := Ideal)).read_unary 438 (x := main_v4) (y := main_v438) rfl (fun _ => by decide) (fun b => m (c, b))
  unfold R
  rw [e1, e2]
  exact row_spec _ 591 (by decide) (by decide) _ _

theorem row_434 : IsRows (wfd m c) 434 (R m c main_v1463 : S1x1024.Idx → EReal) := by
  have e1 := (Stretch.writesFrom (F := Ideal)).read_unary 1463 (x := main_v439) (y := main_v1463) rfl (fun _ => by decide) (fun b => m (c, b))
  have e2 := (Stretch.writesFrom (F := Ideal)).read_unary 439 (x := main_v4) (y := main_v439) rfl (fun _ => by decide) (fun b => m (c, b))
  unfold R
  rw [e1, e2]
  exact row_spec _ 590 (by decide) (by decide) _ _

theorem row_435 : IsRows (wfd m c) 435 (R m c main_v1464 : S1x1024.Idx → EReal) := by
  have e1 := (Stretch.writesFrom (F := Ideal)).read_unary 1464 (x := main_v440) (y := main_v1464) rfl (fun _ => by decide) (fun b => m (c, b))
  have e2 := (Stretch.writesFrom (F := Ideal)).read_unary 440 (x := main_v4) (y := main_v440) rfl (fun _ => by decide) (fun b => m (c, b))
  unfold R
  rw [e1, e2]
  exact row_spec _ 589 (by decide) (by decide) _ _

theorem row_436 : IsRows (wfd m c) 436 (R m c main_v1465 : S1x1024.Idx → EReal) := by
  have e1 := (Stretch.writesFrom (F := Ideal)).read_unary 1465 (x := main_v441) (y := main_v1465) rfl (fun _ => by decide) (fun b => m (c, b))
  have e2 := (Stretch.writesFrom (F := Ideal)).read_unary 441 (x := main_v4) (y := main_v441) rfl (fun _ => by decide) (fun b => m (c, b))
  unfold R
  rw [e1, e2]
  exact row_spec _ 588 (by decide) (by decide) _ _

theorem row_437 : IsRows (wfd m c) 437 (R m c main_v1466 : S1x1024.Idx → EReal) := by
  have e1 := (Stretch.writesFrom (F := Ideal)).read_unary 1466 (x := main_v442) (y := main_v1466) rfl (fun _ => by decide) (fun b => m (c, b))
  have e2 := (Stretch.writesFrom (F := Ideal)).read_unary 442 (x := main_v4) (y := main_v442) rfl (fun _ => by decide) (fun b => m (c, b))
  unfold R
  rw [e1, e2]
  exact row_spec _ 587 (by decide) (by decide) _ _

theorem row_438 : IsRows (wfd m c) 438 (R m c main_v1467 : S1x1024.Idx → EReal) := by
  have e1 := (Stretch.writesFrom (F := Ideal)).read_unary 1467 (x := main_v443) (y := main_v1467) rfl (fun _ => by decide) (fun b => m (c, b))
  have e2 := (Stretch.writesFrom (F := Ideal)).read_unary 443 (x := main_v4) (y := main_v443) rfl (fun _ => by decide) (fun b => m (c, b))
  unfold R
  rw [e1, e2]
  exact row_spec _ 586 (by decide) (by decide) _ _

theorem row_439 : IsRows (wfd m c) 439 (R m c main_v1468 : S1x1024.Idx → EReal) := by
  have e1 := (Stretch.writesFrom (F := Ideal)).read_unary 1468 (x := main_v444) (y := main_v1468) rfl (fun _ => by decide) (fun b => m (c, b))
  have e2 := (Stretch.writesFrom (F := Ideal)).read_unary 444 (x := main_v4) (y := main_v444) rfl (fun _ => by decide) (fun b => m (c, b))
  unfold R
  rw [e1, e2]
  exact row_spec _ 585 (by decide) (by decide) _ _

theorem row_440 : IsRows (wfd m c) 440 (R m c main_v1469 : S1x1024.Idx → EReal) := by
  have e1 := (Stretch.writesFrom (F := Ideal)).read_unary 1469 (x := main_v445) (y := main_v1469) rfl (fun _ => by decide) (fun b => m (c, b))
  have e2 := (Stretch.writesFrom (F := Ideal)).read_unary 445 (x := main_v4) (y := main_v445) rfl (fun _ => by decide) (fun b => m (c, b))
  unfold R
  rw [e1, e2]
  exact row_spec _ 584 (by decide) (by decide) _ _

theorem row_441 : IsRows (wfd m c) 441 (R m c main_v1470 : S1x1024.Idx → EReal) := by
  have e1 := (Stretch.writesFrom (F := Ideal)).read_unary 1470 (x := main_v446) (y := main_v1470) rfl (fun _ => by decide) (fun b => m (c, b))
  have e2 := (Stretch.writesFrom (F := Ideal)).read_unary 446 (x := main_v4) (y := main_v446) rfl (fun _ => by decide) (fun b => m (c, b))
  unfold R
  rw [e1, e2]
  exact row_spec _ 583 (by decide) (by decide) _ _

theorem row_442 : IsRows (wfd m c) 442 (R m c main_v1471 : S1x1024.Idx → EReal) := by
  have e1 := (Stretch.writesFrom (F := Ideal)).read_unary 1471 (x := main_v447) (y := main_v1471) rfl (fun _ => by decide) (fun b => m (c, b))
  have e2 := (Stretch.writesFrom (F := Ideal)).read_unary 447 (x := main_v4) (y := main_v447) rfl (fun _ => by decide) (fun b => m (c, b))
  unfold R
  rw [e1, e2]
  exact row_spec _ 582 (by decide) (by decide) _ _

theorem row_443 : IsRows (wfd m c) 443 (R m c main_v1472 : S1x1024.Idx → EReal) := by
  have e1 := (Stretch.writesFrom (F := Ideal)).read_unary 1472 (x := main_v448) (y := main_v1472) rfl (fun _ => by decide) (fun b => m (c, b))
  have e2 := (Stretch.writesFrom (F := Ideal)).read_unary 448 (x := main_v4) (y := main_v448) rfl (fun _ => by decide) (fun b => m (c, b))
  unfold R
  rw [e1, e2]
  exact row_spec _ 581 (by decide) (by decide) _ _

theorem row_444 : IsRows (wfd m c) 444 (R m c main_v1473 : S1x1024.Idx → EReal) := by
  have e1 := (Stretch.writesFrom (F := Ideal)).read_unary 1473 (x := main_v449) (y := main_v1473) rfl (fun _ => by decide) (fun b => m (c, b))
  have e2 := (Stretch.writesFrom (F := Ideal)).read_unary 449 (x := main_v4) (y := main_v449) rfl (fun _ => by decide) (fun b => m (c, b))
  unfold R
  rw [e1, e2]
  exact row_spec _ 580 (by decide) (by decide) _ _

theorem row_445 : IsRows (wfd m c) 445 (R m c main_v1474 : S1x1024.Idx → EReal) := by
  have e1 := (Stretch.writesFrom (F := Ideal)).read_unary 1474 (x := main_v450) (y := main_v1474) rfl (fun _ => by decide) (fun b => m (c, b))
  have e2 := (Stretch.writesFrom (F := Ideal)).read_unary 450 (x := main_v4) (y := main_v450) rfl (fun _ => by decide) (fun b => m (c, b))
  unfold R
  rw [e1, e2]
  exact row_spec _ 579 (by decide) (by decide) _ _

theorem row_446 : IsRows (wfd m c) 446 (R m c main_v1475 : S1x1024.Idx → EReal) := by
  have e1 := (Stretch.writesFrom (F := Ideal)).read_unary 1475 (x := main_v451) (y := main_v1475) rfl (fun _ => by decide) (fun b => m (c, b))
  have e2 := (Stretch.writesFrom (F := Ideal)).read_unary 451 (x := main_v4) (y := main_v451) rfl (fun _ => by decide) (fun b => m (c, b))
  unfold R
  rw [e1, e2]
  exact row_spec _ 578 (by decide) (by decide) _ _

theorem row_447 : IsRows (wfd m c) 447 (R m c main_v1476 : S1x1024.Idx → EReal) := by
  have e1 := (Stretch.writesFrom (F := Ideal)).read_unary 1476 (x := main_v452) (y := main_v1476) rfl (fun _ => by decide) (fun b => m (c, b))
  have e2 := (Stretch.writesFrom (F := Ideal)).read_unary 452 (x := main_v4) (y := main_v452) rfl (fun _ => by decide) (fun b => m (c, b))
  unfold R
  rw [e1, e2]
  exact row_spec _ 577 (by decide) (by decide) _ _

theorem row_448 : IsRows (wfd m c) 448 (R m c main_v1477 : S1x1024.Idx → EReal) := by
  have e1 := (Stretch.writesFrom (F := Ideal)).read_unary 1477 (x := main_v453) (y := main_v1477) rfl (fun _ => by decide) (fun b => m (c, b))
  have e2 := (Stretch.writesFrom (F := Ideal)).read_unary 453 (x := main_v4) (y := main_v453) rfl (fun _ => by decide) (fun b => m (c, b))
  unfold R
  rw [e1, e2]
  exact row_spec _ 576 (by decide) (by decide) _ _

theorem row_449 : IsRows (wfd m c) 449 (R m c main_v1478 : S1x1024.Idx → EReal) := by
  have e1 := (Stretch.writesFrom (F := Ideal)).read_unary 1478 (x := main_v454) (y := main_v1478) rfl (fun _ => by decide) (fun b => m (c, b))
  have e2 := (Stretch.writesFrom (F := Ideal)).read_unary 454 (x := main_v4) (y := main_v454) rfl (fun _ => by decide) (fun b => m (c, b))
  unfold R
  rw [e1, e2]
  exact row_spec _ 575 (by decide) (by decide) _ _

theorem row_450 : IsRows (wfd m c) 450 (R m c main_v1479 : S1x1024.Idx → EReal) := by
  have e1 := (Stretch.writesFrom (F := Ideal)).read_unary 1479 (x := main_v455) (y := main_v1479) rfl (fun _ => by decide) (fun b => m (c, b))
  have e2 := (Stretch.writesFrom (F := Ideal)).read_unary 455 (x := main_v4) (y := main_v455) rfl (fun _ => by decide) (fun b => m (c, b))
  unfold R
  rw [e1, e2]
  exact row_spec _ 574 (by decide) (by decide) _ _

theorem row_451 : IsRows (wfd m c) 451 (R m c main_v1480 : S1x1024.Idx → EReal) := by
  have e1 := (Stretch.writesFrom (F := Ideal)).read_unary 1480 (x := main_v456) (y := main_v1480) rfl (fun _ => by decide) (fun b => m (c, b))
  have e2 := (Stretch.writesFrom (F := Ideal)).read_unary 456 (x := main_v4) (y := main_v456) rfl (fun _ => by decide) (fun b => m (c, b))
  unfold R
  rw [e1, e2]
  exact row_spec _ 573 (by decide) (by decide) _ _

theorem row_452 : IsRows (wfd m c) 452 (R m c main_v1481 : S1x1024.Idx → EReal) := by
  have e1 := (Stretch.writesFrom (F := Ideal)).read_unary 1481 (x := main_v457) (y := main_v1481) rfl (fun _ => by decide) (fun b => m (c, b))
  have e2 := (Stretch.writesFrom (F := Ideal)).read_unary 457 (x := main_v4) (y := main_v457) rfl (fun _ => by decide) (fun b => m (c, b))
  unfold R
  rw [e1, e2]
  exact row_spec _ 572 (by decide) (by decide) _ _

theorem row_453 : IsRows (wfd m c) 453 (R m c main_v1482 : S1x1024.Idx → EReal) := by
  have e1 := (Stretch.writesFrom (F := Ideal)).read_unary 1482 (x := main_v458) (y := main_v1482) rfl (fun _ => by decide) (fun b => m (c, b))
  have e2 := (Stretch.writesFrom (F := Ideal)).read_unary 458 (x := main_v4) (y := main_v458) rfl (fun _ => by decide) (fun b => m (c, b))
  unfold R
  rw [e1, e2]
  exact row_spec _ 571 (by decide) (by decide) _ _

theorem row_454 : IsRows (wfd m c) 454 (R m c main_v1483 : S1x1024.Idx → EReal) := by
  have e1 := (Stretch.writesFrom (F := Ideal)).read_unary 1483 (x := main_v459) (y := main_v1483) rfl (fun _ => by decide) (fun b => m (c, b))
  have e2 := (Stretch.writesFrom (F := Ideal)).read_unary 459 (x := main_v4) (y := main_v459) rfl (fun _ => by decide) (fun b => m (c, b))
  unfold R
  rw [e1, e2]
  exact row_spec _ 570 (by decide) (by decide) _ _

theorem row_455 : IsRows (wfd m c) 455 (R m c main_v1484 : S1x1024.Idx → EReal) := by
  have e1 := (Stretch.writesFrom (F := Ideal)).read_unary 1484 (x := main_v460) (y := main_v1484) rfl (fun _ => by decide) (fun b => m (c, b))
  have e2 := (Stretch.writesFrom (F := Ideal)).read_unary 460 (x := main_v4) (y := main_v460) rfl (fun _ => by decide) (fun b => m (c, b))
  unfold R
  rw [e1, e2]
  exact row_spec _ 569 (by decide) (by decide) _ _

theorem row_456 : IsRows (wfd m c) 456 (R m c main_v1485 : S1x1024.Idx → EReal) := by
  have e1 := (Stretch.writesFrom (F := Ideal)).read_unary 1485 (x := main_v461) (y := main_v1485) rfl (fun _ => by decide) (fun b => m (c, b))
  have e2 := (Stretch.writesFrom (F := Ideal)).read_unary 461 (x := main_v4) (y := main_v461) rfl (fun _ => by decide) (fun b => m (c, b))
  unfold R
  rw [e1, e2]
  exact row_spec _ 568 (by decide) (by decide) _ _

theorem row_457 : IsRows (wfd m c) 457 (R m c main_v1486 : S1x1024.Idx → EReal) := by
  have e1 := (Stretch.writesFrom (F := Ideal)).read_unary 1486 (x := main_v462) (y := main_v1486) rfl (fun _ => by decide) (fun b => m (c, b))
  have e2 := (Stretch.writesFrom (F := Ideal)).read_unary 462 (x := main_v4) (y := main_v462) rfl (fun _ => by decide) (fun b => m (c, b))
  unfold R
  rw [e1, e2]
  exact row_spec _ 567 (by decide) (by decide) _ _

theorem row_458 : IsRows (wfd m c) 458 (R m c main_v1487 : S1x1024.Idx → EReal) := by
  have e1 := (Stretch.writesFrom (F := Ideal)).read_unary 1487 (x := main_v463) (y := main_v1487) rfl (fun _ => by decide) (fun b => m (c, b))
  have e2 := (Stretch.writesFrom (F := Ideal)).read_unary 463 (x := main_v4) (y := main_v463) rfl (fun _ => by decide) (fun b => m (c, b))
  unfold R
  rw [e1, e2]
  exact row_spec _ 566 (by decide) (by decide) _ _

theorem row_459 : IsRows (wfd m c) 459 (R m c main_v1488 : S1x1024.Idx → EReal) := by
  have e1 := (Stretch.writesFrom (F := Ideal)).read_unary 1488 (x := main_v464) (y := main_v1488) rfl (fun _ => by decide) (fun b => m (c, b))
  have e2 := (Stretch.writesFrom (F := Ideal)).read_unary 464 (x := main_v4) (y := main_v464) rfl (fun _ => by decide) (fun b => m (c, b))
  unfold R
  rw [e1, e2]
  exact row_spec _ 565 (by decide) (by decide) _ _

theorem row_460 : IsRows (wfd m c) 460 (R m c main_v1489 : S1x1024.Idx → EReal) := by
  have e1 := (Stretch.writesFrom (F := Ideal)).read_unary 1489 (x := main_v465) (y := main_v1489) rfl (fun _ => by decide) (fun b => m (c, b))
  have e2 := (Stretch.writesFrom (F := Ideal)).read_unary 465 (x := main_v4) (y := main_v465) rfl (fun _ => by decide) (fun b => m (c, b))
  unfold R
  rw [e1, e2]
  exact row_spec _ 564 (by decide) (by decide) _ _

theorem row_461 : IsRows (wfd m c) 461 (R m c main_v1490 : S1x1024.Idx → EReal) := by
  have e1 := (Stretch.writesFrom (F := Ideal)).read_unary 1490 (x := main_v466) (y := main_v1490) rfl (fun _ => by decide) (fun b => m (c, b))
  have e2 := (Stretch.writesFrom (F := Ideal)).read_unary 466 (x := main_v4) (y := main_v466) rfl (fun _ => by decide) (fun b => m (c, b))
  unfold R
  rw [e1, e2]
  exact row_spec _ 563 (by decide) (by decide) _ _

theorem row_462 : IsRows (wfd m c) 462 (R m c main_v1491 : S1x1024.Idx → EReal) := by
  have e1 := (Stretch.writesFrom (F := Ideal)).read_unary 1491 (x := main_v467) (y := main_v1491) rfl (fun _ => by decide) (fun b => m (c, b))
  have e2 := (Stretch.writesFrom (F := Ideal)).read_unary 467 (x := main_v4) (y := main_v467) rfl (fun _ => by decide) (fun b => m (c, b))
  unfold R
  rw [e1, e2]
  exact row_spec _ 562 (by decide) (by decide) _ _

theorem row_463 : IsRows (wfd m c) 463 (R m c main_v1492 : S1x1024.Idx → EReal) := by
  have e1 := (Stretch.writesFrom (F := Ideal)).read_unary 1492 (x := main_v468) (y := main_v1492) rfl (fun _ => by decide) (fun b => m (c, b))
  have e2 := (Stretch.writesFrom (F := Ideal)).read_unary 468 (x := main_v4) (y := main_v468) rfl (fun _ => by decide) (fun b => m (c, b))
  unfold R
  rw [e1, e2]
  exact row_spec _ 561 (by decide) (by decide) _ _

theorem row_464 : IsRows (wfd m c) 464 (R m c main_v1493 : S1x1024.Idx → EReal) := by
  have e1 := (Stretch.writesFrom (F := Ideal)).read_unary 1493 (x := main_v469) (y := main_v1493) rfl (fun _ => by decide) (fun b => m (c, b))
  have e2 := (Stretch.writesFrom (F := Ideal)).read_unary 469 (x := main_v4) (y := main_v469) rfl (fun _ => by decide) (fun b => m (c, b))
  unfold R
  rw [e1, e2]
  exact row_spec _ 560 (by decide) (by decide) _ _

theorem row_465 : IsRows (wfd m c) 465 (R m c main_v1494 : S1x1024.Idx → EReal) := by
  have e1 := (Stretch.writesFrom (F := Ideal)).read_unary 1494 (x := main_v470) (y := main_v1494) rfl (fun _ => by decide) (fun b => m (c, b))
  have e2 := (Stretch.writesFrom (F := Ideal)).read_unary 470 (x := main_v4) (y := main_v470) rfl (fun _ => by decide) (fun b => m (c, b))
  unfold R
  rw [e1, e2]
  exact row_spec _ 559 (by decide) (by decide) _ _

theorem row_466 : IsRows (wfd m c) 466 (R m c main_v1495 : S1x1024.Idx → EReal) := by
  have e1 := (Stretch.writesFrom (F := Ideal)).read_unary 1495 (x := main_v471) (y := main_v1495) rfl (fun _ => by decide) (fun b => m (c, b))
  have e2 := (Stretch.writesFrom (F := Ideal)).read_unary 471 (x := main_v4) (y := main_v471) rfl (fun _ => by decide) (fun b => m (c, b))
  unfold R
  rw [e1, e2]
  exact row_spec _ 558 (by decide) (by decide) _ _

theorem row_467 : IsRows (wfd m c) 467 (R m c main_v1496 : S1x1024.Idx → EReal) := by
  have e1 := (Stretch.writesFrom (F := Ideal)).read_unary 1496 (x := main_v472) (y := main_v1496) rfl (fun _ => by decide) (fun b => m (c, b))
  have e2 := (Stretch.writesFrom (F := Ideal)).read_unary 472 (x := main_v4) (y := main_v472) rfl (fun _ => by decide) (fun b => m (c, b))
  unfold R
  rw [e1, e2]
  exact row_spec _ 557 (by decide) (by decide) _ _

theorem row_468 : IsRows (wfd m c) 468 (R m c main_v1497 : S1x1024.Idx → EReal) := by
  have e1 := (Stretch.writesFrom (F := Ideal)).read_unary 1497 (x := main_v473) (y := main_v1497) rfl (fun _ => by decide) (fun b => m (c, b))
  have e2 := (Stretch.writesFrom (F := Ideal)).read_unary 473 (x := main_v4) (y := main_v473) rfl (fun _ => by decide) (fun b => m (c, b))
  unfold R
  rw [e1, e2]
  exact row_spec _ 556 (by decide) (by decide) _ _

theorem row_469 : IsRows (wfd m c) 469 (R m c main_v1498 : S1x1024.Idx → EReal) := by
  have e1 := (Stretch.writesFrom (F := Ideal)).read_unary 1498 (x := main_v474) (y := main_v1498) rfl (fun _ => by decide) (fun b => m (c, b))
  have e2 := (Stretch.writesFrom (F := Ideal)).read_unary 474 (x := main_v4) (y := main_v474) rfl (fun _ => by decide) (fun b => m (c, b))
  unfold R
  rw [e1, e2]
  exact row_spec _ 555 (by decide) (by decide) _ _

theorem row_470 : IsRows (wfd m c) 470 (R m c main_v1499 : S1x1024.Idx → EReal) := by
  have e1 := (Stretch.writesFrom (F := Ideal)).read_unary 1499 (x := main_v475) (y := main_v1499) rfl (fun _ => by decide) (fun b => m (c, b))
  have e2 := (Stretch.writesFrom (F := Ideal)).read_unary 475 (x := main_v4) (y := main_v475) rfl (fun _ => by decide) (fun b => m (c, b))
  unfold R
  rw [e1, e2]
  exact row_spec _ 554 (by decide) (by decide) _ _

theorem row_471 : IsRows (wfd m c) 471 (R m c main_v1500 : S1x1024.Idx → EReal) := by
  have e1 := (Stretch.writesFrom (F := Ideal)).read_unary 1500 (x := main_v476) (y := main_v1500) rfl (fun _ => by decide) (fun b => m (c, b))
  have e2 := (Stretch.writesFrom (F := Ideal)).read_unary 476 (x := main_v4) (y := main_v476) rfl (fun _ => by decide) (fun b => m (c, b))
  unfold R
  rw [e1, e2]
  exact row_spec _ 553 (by decide) (by decide) _ _

theorem row_472 : IsRows (wfd m c) 472 (R m c main_v1501 : S1x1024.Idx → EReal) := by
  have e1 := (Stretch.writesFrom (F := Ideal)).read_unary 1501 (x := main_v477) (y := main_v1501) rfl (fun _ => by decide) (fun b => m (c, b))
  have e2 := (Stretch.writesFrom (F := Ideal)).read_unary 477 (x := main_v4) (y := main_v477) rfl (fun _ => by decide) (fun b => m (c, b))
  unfold R
  rw [e1, e2]
  exact row_spec _ 552 (by decide) (by decide) _ _

theorem row_473 : IsRows (wfd m c) 473 (R m c main_v1502 : S1x1024.Idx → EReal) := by
  have e1 := (Stretch.writesFrom (F := Ideal)).read_unary 1502 (x := main_v478) (y := main_v1502) rfl (fun _ => by decide) (fun b => m (c, b))
  have e2 := (Stretch.writesFrom (F := Ideal)).read_unary 478 (x := main_v4) (y := main_v478) rfl (fun _ => by decide) (fun b => m (c, b))
  unfold R
  rw [e1, e2]
  exact row_spec _ 551 (by decide) (by decide) _ _

theorem row_474 : IsRows (wfd m c) 474 (R m c main_v1503 : S1x1024.Idx → EReal) := by
  have e1 := (Stretch.writesFrom (F := Ideal)).read_unary 1503 (x := main_v479) (y := main_v1503) rfl (fun _ => by decide) (fun b => m (c, b))
  have e2 := (Stretch.writesFrom (F := Ideal)).read_unary 479 (x := main_v4) (y := main_v479) rfl (fun _ => by decide) (fun b => m (c, b))
  unfold R
  rw [e1, e2]
  exact row_spec _ 550 (by decide) (by decide) _ _

theorem row_475 : IsRows (wfd m c) 475 (R m c main_v1504 : S1x1024.Idx → EReal) := by
  have e1 := (Stretch.writesFrom (F := Ideal)).read_unary 1504 (x := main_v480) (y := main_v1504) rfl (fun _ => by decide) (fun b => m (c, b))
  have e2 := (Stretch.writesFrom (F := Ideal)).read_unary 480 (x := main_v4) (y := main_v480) rfl (fun _ => by decide) (fun b => m (c, b))
  unfold R
  rw [e1, e2]
  exact row_spec _ 549 (by decide) (by decide) _ _

theorem row_476 : IsRows (wfd m c) 476 (R m c main_v1505 : S1x1024.Idx → EReal) := by
  have e1 := (Stretch.writesFrom (F := Ideal)).read_unary 1505 (x := main_v481) (y := main_v1505) rfl (fun _ => by decide) (fun b => m (c, b))
  have e2 := (Stretch.writesFrom (F := Ideal)).read_unary 481 (x := main_v4) (y := main_v481) rfl (fun _ => by decide) (fun b => m (c, b))
  unfold R
  rw [e1, e2]
  exact row_spec _ 548 (by decide) (by decide) _ _

theorem row_477 : IsRows (wfd m c) 477 (R m c main_v1506 : S1x1024.Idx → EReal) := by
  have e1 := (Stretch.writesFrom (F := Ideal)).read_unary 1506 (x := main_v482) (y := main_v1506) rfl (fun _ => by decide) (fun b => m (c, b))
  have e2 := (Stretch.writesFrom (F := Ideal)).read_unary 482 (x := main_v4) (y := main_v482) rfl (fun _ => by decide) (fun b => m (c, b))
  unfold R
  rw [e1, e2]
  exact row_spec _ 547 (by decide) (by decide) _ _

theorem row_478 : IsRows (wfd m c) 478 (R m c main_v1507 : S1x1024.Idx → EReal) := by
  have e1 := (Stretch.writesFrom (F := Ideal)).read_unary 1507 (x := main_v483) (y := main_v1507) rfl (fun _ => by decide) (fun b => m (c, b))
  have e2 := (Stretch.writesFrom (F := Ideal)).read_unary 483 (x := main_v4) (y := main_v483) rfl (fun _ => by decide) (fun b => m (c, b))
  unfold R
  rw [e1, e2]
  exact row_spec _ 546 (by decide) (by decide) _ _

theorem row_479 : IsRows (wfd m c) 479 (R m c main_v1508 : S1x1024.Idx → EReal) := by
  have e1 := (Stretch.writesFrom (F := Ideal)).read_unary 1508 (x := main_v484) (y := main_v1508) rfl (fun _ => by decide) (fun b => m (c, b))
  have e2 := (Stretch.writesFrom (F := Ideal)).read_unary 484 (x := main_v4) (y := main_v484) rfl (fun _ => by decide) (fun b => m (c, b))
  unfold R
  rw [e1, e2]
  exact row_spec _ 545 (by decide) (by decide) _ _

theorem row_480 : IsRows (wfd m c) 480 (R m c main_v1509 : S1x1024.Idx → EReal) := by
  have e1 := (Stretch.writesFrom (F := Ideal)).read_unary 1509 (x := main_v485) (y := main_v1509) rfl (fun _ => by decide) (fun b => m (c, b))
  have e2 := (Stretch.writesFrom (F := Ideal)).read_unary 485 (x := main_v4) (y := main_v485) rfl (fun _ => by decide) (fun b => m (c, b))
  unfold R
  rw [e1, e2]
  exact row_spec _ 544 (by decide) (by decide) _ _

theorem row_481 : IsRows (wfd m c) 481 (R m c main_v1510 : S1x1024.Idx → EReal) := by
  have e1 := (Stretch.writesFrom (F := Ideal)).read_unary 1510 (x := main_v486) (y := main_v1510) rfl (fun _ => by decide) (fun b => m (c, b))
  have e2 := (Stretch.writesFrom (F := Ideal)).read_unary 486 (x := main_v4) (y := main_v486) rfl (fun _ => by decide) (fun b => m (c, b))
  unfold R
  rw [e1, e2]
  exact row_spec _ 543 (by decide) (by decide) _ _

theorem row_482 : IsRows (wfd m c) 482 (R m c main_v1511 : S1x1024.Idx → EReal) := by
  have e1 := (Stretch.writesFrom (F := Ideal)).read_unary 1511 (x := main_v487) (y := main_v1511) rfl (fun _ => by decide) (fun b => m (c, b))
  have e2 := (Stretch.writesFrom (F := Ideal)).read_unary 487 (x := main_v4) (y := main_v487) rfl (fun _ => by decide) (fun b => m (c, b))
  unfold R
  rw [e1, e2]
  exact row_spec _ 542 (by decide) (by decide) _ _

theorem row_483 : IsRows (wfd m c) 483 (R m c main_v1512 : S1x1024.Idx → EReal) := by
  have e1 := (Stretch.writesFrom (F := Ideal)).read_unary 1512 (x := main_v488) (y := main_v1512) rfl (fun _ => by decide) (fun b => m (c, b))
  have e2 := (Stretch.writesFrom (F := Ideal)).read_unary 488 (x := main_v4) (y := main_v488) rfl (fun _ => by decide) (fun b => m (c, b))
  unfold R
  rw [e1, e2]
  exact row_spec _ 541 (by decide) (by decide) _ _

theorem row_484 : IsRows (wfd m c) 484 (R m c main_v1513 : S1x1024.Idx → EReal) := by
  have e1 := (Stretch.writesFrom (F := Ideal)).read_unary 1513 (x := main_v489) (y := main_v1513) rfl (fun _ => by decide) (fun b => m (c, b))
  have e2 := (Stretch.writesFrom (F := Ideal)).read_unary 489 (x := main_v4) (y := main_v489) rfl (fun _ => by decide) (fun b => m (c, b))
  unfold R
  rw [e1, e2]
  exact row_spec _ 540 (by decide) (by decide) _ _

theorem row_485 : IsRows (wfd m c) 485 (R m c main_v1514 : S1x1024.Idx → EReal) := by
  have e1 := (Stretch.writesFrom (F := Ideal)).read_unary 1514 (x := main_v490) (y := main_v1514) rfl (fun _ => by decide) (fun b => m (c, b))
  have e2 := (Stretch.writesFrom (F := Ideal)).read_unary 490 (x := main_v4) (y := main_v490) rfl (fun _ => by decide) (fun b => m (c, b))
  unfold R
  rw [e1, e2]
  exact row_spec _ 539 (by decide) (by decide) _ _

theorem row_486 : IsRows (wfd m c) 486 (R m c main_v1515 : S1x1024.Idx → EReal) := by
  have e1 := (Stretch.writesFrom (F := Ideal)).read_unary 1515 (x := main_v491) (y := main_v1515) rfl (fun _ => by decide) (fun b => m (c, b))
  have e2 := (Stretch.writesFrom (F := Ideal)).read_unary 491 (x := main_v4) (y := main_v491) rfl (fun _ => by decide) (fun b => m (c, b))
  unfold R
  rw [e1, e2]
  exact row_spec _ 538 (by decide) (by decide) _ _

theorem row_487 : IsRows (wfd m c) 487 (R m c main_v1516 : S1x1024.Idx → EReal) := by
  have e1 := (Stretch.writesFrom (F := Ideal)).read_unary 1516 (x := main_v492) (y := main_v1516) rfl (fun _ => by decide) (fun b => m (c, b))
  have e2 := (Stretch.writesFrom (F := Ideal)).read_unary 492 (x := main_v4) (y := main_v492) rfl (fun _ => by decide) (fun b => m (c, b))
  unfold R
  rw [e1, e2]
  exact row_spec _ 537 (by decide) (by decide) _ _

theorem row_488 : IsRows (wfd m c) 488 (R m c main_v1517 : S1x1024.Idx → EReal) := by
  have e1 := (Stretch.writesFrom (F := Ideal)).read_unary 1517 (x := main_v493) (y := main_v1517) rfl (fun _ => by decide) (fun b => m (c, b))
  have e2 := (Stretch.writesFrom (F := Ideal)).read_unary 493 (x := main_v4) (y := main_v493) rfl (fun _ => by decide) (fun b => m (c, b))
  unfold R
  rw [e1, e2]
  exact row_spec _ 536 (by decide) (by decide) _ _

theorem row_489 : IsRows (wfd m c) 489 (R m c main_v1518 : S1x1024.Idx → EReal) := by
  have e1 := (Stretch.writesFrom (F := Ideal)).read_unary 1518 (x := main_v494) (y := main_v1518) rfl (fun _ => by decide) (fun b => m (c, b))
  have e2 := (Stretch.writesFrom (F := Ideal)).read_unary 494 (x := main_v4) (y := main_v494) rfl (fun _ => by decide) (fun b => m (c, b))
  unfold R
  rw [e1, e2]
  exact row_spec _ 535 (by decide) (by decide) _ _

theorem row_490 : IsRows (wfd m c) 490 (R m c main_v1519 : S1x1024.Idx → EReal) := by
  have e1 := (Stretch.writesFrom (F := Ideal)).read_unary 1519 (x := main_v495) (y := main_v1519) rfl (fun _ => by decide) (fun b => m (c, b))
  have e2 := (Stretch.writesFrom (F := Ideal)).read_unary 495 (x := main_v4) (y := main_v495) rfl (fun _ => by decide) (fun b => m (c, b))
  unfold R
  rw [e1, e2]
  exact row_spec _ 534 (by decide) (by decide) _ _

theorem row_491 : IsRows (wfd m c) 491 (R m c main_v1520 : S1x1024.Idx → EReal) := by
  have e1 := (Stretch.writesFrom (F := Ideal)).read_unary 1520 (x := main_v496) (y := main_v1520) rfl (fun _ => by decide) (fun b => m (c, b))
  have e2 := (Stretch.writesFrom (F := Ideal)).read_unary 496 (x := main_v4) (y := main_v496) rfl (fun _ => by decide) (fun b => m (c, b))
  unfold R
  rw [e1, e2]
  exact row_spec _ 533 (by decide) (by decide) _ _

theorem row_492 : IsRows (wfd m c) 492 (R m c main_v1521 : S1x1024.Idx → EReal) := by
  have e1 := (Stretch.writesFrom (F := Ideal)).read_unary 1521 (x := main_v497) (y := main_v1521) rfl (fun _ => by decide) (fun b => m (c, b))
  have e2 := (Stretch.writesFrom (F := Ideal)).read_unary 497 (x := main_v4) (y := main_v497) rfl (fun _ => by decide) (fun b => m (c, b))
  unfold R
  rw [e1, e2]
  exact row_spec _ 532 (by decide) (by decide) _ _

theorem row_493 : IsRows (wfd m c) 493 (R m c main_v1522 : S1x1024.Idx → EReal) := by
  have e1 := (Stretch.writesFrom (F := Ideal)).read_unary 1522 (x := main_v498) (y := main_v1522) rfl (fun _ => by decide) (fun b => m (c, b))
  have e2 := (Stretch.writesFrom (F := Ideal)).read_unary 498 (x := main_v4) (y := main_v498) rfl (fun _ => by decide) (fun b => m (c, b))
  unfold R
  rw [e1, e2]
  exact row_spec _ 531 (by decide) (by decide) _ _

theorem row_494 : IsRows (wfd m c) 494 (R m c main_v1523 : S1x1024.Idx → EReal) := by
  have e1 := (Stretch.writesFrom (F := Ideal)).read_unary 1523 (x := main_v499) (y := main_v1523) rfl (fun _ => by decide) (fun b => m (c, b))
  have e2 := (Stretch.writesFrom (F := Ideal)).read_unary 499 (x := main_v4) (y := main_v499) rfl (fun _ => by decide) (fun b => m (c, b))
  unfold R
  rw [e1, e2]
  exact row_spec _ 530 (by decide) (by decide) _ _

theorem row_495 : IsRows (wfd m c) 495 (R m c main_v1524 : S1x1024.Idx → EReal) := by
  have e1 := (Stretch.writesFrom (F := Ideal)).read_unary 1524 (x := main_v500) (y := main_v1524) rfl (fun _ => by decide) (fun b => m (c, b))
  have e2 := (Stretch.writesFrom (F := Ideal)).read_unary 500 (x := main_v4) (y := main_v500) rfl (fun _ => by decide) (fun b => m (c, b))
  unfold R
  rw [e1, e2]
  exact row_spec _ 529 (by decide) (by decide) _ _

theorem row_496 : IsRows (wfd m c) 496 (R m c main_v1525 : S1x1024.Idx → EReal) := by
  have e1 := (Stretch.writesFrom (F := Ideal)).read_unary 1525 (x := main_v501) (y := main_v1525) rfl (fun _ => by decide) (fun b => m (c, b))
  have e2 := (Stretch.writesFrom (F := Ideal)).read_unary 501 (x := main_v4) (y := main_v501) rfl (fun _ => by decide) (fun b => m (c, b))
  unfold R
  rw [e1, e2]
  exact row_spec _ 528 (by decide) (by decide) _ _

theorem row_497 : IsRows (wfd m c) 497 (R m c main_v1526 : S1x1024.Idx → EReal) := by
  have e1 := (Stretch.writesFrom (F := Ideal)).read_unary 1526 (x := main_v502) (y := main_v1526) rfl (fun _ => by decide) (fun b => m (c, b))
  have e2 := (Stretch.writesFrom (F := Ideal)).read_unary 502 (x := main_v4) (y := main_v502) rfl (fun _ => by decide) (fun b => m (c, b))
  unfold R
  rw [e1, e2]
  exact row_spec _ 527 (by decide) (by decide) _ _

theorem row_498 : IsRows (wfd m c) 498 (R m c main_v1527 : S1x1024.Idx → EReal) := by
  have e1 := (Stretch.writesFrom (F := Ideal)).read_unary 1527 (x := main_v503) (y := main_v1527) rfl (fun _ => by decide) (fun b => m (c, b))
  have e2 := (Stretch.writesFrom (F := Ideal)).read_unary 503 (x := main_v4) (y := main_v503) rfl (fun _ => by decide) (fun b => m (c, b))
  unfold R
  rw [e1, e2]
  exact row_spec _ 526 (by decide) (by decide) _ _

theorem row_499 : IsRows (wfd m c) 499 (R m c main_v1528 : S1x1024.Idx → EReal) := by
  have e1 := (Stretch.writesFrom (F := Ideal)).read_unary 1528 (x := main_v504) (y := main_v1528) rfl (fun _ => by decide) (fun b => m (c, b))
  have e2 := (Stretch.writesFrom (F := Ideal)).read_unary 504 (x := main_v4) (y := main_v504) rfl (fun _ => by decide) (fun b => m (c, b))
  unfold R
  rw [e1, e2]
  exact row_spec _ 525 (by decide) (by decide) _ _

theorem row_500 : IsRows (wfd m c) 500 (R m c main_v1529 : S1x1024.Idx → EReal) := by
  have e1 := (Stretch.writesFrom (F := Ideal)).read_unary 1529 (x := main_v505) (y := main_v1529) rfl (fun _ => by decide) (fun b => m (c, b))
  have e2 := (Stretch.writesFrom (F := Ideal)).read_unary 505 (x := main_v4) (y := main_v505) rfl (fun _ => by decide) (fun b => m (c, b))
  unfold R
  rw [e1, e2]
  exact row_spec _ 524 (by decide) (by decide) _ _

theorem row_501 : IsRows (wfd m c) 501 (R m c main_v1530 : S1x1024.Idx → EReal) := by
  have e1 := (Stretch.writesFrom (F := Ideal)).read_unary 1530 (x := main_v506) (y := main_v1530) rfl (fun _ => by decide) (fun b => m (c, b))
  have e2 := (Stretch.writesFrom (F := Ideal)).read_unary 506 (x := main_v4) (y := main_v506) rfl (fun _ => by decide) (fun b => m (c, b))
  unfold R
  rw [e1, e2]
  exact row_spec _ 523 (by decide) (by decide) _ _

theorem row_502 : IsRows (wfd m c) 502 (R m c main_v1531 : S1x1024.Idx → EReal) := by
  have e1 := (Stretch.writesFrom (F := Ideal)).read_unary 1531 (x := main_v507) (y := main_v1531) rfl (fun _ => by decide) (fun b => m (c, b))
  have e2 := (Stretch.writesFrom (F := Ideal)).read_unary 507 (x := main_v4) (y := main_v507) rfl (fun _ => by decide) (fun b => m (c, b))
  unfold R
  rw [e1, e2]
  exact row_spec _ 522 (by decide) (by decide) _ _

theorem row_503 : IsRows (wfd m c) 503 (R m c main_v1532 : S1x1024.Idx → EReal) := by
  have e1 := (Stretch.writesFrom (F := Ideal)).read_unary 1532 (x := main_v508) (y := main_v1532) rfl (fun _ => by decide) (fun b => m (c, b))
  have e2 := (Stretch.writesFrom (F := Ideal)).read_unary 508 (x := main_v4) (y := main_v508) rfl (fun _ => by decide) (fun b => m (c, b))
  unfold R
  rw [e1, e2]
  exact row_spec _ 521 (by decide) (by decide) _ _

theorem row_504 : IsRows (wfd m c) 504 (R m c main_v1533 : S1x1024.Idx → EReal) := by
  have e1 := (Stretch.writesFrom (F := Ideal)).read_unary 1533 (x := main_v509) (y := main_v1533) rfl (fun _ => by decide) (fun b => m (c, b))
  have e2 := (Stretch.writesFrom (F := Ideal)).read_unary 509 (x := main_v4) (y := main_v509) rfl (fun _ => by decide) (fun b => m (c, b))
  unfold R
  rw [e1, e2]
  exact row_spec _ 520 (by decide) (by decide) _ _

theorem row_505 : IsRows (wfd m c) 505 (R m c main_v1534 : S1x1024.Idx → EReal) := by
  have e1 := (Stretch.writesFrom (F := Ideal)).read_unary 1534 (x := main_v510) (y := main_v1534) rfl (fun _ => by decide) (fun b => m (c, b))
  have e2 := (Stretch.writesFrom (F := Ideal)).read_unary 510 (x := main_v4) (y := main_v510) rfl (fun _ => by decide) (fun b => m (c, b))
  unfold R
  rw [e1, e2]
  exact row_spec _ 519 (by decide) (by decide) _ _

theorem row_506 : IsRows (wfd m c) 506 (R m c main_v1535 : S1x1024.Idx → EReal) := by
  have e1 := (Stretch.writesFrom (F := Ideal)).read_unary 1535 (x := main_v511) (y := main_v1535) rfl (fun _ => by decide) (fun b => m (c, b))
  have e2 := (Stretch.writesFrom (F := Ideal)).read_unary 511 (x := main_v4) (y := main_v511) rfl (fun _ => by decide) (fun b => m (c, b))
  unfold R
  rw [e1, e2]
  exact row_spec _ 518 (by decide) (by decide) _ _

theorem row_507 : IsRows (wfd m c) 507 (R m c main_v1536 : S1x1024.Idx → EReal) := by
  have e1 := (Stretch.writesFrom (F := Ideal)).read_unary 1536 (x := main_v512) (y := main_v1536) rfl (fun _ => by decide) (fun b => m (c, b))
  have e2 := (Stretch.writesFrom (F := Ideal)).read_unary 512 (x := main_v4) (y := main_v512) rfl (fun _ => by decide) (fun b => m (c, b))
  unfold R
  rw [e1, e2]
  exact row_spec _ 517 (by decide) (by decide) _ _

theorem row_508 : IsRows (wfd m c) 508 (R m c main_v1537 : S1x1024.Idx → EReal) := by
  have e1 := (Stretch.writesFrom (F := Ideal)).read_unary 1537 (x := main_v513) (y := main_v1537) rfl (fun _ => by decide) (fun b => m (c, b))
  have e2 := (Stretch.writesFrom (F := Ideal)).read_unary 513 (x := main_v4) (y := main_v513) rfl (fun _ => by decide) (fun b => m (c, b))
  unfold R
  rw [e1, e2]
  exact row_spec _ 516 (by decide) (by decide) _ _

theorem row_509 : IsRows (wfd m c) 509 (R m c main_v1538 : S1x1024.Idx → EReal) := by
  have e1 := (Stretch.writesFrom (F := Ideal)).read_unary 1538 (x := main_v514) (y := main_v1538) rfl (fun _ => by decide) (fun b => m (c, b))
  have e2 := (Stretch.writesFrom (F := Ideal)).read_unary 514 (x := main_v4) (y := main_v514) rfl (fun _ => by decide) (fun b => m (c, b))
  unfold R
  rw [e1, e2]
  exact row_spec _ 515 (by decide) (by decide) _ _

theorem row_510 : IsRows (wfd m c) 510 (R m c main_v1539 : S1x1024.Idx → EReal) := by
  have e1 := (Stretch.writesFrom (F := Ideal)).read_unary 1539 (x := main_v515) (y := main_v1539) rfl (fun _ => by decide) (fun b => m (c, b))
  have e2 := (Stretch.writesFrom (F := Ideal)).read_unary 515 (x := main_v4) (y := main_v515) rfl (fun _ => by decide) (fun b => m (c, b))
  unfold R
  rw [e1, e2]
  exact row_spec _ 514 (by decide) (by decide) _ _

theorem row_511 : IsRows (wfd m c) 511 (R m c main_v1540 : S1x1024.Idx → EReal) := by
  have e1 := (Stretch.writesFrom (F := Ideal)).read_unary 1540 (x := main_v516) (y := main_v1540) rfl (fun _ => by decide) (fun b => m (c, b))
  have e2 := (Stretch.writesFrom (F := Ideal)).read_unary 516 (x := main_v4) (y := main_v516) rfl (fun _ => by decide) (fun b => m (c, b))
  unfold R
  rw [e1, e2]
  exact row_spec _ 513 (by decide) (by decide) _ _

end Cert.KernelIdeal.Circ

end
-- ==== Proof.CircBlock1.lean ====
/-
  Rows 256 to 511 of the circulant, stacked: sixteen stacks of sixteen rows, then those sixteen blocks stacked.
  Each stack is read off its own concatenation of the host stretch; the rows (or blocks) stacked are consecutive rows of
  the matrix whose every row is the one above shifted one place to the right, so the stack is too.
-/
import proofs.«163274_j17575006175271_2_alg».proof.Proof.CircRows2
import proofs.«163274_j17575006175271_2_alg».proof.Proof.CircRows3
import proofs.«163274_j17575006175271_2_alg».proof.Proof.LibRowStackArgs

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem c1_16 : IsRows (wfd m c) 256 (R m c main_v2069 : S16x1024.Idx → EReal) := by
  have e := (Stretch.writesFrom (F := Ideal)).read_nary 2069 (y := main_v2069) rfl (by decide) (fun b => m (c, b))
  unfold R
  rw [e]
  exact stack16_rows (wfd m c) 256 _ _ _ _ _ _ _ _ _ _ _ _ _ _ _ _ _
    (row_256 m c) (row_257 m c) (row_258 m c) (row_259 m c) (row_260 m c) (row_261 m c) (row_262 m c) (row_263 m c) (row_264 m c) (row_265 m c) (row_266 m c) (row_267 m c) (row_268 m c) (row_269 m c) (row_270 m c) (row_271 m c)

theorem c1_17 : IsRows (wfd m c) 272 (R m c main_v2070 : S16x1024.Idx → EReal) := by
  have e := (Stretch.writesFrom (F := Ideal)).read_nary 2070 (y := main_v2070) rfl (by decide) (fun b => m (c, b))
  unfold R
  rw [e]
  exact stack16_rows (wfd m c) 272 _ _ _ _ _ _ _ _ _ _ _ _ _ _ _ _ _
    (row_272 m c) (row_273 m c) (row_274 m c) (row_275 m c) (row_276 m c) (row_277 m c) (row_278 m c) (row_279 m c) (row_280 m c) (row_281 m c) (row_282 m c) (row_283 m c) (row_284 m c) (row_285 m c) (row_286 m c) (row_287 m c)

theorem c1_18 : IsRows (wfd m c) 288 (R m c main_v2071 : S16x1024.Idx → EReal) := by
  have e := (Stretch.writesFrom (F := Ideal)).read_nary 2071 (y := main_v2071) rfl (by decide) (fun b => m (c, b))
  unfold R
  rw [e]
  exact stack16_rows (wfd m c) 288 _ _ _ _ _ _ _ _ _ _ _ _ _ _ _ _ _
    (row_288 m c) (row_289 m c) (row_290 m c) (row_291 m c) (row_292 m c) (row_293 m c) (row_294 m c) (row_295 m c) (row_296 m c) (row_297 m c) (row_298 m c) (row_299 m c) (row_300 m c) (row_301 m c) (row_302 m c) (row_303 m c)

theorem c1_19 : IsRows (wfd m c) 304 (R m c main_v2072 : S16x1024.Idx → EReal) := by
  have e := (Stretch.writesFrom (F := Ideal)).read_nary 2072 (y := main_v2072) rfl (by decide) (fun b => m (c, b))
  unfold R
  rw [e]
  exact stack16_rows (wfd m c) 304 _ _ _ _ _ _ _ _ _ _ _ _ _ _ _ _ _
    (row_304 m c) (row_305 m c) (row_306 m c) (row_307 m c) (row_308 m c) (row_309 m c) (row_310 m c) (row_311 m c) (row_312 m c) (row_313 m c) (row_314 m c) (row_315 m c) (row_316 m c) (row_317 m c) (row_318 m c) (row_319 m c)

theorem c1_20 : IsRows (wfd m c) 320 (R m c main_v2073 : S16x1024.Idx → EReal) := by
  have e := (Stretch.writesFrom (F := Ideal)).read_nary 2073 (y := main_v2073) rfl (by decide) (fun b => m (c, b))
  unfold R
  rw [e]
  exact stack16_rows (wfd m c) 320 _ _ _ _ _ _ _ _ _ _ _ _ _ _ _ _ _
    (row_320 m c) (row_321 m c) (row_322 m c) (row_323 m c) (row_324 m c) (row_325 m c) (row_326 m c) (row_327 m c) (row_328 m c) (row_329 m c) (row_330 m c) (row_331 m c) (row_332 m c) (row_333 m c) (row_334 m c) (row_335 m c)

theorem c1_21 : IsRows (wfd m c) 336 (R m c main_v2074 : S16x1024.Idx → EReal) := by
  have e := (Stretch.writesFrom (F := Ideal)).read_nary 2074 (y := main_v2074) rfl (by decide) (fun b => m (c, b))
  unfold R
  rw [e]
  exact stack16_rows (wfd m c) 336 _ _ _ _ _ _ _ _ _ _ _ _ _ _ _ _ _
    (row_336 m c) (row_337 m c) (row_338 m c) (row_339 m c) (row_340 m c) (row_341 m c) (row_342 m c) (row_343 m c) (row_344 m c) (row_345 m c) (row_346 m c) (row_347 m c) (row_348 m c) (row_349 m c) (row_350 m c) (row_351 m c)

theorem c1_22 : IsRows (wfd m c) 352 (R m c main_v2075 : S16x1024.Idx → EReal) := by
  have e := (Stretch.writesFrom (F := Ideal)).read_nary 2075 (y := main_v2075) rfl (by decide) (fun b => m (c, b))
  unfold R
  rw [e]
  exact stack16_rows (wfd m c) 352 _ _ _ _ _ _ _ _ _ _ _ _ _ _ _ _ _
    (row_352 m c) (row_353 m c) (row_354 m c) (row_355 m c) (row_356 m c) (row_357 m c) (row_358 m c) (row_359 m c) (row_360 m c) (row_361 m c) (row_362 m c) (row_363 m c) (row_364 m c) (row_365 m c) (row_366 m c) (row_367 m c)

theorem c1_23 : IsRows (wfd m c) 368 (R m c main_v2076 : S16x1024.Idx → EReal) := by
  have e := (Stretch.writesFrom (F := Ideal)).read_nary 2076 (y := main_v2076) rfl (by decide) (fun b => m (c, b))
  unfold R
  rw [e]
  exact stack16_rows (wfd m c) 368 _ _ _ _ _ _ _ _ _ _ _ _ _ _ _ _ _
    (row_368 m c) (row_369 m c) (row_370 m c) (row_371 m c) (row_372 m c) (row_373 m c) (row_374 m c) (row_375 m c) (row_376 m c) (row_377 m c) (row_378 m c) (row_379 m c) (row_380 m c) (row_381 m c) (row_382 m c) (row_383 m c)

theorem c1_24 : IsRows (wfd m c) 384 (R m c main_v2077 : S16x1024.Idx → EReal) := by
  have e := (Stretch.writesFrom (F := Ideal)).read_nary 2077 (y := main_v2077) rfl (by decide) (fun b => m (c, b))
  unfold R
  rw [e]
  exact stack16_rows (wfd m c) 384 _ _ _ _ _ _ _ _ _ _ _ _ _ _ _ _ _
    (row_384 m c) (row_385 m c) (row_386 m c) (row_387 m c) (row_388 m c) (row_389 m c) (row_390 m c) (row_391 m c) (row_392 m c) (row_393 m c) (row_394 m c) (row_395 m c) (row_396 m c) (row_397 m c) (row_398 m c) (row_399 m c)

theorem c1_25 : IsRows (wfd m c) 400 (R m c main_v2078 : S16x1024.Idx → EReal) := by
  have e := (Stretch.writesFrom (F := Ideal)).read_nary 2078 (y := main_v2078) rfl (by decide) (fun b => m (c, b))
  unfold R
  rw [e]
  exact stack16_rows (wfd m c) 400 _ _ _ _ _ _ _ _ _ _ _ _ _ _ _ _ _
    (row_400 m c) (row_401 m c) (row_402 m c) (row_403 m c) (row_404 m c) (row_405 m c) (row_406 m c) (row_407 m c) (row_408 m c) (row_409 m c) (row_410 m c) (row_411 m c) (row_412 m c) (row_413 m c) (row_414 m c) (row_415 m c)

theorem c1_26 : IsRows (wfd m c) 416 (R m c main_v2079 : S16x1024.Idx → EReal) := by
  have e := (Stretch.writesFrom (F := Ideal)).read_nary 2079 (y := main_v2079) rfl (by decide) (fun b => m (c, b))
  unfold R
  rw [e]
  exact stack16_rows (wfd m c) 416 _ _ _ _ _ _ _ _ _ _ _ _ _ _ _ _ _
    (row_416 m c) (row_417 m c) (row_418 m c) (row_419 m c) (row_420 m c) (row_421 m c) (row_422 m c) (row_423 m c) (row_424 m c) (row_425 m c) (row_426 m c) (row_427 m c) (row_428 m c) (row_429 m c) (row_430 m c) (row_431 m c)

theorem c1_27 : IsRows (wfd m c) 432 (R m c main_v2080 : S16x1024.Idx → EReal) := by
  have e := (Stretch.writesFrom (F := Ideal)).read_nary 2080 (y := main_v2080) rfl (by decide) (fun b => m (c, b))
  unfold R
  rw [e]
  exact stack16_rows (wfd m c) 432 _ _ _ _ _ _ _ _ _ _ _ _ _ _ _ _ _
    (row_432 m c) (row_433 m c) (row_434 m c) (row_435 m c) (row_436 m c) (row_437 m c) (row_438 m c) (row_439 m c) (row_440 m c) (row_441 m c) (row_442 m c) (row_443 m c) (row_444 m c) (row_445 m c) (row_446 m c) (row_447 m c)

theorem c1_28 : IsRows (wfd m c) 448 (R m c main_v2081 : S16x1024.Idx → EReal) := by
  have e := (Stretch.writesFrom (F := Ideal)).read_nary 2081 (y := main_v2081) rfl (by decide) (fun b => m (c, b))
  unfold R
  rw [e]
  exact stack16_rows (wfd m c) 448 _ _ _ _ _ _ _ _ _ _ _ _ _ _ _ _ _
    (row_448 m c) (row_449 m c) (row_450 m c) (row_451 m c) (row_452 m c) (row_453 m c) (row_454 m c) (row_455 m c) (row_456 m c) (row_457 m c) (row_458 m c) (row_459 m c) (row_460 m c) (row_461 m c) (row_462 m c) (row_463 m c)

theorem c1_29 : IsRows (wfd m c) 464 (R m c main_v2082 : S16x1024.Idx → EReal) := by
  have e := (Stretch.writesFrom (F := Ideal)).read_nary 2082 (y := main_v2082) rfl (by decide) (fun b => m (c, b))
  unfold R
  rw [e]
  exact stack16_rows (wfd m c) 464 _ _ _ _ _ _ _ _ _ _ _ _ _ _ _ _ _
    (row_464 m c) (row_465 m c) (row_466 m c) (row_467 m c) (row_468 m c) (row_469 m c) (row_470 m c) (row_471 m c) (row_472 m c) (row_473 m c) (row_474 m c) (row_475 m c) (row_476 m c) (row_477 m c) (row_478 m c) (row_479 m c)

theorem c1_30 : IsRows (wfd m c) 480 (R m c main_v2083 : S16x1024.Idx → EReal) := by
  have e := (Stretch.writesFrom (F := Ideal)).read_nary 2083 (y := main_v2083) rfl (by decide) (fun b => m (c, b))
  unfold R
  rw [e]
  exact stack16_rows (wfd m c) 480 _ _ _ _ _ _ _ _ _ _ _ _ _ _ _ _ _
    (row_480 m c) (row_481 m c) (row_482 m c) (row_483 m c) (row_484 m c) (row_485 m c) (row_486 m c) (row_487 m c) (row_488 m c) (row_489 m c) (row_490 m c) (row_491 m c) (row_492 m c) (row_493 m c) (row_494 m c) (row_495 m c)

theorem c1_31 : IsRows (wfd m c) 496 (R m c main_v2084 : S16x1024.Idx → EReal) := by
  have e := (Stretch.writesFrom (F := Ideal)).read_nary 2084 (y := main_v2084) rfl (by decide) (fun b => m (c, b))
  unfold R
  rw [e]
  exact stack16_rows (wfd m c) 496 _ _ _ _ _ _ _ _ _ _ _ _ _ _ _ _ _
    (row_496 m c) (row_497 m c) (row_498 m c) (row_499 m c) (row_500 m c) (row_501 m c) (row_502 m c) (row_503 m c) (row_504 m c) (row_505 m c) (row_506 m c) (row_507 m c) (row_508 m c) (row_509 m c) (row_510 m c) (row_511 m c)

theorem c2_1 : IsRows (wfd m c) 256 (R m c main_v2118 : S256x1024.Idx → EReal) := by
  have e := (Stretch.writesFrom (F := Ideal)).read_nary 2118 (y := main_v2118) rfl (by decide) (fun b => m (c, b))
  unfold R
  rw [e]
  exact stack16_blocks (wfd m c) 256 _ _ _ _ _ _ _ _ _ _ _ _ _ _ _ _ _
    (c1_16 m c) (c1_17 m c) (c1_18 m c) (c1_19 m c) (c1_20 m c) (c1_21 m c) (c1_22 m c) (c1_23 m c) (c1_24 m c) (c1_25 m c) (c1_26 m c) (c1_27 m c) (c1_28 m c) (c1_29 m c) (c1_30 m c) (c1_31 m c)

end Cert.KernelIdeal.Circ

end
-- ==== Proof.CircRows4.lean ====
/-
  Rows 512 to 639 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_512 : IsRows (wfd m c) 512 (R m c main_v1541 : S1x1024.Idx → EReal) := by
  have e1 := (Stretch.writesFrom (F := Ideal)).read_unary 1541 (x := main_v517) (y := main_v1541) rfl (fun _ => by decide) (fun b => m (c, b))
  have e2 := (Stretch.writesFrom (F := Ideal)).read_unary 517 (x := main_v4) (y := main_v517) rfl (fun _ => by decide) (fun b => m (c, b))
  unfold R
  rw [e1, e2]
  exact row_spec _ 512 (by decide) (by decide) _ _

theorem row_513 : IsRows (wfd m c) 513 (R m c main_v1542 : S1x1024.Idx → EReal) := by
  have e1 := (Stretch.writesFrom (F := Ideal)).read_unary 1542 (x := main_v518) (y := main_v1542) rfl (fun _ => by decide) (fun b => m (c, b))
  have e2 := (Stretch.writesFrom (F := Ideal)).read_unary 518 (x := main_v4) (y := main_v518) rfl (fun _ => by decide) (fun b => m (c, b))
  unfold R
  rw [e1, e2]
  exact row_spec _ 511 (by decide) (by decide) _ _

theorem row_514 : IsRows (wfd m c) 514 (R m c main_v1543 : S1x1024.Idx → EReal) := by
  have e1 := (Stretch.writesFrom (F := Ideal)).read_unary 1543 (x := main_v519) (y := main_v1543) rfl (fun _ => by decide) (fun b => m (c, b))
  have e2 := (Stretch.writesFrom (F := Ideal)).read_unary 519 (x := main_v4) (y := main_v519) rfl (fun _ => by decide) (fun b => m (c, b))
  unfold R
  rw [e1, e2]
  exact row_spec _ 510 (by decide) (by decide) _ _

theorem row_515 : IsRows (wfd m c) 515 (R m c main_v1544 : S1x1024.Idx → EReal) := by
  have e1 := (Stretch.writesFrom (F := Ideal)).read_unary 1544 (x := main_v520) (y := main_v1544) rfl (fun _ => by decide) (fun b => m (c, b))
  have e2 := (Stretch.writesFrom (F := Ideal)).read_unary 520 (x := main_v4) (y := main_v520) rfl (fun _ => by decide) (fun b => m (c, b))
  unfold R
  rw [e1, e2]
  exact row_spec _ 509 (by decide) (by decide) _ _

theorem row_516 : IsRows (wfd m c) 516 (R m c main_v1545 : S1x1024.Idx → EReal) := by
  have e1 := (Stretch.writesFrom (F := Ideal)).read_unary 1545 (x := main_v521) (y := main_v1545) rfl (fun _ => by decide) (fun b => m (c, b))
  have e2 := (Stretch.writesFrom (F := Ideal)).read_unary 521 (x := main_v4) (y := main_v521) rfl (fun _ => by decide) (fun b => m (c, b))
  unfold R
  rw [e1, e2]
  exact row_spec _ 508 (by decide) (by decide) _ _

theorem row_517 : IsRows (wfd m c) 517 (R m c main_v1546 : S1x1024.Idx → EReal) := by
  have e1 := (Stretch.writesFrom (F := Ideal)).read_unary 1546 (x := main_v522) (y := main_v1546) rfl (fun _ => by decide) (fun b => m (c, b))
  have e2 := (Stretch.writesFrom (F := Ideal)).read_unary 522 (x := main_v4) (y := main_v522) rfl (fun _ => by decide) (fun b => m (c, b))
  unfold R
  rw [e1, e2]
  exact row_spec _ 507 (by decide) (by decide) _ _

theorem row_518 : IsRows (wfd m c) 518 (R m c main_v1547 : S1x1024.Idx → EReal) := by
  have e1 := (Stretch.writesFrom (F := Ideal)).read_unary 1547 (x := main_v523) (y := main_v1547) rfl (fun _ => by decide) (fun b => m (c, b))
  have e2 := (Stretch.writesFrom (F := Ideal)).read_unary 523 (x := main_v4) (y := main_v523) rfl (fun _ => by decide) (fun b => m (c, b))
  unfold R
  rw [e1, e2]
  exact row_spec _ 506 (by decide) (by decide) _ _

theorem row_519 : IsRows (wfd m c) 519 (R m c main_v1548 : S1x1024.Idx → EReal) := by
  have e1 := (Stretch.writesFrom (F := Ideal)).read_unary 1548 (x := main_v524) (y := main_v1548) rfl (fun _ => by decide) (fun b => m (c, b))
  have e2 := (Stretch.writesFrom (F := Ideal)).read_unary 524 (x := main_v4) (y := main_v524) rfl (fun _ => by decide) (fun b => m (c, b))
  unfold R
  rw [e1, e2]
  exact row_spec _ 505 (by decide) (by decide) _ _

theorem row_520 : IsRows (wfd m c) 520 (R m c main_v1549 : S1x1024.Idx → EReal) := by
  have e1 := (Stretch.writesFrom (F := Ideal)).read_unary 1549 (x := main_v525) (y := main_v1549) rfl (fun _ => by decide) (fun b => m (c, b))
  have e2 := (Stretch.writesFrom (F := Ideal)).read_unary 525 (x := main_v4) (y := main_v525) rfl (fun _ => by decide) (fun b => m (c, b))
  unfold R
  rw [e1, e2]
  exact row_spec _ 504 (by decide) (by decide) _ _

theorem row_521 : IsRows (wfd m c) 521 (R m c main_v1550 : S1x1024.Idx → EReal) := by
  have e1 := (Stretch.writesFrom (F := Ideal)).read_unary 1550 (x := main_v526) (y := main_v1550) rfl (fun _ => by decide) (fun b => m (c, b))
  have e2 := (Stretch.writesFrom (F := Ideal)).read_unary 526 (x := main_v4) (y := main_v526) rfl (fun _ => by decide) (fun b => m (c, b))
  unfold R
  rw [e1, e2]
  exact row_spec _ 503 (by decide) (by decide) _ _

theorem row_522 : IsRows (wfd m c) 522 (R m c main_v1551 : S1x1024.Idx → EReal) := by
  have e1 := (Stretch.writesFrom (F := Ideal)).read_unary 1551 (x := main_v527) (y := main_v1551) rfl (fun _ => by decide) (fun b => m (c, b))
  have e2 := (Stretch.writesFrom (F := Ideal)).read_unary 527 (x := main_v4) (y := main_v527) rfl (fun _ => by decide) (fun b => m (c, b))
  unfold R
  rw [e1, e2]
  exact row_spec _ 502 (by decide) (by decide) _ _

theorem row_523 : IsRows (wfd m c) 523 (R m c main_v1552 : S1x1024.Idx → EReal) := by
  have e1 := (Stretch.writesFrom (F := Ideal)).read_unary 1552 (x := main_v528) (y := main_v1552) rfl (fun _ => by decide) (fun b => m (c, b))
  have e2 := (Stretch.writesFrom (F := Ideal)).read_unary 528 (x := main_v4) (y := main_v528) rfl (fun _ => by decide) (fun b => m (c, b))
  unfold R
  rw [e1, e2]
  exact row_spec _ 501 (by decide) (by decide) _ _

theorem row_524 : IsRows (wfd m c) 524 (R m c main_v1553 : S1x1024.Idx → EReal) := by
  have e1 := (Stretch.writesFrom (F := Ideal)).read_unary 1553 (x := main_v529) (y := main_v1553) rfl (fun _ => by decide) (fun b => m (c, b))
  have e2 := (Stretch.writesFrom (F := Ideal)).read_unary 529 (x := main_v4) (y := main_v529) rfl (fun _ => by decide) (fun b => m (c, b))
  unfold R
  rw [e1, e2]
  exact row_spec _ 500 (by decide) (by decide) _ _

theorem row_525 : IsRows (wfd m c) 525 (R m c main_v1554 : S1x1024.Idx → EReal) := by
  have e1 := (Stretch.writesFrom (F := Ideal)).read_unary 1554 (x := main_v530) (y := main_v1554) rfl (fun _ => by decide) (fun b => m (c, b))
  have e2 := (Stretch.writesFrom (F := Ideal)).read_unary 530 (x := main_v4) (y := main_v530) rfl (fun _ => by decide) (fun b => m (c, b))
  unfold R
  rw [e1, e2]
  exact row_spec _ 499 (by decide) (by decide) _ _

theorem row_526 : IsRows (wfd m c) 526 (R m c main_v1555 : S1x1024.Idx → EReal) := by
  have e1 := (Stretch.writesFrom (F := Ideal)).read_unary 1555 (x := main_v531) (y := main_v1555) rfl (fun _ => by decide) (fun b => m (c, b))
  have e2 := (Stretch.writesFrom (F := Ideal)).read_unary 531 (x := main_v4) (y := main_v531) rfl (fun _ => by decide) (fun b => m (c, b))
  unfold R
  rw [e1, e2]
  exact row_spec _ 498 (by decide) (by decide) _ _

theorem row_527 : IsRows (wfd m c) 527 (R m c main_v1556 : S1x1024.Idx → EReal) := by
  have e1 := (Stretch.writesFrom (F := Ideal)).read_unary 1556 (x := main_v532) (y := main_v1556) rfl (fun _ => by decide) (fun b => m (c, b))
  have e2 := (Stretch.writesFrom (F := Ideal)).read_unary 532 (x := main_v4) (y := main_v532) rfl (fun _ => by decide) (fun b => m (c, b))
  unfold R
  rw [e1, e2]
  exact row_spec _ 497 (by decide) (by decide) _ _

theorem row_528 : IsRows (wfd m c) 528 (R m c main_v1557 : S1x1024.Idx → EReal) := by
  have e1 := (Stretch.writesFrom (F := Ideal)).read_unary 1557 (x := main_v533) (y := main_v1557) rfl (fun _ => by decide) (fun b => m (c, b))
  have e2 := (Stretch.writesFrom (F := Ideal)).read_unary 533 (x := main_v4) (y := main_v533) rfl (fun _ => by decide) (fun b => m (c, b))
  unfold R
  rw [e1, e2]
  exact row_spec _ 496 (by decide) (by decide) _ _

theorem row_529 : IsRows (wfd m c) 529 (R m c main_v1558 : S1x1024.Idx → EReal) := by
  have e1 := (Stretch.writesFrom (F := Ideal)).read_unary 1558 (x := main_v534) (y := main_v1558) rfl (fun _ => by decide) (fun b => m (c, b))
  have e2 := (Stretch.writesFrom (F := Ideal)).read_unary 534 (x := main_v4) (y := main_v534) rfl (fun _ => by decide) (fun b => m (c, b))
  unfold R
  rw [e1, e2]
  exact row_spec _ 495 (by decide) (by decide) _ _

theorem row_530 : IsRows (wfd m c) 530 (R m c main_v1559 : S1x1024.Idx → EReal) := by
  have e1 := (Stretch.writesFrom (F := Ideal)).read_unary 1559 (x := main_v535) (y := main_v1559) rfl (fun _ => by decide) (fun b => m (c, b))
  have e2 := (Stretch.writesFrom (F := Ideal)).read_unary 535 (x := main_v4) (y := main_v535) rfl (fun _ => by decide) (fun b => m (c, b))
  unfold R
  rw [e1, e2]
  exact row_spec _ 494 (by decide) (by decide) _ _

theorem row_531 : IsRows (wfd m c) 531 (R m c main_v1560 : S1x1024.Idx → EReal) := by
  have e1 := (Stretch.writesFrom (F := Ideal)).read_unary 1560 (x := main_v536) (y := main_v1560) rfl (fun _ => by decide) (fun b => m (c, b))
  have e2 := (Stretch.writesFrom (F := Ideal)).read_unary 536 (x := main_v4) (y := main_v536) rfl (fun _ => by decide) (fun b => m (c, b))
  unfold R
  rw [e1, e2]
  exact row_spec _ 493 (by decide) (by decide) _ _

theorem row_532 : IsRows (wfd m c) 532 (R m c main_v1561 : S1x1024.Idx → EReal) := by
  have e1 := (Stretch.writesFrom (F := Ideal)).read_unary 1561 (x := main_v537) (y := main_v1561) rfl (fun _ => by decide) (fun b => m (c, b))
  have e2 := (Stretch.writesFrom (F := Ideal)).read_unary 537 (x := main_v4) (y := main_v537) rfl (fun _ => by decide) (fun b => m (c, b))
  unfold R
  rw [e1, e2]
  exact row_spec _ 492 (by decide) (by decide) _ _

theorem row_533 : IsRows (wfd m c) 533 (R m c main_v1562 : S1x1024.Idx → EReal) := by
  have e1 := (Stretch.writesFrom (F := Ideal)).read_unary 1562 (x := main_v538) (y := main_v1562) rfl (fun _ => by decide) (fun b => m (c, b))
  have e2 := (Stretch.writesFrom (F := Ideal)).read_unary 538 (x := main_v4) (y := main_v538) rfl (fun _ => by decide) (fun b => m (c, b))
  unfold R
  rw [e1, e2]
  exact row_spec _ 491 (by decide) (by decide) _ _

theorem row_534 : IsRows (wfd m c) 534 (R m c main_v1563 : S1x1024.Idx → EReal) := by
  have e1 := (Stretch.writesFrom (F := Ideal)).read_unary 1563 (x := main_v539) (y := main_v1563) rfl (fun _ => by decide) (fun b => m (c, b))
  have e2 := (Stretch.writesFrom (F := Ideal)).read_unary 539 (x := main_v4) (y := main_v539) rfl (fun _ => by decide) (fun b => m (c, b))
  unfold R
  rw [e1, e2]
  exact row_spec _ 490 (by decide) (by decide) _ _

theorem row_535 : IsRows (wfd m c) 535 (R m c main_v1564 : S1x1024.Idx → EReal) := by
  have e1 := (Stretch.writesFrom (F := Ideal)).read_unary 1564 (x := main_v540) (y := main_v1564) rfl (fun _ => by decide) (fun b => m (c, b))
  have e2 := (Stretch.writesFrom (F := Ideal)).read_unary 540 (x := main_v4) (y := main_v540) rfl (fun _ => by decide) (fun b => m (c, b))
  unfold R
  rw [e1, e2]
  exact row_spec _ 489 (by decide) (by decide) _ _

theorem row_536 : IsRows (wfd m c) 536 (R m c main_v1565 : S1x1024.Idx → EReal) := by
  have e1 := (Stretch.writesFrom (F := Ideal)).read_unary 1565 (x := main_v541) (y := main_v1565) rfl (fun _ => by decide) (fun b => m (c, b))
  have e2 := (Stretch.writesFrom (F := Ideal)).read_unary 541 (x := main_v4) (y := main_v541) rfl (fun _ => by decide) (fun b => m (c, b))
  unfold R
  rw [e1, e2]
  exact row_spec _ 488 (by decide) (by decide) _ _

theorem row_537 : IsRows (wfd m c) 537 (R m c main_v1566 : S1x1024.Idx → EReal) := by
  have e1 := (Stretch.writesFrom (F := Ideal)).read_unary 1566 (x := main_v542) (y := main_v1566) rfl (fun _ => by decide) (fun b => m (c, b))
  have e2 := (Stretch.writesFrom (F := Ideal)).read_unary 542 (x := main_v4) (y := main_v542) rfl (fun _ => by decide) (fun b => m (c, b))
  unfold R
  rw [e1, e2]
  exact row_spec _ 487 (by decide) (by decide) _ _

theorem row_538 : IsRows (wfd m c) 538 (R m c main_v1567 : S1x1024.Idx → EReal) := by
  have e1 := (Stretch.writesFrom (F := Ideal)).read_unary 1567 (x := main_v543) (y := main_v1567) rfl (fun _ => by decide) (fun b => m (c, b))
  have e2 := (Stretch.writesFrom (F := Ideal)).read_unary 543 (x := main_v4) (y := main_v543) rfl (fun _ => by decide) (fun b => m (c, b))
  unfold R
  rw [e1, e2]
  exact row_spec _ 486 (by decide) (by decide) _ _

theorem row_539 : IsRows (wfd m c) 539 (R m c main_v1568 : S1x1024.Idx → EReal) := by
  have e1 := (Stretch.writesFrom (F := Ideal)).read_unary 1568 (x := main_v544) (y := main_v1568) rfl (fun _ => by decide) (fun b => m (c, b))
  have e2 := (Stretch.writesFrom (F := Ideal)).read_unary 544 (x := main_v4) (y := main_v544) rfl (fun _ => by decide) (fun b => m (c, b))
  unfold R
  rw [e1, e2]
  exact row_spec _ 485 (by decide) (by decide) _ _

theorem row_540 : IsRows (wfd m c) 540 (R m c main_v1569 : S1x1024.Idx → EReal) := by
  have e1 := (Stretch.writesFrom (F := Ideal)).read_unary 1569 (x := main_v545) (y := main_v1569) rfl (fun _ => by decide) (fun b => m (c, b))
  have e2 := (Stretch.writesFrom (F := Ideal)).read_unary 545 (x := main_v4) (y := main_v545) rfl (fun _ => by decide) (fun b => m (c, b))
  unfold R
  rw [e1, e2]
  exact row_spec _ 484 (by decide) (by decide) _ _

theorem row_541 : IsRows (wfd m c) 541 (R m c main_v1570 : S1x1024.Idx → EReal) := by
  have e1 := (Stretch.writesFrom (F := Ideal)).read_unary 1570 (x := main_v546) (y := main_v1570) rfl (fun _ => by decide) (fun b => m (c, b))
  have e2 := (Stretch.writesFrom (F := Ideal)).read_unary 546 (x := main_v4) (y := main_v546) rfl (fun _ => by decide) (fun b => m (c, b))
  unfold R
  rw [e1, e2]
  exact row_spec _ 483 (by decide) (by decide) _ _

theorem row_542 : IsRows (wfd m c) 542 (R m c main_v1571 : S1x1024.Idx → EReal) := by
  have e1 := (Stretch.writesFrom (F := Ideal)).read_unary 1571 (x := main_v547) (y := main_v1571) rfl (fun _ => by decide) (fun b => m (c, b))
  have e2 := (Stretch.writesFrom (F := Ideal)).read_unary 547 (x := main_v4) (y := main_v547) rfl (fun _ => by decide) (fun b => m (c, b))
  unfold R
  rw [e1, e2]
  exact row_spec _ 482 (by decide) (by decide) _ _

theorem row_543 : IsRows (wfd m c) 543 (R m c main_v1572 : S1x1024.Idx → EReal) := by
  have e1 := (Stretch.writesFrom (F := Ideal)).read_unary 1572 (x := main_v548) (y := main_v1572) rfl (fun _ => by decide) (fun b => m (c, b))
  have e2 := (Stretch.writesFrom (F := Ideal)).read_unary 548 (x := main_v4) (y := main_v548) rfl (fun _ => by decide) (fun b => m (c, b))
  unfold R
  rw [e1, e2]
  exact row_spec _ 481 (by decide) (by decide) _ _

theorem row_544 : IsRows (wfd m c) 544 (R m c main_v1573 : S1x1024.Idx → EReal) := by
  have e1 := (Stretch.writesFrom (F := Ideal)).read_unary 1573 (x := main_v549) (y := main_v1573) rfl (fun _ => by decide) (fun b => m (c, b))
  have e2 := (Stretch.writesFrom (F := Ideal)).read_unary 549 (x := main_v4) (y := main_v549) rfl (fun _ => by decide) (fun b => m (c, b))
  unfold R
  rw [e1, e2]
  exact row_spec _ 480 (by decide) (by decide) _ _

theorem row_545 : IsRows (wfd m c) 545 (R m c main_v1574 : S1x1024.Idx → EReal) := by
  have e1 := (Stretch.writesFrom (F := Ideal)).read_unary 1574 (x := main_v550) (y := main_v1574) rfl (fun _ => by decide) (fun b => m (c, b))
  have e2 := (Stretch.writesFrom (F := Ideal)).read_unary 550 (x := main_v4) (y := main_v550) rfl (fun _ => by decide) (fun b => m (c, b))
  unfold R
  rw [e1, e2]
  exact row_spec _ 479 (by decide) (by decide) _ _

theorem row_546 : IsRows (wfd m c) 546 (R m c main_v1575 : S1x1024.Idx → EReal) := by
  have e1 := (Stretch.writesFrom (F := Ideal)).read_unary 1575 (x := main_v551) (y := main_v1575) rfl (fun _ => by decide) (fun b => m (c, b))
  have e2 := (Stretch.writesFrom (F := Ideal)).read_unary 551 (x := main_v4) (y := main_v551) rfl (fun _ => by decide) (fun b => m (c, b))
  unfold R
  rw [e1, e2]
  exact row_spec _ 478 (by decide) (by decide) _ _

theorem row_547 : IsRows (wfd m c) 547 (R m c main_v1576 : S1x1024.Idx → EReal) := by
  have e1 := (Stretch.writesFrom (F := Ideal)).read_unary 1576 (x := main_v552) (y := main_v1576) rfl (fun _ => by decide) (fun b => m (c, b))
  have e2 := (Stretch.writesFrom (F := Ideal)).read_unary 552 (x := main_v4) (y := main_v552) rfl (fun _ => by decide) (fun b => m (c, b))
  unfold R
  rw [e1, e2]
  exact row_spec _ 477 (by decide) (by decide) _ _

theorem row_548 : IsRows (wfd m c) 548 (R m c main_v1577 : S1x1024.Idx → EReal) := by
  have e1 := (Stretch.writesFrom (F := Ideal)).read_unary 1577 (x := main_v553) (y := main_v1577) rfl (fun _ => by decide) (fun b => m (c, b))
  have e2 := (Stretch.writesFrom (F := Ideal)).read_unary 553 (x := main_v4) (y := main_v553) rfl (fun _ => by decide) (fun b => m (c, b))
  unfold R
  rw [e1, e2]
  exact row_spec _ 476 (by decide) (by decide) _ _

theorem row_549 : IsRows (wfd m c) 549 (R m c main_v1578 : S1x1024.Idx → EReal) := by
  have e1 := (Stretch.writesFrom (F := Ideal)).read_unary 1578 (x := main_v554) (y := main_v1578) rfl (fun _ => by decide) (fun b => m (c, b))
  have e2 := (Stretch.writesFrom (F := Ideal)).read_unary 554 (x := main_v4) (y := main_v554) rfl (fun _ => by decide) (fun b => m (c, b))
  unfold R
  rw [e1, e2]
  exact row_spec _ 475 (by decide) (by decide) _ _

theorem row_550 : IsRows (wfd m c) 550 (R m c main_v1579 : S1x1024.Idx → EReal) := by
  have e1 := (Stretch.writesFrom (F := Ideal)).read_unary 1579 (x := main_v555) (y := main_v1579) rfl (fun _ => by decide) (fun b => m (c, b))
  have e2 := (Stretch.writesFrom (F := Ideal)).read_unary 555 (x := main_v4) (y := main_v555) rfl (fun _ => by decide) (fun b => m (c, b))
  unfold R
  rw [e1, e2]
  exact row_spec _ 474 (by decide) (by decide) _ _

theorem row_551 : IsRows (wfd m c) 551 (R m c main_v1580 : S1x1024.Idx → EReal) := by
  have e1 := (Stretch.writesFrom (F := Ideal)).read_unary 1580 (x := main_v556) (y := main_v1580) rfl (fun _ => by decide) (fun b => m (c, b))
  have e2 := (Stretch.writesFrom (F := Ideal)).read_unary 556 (x := main_v4) (y := main_v556) rfl (fun _ => by decide) (fun b => m (c, b))
  unfold R
  rw [e1, e2]
  exact row_spec _ 473 (by decide) (by decide) _ _

theorem row_552 : IsRows (wfd m c) 552 (R m c main_v1581 : S1x1024.Idx → EReal) := by
  have e1 := (Stretch.writesFrom (F := Ideal)).read_unary 1581 (x := main_v557) (y := main_v1581) rfl (fun _ => by decide) (fun b => m (c, b))
  have e2 := (Stretch.writesFrom (F := Ideal)).read_unary 557 (x := main_v4) (y := main_v557) rfl (fun _ => by decide) (fun b => m (c, b))
  unfold R
  rw [e1, e2]
  exact row_spec _ 472 (by decide) (by decide) _ _

theorem row_553 : IsRows (wfd m c) 553 (R m c main_v1582 : S1x1024.Idx → EReal) := by
  have e1 := (Stretch.writesFrom (F := Ideal)).read_unary 1582 (x := main_v558) (y := main_v1582) rfl (fun _ => by decide) (fun b => m (c, b))
  have e2 := (Stretch.writesFrom (F := Ideal)).read_unary 558 (x := main_v4) (y := main_v558) rfl (fun _ => by decide) (fun b => m (c, b))
  unfold R
  rw [e1, e2]
  exact row_spec _ 471 (by decide) (by decide) _ _

theorem row_554 : IsRows (wfd m c) 554 (R m c main_v1583 : S1x1024.Idx → EReal) := by
  have e1 := (Stretch.writesFrom (F := Ideal)).read_unary 1583 (x := main_v559) (y := main_v1583) rfl (fun _ => by decide) (fun b => m (c, b))
  have e2 := (Stretch.writesFrom (F := Ideal)).read_unary 559 (x := main_v4) (y := main_v559) rfl (fun _ => by decide) (fun b => m (c, b))
  unfold R
  rw [e1, e2]
  exact row_spec _ 470 (by decide) (by decide) _ _

theorem row_555 : IsRows (wfd m c) 555 (R m c main_v1584 : S1x1024.Idx → EReal) := by
  have e1 := (Stretch.writesFrom (F := Ideal)).read_unary 1584 (x := main_v560) (y := main_v1584) rfl (fun _ => by decide) (fun b => m (c, b))
  have e2 := (Stretch.writesFrom (F := Ideal)).read_unary 560 (x := main_v4) (y := main_v560) rfl (fun _ => by decide) (fun b => m (c, b))
  unfold R
  rw [e1, e2]
  exact row_spec _ 469 (by decide) (by decide) _ _

theorem row_556 : IsRows (wfd m c) 556 (R m c main_v1585 : S1x1024.Idx → EReal) := by
  have e1 := (Stretch.writesFrom (F := Ideal)).read_unary 1585 (x := main_v561) (y := main_v1585) rfl (fun _ => by decide) (fun b => m (c, b))
  have e2 := (Stretch.writesFrom (F := Ideal)).read_unary 561 (x := main_v4) (y := main_v561) rfl (fun _ => by decide) (fun b => m (c, b))
  unfold R
  rw [e1, e2]
  exact row_spec _ 468 (by decide) (by decide) _ _

theorem row_557 : IsRows (wfd m c) 557 (R m c main_v1586 : S1x1024.Idx → EReal) := by
  have e1 := (Stretch.writesFrom (F := Ideal)).read_unary 1586 (x := main_v562) (y := main_v1586) rfl (fun _ => by decide) (fun b => m (c, b))
  have e2 := (Stretch.writesFrom (F := Ideal)).read_unary 562 (x := main_v4) (y := main_v562) rfl (fun _ => by decide) (fun b => m (c, b))
  unfold R
  rw [e1, e2]
  exact row_spec _ 467 (by decide) (by decide) _ _

theorem row_558 : IsRows (wfd m c) 558 (R m c main_v1587 : S1x1024.Idx → EReal) := by
  have e1 := (Stretch.writesFrom (F := Ideal)).read_unary 1587 (x := main_v563) (y := main_v1587) rfl (fun _ => by decide) (fun b => m (c, b))
  have e2 := (Stretch.writesFrom (F := Ideal)).read_unary 563 (x := main_v4) (y := main_v563) rfl (fun _ => by decide) (fun b => m (c, b))
  unfold R
  rw [e1, e2]
  exact row_spec _ 466 (by decide) (by decide) _ _

theorem row_559 : IsRows (wfd m c) 559 (R m c main_v1588 : S1x1024.Idx → EReal) := by
  have e1 := (Stretch.writesFrom (F := Ideal)).read_unary 1588 (x := main_v564) (y := main_v1588) rfl (fun _ => by decide) (fun b => m (c, b))
  have e2 := (Stretch.writesFrom (F := Ideal)).read_unary 564 (x := main_v4) (y := main_v564) rfl (fun _ => by decide) (fun b => m (c, b))
  unfold R
  rw [e1, e2]
  exact row_spec _ 465 (by decide) (by decide) _ _

theorem row_560 : IsRows (wfd m c) 560 (R m c main_v1589 : S1x1024.Idx → EReal) := by
  have e1 := (Stretch.writesFrom (F := Ideal)).read_unary 1589 (x := main_v565) (y := main_v1589) rfl (fun _ => by decide) (fun b => m (c, b))
  have e2 := (Stretch.writesFrom (F := Ideal)).read_unary 565 (x := main_v4) (y := main_v565) rfl (fun _ => by decide) (fun b => m (c, b))
  unfold R
  rw [e1, e2]
  exact row_spec _ 464 (by decide) (by decide) _ _

theorem row_561 : IsRows (wfd m c) 561 (R m c main_v1590 : S1x1024.Idx → EReal) := by
  have e1 := (Stretch.writesFrom (F := Ideal)).read_unary 1590 (x := main_v566) (y := main_v1590) rfl (fun _ => by decide) (fun b => m (c, b))
  have e2 := (Stretch.writesFrom (F := Ideal)).read_unary 566 (x := main_v4) (y := main_v566) rfl (fun _ => by decide) (fun b => m (c, b))
  unfold R
  rw [e1, e2]
  exact row_spec _ 463 (by decide) (by decide) _ _

theorem row_562 : IsRows (wfd m c) 562 (R m c main_v1591 : S1x1024.Idx → EReal) := by
  have e1 := (Stretch.writesFrom (F := Ideal)).read_unary 1591 (x := main_v567) (y := main_v1591) rfl (fun _ => by decide) (fun b => m (c, b))
  have e2 := (Stretch.writesFrom (F := Ideal)).read_unary 567 (x := main_v4) (y := main_v567) rfl (fun _ => by decide) (fun b => m (c, b))
  unfold R
  rw [e1, e2]
  exact row_spec _ 462 (by decide) (by decide) _ _

theorem row_563 : IsRows (wfd m c) 563 (R m c main_v1592 : S1x1024.Idx → EReal) := by
  have e1 := (Stretch.writesFrom (F := Ideal)).read_unary 1592 (x := main_v568) (y := main_v1592) rfl (fun _ => by decide) (fun b => m (c, b))
  have e2 := (Stretch.writesFrom (F := Ideal)).read_unary 568 (x := main_v4) (y := main_v568) rfl (fun _ => by decide) (fun b => m (c, b))
  unfold R
  rw [e1, e2]
  exact row_spec _ 461 (by decide) (by decide) _ _

theorem row_564 : IsRows (wfd m c) 564 (R m c main_v1593 : S1x1024.Idx → EReal) := by
  have e1 := (Stretch.writesFrom (F := Ideal)).read_unary 1593 (x := main_v569) (y := main_v1593) rfl (fun _ => by decide) (fun b => m (c, b))
  have e2 := (Stretch.writesFrom (F := Ideal)).read_unary 569 (x := main_v4) (y := main_v569) rfl (fun _ => by decide) (fun b => m (c, b))
  unfold R
  rw [e1, e2]
  exact row_spec _ 460 (by decide) (by decide) _ _

theorem row_565 : IsRows (wfd m c) 565 (R m c main_v1594 : S1x1024.Idx → EReal) := by
  have e1 := (Stretch.writesFrom (F := Ideal)).read_unary 1594 (x := main_v570) (y := main_v1594) rfl (fun _ => by decide) (fun b => m (c, b))
  have e2 := (Stretch.writesFrom (F := Ideal)).read_unary 570 (x := main_v4) (y := main_v570) rfl (fun _ => by decide) (fun b => m (c, b))
  unfold R
  rw [e1, e2]
  exact row_spec _ 459 (by decide) (by decide) _ _

theorem row_566 : IsRows (wfd m c) 566 (R m c main_v1595 : S1x1024.Idx → EReal) := by
  have e1 := (Stretch.writesFrom (F := Ideal)).read_unary 1595 (x := main_v571) (y := main_v1595) rfl (fun _ => by decide) (fun b => m (c, b))
  have e2 := (Stretch.writesFrom (F := Ideal)).read_unary 571 (x := main_v4) (y := main_v571) rfl (fun _ => by decide) (fun b => m (c, b))
  unfold R
  rw [e1, e2]
  exact row_spec _ 458 (by decide) (by decide) _ _

theorem row_567 : IsRows (wfd m c) 567 (R m c main_v1596 : S1x1024.Idx → EReal) := by
  have e1 := (Stretch.writesFrom (F := Ideal)).read_unary 1596 (x := main_v572) (y := main_v1596) rfl (fun _ => by decide) (fun b => m (c, b))
  have e2 := (Stretch.writesFrom (F := Ideal)).read_unary 572 (x := main_v4) (y := main_v572) rfl (fun _ => by decide) (fun b => m (c, b))
  unfold R
  rw [e1, e2]
  exact row_spec _ 457 (by decide) (by decide) _ _

theorem row_568 : IsRows (wfd m c) 568 (R m c main_v1597 : S1x1024.Idx → EReal) := by
  have e1 := (Stretch.writesFrom (F := Ideal)).read_unary 1597 (x := main_v573) (y := main_v1597) rfl (fun _ => by decide) (fun b => m (c, b))
  have e2 := (Stretch.writesFrom (F := Ideal)).read_unary 573 (x := main_v4) (y := main_v573) rfl (fun _ => by decide) (fun b => m (c, b))
  unfold R
  rw [e1, e2]
  exact row_spec _ 456 (by decide) (by decide) _ _

theorem row_569 : IsRows (wfd m c) 569 (R m c main_v1598 : S1x1024.Idx → EReal) := by
  have e1 := (Stretch.writesFrom (F := Ideal)).read_unary 1598 (x := main_v574) (y := main_v1598) rfl (fun _ => by decide) (fun b => m (c, b))
  have e2 := (Stretch.writesFrom (F := Ideal)).read_unary 574 (x := main_v4) (y := main_v574) rfl (fun _ => by decide) (fun b => m (c, b))
  unfold R
  rw [e1, e2]
  exact row_spec _ 455 (by decide) (by decide) _ _

theorem row_570 : IsRows (wfd m c) 570 (R m c main_v1599 : S1x1024.Idx → EReal) := by
  have e1 := (Stretch.writesFrom (F := Ideal)).read_unary 1599 (x := main_v575) (y := main_v1599) rfl (fun _ => by decide) (fun b => m (c, b))
  have e2 := (Stretch.writesFrom (F := Ideal)).read_unary 575 (x := main_v4) (y := main_v575) rfl (fun _ => by decide) (fun b => m (c, b))
  unfold R
  rw [e1, e2]
  exact row_spec _ 454 (by decide) (by decide) _ _

theorem row_571 : IsRows (wfd m c) 571 (R m c main_v1600 : S1x1024.Idx → EReal) := by
  have e1 := (Stretch.writesFrom (F := Ideal)).read_unary 1600 (x := main_v576) (y := main_v1600) rfl (fun _ => by decide) (fun b => m (c, b))
  have e2 := (Stretch.writesFrom (F := Ideal)).read_unary 576 (x := main_v4) (y := main_v576) rfl (fun _ => by decide) (fun b => m (c, b))
  unfold R
  rw [e1, e2]
  exact row_spec _ 453 (by decide) (by decide) _ _

theorem row_572 : IsRows (wfd m c) 572 (R m c main_v1601 : S1x1024.Idx → EReal) := by
  have e1 := (Stretch.writesFrom (F := Ideal)).read_unary 1601 (x := main_v577) (y := main_v1601) rfl (fun _ => by decide) (fun b => m (c, b))
  have e2 := (Stretch.writesFrom (F := Ideal)).read_unary 577 (x := main_v4) (y := main_v577) rfl (fun _ => by decide) (fun b => m (c, b))
  unfold R
  rw [e1, e2]
  exact row_spec _ 452 (by decide) (by decide) _ _

theorem row_573 : IsRows (wfd m c) 573 (R m c main_v1602 : S1x1024.Idx → EReal) := by
  have e1 := (Stretch.writesFrom (F := Ideal)).read_unary 1602 (x := main_v578) (y := main_v1602) rfl (fun _ => by decide) (fun b => m (c, b))
  have e2 := (Stretch.writesFrom (F := Ideal)).read_unary 578 (x := main_v4) (y := main_v578) rfl (fun _ => by decide) (fun b => m (c, b))
  unfold R
  rw [e1, e2]
  exact row_spec _ 451 (by decide) (by decide) _ _

theorem row_574 : IsRows (wfd m c) 574 (R m c main_v1603 : S1x1024.Idx → EReal) := by
  have e1 := (Stretch.writesFrom (F := Ideal)).read_unary 1603 (x := main_v579) (y := main_v1603) rfl (fun _ => by decide) (fun b => m (c, b))
  have e2 := (Stretch.writesFrom (F := Ideal)).read_unary 579 (x := main_v4) (y := main_v579) rfl (fun _ => by decide) (fun b => m (c, b))
  unfold R
  rw [e1, e2]
  exact row_spec _ 450 (by decide) (by decide) _ _

theorem row_575 : IsRows (wfd m c) 575 (R m c main_v1604 : S1x1024.Idx → EReal) := by
  have e1 := (Stretch.writesFrom (F := Ideal)).read_unary 1604 (x := main_v580) (y := main_v1604) rfl (fun _ => by decide) (fun b => m (c, b))
  have e2 := (Stretch.writesFrom (F := Ideal)).read_unary 580 (x := main_v4) (y := main_v580) rfl (fun _ => by decide) (fun b => m (c, b))
  unfold R
  rw [e1, e2]
  exact row_spec _ 449 (by decide) (by decide) _ _

theorem row_576 : IsRows (wfd m c) 576 (R m c main_v1605 : S1x1024.Idx → EReal) := by
  have e1 := (Stretch.writesFrom (F := Ideal)).read_unary 1605 (x := main_v581) (y := main_v1605) rfl (fun _ => by decide) (fun b => m (c, b))
  have e2 := (Stretch.writesFrom (F := Ideal)).read_unary 581 (x := main_v4) (y := main_v581) rfl (fun _ => by decide) (fun b => m (c, b))
  unfold R
  rw [e1, e2]
  exact row_spec _ 448 (by decide) (by decide) _ _

theorem row_577 : IsRows (wfd m c) 577 (R m c main_v1606 : S1x1024.Idx → EReal) := by
  have e1 := (Stretch.writesFrom (F := Ideal)).read_unary 1606 (x := main_v582) (y := main_v1606) rfl (fun _ => by decide) (fun b => m (c, b))
  have e2 := (Stretch.writesFrom (F := Ideal)).read_unary 582 (x := main_v4) (y := main_v582) rfl (fun _ => by decide) (fun b => m (c, b))
  unfold R
  rw [e1, e2]
  exact row_spec _ 447 (by decide) (by decide) _ _

theorem row_578 : IsRows (wfd m c) 578 (R m c main_v1607 : S1x1024.Idx → EReal) := by
  have e1 := (Stretch.writesFrom (F := Ideal)).read_unary 1607 (x := main_v583) (y := main_v1607) rfl (fun _ => by decide) (fun b => m (c, b))
  have e2 := (Stretch.writesFrom (F := Ideal)).read_unary 583 (x := main_v4) (y := main_v583) rfl (fun _ => by decide) (fun b => m (c, b))
  unfold R
  rw [e1, e2]
  exact row_spec _ 446 (by decide) (by decide) _ _

theorem row_579 : IsRows (wfd m c) 579 (R m c main_v1608 : S1x1024.Idx → EReal) := by
  have e1 := (Stretch.writesFrom (F := Ideal)).read_unary 1608 (x := main_v584) (y := main_v1608) rfl (fun _ => by decide) (fun b => m (c, b))
  have e2 := (Stretch.writesFrom (F := Ideal)).read_unary 584 (x := main_v4) (y := main_v584) rfl (fun _ => by decide) (fun b => m (c, b))
  unfold R
  rw [e1, e2]
  exact row_spec _ 445 (by decide) (by decide) _ _

theorem row_580 : IsRows (wfd m c) 580 (R m c main_v1609 : S1x1024.Idx → EReal) := by
  have e1 := (Stretch.writesFrom (F := Ideal)).read_unary 1609 (x := main_v585) (y := main_v1609) rfl (fun _ => by decide) (fun b => m (c, b))
  have e2 := (Stretch.writesFrom (F := Ideal)).read_unary 585 (x := main_v4) (y := main_v585) rfl (fun _ => by decide) (fun b => m (c, b))
  unfold R
  rw [e1, e2]
  exact row_spec _ 444 (by decide) (by decide) _ _

theorem row_581 : IsRows (wfd m c) 581 (R m c main_v1610 : S1x1024.Idx → EReal) := by
  have e1 := (Stretch.writesFrom (F := Ideal)).read_unary 1610 (x := main_v586) (y := main_v1610) rfl (fun _ => by decide) (fun b => m (c, b))
  have e2 := (Stretch.writesFrom (F := Ideal)).read_unary 586 (x := main_v4) (y := main_v586) rfl (fun _ => by decide) (fun b => m (c, b))
  unfold R
  rw [e1, e2]
  exact row_spec _ 443 (by decide) (by decide) _ _

theorem row_582 : IsRows (wfd m c) 582 (R m c main_v1611 : S1x1024.Idx → EReal) := by
  have e1 := (Stretch.writesFrom (F := Ideal)).read_unary 1611 (x := main_v587) (y := main_v1611) rfl (fun _ => by decide) (fun b => m (c, b))
  have e2 := (Stretch.writesFrom (F := Ideal)).read_unary 587 (x := main_v4) (y := main_v587) rfl (fun _ => by decide) (fun b => m (c, b))
  unfold R
  rw [e1, e2]
  exact row_spec _ 442 (by decide) (by decide) _ _

theorem row_583 : IsRows (wfd m c) 583 (R m c main_v1612 : S1x1024.Idx → EReal) := by
  have e1 := (Stretch.writesFrom (F := Ideal)).read_unary 1612 (x := main_v588) (y := main_v1612) rfl (fun _ => by decide) (fun b => m (c, b))
  have e2 := (Stretch.writesFrom (F := Ideal)).read_unary 588 (x := main_v4) (y := main_v588) rfl (fun _ => by decide) (fun b => m (c, b))
  unfold R
  rw [e1, e2]
  exact row_spec _ 441 (by decide) (by decide) _ _

theorem row_584 : IsRows (wfd m c) 584 (R m c main_v1613 : S1x1024.Idx → EReal) := by
  have e1 := (Stretch.writesFrom (F := Ideal)).read_unary 1613 (x := main_v589) (y := main_v1613) rfl (fun _ => by decide) (fun b => m (c, b))
  have e2 := (Stretch.writesFrom (F := Ideal)).read_unary 589 (x := main_v4) (y := main_v589) rfl (fun _ => by decide) (fun b => m (c, b))
  unfold R
  rw [e1, e2]
  exact row_spec _ 440 (by decide) (by decide) _ _

theorem row_585 : IsRows (wfd m c) 585 (R m c main_v1614 : S1x1024.Idx → EReal) := by
  have e1 := (Stretch.writesFrom (F := Ideal)).read_unary 1614 (x := main_v590) (y := main_v1614) rfl (fun _ => by decide) (fun b => m (c, b))
  have e2 := (Stretch.writesFrom (F := Ideal)).read_unary 590 (x := main_v4) (y := main_v590) rfl (fun _ => by decide) (fun b => m (c, b))
  unfold R
  rw [e1, e2]
  exact row_spec _ 439 (by decide) (by decide) _ _

theorem row_586 : IsRows (wfd m c) 586 (R m c main_v1615 : S1x1024.Idx → EReal) := by
  have e1 := (Stretch.writesFrom (F := Ideal)).read_unary 1615 (x := main_v591) (y := main_v1615) rfl (fun _ => by decide) (fun b => m (c, b))
  have e2 := (Stretch.writesFrom (F := Ideal)).read_unary 591 (x := main_v4) (y := main_v591) rfl (fun _ => by decide) (fun b => m (c, b))
  unfold R
  rw [e1, e2]
  exact row_spec _ 438 (by decide) (by decide) _ _

theorem row_587 : IsRows (wfd m c) 587 (R m c main_v1616 : S1x1024.Idx → EReal) := by
  have e1 := (Stretch.writesFrom (F := Ideal)).read_unary 1616 (x := main_v592) (y := main_v1616) rfl (fun _ => by decide) (fun b => m (c, b))
  have e2 := (Stretch.writesFrom (F := Ideal)).read_unary 592 (x := main_v4) (y := main_v592) rfl (fun _ => by decide) (fun b => m (c, b))
  unfold R
  rw [e1, e2]
  exact row_spec _ 437 (by decide) (by decide) _ _

theorem row_588 : IsRows (wfd m c) 588 (R m c main_v1617 : S1x1024.Idx → EReal) := by
  have e1 := (Stretch.writesFrom (F := Ideal)).read_unary 1617 (x := main_v593) (y := main_v1617) rfl (fun _ => by decide) (fun b => m (c, b))
  have e2 := (Stretch.writesFrom (F := Ideal)).read_unary 593 (x := main_v4) (y := main_v593) rfl (fun _ => by decide) (fun b => m (c, b))
  unfold R
  rw [e1, e2]
  exact row_spec _ 436 (by decide) (by decide) _ _

theorem row_589 : IsRows (wfd m c) 589 (R m c main_v1618 : S1x1024.Idx → EReal) := by
  have e1 := (Stretch.writesFrom (F := Ideal)).read_unary 1618 (x := main_v594) (y := main_v1618) rfl (fun _ => by decide) (fun b => m (c, b))
  have e2 := (Stretch.writesFrom (F := Ideal)).read_unary 594 (x := main_v4) (y := main_v594) rfl (fun _ => by decide) (fun b => m (c, b))
  unfold R
  rw [e1, e2]
  exact row_spec _ 435 (by decide) (by decide) _ _

theorem row_590 : IsRows (wfd m c) 590 (R m c main_v1619 : S1x1024.Idx → EReal) := by
  have e1 := (Stretch.writesFrom (F := Ideal)).read_unary 1619 (x := main_v595) (y := main_v1619) rfl (fun _ => by decide) (fun b => m (c, b))
  have e2 := (Stretch.writesFrom (F := Ideal)).read_unary 595 (x := main_v4) (y := main_v595) rfl (fun _ => by decide) (fun b => m (c, b))
  unfold R
  rw [e1, e2]
  exact row_spec _ 434 (by decide) (by decide) _ _

theorem row_591 : IsRows (wfd m c) 591 (R m c main_v1620 : S1x1024.Idx → EReal) := by
  have e1 := (Stretch.writesFrom (F := Ideal)).read_unary 1620 (x := main_v596) (y := main_v1620) rfl (fun _ => by decide) (fun b => m (c, b))
  have e2 := (Stretch.writesFrom (F := Ideal)).read_unary 596 (x := main_v4) (y := main_v596) rfl (fun _ => by decide) (fun b => m (c, b))
  unfold R
  rw [e1, e2]
  exact row_spec _ 433 (by decide) (by decide) _ _

theorem row_592 : IsRows (wfd m c) 592 (R m c main_v1621 : S1x1024.Idx → EReal) := by
  have e1 := (Stretch.writesFrom (F := Ideal)).read_unary 1621 (x := main_v597) (y := main_v1621) rfl (fun _ => by decide) (fun b => m (c, b))
  have e2 := (Stretch.writesFrom (F := Ideal)).read_unary 597 (x := main_v4) (y := main_v597) rfl (fun _ => by decide) (fun b => m (c, b))
  unfold R
  rw [e1, e2]
  exact row_spec _ 432 (by decide) (by decide) _ _

theorem row_593 : IsRows (wfd m c) 593 (R m c main_v1622 : S1x1024.Idx → EReal) := by
  have e1 := (Stretch.writesFrom (F := Ideal)).read_unary 1622 (x := main_v598) (y := main_v1622) rfl (fun _ => by decide) (fun b => m (c, b))
  have e2 := (Stretch.writesFrom (F := Ideal)).read_unary 598 (x := main_v4) (y := main_v598) rfl (fun _ => by decide) (fun b => m (c, b))
  unfold R
  rw [e1, e2]
  exact row_spec _ 431 (by decide) (by decide) _ _

theorem row_594 : IsRows (wfd m c) 594 (R m c main_v1623 : S1x1024.Idx → EReal) := by
  have e1 := (Stretch.writesFrom (F := Ideal)).read_unary 1623 (x := main_v599) (y := main_v1623) rfl (fun _ => by decide) (fun b => m (c, b))
  have e2 := (Stretch.writesFrom (F := Ideal)).read_unary 599 (x := main_v4) (y := main_v599) rfl (fun _ => by decide) (fun b => m (c, b))
  unfold R
  rw [e1, e2]
  exact row_spec _ 430 (by decide) (by decide) _ _

theorem row_595 : IsRows (wfd m c) 595 (R m c main_v1624 : S1x1024.Idx → EReal) := by
  have e1 := (Stretch.writesFrom (F := Ideal)).read_unary 1624 (x := main_v600) (y := main_v1624) rfl (fun _ => by decide) (fun b => m (c, b))
  have e2 := (Stretch.writesFrom (F := Ideal)).read_unary 600 (x := main_v4) (y := main_v600) rfl (fun _ => by decide) (fun b => m (c, b))
  unfold R
  rw [e1, e2]
  exact row_spec _ 429 (by decide) (by decide) _ _

theorem row_596 : IsRows (wfd m c) 596 (R m c main_v1625 : S1x1024.Idx → EReal) := by
  have e1 := (Stretch.writesFrom (F := Ideal)).read_unary 1625 (x := main_v601) (y := main_v1625) rfl (fun _ => by decide) (fun b => m (c, b))
  have e2 := (Stretch.writesFrom (F := Ideal)).read_unary 601 (x := main_v4) (y := main_v601) rfl (fun _ => by decide) (fun b => m (c, b))
  unfold R
  rw [e1, e2]
  exact row_spec _ 428 (by decide) (by decide) _ _

theorem row_597 : IsRows (wfd m c) 597 (R m c main_v1626 : S1x1024.Idx → EReal) := by
  have e1 := (Stretch.writesFrom (F := Ideal)).read_unary 1626 (x := main_v602) (y := main_v1626) rfl (fun _ => by decide) (fun b => m (c, b))
  have e2 := (Stretch.writesFrom (F := Ideal)).read_unary 602 (x := main_v4) (y := main_v602) rfl (fun _ => by decide) (fun b => m (c, b))
  unfold R
  rw [e1, e2]
  exact row_spec _ 427 (by decide) (by decide) _ _

theorem row_598 : IsRows (wfd m c) 598 (R m c main_v1627 : S1x1024.Idx → EReal) := by
  have e1 := (Stretch.writesFrom (F := Ideal)).read_unary 1627 (x := main_v603) (y := main_v1627) rfl (fun _ => by decide) (fun b => m (c, b))
  have e2 := (Stretch.writesFrom (F := Ideal)).read_unary 603 (x := main_v4) (y := main_v603) rfl (fun _ => by decide) (fun b => m (c, b))
  unfold R
  rw [e1, e2]
  exact row_spec _ 426 (by decide) (by decide) _ _

theorem row_599 : IsRows (wfd m c) 599 (R m c main_v1628 : S1x1024.Idx → EReal) := by
  have e1 := (Stretch.writesFrom (F := Ideal)).read_unary 1628 (x := main_v604) (y := main_v1628) rfl (fun _ => by decide) (fun b => m (c, b))
  have e2 := (Stretch.writesFrom (F := Ideal)).read_unary 604 (x := main_v4) (y := main_v604) rfl (fun _ => by decide) (fun b => m (c, b))
  unfold R
  rw [e1, e2]
  exact row_spec _ 425 (by decide) (by decide) _ _

theorem row_600 : IsRows (wfd m c) 600 (R m c main_v1629 : S1x1024.Idx → EReal) := by
  have e1 := (Stretch.writesFrom (F := Ideal)).read_unary 1629 (x := main_v605) (y := main_v1629) rfl (fun _ => by decide) (fun b => m (c, b))
  have e2 := (Stretch.writesFrom (F := Ideal)).read_unary 605 (x := main_v4) (y := main_v605) rfl (fun _ => by decide) (fun b => m (c, b))
  unfold R
  rw [e1, e2]
  exact row_spec _ 424 (by decide) (by decide) _ _

theorem row_601 : IsRows (wfd m c) 601 (R m c main_v1630 : S1x1024.Idx → EReal) := by
  have e1 := (Stretch.writesFrom (F := Ideal)).read_unary 1630 (x := main_v606) (y := main_v1630) rfl (fun _ => by decide) (fun b => m (c, b))
  have e2 := (Stretch.writesFrom (F := Ideal)).read_unary 606 (x := main_v4) (y := main_v606) rfl (fun _ => by decide) (fun b => m (c, b))
  unfold R
  rw [e1, e2]
  exact row_spec _ 423 (by decide) (by decide) _ _

theorem row_602 : IsRows (wfd m c) 602 (R m c main_v1631 : S1x1024.Idx → EReal) := by
  have e1 := (Stretch.writesFrom (F := Ideal)).read_unary 1631 (x := main_v607) (y := main_v1631) rfl (fun _ => by decide) (fun b => m (c, b))
  have e2 := (Stretch.writesFrom (F := Ideal)).read_unary 607 (x := main_v4) (y := main_v607) rfl (fun _ => by decide) (fun b => m (c, b))
  unfold R
  rw [e1, e2]
  exact row_spec _ 422 (by decide) (by decide) _ _

theorem row_603 : IsRows (wfd m c) 603 (R m c main_v1632 : S1x1024.Idx → EReal) := by
  have e1 := (Stretch.writesFrom (F := Ideal)).read_unary 1632 (x := main_v608) (y := main_v1632) rfl (fun _ => by decide) (fun b => m (c, b))
  have e2 := (Stretch.writesFrom (F := Ideal)).read_unary 608 (x := main_v4) (y := main_v608) rfl (fun _ => by decide) (fun b => m (c, b))
  unfold R
  rw [e1, e2]
  exact row_spec _ 421 (by decide) (by decide) _ _

theorem row_604 : IsRows (wfd m c) 604 (R m c main_v1633 : S1x1024.Idx → EReal) := by
  have e1 := (Stretch.writesFrom (F := Ideal)).read_unary 1633 (x := main_v609) (y := main_v1633) rfl (fun _ => by decide) (fun b => m (c, b))
  have e2 := (Stretch.writesFrom (F := Ideal)).read_unary 609 (x := main_v4) (y := main_v609) rfl (fun _ => by decide) (fun b => m (c, b))
  unfold R
  rw [e1, e2]
  exact row_spec _ 420 (by decide) (by decide) _ _

theorem row_605 : IsRows (wfd m c) 605 (R m c main_v1634 : S1x1024.Idx → EReal) := by
  have e1 := (Stretch.writesFrom (F := Ideal)).read_unary 1634 (x := main_v610) (y := main_v1634) rfl (fun _ => by decide) (fun b => m (c, b))
  have e2 := (Stretch.writesFrom (F := Ideal)).read_unary 610 (x := main_v4) (y := main_v610) rfl (fun _ => by decide) (fun b => m (c, b))
  unfold R
  rw [e1, e2]
  exact row_spec _ 419 (by decide) (by decide) _ _

theorem row_606 : IsRows (wfd m c) 606 (R m c main_v1635 : S1x1024.Idx → EReal) := by
  have e1 := (Stretch.writesFrom (F := Ideal)).read_unary 1635 (x := main_v611) (y := main_v1635) rfl (fun _ => by decide) (fun b => m (c, b))
  have e2 := (Stretch.writesFrom (F := Ideal)).read_unary 611 (x := main_v4) (y := main_v611) rfl (fun _ => by decide) (fun b => m (c, b))
  unfold R
  rw [e1, e2]
  exact row_spec _ 418 (by decide) (by decide) _ _

theorem row_607 : IsRows (wfd m c) 607 (R m c main_v1636 : S1x1024.Idx → EReal) := by
  have e1 := (Stretch.writesFrom (F := Ideal)).read_unary 1636 (x := main_v612) (y := main_v1636) rfl (fun _ => by decide) (fun b => m (c, b))
  have e2 := (Stretch.writesFrom (F := Ideal)).read_unary 612 (x := main_v4) (y := main_v612) rfl (fun _ => by decide) (fun b => m (c, b))
  unfold R
  rw [e1, e2]
  exact row_spec _ 417 (by decide) (by decide) _ _

theorem row_608 : IsRows (wfd m c) 608 (R m c main_v1637 : S1x1024.Idx → EReal) := by
  have e1 := (Stretch.writesFrom (F := Ideal)).read_unary 1637 (x := main_v613) (y := main_v1637) rfl (fun _ => by decide) (fun b => m (c, b))
  have e2 := (Stretch.writesFrom (F := Ideal)).read_unary 613 (x := main_v4) (y := main_v613) rfl (fun _ => by decide) (fun b => m (c, b))
  unfold R
  rw [e1, e2]
  exact row_spec _ 416 (by decide) (by decide) _ _

theorem row_609 : IsRows (wfd m c) 609 (R m c main_v1638 : S1x1024.Idx → EReal) := by
  have e1 := (Stretch.writesFrom (F := Ideal)).read_unary 1638 (x := main_v614) (y := main_v1638) rfl (fun _ => by decide) (fun b => m (c, b))
  have e2 := (Stretch.writesFrom (F := Ideal)).read_unary 614 (x := main_v4) (y := main_v614) rfl (fun _ => by decide) (fun b => m (c, b))
  unfold R
  rw [e1, e2]
  exact row_spec _ 415 (by decide) (by decide) _ _

theorem row_610 : IsRows (wfd m c) 610 (R m c main_v1639 : S1x1024.Idx → EReal) := by
  have e1 := (Stretch.writesFrom (F := Ideal)).read_unary 1639 (x := main_v615) (y := main_v1639) rfl (fun _ => by decide) (fun b => m (c, b))
  have e2 := (Stretch.writesFrom (F := Ideal)).read_unary 615 (x := main_v4) (y := main_v615) rfl (fun _ => by decide) (fun b => m (c, b))
  unfold R
  rw [e1, e2]
  exact row_spec _ 414 (by decide) (by decide) _ _

theorem row_611 : IsRows (wfd m c) 611 (R m c main_v1640 : S1x1024.Idx → EReal) := by
  have e1 := (Stretch.writesFrom (F := Ideal)).read_unary 1640 (x := main_v616) (y := main_v1640) rfl (fun _ => by decide) (fun b => m (c, b))
  have e2 := (Stretch.writesFrom (F := Ideal)).read_unary 616 (x := main_v4) (y := main_v616) rfl (fun _ => by decide) (fun b => m (c, b))
  unfold R
  rw [e1, e2]
  exact row_spec _ 413 (by decide) (by decide) _ _

theorem row_612 : IsRows (wfd m c) 612 (R m c main_v1641 : S1x1024.Idx → EReal) := by
  have e1 := (Stretch.writesFrom (F := Ideal)).read_unary 1641 (x := main_v617) (y := main_v1641) rfl (fun _ => by decide) (fun b => m (c, b))
  have e2 := (Stretch.writesFrom (F := Ideal)).read_unary 617 (x := main_v4) (y := main_v617) rfl (fun _ => by decide) (fun b => m (c, b))
  unfold R
  rw [e1, e2]
  exact row_spec _ 412 (by decide) (by decide) _ _

theorem row_613 : IsRows (wfd m c) 613 (R m c main_v1642 : S1x1024.Idx → EReal) := by
  have e1 := (Stretch.writesFrom (F := Ideal)).read_unary 1642 (x := main_v618) (y := main_v1642) rfl (fun _ => by decide) (fun b => m (c, b))
  have e2 := (Stretch.writesFrom (F := Ideal)).read_unary 618 (x := main_v4) (y := main_v618) rfl (fun _ => by decide) (fun b => m (c, b))
  unfold R
  rw [e1, e2]
  exact row_spec _ 411 (by decide) (by decide) _ _

theorem row_614 : IsRows (wfd m c) 614 (R m c main_v1643 : S1x1024.Idx → EReal) := by
  have e1 := (Stretch.writesFrom (F := Ideal)).read_unary 1643 (x := main_v619) (y := main_v1643) rfl (fun _ => by decide) (fun b => m (c, b))
  have e2 := (Stretch.writesFrom (F := Ideal)).read_unary 619 (x := main_v4) (y := main_v619) rfl (fun _ => by decide) (fun b => m (c, b))
  unfold R
  rw [e1, e2]
  exact row_spec _ 410 (by decide) (by decide) _ _

theorem row_615 : IsRows (wfd m c) 615 (R m c main_v1644 : S1x1024.Idx → EReal) := by
  have e1 := (Stretch.writesFrom (F := Ideal)).read_unary 1644 (x := main_v620) (y := main_v1644) rfl (fun _ => by decide) (fun b => m (c, b))
  have e2 := (Stretch.writesFrom (F := Ideal)).read_unary 620 (x := main_v4) (y := main_v620) rfl (fun _ => by decide) (fun b => m (c, b))
  unfold R
  rw [e1, e2]
  exact row_spec _ 409 (by decide) (by decide) _ _

theorem row_616 : IsRows (wfd m c) 616 (R m c main_v1645 : S1x1024.Idx → EReal) := by
  have e1 := (Stretch.writesFrom (F := Ideal)).read_unary 1645 (x := main_v621) (y := main_v1645) rfl (fun _ => by decide) (fun b => m (c, b))
  have e2 := (Stretch.writesFrom (F := Ideal)).read_unary 621 (x := main_v4) (y := main_v621) rfl (fun _ => by decide) (fun b => m (c, b))
  unfold R
  rw [e1, e2]
  exact row_spec _ 408 (by decide) (by decide) _ _

theorem row_617 : IsRows (wfd m c) 617 (R m c main_v1646 : S1x1024.Idx → EReal) := by
  have e1 := (Stretch.writesFrom (F := Ideal)).read_unary 1646 (x := main_v622) (y := main_v1646) rfl (fun _ => by decide) (fun b => m (c, b))
  have e2 := (Stretch.writesFrom (F := Ideal)).read_unary 622 (x := main_v4) (y := main_v622) rfl (fun _ => by decide) (fun b => m (c, b))
  unfold R
  rw [e1, e2]
  exact row_spec _ 407 (by decide) (by decide) _ _

theorem row_618 : IsRows (wfd m c) 618 (R m c main_v1647 : S1x1024.Idx → EReal) := by
  have e1 := (Stretch.writesFrom (F := Ideal)).read_unary 1647 (x := main_v623) (y := main_v1647) rfl (fun _ => by decide) (fun b => m (c, b))
  have e2 := (Stretch.writesFrom (F := Ideal)).read_unary 623 (x := main_v4) (y := main_v623) rfl (fun _ => by decide) (fun b => m (c, b))
  unfold R
  rw [e1, e2]
  exact row_spec _ 406 (by decide) (by decide) _ _

theorem row_619 : IsRows (wfd m c) 619 (R m c main_v1648 : S1x1024.Idx → EReal) := by
  have e1 := (Stretch.writesFrom (F := Ideal)).read_unary 1648 (x := main_v624) (y := main_v1648) rfl (fun _ => by decide) (fun b => m (c, b))
  have e2 := (Stretch.writesFrom (F := Ideal)).read_unary 624 (x := main_v4) (y := main_v624) rfl (fun _ => by decide) (fun b => m (c, b))
  unfold R
  rw [e1, e2]
  exact row_spec _ 405 (by decide) (by decide) _ _

theorem row_620 : IsRows (wfd m c) 620 (R m c main_v1649 : S1x1024.Idx → EReal) := by
  have e1 := (Stretch.writesFrom (F := Ideal)).read_unary 1649 (x := main_v625) (y := main_v1649) rfl (fun _ => by decide) (fun b => m (c, b))
  have e2 := (Stretch.writesFrom (F := Ideal)).read_unary 625 (x := main_v4) (y := main_v625) rfl (fun _ => by decide) (fun b => m (c, b))
  unfold R
  rw [e1, e2]
  exact row_spec _ 404 (by decide) (by decide) _ _

theorem row_621 : IsRows (wfd m c) 621 (R m c main_v1650 : S1x1024.Idx → EReal) := by
  have e1 := (Stretch.writesFrom (F := Ideal)).read_unary 1650 (x := main_v626) (y := main_v1650) rfl (fun _ => by decide) (fun b => m (c, b))
  have e2 := (Stretch.writesFrom (F := Ideal)).read_unary 626 (x := main_v4) (y := main_v626) rfl (fun _ => by decide) (fun b => m (c, b))
  unfold R
  rw [e1, e2]
  exact row_spec _ 403 (by decide) (by decide) _ _

theorem row_622 : IsRows (wfd m c) 622 (R m c main_v1651 : S1x1024.Idx → EReal) := by
  have e1 := (Stretch.writesFrom (F := Ideal)).read_unary 1651 (x := main_v627) (y := main_v1651) rfl (fun _ => by decide) (fun b => m (c, b))
  have e2 := (Stretch.writesFrom (F := Ideal)).read_unary 627 (x := main_v4) (y := main_v627) rfl (fun _ => by decide) (fun b => m (c, b))
  unfold R
  rw [e1, e2]
  exact row_spec _ 402 (by decide) (by decide) _ _

theorem row_623 : IsRows (wfd m c) 623 (R m c main_v1652 : S1x1024.Idx → EReal) := by
  have e1 := (Stretch.writesFrom (F := Ideal)).read_unary 1652 (x := main_v628) (y := main_v1652) rfl (fun _ => by decide) (fun b => m (c, b))
  have e2 := (Stretch.writesFrom (F := Ideal)).read_unary 628 (x := main_v4) (y := main_v628) rfl (fun _ => by decide) (fun b => m (c, b))
  unfold R
  rw [e1, e2]
  exact row_spec _ 401 (by decide) (by decide) _ _

theorem row_624 : IsRows (wfd m c) 624 (R m c main_v1653 : S1x1024.Idx → EReal) := by
  have e1 := (Stretch.writesFrom (F := Ideal)).read_unary 1653 (x := main_v629) (y := main_v1653) rfl (fun _ => by decide) (fun b => m (c, b))
  have e2 := (Stretch.writesFrom (F := Ideal)).read_unary 629 (x := main_v4) (y := main_v629) rfl (fun _ => by decide) (fun b => m (c, b))
  unfold R
  rw [e1, e2]
  exact row_spec _ 400 (by decide) (by decide) _ _

theorem row_625 : IsRows (wfd m c) 625 (R m c main_v1654 : S1x1024.Idx → EReal) := by
  have e1 := (Stretch.writesFrom (F := Ideal)).read_unary 1654 (x := main_v630) (y := main_v1654) rfl (fun _ => by decide) (fun b => m (c, b))
  have e2 := (Stretch.writesFrom (F := Ideal)).read_unary 630 (x := main_v4) (y := main_v630) rfl (fun _ => by decide) (fun b => m (c, b))
  unfold R
  rw [e1, e2]
  exact row_spec _ 399 (by decide) (by decide) _ _

theorem row_626 : IsRows (wfd m c) 626 (R m c main_v1655 : S1x1024.Idx → EReal) := by
  have e1 := (Stretch.writesFrom (F := Ideal)).read_unary 1655 (x := main_v631) (y := main_v1655) rfl (fun _ => by decide) (fun b => m (c, b))
  have e2 := (Stretch.writesFrom (F := Ideal)).read_unary 631 (x := main_v4) (y := main_v631) rfl (fun _ => by decide) (fun b => m (c, b))
  unfold R
  rw [e1, e2]
  exact row_spec _ 398 (by decide) (by decide) _ _

theorem row_627 : IsRows (wfd m c) 627 (R m c main_v1656 : S1x1024.Idx → EReal) := by
  have e1 := (Stretch.writesFrom (F := Ideal)).read_unary 1656 (x := main_v632) (y := main_v1656) rfl (fun _ => by decide) (fun b => m (c, b))
  have e2 := (Stretch.writesFrom (F := Ideal)).read_unary 632 (x := main_v4) (y := main_v632) rfl (fun _ => by decide) (fun b => m (c, b))
  unfold R
  rw [e1, e2]
  exact row_spec _ 397 (by decide) (by decide) _ _

theorem row_628 : IsRows (wfd m c) 628 (R m c main_v1657 : S1x1024.Idx → EReal) := by
  have e1 := (Stretch.writesFrom (F := Ideal)).read_unary 1657 (x := main_v633) (y := main_v1657) rfl (fun _ => by decide) (fun b => m (c, b))
  have e2 := (Stretch.writesFrom (F := Ideal)).read_unary 633 (x := main_v4) (y := main_v633) rfl (fun _ => by decide) (fun b => m (c, b))
  unfold R
  rw [e1, e2]
  exact row_spec _ 396 (by decide) (by decide) _ _

theorem row_629 : IsRows (wfd m c) 629 (R m c main_v1658 : S1x1024.Idx → EReal) := by
  have e1 := (Stretch.writesFrom (F := Ideal)).read_unary 1658 (x := main_v634) (y := main_v1658) rfl (fun _ => by decide) (fun b => m (c, b))
  have e2 := (Stretch.writesFrom (F := Ideal)).read_unary 634 (x := main_v4) (y := main_v634) rfl (fun _ => by decide) (fun b => m (c, b))
  unfold R
  rw [e1, e2]
  exact row_spec _ 395 (by decide) (by decide) _ _

theorem row_630 : IsRows (wfd m c) 630 (R m c main_v1659 : S1x1024.Idx → EReal) := by
  have e1 := (Stretch.writesFrom (F := Ideal)).read_unary 1659 (x := main_v635) (y := main_v1659) rfl (fun _ => by decide) (fun b => m (c, b))
  have e2 := (Stretch.writesFrom (F := Ideal)).read_unary 635 (x := main_v4) (y := main_v635) rfl (fun _ => by decide) (fun b => m (c, b))
  unfold R
  rw [e1, e2]
  exact row_spec _ 394 (by decide) (by decide) _ _

theorem row_631 : IsRows (wfd m c) 631 (R m c main_v1660 : S1x1024.Idx → EReal) := by
  have e1 := (Stretch.writesFrom (F := Ideal)).read_unary 1660 (x := main_v636) (y := main_v1660) rfl (fun _ => by decide) (fun b => m (c, b))
  have e2 := (Stretch.writesFrom (F := Ideal)).read_unary 636 (x := main_v4) (y := main_v636) rfl (fun _ => by decide) (fun b => m (c, b))
  unfold R
  rw [e1, e2]
  exact row_spec _ 393 (by decide) (by decide) _ _

theorem row_632 : IsRows (wfd m c) 632 (R m c main_v1661 : S1x1024.Idx → EReal) := by
  have e1 := (Stretch.writesFrom (F := Ideal)).read_unary 1661 (x := main_v637) (y := main_v1661) rfl (fun _ => by decide) (fun b => m (c, b))
  have e2 := (Stretch.writesFrom (F := Ideal)).read_unary 637 (x := main_v4) (y := main_v637) rfl (fun _ => by decide) (fun b => m (c, b))
  unfold R
  rw [e1, e2]
  exact row_spec _ 392 (by decide) (by decide) _ _

theorem row_633 : IsRows (wfd m c) 633 (R m c main_v1662 : S1x1024.Idx → EReal) := by
  have e1 := (Stretch.writesFrom (F := Ideal)).read_unary 1662 (x := main_v638) (y := main_v1662) rfl (fun _ => by decide) (fun b => m (c, b))
  have e2 := (Stretch.writesFrom (F := Ideal)).read_unary 638 (x := main_v4) (y := main_v638) rfl (fun _ => by decide) (fun b => m (c, b))
  unfold R
  rw [e1, e2]
  exact row_spec _ 391 (by decide) (by decide) _ _

theorem row_634 : IsRows (wfd m c) 634 (R m c main_v1663 : S1x1024.Idx → EReal) := by
  have e1 := (Stretch.writesFrom (F := Ideal)).read_unary 1663 (x := main_v639) (y := main_v1663) rfl (fun _ => by decide) (fun b => m (c, b))
  have e2 := (Stretch.writesFrom (F := Ideal)).read_unary 639 (x := main_v4) (y := main_v639) rfl (fun _ => by decide) (fun b => m (c, b))
  unfold R
  rw [e1, e2]
  exact row_spec _ 390 (by decide) (by decide) _ _

theorem row_635 : IsRows (wfd m c) 635 (R m c main_v1664 : S1x1024.Idx → EReal) := by
  have e1 := (Stretch.writesFrom (F := Ideal)).read_unary 1664 (x := main_v640) (y := main_v1664) rfl (fun _ => by decide) (fun b => m (c, b))
  have e2 := (Stretch.writesFrom (F := Ideal)).read_unary 640 (x := main_v4) (y := main_v640) rfl (fun _ => by decide) (fun b => m (c, b))
  unfold R
  rw [e1, e2]
  exact row_spec _ 389 (by decide) (by decide) _ _

theorem row_636 : IsRows (wfd m c) 636 (R m c main_v1665 : S1x1024.Idx → EReal) := by
  have e1 := (Stretch.writesFrom (F := Ideal)).read_unary 1665 (x := main_v641) (y := main_v1665) rfl (fun _ => by decide) (fun b => m (c, b))
  have e2 := (Stretch.writesFrom (F := Ideal)).read_unary 641 (x := main_v4) (y := main_v641) rfl (fun _ => by decide) (fun b => m (c, b))
  unfold R
  rw [e1, e2]
  exact row_spec _ 388 (by decide) (by decide) _ _

theorem row_637 : IsRows (wfd m c) 637 (R m c main_v1666 : S1x1024.Idx → EReal) := by
  have e1 := (Stretch.writesFrom (F := Ideal)).read_unary 1666 (x := main_v642) (y := main_v1666) rfl (fun _ => by decide) (fun b => m (c, b))
  have e2 := (Stretch.writesFrom (F := Ideal)).read_unary 642 (x := main_v4) (y := main_v642) rfl (fun _ => by decide) (fun b => m (c, b))
  unfold R
  rw [e1, e2]
  exact row_spec _ 387 (by decide) (by decide) _ _

theorem row_638 : IsRows (wfd m c) 638 (R m c main_v1667 : S1x1024.Idx → EReal) := by
  have e1 := (Stretch.writesFrom (F := Ideal)).read_unary 1667 (x := main_v643) (y := main_v1667) rfl (fun _ => by decide) (fun b => m (c, b))
  have e2 := (Stretch.writesFrom (F := Ideal)).read_unary 643 (x := main_v4) (y := main_v643) rfl (fun _ => by decide) (fun b => m (c, b))
  unfold R
  rw [e1, e2]
  exact row_spec _ 386 (by decide) (by decide) _ _

theorem row_639 : IsRows (wfd m c) 639 (R m c main_v1668 : S1x1024.Idx → EReal) := by
  have e1 := (Stretch.writesFrom (F := Ideal)).read_unary 1668 (x := main_v644) (y := main_v1668) rfl (fun _ => by decide) (fun b => m (c, b))
  have e2 := (Stretch.writesFrom (F := Ideal)).read_unary 644 (x := main_v4) (y := main_v644) rfl (fun _ => by decide) (fun b => m (c, b))
  unfold R
  rw [e1, e2]
  exact row_spec _ 385 (by decide) (by decide) _ _

end Cert.KernelIdeal.Circ

end
-- ==== Proof.CircRows5.lean ====
/-
  Rows 640 to 767 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_640 : IsRows (wfd m c) 640 (R m c main_v1669 : S1x1024.Idx → EReal) := by
  have e1 := (Stretch.writesFrom (F := Ideal)).read_unary 1669 (x := main_v645) (y := main_v1669) rfl (fun _ => by decide) (fun b => m (c, b))
  have e2 := (Stretch.writesFrom (F := Ideal)).read_unary 645 (x := main_v4) (y := main_v645) rfl (fun _ => by decide) (fun b => m (c, b))
  unfold R
  rw [e1, e2]
  exact row_spec _ 384 (by decide) (by decide) _ _

theorem row_641 : IsRows (wfd m c) 641 (R m c main_v1670 : S1x1024.Idx → EReal) := by
  have e1 := (Stretch.writesFrom (F := Ideal)).read_unary 1670 (x := main_v646) (y := main_v1670) rfl (fun _ => by decide) (fun b => m (c, b))
  have e2 := (Stretch.writesFrom (F := Ideal)).read_unary 646 (x := main_v4) (y := main_v646) rfl (fun _ => by decide) (fun b => m (c, b))
  unfold R
  rw [e1, e2]
  exact row_spec _ 383 (by decide) (by decide) _ _

theorem row_642 : IsRows (wfd m c) 642 (R m c main_v1671 : S1x1024.Idx → EReal) := by
  have e1 := (Stretch.writesFrom (F := Ideal)).read_unary 1671 (x := main_v647) (y := main_v1671) rfl (fun _ => by decide) (fun b => m (c, b))
  have e2 := (Stretch.writesFrom (F := Ideal)).read_unary 647 (x := main_v4) (y := main_v647) rfl (fun _ => by decide) (fun b => m (c, b))
  unfold R
  rw [e1, e2]
  exact row_spec _ 382 (by decide) (by decide) _ _

theorem row_643 : IsRows (wfd m c) 643 (R m c main_v1672 : S1x1024.Idx → EReal) := by
  have e1 := (Stretch.writesFrom (F := Ideal)).read_unary 1672 (x := main_v648) (y := main_v1672) rfl (fun _ => by decide) (fun b => m (c, b))
  have e2 := (Stretch.writesFrom (F := Ideal)).read_unary 648 (x := main_v4) (y := main_v648) rfl (fun _ => by decide) (fun b => m (c, b))
  unfold R
  rw [e1, e2]
  exact row_spec _ 381 (by decide) (by decide) _ _

theorem row_644 : IsRows (wfd m c) 644 (R m c main_v1673 : S1x1024.Idx → EReal) := by
  have e1 := (Stretch.writesFrom (F := Ideal)).read_unary 1673 (x := main_v649) (y := main_v1673) rfl (fun _ => by decide) (fun b => m (c, b))
  have e2 := (Stretch.writesFrom (F := Ideal)).read_unary 649 (x := main_v4) (y := main_v649) rfl (fun _ => by decide) (fun b => m (c, b))
  unfold R
  rw [e1, e2]
  exact row_spec _ 380 (by decide) (by decide) _ _

theorem row_645 : IsRows (wfd m c) 645 (R m c main_v1674 : S1x1024.Idx → EReal) := by
  have e1 := (Stretch.writesFrom (F := Ideal)).read_unary 1674 (x := main_v650) (y := main_v1674) rfl (fun _ => by decide) (fun b => m (c, b))
  have e2 := (Stretch.writesFrom (F := Ideal)).read_unary 650 (x := main_v4) (y := main_v650) rfl (fun _ => by decide) (fun b => m (c, b))
  unfold R
  rw [e1, e2]
  exact row_spec _ 379 (by decide) (by decide) _ _

theorem row_646 : IsRows (wfd m c) 646 (R m c main_v1675 : S1x1024.Idx → EReal) := by
  have e1 := (Stretch.writesFrom (F := Ideal)).read_unary 1675 (x := main_v651) (y := main_v1675) rfl (fun _ => by decide) (fun b => m (c, b))
  have e2 := (Stretch.writesFrom (F := Ideal)).read_unary 651 (x := main_v4) (y := main_v651) rfl (fun _ => by decide) (fun b => m (c, b))
  unfold R
  rw [e1, e2]
  exact row_spec _ 378 (by decide) (by decide) _ _

theorem row_647 : IsRows (wfd m c) 647 (R m c main_v1676 : S1x1024.Idx → EReal) := by
  have e1 := (Stretch.writesFrom (F := Ideal)).read_unary 1676 (x := main_v652) (y := main_v1676) rfl (fun _ => by decide) (fun b => m (c, b))
  have e2 := (Stretch.writesFrom (F := Ideal)).read_unary 652 (x := main_v4) (y := main_v652) rfl (fun _ => by decide) (fun b => m (c, b))
  unfold R
  rw [e1, e2]
  exact row_spec _ 377 (by decide) (by decide) _ _

theorem row_648 : IsRows (wfd m c) 648 (R m c main_v1677 : S1x1024.Idx → EReal) := by
  have e1 := (Stretch.writesFrom (F := Ideal)).read_unary 1677 (x := main_v653) (y := main_v1677) rfl (fun _ => by decide) (fun b => m (c, b))
  have e2 := (Stretch.writesFrom (F := Ideal)).read_unary 653 (x := main_v4) (y := main_v653) rfl (fun _ => by decide) (fun b => m (c, b))
  unfold R
  rw [e1, e2]
  exact row_spec _ 376 (by decide) (by decide) _ _

theorem row_649 : IsRows (wfd m c) 649 (R m c main_v1678 : S1x1024.Idx → EReal) := by
  have e1 := (Stretch.writesFrom (F := Ideal)).read_unary 1678 (x := main_v654) (y := main_v1678) rfl (fun _ => by decide) (fun b => m (c, b))
  have e2 := (Stretch.writesFrom (F := Ideal)).read_unary 654 (x := main_v4) (y := main_v654) rfl (fun _ => by decide) (fun b => m (c, b))
  unfold R
  rw [e1, e2]
  exact row_spec _ 375 (by decide) (by decide) _ _

theorem row_650 : IsRows (wfd m c) 650 (R m c main_v1679 : S1x1024.Idx → EReal) := by
  have e1 := (Stretch.writesFrom (F := Ideal)).read_unary 1679 (x := main_v655) (y := main_v1679) rfl (fun _ => by decide) (fun b => m (c, b))
  have e2 := (Stretch.writesFrom (F := Ideal)).read_unary 655 (x := main_v4) (y := main_v655) rfl (fun _ => by decide) (fun b => m (c, b))
  unfold R
  rw [e1, e2]
  exact row_spec _ 374 (by decide) (by decide) _ _

theorem row_651 : IsRows (wfd m c) 651 (R m c main_v1680 : S1x1024.Idx → EReal) := by
  have e1 := (Stretch.writesFrom (F := Ideal)).read_unary 1680 (x := main_v656) (y := main_v1680) rfl (fun _ => by decide) (fun b => m (c, b))
  have e2 := (Stretch.writesFrom (F := Ideal)).read_unary 656 (x := main_v4) (y := main_v656) rfl (fun _ => by decide) (fun b => m (c, b))
  unfold R
  rw [e1, e2]
  exact row_spec _ 373 (by decide) (by decide) _ _

theorem row_652 : IsRows (wfd m c) 652 (R m c main_v1681 : S1x1024.Idx → EReal) := by
  have e1 := (Stretch.writesFrom (F := Ideal)).read_unary 1681 (x := main_v657) (y := main_v1681) rfl (fun _ => by decide) (fun b => m (c, b))
  have e2 := (Stretch.writesFrom (F := Ideal)).read_unary 657 (x := main_v4) (y := main_v657) rfl (fun _ => by decide) (fun b => m (c, b))
  unfold R
  rw [e1, e2]
  exact row_spec _ 372 (by decide) (by decide) _ _

theorem row_653 : IsRows (wfd m c) 653 (R m c main_v1682 : S1x1024.Idx → EReal) := by
  have e1 := (Stretch.writesFrom (F := Ideal)).read_unary 1682 (x := main_v658) (y := main_v1682) rfl (fun _ => by decide) (fun b => m (c, b))
  have e2 := (Stretch.writesFrom (F := Ideal)).read_unary 658 (x := main_v4) (y := main_v658) rfl (fun _ => by decide) (fun b => m (c, b))
  unfold R
  rw [e1, e2]
  exact row_spec _ 371 (by decide) (by decide) _ _

theorem row_654 : IsRows (wfd m c) 654 (R m c main_v1683 : S1x1024.Idx → EReal) := by
  have e1 := (Stretch.writesFrom (F := Ideal)).read_unary 1683 (x := main_v659) (y := main_v1683) rfl (fun _ => by decide) (fun b => m (c, b))
  have e2 := (Stretch.writesFrom (F := Ideal)).read_unary 659 (x := main_v4) (y := main_v659) rfl (fun _ => by decide) (fun b => m (c, b))
  unfold R
  rw [e1, e2]
  exact row_spec _ 370 (by decide) (by decide) _ _

theorem row_655 : IsRows (wfd m c) 655 (R m c main_v1684 : S1x1024.Idx → EReal) := by
  have e1 := (Stretch.writesFrom (F := Ideal)).read_unary 1684 (x := main_v660) (y := main_v1684) rfl (fun _ => by decide) (fun b => m (c, b))
  have e2 := (Stretch.writesFrom (F := Ideal)).read_unary 660 (x := main_v4) (y := main_v660) rfl (fun _ => by decide) (fun b => m (c, b))
  unfold R
  rw [e1, e2]
  exact row_spec _ 369 (by decide) (by decide) _ _

theorem row_656 : IsRows (wfd m c) 656 (R m c main_v1685 : S1x1024.Idx → EReal) := by
  have e1 := (Stretch.writesFrom (F := Ideal)).read_unary 1685 (x := main_v661) (y := main_v1685) rfl (fun _ => by decide) (fun b => m (c, b))
  have e2 := (Stretch.writesFrom (F := Ideal)).read_unary 661 (x := main_v4) (y := main_v661) rfl (fun _ => by decide) (fun b => m (c, b))
  unfold R
  rw [e1, e2]
  exact row_spec _ 368 (by decide) (by decide) _ _

theorem row_657 : IsRows (wfd m c) 657 (R m c main_v1686 : S1x1024.Idx → EReal) := by
  have e1 := (Stretch.writesFrom (F := Ideal)).read_unary 1686 (x := main_v662) (y := main_v1686) rfl (fun _ => by decide) (fun b => m (c, b))
  have e2 := (Stretch.writesFrom (F := Ideal)).read_unary 662 (x := main_v4) (y := main_v662) rfl (fun _ => by decide) (fun b => m (c, b))
  unfold R
  rw [e1, e2]
  exact row_spec _ 367 (by decide) (by decide) _ _

theorem row_658 : IsRows (wfd m c) 658 (R m c main_v1687 : S1x1024.Idx → EReal) := by
  have e1 := (Stretch.writesFrom (F := Ideal)).read_unary 1687 (x := main_v663) (y := main_v1687) rfl (fun _ => by decide) (fun b => m (c, b))
  have e2 := (Stretch.writesFrom (F := Ideal)).read_unary 663 (x := main_v4) (y := main_v663) rfl (fun _ => by decide) (fun b => m (c, b))
  unfold R
  rw [e1, e2]
  exact row_spec _ 366 (by decide) (by decide) _ _

theorem row_659 : IsRows (wfd m c) 659 (R m c main_v1688 : S1x1024.Idx → EReal) := by
  have e1 := (Stretch.writesFrom (F := Ideal)).read_unary 1688 (x := main_v664) (y := main_v1688) rfl (fun _ => by decide) (fun b => m (c, b))
  have e2 := (Stretch.writesFrom (F := Ideal)).read_unary 664 (x := main_v4) (y := main_v664) rfl (fun _ => by decide) (fun b => m (c, b))
  unfold R
  rw [e1, e2]
  exact row_spec _ 365 (by decide) (by decide) _ _

theorem row_660 : IsRows (wfd m c) 660 (R m c main_v1689 : S1x1024.Idx → EReal) := by
  have e1 := (Stretch.writesFrom (F := Ideal)).read_unary 1689 (x := main_v665) (y := main_v1689) rfl (fun _ => by decide) (fun b => m (c, b))
  have e2 := (Stretch.writesFrom (F := Ideal)).read_unary 665 (x := main_v4) (y := main_v665) rfl (fun _ => by decide) (fun b => m (c, b))
  unfold R
  rw [e1, e2]
  exact row_spec _ 364 (by decide) (by decide) _ _

theorem row_661 : IsRows (wfd m c) 661 (R m c main_v1690 : S1x1024.Idx → EReal) := by
  have e1 := (Stretch.writesFrom (F := Ideal)).read_unary 1690 (x := main_v666) (y := main_v1690) rfl (fun _ => by decide) (fun b => m (c, b))
  have e2 := (Stretch.writesFrom (F := Ideal)).read_unary 666 (x := main_v4) (y := main_v666) rfl (fun _ => by decide) (fun b => m (c, b))
  unfold R
  rw [e1, e2]
  exact row_spec _ 363 (by decide) (by decide) _ _

theorem row_662 : IsRows (wfd m c) 662 (R m c main_v1691 : S1x1024.Idx → EReal) := by
  have e1 := (Stretch.writesFrom (F := Ideal)).read_unary 1691 (x := main_v667) (y := main_v1691) rfl (fun _ => by decide) (fun b => m (c, b))
  have e2 := (Stretch.writesFrom (F := Ideal)).read_unary 667 (x := main_v4) (y := main_v667) rfl (fun _ => by decide) (fun b => m (c, b))
  unfold R
  rw [e1, e2]
  exact row_spec _ 362 (by decide) (by decide) _ _

theorem row_663 : IsRows (wfd m c) 663 (R m c main_v1692 : S1x1024.Idx → EReal) := by
  have e1 := (Stretch.writesFrom (F := Ideal)).read_unary 1692 (x := main_v668) (y := main_v1692) rfl (fun _ => by decide) (fun b => m (c, b))
  have e2 := (Stretch.writesFrom (F := Ideal)).read_unary 668 (x := main_v4) (y := main_v668) rfl (fun _ => by decide) (fun b => m (c, b))
  unfold R
  rw [e1, e2]
  exact row_spec _ 361 (by decide) (by decide) _ _

theorem row_664 : IsRows (wfd m c) 664 (R m c main_v1693 : S1x1024.Idx → EReal) := by
  have e1 := (Stretch.writesFrom (F := Ideal)).read_unary 1693 (x := main_v669) (y := main_v1693) rfl (fun _ => by decide) (fun b => m (c, b))
  have e2 := (Stretch.writesFrom (F := Ideal)).read_unary 669 (x := main_v4) (y := main_v669) rfl (fun _ => by decide) (fun b => m (c, b))
  unfold R
  rw [e1, e2]
  exact row_spec _ 360 (by decide) (by decide) _ _

theorem row_665 : IsRows (wfd m c) 665 (R m c main_v1694 : S1x1024.Idx → EReal) := by
  have e1 := (Stretch.writesFrom (F := Ideal)).read_unary 1694 (x := main_v670) (y := main_v1694) rfl (fun _ => by decide) (fun b => m (c, b))
  have e2 := (Stretch.writesFrom (F := Ideal)).read_unary 670 (x := main_v4) (y := main_v670) rfl (fun _ => by decide) (fun b => m (c, b))
  unfold R
  rw [e1, e2]
  exact row_spec _ 359 (by decide) (by decide) _ _

theorem row_666 : IsRows (wfd m c) 666 (R m c main_v1695 : S1x1024.Idx → EReal) := by
  have e1 := (Stretch.writesFrom (F := Ideal)).read_unary 1695 (x := main_v671) (y := main_v1695) rfl (fun _ => by decide) (fun b => m (c, b))
  have e2 := (Stretch.writesFrom (F := Ideal)).read_unary 671 (x := main_v4) (y := main_v671) rfl (fun _ => by decide) (fun b => m (c, b))
  unfold R
  rw [e1, e2]
  exact row_spec _ 358 (by decide) (by decide) _ _

theorem row_667 : IsRows (wfd m c) 667 (R m c main_v1696 : S1x1024.Idx → EReal) := by
  have e1 := (Stretch.writesFrom (F := Ideal)).read_unary 1696 (x := main_v672) (y := main_v1696) rfl (fun _ => by decide) (fun b => m (c, b))
  have e2 := (Stretch.writesFrom (F := Ideal)).read_unary 672 (x := main_v4) (y := main_v672) rfl (fun _ => by decide) (fun b => m (c, b))
  unfold R
  rw [e1, e2]
  exact row_spec _ 357 (by decide) (by decide) _ _

theorem row_668 : IsRows (wfd m c) 668 (R m c main_v1697 : S1x1024.Idx → EReal) := by
  have e1 := (Stretch.writesFrom (F := Ideal)).read_unary 1697 (x := main_v673) (y := main_v1697) rfl (fun _ => by decide) (fun b => m (c, b))
  have e2 := (Stretch.writesFrom (F := Ideal)).read_unary 673 (x := main_v4) (y := main_v673) rfl (fun _ => by decide) (fun b => m (c, b))
  unfold R
  rw [e1, e2]
  exact row_spec _ 356 (by decide) (by decide) _ _

theorem row_669 : IsRows (wfd m c) 669 (R m c main_v1698 : S1x1024.Idx → EReal) := by
  have e1 := (Stretch.writesFrom (F := Ideal)).read_unary 1698 (x := main_v674) (y := main_v1698) rfl (fun _ => by decide) (fun b => m (c, b))
  have e2 := (Stretch.writesFrom (F := Ideal)).read_unary 674 (x := main_v4) (y := main_v674) rfl (fun _ => by decide) (fun b => m (c, b))
  unfold R
  rw [e1, e2]
  exact row_spec _ 355 (by decide) (by decide) _ _

theorem row_670 : IsRows (wfd m c) 670 (R m c main_v1699 : S1x1024.Idx → EReal) := by
  have e1 := (Stretch.writesFrom (F := Ideal)).read_unary 1699 (x := main_v675) (y := main_v1699) rfl (fun _ => by decide) (fun b => m (c, b))
  have e2 := (Stretch.writesFrom (F := Ideal)).read_unary 675 (x := main_v4) (y := main_v675) rfl (fun _ => by decide) (fun b => m (c, b))
  unfold R
  rw [e1, e2]
  exact row_spec _ 354 (by decide) (by decide) _ _

theorem row_671 : IsRows (wfd m c) 671 (R m c main_v1700 : S1x1024.Idx → EReal) := by
  have e1 := (Stretch.writesFrom (F := Ideal)).read_unary 1700 (x := main_v676) (y := main_v1700) rfl (fun _ => by decide) (fun b => m (c, b))
  have e2 := (Stretch.writesFrom (F := Ideal)).read_unary 676 (x := main_v4) (y := main_v676) rfl (fun _ => by decide) (fun b => m (c, b))
  unfold R
  rw [e1, e2]
  exact row_spec _ 353 (by decide) (by decide) _ _

theorem row_672 : IsRows (wfd m c) 672 (R m c main_v1701 : S1x1024.Idx → EReal) := by
  have e1 := (Stretch.writesFrom (F := Ideal)).read_unary 1701 (x := main_v677) (y := main_v1701) rfl (fun _ => by decide) (fun b => m (c, b))
  have e2 := (Stretch.writesFrom (F := Ideal)).read_unary 677 (x := main_v4) (y := main_v677) rfl (fun _ => by decide) (fun b => m (c, b))
  unfold R
  rw [e1, e2]
  exact row_spec _ 352 (by decide) (by decide) _ _

theorem row_673 : IsRows (wfd m c) 673 (R m c main_v1702 : S1x1024.Idx → EReal) := by
  have e1 := (Stretch.writesFrom (F := Ideal)).read_unary 1702 (x := main_v678) (y := main_v1702) rfl (fun _ => by decide) (fun b => m (c, b))
  have e2 := (Stretch.writesFrom (F := Ideal)).read_unary 678 (x := main_v4) (y := main_v678) rfl (fun _ => by decide) (fun b => m (c, b))
  unfold R
  rw [e1, e2]
  exact row_spec _ 351 (by decide) (by decide) _ _

theorem row_674 : IsRows (wfd m c) 674 (R m c main_v1703 : S1x1024.Idx → EReal) := by
  have e1 := (Stretch.writesFrom (F := Ideal)).read_unary 1703 (x := main_v679) (y := main_v1703) rfl (fun _ => by decide) (fun b => m (c, b))
  have e2 := (Stretch.writesFrom (F := Ideal)).read_unary 679 (x := main_v4) (y := main_v679) rfl (fun _ => by decide) (fun b => m (c, b))
  unfold R
  rw [e1, e2]
  exact row_spec _ 350 (by decide) (by decide) _ _

theorem row_675 : IsRows (wfd m c) 675 (R m c main_v1704 : S1x1024.Idx → EReal) := by
  have e1 := (Stretch.writesFrom (F := Ideal)).read_unary 1704 (x := main_v680) (y := main_v1704) rfl (fun _ => by decide) (fun b => m (c, b))
  have e2 := (Stretch.writesFrom (F := Ideal)).read_unary 680 (x := main_v4) (y := main_v680) rfl (fun _ => by decide) (fun b => m (c, b))
  unfold R
  rw [e1, e2]
  exact row_spec _ 349 (by decide) (by decide) _ _

theorem row_676 : IsRows (wfd m c) 676 (R m c main_v1705 : S1x1024.Idx → EReal) := by
  have e1 := (Stretch.writesFrom (F := Ideal)).read_unary 1705 (x := main_v681) (y := main_v1705) rfl (fun _ => by decide) (fun b => m (c, b))
  have e2 := (Stretch.writesFrom (F := Ideal)).read_unary 681 (x := main_v4) (y := main_v681) rfl (fun _ => by decide) (fun b => m (c, b))
  unfold R
  rw [e1, e2]
  exact row_spec _ 348 (by decide) (by decide) _ _

theorem row_677 : IsRows (wfd m c) 677 (R m c main_v1706 : S1x1024.Idx → EReal) := by
  have e1 := (Stretch.writesFrom (F := Ideal)).read_unary 1706 (x := main_v682) (y := main_v1706) rfl (fun _ => by decide) (fun b => m (c, b))
  have e2 := (Stretch.writesFrom (F := Ideal)).read_unary 682 (x := main_v4) (y := main_v682) rfl (fun _ => by decide) (fun b => m (c, b))
  unfold R
  rw [e1, e2]
  exact row_spec _ 347 (by decide) (by decide) _ _

theorem row_678 : IsRows (wfd m c) 678 (R m c main_v1707 : S1x1024.Idx → EReal) := by
  have e1 := (Stretch.writesFrom (F := Ideal)).read_unary 1707 (x := main_v683) (y := main_v1707) rfl (fun _ => by decide) (fun b => m (c, b))
  have e2 := (Stretch.writesFrom (F := Ideal)).read_unary 683 (x := main_v4) (y := main_v683) rfl (fun _ => by decide) (fun b => m (c, b))
  unfold R
  rw [e1, e2]
  exact row_spec _ 346 (by decide) (by decide) _ _

theorem row_679 : IsRows (wfd m c) 679 (R m c main_v1708 : S1x1024.Idx → EReal) := by
  have e1 := (Stretch.writesFrom (F := Ideal)).read_unary 1708 (x := main_v684) (y := main_v1708) rfl (fun _ => by decide) (fun b => m (c, b))
  have e2 := (Stretch.writesFrom (F := Ideal)).read_unary 684 (x := main_v4) (y := main_v684) rfl (fun _ => by decide) (fun b => m (c, b))
  unfold R
  rw [e1, e2]
  exact row_spec _ 345 (by decide) (by decide) _ _

theorem row_680 : IsRows (wfd m c) 680 (R m c main_v1709 : S1x1024.Idx → EReal) := by
  have e1 := (Stretch.writesFrom (F := Ideal)).read_unary 1709 (x := main_v685) (y := main_v1709) rfl (fun _ => by decide) (fun b => m (c, b))
  have e2 := (Stretch.writesFrom (F := Ideal)).read_unary 685 (x := main_v4) (y := main_v685) rfl (fun _ => by decide) (fun b => m (c, b))
  unfold R
  rw [e1, e2]
  exact row_spec _ 344 (by decide) (by decide) _ _

theorem row_681 : IsRows (wfd m c) 681 (R m c main_v1710 : S1x1024.Idx → EReal) := by
  have e1 := (Stretch.writesFrom (F := Ideal)).read_unary 1710 (x := main_v686) (y := main_v1710) rfl (fun _ => by decide) (fun b => m (c, b))
  have e2 := (Stretch.writesFrom (F := Ideal)).read_unary 686 (x := main_v4) (y := main_v686) rfl (fun _ => by decide) (fun b => m (c, b))
  unfold R
  rw [e1, e2]
  exact row_spec _ 343 (by decide) (by decide) _ _

theorem row_682 : IsRows (wfd m c) 682 (R m c main_v1711 : S1x1024.Idx → EReal) := by
  have e1 := (Stretch.writesFrom (F := Ideal)).read_unary 1711 (x := main_v687) (y := main_v1711) rfl (fun _ => by decide) (fun b => m (c, b))
  have e2 := (Stretch.writesFrom (F := Ideal)).read_unary 687 (x := main_v4) (y := main_v687) rfl (fun _ => by decide) (fun b => m (c, b))
  unfold R
  rw [e1, e2]
  exact row_spec _ 342 (by decide) (by decide) _ _

theorem row_683 : IsRows (wfd m c) 683 (R m c main_v1712 : S1x1024.Idx → EReal) := by
  have e1 := (Stretch.writesFrom (F := Ideal)).read_unary 1712 (x := main_v688) (y := main_v1712) rfl (fun _ => by decide) (fun b => m (c, b))
  have e2 := (Stretch.writesFrom (F := Ideal)).read_unary 688 (x := main_v4) (y := main_v688) rfl (fun _ => by decide) (fun b => m (c, b))
  unfold R
  rw [e1, e2]
  exact row_spec _ 341 (by decide) (by decide) _ _

theorem row_684 : IsRows (wfd m c) 684 (R m c main_v1713 : S1x1024.Idx → EReal) := by
  have e1 := (Stretch.writesFrom (F := Ideal)).read_unary 1713 (x := main_v689) (y := main_v1713) rfl (fun _ => by decide) (fun b => m (c, b))
  have e2 := (Stretch.writesFrom (F := Ideal)).read_unary 689 (x := main_v4) (y := main_v689) rfl (fun _ => by decide) (fun b => m (c, b))
  unfold R
  rw [e1, e2]
  exact row_spec _ 340 (by decide) (by decide) _ _

theorem row_685 : IsRows (wfd m c) 685 (R m c main_v1714 : S1x1024.Idx → EReal) := by
  have e1 := (Stretch.writesFrom (F := Ideal)).read_unary 1714 (x := main_v690) (y := main_v1714) rfl (fun _ => by decide) (fun b => m (c, b))
  have e2 := (Stretch.writesFrom (F := Ideal)).read_unary 690 (x := main_v4) (y := main_v690) rfl (fun _ => by decide) (fun b => m (c, b))
  unfold R
  rw [e1, e2]
  exact row_spec _ 339 (by decide) (by decide) _ _

theorem row_686 : IsRows (wfd m c) 686 (R m c main_v1715 : S1x1024.Idx → EReal) := by
  have e1 := (Stretch.writesFrom (F := Ideal)).read_unary 1715 (x := main_v691) (y := main_v1715) rfl (fun _ => by decide) (fun b => m (c, b))
  have e2 := (Stretch.writesFrom (F := Ideal)).read_unary 691 (x := main_v4) (y := main_v691) rfl (fun _ => by decide) (fun b => m (c, b))
  unfold R
  rw [e1, e2]
  exact row_spec _ 338 (by decide) (by decide) _ _

theorem row_687 : IsRows (wfd m c) 687 (R m c main_v1716 : S1x1024.Idx → EReal) := by
  have e1 := (Stretch.writesFrom (F := Ideal)).read_unary 1716 (x := main_v692) (y := main_v1716) rfl (fun _ => by decide) (fun b => m (c, b))
  have e2 := (Stretch.writesFrom (F := Ideal)).read_unary 692 (x := main_v4) (y := main_v692) rfl (fun _ => by decide) (fun b => m (c, b))
  unfold R
  rw [e1, e2]
  exact row_spec _ 337 (by decide) (by decide) _ _

theorem row_688 : IsRows (wfd m c) 688 (R m c main_v1717 : S1x1024.Idx → EReal) := by
  have e1 := (Stretch.writesFrom (F := Ideal)).read_unary 1717 (x := main_v693) (y := main_v1717) rfl (fun _ => by decide) (fun b => m (c, b))
  have e2 := (Stretch.writesFrom (F := Ideal)).read_unary 693 (x := main_v4) (y := main_v693) rfl (fun _ => by decide) (fun b => m (c, b))
  unfold R
  rw [e1, e2]
  exact row_spec _ 336 (by decide) (by decide) _ _

theorem row_689 : IsRows (wfd m c) 689 (R m c main_v1718 : S1x1024.Idx → EReal) := by
  have e1 := (Stretch.writesFrom (F := Ideal)).read_unary 1718 (x := main_v694) (y := main_v1718) rfl (fun _ => by decide) (fun b => m (c, b))
  have e2 := (Stretch.writesFrom (F := Ideal)).read_unary 694 (x := main_v4) (y := main_v694) rfl (fun _ => by decide) (fun b => m (c, b))
  unfold R
  rw [e1, e2]
  exact row_spec _ 335 (by decide) (by decide) _ _

theorem row_690 : IsRows (wfd m c) 690 (R m c main_v1719 : S1x1024.Idx → EReal) := by
  have e1 := (Stretch.writesFrom (F := Ideal)).read_unary 1719 (x := main_v695) (y := main_v1719) rfl (fun _ => by decide) (fun b => m (c, b))
  have e2 := (Stretch.writesFrom (F := Ideal)).read_unary 695 (x := main_v4) (y := main_v695) rfl (fun _ => by decide) (fun b => m (c, b))
  unfold R
  rw [e1, e2]
  exact row_spec _ 334 (by decide) (by decide) _ _

theorem row_691 : IsRows (wfd m c) 691 (R m c main_v1720 : S1x1024.Idx → EReal) := by
  have e1 := (Stretch.writesFrom (F := Ideal)).read_unary 1720 (x := main_v696) (y := main_v1720) rfl (fun _ => by decide) (fun b => m (c, b))
  have e2 := (Stretch.writesFrom (F := Ideal)).read_unary 696 (x := main_v4) (y := main_v696) rfl (fun _ => by decide) (fun b => m (c, b))
  unfold R
  rw [e1, e2]
  exact row_spec _ 333 (by decide) (by decide) _ _

theorem row_692 : IsRows (wfd m c) 692 (R m c main_v1721 : S1x1024.Idx → EReal) := by
  have e1 := (Stretch.writesFrom (F := Ideal)).read_unary 1721 (x := main_v697) (y := main_v1721) rfl (fun _ => by decide) (fun b => m (c, b))
  have e2 := (Stretch.writesFrom (F := Ideal)).read_unary 697 (x := main_v4) (y := main_v697) rfl (fun _ => by decide) (fun b => m (c, b))
  unfold R
  rw [e1, e2]
  exact row_spec _ 332 (by decide) (by decide) _ _

theorem row_693 : IsRows (wfd m c) 693 (R m c main_v1722 : S1x1024.Idx → EReal) := by
  have e1 := (Stretch.writesFrom (F := Ideal)).read_unary 1722 (x := main_v698) (y := main_v1722) rfl (fun _ => by decide) (fun b => m (c, b))
  have e2 := (Stretch.writesFrom (F := Ideal)).read_unary 698 (x := main_v4) (y := main_v698) rfl (fun _ => by decide) (fun b => m (c, b))
  unfold R
  rw [e1, e2]
  exact row_spec _ 331 (by decide) (by decide) _ _

theorem row_694 : IsRows (wfd m c) 694 (R m c main_v1723 : S1x1024.Idx → EReal) := by
  have e1 := (Stretch.writesFrom (F := Ideal)).read_unary 1723 (x := main_v699) (y := main_v1723) rfl (fun _ => by decide) (fun b => m (c, b))
  have e2 := (Stretch.writesFrom (F := Ideal)).read_unary 699 (x := main_v4) (y := main_v699) rfl (fun _ => by decide) (fun b => m (c, b))
  unfold R
  rw [e1, e2]
  exact row_spec _ 330 (by decide) (by decide) _ _

theorem row_695 : IsRows (wfd m c) 695 (R m c main_v1724 : S1x1024.Idx → EReal) := by
  have e1 := (Stretch.writesFrom (F := Ideal)).read_unary 1724 (x := main_v700) (y := main_v1724) rfl (fun _ => by decide) (fun b => m (c, b))
  have e2 := (Stretch.writesFrom (F := Ideal)).read_unary 700 (x := main_v4) (y := main_v700) rfl (fun _ => by decide) (fun b => m (c, b))
  unfold R
  rw [e1, e2]
  exact row_spec _ 329 (by decide) (by decide) _ _

theorem row_696 : IsRows (wfd m c) 696 (R m c main_v1725 : S1x1024.Idx → EReal) := by
  have e1 := (Stretch.writesFrom (F := Ideal)).read_unary 1725 (x := main_v701) (y := main_v1725) rfl (fun _ => by decide) (fun b => m (c, b))
  have e2 := (Stretch.writesFrom (F := Ideal)).read_unary 701 (x := main_v4) (y := main_v701) rfl (fun _ => by decide) (fun b => m (c, b))
  unfold R
  rw [e1, e2]
  exact row_spec _ 328 (by decide) (by decide) _ _

theorem row_697 : IsRows (wfd m c) 697 (R m c main_v1726 : S1x1024.Idx → EReal) := by
  have e1 := (Stretch.writesFrom (F := Ideal)).read_unary 1726 (x := main_v702) (y := main_v1726) rfl (fun _ => by decide) (fun b => m (c, b))
  have e2 := (Stretch.writesFrom (F := Ideal)).read_unary 702 (x := main_v4) (y := main_v702) rfl (fun _ => by decide) (fun b => m (c, b))
  unfold R
  rw [e1, e2]
  exact row_spec _ 327 (by decide) (by decide) _ _

theorem row_698 : IsRows (wfd m c) 698 (R m c main_v1727 : S1x1024.Idx → EReal) := by
  have e1 := (Stretch.writesFrom (F := Ideal)).read_unary 1727 (x := main_v703) (y := main_v1727) rfl (fun _ => by decide) (fun b => m (c, b))
  have e2 := (Stretch.writesFrom (F := Ideal)).read_unary 703 (x := main_v4) (y := main_v703) rfl (fun _ => by decide) (fun b => m (c, b))
  unfold R
  rw [e1, e2]
  exact row_spec _ 326 (by decide) (by decide) _ _

theorem row_699 : IsRows (wfd m c) 699 (R m c main_v1728 : S1x1024.Idx → EReal) := by
  have e1 := (Stretch.writesFrom (F := Ideal)).read_unary 1728 (x := main_v704) (y := main_v1728) rfl (fun _ => by decide) (fun b => m (c, b))
  have e2 := (Stretch.writesFrom (F := Ideal)).read_unary 704 (x := main_v4) (y := main_v704) rfl (fun _ => by decide) (fun b => m (c, b))
  unfold R
  rw [e1, e2]
  exact row_spec _ 325 (by decide) (by decide) _ _

theorem row_700 : IsRows (wfd m c) 700 (R m c main_v1729 : S1x1024.Idx → EReal) := by
  have e1 := (Stretch.writesFrom (F := Ideal)).read_unary 1729 (x := main_v705) (y := main_v1729) rfl (fun _ => by decide) (fun b => m (c, b))
  have e2 := (Stretch.writesFrom (F := Ideal)).read_unary 705 (x := main_v4) (y := main_v705) rfl (fun _ => by decide) (fun b => m (c, b))
  unfold R
  rw [e1, e2]
  exact row_spec _ 324 (by decide) (by decide) _ _

theorem row_701 : IsRows (wfd m c) 701 (R m c main_v1730 : S1x1024.Idx → EReal) := by
  have e1 := (Stretch.writesFrom (F := Ideal)).read_unary 1730 (x := main_v706) (y := main_v1730) rfl (fun _ => by decide) (fun b => m (c, b))
  have e2 := (Stretch.writesFrom (F := Ideal)).read_unary 706 (x := main_v4) (y := main_v706) rfl (fun _ => by decide) (fun b => m (c, b))
  unfold R
  rw [e1, e2]
  exact row_spec _ 323 (by decide) (by decide) _ _

theorem row_702 : IsRows (wfd m c) 702 (R m c main_v1731 : S1x1024.Idx → EReal) := by
  have e1 := (Stretch.writesFrom (F := Ideal)).read_unary 1731 (x := main_v707) (y := main_v1731) rfl (fun _ => by decide) (fun b => m (c, b))
  have e2 := (Stretch.writesFrom (F := Ideal)).read_unary 707 (x := main_v4) (y := main_v707) rfl (fun _ => by decide) (fun b => m (c, b))
  unfold R
  rw [e1, e2]
  exact row_spec _ 322 (by decide) (by decide) _ _

theorem row_703 : IsRows (wfd m c) 703 (R m c main_v1732 : S1x1024.Idx → EReal) := by
  have e1 := (Stretch.writesFrom (F := Ideal)).read_unary 1732 (x := main_v708) (y := main_v1732) rfl (fun _ => by decide) (fun b => m (c, b))
  have e2 := (Stretch.writesFrom (F := Ideal)).read_unary 708 (x := main_v4) (y := main_v708) rfl (fun _ => by decide) (fun b => m (c, b))
  unfold R
  rw [e1, e2]
  exact row_spec _ 321 (by decide) (by decide) _ _

theorem row_704 : IsRows (wfd m c) 704 (R m c main_v1733 : S1x1024.Idx → EReal) := by
  have e1 := (Stretch.writesFrom (F := Ideal)).read_unary 1733 (x := main_v709) (y := main_v1733) rfl (fun _ => by decide) (fun b => m (c, b))
  have e2 := (Stretch.writesFrom (F := Ideal)).read_unary 709 (x := main_v4) (y := main_v709) rfl (fun _ => by decide) (fun b => m (c, b))
  unfold R
  rw [e1, e2]
  exact row_spec _ 320 (by decide) (by decide) _ _

theorem row_705 : IsRows (wfd m c) 705 (R m c main_v1734 : S1x1024.Idx → EReal) := by
  have e1 := (Stretch.writesFrom (F := Ideal)).read_unary 1734 (x := main_v710) (y := main_v1734) rfl (fun _ => by decide) (fun b => m (c, b))
  have e2 := (Stretch.writesFrom (F := Ideal)).read_unary 710 (x := main_v4) (y := main_v710) rfl (fun _ => by decide) (fun b => m (c, b))
  unfold R
  rw [e1, e2]
  exact row_spec _ 319 (by decide) (by decide) _ _

theorem row_706 : IsRows (wfd m c) 706 (R m c main_v1735 : S1x1024.Idx → EReal) := by
  have e1 := (Stretch.writesFrom (F := Ideal)).read_unary 1735 (x := main_v711) (y := main_v1735) rfl (fun _ => by decide) (fun b => m (c, b))
  have e2 := (Stretch.writesFrom (F := Ideal)).read_unary 711 (x := main_v4) (y := main_v711) rfl (fun _ => by decide) (fun b => m (c, b))
  unfold R
  rw [e1, e2]
  exact row_spec _ 318 (by decide) (by decide) _ _

theorem row_707 : IsRows (wfd m c) 707 (R m c main_v1736 : S1x1024.Idx → EReal) := by
  have e1 := (Stretch.writesFrom (F := Ideal)).read_unary 1736 (x := main_v712) (y := main_v1736) rfl (fun _ => by decide) (fun b => m (c, b))
  have e2 := (Stretch.writesFrom (F := Ideal)).read_unary 712 (x := main_v4) (y := main_v712) rfl (fun _ => by decide) (fun b => m (c, b))
  unfold R
  rw [e1, e2]
  exact row_spec _ 317 (by decide) (by decide) _ _

theorem row_708 : IsRows (wfd m c) 708 (R m c main_v1737 : S1x1024.Idx → EReal) := by
  have e1 := (Stretch.writesFrom (F := Ideal)).read_unary 1737 (x := main_v713) (y := main_v1737) rfl (fun _ => by decide) (fun b => m (c, b))
  have e2 := (Stretch.writesFrom (F := Ideal)).read_unary 713 (x := main_v4) (y := main_v713) rfl (fun _ => by decide) (fun b => m (c, b))
  unfold R
  rw [e1, e2]
  exact row_spec _ 316 (by decide) (by decide) _ _

theorem row_709 : IsRows (wfd m c) 709 (R m c main_v1738 : S1x1024.Idx → EReal) := by
  have e1 := (Stretch.writesFrom (F := Ideal)).read_unary 1738 (x := main_v714) (y := main_v1738) rfl (fun _ => by decide) (fun b => m (c, b))
  have e2 := (Stretch.writesFrom (F := Ideal)).read_unary 714 (x := main_v4) (y := main_v714) rfl (fun _ => by decide) (fun b => m (c, b))
  unfold R
  rw [e1, e2]
  exact row_spec _ 315 (by decide) (by decide) _ _

theorem row_710 : IsRows (wfd m c) 710 (R m c main_v1739 : S1x1024.Idx → EReal) := by
  have e1 := (Stretch.writesFrom (F := Ideal)).read_unary 1739 (x := main_v715) (y := main_v1739) rfl (fun _ => by decide) (fun b => m (c, b))
  have e2 := (Stretch.writesFrom (F := Ideal)).read_unary 715 (x := main_v4) (y := main_v715) rfl (fun _ => by decide) (fun b => m (c, b))
  unfold R
  rw [e1, e2]
  exact row_spec _ 314 (by decide) (by decide) _ _

theorem row_711 : IsRows (wfd m c) 711 (R m c main_v1740 : S1x1024.Idx → EReal) := by
  have e1 := (Stretch.writesFrom (F := Ideal)).read_unary 1740 (x := main_v716) (y := main_v1740) rfl (fun _ => by decide) (fun b => m (c, b))
  have e2 := (Stretch.writesFrom (F := Ideal)).read_unary 716 (x := main_v4) (y := main_v716) rfl (fun _ => by decide) (fun b => m (c, b))
  unfold R
  rw [e1, e2]
  exact row_spec _ 313 (by decide) (by decide) _ _

theorem row_712 : IsRows (wfd m c) 712 (R m c main_v1741 : S1x1024.Idx → EReal) := by
  have e1 := (Stretch.writesFrom (F := Ideal)).read_unary 1741 (x := main_v717) (y := main_v1741) rfl (fun _ => by decide) (fun b => m (c, b))
  have e2 := (Stretch.writesFrom (F := Ideal)).read_unary 717 (x := main_v4) (y := main_v717) rfl (fun _ => by decide) (fun b => m (c, b))
  unfold R
  rw [e1, e2]
  exact row_spec _ 312 (by decide) (by decide) _ _

theorem row_713 : IsRows (wfd m c) 713 (R m c main_v1742 : S1x1024.Idx → EReal) := by
  have e1 := (Stretch.writesFrom (F := Ideal)).read_unary 1742 (x := main_v718) (y := main_v1742) rfl (fun _ => by decide) (fun b => m (c, b))
  have e2 := (Stretch.writesFrom (F := Ideal)).read_unary 718 (x := main_v4) (y := main_v718) rfl (fun _ => by decide) (fun b => m (c, b))
  unfold R
  rw [e1, e2]
  exact row_spec _ 311 (by decide) (by decide) _ _

theorem row_714 : IsRows (wfd m c) 714 (R m c main_v1743 : S1x1024.Idx → EReal) := by
  have e1 := (Stretch.writesFrom (F := Ideal)).read_unary 1743 (x := main_v719) (y := main_v1743) rfl (fun _ => by decide) (fun b => m (c, b))
  have e2 := (Stretch.writesFrom (F := Ideal)).read_unary 719 (x := main_v4) (y := main_v719) rfl (fun _ => by decide) (fun b => m (c, b))
  unfold R
  rw [e1, e2]
  exact row_spec _ 310 (by decide) (by decide) _ _

theorem row_715 : IsRows (wfd m c) 715 (R m c main_v1744 : S1x1024.Idx → EReal) := by
  have e1 := (Stretch.writesFrom (F := Ideal)).read_unary 1744 (x := main_v720) (y := main_v1744) rfl (fun _ => by decide) (fun b => m (c, b))
  have e2 := (Stretch.writesFrom (F := Ideal)).read_unary 720 (x := main_v4) (y := main_v720) rfl (fun _ => by decide) (fun b => m (c, b))
  unfold R
  rw [e1, e2]
  exact row_spec _ 309 (by decide) (by decide) _ _

theorem row_716 : IsRows (wfd m c) 716 (R m c main_v1745 : S1x1024.Idx → EReal) := by
  have e1 := (Stretch.writesFrom (F := Ideal)).read_unary 1745 (x := main_v721) (y := main_v1745) rfl (fun _ => by decide) (fun b => m (c, b))
  have e2 := (Stretch.writesFrom (F := Ideal)).read_unary 721 (x := main_v4) (y := main_v721) rfl (fun _ => by decide) (fun b => m (c, b))
  unfold R
  rw [e1, e2]
  exact row_spec _ 308 (by decide) (by decide) _ _

theorem row_717 : IsRows (wfd m c) 717 (R m c main_v1746 : S1x1024.Idx → EReal) := by
  have e1 := (Stretch.writesFrom (F := Ideal)).read_unary 1746 (x := main_v722) (y := main_v1746) rfl (fun _ => by decide) (fun b => m (c, b))
  have e2 := (Stretch.writesFrom (F := Ideal)).read_unary 722 (x := main_v4) (y := main_v722) rfl (fun _ => by decide) (fun b => m (c, b))
  unfold R
  rw [e1, e2]
  exact row_spec _ 307 (by decide) (by decide) _ _

theorem row_718 : IsRows (wfd m c) 718 (R m c main_v1747 : S1x1024.Idx → EReal) := by
  have e1 := (Stretch.writesFrom (F := Ideal)).read_unary 1747 (x := main_v723) (y := main_v1747) rfl (fun _ => by decide) (fun b => m (c, b))
  have e2 := (Stretch.writesFrom (F := Ideal)).read_unary 723 (x := main_v4) (y := main_v723) rfl (fun _ => by decide) (fun b => m (c, b))
  unfold R
  rw [e1, e2]
  exact row_spec _ 306 (by decide) (by decide) _ _

theorem row_719 : IsRows (wfd m c) 719 (R m c main_v1748 : S1x1024.Idx → EReal) := by
  have e1 := (Stretch.writesFrom (F := Ideal)).read_unary 1748 (x := main_v724) (y := main_v1748) rfl (fun _ => by decide) (fun b => m (c, b))
  have e2 := (Stretch.writesFrom (F := Ideal)).read_unary 724 (x := main_v4) (y := main_v724) rfl (fun _ => by decide) (fun b => m (c, b))
  unfold R
  rw [e1, e2]
  exact row_spec _ 305 (by decide) (by decide) _ _

theorem row_720 : IsRows (wfd m c) 720 (R m c main_v1749 : S1x1024.Idx → EReal) := by
  have e1 := (Stretch.writesFrom (F := Ideal)).read_unary 1749 (x := main_v725) (y := main_v1749) rfl (fun _ => by decide) (fun b => m (c, b))
  have e2 := (Stretch.writesFrom (F := Ideal)).read_unary 725 (x := main_v4) (y := main_v725) rfl (fun _ => by decide) (fun b => m (c, b))
  unfold R
  rw [e1, e2]
  exact row_spec _ 304 (by decide) (by decide) _ _

theorem row_721 : IsRows (wfd m c) 721 (R m c main_v1750 : S1x1024.Idx → EReal) := by
  have e1 := (Stretch.writesFrom (F := Ideal)).read_unary 1750 (x := main_v726) (y := main_v1750) rfl (fun _ => by decide) (fun b => m (c, b))
  have e2 := (Stretch.writesFrom (F := Ideal)).read_unary 726 (x := main_v4) (y := main_v726) rfl (fun _ => by decide) (fun b => m (c, b))
  unfold R
  rw [e1, e2]
  exact row_spec _ 303 (by decide) (by decide) _ _

theorem row_722 : IsRows (wfd m c) 722 (R m c main_v1751 : S1x1024.Idx → EReal) := by
  have e1 := (Stretch.writesFrom (F := Ideal)).read_unary 1751 (x := main_v727) (y := main_v1751) rfl (fun _ => by decide) (fun b => m (c, b))
  have e2 := (Stretch.writesFrom (F := Ideal)).read_unary 727 (x := main_v4) (y := main_v727) rfl (fun _ => by decide) (fun b => m (c, b))
  unfold R
  rw [e1, e2]
  exact row_spec _ 302 (by decide) (by decide) _ _

theorem row_723 : IsRows (wfd m c) 723 (R m c main_v1752 : S1x1024.Idx → EReal) := by
  have e1 := (Stretch.writesFrom (F := Ideal)).read_unary 1752 (x := main_v728) (y := main_v1752) rfl (fun _ => by decide) (fun b => m (c, b))
  have e2 := (Stretch.writesFrom (F := Ideal)).read_unary 728 (x := main_v4) (y := main_v728) rfl (fun _ => by decide) (fun b => m (c, b))
  unfold R
  rw [e1, e2]
  exact row_spec _ 301 (by decide) (by decide) _ _

theorem row_724 : IsRows (wfd m c) 724 (R m c main_v1753 : S1x1024.Idx → EReal) := by
  have e1 := (Stretch.writesFrom (F := Ideal)).read_unary 1753 (x := main_v729) (y := main_v1753) rfl (fun _ => by decide) (fun b => m (c, b))
  have e2 := (Stretch.writesFrom (F := Ideal)).read_unary 729 (x := main_v4) (y := main_v729) rfl (fun _ => by decide) (fun b => m (c, b))
  unfold R
  rw [e1, e2]
  exact row_spec _ 300 (by decide) (by decide) _ _

theorem row_725 : IsRows (wfd m c) 725 (R m c main_v1754 : S1x1024.Idx → EReal) := by
  have e1 := (Stretch.writesFrom (F := Ideal)).read_unary 1754 (x := main_v730) (y := main_v1754) rfl (fun _ => by decide) (fun b => m (c, b))
  have e2 := (Stretch.writesFrom (F := Ideal)).read_unary 730 (x := main_v4) (y := main_v730) rfl (fun _ => by decide) (fun b => m (c, b))
  unfold R
  rw [e1, e2]
  exact row_spec _ 299 (by decide) (by decide) _ _

theorem row_726 : IsRows (wfd m c) 726 (R m c main_v1755 : S1x1024.Idx → EReal) := by
  have e1 := (Stretch.writesFrom (F := Ideal)).read_unary 1755 (x := main_v731) (y := main_v1755) rfl (fun _ => by decide) (fun b => m (c, b))
  have e2 := (Stretch.writesFrom (F := Ideal)).read_unary 731 (x := main_v4) (y := main_v731) rfl (fun _ => by decide) (fun b => m (c, b))
  unfold R
  rw [e1, e2]
  exact row_spec _ 298 (by decide) (by decide) _ _

theorem row_727 : IsRows (wfd m c) 727 (R m c main_v1756 : S1x1024.Idx → EReal) := by
  have e1 := (Stretch.writesFrom (F := Ideal)).read_unary 1756 (x := main_v732) (y := main_v1756) rfl (fun _ => by decide) (fun b => m (c, b))
  have e2 := (Stretch.writesFrom (F := Ideal)).read_unary 732 (x := main_v4) (y := main_v732) rfl (fun _ => by decide) (fun b => m (c, b))
  unfold R
  rw [e1, e2]
  exact row_spec _ 297 (by decide) (by decide) _ _

theorem row_728 : IsRows (wfd m c) 728 (R m c main_v1757 : S1x1024.Idx → EReal) := by
  have e1 := (Stretch.writesFrom (F := Ideal)).read_unary 1757 (x := main_v733) (y := main_v1757) rfl (fun _ => by decide) (fun b => m (c, b))
  have e2 := (Stretch.writesFrom (F := Ideal)).read_unary 733 (x := main_v4) (y := main_v733) rfl (fun _ => by decide) (fun b => m (c, b))
  unfold R
  rw [e1, e2]
  exact row_spec _ 296 (by decide) (by decide) _ _

theorem row_729 : IsRows (wfd m c) 729 (R m c main_v1758 : S1x1024.Idx → EReal) := by
  have e1 := (Stretch.writesFrom (F := Ideal)).read_unary 1758 (x := main_v734) (y := main_v1758) rfl (fun _ => by decide) (fun b => m (c, b))
  have e2 := (Stretch.writesFrom (F := Ideal)).read_unary 734 (x := main_v4) (y := main_v734) rfl (fun _ => by decide) (fun b => m (c, b))
  unfold R
  rw [e1, e2]
  exact row_spec _ 295 (by decide) (by decide) _ _

theorem row_730 : IsRows (wfd m c) 730 (R m c main_v1759 : S1x1024.Idx → EReal) := by
  have e1 := (Stretch.writesFrom (F := Ideal)).read_unary 1759 (x := main_v735) (y := main_v1759) rfl (fun _ => by decide) (fun b => m (c, b))
  have e2 := (Stretch.writesFrom (F := Ideal)).read_unary 735 (x := main_v4) (y := main_v735) rfl (fun _ => by decide) (fun b => m (c, b))
  unfold R
  rw [e1, e2]
  exact row_spec _ 294 (by decide) (by decide) _ _

theorem row_731 : IsRows (wfd m c) 731 (R m c main_v1760 : S1x1024.Idx → EReal) := by
  have e1 := (Stretch.writesFrom (F := Ideal)).read_unary 1760 (x := main_v736) (y := main_v1760) rfl (fun _ => by decide) (fun b => m (c, b))
  have e2 := (Stretch.writesFrom (F := Ideal)).read_unary 736 (x := main_v4) (y := main_v736) rfl (fun _ => by decide) (fun b => m (c, b))
  unfold R
  rw [e1, e2]
  exact row_spec _ 293 (by decide) (by decide) _ _

theorem row_732 : IsRows (wfd m c) 732 (R m c main_v1761 : S1x1024.Idx → EReal) := by
  have e1 := (Stretch.writesFrom (F := Ideal)).read_unary 1761 (x := main_v737) (y := main_v1761) rfl (fun _ => by decide) (fun b => m (c, b))
  have e2 := (Stretch.writesFrom (F := Ideal)).read_unary 737 (x := main_v4) (y := main_v737) rfl (fun _ => by decide) (fun b => m (c, b))
  unfold R
  rw [e1, e2]
  exact row_spec _ 292 (by decide) (by decide) _ _

theorem row_733 : IsRows (wfd m c) 733 (R m c main_v1762 : S1x1024.Idx → EReal) := by
  have e1 := (Stretch.writesFrom (F := Ideal)).read_unary 1762 (x := main_v738) (y := main_v1762) rfl (fun _ => by decide) (fun b => m (c, b))
  have e2 := (Stretch.writesFrom (F := Ideal)).read_unary 738 (x := main_v4) (y := main_v738) rfl (fun _ => by decide) (fun b => m (c, b))
  unfold R
  rw [e1, e2]
  exact row_spec _ 291 (by decide) (by decide) _ _

theorem row_734 : IsRows (wfd m c) 734 (R m c main_v1763 : S1x1024.Idx → EReal) := by
  have e1 := (Stretch.writesFrom (F := Ideal)).read_unary 1763 (x := main_v739) (y := main_v1763) rfl (fun _ => by decide) (fun b => m (c, b))
  have e2 := (Stretch.writesFrom (F := Ideal)).read_unary 739 (x := main_v4) (y := main_v739) rfl (fun _ => by decide) (fun b => m (c, b))
  unfold R
  rw [e1, e2]
  exact row_spec _ 290 (by decide) (by decide) _ _

theorem row_735 : IsRows (wfd m c) 735 (R m c main_v1764 : S1x1024.Idx → EReal) := by
  have e1 := (Stretch.writesFrom (F := Ideal)).read_unary 1764 (x := main_v740) (y := main_v1764) rfl (fun _ => by decide) (fun b => m (c, b))
  have e2 := (Stretch.writesFrom (F := Ideal)).read_unary 740 (x := main_v4) (y := main_v740) rfl (fun _ => by decide) (fun b => m (c, b))
  unfold R
  rw [e1, e2]
  exact row_spec _ 289 (by decide) (by decide) _ _

theorem row_736 : IsRows (wfd m c) 736 (R m c main_v1765 : S1x1024.Idx → EReal) := by
  have e1 := (Stretch.writesFrom (F := Ideal)).read_unary 1765 (x := main_v741) (y := main_v1765) rfl (fun _ => by decide) (fun b => m (c, b))
  have e2 := (Stretch.writesFrom (F := Ideal)).read_unary 741 (x := main_v4) (y := main_v741) rfl (fun _ => by decide) (fun b => m (c, b))
  unfold R
  rw [e1, e2]
  exact row_spec _ 288 (by decide) (by decide) _ _

theorem row_737 : IsRows (wfd m c) 737 (R m c main_v1766 : S1x1024.Idx → EReal) := by
  have e1 := (Stretch.writesFrom (F := Ideal)).read_unary 1766 (x := main_v742) (y := main_v1766) rfl (fun _ => by decide) (fun b => m (c, b))
  have e2 := (Stretch.writesFrom (F := Ideal)).read_unary 742 (x := main_v4) (y := main_v742) rfl (fun _ => by decide) (fun b => m (c, b))
  unfold R
  rw [e1, e2]
  exact row_spec _ 287 (by decide) (by decide) _ _

theorem row_738 : IsRows (wfd m c) 738 (R m c main_v1767 : S1x1024.Idx → EReal) := by
  have e1 := (Stretch.writesFrom (F := Ideal)).read_unary 1767 (x := main_v743) (y := main_v1767) rfl (fun _ => by decide) (fun b => m (c, b))
  have e2 := (Stretch.writesFrom (F := Ideal)).read_unary 743 (x := main_v4) (y := main_v743) rfl (fun _ => by decide) (fun b => m (c, b))
  unfold R
  rw [e1, e2]
  exact row_spec _ 286 (by decide) (by decide) _ _

theorem row_739 : IsRows (wfd m c) 739 (R m c main_v1768 : S1x1024.Idx → EReal) := by
  have e1 := (Stretch.writesFrom (F := Ideal)).read_unary 1768 (x := main_v744) (y := main_v1768) rfl (fun _ => by decide) (fun b => m (c, b))
  have e2 := (Stretch.writesFrom (F := Ideal)).read_unary 744 (x := main_v4) (y := main_v744) rfl (fun _ => by decide) (fun b => m (c, b))
  unfold R
  rw [e1, e2]
  exact row_spec _ 285 (by decide) (by decide) _ _

theorem row_740 : IsRows (wfd m c) 740 (R m c main_v1769 : S1x1024.Idx → EReal) := by
  have e1 := (Stretch.writesFrom (F := Ideal)).read_unary 1769 (x := main_v745) (y := main_v1769) rfl (fun _ => by decide) (fun b => m (c, b))
  have e2 := (Stretch.writesFrom (F := Ideal)).read_unary 745 (x := main_v4) (y := main_v745) rfl (fun _ => by decide) (fun b => m (c, b))
  unfold R
  rw [e1, e2]
  exact row_spec _ 284 (by decide) (by decide) _ _

theorem row_741 : IsRows (wfd m c) 741 (R m c main_v1770 : S1x1024.Idx → EReal) := by
  have e1 := (Stretch.writesFrom (F := Ideal)).read_unary 1770 (x := main_v746) (y := main_v1770) rfl (fun _ => by decide) (fun b => m (c, b))
  have e2 := (Stretch.writesFrom (F := Ideal)).read_unary 746 (x := main_v4) (y := main_v746) rfl (fun _ => by decide) (fun b => m (c, b))
  unfold R
  rw [e1, e2]
  exact row_spec _ 283 (by decide) (by decide) _ _

theorem row_742 : IsRows (wfd m c) 742 (R m c main_v1771 : S1x1024.Idx → EReal) := by
  have e1 := (Stretch.writesFrom (F := Ideal)).read_unary 1771 (x := main_v747) (y := main_v1771) rfl (fun _ => by decide) (fun b => m (c, b))
  have e2 := (Stretch.writesFrom (F := Ideal)).read_unary 747 (x := main_v4) (y := main_v747) rfl (fun _ => by decide) (fun b => m (c, b))
  unfold R
  rw [e1, e2]
  exact row_spec _ 282 (by decide) (by decide) _ _

theorem row_743 : IsRows (wfd m c) 743 (R m c main_v1772 : S1x1024.Idx → EReal) := by
  have e1 := (Stretch.writesFrom (F := Ideal)).read_unary 1772 (x := main_v748) (y := main_v1772) rfl (fun _ => by decide) (fun b => m (c, b))
  have e2 := (Stretch.writesFrom (F := Ideal)).read_unary 748 (x := main_v4) (y := main_v748) rfl (fun _ => by decide) (fun b => m (c, b))
  unfold R
  rw [e1, e2]
  exact row_spec _ 281 (by decide) (by decide) _ _

theorem row_744 : IsRows (wfd m c) 744 (R m c main_v1773 : S1x1024.Idx → EReal) := by
  have e1 := (Stretch.writesFrom (F := Ideal)).read_unary 1773 (x := main_v749) (y := main_v1773) rfl (fun _ => by decide) (fun b => m (c, b))
  have e2 := (Stretch.writesFrom (F := Ideal)).read_unary 749 (x := main_v4) (y := main_v749) rfl (fun _ => by decide) (fun b => m (c, b))
  unfold R
  rw [e1, e2]
  exact row_spec _ 280 (by decide) (by decide) _ _

theorem row_745 : IsRows (wfd m c) 745 (R m c main_v1774 : S1x1024.Idx → EReal) := by
  have e1 := (Stretch.writesFrom (F := Ideal)).read_unary 1774 (x := main_v750) (y := main_v1774) rfl (fun _ => by decide) (fun b => m (c, b))
  have e2 := (Stretch.writesFrom (F := Ideal)).read_unary 750 (x := main_v4) (y := main_v750) rfl (fun _ => by decide) (fun b => m (c, b))
  unfold R
  rw [e1, e2]
  exact row_spec _ 279 (by decide) (by decide) _ _

theorem row_746 : IsRows (wfd m c) 746 (R m c main_v1775 : S1x1024.Idx → EReal) := by
  have e1 := (Stretch.writesFrom (F := Ideal)).read_unary 1775 (x := main_v751) (y := main_v1775) rfl (fun _ => by decide) (fun b => m (c, b))
  have e2 := (Stretch.writesFrom (F := Ideal)).read_unary 751 (x := main_v4) (y := main_v751) rfl (fun _ => by decide) (fun b => m (c, b))
  unfold R
  rw [e1, e2]
  exact row_spec _ 278 (by decide) (by decide) _ _

theorem row_747 : IsRows (wfd m c) 747 (R m c main_v1776 : S1x1024.Idx → EReal) := by
  have e1 := (Stretch.writesFrom (F := Ideal)).read_unary 1776 (x := main_v752) (y := main_v1776) rfl (fun _ => by decide) (fun b => m (c, b))
  have e2 := (Stretch.writesFrom (F := Ideal)).read_unary 752 (x := main_v4) (y := main_v752) rfl (fun _ => by decide) (fun b => m (c, b))
  unfold R
  rw [e1, e2]
  exact row_spec _ 277 (by decide) (by decide) _ _

theorem row_748 : IsRows (wfd m c) 748 (R m c main_v1777 : S1x1024.Idx → EReal) := by
  have e1 := (Stretch.writesFrom (F := Ideal)).read_unary 1777 (x := main_v753) (y := main_v1777) rfl (fun _ => by decide) (fun b => m (c, b))
  have e2 := (Stretch.writesFrom (F := Ideal)).read_unary 753 (x := main_v4) (y := main_v753) rfl (fun _ => by decide) (fun b => m (c, b))
  unfold R
  rw [e1, e2]
  exact row_spec _ 276 (by decide) (by decide) _ _

theorem row_749 : IsRows (wfd m c) 749 (R m c main_v1778 : S1x1024.Idx → EReal) := by
  have e1 := (Stretch.writesFrom (F := Ideal)).read_unary 1778 (x := main_v754) (y := main_v1778) rfl (fun _ => by decide) (fun b => m (c, b))
  have e2 := (Stretch.writesFrom (F := Ideal)).read_unary 754 (x := main_v4) (y := main_v754) rfl (fun _ => by decide) (fun b => m (c, b))
  unfold R
  rw [e1, e2]
  exact row_spec _ 275 (by decide) (by decide) _ _

theorem row_750 : IsRows (wfd m c) 750 (R m c main_v1779 : S1x1024.Idx → EReal) := by
  have e1 := (Stretch.writesFrom (F := Ideal)).read_unary 1779 (x := main_v755) (y := main_v1779) rfl (fun _ => by decide) (fun b => m (c, b))
  have e2 := (Stretch.writesFrom (F := Ideal)).read_unary 755 (x := main_v4) (y := main_v755) rfl (fun _ => by decide) (fun b => m (c, b))
  unfold R
  rw [e1, e2]
  exact row_spec _ 274 (by decide) (by decide) _ _

theorem row_751 : IsRows (wfd m c) 751 (R m c main_v1780 : S1x1024.Idx → EReal) := by
  have e1 := (Stretch.writesFrom (F := Ideal)).read_unary 1780 (x := main_v756) (y := main_v1780) rfl (fun _ => by decide) (fun b => m (c, b))
  have e2 := (Stretch.writesFrom (F := Ideal)).read_unary 756 (x := main_v4) (y := main_v756) rfl (fun _ => by decide) (fun b => m (c, b))
  unfold R
  rw [e1, e2]
  exact row_spec _ 273 (by decide) (by decide) _ _

theorem row_752 : IsRows (wfd m c) 752 (R m c main_v1781 : S1x1024.Idx → EReal) := by
  have e1 := (Stretch.writesFrom (F := Ideal)).read_unary 1781 (x := main_v757) (y := main_v1781) rfl (fun _ => by decide) (fun b => m (c, b))
  have e2 := (Stretch.writesFrom (F := Ideal)).read_unary 757 (x := main_v4) (y := main_v757) rfl (fun _ => by decide) (fun b => m (c, b))
  unfold R
  rw [e1, e2]
  exact row_spec _ 272 (by decide) (by decide) _ _

theorem row_753 : IsRows (wfd m c) 753 (R m c main_v1782 : S1x1024.Idx → EReal) := by
  have e1 := (Stretch.writesFrom (F := Ideal)).read_unary 1782 (x := main_v758) (y := main_v1782) rfl (fun _ => by decide) (fun b => m (c, b))
  have e2 := (Stretch.writesFrom (F := Ideal)).read_unary 758 (x := main_v4) (y := main_v758) rfl (fun _ => by decide) (fun b => m (c, b))
  unfold R
  rw [e1, e2]
  exact row_spec _ 271 (by decide) (by decide) _ _

theorem row_754 : IsRows (wfd m c) 754 (R m c main_v1783 : S1x1024.Idx → EReal) := by
  have e1 := (Stretch.writesFrom (F := Ideal)).read_unary 1783 (x := main_v759) (y := main_v1783) rfl (fun _ => by decide) (fun b => m (c, b))
  have e2 := (Stretch.writesFrom (F := Ideal)).read_unary 759 (x := main_v4) (y := main_v759) rfl (fun _ => by decide) (fun b => m (c, b))
  unfold R
  rw [e1, e2]
  exact row_spec _ 270 (by decide) (by decide) _ _

theorem row_755 : IsRows (wfd m c) 755 (R m c main_v1784 : S1x1024.Idx → EReal) := by
  have e1 := (Stretch.writesFrom (F := Ideal)).read_unary 1784 (x := main_v760) (y := main_v1784) rfl (fun _ => by decide) (fun b => m (c, b))
  have e2 := (Stretch.writesFrom (F := Ideal)).read_unary 760 (x := main_v4) (y := main_v760) rfl (fun _ => by decide) (fun b => m (c, b))
  unfold R
  rw [e1, e2]
  exact row_spec _ 269 (by decide) (by decide) _ _

theorem row_756 : IsRows (wfd m c) 756 (R m c main_v1785 : S1x1024.Idx → EReal) := by
  have e1 := (Stretch.writesFrom (F := Ideal)).read_unary 1785 (x := main_v761) (y := main_v1785) rfl (fun _ => by decide) (fun b => m (c, b))
  have e2 := (Stretch.writesFrom (F := Ideal)).read_unary 761 (x := main_v4) (y := main_v761) rfl (fun _ => by decide) (fun b => m (c, b))
  unfold R
  rw [e1, e2]
  exact row_spec _ 268 (by decide) (by decide) _ _

theorem row_757 : IsRows (wfd m c) 757 (R m c main_v1786 : S1x1024.Idx → EReal) := by
  have e1 := (Stretch.writesFrom (F := Ideal)).read_unary 1786 (x := main_v762) (y := main_v1786) rfl (fun _ => by decide) (fun b => m (c, b))
  have e2 := (Stretch.writesFrom (F := Ideal)).read_unary 762 (x := main_v4) (y := main_v762) rfl (fun _ => by decide) (fun b => m (c, b))
  unfold R
  rw [e1, e2]
  exact row_spec _ 267 (by decide) (by decide) _ _

theorem row_758 : IsRows (wfd m c) 758 (R m c main_v1787 : S1x1024.Idx → EReal) := by
  have e1 := (Stretch.writesFrom (F := Ideal)).read_unary 1787 (x := main_v763) (y := main_v1787) rfl (fun _ => by decide) (fun b => m (c, b))
  have e2 := (Stretch.writesFrom (F := Ideal)).read_unary 763 (x := main_v4) (y := main_v763) rfl (fun _ => by decide) (fun b => m (c, b))
  unfold R
  rw [e1, e2]
  exact row_spec _ 266 (by decide) (by decide) _ _

theorem row_759 : IsRows (wfd m c) 759 (R m c main_v1788 : S1x1024.Idx → EReal) := by
  have e1 := (Stretch.writesFrom (F := Ideal)).read_unary 1788 (x := main_v764) (y := main_v1788) rfl (fun _ => by decide) (fun b => m (c, b))
  have e2 := (Stretch.writesFrom (F := Ideal)).read_unary 764 (x := main_v4) (y := main_v764) rfl (fun _ => by decide) (fun b => m (c, b))
  unfold R
  rw [e1, e2]
  exact row_spec _ 265 (by decide) (by decide) _ _

theorem row_760 : IsRows (wfd m c) 760 (R m c main_v1789 : S1x1024.Idx → EReal) := by
  have e1 := (Stretch.writesFrom (F := Ideal)).read_unary 1789 (x := main_v765) (y := main_v1789) rfl (fun _ => by decide) (fun b => m (c, b))
  have e2 := (Stretch.writesFrom (F := Ideal)).read_unary 765 (x := main_v4) (y := main_v765) rfl (fun _ => by decide) (fun b => m (c, b))
  unfold R
  rw [e1, e2]
  exact row_spec _ 264 (by decide) (by decide) _ _

theorem row_761 : IsRows (wfd m c) 761 (R m c main_v1790 : S1x1024.Idx → EReal) := by
  have e1 := (Stretch.writesFrom (F := Ideal)).read_unary 1790 (x := main_v766) (y := main_v1790) rfl (fun _ => by decide) (fun b => m (c, b))
  have e2 := (Stretch.writesFrom (F := Ideal)).read_unary 766 (x := main_v4) (y := main_v766) rfl (fun _ => by decide) (fun b => m (c, b))
  unfold R
  rw [e1, e2]
  exact row_spec _ 263 (by decide) (by decide) _ _

theorem row_762 : IsRows (wfd m c) 762 (R m c main_v1791 : S1x1024.Idx → EReal) := by
  have e1 := (Stretch.writesFrom (F := Ideal)).read_unary 1791 (x := main_v767) (y := main_v1791) rfl (fun _ => by decide) (fun b => m (c, b))
  have e2 := (Stretch.writesFrom (F := Ideal)).read_unary 767 (x := main_v4) (y := main_v767) rfl (fun _ => by decide) (fun b => m (c, b))
  unfold R
  rw [e1, e2]
  exact row_spec _ 262 (by decide) (by decide) _ _

theorem row_763 : IsRows (wfd m c) 763 (R m c main_v1792 : S1x1024.Idx → EReal) := by
  have e1 := (Stretch.writesFrom (F := Ideal)).read_unary 1792 (x := main_v768) (y := main_v1792) rfl (fun _ => by decide) (fun b => m (c, b))
  have e2 := (Stretch.writesFrom (F := Ideal)).read_unary 768 (x := main_v4) (y := main_v768) rfl (fun _ => by decide) (fun b => m (c, b))
  unfold R
  rw [e1, e2]
  exact row_spec _ 261 (by decide) (by decide) _ _

theorem row_764 : IsRows (wfd m c) 764 (R m c main_v1793 : S1x1024.Idx → EReal) := by
  have e1 := (Stretch.writesFrom (F := Ideal)).read_unary 1793 (x := main_v769) (y := main_v1793) rfl (fun _ => by decide) (fun b => m (c, b))
  have e2 := (Stretch.writesFrom (F := Ideal)).read_unary 769 (x := main_v4) (y := main_v769) rfl (fun _ => by decide) (fun b => m (c, b))
  unfold R
  rw [e1, e2]
  exact row_spec _ 260 (by decide) (by decide) _ _

theorem row_765 : IsRows (wfd m c) 765 (R m c main_v1794 : S1x1024.Idx → EReal) := by
  have e1 := (Stretch.writesFrom (F := Ideal)).read_unary 1794 (x := main_v770) (y := main_v1794) rfl (fun _ => by decide) (fun b => m (c, b))
  have e2 := (Stretch.writesFrom (F := Ideal)).read_unary 770 (x := main_v4) (y := main_v770) rfl (fun _ => by decide) (fun b => m (c, b))
  unfold R
  rw [e1, e2]
  exact row_spec _ 259 (by decide) (by decide) _ _

theorem row_766 : IsRows (wfd m c) 766 (R m c main_v1795 : S1x1024.Idx → EReal) := by
  have e1 := (Stretch.writesFrom (F := Ideal)).read_unary 1795 (x := main_v771) (y := main_v1795) rfl (fun _ => by decide) (fun b => m (c, b))
  have e2 := (Stretch.writesFrom (F := Ideal)).read_unary 771 (x := main_v4) (y := main_v771) rfl (fun _ => by decide) (fun b => m (c, b))
  unfold R
  rw [e1, e2]
  exact row_spec _ 258 (by decide) (by decide) _ _

theorem row_767 : IsRows (wfd m c) 767 (R m c main_v1796 : S1x1024.Idx → EReal) := by
  have e1 := (Stretch.writesFrom (F := Ideal)).read_unary 1796 (x := main_v772) (y := main_v1796) rfl (fun _ => by decide) (fun b => m (c, b))
  have e2 := (Stretch.writesFrom (F := Ideal)).read_unary 772 (x := main_v4) (y := main_v772) rfl (fun _ => by decide) (fun b => m (c, b))
  unfold R
  rw [e1, e2]
  exact row_spec _ 257 (by decide) (by decide) _ _

end Cert.KernelIdeal.Circ

end
-- ==== Proof.CircBlock2.lean ====
/-
  Rows 512 to 767 of the circulant, stacked: sixteen stacks of sixteen rows, then those sixteen blocks stacked.
  Each stack is read off its own concatenation of the host stretch; the rows (or blocks) stacked are consecutive rows of
  the matrix whose every row is the one above shifted one place to the right, so the stack is too.
-/
import proofs.«163274_j17575006175271_2_alg».proof.Proof.CircRows4
import proofs.«163274_j17575006175271_2_alg».proof.Proof.CircRows5
import proofs.«163274_j17575006175271_2_alg».proof.Proof.LibRowStackArgs

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem c1_32 : IsRows (wfd m c) 512 (R m c main_v2085 : S16x1024.Idx → EReal) := by
  have e := (Stretch.writesFrom (F := Ideal)).read_nary 2085 (y := main_v2085) rfl (by decide) (fun b => m (c, b))
  unfold R
  rw [e]
  exact stack16_rows (wfd m c) 512 _ _ _ _ _ _ _ _ _ _ _ _ _ _ _ _ _
    (row_512 m c) (row_513 m c) (row_514 m c) (row_515 m c) (row_516 m c) (row_517 m c) (row_518 m c) (row_519 m c) (row_520 m c) (row_521 m c) (row_522 m c) (row_523 m c) (row_524 m c) (row_525 m c) (row_526 m c) (row_527 m c)

theorem c1_33 : IsRows (wfd m c) 528 (R m c main_v2086 : S16x1024.Idx → EReal) := by
  have e := (Stretch.writesFrom (F := Ideal)).read_nary 2086 (y := main_v2086) rfl (by decide) (fun b => m (c, b))
  unfold R
  rw [e]
  exact stack16_rows (wfd m c) 528 _ _ _ _ _ _ _ _ _ _ _ _ _ _ _ _ _
    (row_528 m c) (row_529 m c) (row_530 m c) (row_531 m c) (row_532 m c) (row_533 m c) (row_534 m c) (row_535 m c) (row_536 m c) (row_537 m c) (row_538 m c) (row_539 m c) (row_540 m c) (row_541 m c) (row_542 m c) (row_543 m c)

theorem c1_34 : IsRows (wfd m c) 544 (R m c main_v2087 : S16x1024.Idx → EReal) := by
  have e := (Stretch.writesFrom (F := Ideal)).read_nary 2087 (y := main_v2087) rfl (by decide) (fun b => m (c, b))
  unfold R
  rw [e]
  exact stack16_rows (wfd m c) 544 _ _ _ _ _ _ _ _ _ _ _ _ _ _ _ _ _
    (row_544 m c) (row_545 m c) (row_546 m c) (row_547 m c) (row_548 m c) (row_549 m c) (row_550 m c) (row_551 m c) (row_552 m c) (row_553 m c) (row_554 m c) (row_555 m c) (row_556 m c) (row_557 m c) (row_558 m c) (row_559 m c)

theorem c1_35 : IsRows (wfd m c) 560 (R m c main_v2088 : S16x1024.Idx → EReal) := by
  have e := (Stretch.writesFrom (F := Ideal)).read_nary 2088 (y := main_v2088) rfl (by decide) (fun b => m (c, b))
  unfold R
  rw [e]
  exact stack16_rows (wfd m c) 560 _ _ _ _ _ _ _ _ _ _ _ _ _ _ _ _ _
    (row_560 m c) (row_561 m c) (row_562 m c) (row_563 m c) (row_564 m c) (row_565 m c) (row_566 m c) (row_567 m c) (row_568 m c) (row_569 m c) (row_570 m c) (row_571 m c) (row_572 m c) (row_573 m c) (row_574 m c) (row_575 m c)

theorem c1_36 : IsRows (wfd m c) 576 (R m c main_v2089 : S16x1024.Idx → EReal) := by
  have e := (Stretch.writesFrom (F := Ideal)).read_nary 2089 (y := main_v2089) rfl (by decide) (fun b => m (c, b))
  unfold R
  rw [e]
  exact stack16_rows (wfd m c) 576 _ _ _ _ _ _ _ _ _ _ _ _ _ _ _ _ _
    (row_576 m c) (row_577 m c) (row_578 m c) (row_579 m c) (row_580 m c) (row_581 m c) (row_582 m c) (row_583 m c) (row_584 m c) (row_585 m c) (row_586 m c) (row_587 m c) (row_588 m c) (row_589 m c) (row_590 m c) (row_591 m c)

theorem c1_37 : IsRows (wfd m c) 592 (R m c main_v2090 : S16x1024.Idx → EReal) := by
  have e := (Stretch.writesFrom (F := Ideal)).read_nary 2090 (y := main_v2090) rfl (by decide) (fun b => m (c, b))
  unfold R
  rw [e]
  exact stack16_rows (wfd m c) 592 _ _ _ _ _ _ _ _ _ _ _ _ _ _ _ _ _
    (row_592 m c) (row_593 m c) (row_594 m c) (row_595 m c) (row_596 m c) (row_597 m c) (row_598 m c) (row_599 m c) (row_600 m c) (row_601 m c) (row_602 m c) (row_603 m c) (row_604 m c) (row_605 m c) (row_606 m c) (row_607 m c)

theorem c1_38 : IsRows (wfd m c) 608 (R m c main_v2091 : S16x1024.Idx → EReal) := by
  have e := (Stretch.writesFrom (F := Ideal)).read_nary 2091 (y := main_v2091) rfl (by decide) (fun b => m (c, b))
  unfold R
  rw [e]
  exact stack16_rows (wfd m c) 608 _ _ _ _ _ _ _ _ _ _ _ _ _ _ _ _ _
    (row_608 m c) (row_609 m c) (row_610 m c) (row_611 m c) (row_612 m c) (row_613 m c) (row_614 m c) (row_615 m c) (row_616 m c) (row_617 m c) (row_618 m c) (row_619 m c) (row_620 m c) (row_621 m c) (row_622 m c) (row_623 m c)

theorem c1_39 : IsRows (wfd m c) 624 (R m c main_v2092 : S16x1024.Idx → EReal) := by
  have e := (Stretch.writesFrom (F := Ideal)).read_nary 2092 (y := main_v2092) rfl (by decide) (fun b => m (c, b))
  unfold R
  rw [e]
  exact stack16_rows (wfd m c) 624 _ _ _ _ _ _ _ _ _ _ _ _ _ _ _ _ _
    (row_624 m c) (row_625 m c) (row_626 m c) (row_627 m c) (row_628 m c) (row_629 m c) (row_630 m c) (row_631 m c) (row_632 m c) (row_633 m c) (row_634 m c) (row_635 m c) (row_636 m c) (row_637 m c) (row_638 m c) (row_639 m c)

theorem c1_40 : IsRows (wfd m c) 640 (R m c main_v2093 : S16x1024.Idx → EReal) := by
  have e := (Stretch.writesFrom (F := Ideal)).read_nary 2093 (y := main_v2093) rfl (by decide) (fun b => m (c, b))
  unfold R
  rw [e]
  exact stack16_rows (wfd m c) 640 _ _ _ _ _ _ _ _ _ _ _ _ _ _ _ _ _
    (row_640 m c) (row_641 m c) (row_642 m c) (row_643 m c) (row_644 m c) (row_645 m c) (row_646 m c) (row_647 m c) (row_648 m c) (row_649 m c) (row_650 m c) (row_651 m c) (row_652 m c) (row_653 m c) (row_654 m c) (row_655 m c)

theorem c1_41 : IsRows (wfd m c) 656 (R m c main_v2094 : S16x1024.Idx → EReal) := by
  have e := (Stretch.writesFrom (F := Ideal)).read_nary 2094 (y := main_v2094) rfl (by decide) (fun b => m (c, b))
  unfold R
  rw [e]
  exact stack16_rows (wfd m c) 656 _ _ _ _ _ _ _ _ _ _ _ _ _ _ _ _ _
    (row_656 m c) (row_657 m c) (row_658 m c) (row_659 m c) (row_660 m c) (row_661 m c) (row_662 m c) (row_663 m c) (row_664 m c) (row_665 m c) (row_666 m c) (row_667 m c) (row_668 m c) (row_669 m c) (row_670 m c) (row_671 m c)

theorem c1_42 : IsRows (wfd m c) 672 (R m c main_v2095 : S16x1024.Idx → EReal) := by
  have e := (Stretch.writesFrom (F := Ideal)).read_nary 2095 (y := main_v2095) rfl (by decide) (fun b => m (c, b))
  unfold R
  rw [e]
  exact stack16_rows (wfd m c) 672 _ _ _ _ _ _ _ _ _ _ _ _ _ _ _ _ _
    (row_672 m c) (row_673 m c) (row_674 m c) (row_675 m c) (row_676 m c) (row_677 m c) (row_678 m c) (row_679 m c) (row_680 m c) (row_681 m c) (row_682 m c) (row_683 m c) (row_684 m c) (row_685 m c) (row_686 m c) (row_687 m c)

theorem c1_43 : IsRows (wfd m c) 688 (R m c main_v2096 : S16x1024.Idx → EReal) := by
  have e := (Stretch.writesFrom (F := Ideal)).read_nary 2096 (y := main_v2096) rfl (by decide) (fun b => m (c, b))
  unfold R
  rw [e]
  exact stack16_rows (wfd m c) 688 _ _ _ _ _ _ _ _ _ _ _ _ _ _ _ _ _
    (row_688 m c) (row_689 m c) (row_690 m c) (row_691 m c) (row_692 m c) (row_693 m c) (row_694 m c) (row_695 m c) (row_696 m c) (row_697 m c) (row_698 m c) (row_699 m c) (row_700 m c) (row_701 m c) (row_702 m c) (row_703 m c)

theorem c1_44 : IsRows (wfd m c) 704 (R m c main_v2097 : S16x1024.Idx → EReal) := by
  have e := (Stretch.writesFrom (F := Ideal)).read_nary 2097 (y := main_v2097) rfl (by decide) (fun b => m (c, b))
  unfold R
  rw [e]
  exact stack16_rows (wfd m c) 704 _ _ _ _ _ _ _ _ _ _ _ _ _ _ _ _ _
    (row_704 m c) (row_705 m c) (row_706 m c) (row_707 m c) (row_708 m c) (row_709 m c) (row_710 m c) (row_711 m c) (row_712 m c) (row_713 m c) (row_714 m c) (row_715 m c) (row_716 m c) (row_717 m c) (row_718 m c) (row_719 m c)

theorem c1_45 : IsRows (wfd m c) 720 (R m c main_v2098 : S16x1024.Idx → EReal) := by
  have e := (Stretch.writesFrom (F := Ideal)).read_nary 2098 (y := main_v2098) rfl (by decide) (fun b => m (c, b))
  unfold R
  rw [e]
  exact stack16_rows (wfd m c) 720 _ _ _ _ _ _ _ _ _ _ _ _ _ _ _ _ _
    (row_720 m c) (row_721 m c) (row_722 m c) (row_723 m c) (row_724 m c) (row_725 m c) (row_726 m c) (row_727 m c) (row_728 m c) (row_729 m c) (row_730 m c) (row_731 m c) (row_732 m c) (row_733 m c) (row_734 m c) (row_735 m c)

theorem c1_46 : IsRows (wfd m c) 736 (R m c main_v2099 : S16x1024.Idx → EReal) := by
  have e := (Stretch.writesFrom (F := Ideal)).read_nary 2099 (y := main_v2099) rfl (by decide) (fun b => m (c, b))
  unfold R
  rw [e]
  exact stack16_rows (wfd m c) 736 _ _ _ _ _ _ _ _ _ _ _ _ _ _ _ _ _
    (row_736 m c) (row_737 m c) (row_738 m c) (row_739 m c) (row_740 m c) (row_741 m c) (row_742 m c) (row_743 m c) (row_744 m c) (row_745 m c) (row_746 m c) (row_747 m c) (row_748 m c) (row_749 m c) (row_750 m c) (row_751 m c)

theorem c1_47 : IsRows (wfd m c) 752 (R m c main_v2100 : S16x1024.Idx → EReal) := by
  have e := (Stretch.writesFrom (F := Ideal)).read_nary 2100 (y := main_v2100) rfl (by decide) (fun b => m (c, b))
  unfold R
  rw [e]
  exact stack16_rows (wfd m c) 752 _ _ _ _ _ _ _ _ _ _ _ _ _ _ _ _ _
    (row_752 m c) (row_753 m c) (row_754 m c) (row_755 m c) (row_756 m c) (row_757 m c) (row_758 m c) (row_759 m c) (row_760 m c) (row_761 m c) (row_762 m c) (row_763 m c) (row_764 m c) (row_765 m c) (row_766 m c) (row_767 m c)

theorem c2_2 : IsRows (wfd m c) 512 (R m c main_v2119 : S256x1024.Idx → EReal) := by
  have e := (Stretch.writesFrom (F := Ideal)).read_nary 2119 (y := main_v2119) rfl (by decide) (fun b => m (c, b))
  unfold R
  rw [e]
  exact stack16_blocks (wfd m c) 512 _ _ _ _ _ _ _ _ _ _ _ _ _ _ _ _ _
    (c1_32 m c) (c1_33 m c) (c1_34 m c) (c1_35 m c) (c1_36 m c) (c1_37 m c) (c1_38 m c) (c1_39 m c) (c1_40 m c) (c1_41 m c) (c1_42 m c) (c1_43 m c) (c1_44 m c) (c1_45 m c) (c1_46 m c) (c1_47 m c)

end Cert.KernelIdeal.Circ

end
-- ==== Proof.CircRows6.lean ====
/-
  Rows 768 to 895 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_768 : IsRows (wfd m c) 768 (R m c main_v1797 : S1x1024.Idx → EReal) := by
  have e1 := (Stretch.writesFrom (F := Ideal)).read_unary 1797 (x := main_v773) (y := main_v1797) rfl (fun _ => by decide) (fun b => m (c, b))
  have e2 := (Stretch.writesFrom (F := Ideal)).read_unary 773 (x := main_v4) (y := main_v773) rfl (fun _ => by decide) (fun b => m (c, b))
  unfold R
  rw [e1, e2]
  exact row_spec _ 256 (by decide) (by decide) _ _

theorem row_769 : IsRows (wfd m c) 769 (R m c main_v1798 : S1x1024.Idx → EReal) := by
  have e1 := (Stretch.writesFrom (F := Ideal)).read_unary 1798 (x := main_v774) (y := main_v1798) rfl (fun _ => by decide) (fun b => m (c, b))
  have e2 := (Stretch.writesFrom (F := Ideal)).read_unary 774 (x := main_v4) (y := main_v774) rfl (fun _ => by decide) (fun b => m (c, b))
  unfold R
  rw [e1, e2]
  exact row_spec _ 255 (by decide) (by decide) _ _

theorem row_770 : IsRows (wfd m c) 770 (R m c main_v1799 : S1x1024.Idx → EReal) := by
  have e1 := (Stretch.writesFrom (F := Ideal)).read_unary 1799 (x := main_v775) (y := main_v1799) rfl (fun _ => by decide) (fun b => m (c, b))
  have e2 := (Stretch.writesFrom (F := Ideal)).read_unary 775 (x := main_v4) (y := main_v775) rfl (fun _ => by decide) (fun b => m (c, b))
  unfold R
  rw [e1, e2]
  exact row_spec _ 254 (by decide) (by decide) _ _

theorem row_771 : IsRows (wfd m c) 771 (R m c main_v1800 : S1x1024.Idx → EReal) := by
  have e1 := (Stretch.writesFrom (F := Ideal)).read_unary 1800 (x := main_v776) (y := main_v1800) rfl (fun _ => by decide) (fun b => m (c, b))
  have e2 := (Stretch.writesFrom (F := Ideal)).read_unary 776 (x := main_v4) (y := main_v776) rfl (fun _ => by decide) (fun b => m (c, b))
  unfold R
  rw [e1, e2]
  exact row_spec _ 253 (by decide) (by decide) _ _

theorem row_772 : IsRows (wfd m c) 772 (R m c main_v1801 : S1x1024.Idx → EReal) := by
  have e1 := (Stretch.writesFrom (F := Ideal)).read_unary 1801 (x := main_v777) (y := main_v1801) rfl (fun _ => by decide) (fun b => m (c, b))
  have e2 := (Stretch.writesFrom (F := Ideal)).read_unary 777 (x := main_v4) (y := main_v777) rfl (fun _ => by decide) (fun b => m (c, b))
  unfold R
  rw [e1, e2]
  exact row_spec _ 252 (by decide) (by decide) _ _

theorem row_773 : IsRows (wfd m c) 773 (R m c main_v1802 : S1x1024.Idx → EReal) := by
  have e1 := (Stretch.writesFrom (F := Ideal)).read_unary 1802 (x := main_v778) (y := main_v1802) rfl (fun _ => by decide) (fun b => m (c, b))
  have e2 := (Stretch.writesFrom (F := Ideal)).read_unary 778 (x := main_v4) (y := main_v778) rfl (fun _ => by decide) (fun b => m (c, b))
  unfold R
  rw [e1, e2]
  exact row_spec _ 251 (by decide) (by decide) _ _

theorem row_774 : IsRows (wfd m c) 774 (R m c main_v1803 : S1x1024.Idx → EReal) := by
  have e1 := (Stretch.writesFrom (F := Ideal)).read_unary 1803 (x := main_v779) (y := main_v1803) rfl (fun _ => by decide) (fun b => m (c, b))
  have e2 := (Stretch.writesFrom (F := Ideal)).read_unary 779 (x := main_v4) (y := main_v779) rfl (fun _ => by decide) (fun b => m (c, b))
  unfold R
  rw [e1, e2]
  exact row_spec _ 250 (by decide) (by decide) _ _

theorem row_775 : IsRows (wfd m c) 775 (R m c main_v1804 : S1x1024.Idx → EReal) := by
  have e1 := (Stretch.writesFrom (F := Ideal)).read_unary 1804 (x := main_v780) (y := main_v1804) rfl (fun _ => by decide) (fun b => m (c, b))
  have e2 := (Stretch.writesFrom (F := Ideal)).read_unary 780 (x := main_v4) (y := main_v780) rfl (fun _ => by decide) (fun b => m (c, b))
  unfold R
  rw [e1, e2]
  exact row_spec _ 249 (by decide) (by decide) _ _

theorem row_776 : IsRows (wfd m c) 776 (R m c main_v1805 : S1x1024.Idx → EReal) := by
  have e1 := (Stretch.writesFrom (F := Ideal)).read_unary 1805 (x := main_v781) (y := main_v1805) rfl (fun _ => by decide) (fun b => m (c, b))
  have e2 := (Stretch.writesFrom (F := Ideal)).read_unary 781 (x := main_v4) (y := main_v781) rfl (fun _ => by decide) (fun b => m (c, b))
  unfold R
  rw [e1, e2]
  exact row_spec _ 248 (by decide) (by decide) _ _

theorem row_777 : IsRows (wfd m c) 777 (R m c main_v1806 : S1x1024.Idx → EReal) := by
  have e1 := (Stretch.writesFrom (F := Ideal)).read_unary 1806 (x := main_v782) (y := main_v1806) rfl (fun _ => by decide) (fun b => m (c, b))
  have e2 := (Stretch.writesFrom (F := Ideal)).read_unary 782 (x := main_v4) (y := main_v782) rfl (fun _ => by decide) (fun b => m (c, b))
  unfold R
  rw [e1, e2]
  exact row_spec _ 247 (by decide) (by decide) _ _

theorem row_778 : IsRows (wfd m c) 778 (R m c main_v1807 : S1x1024.Idx → EReal) := by
  have e1 := (Stretch.writesFrom (F := Ideal)).read_unary 1807 (x := main_v783) (y := main_v1807) rfl (fun _ => by decide) (fun b => m (c, b))
  have e2 := (Stretch.writesFrom (F := Ideal)).read_unary 783 (x := main_v4) (y := main_v783) rfl (fun _ => by decide) (fun b => m (c, b))
  unfold R
  rw [e1, e2]
  exact row_spec _ 246 (by decide) (by decide) _ _

theorem row_779 : IsRows (wfd m c) 779 (R m c main_v1808 : S1x1024.Idx → EReal) := by
  have e1 := (Stretch.writesFrom (F := Ideal)).read_unary 1808 (x := main_v784) (y := main_v1808) rfl (fun _ => by decide) (fun b => m (c, b))
  have e2 := (Stretch.writesFrom (F := Ideal)).read_unary 784 (x := main_v4) (y := main_v784) rfl (fun _ => by decide) (fun b => m (c, b))
  unfold R
  rw [e1, e2]
  exact row_spec _ 245 (by decide) (by decide) _ _

theorem row_780 : IsRows (wfd m c) 780 (R m c main_v1809 : S1x1024.Idx → EReal) := by
  have e1 := (Stretch.writesFrom (F := Ideal)).read_unary 1809 (x := main_v785) (y := main_v1809) rfl (fun _ => by decide) (fun b => m (c, b))
  have e2 := (Stretch.writesFrom (F := Ideal)).read_unary 785 (x := main_v4) (y := main_v785) rfl (fun _ => by decide) (fun b => m (c, b))
  unfold R
  rw [e1, e2]
  exact row_spec _ 244 (by decide) (by decide) _ _

theorem row_781 : IsRows (wfd m c) 781 (R m c main_v1810 : S1x1024.Idx → EReal) := by
  have e1 := (Stretch.writesFrom (F := Ideal)).read_unary 1810 (x := main_v786) (y := main_v1810) rfl (fun _ => by decide) (fun b => m (c, b))
  have e2 := (Stretch.writesFrom (F := Ideal)).read_unary 786 (x := main_v4) (y := main_v786) rfl (fun _ => by decide) (fun b => m (c, b))
  unfold R
  rw [e1, e2]
  exact row_spec _ 243 (by decide) (by decide) _ _

theorem row_782 : IsRows (wfd m c) 782 (R m c main_v1811 : S1x1024.Idx → EReal) := by
  have e1 := (Stretch.writesFrom (F := Ideal)).read_unary 1811 (x := main_v787) (y := main_v1811) rfl (fun _ => by decide) (fun b => m (c, b))
  have e2 := (Stretch.writesFrom (F := Ideal)).read_unary 787 (x := main_v4) (y := main_v787) rfl (fun _ => by decide) (fun b => m (c, b))
  unfold R
  rw [e1, e2]
  exact row_spec _ 242 (by decide) (by decide) _ _

theorem row_783 : IsRows (wfd m c) 783 (R m c main_v1812 : S1x1024.Idx → EReal) := by
  have e1 := (Stretch.writesFrom (F := Ideal)).read_unary 1812 (x := main_v788) (y := main_v1812) rfl (fun _ => by decide) (fun b => m (c, b))
  have e2 := (Stretch.writesFrom (F := Ideal)).read_unary 788 (x := main_v4) (y := main_v788) rfl (fun _ => by decide) (fun b => m (c, b))
  unfold R
  rw [e1, e2]
  exact row_spec _ 241 (by decide) (by decide) _ _

theorem row_784 : IsRows (wfd m c) 784 (R m c main_v1813 : S1x1024.Idx → EReal) := by
  have e1 := (Stretch.writesFrom (F := Ideal)).read_unary 1813 (x := main_v789) (y := main_v1813) rfl (fun _ => by decide) (fun b => m (c, b))
  have e2 := (Stretch.writesFrom (F := Ideal)).read_unary 789 (x := main_v4) (y := main_v789) rfl (fun _ => by decide) (fun b => m (c, b))
  unfold R
  rw [e1, e2]
  exact row_spec _ 240 (by decide) (by decide) _ _

theorem row_785 : IsRows (wfd m c) 785 (R m c main_v1814 : S1x1024.Idx → EReal) := by
  have e1 := (Stretch.writesFrom (F := Ideal)).read_unary 1814 (x := main_v790) (y := main_v1814) rfl (fun _ => by decide) (fun b => m (c, b))
  have e2 := (Stretch.writesFrom (F := Ideal)).read_unary 790 (x := main_v4) (y := main_v790) rfl (fun _ => by decide) (fun b => m (c, b))
  unfold R
  rw [e1, e2]
  exact row_spec _ 239 (by decide) (by decide) _ _

theorem row_786 : IsRows (wfd m c) 786 (R m c main_v1815 : S1x1024.Idx → EReal) := by
  have e1 := (Stretch.writesFrom (F := Ideal)).read_unary 1815 (x := main_v791) (y := main_v1815) rfl (fun _ => by decide) (fun b => m (c, b))
  have e2 := (Stretch.writesFrom (F := Ideal)).read_unary 791 (x := main_v4) (y := main_v791) rfl (fun _ => by decide) (fun b => m (c, b))
  unfold R
  rw [e1, e2]
  exact row_spec _ 238 (by decide) (by decide) _ _

theorem row_787 : IsRows (wfd m c) 787 (R m c main_v1816 : S1x1024.Idx → EReal) := by
  have e1 := (Stretch.writesFrom (F := Ideal)).read_unary 1816 (x := main_v792) (y := main_v1816) rfl (fun _ => by decide) (fun b => m (c, b))
  have e2 := (Stretch.writesFrom (F := Ideal)).read_unary 792 (x := main_v4) (y := main_v792) rfl (fun _ => by decide) (fun b => m (c, b))
  unfold R
  rw [e1, e2]
  exact row_spec _ 237 (by decide) (by decide) _ _

theorem row_788 : IsRows (wfd m c) 788 (R m c main_v1817 : S1x1024.Idx → EReal) := by
  have e1 := (Stretch.writesFrom (F := Ideal)).read_unary 1817 (x := main_v793) (y := main_v1817) rfl (fun _ => by decide) (fun b => m (c, b))
  have e2 := (Stretch.writesFrom (F := Ideal)).read_unary 793 (x := main_v4) (y := main_v793) rfl (fun _ => by decide) (fun b => m (c, b))
  unfold R
  rw [e1, e2]
  exact row_spec _ 236 (by decide) (by decide) _ _

theorem row_789 : IsRows (wfd m c) 789 (R m c main_v1818 : S1x1024.Idx → EReal) := by
  have e1 := (Stretch.writesFrom (F := Ideal)).read_unary 1818 (x := main_v794) (y := main_v1818) rfl (fun _ => by decide) (fun b => m (c, b))
  have e2 := (Stretch.writesFrom (F := Ideal)).read_unary 794 (x := main_v4) (y := main_v794) rfl (fun _ => by decide) (fun b => m (c, b))
  unfold R
  rw [e1, e2]
  exact row_spec _ 235 (by decide) (by decide) _ _

theorem row_790 : IsRows (wfd m c) 790 (R m c main_v1819 : S1x1024.Idx → EReal) := by
  have e1 := (Stretch.writesFrom (F := Ideal)).read_unary 1819 (x := main_v795) (y := main_v1819) rfl (fun _ => by decide) (fun b => m (c, b))
  have e2 := (Stretch.writesFrom (F := Ideal)).read_unary 795 (x := main_v4) (y := main_v795) rfl (fun _ => by decide) (fun b => m (c, b))
  unfold R
  rw [e1, e2]
  exact row_spec _ 234 (by decide) (by decide) _ _

theorem row_791 : IsRows (wfd m c) 791 (R m c main_v1820 : S1x1024.Idx → EReal) := by
  have e1 := (Stretch.writesFrom (F := Ideal)).read_unary 1820 (x := main_v796) (y := main_v1820) rfl (fun _ => by decide) (fun b => m (c, b))
  have e2 := (Stretch.writesFrom (F := Ideal)).read_unary 796 (x := main_v4) (y := main_v796) rfl (fun _ => by decide) (fun b => m (c, b))
  unfold R
  rw [e1, e2]
  exact row_spec _ 233 (by decide) (by decide) _ _

theorem row_792 : IsRows (wfd m c) 792 (R m c main_v1821 : S1x1024.Idx → EReal) := by
  have e1 := (Stretch.writesFrom (F := Ideal)).read_unary 1821 (x := main_v797) (y := main_v1821) rfl (fun _ => by decide) (fun b => m (c, b))
  have e2 := (Stretch.writesFrom (F := Ideal)).read_unary 797 (x := main_v4) (y := main_v797) rfl (fun _ => by decide) (fun b => m (c, b))
  unfold R
  rw [e1, e2]
  exact row_spec _ 232 (by decide) (by decide) _ _

theorem row_793 : IsRows (wfd m c) 793 (R m c main_v1822 : S1x1024.Idx → EReal) := by
  have e1 := (Stretch.writesFrom (F := Ideal)).read_unary 1822 (x := main_v798) (y := main_v1822) rfl (fun _ => by decide) (fun b => m (c, b))
  have e2 := (Stretch.writesFrom (F := Ideal)).read_unary 798 (x := main_v4) (y := main_v798) rfl (fun _ => by decide) (fun b => m (c, b))
  unfold R
  rw [e1, e2]
  exact row_spec _ 231 (by decide) (by decide) _ _

theorem row_794 : IsRows (wfd m c) 794 (R m c main_v1823 : S1x1024.Idx → EReal) := by
  have e1 := (Stretch.writesFrom (F := Ideal)).read_unary 1823 (x := main_v799) (y := main_v1823) rfl (fun _ => by decide) (fun b => m (c, b))
  have e2 := (Stretch.writesFrom (F := Ideal)).read_unary 799 (x := main_v4) (y := main_v799) rfl (fun _ => by decide) (fun b => m (c, b))
  unfold R
  rw [e1, e2]
  exact row_spec _ 230 (by decide) (by decide) _ _

theorem row_795 : IsRows (wfd m c) 795 (R m c main_v1824 : S1x1024.Idx → EReal) := by
  have e1 := (Stretch.writesFrom (F := Ideal)).read_unary 1824 (x := main_v800) (y := main_v1824) rfl (fun _ => by decide) (fun b => m (c, b))
  have e2 := (Stretch.writesFrom (F := Ideal)).read_unary 800 (x := main_v4) (y := main_v800) rfl (fun _ => by decide) (fun b => m (c, b))
  unfold R
  rw [e1, e2]
  exact row_spec _ 229 (by decide) (by decide) _ _

theorem row_796 : IsRows (wfd m c) 796 (R m c main_v1825 : S1x1024.Idx → EReal) := by
  have e1 := (Stretch.writesFrom (F := Ideal)).read_unary 1825 (x := main_v801) (y := main_v1825) rfl (fun _ => by decide) (fun b => m (c, b))
  have e2 := (Stretch.writesFrom (F := Ideal)).read_unary 801 (x := main_v4) (y := main_v801) rfl (fun _ => by decide) (fun b => m (c, b))
  unfold R
  rw [e1, e2]
  exact row_spec _ 228 (by decide) (by decide) _ _

theorem row_797 : IsRows (wfd m c) 797 (R m c main_v1826 : S1x1024.Idx → EReal) := by
  have e1 := (Stretch.writesFrom (F := Ideal)).read_unary 1826 (x := main_v802) (y := main_v1826) rfl (fun _ => by decide) (fun b => m (c, b))
  have e2 := (Stretch.writesFrom (F := Ideal)).read_unary 802 (x := main_v4) (y := main_v802) rfl (fun _ => by decide) (fun b => m (c, b))
  unfold R
  rw [e1, e2]
  exact row_spec _ 227 (by decide) (by decide) _ _

theorem row_798 : IsRows (wfd m c) 798 (R m c main_v1827 : S1x1024.Idx → EReal) := by
  have e1 := (Stretch.writesFrom (F := Ideal)).read_unary 1827 (x := main_v803) (y := main_v1827) rfl (fun _ => by decide) (fun b => m (c, b))
  have e2 := (Stretch.writesFrom (F := Ideal)).read_unary 803 (x := main_v4) (y := main_v803) rfl (fun _ => by decide) (fun b => m (c, b))
  unfold R
  rw [e1, e2]
  exact row_spec _ 226 (by decide) (by decide) _ _

theorem row_799 : IsRows (wfd m c) 799 (R m c main_v1828 : S1x1024.Idx → EReal) := by
  have e1 := (Stretch.writesFrom (F := Ideal)).read_unary 1828 (x := main_v804) (y := main_v1828) rfl (fun _ => by decide) (fun b => m (c, b))
  have e2 := (Stretch.writesFrom (F := Ideal)).read_unary 804 (x := main_v4) (y := main_v804) rfl (fun _ => by decide) (fun b => m (c, b))
  unfold R
  rw [e1, e2]
  exact row_spec _ 225 (by decide) (by decide) _ _

theorem row_800 : IsRows (wfd m c) 800 (R m c main_v1829 : S1x1024.Idx → EReal) := by
  have e1 := (Stretch.writesFrom (F := Ideal)).read_unary 1829 (x := main_v805) (y := main_v1829) rfl (fun _ => by decide) (fun b => m (c, b))
  have e2 := (Stretch.writesFrom (F := Ideal)).read_unary 805 (x := main_v4) (y := main_v805) rfl (fun _ => by decide) (fun b => m (c, b))
  unfold R
  rw [e1, e2]
  exact row_spec _ 224 (by decide) (by decide) _ _

theorem row_801 : IsRows (wfd m c) 801 (R m c main_v1830 : S1x1024.Idx → EReal) := by
  have e1 := (Stretch.writesFrom (F := Ideal)).read_unary 1830 (x := main_v806) (y := main_v1830) rfl (fun _ => by decide) (fun b => m (c, b))
  have e2 := (Stretch.writesFrom (F := Ideal)).read_unary 806 (x := main_v4) (y := main_v806) rfl (fun _ => by decide) (fun b => m (c, b))
  unfold R
  rw [e1, e2]
  exact row_spec _ 223 (by decide) (by decide) _ _

theorem row_802 : IsRows (wfd m c) 802 (R m c main_v1831 : S1x1024.Idx → EReal) := by
  have e1 := (Stretch.writesFrom (F := Ideal)).read_unary 1831 (x := main_v807) (y := main_v1831) rfl (fun _ => by decide) (fun b => m (c, b))
  have e2 := (Stretch.writesFrom (F := Ideal)).read_unary 807 (x := main_v4) (y := main_v807) rfl (fun _ => by decide) (fun b => m (c, b))
  unfold R
  rw [e1, e2]
  exact row_spec _ 222 (by decide) (by decide) _ _

theorem row_803 : IsRows (wfd m c) 803 (R m c main_v1832 : S1x1024.Idx → EReal) := by
  have e1 := (Stretch.writesFrom (F := Ideal)).read_unary 1832 (x := main_v808) (y := main_v1832) rfl (fun _ => by decide) (fun b => m (c, b))
  have e2 := (Stretch.writesFrom (F := Ideal)).read_unary 808 (x := main_v4) (y := main_v808) rfl (fun _ => by decide) (fun b => m (c, b))
  unfold R
  rw [e1, e2]
  exact row_spec _ 221 (by decide) (by decide) _ _

theorem row_804 : IsRows (wfd m c) 804 (R m c main_v1833 : S1x1024.Idx → EReal) := by
  have e1 := (Stretch.writesFrom (F := Ideal)).read_unary 1833 (x := main_v809) (y := main_v1833) rfl (fun _ => by decide) (fun b => m (c, b))
  have e2 := (Stretch.writesFrom (F := Ideal)).read_unary 809 (x := main_v4) (y := main_v809) rfl (fun _ => by decide) (fun b => m (c, b))
  unfold R
  rw [e1, e2]
  exact row_spec _ 220 (by decide) (by decide) _ _

theorem row_805 : IsRows (wfd m c) 805 (R m c main_v1834 : S1x1024.Idx → EReal) := by
  have e1 := (Stretch.writesFrom (F := Ideal)).read_unary 1834 (x := main_v810) (y := main_v1834) rfl (fun _ => by decide) (fun b => m (c, b))
  have e2 := (Stretch.writesFrom (F := Ideal)).read_unary 810 (x := main_v4) (y := main_v810) rfl (fun _ => by decide) (fun b => m (c, b))
  unfold R
  rw [e1, e2]
  exact row_spec _ 219 (by decide) (by decide) _ _

theorem row_806 : IsRows (wfd m c) 806 (R m c main_v1835 : S1x1024.Idx → EReal) := by
  have e1 := (Stretch.writesFrom (F := Ideal)).read_unary 1835 (x := main_v811) (y := main_v1835) rfl (fun _ => by decide) (fun b => m (c, b))
  have e2 := (Stretch.writesFrom (F := Ideal)).read_unary 811 (x := main_v4) (y := main_v811) rfl (fun _ => by decide) (fun b => m (c, b))
  unfold R
  rw [e1, e2]
  exact row_spec _ 218 (by decide) (by decide) _ _

theorem row_807 : IsRows (wfd m c) 807 (R m c main_v1836 : S1x1024.Idx → EReal) := by
  have e1 := (Stretch.writesFrom (F := Ideal)).read_unary 1836 (x := main_v812) (y := main_v1836) rfl (fun _ => by decide) (fun b => m (c, b))
  have e2 := (Stretch.writesFrom (F := Ideal)).read_unary 812 (x := main_v4) (y := main_v812) rfl (fun _ => by decide) (fun b => m (c, b))
  unfold R
  rw [e1, e2]
  exact row_spec _ 217 (by decide) (by decide) _ _

theorem row_808 : IsRows (wfd m c) 808 (R m c main_v1837 : S1x1024.Idx → EReal) := by
  have e1 := (Stretch.writesFrom (F := Ideal)).read_unary 1837 (x := main_v813) (y := main_v1837) rfl (fun _ => by decide) (fun b => m (c, b))
  have e2 := (Stretch.writesFrom (F := Ideal)).read_unary 813 (x := main_v4) (y := main_v813) rfl (fun _ => by decide) (fun b => m (c, b))
  unfold R
  rw [e1, e2]
  exact row_spec _ 216 (by decide) (by decide) _ _

theorem row_809 : IsRows (wfd m c) 809 (R m c main_v1838 : S1x1024.Idx → EReal) := by
  have e1 := (Stretch.writesFrom (F := Ideal)).read_unary 1838 (x := main_v814) (y := main_v1838) rfl (fun _ => by decide) (fun b => m (c, b))
  have e2 := (Stretch.writesFrom (F := Ideal)).read_unary 814 (x := main_v4) (y := main_v814) rfl (fun _ => by decide) (fun b => m (c, b))
  unfold R
  rw [e1, e2]
  exact row_spec _ 215 (by decide) (by decide) _ _

theorem row_810 : IsRows (wfd m c) 810 (R m c main_v1839 : S1x1024.Idx → EReal) := by
  have e1 := (Stretch.writesFrom (F := Ideal)).read_unary 1839 (x := main_v815) (y := main_v1839) rfl (fun _ => by decide) (fun b => m (c, b))
  have e2 := (Stretch.writesFrom (F := Ideal)).read_unary 815 (x := main_v4) (y := main_v815) rfl (fun _ => by decide) (fun b => m (c, b))
  unfold R
  rw [e1, e2]
  exact row_spec _ 214 (by decide) (by decide) _ _

theorem row_811 : IsRows (wfd m c) 811 (R m c main_v1840 : S1x1024.Idx → EReal) := by
  have e1 := (Stretch.writesFrom (F := Ideal)).read_unary 1840 (x := main_v816) (y := main_v1840) rfl (fun _ => by decide) (fun b => m (c, b))
  have e2 := (Stretch.writesFrom (F := Ideal)).read_unary 816 (x := main_v4) (y := main_v816) rfl (fun _ => by decide) (fun b => m (c, b))
  unfold R
  rw [e1, e2]
  exact row_spec _ 213 (by decide) (by decide) _ _

theorem row_812 : IsRows (wfd m c) 812 (R m c main_v1841 : S1x1024.Idx → EReal) := by
  have e1 := (Stretch.writesFrom (F := Ideal)).read_unary 1841 (x := main_v817) (y := main_v1841) rfl (fun _ => by decide) (fun b => m (c, b))
  have e2 := (Stretch.writesFrom (F := Ideal)).read_unary 817 (x := main_v4) (y := main_v817) rfl (fun _ => by decide) (fun b => m (c, b))
  unfold R
  rw [e1, e2]
  exact row_spec _ 212 (by decide) (by decide) _ _

theorem row_813 : IsRows (wfd m c) 813 (R m c main_v1842 : S1x1024.Idx → EReal) := by
  have e1 := (Stretch.writesFrom (F := Ideal)).read_unary 1842 (x := main_v818) (y := main_v1842) rfl (fun _ => by decide) (fun b => m (c, b))
  have e2 := (Stretch.writesFrom (F := Ideal)).read_unary 818 (x := main_v4) (y := main_v818) rfl (fun _ => by decide) (fun b => m (c, b))
  unfold R
  rw [e1, e2]
  exact row_spec _ 211 (by decide) (by decide) _ _

theorem row_814 : IsRows (wfd m c) 814 (R m c main_v1843 : S1x1024.Idx → EReal) := by
  have e1 := (Stretch.writesFrom (F := Ideal)).read_unary 1843 (x := main_v819) (y := main_v1843) rfl (fun _ => by decide) (fun b => m (c, b))
  have e2 := (Stretch.writesFrom (F := Ideal)).read_unary 819 (x := main_v4) (y := main_v819) rfl (fun _ => by decide) (fun b => m (c, b))
  unfold R
  rw [e1, e2]
  exact row_spec _ 210 (by decide) (by decide) _ _

theorem row_815 : IsRows (wfd m c) 815 (R m c main_v1844 : S1x1024.Idx → EReal) := by
  have e1 := (Stretch.writesFrom (F := Ideal)).read_unary 1844 (x := main_v820) (y := main_v1844) rfl (fun _ => by decide) (fun b => m (c, b))
  have e2 := (Stretch.writesFrom (F := Ideal)).read_unary 820 (x := main_v4) (y := main_v820) rfl (fun _ => by decide) (fun b => m (c, b))
  unfold R
  rw [e1, e2]
  exact row_spec _ 209 (by decide) (by decide) _ _

theorem row_816 : IsRows (wfd m c) 816 (R m c main_v1845 : S1x1024.Idx → EReal) := by
  have e1 := (Stretch.writesFrom (F := Ideal)).read_unary 1845 (x := main_v821) (y := main_v1845) rfl (fun _ => by decide) (fun b => m (c, b))
  have e2 := (Stretch.writesFrom (F := Ideal)).read_unary 821 (x := main_v4) (y := main_v821) rfl (fun _ => by decide) (fun b => m (c, b))
  unfold R
  rw [e1, e2]
  exact row_spec _ 208 (by decide) (by decide) _ _

theorem row_817 : IsRows (wfd m c) 817 (R m c main_v1846 : S1x1024.Idx → EReal) := by
  have e1 := (Stretch.writesFrom (F := Ideal)).read_unary 1846 (x := main_v822) (y := main_v1846) rfl (fun _ => by decide) (fun b => m (c, b))
  have e2 := (Stretch.writesFrom (F := Ideal)).read_unary 822 (x := main_v4) (y := main_v822) rfl (fun _ => by decide) (fun b => m (c, b))
  unfold R
  rw [e1, e2]
  exact row_spec _ 207 (by decide) (by decide) _ _

theorem row_818 : IsRows (wfd m c) 818 (R m c main_v1847 : S1x1024.Idx → EReal) := by
  have e1 := (Stretch.writesFrom (F := Ideal)).read_unary 1847 (x := main_v823) (y := main_v1847) rfl (fun _ => by decide) (fun b => m (c, b))
  have e2 := (Stretch.writesFrom (F := Ideal)).read_unary 823 (x := main_v4) (y := main_v823) rfl (fun _ => by decide) (fun b => m (c, b))
  unfold R
  rw [e1, e2]
  exact row_spec _ 206 (by decide) (by decide) _ _

theorem row_819 : IsRows (wfd m c) 819 (R m c main_v1848 : S1x1024.Idx → EReal) := by
  have e1 := (Stretch.writesFrom (F := Ideal)).read_unary 1848 (x := main_v824) (y := main_v1848) rfl (fun _ => by decide) (fun b => m (c, b))
  have e2 := (Stretch.writesFrom (F := Ideal)).read_unary 824 (x := main_v4) (y := main_v824) rfl (fun _ => by decide) (fun b => m (c, b))
  unfold R
  rw [e1, e2]
  exact row_spec _ 205 (by decide) (by decide) _ _

theorem row_820 : IsRows (wfd m c) 820 (R m c main_v1849 : S1x1024.Idx → EReal) := by
  have e1 := (Stretch.writesFrom (F := Ideal)).read_unary 1849 (x := main_v825) (y := main_v1849) rfl (fun _ => by decide) (fun b => m (c, b))
  have e2 := (Stretch.writesFrom (F := Ideal)).read_unary 825 (x := main_v4) (y := main_v825) rfl (fun _ => by decide) (fun b => m (c, b))
  unfold R
  rw [e1, e2]
  exact row_spec _ 204 (by decide) (by decide) _ _

theorem row_821 : IsRows (wfd m c) 821 (R m c main_v1850 : S1x1024.Idx → EReal) := by
  have e1 := (Stretch.writesFrom (F := Ideal)).read_unary 1850 (x := main_v826) (y := main_v1850) rfl (fun _ => by decide) (fun b => m (c, b))
  have e2 := (Stretch.writesFrom (F := Ideal)).read_unary 826 (x := main_v4) (y := main_v826) rfl (fun _ => by decide) (fun b => m (c, b))
  unfold R
  rw [e1, e2]
  exact row_spec _ 203 (by decide) (by decide) _ _

theorem row_822 : IsRows (wfd m c) 822 (R m c main_v1851 : S1x1024.Idx → EReal) := by
  have e1 := (Stretch.writesFrom (F := Ideal)).read_unary 1851 (x := main_v827) (y := main_v1851) rfl (fun _ => by decide) (fun b => m (c, b))
  have e2 := (Stretch.writesFrom (F := Ideal)).read_unary 827 (x := main_v4) (y := main_v827) rfl (fun _ => by decide) (fun b => m (c, b))
  unfold R
  rw [e1, e2]
  exact row_spec _ 202 (by decide) (by decide) _ _

theorem row_823 : IsRows (wfd m c) 823 (R m c main_v1852 : S1x1024.Idx → EReal) := by
  have e1 := (Stretch.writesFrom (F := Ideal)).read_unary 1852 (x := main_v828) (y := main_v1852) rfl (fun _ => by decide) (fun b => m (c, b))
  have e2 := (Stretch.writesFrom (F := Ideal)).read_unary 828 (x := main_v4) (y := main_v828) rfl (fun _ => by decide) (fun b => m (c, b))
  unfold R
  rw [e1, e2]
  exact row_spec _ 201 (by decide) (by decide) _ _

theorem row_824 : IsRows (wfd m c) 824 (R m c main_v1853 : S1x1024.Idx → EReal) := by
  have e1 := (Stretch.writesFrom (F := Ideal)).read_unary 1853 (x := main_v829) (y := main_v1853) rfl (fun _ => by decide) (fun b => m (c, b))
  have e2 := (Stretch.writesFrom (F := Ideal)).read_unary 829 (x := main_v4) (y := main_v829) rfl (fun _ => by decide) (fun b => m (c, b))
  unfold R
  rw [e1, e2]
  exact row_spec _ 200 (by decide) (by decide) _ _

theorem row_825 : IsRows (wfd m c) 825 (R m c main_v1854 : S1x1024.Idx → EReal) := by
  have e1 := (Stretch.writesFrom (F := Ideal)).read_unary 1854 (x := main_v830) (y := main_v1854) rfl (fun _ => by decide) (fun b => m (c, b))
  have e2 := (Stretch.writesFrom (F := Ideal)).read_unary 830 (x := main_v4) (y := main_v830) rfl (fun _ => by decide) (fun b => m (c, b))
  unfold R
  rw [e1, e2]
  exact row_spec _ 199 (by decide) (by decide) _ _

theorem row_826 : IsRows (wfd m c) 826 (R m c main_v1855 : S1x1024.Idx → EReal) := by
  have e1 := (Stretch.writesFrom (F := Ideal)).read_unary 1855 (x := main_v831) (y := main_v1855) rfl (fun _ => by decide) (fun b => m (c, b))
  have e2 := (Stretch.writesFrom (F := Ideal)).read_unary 831 (x := main_v4) (y := main_v831) rfl (fun _ => by decide) (fun b => m (c, b))
  unfold R
  rw [e1, e2]
  exact row_spec _ 198 (by decide) (by decide) _ _

theorem row_827 : IsRows (wfd m c) 827 (R m c main_v1856 : S1x1024.Idx → EReal) := by
  have e1 := (Stretch.writesFrom (F := Ideal)).read_unary 1856 (x := main_v832) (y := main_v1856) rfl (fun _ => by decide) (fun b => m (c, b))
  have e2 := (Stretch.writesFrom (F := Ideal)).read_unary 832 (x := main_v4) (y := main_v832) rfl (fun _ => by decide) (fun b => m (c, b))
  unfold R
  rw [e1, e2]
  exact row_spec _ 197 (by decide) (by decide) _ _

theorem row_828 : IsRows (wfd m c) 828 (R m c main_v1857 : S1x1024.Idx → EReal) := by
  have e1 := (Stretch.writesFrom (F := Ideal)).read_unary 1857 (x := main_v833) (y := main_v1857) rfl (fun _ => by decide) (fun b => m (c, b))
  have e2 := (Stretch.writesFrom (F := Ideal)).read_unary 833 (x := main_v4) (y := main_v833) rfl (fun _ => by decide) (fun b => m (c, b))
  unfold R
  rw [e1, e2]
  exact row_spec _ 196 (by decide) (by decide) _ _

theorem row_829 : IsRows (wfd m c) 829 (R m c main_v1858 : S1x1024.Idx → EReal) := by
  have e1 := (Stretch.writesFrom (F := Ideal)).read_unary 1858 (x := main_v834) (y := main_v1858) rfl (fun _ => by decide) (fun b => m (c, b))
  have e2 := (Stretch.writesFrom (F := Ideal)).read_unary 834 (x := main_v4) (y := main_v834) rfl (fun _ => by decide) (fun b => m (c, b))
  unfold R
  rw [e1, e2]
  exact row_spec _ 195 (by decide) (by decide) _ _

theorem row_830 : IsRows (wfd m c) 830 (R m c main_v1859 : S1x1024.Idx → EReal) := by
  have e1 := (Stretch.writesFrom (F := Ideal)).read_unary 1859 (x := main_v835) (y := main_v1859) rfl (fun _ => by decide) (fun b => m (c, b))
  have e2 := (Stretch.writesFrom (F := Ideal)).read_unary 835 (x := main_v4) (y := main_v835) rfl (fun _ => by decide) (fun b => m (c, b))
  unfold R
  rw [e1, e2]
  exact row_spec _ 194 (by decide) (by decide) _ _

theorem row_831 : IsRows (wfd m c) 831 (R m c main_v1860 : S1x1024.Idx → EReal) := by
  have e1 := (Stretch.writesFrom (F := Ideal)).read_unary 1860 (x := main_v836) (y := main_v1860) rfl (fun _ => by decide) (fun b => m (c, b))
  have e2 := (Stretch.writesFrom (F := Ideal)).read_unary 836 (x := main_v4) (y := main_v836) rfl (fun _ => by decide) (fun b => m (c, b))
  unfold R
  rw [e1, e2]
  exact row_spec _ 193 (by decide) (by decide) _ _

theorem row_832 : IsRows (wfd m c) 832 (R m c main_v1861 : S1x1024.Idx → EReal) := by
  have e1 := (Stretch.writesFrom (F := Ideal)).read_unary 1861 (x := main_v837) (y := main_v1861) rfl (fun _ => by decide) (fun b => m (c, b))
  have e2 := (Stretch.writesFrom (F := Ideal)).read_unary 837 (x := main_v4) (y := main_v837) rfl (fun _ => by decide) (fun b => m (c, b))
  unfold R
  rw [e1, e2]
  exact row_spec _ 192 (by decide) (by decide) _ _

theorem row_833 : IsRows (wfd m c) 833 (R m c main_v1862 : S1x1024.Idx → EReal) := by
  have e1 := (Stretch.writesFrom (F := Ideal)).read_unary 1862 (x := main_v838) (y := main_v1862) rfl (fun _ => by decide) (fun b => m (c, b))
  have e2 := (Stretch.writesFrom (F := Ideal)).read_unary 838 (x := main_v4) (y := main_v838) rfl (fun _ => by decide) (fun b => m (c, b))
  unfold R
  rw [e1, e2]
  exact row_spec _ 191 (by decide) (by decide) _ _

theorem row_834 : IsRows (wfd m c) 834 (R m c main_v1863 : S1x1024.Idx → EReal) := by
  have e1 := (Stretch.writesFrom (F := Ideal)).read_unary 1863 (x := main_v839) (y := main_v1863) rfl (fun _ => by decide) (fun b => m (c, b))
  have e2 := (Stretch.writesFrom (F := Ideal)).read_unary 839 (x := main_v4) (y := main_v839) rfl (fun _ => by decide) (fun b => m (c, b))
  unfold R
  rw [e1, e2]
  exact row_spec _ 190 (by decide) (by decide) _ _

theorem row_835 : IsRows (wfd m c) 835 (R m c main_v1864 : S1x1024.Idx → EReal) := by
  have e1 := (Stretch.writesFrom (F := Ideal)).read_unary 1864 (x := main_v840) (y := main_v1864) rfl (fun _ => by decide) (fun b => m (c, b))
  have e2 := (Stretch.writesFrom (F := Ideal)).read_unary 840 (x := main_v4) (y := main_v840) rfl (fun _ => by decide) (fun b => m (c, b))
  unfold R
  rw [e1, e2]
  exact row_spec _ 189 (by decide) (by decide) _ _

theorem row_836 : IsRows (wfd m c) 836 (R m c main_v1865 : S1x1024.Idx → EReal) := by
  have e1 := (Stretch.writesFrom (F := Ideal)).read_unary 1865 (x := main_v841) (y := main_v1865) rfl (fun _ => by decide) (fun b => m (c, b))
  have e2 := (Stretch.writesFrom (F := Ideal)).read_unary 841 (x := main_v4) (y := main_v841) rfl (fun _ => by decide) (fun b => m (c, b))
  unfold R
  rw [e1, e2]
  exact row_spec _ 188 (by decide) (by decide) _ _

theorem row_837 : IsRows (wfd m c) 837 (R m c main_v1866 : S1x1024.Idx → EReal) := by
  have e1 := (Stretch.writesFrom (F := Ideal)).read_unary 1866 (x := main_v842) (y := main_v1866) rfl (fun _ => by decide) (fun b => m (c, b))
  have e2 := (Stretch.writesFrom (F := Ideal)).read_unary 842 (x := main_v4) (y := main_v842) rfl (fun _ => by decide) (fun b => m (c, b))
  unfold R
  rw [e1, e2]
  exact row_spec _ 187 (by decide) (by decide) _ _

theorem row_838 : IsRows (wfd m c) 838 (R m c main_v1867 : S1x1024.Idx → EReal) := by
  have e1 := (Stretch.writesFrom (F := Ideal)).read_unary 1867 (x := main_v843) (y := main_v1867) rfl (fun _ => by decide) (fun b => m (c, b))
  have e2 := (Stretch.writesFrom (F := Ideal)).read_unary 843 (x := main_v4) (y := main_v843) rfl (fun _ => by decide) (fun b => m (c, b))
  unfold R
  rw [e1, e2]
  exact row_spec _ 186 (by decide) (by decide) _ _

theorem row_839 : IsRows (wfd m c) 839 (R m c main_v1868 : S1x1024.Idx → EReal) := by
  have e1 := (Stretch.writesFrom (F := Ideal)).read_unary 1868 (x := main_v844) (y := main_v1868) rfl (fun _ => by decide) (fun b => m (c, b))
  have e2 := (Stretch.writesFrom (F := Ideal)).read_unary 844 (x := main_v4) (y := main_v844) rfl (fun _ => by decide) (fun b => m (c, b))
  unfold R
  rw [e1, e2]
  exact row_spec _ 185 (by decide) (by decide) _ _

theorem row_840 : IsRows (wfd m c) 840 (R m c main_v1869 : S1x1024.Idx → EReal) := by
  have e1 := (Stretch.writesFrom (F := Ideal)).read_unary 1869 (x := main_v845) (y := main_v1869) rfl (fun _ => by decide) (fun b => m (c, b))
  have e2 := (Stretch.writesFrom (F := Ideal)).read_unary 845 (x := main_v4) (y := main_v845) rfl (fun _ => by decide) (fun b => m (c, b))
  unfold R
  rw [e1, e2]
  exact row_spec _ 184 (by decide) (by decide) _ _

theorem row_841 : IsRows (wfd m c) 841 (R m c main_v1870 : S1x1024.Idx → EReal) := by
  have e1 := (Stretch.writesFrom (F := Ideal)).read_unary 1870 (x := main_v846) (y := main_v1870) rfl (fun _ => by decide) (fun b => m (c, b))
  have e2 := (Stretch.writesFrom (F := Ideal)).read_unary 846 (x := main_v4) (y := main_v846) rfl (fun _ => by decide) (fun b => m (c, b))
  unfold R
  rw [e1, e2]
  exact row_spec _ 183 (by decide) (by decide) _ _

theorem row_842 : IsRows (wfd m c) 842 (R m c main_v1871 : S1x1024.Idx → EReal) := by
  have e1 := (Stretch.writesFrom (F := Ideal)).read_unary 1871 (x := main_v847) (y := main_v1871) rfl (fun _ => by decide) (fun b => m (c, b))
  have e2 := (Stretch.writesFrom (F := Ideal)).read_unary 847 (x := main_v4) (y := main_v847) rfl (fun _ => by decide) (fun b => m (c, b))
  unfold R
  rw [e1, e2]
  exact row_spec _ 182 (by decide) (by decide) _ _

theorem row_843 : IsRows (wfd m c) 843 (R m c main_v1872 : S1x1024.Idx → EReal) := by
  have e1 := (Stretch.writesFrom (F := Ideal)).read_unary 1872 (x := main_v848) (y := main_v1872) rfl (fun _ => by decide) (fun b => m (c, b))
  have e2 := (Stretch.writesFrom (F := Ideal)).read_unary 848 (x := main_v4) (y := main_v848) rfl (fun _ => by decide) (fun b => m (c, b))
  unfold R
  rw [e1, e2]
  exact row_spec _ 181 (by decide) (by decide) _ _

theorem row_844 : IsRows (wfd m c) 844 (R m c main_v1873 : S1x1024.Idx → EReal) := by
  have e1 := (Stretch.writesFrom (F := Ideal)).read_unary 1873 (x := main_v849) (y := main_v1873) rfl (fun _ => by decide) (fun b => m (c, b))
  have e2 := (Stretch.writesFrom (F := Ideal)).read_unary 849 (x := main_v4) (y := main_v849) rfl (fun _ => by decide) (fun b => m (c, b))
  unfold R
  rw [e1, e2]
  exact row_spec _ 180 (by decide) (by decide) _ _

theorem row_845 : IsRows (wfd m c) 845 (R m c main_v1874 : S1x1024.Idx → EReal) := by
  have e1 := (Stretch.writesFrom (F := Ideal)).read_unary 1874 (x := main_v850) (y := main_v1874) rfl (fun _ => by decide) (fun b => m (c, b))
  have e2 := (Stretch.writesFrom (F := Ideal)).read_unary 850 (x := main_v4) (y := main_v850) rfl (fun _ => by decide) (fun b => m (c, b))
  unfold R
  rw [e1, e2]
  exact row_spec _ 179 (by decide) (by decide) _ _

theorem row_846 : IsRows (wfd m c) 846 (R m c main_v1875 : S1x1024.Idx → EReal) := by
  have e1 := (Stretch.writesFrom (F := Ideal)).read_unary 1875 (x := main_v851) (y := main_v1875) rfl (fun _ => by decide) (fun b => m (c, b))
  have e2 := (Stretch.writesFrom (F := Ideal)).read_unary 851 (x := main_v4) (y := main_v851) rfl (fun _ => by decide) (fun b => m (c, b))
  unfold R
  rw [e1, e2]
  exact row_spec _ 178 (by decide) (by decide) _ _

theorem row_847 : IsRows (wfd m c) 847 (R m c main_v1876 : S1x1024.Idx → EReal) := by
  have e1 := (Stretch.writesFrom (F := Ideal)).read_unary 1876 (x := main_v852) (y := main_v1876) rfl (fun _ => by decide) (fun b => m (c, b))
  have e2 := (Stretch.writesFrom (F := Ideal)).read_unary 852 (x := main_v4) (y := main_v852) rfl (fun _ => by decide) (fun b => m (c, b))
  unfold R
  rw [e1, e2]
  exact row_spec _ 177 (by decide) (by decide) _ _

theorem row_848 : IsRows (wfd m c) 848 (R m c main_v1877 : S1x1024.Idx → EReal) := by
  have e1 := (Stretch.writesFrom (F := Ideal)).read_unary 1877 (x := main_v853) (y := main_v1877) rfl (fun _ => by decide) (fun b => m (c, b))
  have e2 := (Stretch.writesFrom (F := Ideal)).read_unary 853 (x := main_v4) (y := main_v853) rfl (fun _ => by decide) (fun b => m (c, b))
  unfold R
  rw [e1, e2]
  exact row_spec _ 176 (by decide) (by decide) _ _

theorem row_849 : IsRows (wfd m c) 849 (R m c main_v1878 : S1x1024.Idx → EReal) := by
  have e1 := (Stretch.writesFrom (F := Ideal)).read_unary 1878 (x := main_v854) (y := main_v1878) rfl (fun _ => by decide) (fun b => m (c, b))
  have e2 := (Stretch.writesFrom (F := Ideal)).read_unary 854 (x := main_v4) (y := main_v854) rfl (fun _ => by decide) (fun b => m (c, b))
  unfold R
  rw [e1, e2]
  exact row_spec _ 175 (by decide) (by decide) _ _

theorem row_850 : IsRows (wfd m c) 850 (R m c main_v1879 : S1x1024.Idx → EReal) := by
  have e1 := (Stretch.writesFrom (F := Ideal)).read_unary 1879 (x := main_v855) (y := main_v1879) rfl (fun _ => by decide) (fun b => m (c, b))
  have e2 := (Stretch.writesFrom (F := Ideal)).read_unary 855 (x := main_v4) (y := main_v855) rfl (fun _ => by decide) (fun b => m (c, b))
  unfold R
  rw [e1, e2]
  exact row_spec _ 174 (by decide) (by decide) _ _

theorem row_851 : IsRows (wfd m c) 851 (R m c main_v1880 : S1x1024.Idx → EReal) := by
  have e1 := (Stretch.writesFrom (F := Ideal)).read_unary 1880 (x := main_v856) (y := main_v1880) rfl (fun _ => by decide) (fun b => m (c, b))
  have e2 := (Stretch.writesFrom (F := Ideal)).read_unary 856 (x := main_v4) (y := main_v856) rfl (fun _ => by decide) (fun b => m (c, b))
  unfold R
  rw [e1, e2]
  exact row_spec _ 173 (by decide) (by decide) _ _

theorem row_852 : IsRows (wfd m c) 852 (R m c main_v1881 : S1x1024.Idx → EReal) := by
  have e1 := (Stretch.writesFrom (F := Ideal)).read_unary 1881 (x := main_v857) (y := main_v1881) rfl (fun _ => by decide) (fun b => m (c, b))
  have e2 := (Stretch.writesFrom (F := Ideal)).read_unary 857 (x := main_v4) (y := main_v857) rfl (fun _ => by decide) (fun b => m (c, b))
  unfold R
  rw [e1, e2]
  exact row_spec _ 172 (by decide) (by decide) _ _

theorem row_853 : IsRows (wfd m c) 853 (R m c main_v1882 : S1x1024.Idx → EReal) := by
  have e1 := (Stretch.writesFrom (F := Ideal)).read_unary 1882 (x := main_v858) (y := main_v1882) rfl (fun _ => by decide) (fun b => m (c, b))
  have e2 := (Stretch.writesFrom (F := Ideal)).read_unary 858 (x := main_v4) (y := main_v858) rfl (fun _ => by decide) (fun b => m (c, b))
  unfold R
  rw [e1, e2]
  exact row_spec _ 171 (by decide) (by decide) _ _

theorem row_854 : IsRows (wfd m c) 854 (R m c main_v1883 : S1x1024.Idx → EReal) := by
  have e1 := (Stretch.writesFrom (F := Ideal)).read_unary 1883 (x := main_v859) (y := main_v1883) rfl (fun _ => by decide) (fun b => m (c, b))
  have e2 := (Stretch.writesFrom (F := Ideal)).read_unary 859 (x := main_v4) (y := main_v859) rfl (fun _ => by decide) (fun b => m (c, b))
  unfold R
  rw [e1, e2]
  exact row_spec _ 170 (by decide) (by decide) _ _

theorem row_855 : IsRows (wfd m c) 855 (R m c main_v1884 : S1x1024.Idx → EReal) := by
  have e1 := (Stretch.writesFrom (F := Ideal)).read_unary 1884 (x := main_v860) (y := main_v1884) rfl (fun _ => by decide) (fun b => m (c, b))
  have e2 := (Stretch.writesFrom (F := Ideal)).read_unary 860 (x := main_v4) (y := main_v860) rfl (fun _ => by decide) (fun b => m (c, b))
  unfold R
  rw [e1, e2]
  exact row_spec _ 169 (by decide) (by decide) _ _

theorem row_856 : IsRows (wfd m c) 856 (R m c main_v1885 : S1x1024.Idx → EReal) := by
  have e1 := (Stretch.writesFrom (F := Ideal)).read_unary 1885 (x := main_v861) (y := main_v1885) rfl (fun _ => by decide) (fun b => m (c, b))
  have e2 := (Stretch.writesFrom (F := Ideal)).read_unary 861 (x := main_v4) (y := main_v861) rfl (fun _ => by decide) (fun b => m (c, b))
  unfold R
  rw [e1, e2]
  exact row_spec _ 168 (by decide) (by decide) _ _

theorem row_857 : IsRows (wfd m c) 857 (R m c main_v1886 : S1x1024.Idx → EReal) := by
  have e1 := (Stretch.writesFrom (F := Ideal)).read_unary 1886 (x := main_v862) (y := main_v1886) rfl (fun _ => by decide) (fun b => m (c, b))
  have e2 := (Stretch.writesFrom (F := Ideal)).read_unary 862 (x := main_v4) (y := main_v862) rfl (fun _ => by decide) (fun b => m (c, b))
  unfold R
  rw [e1, e2]
  exact row_spec _ 167 (by decide) (by decide) _ _

theorem row_858 : IsRows (wfd m c) 858 (R m c main_v1887 : S1x1024.Idx → EReal) := by
  have e1 := (Stretch.writesFrom (F := Ideal)).read_unary 1887 (x := main_v863) (y := main_v1887) rfl (fun _ => by decide) (fun b => m (c, b))
  have e2 := (Stretch.writesFrom (F := Ideal)).read_unary 863 (x := main_v4) (y := main_v863) rfl (fun _ => by decide) (fun b => m (c, b))
  unfold R
  rw [e1, e2]
  exact row_spec _ 166 (by decide) (by decide) _ _

theorem row_859 : IsRows (wfd m c) 859 (R m c main_v1888 : S1x1024.Idx → EReal) := by
  have e1 := (Stretch.writesFrom (F := Ideal)).read_unary 1888 (x := main_v864) (y := main_v1888) rfl (fun _ => by decide) (fun b => m (c, b))
  have e2 := (Stretch.writesFrom (F := Ideal)).read_unary 864 (x := main_v4) (y := main_v864) rfl (fun _ => by decide) (fun b => m (c, b))
  unfold R
  rw [e1, e2]
  exact row_spec _ 165 (by decide) (by decide) _ _

theorem row_860 : IsRows (wfd m c) 860 (R m c main_v1889 : S1x1024.Idx → EReal) := by
  have e1 := (Stretch.writesFrom (F := Ideal)).read_unary 1889 (x := main_v865) (y := main_v1889) rfl (fun _ => by decide) (fun b => m (c, b))
  have e2 := (Stretch.writesFrom (F := Ideal)).read_unary 865 (x := main_v4) (y := main_v865) rfl (fun _ => by decide) (fun b => m (c, b))
  unfold R
  rw [e1, e2]
  exact row_spec _ 164 (by decide) (by decide) _ _

theorem row_861 : IsRows (wfd m c) 861 (R m c main_v1890 : S1x1024.Idx → EReal) := by
  have e1 := (Stretch.writesFrom (F := Ideal)).read_unary 1890 (x := main_v866) (y := main_v1890) rfl (fun _ => by decide) (fun b => m (c, b))
  have e2 := (Stretch.writesFrom (F := Ideal)).read_unary 866 (x := main_v4) (y := main_v866) rfl (fun _ => by decide) (fun b => m (c, b))
  unfold R
  rw [e1, e2]
  exact row_spec _ 163 (by decide) (by decide) _ _

theorem row_862 : IsRows (wfd m c) 862 (R m c main_v1891 : S1x1024.Idx → EReal) := by
  have e1 := (Stretch.writesFrom (F := Ideal)).read_unary 1891 (x := main_v867) (y := main_v1891) rfl (fun _ => by decide) (fun b => m (c, b))
  have e2 := (Stretch.writesFrom (F := Ideal)).read_unary 867 (x := main_v4) (y := main_v867) rfl (fun _ => by decide) (fun b => m (c, b))
  unfold R
  rw [e1, e2]
  exact row_spec _ 162 (by decide) (by decide) _ _

theorem row_863 : IsRows (wfd m c) 863 (R m c main_v1892 : S1x1024.Idx → EReal) := by
  have e1 := (Stretch.writesFrom (F := Ideal)).read_unary 1892 (x := main_v868) (y := main_v1892) rfl (fun _ => by decide) (fun b => m (c, b))
  have e2 := (Stretch.writesFrom (F := Ideal)).read_unary 868 (x := main_v4) (y := main_v868) rfl (fun _ => by decide) (fun b => m (c, b))
  unfold R
  rw [e1, e2]
  exact row_spec _ 161 (by decide) (by decide) _ _

theorem row_864 : IsRows (wfd m c) 864 (R m c main_v1893 : S1x1024.Idx → EReal) := by
  have e1 := (Stretch.writesFrom (F := Ideal)).read_unary 1893 (x := main_v869) (y := main_v1893) rfl (fun _ => by decide) (fun b => m (c, b))
  have e2 := (Stretch.writesFrom (F := Ideal)).read_unary 869 (x := main_v4) (y := main_v869) rfl (fun _ => by decide) (fun b => m (c, b))
  unfold R
  rw [e1, e2]
  exact row_spec _ 160 (by decide) (by decide) _ _

theorem row_865 : IsRows (wfd m c) 865 (R m c main_v1894 : S1x1024.Idx → EReal) := by
  have e1 := (Stretch.writesFrom (F := Ideal)).read_unary 1894 (x := main_v870) (y := main_v1894) rfl (fun _ => by decide) (fun b => m (c, b))
  have e2 := (Stretch.writesFrom (F := Ideal)).read_unary 870 (x := main_v4) (y := main_v870) rfl (fun _ => by decide) (fun b => m (c, b))
  unfold R
  rw [e1, e2]
  exact row_spec _ 159 (by decide) (by decide) _ _

theorem row_866 : IsRows (wfd m c) 866 (R m c main_v1895 : S1x1024.Idx → EReal) := by
  have e1 := (Stretch.writesFrom (F := Ideal)).read_unary 1895 (x := main_v871) (y := main_v1895) rfl (fun _ => by decide) (fun b => m (c, b))
  have e2 := (Stretch.writesFrom (F := Ideal)).read_unary 871 (x := main_v4) (y := main_v871) rfl (fun _ => by decide) (fun b => m (c, b))
  unfold R
  rw [e1, e2]
  exact row_spec _ 158 (by decide) (by decide) _ _

theorem row_867 : IsRows (wfd m c) 867 (R m c main_v1896 : S1x1024.Idx → EReal) := by
  have e1 := (Stretch.writesFrom (F := Ideal)).read_unary 1896 (x := main_v872) (y := main_v1896) rfl (fun _ => by decide) (fun b => m (c, b))
  have e2 := (Stretch.writesFrom (F := Ideal)).read_unary 872 (x := main_v4) (y := main_v872) rfl (fun _ => by decide) (fun b => m (c, b))
  unfold R
  rw [e1, e2]
  exact row_spec _ 157 (by decide) (by decide) _ _

theorem row_868 : IsRows (wfd m c) 868 (R m c main_v1897 : S1x1024.Idx → EReal) := by
  have e1 := (Stretch.writesFrom (F := Ideal)).read_unary 1897 (x := main_v873) (y := main_v1897) rfl (fun _ => by decide) (fun b => m (c, b))
  have e2 := (Stretch.writesFrom (F := Ideal)).read_unary 873 (x := main_v4) (y := main_v873) rfl (fun _ => by decide) (fun b => m (c, b))
  unfold R
  rw [e1, e2]
  exact row_spec _ 156 (by decide) (by decide) _ _

theorem row_869 : IsRows (wfd m c) 869 (R m c main_v1898 : S1x1024.Idx → EReal) := by
  have e1 := (Stretch.writesFrom (F := Ideal)).read_unary 1898 (x := main_v874) (y := main_v1898) rfl (fun _ => by decide) (fun b => m (c, b))
  have e2 := (Stretch.writesFrom (F := Ideal)).read_unary 874 (x := main_v4) (y := main_v874) rfl (fun _ => by decide) (fun b => m (c, b))
  unfold R
  rw [e1, e2]
  exact row_spec _ 155 (by decide) (by decide) _ _

theorem row_870 : IsRows (wfd m c) 870 (R m c main_v1899 : S1x1024.Idx → EReal) := by
  have e1 := (Stretch.writesFrom (F := Ideal)).read_unary 1899 (x := main_v875) (y := main_v1899) rfl (fun _ => by decide) (fun b => m (c, b))
  have e2 := (Stretch.writesFrom (F := Ideal)).read_unary 875 (x := main_v4) (y := main_v875) rfl (fun _ => by decide) (fun b => m (c, b))
  unfold R
  rw [e1, e2]
  exact row_spec _ 154 (by decide) (by decide) _ _

theorem row_871 : IsRows (wfd m c) 871 (R m c main_v1900 : S1x1024.Idx → EReal) := by
  have e1 := (Stretch.writesFrom (F := Ideal)).read_unary 1900 (x := main_v876) (y := main_v1900) rfl (fun _ => by decide) (fun b => m (c, b))
  have e2 := (Stretch.writesFrom (F := Ideal)).read_unary 876 (x := main_v4) (y := main_v876) rfl (fun _ => by decide) (fun b => m (c, b))
  unfold R
  rw [e1, e2]
  exact row_spec _ 153 (by decide) (by decide) _ _

theorem row_872 : IsRows (wfd m c) 872 (R m c main_v1901 : S1x1024.Idx → EReal) := by
  have e1 := (Stretch.writesFrom (F := Ideal)).read_unary 1901 (x := main_v877) (y := main_v1901) rfl (fun _ => by decide) (fun b => m (c, b))
  have e2 := (Stretch.writesFrom (F := Ideal)).read_unary 877 (x := main_v4) (y := main_v877) rfl (fun _ => by decide) (fun b => m (c, b))
  unfold R
  rw [e1, e2]
  exact row_spec _ 152 (by decide) (by decide) _ _

theorem row_873 : IsRows (wfd m c) 873 (R m c main_v1902 : S1x1024.Idx → EReal) := by
  have e1 := (Stretch.writesFrom (F := Ideal)).read_unary 1902 (x := main_v878) (y := main_v1902) rfl (fun _ => by decide) (fun b => m (c, b))
  have e2 := (Stretch.writesFrom (F := Ideal)).read_unary 878 (x := main_v4) (y := main_v878) rfl (fun _ => by decide) (fun b => m (c, b))
  unfold R
  rw [e1, e2]
  exact row_spec _ 151 (by decide) (by decide) _ _

theorem row_874 : IsRows (wfd m c) 874 (R m c main_v1903 : S1x1024.Idx → EReal) := by
  have e1 := (Stretch.writesFrom (F := Ideal)).read_unary 1903 (x := main_v879) (y := main_v1903) rfl (fun _ => by decide) (fun b => m (c, b))
  have e2 := (Stretch.writesFrom (F := Ideal)).read_unary 879 (x := main_v4) (y := main_v879) rfl (fun _ => by decide) (fun b => m (c, b))
  unfold R
  rw [e1, e2]
  exact row_spec _ 150 (by decide) (by decide) _ _

theorem row_875 : IsRows (wfd m c) 875 (R m c main_v1904 : S1x1024.Idx → EReal) := by
  have e1 := (Stretch.writesFrom (F := Ideal)).read_unary 1904 (x := main_v880) (y := main_v1904) rfl (fun _ => by decide) (fun b => m (c, b))
  have e2 := (Stretch.writesFrom (F := Ideal)).read_unary 880 (x := main_v4) (y := main_v880) rfl (fun _ => by decide) (fun b => m (c, b))
  unfold R
  rw [e1, e2]
  exact row_spec _ 149 (by decide) (by decide) _ _

theorem row_876 : IsRows (wfd m c) 876 (R m c main_v1905 : S1x1024.Idx → EReal) := by
  have e1 := (Stretch.writesFrom (F := Ideal)).read_unary 1905 (x := main_v881) (y := main_v1905) rfl (fun _ => by decide) (fun b => m (c, b))
  have e2 := (Stretch.writesFrom (F := Ideal)).read_unary 881 (x := main_v4) (y := main_v881) rfl (fun _ => by decide) (fun b => m (c, b))
  unfold R
  rw [e1, e2]
  exact row_spec _ 148 (by decide) (by decide) _ _

theorem row_877 : IsRows (wfd m c) 877 (R m c main_v1906 : S1x1024.Idx → EReal) := by
  have e1 := (Stretch.writesFrom (F := Ideal)).read_unary 1906 (x := main_v882) (y := main_v1906) rfl (fun _ => by decide) (fun b => m (c, b))
  have e2 := (Stretch.writesFrom (F := Ideal)).read_unary 882 (x := main_v4) (y := main_v882) rfl (fun _ => by decide) (fun b => m (c, b))
  unfold R
  rw [e1, e2]
  exact row_spec _ 147 (by decide) (by decide) _ _

theorem row_878 : IsRows (wfd m c) 878 (R m c main_v1907 : S1x1024.Idx → EReal) := by
  have e1 := (Stretch.writesFrom (F := Ideal)).read_unary 1907 (x := main_v883) (y := main_v1907) rfl (fun _ => by decide) (fun b => m (c, b))
  have e2 := (Stretch.writesFrom (F := Ideal)).read_unary 883 (x := main_v4) (y := main_v883) rfl (fun _ => by decide) (fun b => m (c, b))
  unfold R
  rw [e1, e2]
  exact row_spec _ 146 (by decide) (by decide) _ _

theorem row_879 : IsRows (wfd m c) 879 (R m c main_v1908 : S1x1024.Idx → EReal) := by
  have e1 := (Stretch.writesFrom (F := Ideal)).read_unary 1908 (x := main_v884) (y := main_v1908) rfl (fun _ => by decide) (fun b => m (c, b))
  have e2 := (Stretch.writesFrom (F := Ideal)).read_unary 884 (x := main_v4) (y := main_v884) rfl (fun _ => by decide) (fun b => m (c, b))
  unfold R
  rw [e1, e2]
  exact row_spec _ 145 (by decide) (by decide) _ _

theorem row_880 : IsRows (wfd m c) 880 (R m c main_v1909 : S1x1024.Idx → EReal) := by
  have e1 := (Stretch.writesFrom (F := Ideal)).read_unary 1909 (x := main_v885) (y := main_v1909) rfl (fun _ => by decide) (fun b => m (c, b))
  have e2 := (Stretch.writesFrom (F := Ideal)).read_unary 885 (x := main_v4) (y := main_v885) rfl (fun _ => by decide) (fun b => m (c, b))
  unfold R
  rw [e1, e2]
  exact row_spec _ 144 (by decide) (by decide) _ _

theorem row_881 : IsRows (wfd m c) 881 (R m c main_v1910 : S1x1024.Idx → EReal) := by
  have e1 := (Stretch.writesFrom (F := Ideal)).read_unary 1910 (x := main_v886) (y := main_v1910) rfl (fun _ => by decide) (fun b => m (c, b))
  have e2 := (Stretch.writesFrom (F := Ideal)).read_unary 886 (x := main_v4) (y := main_v886) rfl (fun _ => by decide) (fun b => m (c, b))
  unfold R
  rw [e1, e2]
  exact row_spec _ 143 (by decide) (by decide) _ _

theorem row_882 : IsRows (wfd m c) 882 (R m c main_v1911 : S1x1024.Idx → EReal) := by
  have e1 := (Stretch.writesFrom (F := Ideal)).read_unary 1911 (x := main_v887) (y := main_v1911) rfl (fun _ => by decide) (fun b => m (c, b))
  have e2 := (Stretch.writesFrom (F := Ideal)).read_unary 887 (x := main_v4) (y := main_v887) rfl (fun _ => by decide) (fun b => m (c, b))
  unfold R
  rw [e1, e2]
  exact row_spec _ 142 (by decide) (by decide) _ _

theorem row_883 : IsRows (wfd m c) 883 (R m c main_v1912 : S1x1024.Idx → EReal) := by
  have e1 := (Stretch.writesFrom (F := Ideal)).read_unary 1912 (x := main_v888) (y := main_v1912) rfl (fun _ => by decide) (fun b => m (c, b))
  have e2 := (Stretch.writesFrom (F := Ideal)).read_unary 888 (x := main_v4) (y := main_v888) rfl (fun _ => by decide) (fun b => m (c, b))
  unfold R
  rw [e1, e2]
  exact row_spec _ 141 (by decide) (by decide) _ _

theorem row_884 : IsRows (wfd m c) 884 (R m c main_v1913 : S1x1024.Idx → EReal) := by
  have e1 := (Stretch.writesFrom (F := Ideal)).read_unary 1913 (x := main_v889) (y := main_v1913) rfl (fun _ => by decide) (fun b => m (c, b))
  have e2 := (Stretch.writesFrom (F := Ideal)).read_unary 889 (x := main_v4) (y := main_v889) rfl (fun _ => by decide) (fun b => m (c, b))
  unfold R
  rw [e1, e2]
  exact row_spec _ 140 (by decide) (by decide) _ _

theorem row_885 : IsRows (wfd m c) 885 (R m c main_v1914 : S1x1024.Idx → EReal) := by
  have e1 := (Stretch.writesFrom (F := Ideal)).read_unary 1914 (x := main_v890) (y := main_v1914) rfl (fun _ => by decide) (fun b => m (c, b))
  have e2 := (Stretch.writesFrom (F := Ideal)).read_unary 890 (x := main_v4) (y := main_v890) rfl (fun _ => by decide) (fun b => m (c, b))
  unfold R
  rw [e1, e2]
  exact row_spec _ 139 (by decide) (by decide) _ _

theorem row_886 : IsRows (wfd m c) 886 (R m c main_v1915 : S1x1024.Idx → EReal) := by
  have e1 := (Stretch.writesFrom (F := Ideal)).read_unary 1915 (x := main_v891) (y := main_v1915) rfl (fun _ => by decide) (fun b => m (c, b))
  have e2 := (Stretch.writesFrom (F := Ideal)).read_unary 891 (x := main_v4) (y := main_v891) rfl (fun _ => by decide) (fun b => m (c, b))
  unfold R
  rw [e1, e2]
  exact row_spec _ 138 (by decide) (by decide) _ _

theorem row_887 : IsRows (wfd m c) 887 (R m c main_v1916 : S1x1024.Idx → EReal) := by
  have e1 := (Stretch.writesFrom (F := Ideal)).read_unary 1916 (x := main_v892) (y := main_v1916) rfl (fun _ => by decide) (fun b => m (c, b))
  have e2 := (Stretch.writesFrom (F := Ideal)).read_unary 892 (x := main_v4) (y := main_v892) rfl (fun _ => by decide) (fun b => m (c, b))
  unfold R
  rw [e1, e2]
  exact row_spec _ 137 (by decide) (by decide) _ _

theorem row_888 : IsRows (wfd m c) 888 (R m c main_v1917 : S1x1024.Idx → EReal) := by
  have e1 := (Stretch.writesFrom (F := Ideal)).read_unary 1917 (x := main_v893) (y := main_v1917) rfl (fun _ => by decide) (fun b => m (c, b))
  have e2 := (Stretch.writesFrom (F := Ideal)).read_unary 893 (x := main_v4) (y := main_v893) rfl (fun _ => by decide) (fun b => m (c, b))
  unfold R
  rw [e1, e2]
  exact row_spec _ 136 (by decide) (by decide) _ _

theorem row_889 : IsRows (wfd m c) 889 (R m c main_v1918 : S1x1024.Idx → EReal) := by
  have e1 := (Stretch.writesFrom (F := Ideal)).read_unary 1918 (x := main_v894) (y := main_v1918) rfl (fun _ => by decide) (fun b => m (c, b))
  have e2 := (Stretch.writesFrom (F := Ideal)).read_unary 894 (x := main_v4) (y := main_v894) rfl (fun _ => by decide) (fun b => m (c, b))
  unfold R
  rw [e1, e2]
  exact row_spec _ 135 (by decide) (by decide) _ _

theorem row_890 : IsRows (wfd m c) 890 (R m c main_v1919 : S1x1024.Idx → EReal) := by
  have e1 := (Stretch.writesFrom (F := Ideal)).read_unary 1919 (x := main_v895) (y := main_v1919) rfl (fun _ => by decide) (fun b => m (c, b))
  have e2 := (Stretch.writesFrom (F := Ideal)).read_unary 895 (x := main_v4) (y := main_v895) rfl (fun _ => by decide) (fun b => m (c, b))
  unfold R
  rw [e1, e2]
  exact row_spec _ 134 (by decide) (by decide) _ _

theorem row_891 : IsRows (wfd m c) 891 (R m c main_v1920 : S1x1024.Idx → EReal) := by
  have e1 := (Stretch.writesFrom (F := Ideal)).read_unary 1920 (x := main_v896) (y := main_v1920) rfl (fun _ => by decide) (fun b => m (c, b))
  have e2 := (Stretch.writesFrom (F := Ideal)).read_unary 896 (x := main_v4) (y := main_v896) rfl (fun _ => by decide) (fun b => m (c, b))
  unfold R
  rw [e1, e2]
  exact row_spec _ 133 (by decide) (by decide) _ _

theorem row_892 : IsRows (wfd m c) 892 (R m c main_v1921 : S1x1024.Idx → EReal) := by
  have e1 := (Stretch.writesFrom (F := Ideal)).read_unary 1921 (x := main_v897) (y := main_v1921) rfl (fun _ => by decide) (fun b => m (c, b))
  have e2 := (Stretch.writesFrom (F := Ideal)).read_unary 897 (x := main_v4) (y := main_v897) rfl (fun _ => by decide) (fun b => m (c, b))
  unfold R
  rw [e1, e2]
  exact row_spec _ 132 (by decide) (by decide) _ _

theorem row_893 : IsRows (wfd m c) 893 (R m c main_v1922 : S1x1024.Idx → EReal) := by
  have e1 := (Stretch.writesFrom (F := Ideal)).read_unary 1922 (x := main_v898) (y := main_v1922) rfl (fun _ => by decide) (fun b => m (c, b))
  have e2 := (Stretch.writesFrom (F := Ideal)).read_unary 898 (x := main_v4) (y := main_v898) rfl (fun _ => by decide) (fun b => m (c, b))
  unfold R
  rw [e1, e2]
  exact row_spec _ 131 (by decide) (by decide) _ _

theorem row_894 : IsRows (wfd m c) 894 (R m c main_v1923 : S1x1024.Idx → EReal) := by
  have e1 := (Stretch.writesFrom (F := Ideal)).read_unary 1923 (x := main_v899) (y := main_v1923) rfl (fun _ => by decide) (fun b => m (c, b))
  have e2 := (Stretch.writesFrom (F := Ideal)).read_unary 899 (x := main_v4) (y := main_v899) rfl (fun _ => by decide) (fun b => m (c, b))
  unfold R
  rw [e1, e2]
  exact row_spec _ 130 (by decide) (by decide) _ _

theorem row_895 : IsRows (wfd m c) 895 (R m c main_v1924 : S1x1024.Idx → EReal) := by
  have e1 := (Stretch.writesFrom (F := Ideal)).read_unary 1924 (x := main_v900) (y := main_v1924) rfl (fun _ => by decide) (fun b => m (c, b))
  have e2 := (Stretch.writesFrom (F := Ideal)).read_unary 900 (x := main_v4) (y := main_v900) rfl (fun _ => by decide) (fun b => m (c, b))
  unfold R
  rw [e1, e2]
  exact row_spec _ 129 (by decide) (by decide) _ _

end Cert.KernelIdeal.Circ

end
-- ==== Proof.CircRows7.lean ====
/-
  Rows 896 to 1023 of the circulant: row j is the window of the doubled vector at offset 1024 - j, laid out as one
  row. Each is read off its own two operations of the host stretch (the slice, then the broadcast to a row).
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem row_896 : IsRows (wfd m c) 896 (R m c main_v1925 : S1x1024.Idx → EReal) := by
  have e1 := (Stretch.writesFrom (F := Ideal)).read_unary 1925 (x := main_v901) (y := main_v1925) rfl (fun _ => by decide) (fun b => m (c, b))
  have e2 := (Stretch.writesFrom (F := Ideal)).read_unary 901 (x := main_v4) (y := main_v901) rfl (fun _ => by decide) (fun b => m (c, b))
  unfold R
  rw [e1, e2]
  exact row_spec _ 128 (by decide) (by decide) _ _

theorem row_897 : IsRows (wfd m c) 897 (R m c main_v1926 : S1x1024.Idx → EReal) := by
  have e1 := (Stretch.writesFrom (F := Ideal)).read_unary 1926 (x := main_v902) (y := main_v1926) rfl (fun _ => by decide) (fun b => m (c, b))
  have e2 := (Stretch.writesFrom (F := Ideal)).read_unary 902 (x := main_v4) (y := main_v902) rfl (fun _ => by decide) (fun b => m (c, b))
  unfold R
  rw [e1, e2]
  exact row_spec _ 127 (by decide) (by decide) _ _

theorem row_898 : IsRows (wfd m c) 898 (R m c main_v1927 : S1x1024.Idx → EReal) := by
  have e1 := (Stretch.writesFrom (F := Ideal)).read_unary 1927 (x := main_v903) (y := main_v1927) rfl (fun _ => by decide) (fun b => m (c, b))
  have e2 := (Stretch.writesFrom (F := Ideal)).read_unary 903 (x := main_v4) (y := main_v903) rfl (fun _ => by decide) (fun b => m (c, b))
  unfold R
  rw [e1, e2]
  exact row_spec _ 126 (by decide) (by decide) _ _

theorem row_899 : IsRows (wfd m c) 899 (R m c main_v1928 : S1x1024.Idx → EReal) := by
  have e1 := (Stretch.writesFrom (F := Ideal)).read_unary 1928 (x := main_v904) (y := main_v1928) rfl (fun _ => by decide) (fun b => m (c, b))
  have e2 := (Stretch.writesFrom (F := Ideal)).read_unary 904 (x := main_v4) (y := main_v904) rfl (fun _ => by decide) (fun b => m (c, b))
  unfold R
  rw [e1, e2]
  exact row_spec _ 125 (by decide) (by decide) _ _

theorem row_900 : IsRows (wfd m c) 900 (R m c main_v1929 : S1x1024.Idx → EReal) := by
  have e1 := (Stretch.writesFrom (F := Ideal)).read_unary 1929 (x := main_v905) (y := main_v1929) rfl (fun _ => by decide) (fun b => m (c, b))
  have e2 := (Stretch.writesFrom (F := Ideal)).read_unary 905 (x := main_v4) (y := main_v905) rfl (fun _ => by decide) (fun b => m (c, b))
  unfold R
  rw [e1, e2]
  exact row_spec _ 124 (by decide) (by decide) _ _

theorem row_901 : IsRows (wfd m c) 901 (R m c main_v1930 : S1x1024.Idx → EReal) := by
  have e1 := (Stretch.writesFrom (F := Ideal)).read_unary 1930 (x := main_v906) (y := main_v1930) rfl (fun _ => by decide) (fun b => m (c, b))
  have e2 := (Stretch.writesFrom (F := Ideal)).read_unary 906 (x := main_v4) (y := main_v906) rfl (fun _ => by decide) (fun b => m (c, b))
  unfold R
  rw [e1, e2]
  exact row_spec _ 123 (by decide) (by decide) _ _

theorem row_902 : IsRows (wfd m c) 902 (R m c main_v1931 : S1x1024.Idx → EReal) := by
  have e1 := (Stretch.writesFrom (F := Ideal)).read_unary 1931 (x := main_v907) (y := main_v1931) rfl (fun _ => by decide) (fun b => m (c, b))
  have e2 := (Stretch.writesFrom (F := Ideal)).read_unary 907 (x := main_v4) (y := main_v907) rfl (fun _ => by decide) (fun b => m (c, b))
  unfold R
  rw [e1, e2]
  exact row_spec _ 122 (by decide) (by decide) _ _

theorem row_903 : IsRows (wfd m c) 903 (R m c main_v1932 : S1x1024.Idx → EReal) := by
  have e1 := (Stretch.writesFrom (F := Ideal)).read_unary 1932 (x := main_v908) (y := main_v1932) rfl (fun _ => by decide) (fun b => m (c, b))
  have e2 := (Stretch.writesFrom (F := Ideal)).read_unary 908 (x := main_v4) (y := main_v908) rfl (fun _ => by decide) (fun b => m (c, b))
  unfold R
  rw [e1, e2]
  exact row_spec _ 121 (by decide) (by decide) _ _

theorem row_904 : IsRows (wfd m c) 904 (R m c main_v1933 : S1x1024.Idx → EReal) := by
  have e1 := (Stretch.writesFrom (F := Ideal)).read_unary 1933 (x := main_v909) (y := main_v1933) rfl (fun _ => by decide) (fun b => m (c, b))
  have e2 := (Stretch.writesFrom (F := Ideal)).read_unary 909 (x := main_v4) (y := main_v909) rfl (fun _ => by decide) (fun b => m (c, b))
  unfold R
  rw [e1, e2]
  exact row_spec _ 120 (by decide) (by decide) _ _

theorem row_905 : IsRows (wfd m c) 905 (R m c main_v1934 : S1x1024.Idx → EReal) := by
  have e1 := (Stretch.writesFrom (F := Ideal)).read_unary 1934 (x := main_v910) (y := main_v1934) rfl (fun _ => by decide) (fun b => m (c, b))
  have e2 := (Stretch.writesFrom (F := Ideal)).read_unary 910 (x := main_v4) (y := main_v910) rfl (fun _ => by decide) (fun b => m (c, b))
  unfold R
  rw [e1, e2]
  exact row_spec _ 119 (by decide) (by decide) _ _

theorem row_906 : IsRows (wfd m c) 906 (R m c main_v1935 : S1x1024.Idx → EReal) := by
  have e1 := (Stretch.writesFrom (F := Ideal)).read_unary 1935 (x := main_v911) (y := main_v1935) rfl (fun _ => by decide) (fun b => m (c, b))
  have e2 := (Stretch.writesFrom (F := Ideal)).read_unary 911 (x := main_v4) (y := main_v911) rfl (fun _ => by decide) (fun b => m (c, b))
  unfold R
  rw [e1, e2]
  exact row_spec _ 118 (by decide) (by decide) _ _

theorem row_907 : IsRows (wfd m c) 907 (R m c main_v1936 : S1x1024.Idx → EReal) := by
  have e1 := (Stretch.writesFrom (F := Ideal)).read_unary 1936 (x := main_v912) (y := main_v1936) rfl (fun _ => by decide) (fun b => m (c, b))
  have e2 := (Stretch.writesFrom (F := Ideal)).read_unary 912 (x := main_v4) (y := main_v912) rfl (fun _ => by decide) (fun b => m (c, b))
  unfold R
  rw [e1, e2]
  exact row_spec _ 117 (by decide) (by decide) _ _

theorem row_908 : IsRows (wfd m c) 908 (R m c main_v1937 : S1x1024.Idx → EReal) := by
  have e1 := (Stretch.writesFrom (F := Ideal)).read_unary 1937 (x := main_v913) (y := main_v1937) rfl (fun _ => by decide) (fun b => m (c, b))
  have e2 := (Stretch.writesFrom (F := Ideal)).read_unary 913 (x := main_v4) (y := main_v913) rfl (fun _ => by decide) (fun b => m (c, b))
  unfold R
  rw [e1, e2]
  exact row_spec _ 116 (by decide) (by decide) _ _

theorem row_909 : IsRows (wfd m c) 909 (R m c main_v1938 : S1x1024.Idx → EReal) := by
  have e1 := (Stretch.writesFrom (F := Ideal)).read_unary 1938 (x := main_v914) (y := main_v1938) rfl (fun _ => by decide) (fun b => m (c, b))
  have e2 := (Stretch.writesFrom (F := Ideal)).read_unary 914 (x := main_v4) (y := main_v914) rfl (fun _ => by decide) (fun b => m (c, b))
  unfold R
  rw [e1, e2]
  exact row_spec _ 115 (by decide) (by decide) _ _

theorem row_910 : IsRows (wfd m c) 910 (R m c main_v1939 : S1x1024.Idx → EReal) := by
  have e1 := (Stretch.writesFrom (F := Ideal)).read_unary 1939 (x := main_v915) (y := main_v1939) rfl (fun _ => by decide) (fun b => m (c, b))
  have e2 := (Stretch.writesFrom (F := Ideal)).read_unary 915 (x := main_v4) (y := main_v915) rfl (fun _ => by decide) (fun b => m (c, b))
  unfold R
  rw [e1, e2]
  exact row_spec _ 114 (by decide) (by decide) _ _

theorem row_911 : IsRows (wfd m c) 911 (R m c main_v1940 : S1x1024.Idx → EReal) := by
  have e1 := (Stretch.writesFrom (F := Ideal)).read_unary 1940 (x := main_v916) (y := main_v1940) rfl (fun _ => by decide) (fun b => m (c, b))
  have e2 := (Stretch.writesFrom (F := Ideal)).read_unary 916 (x := main_v4) (y := main_v916) rfl (fun _ => by decide) (fun b => m (c, b))
  unfold R
  rw [e1, e2]
  exact row_spec _ 113 (by decide) (by decide) _ _

theorem row_912 : IsRows (wfd m c) 912 (R m c main_v1941 : S1x1024.Idx → EReal) := by
  have e1 := (Stretch.writesFrom (F := Ideal)).read_unary 1941 (x := main_v917) (y := main_v1941) rfl (fun _ => by decide) (fun b => m (c, b))
  have e2 := (Stretch.writesFrom (F := Ideal)).read_unary 917 (x := main_v4) (y := main_v917) rfl (fun _ => by decide) (fun b => m (c, b))
  unfold R
  rw [e1, e2]
  exact row_spec _ 112 (by decide) (by decide) _ _

theorem row_913 : IsRows (wfd m c) 913 (R m c main_v1942 : S1x1024.Idx → EReal) := by
  have e1 := (Stretch.writesFrom (F := Ideal)).read_unary 1942 (x := main_v918) (y := main_v1942) rfl (fun _ => by decide) (fun b => m (c, b))
  have e2 := (Stretch.writesFrom (F := Ideal)).read_unary 918 (x := main_v4) (y := main_v918) rfl (fun _ => by decide) (fun b => m (c, b))
  unfold R
  rw [e1, e2]
  exact row_spec _ 111 (by decide) (by decide) _ _

theorem row_914 : IsRows (wfd m c) 914 (R m c main_v1943 : S1x1024.Idx → EReal) := by
  have e1 := (Stretch.writesFrom (F := Ideal)).read_unary 1943 (x := main_v919) (y := main_v1943) rfl (fun _ => by decide) (fun b => m (c, b))
  have e2 := (Stretch.writesFrom (F := Ideal)).read_unary 919 (x := main_v4) (y := main_v919) rfl (fun _ => by decide) (fun b => m (c, b))
  unfold R
  rw [e1, e2]
  exact row_spec _ 110 (by decide) (by decide) _ _

theorem row_915 : IsRows (wfd m c) 915 (R m c main_v1944 : S1x1024.Idx → EReal) := by
  have e1 := (Stretch.writesFrom (F := Ideal)).read_unary 1944 (x := main_v920) (y := main_v1944) rfl (fun _ => by decide) (fun b => m (c, b))
  have e2 := (Stretch.writesFrom (F := Ideal)).read_unary 920 (x := main_v4) (y := main_v920) rfl (fun _ => by decide) (fun b => m (c, b))
  unfold R
  rw [e1, e2]
  exact row_spec _ 109 (by decide) (by decide) _ _

theorem row_916 : IsRows (wfd m c) 916 (R m c main_v1945 : S1x1024.Idx → EReal) := by
  have e1 := (Stretch.writesFrom (F := Ideal)).read_unary 1945 (x := main_v921) (y := main_v1945) rfl (fun _ => by decide) (fun b => m (c, b))
  have e2 := (Stretch.writesFrom (F := Ideal)).read_unary 921 (x := main_v4) (y := main_v921) rfl (fun _ => by decide) (fun b => m (c, b))
  unfold R
  rw [e1, e2]
  exact row_spec _ 108 (by decide) (by decide) _ _

theorem row_917 : IsRows (wfd m c) 917 (R m c main_v1946 : S1x1024.Idx → EReal) := by
  have e1 := (Stretch.writesFrom (F := Ideal)).read_unary 1946 (x := main_v922) (y := main_v1946) rfl (fun _ => by decide) (fun b => m (c, b))
  have e2 := (Stretch.writesFrom (F := Ideal)).read_unary 922 (x := main_v4) (y := main_v922) rfl (fun _ => by decide) (fun b => m (c, b))
  unfold R
  rw [e1, e2]
  exact row_spec _ 107 (by decide) (by decide) _ _

theorem row_918 : IsRows (wfd m c) 918 (R m c main_v1947 : S1x1024.Idx → EReal) := by
  have e1 := (Stretch.writesFrom (F := Ideal)).read_unary 1947 (x := main_v923) (y := main_v1947) rfl (fun _ => by decide) (fun b => m (c, b))
  have e2 := (Stretch.writesFrom (F := Ideal)).read_unary 923 (x := main_v4) (y := main_v923) rfl (fun _ => by decide) (fun b => m (c, b))
  unfold R
  rw [e1, e2]
  exact row_spec _ 106 (by decide) (by decide) _ _

theorem row_919 : IsRows (wfd m c) 919 (R m c main_v1948 : S1x1024.Idx → EReal) := by
  have e1 := (Stretch.writesFrom (F := Ideal)).read_unary 1948 (x := main_v924) (y := main_v1948) rfl (fun _ => by decide) (fun b => m (c, b))
  have e2 := (Stretch.writesFrom (F := Ideal)).read_unary 924 (x := main_v4) (y := main_v924) rfl (fun _ => by decide) (fun b => m (c, b))
  unfold R
  rw [e1, e2]
  exact row_spec _ 105 (by decide) (by decide) _ _

theorem row_920 : IsRows (wfd m c) 920 (R m c main_v1949 : S1x1024.Idx → EReal) := by
  have e1 := (Stretch.writesFrom (F := Ideal)).read_unary 1949 (x := main_v925) (y := main_v1949) rfl (fun _ => by decide) (fun b => m (c, b))
  have e2 := (Stretch.writesFrom (F := Ideal)).read_unary 925 (x := main_v4) (y := main_v925) rfl (fun _ => by decide) (fun b => m (c, b))
  unfold R
  rw [e1, e2]
  exact row_spec _ 104 (by decide) (by decide) _ _

theorem row_921 : IsRows (wfd m c) 921 (R m c main_v1950 : S1x1024.Idx → EReal) := by
  have e1 := (Stretch.writesFrom (F := Ideal)).read_unary 1950 (x := main_v926) (y := main_v1950) rfl (fun _ => by decide) (fun b => m (c, b))
  have e2 := (Stretch.writesFrom (F := Ideal)).read_unary 926 (x := main_v4) (y := main_v926) rfl (fun _ => by decide) (fun b => m (c, b))
  unfold R
  rw [e1, e2]
  exact row_spec _ 103 (by decide) (by decide) _ _

theorem row_922 : IsRows (wfd m c) 922 (R m c main_v1951 : S1x1024.Idx → EReal) := by
  have e1 := (Stretch.writesFrom (F := Ideal)).read_unary 1951 (x := main_v927) (y := main_v1951) rfl (fun _ => by decide) (fun b => m (c, b))
  have e2 := (Stretch.writesFrom (F := Ideal)).read_unary 927 (x := main_v4) (y := main_v927) rfl (fun _ => by decide) (fun b => m (c, b))
  unfold R
  rw [e1, e2]
  exact row_spec _ 102 (by decide) (by decide) _ _

theorem row_923 : IsRows (wfd m c) 923 (R m c main_v1952 : S1x1024.Idx → EReal) := by
  have e1 := (Stretch.writesFrom (F := Ideal)).read_unary 1952 (x := main_v928) (y := main_v1952) rfl (fun _ => by decide) (fun b => m (c, b))
  have e2 := (Stretch.writesFrom (F := Ideal)).read_unary 928 (x := main_v4) (y := main_v928) rfl (fun _ => by decide) (fun b => m (c, b))
  unfold R
  rw [e1, e2]
  exact row_spec _ 101 (by decide) (by decide) _ _

theorem row_924 : IsRows (wfd m c) 924 (R m c main_v1953 : S1x1024.Idx → EReal) := by
  have e1 := (Stretch.writesFrom (F := Ideal)).read_unary 1953 (x := main_v929) (y := main_v1953) rfl (fun _ => by decide) (fun b => m (c, b))
  have e2 := (Stretch.writesFrom (F := Ideal)).read_unary 929 (x := main_v4) (y := main_v929) rfl (fun _ => by decide) (fun b => m (c, b))
  unfold R
  rw [e1, e2]
  exact row_spec _ 100 (by decide) (by decide) _ _

theorem row_925 : IsRows (wfd m c) 925 (R m c main_v1954 : S1x1024.Idx → EReal) := by
  have e1 := (Stretch.writesFrom (F := Ideal)).read_unary 1954 (x := main_v930) (y := main_v1954) rfl (fun _ => by decide) (fun b => m (c, b))
  have e2 := (Stretch.writesFrom (F := Ideal)).read_unary 930 (x := main_v4) (y := main_v930) rfl (fun _ => by decide) (fun b => m (c, b))
  unfold R
  rw [e1, e2]
  exact row_spec _ 99 (by decide) (by decide) _ _

theorem row_926 : IsRows (wfd m c) 926 (R m c main_v1955 : S1x1024.Idx → EReal) := by
  have e1 := (Stretch.writesFrom (F := Ideal)).read_unary 1955 (x := main_v931) (y := main_v1955) rfl (fun _ => by decide) (fun b => m (c, b))
  have e2 := (Stretch.writesFrom (F := Ideal)).read_unary 931 (x := main_v4) (y := main_v931) rfl (fun _ => by decide) (fun b => m (c, b))
  unfold R
  rw [e1, e2]
  exact row_spec _ 98 (by decide) (by decide) _ _

theorem row_927 : IsRows (wfd m c) 927 (R m c main_v1956 : S1x1024.Idx → EReal) := by
  have e1 := (Stretch.writesFrom (F := Ideal)).read_unary 1956 (x := main_v932) (y := main_v1956) rfl (fun _ => by decide) (fun b => m (c, b))
  have e2 := (Stretch.writesFrom (F := Ideal)).read_unary 932 (x := main_v4) (y := main_v932) rfl (fun _ => by decide) (fun b => m (c, b))
  unfold R
  rw [e1, e2]
  exact row_spec _ 97 (by decide) (by decide) _ _

theorem row_928 : IsRows (wfd m c) 928 (R m c main_v1957 : S1x1024.Idx → EReal) := by
  have e1 := (Stretch.writesFrom (F := Ideal)).read_unary 1957 (x := main_v933) (y := main_v1957) rfl (fun _ => by decide) (fun b => m (c, b))
  have e2 := (Stretch.writesFrom (F := Ideal)).read_unary 933 (x := main_v4) (y := main_v933) rfl (fun _ => by decide) (fun b => m (c, b))
  unfold R
  rw [e1, e2]
  exact row_spec _ 96 (by decide) (by decide) _ _

theorem row_929 : IsRows (wfd m c) 929 (R m c main_v1958 : S1x1024.Idx → EReal) := by
  have e1 := (Stretch.writesFrom (F := Ideal)).read_unary 1958 (x := main_v934) (y := main_v1958) rfl (fun _ => by decide) (fun b => m (c, b))
  have e2 := (Stretch.writesFrom (F := Ideal)).read_unary 934 (x := main_v4) (y := main_v934) rfl (fun _ => by decide) (fun b => m (c, b))
  unfold R
  rw [e1, e2]
  exact row_spec _ 95 (by decide) (by decide) _ _

theorem row_930 : IsRows (wfd m c) 930 (R m c main_v1959 : S1x1024.Idx → EReal) := by
  have e1 := (Stretch.writesFrom (F := Ideal)).read_unary 1959 (x := main_v935) (y := main_v1959) rfl (fun _ => by decide) (fun b => m (c, b))
  have e2 := (Stretch.writesFrom (F := Ideal)).read_unary 935 (x := main_v4) (y := main_v935) rfl (fun _ => by decide) (fun b => m (c, b))
  unfold R
  rw [e1, e2]
  exact row_spec _ 94 (by decide) (by decide) _ _

theorem row_931 : IsRows (wfd m c) 931 (R m c main_v1960 : S1x1024.Idx → EReal) := by
  have e1 := (Stretch.writesFrom (F := Ideal)).read_unary 1960 (x := main_v936) (y := main_v1960) rfl (fun _ => by decide) (fun b => m (c, b))
  have e2 := (Stretch.writesFrom (F := Ideal)).read_unary 936 (x := main_v4) (y := main_v936) rfl (fun _ => by decide) (fun b => m (c, b))
  unfold R
  rw [e1, e2]
  exact row_spec _ 93 (by decide) (by decide) _ _

theorem row_932 : IsRows (wfd m c) 932 (R m c main_v1961 : S1x1024.Idx → EReal) := by
  have e1 := (Stretch.writesFrom (F := Ideal)).read_unary 1961 (x := main_v937) (y := main_v1961) rfl (fun _ => by decide) (fun b => m (c, b))
  have e2 := (Stretch.writesFrom (F := Ideal)).read_unary 937 (x := main_v4) (y := main_v937) rfl (fun _ => by decide) (fun b => m (c, b))
  unfold R
  rw [e1, e2]
  exact row_spec _ 92 (by decide) (by decide) _ _

theorem row_933 : IsRows (wfd m c) 933 (R m c main_v1962 : S1x1024.Idx → EReal) := by
  have e1 := (Stretch.writesFrom (F := Ideal)).read_unary 1962 (x := main_v938) (y := main_v1962) rfl (fun _ => by decide) (fun b => m (c, b))
  have e2 := (Stretch.writesFrom (F := Ideal)).read_unary 938 (x := main_v4) (y := main_v938) rfl (fun _ => by decide) (fun b => m (c, b))
  unfold R
  rw [e1, e2]
  exact row_spec _ 91 (by decide) (by decide) _ _

theorem row_934 : IsRows (wfd m c) 934 (R m c main_v1963 : S1x1024.Idx → EReal) := by
  have e1 := (Stretch.writesFrom (F := Ideal)).read_unary 1963 (x := main_v939) (y := main_v1963) rfl (fun _ => by decide) (fun b => m (c, b))
  have e2 := (Stretch.writesFrom (F := Ideal)).read_unary 939 (x := main_v4) (y := main_v939) rfl (fun _ => by decide) (fun b => m (c, b))
  unfold R
  rw [e1, e2]
  exact row_spec _ 90 (by decide) (by decide) _ _

theorem row_935 : IsRows (wfd m c) 935 (R m c main_v1964 : S1x1024.Idx → EReal) := by
  have e1 := (Stretch.writesFrom (F := Ideal)).read_unary 1964 (x := main_v940) (y := main_v1964) rfl (fun _ => by decide) (fun b => m (c, b))
  have e2 := (Stretch.writesFrom (F := Ideal)).read_unary 940 (x := main_v4) (y := main_v940) rfl (fun _ => by decide) (fun b => m (c, b))
  unfold R
  rw [e1, e2]
  exact row_spec _ 89 (by decide) (by decide) _ _

theorem row_936 : IsRows (wfd m c) 936 (R m c main_v1965 : S1x1024.Idx → EReal) := by
  have e1 := (Stretch.writesFrom (F := Ideal)).read_unary 1965 (x := main_v941) (y := main_v1965) rfl (fun _ => by decide) (fun b => m (c, b))
  have e2 := (Stretch.writesFrom (F := Ideal)).read_unary 941 (x := main_v4) (y := main_v941) rfl (fun _ => by decide) (fun b => m (c, b))
  unfold R
  rw [e1, e2]
  exact row_spec _ 88 (by decide) (by decide) _ _

theorem row_937 : IsRows (wfd m c) 937 (R m c main_v1966 : S1x1024.Idx → EReal) := by
  have e1 := (Stretch.writesFrom (F := Ideal)).read_unary 1966 (x := main_v942) (y := main_v1966) rfl (fun _ => by decide) (fun b => m (c, b))
  have e2 := (Stretch.writesFrom (F := Ideal)).read_unary 942 (x := main_v4) (y := main_v942) rfl (fun _ => by decide) (fun b => m (c, b))
  unfold R
  rw [e1, e2]
  exact row_spec _ 87 (by decide) (by decide) _ _

theorem row_938 : IsRows (wfd m c) 938 (R m c main_v1967 : S1x1024.Idx → EReal) := by
  have e1 := (Stretch.writesFrom (F := Ideal)).read_unary 1967 (x := main_v943) (y := main_v1967) rfl (fun _ => by decide) (fun b => m (c, b))
  have e2 := (Stretch.writesFrom (F := Ideal)).read_unary 943 (x := main_v4) (y := main_v943) rfl (fun _ => by decide) (fun b => m (c, b))
  unfold R
  rw [e1, e2]
  exact row_spec _ 86 (by decide) (by decide) _ _

theorem row_939 : IsRows (wfd m c) 939 (R m c main_v1968 : S1x1024.Idx → EReal) := by
  have e1 := (Stretch.writesFrom (F := Ideal)).read_unary 1968 (x := main_v944) (y := main_v1968) rfl (fun _ => by decide) (fun b => m (c, b))
  have e2 := (Stretch.writesFrom (F := Ideal)).read_unary 944 (x := main_v4) (y := main_v944) rfl (fun _ => by decide) (fun b => m (c, b))
  unfold R
  rw [e1, e2]
  exact row_spec _ 85 (by decide) (by decide) _ _

theorem row_940 : IsRows (wfd m c) 940 (R m c main_v1969 : S1x1024.Idx → EReal) := by
  have e1 := (Stretch.writesFrom (F := Ideal)).read_unary 1969 (x := main_v945) (y := main_v1969) rfl (fun _ => by decide) (fun b => m (c, b))
  have e2 := (Stretch.writesFrom (F := Ideal)).read_unary 945 (x := main_v4) (y := main_v945) rfl (fun _ => by decide) (fun b => m (c, b))
  unfold R
  rw [e1, e2]
  exact row_spec _ 84 (by decide) (by decide) _ _

theorem row_941 : IsRows (wfd m c) 941 (R m c main_v1970 : S1x1024.Idx → EReal) := by
  have e1 := (Stretch.writesFrom (F := Ideal)).read_unary 1970 (x := main_v946) (y := main_v1970) rfl (fun _ => by decide) (fun b => m (c, b))
  have e2 := (Stretch.writesFrom (F := Ideal)).read_unary 946 (x := main_v4) (y := main_v946) rfl (fun _ => by decide) (fun b => m (c, b))
  unfold R
  rw [e1, e2]
  exact row_spec _ 83 (by decide) (by decide) _ _

theorem row_942 : IsRows (wfd m c) 942 (R m c main_v1971 : S1x1024.Idx → EReal) := by
  have e1 := (Stretch.writesFrom (F := Ideal)).read_unary 1971 (x := main_v947) (y := main_v1971) rfl (fun _ => by decide) (fun b => m (c, b))
  have e2 := (Stretch.writesFrom (F := Ideal)).read_unary 947 (x := main_v4) (y := main_v947) rfl (fun _ => by decide) (fun b => m (c, b))
  unfold R
  rw [e1, e2]
  exact row_spec _ 82 (by decide) (by decide) _ _

theorem row_943 : IsRows (wfd m c) 943 (R m c main_v1972 : S1x1024.Idx → EReal) := by
  have e1 := (Stretch.writesFrom (F := Ideal)).read_unary 1972 (x := main_v948) (y := main_v1972) rfl (fun _ => by decide) (fun b => m (c, b))
  have e2 := (Stretch.writesFrom (F := Ideal)).read_unary 948 (x := main_v4) (y := main_v948) rfl (fun _ => by decide) (fun b => m (c, b))
  unfold R
  rw [e1, e2]
  exact row_spec _ 81 (by decide) (by decide) _ _

theorem row_944 : IsRows (wfd m c) 944 (R m c main_v1973 : S1x1024.Idx → EReal) := by
  have e1 := (Stretch.writesFrom (F := Ideal)).read_unary 1973 (x := main_v949) (y := main_v1973) rfl (fun _ => by decide) (fun b => m (c, b))
  have e2 := (Stretch.writesFrom (F := Ideal)).read_unary 949 (x := main_v4) (y := main_v949) rfl (fun _ => by decide) (fun b => m (c, b))
  unfold R
  rw [e1, e2]
  exact row_spec _ 80 (by decide) (by decide) _ _

theorem row_945 : IsRows (wfd m c) 945 (R m c main_v1974 : S1x1024.Idx → EReal) := by
  have e1 := (Stretch.writesFrom (F := Ideal)).read_unary 1974 (x := main_v950) (y := main_v1974) rfl (fun _ => by decide) (fun b => m (c, b))
  have e2 := (Stretch.writesFrom (F := Ideal)).read_unary 950 (x := main_v4) (y := main_v950) rfl (fun _ => by decide) (fun b => m (c, b))
  unfold R
  rw [e1, e2]
  exact row_spec _ 79 (by decide) (by decide) _ _

theorem row_946 : IsRows (wfd m c) 946 (R m c main_v1975 : S1x1024.Idx → EReal) := by
  have e1 := (Stretch.writesFrom (F := Ideal)).read_unary 1975 (x := main_v951) (y := main_v1975) rfl (fun _ => by decide) (fun b => m (c, b))
  have e2 := (Stretch.writesFrom (F := Ideal)).read_unary 951 (x := main_v4) (y := main_v951) rfl (fun _ => by decide) (fun b => m (c, b))
  unfold R
  rw [e1, e2]
  exact row_spec _ 78 (by decide) (by decide) _ _

theorem row_947 : IsRows (wfd m c) 947 (R m c main_v1976 : S1x1024.Idx → EReal) := by
  have e1 := (Stretch.writesFrom (F := Ideal)).read_unary 1976 (x := main_v952) (y := main_v1976) rfl (fun _ => by decide) (fun b => m (c, b))
  have e2 := (Stretch.writesFrom (F := Ideal)).read_unary 952 (x := main_v4) (y := main_v952) rfl (fun _ => by decide) (fun b => m (c, b))
  unfold R
  rw [e1, e2]
  exact row_spec _ 77 (by decide) (by decide) _ _

theorem row_948 : IsRows (wfd m c) 948 (R m c main_v1977 : S1x1024.Idx → EReal) := by
  have e1 := (Stretch.writesFrom (F := Ideal)).read_unary 1977 (x := main_v953) (y := main_v1977) rfl (fun _ => by decide) (fun b => m (c, b))
  have e2 := (Stretch.writesFrom (F := Ideal)).read_unary 953 (x := main_v4) (y := main_v953) rfl (fun _ => by decide) (fun b => m (c, b))
  unfold R
  rw [e1, e2]
  exact row_spec _ 76 (by decide) (by decide) _ _

theorem row_949 : IsRows (wfd m c) 949 (R m c main_v1978 : S1x1024.Idx → EReal) := by
  have e1 := (Stretch.writesFrom (F := Ideal)).read_unary 1978 (x := main_v954) (y := main_v1978) rfl (fun _ => by decide) (fun b => m (c, b))
  have e2 := (Stretch.writesFrom (F := Ideal)).read_unary 954 (x := main_v4) (y := main_v954) rfl (fun _ => by decide) (fun b => m (c, b))
  unfold R
  rw [e1, e2]
  exact row_spec _ 75 (by decide) (by decide) _ _

theorem row_950 : IsRows (wfd m c) 950 (R m c main_v1979 : S1x1024.Idx → EReal) := by
  have e1 := (Stretch.writesFrom (F := Ideal)).read_unary 1979 (x := main_v955) (y := main_v1979) rfl (fun _ => by decide) (fun b => m (c, b))
  have e2 := (Stretch.writesFrom (F := Ideal)).read_unary 955 (x := main_v4) (y := main_v955) rfl (fun _ => by decide) (fun b => m (c, b))
  unfold R
  rw [e1, e2]
  exact row_spec _ 74 (by decide) (by decide) _ _

theorem row_951 : IsRows (wfd m c) 951 (R m c main_v1980 : S1x1024.Idx → EReal) := by
  have e1 := (Stretch.writesFrom (F := Ideal)).read_unary 1980 (x := main_v956) (y := main_v1980) rfl (fun _ => by decide) (fun b => m (c, b))
  have e2 := (Stretch.writesFrom (F := Ideal)).read_unary 956 (x := main_v4) (y := main_v956) rfl (fun _ => by decide) (fun b => m (c, b))
  unfold R
  rw [e1, e2]
  exact row_spec _ 73 (by decide) (by decide) _ _

theorem row_952 : IsRows (wfd m c) 952 (R m c main_v1981 : S1x1024.Idx → EReal) := by
  have e1 := (Stretch.writesFrom (F := Ideal)).read_unary 1981 (x := main_v957) (y := main_v1981) rfl (fun _ => by decide) (fun b => m (c, b))
  have e2 := (Stretch.writesFrom (F := Ideal)).read_unary 957 (x := main_v4) (y := main_v957) rfl (fun _ => by decide) (fun b => m (c, b))
  unfold R
  rw [e1, e2]
  exact row_spec _ 72 (by decide) (by decide) _ _

theorem row_953 : IsRows (wfd m c) 953 (R m c main_v1982 : S1x1024.Idx → EReal) := by
  have e1 := (Stretch.writesFrom (F := Ideal)).read_unary 1982 (x := main_v958) (y := main_v1982) rfl (fun _ => by decide) (fun b => m (c, b))
  have e2 := (Stretch.writesFrom (F := Ideal)).read_unary 958 (x := main_v4) (y := main_v958) rfl (fun _ => by decide) (fun b => m (c, b))
  unfold R
  rw [e1, e2]
  exact row_spec _ 71 (by decide) (by decide) _ _

theorem row_954 : IsRows (wfd m c) 954 (R m c main_v1983 : S1x1024.Idx → EReal) := by
  have e1 := (Stretch.writesFrom (F := Ideal)).read_unary 1983 (x := main_v959) (y := main_v1983) rfl (fun _ => by decide) (fun b => m (c, b))
  have e2 := (Stretch.writesFrom (F := Ideal)).read_unary 959 (x := main_v4) (y := main_v959) rfl (fun _ => by decide) (fun b => m (c, b))
  unfold R
  rw [e1, e2]
  exact row_spec _ 70 (by decide) (by decide) _ _

theorem row_955 : IsRows (wfd m c) 955 (R m c main_v1984 : S1x1024.Idx → EReal) := by
  have e1 := (Stretch.writesFrom (F := Ideal)).read_unary 1984 (x := main_v960) (y := main_v1984) rfl (fun _ => by decide) (fun b => m (c, b))
  have e2 := (Stretch.writesFrom (F := Ideal)).read_unary 960 (x := main_v4) (y := main_v960) rfl (fun _ => by decide) (fun b => m (c, b))
  unfold R
  rw [e1, e2]
  exact row_spec _ 69 (by decide) (by decide) _ _

theorem row_956 : IsRows (wfd m c) 956 (R m c main_v1985 : S1x1024.Idx → EReal) := by
  have e1 := (Stretch.writesFrom (F := Ideal)).read_unary 1985 (x := main_v961) (y := main_v1985) rfl (fun _ => by decide) (fun b => m (c, b))
  have e2 := (Stretch.writesFrom (F := Ideal)).read_unary 961 (x := main_v4) (y := main_v961) rfl (fun _ => by decide) (fun b => m (c, b))
  unfold R
  rw [e1, e2]
  exact row_spec _ 68 (by decide) (by decide) _ _

theorem row_957 : IsRows (wfd m c) 957 (R m c main_v1986 : S1x1024.Idx → EReal) := by
  have e1 := (Stretch.writesFrom (F := Ideal)).read_unary 1986 (x := main_v962) (y := main_v1986) rfl (fun _ => by decide) (fun b => m (c, b))
  have e2 := (Stretch.writesFrom (F := Ideal)).read_unary 962 (x := main_v4) (y := main_v962) rfl (fun _ => by decide) (fun b => m (c, b))
  unfold R
  rw [e1, e2]
  exact row_spec _ 67 (by decide) (by decide) _ _

theorem row_958 : IsRows (wfd m c) 958 (R m c main_v1987 : S1x1024.Idx → EReal) := by
  have e1 := (Stretch.writesFrom (F := Ideal)).read_unary 1987 (x := main_v963) (y := main_v1987) rfl (fun _ => by decide) (fun b => m (c, b))
  have e2 := (Stretch.writesFrom (F := Ideal)).read_unary 963 (x := main_v4) (y := main_v963) rfl (fun _ => by decide) (fun b => m (c, b))
  unfold R
  rw [e1, e2]
  exact row_spec _ 66 (by decide) (by decide) _ _

theorem row_959 : IsRows (wfd m c) 959 (R m c main_v1988 : S1x1024.Idx → EReal) := by
  have e1 := (Stretch.writesFrom (F := Ideal)).read_unary 1988 (x := main_v964) (y := main_v1988) rfl (fun _ => by decide) (fun b => m (c, b))
  have e2 := (Stretch.writesFrom (F := Ideal)).read_unary 964 (x := main_v4) (y := main_v964) rfl (fun _ => by decide) (fun b => m (c, b))
  unfold R
  rw [e1, e2]
  exact row_spec _ 65 (by decide) (by decide) _ _

theorem row_960 : IsRows (wfd m c) 960 (R m c main_v1989 : S1x1024.Idx → EReal) := by
  have e1 := (Stretch.writesFrom (F := Ideal)).read_unary 1989 (x := main_v965) (y := main_v1989) rfl (fun _ => by decide) (fun b => m (c, b))
  have e2 := (Stretch.writesFrom (F := Ideal)).read_unary 965 (x := main_v4) (y := main_v965) rfl (fun _ => by decide) (fun b => m (c, b))
  unfold R
  rw [e1, e2]
  exact row_spec _ 64 (by decide) (by decide) _ _

theorem row_961 : IsRows (wfd m c) 961 (R m c main_v1990 : S1x1024.Idx → EReal) := by
  have e1 := (Stretch.writesFrom (F := Ideal)).read_unary 1990 (x := main_v966) (y := main_v1990) rfl (fun _ => by decide) (fun b => m (c, b))
  have e2 := (Stretch.writesFrom (F := Ideal)).read_unary 966 (x := main_v4) (y := main_v966) rfl (fun _ => by decide) (fun b => m (c, b))
  unfold R
  rw [e1, e2]
  exact row_spec _ 63 (by decide) (by decide) _ _

theorem row_962 : IsRows (wfd m c) 962 (R m c main_v1991 : S1x1024.Idx → EReal) := by
  have e1 := (Stretch.writesFrom (F := Ideal)).read_unary 1991 (x := main_v967) (y := main_v1991) rfl (fun _ => by decide) (fun b => m (c, b))
  have e2 := (Stretch.writesFrom (F := Ideal)).read_unary 967 (x := main_v4) (y := main_v967) rfl (fun _ => by decide) (fun b => m (c, b))
  unfold R
  rw [e1, e2]
  exact row_spec _ 62 (by decide) (by decide) _ _

theorem row_963 : IsRows (wfd m c) 963 (R m c main_v1992 : S1x1024.Idx → EReal) := by
  have e1 := (Stretch.writesFrom (F := Ideal)).read_unary 1992 (x := main_v968) (y := main_v1992) rfl (fun _ => by decide) (fun b => m (c, b))
  have e2 := (Stretch.writesFrom (F := Ideal)).read_unary 968 (x := main_v4) (y := main_v968) rfl (fun _ => by decide) (fun b => m (c, b))
  unfold R
  rw [e1, e2]
  exact row_spec _ 61 (by decide) (by decide) _ _

theorem row_964 : IsRows (wfd m c) 964 (R m c main_v1993 : S1x1024.Idx → EReal) := by
  have e1 := (Stretch.writesFrom (F := Ideal)).read_unary 1993 (x := main_v969) (y := main_v1993) rfl (fun _ => by decide) (fun b => m (c, b))
  have e2 := (Stretch.writesFrom (F := Ideal)).read_unary 969 (x := main_v4) (y := main_v969) rfl (fun _ => by decide) (fun b => m (c, b))
  unfold R
  rw [e1, e2]
  exact row_spec _ 60 (by decide) (by decide) _ _

theorem row_965 : IsRows (wfd m c) 965 (R m c main_v1994 : S1x1024.Idx → EReal) := by
  have e1 := (Stretch.writesFrom (F := Ideal)).read_unary 1994 (x := main_v970) (y := main_v1994) rfl (fun _ => by decide) (fun b => m (c, b))
  have e2 := (Stretch.writesFrom (F := Ideal)).read_unary 970 (x := main_v4) (y := main_v970) rfl (fun _ => by decide) (fun b => m (c, b))
  unfold R
  rw [e1, e2]
  exact row_spec _ 59 (by decide) (by decide) _ _

theorem row_966 : IsRows (wfd m c) 966 (R m c main_v1995 : S1x1024.Idx → EReal) := by
  have e1 := (Stretch.writesFrom (F := Ideal)).read_unary 1995 (x := main_v971) (y := main_v1995) rfl (fun _ => by decide) (fun b => m (c, b))
  have e2 := (Stretch.writesFrom (F := Ideal)).read_unary 971 (x := main_v4) (y := main_v971) rfl (fun _ => by decide) (fun b => m (c, b))
  unfold R
  rw [e1, e2]
  exact row_spec _ 58 (by decide) (by decide) _ _

theorem row_967 : IsRows (wfd m c) 967 (R m c main_v1996 : S1x1024.Idx → EReal) := by
  have e1 := (Stretch.writesFrom (F := Ideal)).read_unary 1996 (x := main_v972) (y := main_v1996) rfl (fun _ => by decide) (fun b => m (c, b))
  have e2 := (Stretch.writesFrom (F := Ideal)).read_unary 972 (x := main_v4) (y := main_v972) rfl (fun _ => by decide) (fun b => m (c, b))
  unfold R
  rw [e1, e2]
  exact row_spec _ 57 (by decide) (by decide) _ _

theorem row_968 : IsRows (wfd m c) 968 (R m c main_v1997 : S1x1024.Idx → EReal) := by
  have e1 := (Stretch.writesFrom (F := Ideal)).read_unary 1997 (x := main_v973) (y := main_v1997) rfl (fun _ => by decide) (fun b => m (c, b))
  have e2 := (Stretch.writesFrom (F := Ideal)).read_unary 973 (x := main_v4) (y := main_v973) rfl (fun _ => by decide) (fun b => m (c, b))
  unfold R
  rw [e1, e2]
  exact row_spec _ 56 (by decide) (by decide) _ _

theorem row_969 : IsRows (wfd m c) 969 (R m c main_v1998 : S1x1024.Idx → EReal) := by
  have e1 := (Stretch.writesFrom (F := Ideal)).read_unary 1998 (x := main_v974) (y := main_v1998) rfl (fun _ => by decide) (fun b => m (c, b))
  have e2 := (Stretch.writesFrom (F := Ideal)).read_unary 974 (x := main_v4) (y := main_v974) rfl (fun _ => by decide) (fun b => m (c, b))
  unfold R
  rw [e1, e2]
  exact row_spec _ 55 (by decide) (by decide) _ _

theorem row_970 : IsRows (wfd m c) 970 (R m c main_v1999 : S1x1024.Idx → EReal) := by
  have e1 := (Stretch.writesFrom (F := Ideal)).read_unary 1999 (x := main_v975) (y := main_v1999) rfl (fun _ => by decide) (fun b => m (c, b))
  have e2 := (Stretch.writesFrom (F := Ideal)).read_unary 975 (x := main_v4) (y := main_v975) rfl (fun _ => by decide) (fun b => m (c, b))
  unfold R
  rw [e1, e2]
  exact row_spec _ 54 (by decide) (by decide) _ _

theorem row_971 : IsRows (wfd m c) 971 (R m c main_v2000 : S1x1024.Idx → EReal) := by
  have e1 := (Stretch.writesFrom (F := Ideal)).read_unary 2000 (x := main_v976) (y := main_v2000) rfl (fun _ => by decide) (fun b => m (c, b))
  have e2 := (Stretch.writesFrom (F := Ideal)).read_unary 976 (x := main_v4) (y := main_v976) rfl (fun _ => by decide) (fun b => m (c, b))
  unfold R
  rw [e1, e2]
  exact row_spec _ 53 (by decide) (by decide) _ _

theorem row_972 : IsRows (wfd m c) 972 (R m c main_v2001 : S1x1024.Idx → EReal) := by
  have e1 := (Stretch.writesFrom (F := Ideal)).read_unary 2001 (x := main_v977) (y := main_v2001) rfl (fun _ => by decide) (fun b => m (c, b))
  have e2 := (Stretch.writesFrom (F := Ideal)).read_unary 977 (x := main_v4) (y := main_v977) rfl (fun _ => by decide) (fun b => m (c, b))
  unfold R
  rw [e1, e2]
  exact row_spec _ 52 (by decide) (by decide) _ _

theorem row_973 : IsRows (wfd m c) 973 (R m c main_v2002 : S1x1024.Idx → EReal) := by
  have e1 := (Stretch.writesFrom (F := Ideal)).read_unary 2002 (x := main_v978) (y := main_v2002) rfl (fun _ => by decide) (fun b => m (c, b))
  have e2 := (Stretch.writesFrom (F := Ideal)).read_unary 978 (x := main_v4) (y := main_v978) rfl (fun _ => by decide) (fun b => m (c, b))
  unfold R
  rw [e1, e2]
  exact row_spec _ 51 (by decide) (by decide) _ _

theorem row_974 : IsRows (wfd m c) 974 (R m c main_v2003 : S1x1024.Idx → EReal) := by
  have e1 := (Stretch.writesFrom (F := Ideal)).read_unary 2003 (x := main_v979) (y := main_v2003) rfl (fun _ => by decide) (fun b => m (c, b))
  have e2 := (Stretch.writesFrom (F := Ideal)).read_unary 979 (x := main_v4) (y := main_v979) rfl (fun _ => by decide) (fun b => m (c, b))
  unfold R
  rw [e1, e2]
  exact row_spec _ 50 (by decide) (by decide) _ _

theorem row_975 : IsRows (wfd m c) 975 (R m c main_v2004 : S1x1024.Idx → EReal) := by
  have e1 := (Stretch.writesFrom (F := Ideal)).read_unary 2004 (x := main_v980) (y := main_v2004) rfl (fun _ => by decide) (fun b => m (c, b))
  have e2 := (Stretch.writesFrom (F := Ideal)).read_unary 980 (x := main_v4) (y := main_v980) rfl (fun _ => by decide) (fun b => m (c, b))
  unfold R
  rw [e1, e2]
  exact row_spec _ 49 (by decide) (by decide) _ _

theorem row_976 : IsRows (wfd m c) 976 (R m c main_v2005 : S1x1024.Idx → EReal) := by
  have e1 := (Stretch.writesFrom (F := Ideal)).read_unary 2005 (x := main_v981) (y := main_v2005) rfl (fun _ => by decide) (fun b => m (c, b))
  have e2 := (Stretch.writesFrom (F := Ideal)).read_unary 981 (x := main_v4) (y := main_v981) rfl (fun _ => by decide) (fun b => m (c, b))
  unfold R
  rw [e1, e2]
  exact row_spec _ 48 (by decide) (by decide) _ _

theorem row_977 : IsRows (wfd m c) 977 (R m c main_v2006 : S1x1024.Idx → EReal) := by
  have e1 := (Stretch.writesFrom (F := Ideal)).read_unary 2006 (x := main_v982) (y := main_v2006) rfl (fun _ => by decide) (fun b => m (c, b))
  have e2 := (Stretch.writesFrom (F := Ideal)).read_unary 982 (x := main_v4) (y := main_v982) rfl (fun _ => by decide) (fun b => m (c, b))
  unfold R
  rw [e1, e2]
  exact row_spec _ 47 (by decide) (by decide) _ _

theorem row_978 : IsRows (wfd m c) 978 (R m c main_v2007 : S1x1024.Idx → EReal) := by
  have e1 := (Stretch.writesFrom (F := Ideal)).read_unary 2007 (x := main_v983) (y := main_v2007) rfl (fun _ => by decide) (fun b => m (c, b))
  have e2 := (Stretch.writesFrom (F := Ideal)).read_unary 983 (x := main_v4) (y := main_v983) rfl (fun _ => by decide) (fun b => m (c, b))
  unfold R
  rw [e1, e2]
  exact row_spec _ 46 (by decide) (by decide) _ _

theorem row_979 : IsRows (wfd m c) 979 (R m c main_v2008 : S1x1024.Idx → EReal) := by
  have e1 := (Stretch.writesFrom (F := Ideal)).read_unary 2008 (x := main_v984) (y := main_v2008) rfl (fun _ => by decide) (fun b => m (c, b))
  have e2 := (Stretch.writesFrom (F := Ideal)).read_unary 984 (x := main_v4) (y := main_v984) rfl (fun _ => by decide) (fun b => m (c, b))
  unfold R
  rw [e1, e2]
  exact row_spec _ 45 (by decide) (by decide) _ _

theorem row_980 : IsRows (wfd m c) 980 (R m c main_v2009 : S1x1024.Idx → EReal) := by
  have e1 := (Stretch.writesFrom (F := Ideal)).read_unary 2009 (x := main_v985) (y := main_v2009) rfl (fun _ => by decide) (fun b => m (c, b))
  have e2 := (Stretch.writesFrom (F := Ideal)).read_unary 985 (x := main_v4) (y := main_v985) rfl (fun _ => by decide) (fun b => m (c, b))
  unfold R
  rw [e1, e2]
  exact row_spec _ 44 (by decide) (by decide) _ _

theorem row_981 : IsRows (wfd m c) 981 (R m c main_v2010 : S1x1024.Idx → EReal) := by
  have e1 := (Stretch.writesFrom (F := Ideal)).read_unary 2010 (x := main_v986) (y := main_v2010) rfl (fun _ => by decide) (fun b => m (c, b))
  have e2 := (Stretch.writesFrom (F := Ideal)).read_unary 986 (x := main_v4) (y := main_v986) rfl (fun _ => by decide) (fun b => m (c, b))
  unfold R
  rw [e1, e2]
  exact row_spec _ 43 (by decide) (by decide) _ _

theorem row_982 : IsRows (wfd m c) 982 (R m c main_v2011 : S1x1024.Idx → EReal) := by
  have e1 := (Stretch.writesFrom (F := Ideal)).read_unary 2011 (x := main_v987) (y := main_v2011) rfl (fun _ => by decide) (fun b => m (c, b))
  have e2 := (Stretch.writesFrom (F := Ideal)).read_unary 987 (x := main_v4) (y := main_v987) rfl (fun _ => by decide) (fun b => m (c, b))
  unfold R
  rw [e1, e2]
  exact row_spec _ 42 (by decide) (by decide) _ _

theorem row_983 : IsRows (wfd m c) 983 (R m c main_v2012 : S1x1024.Idx → EReal) := by
  have e1 := (Stretch.writesFrom (F := Ideal)).read_unary 2012 (x := main_v988) (y := main_v2012) rfl (fun _ => by decide) (fun b => m (c, b))
  have e2 := (Stretch.writesFrom (F := Ideal)).read_unary 988 (x := main_v4) (y := main_v988) rfl (fun _ => by decide) (fun b => m (c, b))
  unfold R
  rw [e1, e2]
  exact row_spec _ 41 (by decide) (by decide) _ _

theorem row_984 : IsRows (wfd m c) 984 (R m c main_v2013 : S1x1024.Idx → EReal) := by
  have e1 := (Stretch.writesFrom (F := Ideal)).read_unary 2013 (x := main_v989) (y := main_v2013) rfl (fun _ => by decide) (fun b => m (c, b))
  have e2 := (Stretch.writesFrom (F := Ideal)).read_unary 989 (x := main_v4) (y := main_v989) rfl (fun _ => by decide) (fun b => m (c, b))
  unfold R
  rw [e1, e2]
  exact row_spec _ 40 (by decide) (by decide) _ _

theorem row_985 : IsRows (wfd m c) 985 (R m c main_v2014 : S1x1024.Idx → EReal) := by
  have e1 := (Stretch.writesFrom (F := Ideal)).read_unary 2014 (x := main_v990) (y := main_v2014) rfl (fun _ => by decide) (fun b => m (c, b))
  have e2 := (Stretch.writesFrom (F := Ideal)).read_unary 990 (x := main_v4) (y := main_v990) rfl (fun _ => by decide) (fun b => m (c, b))
  unfold R
  rw [e1, e2]
  exact row_spec _ 39 (by decide) (by decide) _ _

theorem row_986 : IsRows (wfd m c) 986 (R m c main_v2015 : S1x1024.Idx → EReal) := by
  have e1 := (Stretch.writesFrom (F := Ideal)).read_unary 2015 (x := main_v991) (y := main_v2015) rfl (fun _ => by decide) (fun b => m (c, b))
  have e2 := (Stretch.writesFrom (F := Ideal)).read_unary 991 (x := main_v4) (y := main_v991) rfl (fun _ => by decide) (fun b => m (c, b))
  unfold R
  rw [e1, e2]
  exact row_spec _ 38 (by decide) (by decide) _ _

theorem row_987 : IsRows (wfd m c) 987 (R m c main_v2016 : S1x1024.Idx → EReal) := by
  have e1 := (Stretch.writesFrom (F := Ideal)).read_unary 2016 (x := main_v992) (y := main_v2016) rfl (fun _ => by decide) (fun b => m (c, b))
  have e2 := (Stretch.writesFrom (F := Ideal)).read_unary 992 (x := main_v4) (y := main_v992) rfl (fun _ => by decide) (fun b => m (c, b))
  unfold R
  rw [e1, e2]
  exact row_spec _ 37 (by decide) (by decide) _ _

theorem row_988 : IsRows (wfd m c) 988 (R m c main_v2017 : S1x1024.Idx → EReal) := by
  have e1 := (Stretch.writesFrom (F := Ideal)).read_unary 2017 (x := main_v993) (y := main_v2017) rfl (fun _ => by decide) (fun b => m (c, b))
  have e2 := (Stretch.writesFrom (F := Ideal)).read_unary 993 (x := main_v4) (y := main_v993) rfl (fun _ => by decide) (fun b => m (c, b))
  unfold R
  rw [e1, e2]
  exact row_spec _ 36 (by decide) (by decide) _ _

theorem row_989 : IsRows (wfd m c) 989 (R m c main_v2018 : S1x1024.Idx → EReal) := by
  have e1 := (Stretch.writesFrom (F := Ideal)).read_unary 2018 (x := main_v994) (y := main_v2018) rfl (fun _ => by decide) (fun b => m (c, b))
  have e2 := (Stretch.writesFrom (F := Ideal)).read_unary 994 (x := main_v4) (y := main_v994) rfl (fun _ => by decide) (fun b => m (c, b))
  unfold R
  rw [e1, e2]
  exact row_spec _ 35 (by decide) (by decide) _ _

theorem row_990 : IsRows (wfd m c) 990 (R m c main_v2019 : S1x1024.Idx → EReal) := by
  have e1 := (Stretch.writesFrom (F := Ideal)).read_unary 2019 (x := main_v995) (y := main_v2019) rfl (fun _ => by decide) (fun b => m (c, b))
  have e2 := (Stretch.writesFrom (F := Ideal)).read_unary 995 (x := main_v4) (y := main_v995) rfl (fun _ => by decide) (fun b => m (c, b))
  unfold R
  rw [e1, e2]
  exact row_spec _ 34 (by decide) (by decide) _ _

theorem row_991 : IsRows (wfd m c) 991 (R m c main_v2020 : S1x1024.Idx → EReal) := by
  have e1 := (Stretch.writesFrom (F := Ideal)).read_unary 2020 (x := main_v996) (y := main_v2020) rfl (fun _ => by decide) (fun b => m (c, b))
  have e2 := (Stretch.writesFrom (F := Ideal)).read_unary 996 (x := main_v4) (y := main_v996) rfl (fun _ => by decide) (fun b => m (c, b))
  unfold R
  rw [e1, e2]
  exact row_spec _ 33 (by decide) (by decide) _ _

theorem row_992 : IsRows (wfd m c) 992 (R m c main_v2021 : S1x1024.Idx → EReal) := by
  have e1 := (Stretch.writesFrom (F := Ideal)).read_unary 2021 (x := main_v997) (y := main_v2021) rfl (fun _ => by decide) (fun b => m (c, b))
  have e2 := (Stretch.writesFrom (F := Ideal)).read_unary 997 (x := main_v4) (y := main_v997) rfl (fun _ => by decide) (fun b => m (c, b))
  unfold R
  rw [e1, e2]
  exact row_spec _ 32 (by decide) (by decide) _ _

theorem row_993 : IsRows (wfd m c) 993 (R m c main_v2022 : S1x1024.Idx → EReal) := by
  have e1 := (Stretch.writesFrom (F := Ideal)).read_unary 2022 (x := main_v998) (y := main_v2022) rfl (fun _ => by decide) (fun b => m (c, b))
  have e2 := (Stretch.writesFrom (F := Ideal)).read_unary 998 (x := main_v4) (y := main_v998) rfl (fun _ => by decide) (fun b => m (c, b))
  unfold R
  rw [e1, e2]
  exact row_spec _ 31 (by decide) (by decide) _ _

theorem row_994 : IsRows (wfd m c) 994 (R m c main_v2023 : S1x1024.Idx → EReal) := by
  have e1 := (Stretch.writesFrom (F := Ideal)).read_unary 2023 (x := main_v999) (y := main_v2023) rfl (fun _ => by decide) (fun b => m (c, b))
  have e2 := (Stretch.writesFrom (F := Ideal)).read_unary 999 (x := main_v4) (y := main_v999) rfl (fun _ => by decide) (fun b => m (c, b))
  unfold R
  rw [e1, e2]
  exact row_spec _ 30 (by decide) (by decide) _ _

theorem row_995 : IsRows (wfd m c) 995 (R m c main_v2024 : S1x1024.Idx → EReal) := by
  have e1 := (Stretch.writesFrom (F := Ideal)).read_unary 2024 (x := main_v1000) (y := main_v2024) rfl (fun _ => by decide) (fun b => m (c, b))
  have e2 := (Stretch.writesFrom (F := Ideal)).read_unary 1000 (x := main_v4) (y := main_v1000) rfl (fun _ => by decide) (fun b => m (c, b))
  unfold R
  rw [e1, e2]
  exact row_spec _ 29 (by decide) (by decide) _ _

theorem row_996 : IsRows (wfd m c) 996 (R m c main_v2025 : S1x1024.Idx → EReal) := by
  have e1 := (Stretch.writesFrom (F := Ideal)).read_unary 2025 (x := main_v1001) (y := main_v2025) rfl (fun _ => by decide) (fun b => m (c, b))
  have e2 := (Stretch.writesFrom (F := Ideal)).read_unary 1001 (x := main_v4) (y := main_v1001) rfl (fun _ => by decide) (fun b => m (c, b))
  unfold R
  rw [e1, e2]
  exact row_spec _ 28 (by decide) (by decide) _ _

theorem row_997 : IsRows (wfd m c) 997 (R m c main_v2026 : S1x1024.Idx → EReal) := by
  have e1 := (Stretch.writesFrom (F := Ideal)).read_unary 2026 (x := main_v1002) (y := main_v2026) rfl (fun _ => by decide) (fun b => m (c, b))
  have e2 := (Stretch.writesFrom (F := Ideal)).read_unary 1002 (x := main_v4) (y := main_v1002) rfl (fun _ => by decide) (fun b => m (c, b))
  unfold R
  rw [e1, e2]
  exact row_spec _ 27 (by decide) (by decide) _ _

theorem row_998 : IsRows (wfd m c) 998 (R m c main_v2027 : S1x1024.Idx → EReal) := by
  have e1 := (Stretch.writesFrom (F := Ideal)).read_unary 2027 (x := main_v1003) (y := main_v2027) rfl (fun _ => by decide) (fun b => m (c, b))
  have e2 := (Stretch.writesFrom (F := Ideal)).read_unary 1003 (x := main_v4) (y := main_v1003) rfl (fun _ => by decide) (fun b => m (c, b))
  unfold R
  rw [e1, e2]
  exact row_spec _ 26 (by decide) (by decide) _ _

theorem row_999 : IsRows (wfd m c) 999 (R m c main_v2028 : S1x1024.Idx → EReal) := by
  have e1 := (Stretch.writesFrom (F := Ideal)).read_unary 2028 (x := main_v1004) (y := main_v2028) rfl (fun _ => by decide) (fun b => m (c, b))
  have e2 := (Stretch.writesFrom (F := Ideal)).read_unary 1004 (x := main_v4) (y := main_v1004) rfl (fun _ => by decide) (fun b => m (c, b))
  unfold R
  rw [e1, e2]
  exact row_spec _ 25 (by decide) (by decide) _ _

theorem row_1000 : IsRows (wfd m c) 1000 (R m c main_v2029 : S1x1024.Idx → EReal) := by
  have e1 := (Stretch.writesFrom (F := Ideal)).read_unary 2029 (x := main_v1005) (y := main_v2029) rfl (fun _ => by decide) (fun b => m (c, b))
  have e2 := (Stretch.writesFrom (F := Ideal)).read_unary 1005 (x := main_v4) (y := main_v1005) rfl (fun _ => by decide) (fun b => m (c, b))
  unfold R
  rw [e1, e2]
  exact row_spec _ 24 (by decide) (by decide) _ _

theorem row_1001 : IsRows (wfd m c) 1001 (R m c main_v2030 : S1x1024.Idx → EReal) := by
  have e1 := (Stretch.writesFrom (F := Ideal)).read_unary 2030 (x := main_v1006) (y := main_v2030) rfl (fun _ => by decide) (fun b => m (c, b))
  have e2 := (Stretch.writesFrom (F := Ideal)).read_unary 1006 (x := main_v4) (y := main_v1006) rfl (fun _ => by decide) (fun b => m (c, b))
  unfold R
  rw [e1, e2]
  exact row_spec _ 23 (by decide) (by decide) _ _

theorem row_1002 : IsRows (wfd m c) 1002 (R m c main_v2031 : S1x1024.Idx → EReal) := by
  have e1 := (Stretch.writesFrom (F := Ideal)).read_unary 2031 (x := main_v1007) (y := main_v2031) rfl (fun _ => by decide) (fun b => m (c, b))
  have e2 := (Stretch.writesFrom (F := Ideal)).read_unary 1007 (x := main_v4) (y := main_v1007) rfl (fun _ => by decide) (fun b => m (c, b))
  unfold R
  rw [e1, e2]
  exact row_spec _ 22 (by decide) (by decide) _ _

theorem row_1003 : IsRows (wfd m c) 1003 (R m c main_v2032 : S1x1024.Idx → EReal) := by
  have e1 := (Stretch.writesFrom (F := Ideal)).read_unary 2032 (x := main_v1008) (y := main_v2032) rfl (fun _ => by decide) (fun b => m (c, b))
  have e2 := (Stretch.writesFrom (F := Ideal)).read_unary 1008 (x := main_v4) (y := main_v1008) rfl (fun _ => by decide) (fun b => m (c, b))
  unfold R
  rw [e1, e2]
  exact row_spec _ 21 (by decide) (by decide) _ _

theorem row_1004 : IsRows (wfd m c) 1004 (R m c main_v2033 : S1x1024.Idx → EReal) := by
  have e1 := (Stretch.writesFrom (F := Ideal)).read_unary 2033 (x := main_v1009) (y := main_v2033) rfl (fun _ => by decide) (fun b => m (c, b))
  have e2 := (Stretch.writesFrom (F := Ideal)).read_unary 1009 (x := main_v4) (y := main_v1009) rfl (fun _ => by decide) (fun b => m (c, b))
  unfold R
  rw [e1, e2]
  exact row_spec _ 20 (by decide) (by decide) _ _

theorem row_1005 : IsRows (wfd m c) 1005 (R m c main_v2034 : S1x1024.Idx → EReal) := by
  have e1 := (Stretch.writesFrom (F := Ideal)).read_unary 2034 (x := main_v1010) (y := main_v2034) rfl (fun _ => by decide) (fun b => m (c, b))
  have e2 := (Stretch.writesFrom (F := Ideal)).read_unary 1010 (x := main_v4) (y := main_v1010) rfl (fun _ => by decide) (fun b => m (c, b))
  unfold R
  rw [e1, e2]
  exact row_spec _ 19 (by decide) (by decide) _ _

theorem row_1006 : IsRows (wfd m c) 1006 (R m c main_v2035 : S1x1024.Idx → EReal) := by
  have e1 := (Stretch.writesFrom (F := Ideal)).read_unary 2035 (x := main_v1011) (y := main_v2035) rfl (fun _ => by decide) (fun b => m (c, b))
  have e2 := (Stretch.writesFrom (F := Ideal)).read_unary 1011 (x := main_v4) (y := main_v1011) rfl (fun _ => by decide) (fun b => m (c, b))
  unfold R
  rw [e1, e2]
  exact row_spec _ 18 (by decide) (by decide) _ _

theorem row_1007 : IsRows (wfd m c) 1007 (R m c main_v2036 : S1x1024.Idx → EReal) := by
  have e1 := (Stretch.writesFrom (F := Ideal)).read_unary 2036 (x := main_v1012) (y := main_v2036) rfl (fun _ => by decide) (fun b => m (c, b))
  have e2 := (Stretch.writesFrom (F := Ideal)).read_unary 1012 (x := main_v4) (y := main_v1012) rfl (fun _ => by decide) (fun b => m (c, b))
  unfold R
  rw [e1, e2]
  exact row_spec _ 17 (by decide) (by decide) _ _

theorem row_1008 : IsRows (wfd m c) 1008 (R m c main_v2037 : S1x1024.Idx → EReal) := by
  have e1 := (Stretch.writesFrom (F := Ideal)).read_unary 2037 (x := main_v1013) (y := main_v2037) rfl (fun _ => by decide) (fun b => m (c, b))
  have e2 := (Stretch.writesFrom (F := Ideal)).read_unary 1013 (x := main_v4) (y := main_v1013) rfl (fun _ => by decide) (fun b => m (c, b))
  unfold R
  rw [e1, e2]
  exact row_spec _ 16 (by decide) (by decide) _ _

theorem row_1009 : IsRows (wfd m c) 1009 (R m c main_v2038 : S1x1024.Idx → EReal) := by
  have e1 := (Stretch.writesFrom (F := Ideal)).read_unary 2038 (x := main_v1014) (y := main_v2038) rfl (fun _ => by decide) (fun b => m (c, b))
  have e2 := (Stretch.writesFrom (F := Ideal)).read_unary 1014 (x := main_v4) (y := main_v1014) rfl (fun _ => by decide) (fun b => m (c, b))
  unfold R
  rw [e1, e2]
  exact row_spec _ 15 (by decide) (by decide) _ _

theorem row_1010 : IsRows (wfd m c) 1010 (R m c main_v2039 : S1x1024.Idx → EReal) := by
  have e1 := (Stretch.writesFrom (F := Ideal)).read_unary 2039 (x := main_v1015) (y := main_v2039) rfl (fun _ => by decide) (fun b => m (c, b))
  have e2 := (Stretch.writesFrom (F := Ideal)).read_unary 1015 (x := main_v4) (y := main_v1015) rfl (fun _ => by decide) (fun b => m (c, b))
  unfold R
  rw [e1, e2]
  exact row_spec _ 14 (by decide) (by decide) _ _

theorem row_1011 : IsRows (wfd m c) 1011 (R m c main_v2040 : S1x1024.Idx → EReal) := by
  have e1 := (Stretch.writesFrom (F := Ideal)).read_unary 2040 (x := main_v1016) (y := main_v2040) rfl (fun _ => by decide) (fun b => m (c, b))
  have e2 := (Stretch.writesFrom (F := Ideal)).read_unary 1016 (x := main_v4) (y := main_v1016) rfl (fun _ => by decide) (fun b => m (c, b))
  unfold R
  rw [e1, e2]
  exact row_spec _ 13 (by decide) (by decide) _ _

theorem row_1012 : IsRows (wfd m c) 1012 (R m c main_v2041 : S1x1024.Idx → EReal) := by
  have e1 := (Stretch.writesFrom (F := Ideal)).read_unary 2041 (x := main_v1017) (y := main_v2041) rfl (fun _ => by decide) (fun b => m (c, b))
  have e2 := (Stretch.writesFrom (F := Ideal)).read_unary 1017 (x := main_v4) (y := main_v1017) rfl (fun _ => by decide) (fun b => m (c, b))
  unfold R
  rw [e1, e2]
  exact row_spec _ 12 (by decide) (by decide) _ _

theorem row_1013 : IsRows (wfd m c) 1013 (R m c main_v2042 : S1x1024.Idx → EReal) := by
  have e1 := (Stretch.writesFrom (F := Ideal)).read_unary 2042 (x := main_v1018) (y := main_v2042) rfl (fun _ => by decide) (fun b => m (c, b))
  have e2 := (Stretch.writesFrom (F := Ideal)).read_unary 1018 (x := main_v4) (y := main_v1018) rfl (fun _ => by decide) (fun b => m (c, b))
  unfold R
  rw [e1, e2]
  exact row_spec _ 11 (by decide) (by decide) _ _

theorem row_1014 : IsRows (wfd m c) 1014 (R m c main_v2043 : S1x1024.Idx → EReal) := by
  have e1 := (Stretch.writesFrom (F := Ideal)).read_unary 2043 (x := main_v1019) (y := main_v2043) rfl (fun _ => by decide) (fun b => m (c, b))
  have e2 := (Stretch.writesFrom (F := Ideal)).read_unary 1019 (x := main_v4) (y := main_v1019) rfl (fun _ => by decide) (fun b => m (c, b))
  unfold R
  rw [e1, e2]
  exact row_spec _ 10 (by decide) (by decide) _ _

theorem row_1015 : IsRows (wfd m c) 1015 (R m c main_v2044 : S1x1024.Idx → EReal) := by
  have e1 := (Stretch.writesFrom (F := Ideal)).read_unary 2044 (x := main_v1020) (y := main_v2044) rfl (fun _ => by decide) (fun b => m (c, b))
  have e2 := (Stretch.writesFrom (F := Ideal)).read_unary 1020 (x := main_v4) (y := main_v1020) rfl (fun _ => by decide) (fun b => m (c, b))
  unfold R
  rw [e1, e2]
  exact row_spec _ 9 (by decide) (by decide) _ _

theorem row_1016 : IsRows (wfd m c) 1016 (R m c main_v2045 : S1x1024.Idx → EReal) := by
  have e1 := (Stretch.writesFrom (F := Ideal)).read_unary 2045 (x := main_v1021) (y := main_v2045) rfl (fun _ => by decide) (fun b => m (c, b))
  have e2 := (Stretch.writesFrom (F := Ideal)).read_unary 1021 (x := main_v4) (y := main_v1021) rfl (fun _ => by decide) (fun b => m (c, b))
  unfold R
  rw [e1, e2]
  exact row_spec _ 8 (by decide) (by decide) _ _

theorem row_1017 : IsRows (wfd m c) 1017 (R m c main_v2046 : S1x1024.Idx → EReal) := by
  have e1 := (Stretch.writesFrom (F := Ideal)).read_unary 2046 (x := main_v1022) (y := main_v2046) rfl (fun _ => by decide) (fun b => m (c, b))
  have e2 := (Stretch.writesFrom (F := Ideal)).read_unary 1022 (x := main_v4) (y := main_v1022) rfl (fun _ => by decide) (fun b => m (c, b))
  unfold R
  rw [e1, e2]
  exact row_spec _ 7 (by decide) (by decide) _ _

theorem row_1018 : IsRows (wfd m c) 1018 (R m c main_v2047 : S1x1024.Idx → EReal) := by
  have e1 := (Stretch.writesFrom (F := Ideal)).read_unary 2047 (x := main_v1023) (y := main_v2047) rfl (fun _ => by decide) (fun b => m (c, b))
  have e2 := (Stretch.writesFrom (F := Ideal)).read_unary 1023 (x := main_v4) (y := main_v1023) rfl (fun _ => by decide) (fun b => m (c, b))
  unfold R
  rw [e1, e2]
  exact row_spec _ 6 (by decide) (by decide) _ _

theorem row_1019 : IsRows (wfd m c) 1019 (R m c main_v2048 : S1x1024.Idx → EReal) := by
  have e1 := (Stretch.writesFrom (F := Ideal)).read_unary 2048 (x := main_v1024) (y := main_v2048) rfl (fun _ => by decide) (fun b => m (c, b))
  have e2 := (Stretch.writesFrom (F := Ideal)).read_unary 1024 (x := main_v4) (y := main_v1024) rfl (fun _ => by decide) (fun b => m (c, b))
  unfold R
  rw [e1, e2]
  exact row_spec _ 5 (by decide) (by decide) _ _

theorem row_1020 : IsRows (wfd m c) 1020 (R m c main_v2049 : S1x1024.Idx → EReal) := by
  have e1 := (Stretch.writesFrom (F := Ideal)).read_unary 2049 (x := main_v1025) (y := main_v2049) rfl (fun _ => by decide) (fun b => m (c, b))
  have e2 := (Stretch.writesFrom (F := Ideal)).read_unary 1025 (x := main_v4) (y := main_v1025) rfl (fun _ => by decide) (fun b => m (c, b))
  unfold R
  rw [e1, e2]
  exact row_spec _ 4 (by decide) (by decide) _ _

theorem row_1021 : IsRows (wfd m c) 1021 (R m c main_v2050 : S1x1024.Idx → EReal) := by
  have e1 := (Stretch.writesFrom (F := Ideal)).read_unary 2050 (x := main_v1026) (y := main_v2050) rfl (fun _ => by decide) (fun b => m (c, b))
  have e2 := (Stretch.writesFrom (F := Ideal)).read_unary 1026 (x := main_v4) (y := main_v1026) rfl (fun _ => by decide) (fun b => m (c, b))
  unfold R
  rw [e1, e2]
  exact row_spec _ 3 (by decide) (by decide) _ _

theorem row_1022 : IsRows (wfd m c) 1022 (R m c main_v2051 : S1x1024.Idx → EReal) := by
  have e1 := (Stretch.writesFrom (F := Ideal)).read_unary 2051 (x := main_v1027) (y := main_v2051) rfl (fun _ => by decide) (fun b => m (c, b))
  have e2 := (Stretch.writesFrom (F := Ideal)).read_unary 1027 (x := main_v4) (y := main_v1027) rfl (fun _ => by decide) (fun b => m (c, b))
  unfold R
  rw [e1, e2]
  exact row_spec _ 2 (by decide) (by decide) _ _

theorem row_1023 : IsRows (wfd m c) 1023 (R m c main_v2052 : S1x1024.Idx → EReal) := by
  have e1 := (Stretch.writesFrom (F := Ideal)).read_unary 2052 (x := main_v1028) (y := main_v2052) rfl (fun _ => by decide) (fun b => m (c, b))
  have e2 := (Stretch.writesFrom (F := Ideal)).read_unary 1028 (x := main_v4) (y := main_v1028) rfl (fun _ => by decide) (fun b => m (c, b))
  unfold R
  rw [e1, e2]
  exact row_spec _ 1 (by decide) (by decide) _ _

end Cert.KernelIdeal.Circ

end
-- ==== Proof.CircBlock3.lean ====
/-
  Rows 768 to 1023 of the circulant, stacked: sixteen stacks of sixteen rows, then those sixteen blocks stacked.
  Each stack is read off its own concatenation of the host stretch; the rows (or blocks) stacked are consecutive rows of
  the matrix whose every row is the one above shifted one place to the right, so the stack is too.
-/
import proofs.«163274_j17575006175271_2_alg».proof.Proof.CircRows6
import proofs.«163274_j17575006175271_2_alg».proof.Proof.CircRows7
import proofs.«163274_j17575006175271_2_alg».proof.Proof.LibRowStackArgs

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem c1_48 : IsRows (wfd m c) 768 (R m c main_v2101 : S16x1024.Idx → EReal) := by
  have e := (Stretch.writesFrom (F := Ideal)).read_nary 2101 (y := main_v2101) rfl (by decide) (fun b => m (c, b))
  unfold R
  rw [e]
  exact stack16_rows (wfd m c) 768 _ _ _ _ _ _ _ _ _ _ _ _ _ _ _ _ _
    (row_768 m c) (row_769 m c) (row_770 m c) (row_771 m c) (row_772 m c) (row_773 m c) (row_774 m c) (row_775 m c) (row_776 m c) (row_777 m c) (row_778 m c) (row_779 m c) (row_780 m c) (row_781 m c) (row_782 m c) (row_783 m c)

theorem c1_49 : IsRows (wfd m c) 784 (R m c main_v2102 : S16x1024.Idx → EReal) := by
  have e := (Stretch.writesFrom (F := Ideal)).read_nary 2102 (y := main_v2102) rfl (by decide) (fun b => m (c, b))
  unfold R
  rw [e]
  exact stack16_rows (wfd m c) 784 _ _ _ _ _ _ _ _ _ _ _ _ _ _ _ _ _
    (row_784 m c) (row_785 m c) (row_786 m c) (row_787 m c) (row_788 m c) (row_789 m c) (row_790 m c) (row_791 m c) (row_792 m c) (row_793 m c) (row_794 m c) (row_795 m c) (row_796 m c) (row_797 m c) (row_798 m c) (row_799 m c)

theorem c1_50 : IsRows (wfd m c) 800 (R m c main_v2103 : S16x1024.Idx → EReal) := by
  have e := (Stretch.writesFrom (F := Ideal)).read_nary 2103 (y := main_v2103) rfl (by decide) (fun b => m (c, b))
  unfold R
  rw [e]
  exact stack16_rows (wfd m c) 800 _ _ _ _ _ _ _ _ _ _ _ _ _ _ _ _ _
    (row_800 m c) (row_801 m c) (row_802 m c) (row_803 m c) (row_804 m c) (row_805 m c) (row_806 m c) (row_807 m c) (row_808 m c) (row_809 m c) (row_810 m c) (row_811 m c) (row_812 m c) (row_813 m c) (row_814 m c) (row_815 m c)

theorem c1_51 : IsRows (wfd m c) 816 (R m c main_v2104 : S16x1024.Idx → EReal) := by
  have e := (Stretch.writesFrom (F := Ideal)).read_nary 2104 (y := main_v2104) rfl (by decide) (fun b => m (c, b))
  unfold R
  rw [e]
  exact stack16_rows (wfd m c) 816 _ _ _ _ _ _ _ _ _ _ _ _ _ _ _ _ _
    (row_816 m c) (row_817 m c) (row_818 m c) (row_819 m c) (row_820 m c) (row_821 m c) (row_822 m c) (row_823 m c) (row_824 m c) (row_825 m c) (row_826 m c) (row_827 m c) (row_828 m c) (row_829 m c) (row_830 m c) (row_831 m c)

theorem c1_52 : IsRows (wfd m c) 832 (R m c main_v2105 : S16x1024.Idx → EReal) := by
  have e := (Stretch.writesFrom (F := Ideal)).read_nary 2105 (y := main_v2105) rfl (by decide) (fun b => m (c, b))
  unfold R
  rw [e]
  exact stack16_rows (wfd m c) 832 _ _ _ _ _ _ _ _ _ _ _ _ _ _ _ _ _
    (row_832 m c) (row_833 m c) (row_834 m c) (row_835 m c) (row_836 m c) (row_837 m c) (row_838 m c) (row_839 m c) (row_840 m c) (row_841 m c) (row_842 m c) (row_843 m c) (row_844 m c) (row_845 m c) (row_846 m c) (row_847 m c)

theorem c1_53 : IsRows (wfd m c) 848 (R m c main_v2106 : S16x1024.Idx → EReal) := by
  have e := (Stretch.writesFrom (F := Ideal)).read_nary 2106 (y := main_v2106) rfl (by decide) (fun b => m (c, b))
  unfold R
  rw [e]
  exact stack16_rows (wfd m c) 848 _ _ _ _ _ _ _ _ _ _ _ _ _ _ _ _ _
    (row_848 m c) (row_849 m c) (row_850 m c) (row_851 m c) (row_852 m c) (row_853 m c) (row_854 m c) (row_855 m c) (row_856 m c) (row_857 m c) (row_858 m c) (row_859 m c) (row_860 m c) (row_861 m c) (row_862 m c) (row_863 m c)

theorem c1_54 : IsRows (wfd m c) 864 (R m c main_v2107 : S16x1024.Idx → EReal) := by
  have e := (Stretch.writesFrom (F := Ideal)).read_nary 2107 (y := main_v2107) rfl (by decide) (fun b => m (c, b))
  unfold R
  rw [e]
  exact stack16_rows (wfd m c) 864 _ _ _ _ _ _ _ _ _ _ _ _ _ _ _ _ _
    (row_864 m c) (row_865 m c) (row_866 m c) (row_867 m c) (row_868 m c) (row_869 m c) (row_870 m c) (row_871 m c) (row_872 m c) (row_873 m c) (row_874 m c) (row_875 m c) (row_876 m c) (row_877 m c) (row_878 m c) (row_879 m c)

theorem c1_55 : IsRows (wfd m c) 880 (R m c main_v2108 : S16x1024.Idx → EReal) := by
  have e := (Stretch.writesFrom (F := Ideal)).read_nary 2108 (y := main_v2108) rfl (by decide) (fun b => m (c, b))
  unfold R
  rw [e]
  exact stack16_rows (wfd m c) 880 _ _ _ _ _ _ _ _ _ _ _ _ _ _ _ _ _
    (row_880 m c) (row_881 m c) (row_882 m c) (row_883 m c) (row_884 m c) (row_885 m c) (row_886 m c) (row_887 m c) (row_888 m c) (row_889 m c) (row_890 m c) (row_891 m c) (row_892 m c) (row_893 m c) (row_894 m c) (row_895 m c)

theorem c1_56 : IsRows (wfd m c) 896 (R m c main_v2109 : S16x1024.Idx → EReal) := by
  have e := (Stretch.writesFrom (F := Ideal)).read_nary 2109 (y := main_v2109) rfl (by decide) (fun b => m (c, b))
  unfold R
  rw [e]
  exact stack16_rows (wfd m c) 896 _ _ _ _ _ _ _ _ _ _ _ _ _ _ _ _ _
    (row_896 m c) (row_897 m c) (row_898 m c) (row_899 m c) (row_900 m c) (row_901 m c) (row_902 m c) (row_903 m c) (row_904 m c) (row_905 m c) (row_906 m c) (row_907 m c) (row_908 m c) (row_909 m c) (row_910 m c) (row_911 m c)

theorem c1_57 : IsRows (wfd m c) 912 (R m c main_v2110 : S16x1024.Idx → EReal) := by
  have e := (Stretch.writesFrom (F := Ideal)).read_nary 2110 (y := main_v2110) rfl (by decide) (fun b => m (c, b))
  unfold R
  rw [e]
  exact stack16_rows (wfd m c) 912 _ _ _ _ _ _ _ _ _ _ _ _ _ _ _ _ _
    (row_912 m c) (row_913 m c) (row_914 m c) (row_915 m c) (row_916 m c) (row_917 m c) (row_918 m c) (row_919 m c) (row_920 m c) (row_921 m c) (row_922 m c) (row_923 m c) (row_924 m c) (row_925 m c) (row_926 m c) (row_927 m c)

theorem c1_58 : IsRows (wfd m c) 928 (R m c main_v2111 : S16x1024.Idx → EReal) := by
  have e := (Stretch.writesFrom (F := Ideal)).read_nary 2111 (y := main_v2111) rfl (by decide) (fun b => m (c, b))
  unfold R
  rw [e]
  exact stack16_rows (wfd m c) 928 _ _ _ _ _ _ _ _ _ _ _ _ _ _ _ _ _
    (row_928 m c) (row_929 m c) (row_930 m c) (row_931 m c) (row_932 m c) (row_933 m c) (row_934 m c) (row_935 m c) (row_936 m c) (row_937 m c) (row_938 m c) (row_939 m c) (row_940 m c) (row_941 m c) (row_942 m c) (row_943 m c)

theorem c1_59 : IsRows (wfd m c) 944 (R m c main_v2112 : S16x1024.Idx → EReal) := by
  have e := (Stretch.writesFrom (F := Ideal)).read_nary 2112 (y := main_v2112) rfl (by decide) (fun b => m (c, b))
  unfold R
  rw [e]
  exact stack16_rows (wfd m c) 944 _ _ _ _ _ _ _ _ _ _ _ _ _ _ _ _ _
    (row_944 m c) (row_945 m c) (row_946 m c) (row_947 m c) (row_948 m c) (row_949 m c) (row_950 m c) (row_951 m c) (row_952 m c) (row_953 m c) (row_954 m c) (row_955 m c) (row_956 m c) (row_957 m c) (row_958 m c) (row_959 m c)

theorem c1_60 : IsRows (wfd m c) 960 (R m c main_v2113 : S16x1024.Idx → EReal) := by
  have e := (Stretch.writesFrom (F := Ideal)).read_nary 2113 (y := main_v2113) rfl (by decide) (fun b => m (c, b))
  unfold R
  rw [e]
  exact stack16_rows (wfd m c) 960 _ _ _ _ _ _ _ _ _ _ _ _ _ _ _ _ _
    (row_960 m c) (row_961 m c) (row_962 m c) (row_963 m c) (row_964 m c) (row_965 m c) (row_966 m c) (row_967 m c) (row_968 m c) (row_969 m c) (row_970 m c) (row_971 m c) (row_972 m c) (row_973 m c) (row_974 m c) (row_975 m c)

theorem c1_61 : IsRows (wfd m c) 976 (R m c main_v2114 : S16x1024.Idx → EReal) := by
  have e := (Stretch.writesFrom (F := Ideal)).read_nary 2114 (y := main_v2114) rfl (by decide) (fun b => m (c, b))
  unfold R
  rw [e]
  exact stack16_rows (wfd m c) 976 _ _ _ _ _ _ _ _ _ _ _ _ _ _ _ _ _
    (row_976 m c) (row_977 m c) (row_978 m c) (row_979 m c) (row_980 m c) (row_981 m c) (row_982 m c) (row_983 m c) (row_984 m c) (row_985 m c) (row_986 m c) (row_987 m c) (row_988 m c) (row_989 m c) (row_990 m c) (row_991 m c)

theorem c1_62 : IsRows (wfd m c) 992 (R m c main_v2115 : S16x1024.Idx → EReal) := by
  have e := (Stretch.writesFrom (F := Ideal)).read_nary 2115 (y := main_v2115) rfl (by decide) (fun b => m (c, b))
  unfold R
  rw [e]
  exact stack16_rows (wfd m c) 992 _ _ _ _ _ _ _ _ _ _ _ _ _ _ _ _ _
    (row_992 m c) (row_993 m c) (row_994 m c) (row_995 m c) (row_996 m c) (row_997 m c) (row_998 m c) (row_999 m c) (row_1000 m c) (row_1001 m c) (row_1002 m c) (row_1003 m c) (row_1004 m c) (row_1005 m c) (row_1006 m c) (row_1007 m c)

theorem c1_63 : IsRows (wfd m c) 1008 (R m c main_v2116 : S16x1024.Idx → EReal) := by
  have e := (Stretch.writesFrom (F := Ideal)).read_nary 2116 (y := main_v2116) rfl (by decide) (fun b => m (c, b))
  unfold R
  rw [e]
  exact stack16_rows (wfd m c) 1008 _ _ _ _ _ _ _ _ _ _ _ _ _ _ _ _ _
    (row_1008 m c) (row_1009 m c) (row_1010 m c) (row_1011 m c) (row_1012 m c) (row_1013 m c) (row_1014 m c) (row_1015 m c) (row_1016 m c) (row_1017 m c) (row_1018 m c) (row_1019 m c) (row_1020 m c) (row_1021 m c) (row_1022 m c) (row_1023 m c)

theorem c2_3 : IsRows (wfd m c) 768 (R m c main_v2120 : S256x1024.Idx → EReal) := by
  have e := (Stretch.writesFrom (F := Ideal)).read_nary 2120 (y := main_v2120) rfl (by decide) (fun b => m (c, b))
  unfold R
  rw [e]
  exact stack16_blocks (wfd m c) 768 _ _ _ _ _ _ _ _ _ _ _ _ _ _ _ _ _
    (c1_48 m c) (c1_49 m c) (c1_50 m c) (c1_51 m c) (c1_52 m c) (c1_53 m c) (c1_54 m c) (c1_55 m c) (c1_56 m c) (c1_57 m c) (c1_58 m c) (c1_59 m c) (c1_60 m c) (c1_61 m c) (c1_62 m c) (c1_63 m c)

end Cert.KernelIdeal.Circ

end
-- ==== Proof.CircDoubled.lean ====
/-
  The doubled vector. The stretch's first five operations form `wf = [w 0] ++ reverse (w 1 … w 1023)`, so
  `wf k = w ((1024 - k) mod 1024)`, and `wfd = wf ++ wf`; hence `wfd n = w ((2048 - n) mod 1024)` for `n < 2048`.
-/
import proofs.«163274_j17575006175271_2_alg».proof.Proof.CircBase

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

/-- The weight vector is as launched when the kernel starts. -/
theorem kept_w : (R m c main_arg1 : S1024.Idx → EReal) = m ((c : Thread nD τ).loc main_arg1) :=
  (Stretch.writesFrom (F := Ideal)).after_kept main_arg1 (fun _ => by decide) _

/-- `wf k = w ((1024 - k) mod 1024)`. -/
theorem wf_apply (k : Fin 1024) :
    (R m c main_v3 : S1024.Idx → EReal) (ix1 k)
      = (m ((c : Thread nD τ).loc main_arg1) : S1024.Idx → EReal) (ix1 ⟨(1024 - k.val) % 1024, Nat.mod_lt _ (by decide)⟩) := by
  have e3 := (Stretch.writesFrom (F := Ideal)).read_binary 3 (a := main_v0) (b := main_v2) (y := main_v3) rfl (fun _ => by decide) (fun _ => by decide) (fun b => m (c, b))
  have e2 := (Stretch.writesFrom (F := Ideal)).read_unary 2 (x := main_v1) (y := main_v2) rfl (fun _ => by decide) (fun b => m (c, b))
  have e1 := (Stretch.writesFrom (F := Ideal)).read_unary 1 (x := main_arg1) (y := main_v1) rfl (fun _ => by decide) (fun b => m (c, b))
  have e0 := (Stretch.writesFrom (F := Ideal)).read_unary 0 (x := main_arg1) (y := main_v0) rfl (fun _ => by decide) (fun b => m (c, b))
  have ek := kept_w m c
  unfold R at ek ⊢
  rw [e3]
  by_cases hk : k.val = 0
  · -- the first entry: the one-entry piece
    refine (concatenate_pair_apply_left (t := S1024) (s₁ := S1) (s₂ := S1023) 0 _ _ _ (ix1 k) rfl (ix1 (0 : Fin 1))
      (fun b => by match b with | ⟨0, _⟩ => exact hk.symm)).trans ?_
    rw [e0]
    refine (extractStridedSlice_apply ![0] _ _ (ix1 (0 : Fin 1)) (ix1 (0 : Fin 1024)) (fun a => by match a with | ⟨0, _⟩ => rfl)).trans ?_
    rw [ek]
    exact congrArg _ (congrArg ix1 (Fin.ext (by simp [hk])))
  · -- a later entry: the reversed piece
    have hk1 : k.val - 1 < 1023 := by have := k.isLt; omega
    refine (concatenate_pair_apply_right (t := S1024) (s₁ := S1) (s₂ := S1023) 0 _ _ _ (ix1 k) rfl rfl (ix1 (⟨k.val - 1, hk1⟩ : Fin 1023))
      (fun b hb => by match b with | ⟨0, _⟩ => exact absurd rfl hb)
      (by show k.val - 1 + 1 = k.val; omega)).trans ?_
    rw [e2]
    have hrev : (1023 - (k.val - 1 + 1)) < 1023 := by omega
    have : Host.reverse (s := S1023) [0] (StableHlo.after (hostOps0 (F := Ideal)) (fun b => m (c, b)) (Proc.devRef .tc main_v1) : S1023.Idx → EReal) (ix1 (⟨k.val - 1, hk1⟩ : Fin 1023))
        = (StableHlo.after (hostOps0 (F := Ideal)) (fun b => m (c, b)) (Proc.devRef .tc main_v1) : S1023.Idx → EReal) (ix1 (⟨1023 - (k.val - 1 + 1), hrev⟩ : Fin 1023)) := by
      unfold Host.reverse
      refine congrArg _ (funext fun a => ?_)
      match a with
      | ⟨0, _⟩ => exact Fin.ext (by simp [Fin.val_rev])
    refine this.trans ?_
    rw [e1]
    have hlt : 1 + (1023 - (k.val - 1 + 1)) < 1024 := by omega
    refine (extractStridedSlice_apply ![1] _ _ (ix1 (⟨1023 - (k.val - 1 + 1), hrev⟩ : Fin 1023)) (ix1 (⟨1 + (1023 - (k.val - 1 + 1)), hlt⟩ : Fin 1024))
      (fun a => by match a with | ⟨0, _⟩ => rfl)).trans ?_
    rw [ek]
    refine congrArg _ (congrArg ix1 (Fin.ext ?_))
    show 1 + (1023 - (k.val - 1 + 1)) = (1024 - k.val) % 1024
    have := k.isLt
    rw [Nat.mod_eq_of_lt (by omega)]
    omega

/-- `wfd n = w ((2048 - n) mod 1024)` for `n < 2048`. -/
theorem doubled_apply (n : Nat) (hn : n < 2048) :
    wfd m c n = (m ((c : Thread nD τ).loc main_arg1) : S1024.Idx → EReal) (ix1 ⟨(2048 - n) % 1024, Nat.mod_lt _ (by decide)⟩) := by
  have e4 := (Stretch.writesFrom (F := Ideal)).read_binary 4 (a := main_v3) (b := main_v3) (y := main_v4) rfl (fun _ => by decide) (fun _ => by decide) (fun b => m (c, b))
  unfold wfd
  rw [gOf_of_lt _ n hn]
  have hR3 := wf_apply m c
  unfold R at hR3 ⊢
  rw [e4]
  by_cases h : n < 1024
  · refine (concatenate_pair_apply_left (t := S2048) (s₁ := S1024) (s₂ := S1024) 0 _ _ _ (ix1 (⟨n, hn⟩ : Fin 2048)) rfl (ix1 (⟨n, h⟩ : Fin 1024))
      (fun b => by match b with | ⟨0, _⟩ => rfl)).trans ?_
    rw [hR3 ⟨n, h⟩]
    refine congrArg _ (congrArg ix1 (Fin.ext ?_))
    show (1024 - n) % 1024 = (2048 - n) % 1024
    omega
  · have h' : n - 1024 < 1024 := by omega
    refine (concatenate_pair_apply_right (t := S2048) (s₁ := S1024) (s₂ := S1024) 0 _ _ _ (ix1 (⟨n, hn⟩ : Fin 2048)) rfl rfl (ix1 (⟨n - 1024, h'⟩ : Fin 1024))
      (fun b hb => by match b with | ⟨0, _⟩ => exact absurd rfl hb)
      (by show n - 1024 + 1024 = n; omega)).trans ?_
    rw [hR3 ⟨n - 1024, h'⟩]
    refine congrArg _ (congrArg ix1 (Fin.ext ?_))
    show (1024 - (n - 1024)) % 1024 = (2048 - n) % 1024
    omega

end Cert.KernelIdeal.Circ

end
-- ==== Proof.CircFinal.lean ====
/-
  The matrix the kernel multiplies by. The four blocks of 256 rows stacked are all 1024 rows of
  `M r i = wfd (1024 + i - r)`; with `wfd n = w ((2048 - n) mod 1024)` this is `M j i = w ((j - i) mod 1024)`, the
  circulant matrix transposed; the last operation only changes the number format, which is the identity on the reals.
-/
import proofs.«163274_j17575006175271_2_alg».proof.Proof.CircBlock0
import proofs.«163274_j17575006175271_2_alg».proof.Proof.CircBlock1
import proofs.«163274_j17575006175271_2_alg».proof.Proof.CircBlock2
import proofs.«163274_j17575006175271_2_alg».proof.Proof.CircBlock3
import proofs.«163274_j17575006175271_2_alg».proof.Proof.CircDoubled
import proofs.«163274_j17575006175271_2_alg».proof.Proof.Spec

set_option maxRecDepth 100000
set_option maxHeartbeats 4000000

noncomputable section

namespace Cert.KernelIdeal.Circ

open Idealize.ShloMosaic Idealize.ShloMosaic.TcCoe Idealize.ShloMosaic.StableHlo Idealize.ShloMosaic.ValueIdx Idealize.ShloMosaic.RowStack
open Idealize.SL.Sem Cert.KernelIdeal Cert.KernelIdeal.Gen

variable (m : (ℓ : Loc nD τ sig) → Buf (Elt Ideal) ℓ) (c : Dev nD)

theorem c3 : IsRows (wfd m c) 0 (R m c main_v2121 : S1024x1024.Idx → EReal) := by
  have e := (Stretch.writesFrom (F := Ideal)).read_nary 2121 (y := main_v2121) rfl (by decide) (fun b => m (c, b))
  unfold R
  rw [e]
  exact stack4_blocks (wfd m c) 0 _ _ _ _ _ (c2_0 m c) (c2_1 m c) (c2_2 m c) (c2_3 m c)

/-- The matrix operand of the kernel, when the kernel starts, is the transposed circulant matrix of the launched `w`. -/
theorem circT_eq :
    (R m c main_v2122 : S1024x1024.Idx → EReal) = Cert.Spec.circT (m ((c : Thread nD τ).loc main_arg1)) := by
  have e := (Stretch.writesFrom (F := Ideal)).read_unary 2122 (x := main_v2121) (y := main_v2122) rfl (fun _ => by decide) (fun b => m (c, b))
  funext p
  obtain ⟨j, i, rfl⟩ : ∃ (j : Fin 1024) (i : Fin 1024), p = ix2 j i := ⟨p 0, p 1, eq_ix2 p⟩
  have h3 := c3 m c j i
  have hj := j.isLt
  have hi := i.isLt
  unfold R at h3 ⊢
  rw [e]
  refine (show _ = (StableHlo.after (hostOps0 (F := Ideal)) (fun b => m (c, b)) (Proc.devRef .tc main_v2121) : S1024x1024.Idx → EReal) (ix2 j i) from rfl).trans ?_
  rw [h3, doubled_apply m c _ (by omega)]
  unfold Cert.Spec.circT
  refine congrArg _ (congrArg ix1 (Fin.ext ?_))
  show (2048 - (1024 + i.val - (0 + j.val))) % 1024 = (j.val + 1024 - i.val) % 1024
  congr 1
  omega

end Cert.KernelIdeal.Circ

end
-- ==== Proof.lean ====
/-
  The claim of this certificate, assembled from the modules beside this one.

  WHAT THE TWO PROGRAMS COMPUTE. For a weight vector w of length 1024 the circulant matrix is C i j = w ((j − i) mod 1024).
  Both programs take x (65536 rows of 1024 entries) and w and return, entry by entry,
      mm · x + mm + x,      mm b i = Σ_j x[b, j] · C i j = Σ_j x[b, j] · w ((j − i) mod 1024)
  (Spec.lean: cyc, circT, mm and the common result G).

  The reference computes the index (j − i) mod 1024 itself, on 32-bit words — the difference of a column counter and a
  row counter, its truncated remainder by 1024, and the correction of the remainder's sign —, gathers w at it, which
  gives C, contracts x with C along the columns, and forms the expression.

  The kernel's program never computes an index. Its host stretch builds the transposed matrix Bt j i = C i j row by row out
  of w alone: it forms wf = [w 0] ++ reverse (w 1 … w 1023), that is wf k = w ((−k) mod 1024), and doubles it,
  wfd = wf ++ wf, so that wfd n = w ((2048 − n) mod 1024); row j of Bt is the window of wfd of length 1024 at offset
  1024 − j, since wfd (1024 + i − j) = w ((j − i) mod 1024) — every row is the row above it shifted one place to the
  right. The 1024 rows are stacked sixteen at a time, the sixty-four stacks sixteen at a time into four blocks of 256
  rows, and the four blocks into the matrix, whose number format is then changed, which is the identity on the extended
  reals. One gridded region of 32 points takes 2048 rows of x at a time, multiplies them by Bt, and stores
  p · x + p + x, with p the product.

  WHY THE TWO RESULTS ARE EQUAL. Over the extended reals mm b i is a finite sum in a commutative monoid, so neither the
  order of its terms nor their grouping matters, and the sum over the contracted axis of the kernel's block product is
  the reference's sum term by term: the same index set, the same two factors in each term. Both results are then the
  same expression mm · x + mm + x in the same entries. Nothing in this asks the inputs to be finite: every conjunct below
  discards the precondition.

  WHICH MODULE PROVES WHICH PART.
  · Spec.lean: the common result G over plain index sets.
  · RefRun.lean: the reference. Its two outlined functions are unfolded into one straight line of 42 operations, which
    runs to the end; the index words are the cyclic differences (the one piece of integer arithmetic); the gather and
    the contraction are read at an index; so the result buffer ends at G of the launched arguments and the arguments
    end unchanged. The reference's frame is that run with the result dropped.
  · LibHostStretch.lean, KernelStretch.lean, KernelIdealStretch.lean: the host stretch before the region is in
    single-assignment form (its k-th operation writes exactly the value of index k + 2), so every value is read off
    its own operation and the two arguments are as launched when the region starts.
  · KernelFrame.lean, KernelIdealFrame.lean: the frame of the kernel's program, at the machine's words and at the
    extended reals — the stretch, then the region's run, in which each point's one store covers its output block and
    the input windows are only read.
  · CircBase.lean, CircDoubled.lean, CircRows0.lean … CircRows7.lean, CircBlock0.lean … CircBlock3.lean,
    CircFinal.lean, over LibRowStack.lean and LibRowStackArgs.lean: the doubled vector, each row as its window, the
    stacks; the matrix the region finds is the transposed circulant matrix of the launched w.
  · Body.lean, Blocks.lean: the body's entry is p · x + p + x with p the block product's sum; with the matrix the
    transposed circulant one, point t writes block t of G, and the 32 blocks cover the array, so the result buffer ends
    at G of the launched arguments.
  Below, the five conjuncts from those: the three frames; the idealization rewrote nothing, so its conjunct is trivial;
  and the two runs end at the same G, the reference's memory agreeing with the kernel's on the arguments.
-/
import proofs.«163274_j17575006175271_2_alg».proof.Defs
import proofs.«163274_j17575006175271_2_alg».proof.Proof.Gen.Kernel
import proofs.«163274_j17575006175271_2_alg».proof.Proof.Gen.KernelIdeal
import proofs.«163274_j17575006175271_2_alg».proof.Proof.Gen.ReferenceIdeal
import proofs.«163274_j17575006175271_2_alg».proof.Proof.Gen.Pre_finite_inputs
import proofs.«163274_j17575006175271_2_alg».proof.Proof.KernelFrame
import proofs.«163274_j17575006175271_2_alg».proof.Proof.KernelIdealFrame
import proofs.«163274_j17575006175271_2_alg».proof.Proof.RefRun
import proofs.«163274_j17575006175271_2_alg».proof.Proof.Blocks
import proofs.«163274_j17575006175271_2_alg».proof.Proof.CircFinal

noncomputable section

namespace Cert.Proof

open Idealize.ShloMosaic Idealize.SL.Sem

/-- The kernel's program, at the machine's words, runs to the end and leaves its arguments unchanged. -/
theorem frame_Kernel :
    Cert.frame_Kernel (hKernel := Cert.Kernel.Gen.facts) (hPre_finite_inputs := Cert.Pre_finite_inputs.Gen.facts) :=
  fun m g _ => Cert.Kernel.Hand.frame (F := Bits) m g

/-- The same program at the extended reals. -/
theorem frame_KernelIdeal :
    Cert.frame_KernelIdeal (hKernelIdeal := Cert.KernelIdeal.Gen.facts) (hPre_finite_inputs := Cert.Pre_finite_inputs.Gen.facts) :=
  fun m g _ => Cert.KernelIdeal.Hand.frame (F := Ideal) m g

/-- The reference: its run with the result dropped. -/
theorem frame_ReferenceIdeal :
    Cert.frame_ReferenceIdeal (hReferenceIdeal := Cert.ReferenceIdeal.Gen.facts) (hPre_finite_inputs := Cert.Pre_finite_inputs.Gen.facts) :=
  fun m g _ => (θ_run _ _ _).mono (fun _ h c => (h c).2) (Cert.ReferenceIdeal.RefValue.run m g)

/-- Both programs end at G of the kernel's launched arguments: the kernel's because the matrix its region finds is the
    transposed circulant matrix of w, the reference's because its memory agrees with the kernel's on x and w. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  fun m g m' g' _ hag =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.BlockValue.run m g (fun c => Cert.KernelIdeal.Circ.circT_eq m c),
      (θ_run _ _ _).mono (fun _ h c => ⟨(h c).1.trans (by rw [(hag c).1, (hag c).2]), (h c).2⟩)
        (Cert.ReferenceIdeal.RefValue.run m' g')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
